-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S4x64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S4x64x64 .f32) (main_arg4 : FVec F S4x64 .f32) (main_arg5 : FVec F S4x64 .f32) (main_arg6 : FVec F S4x64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S1x64 : Shape := ⟨2, ![1, 64]⟩
abbrev S5000x64 : Shape := ⟨2, ![5000, 64]⟩
abbrev S800000x64 : Shape := ⟨2, ![800000, 64]⟩
abbrev S50000x1 : Shape := ⟨2, ![50000, 1]⟩
abbrev S1024x64 : Shape := ⟨2, ![1024, 64]⟩
abbrev S1x1 : Shape := ⟨2, ![1, 1]⟩
abbrev S1024x1 : Shape := ⟨2, ![1024, 1]⟩

abbrev nBuf : Space → Nat
  | .hbm => 259
  | .vmem => 88
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x64x64, .f32⟩
  | 4 => ⟨S4x64, .f32⟩
  | 5 => ⟨S4x64, .f32⟩
  | 6 => ⟨S4x64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S1x64, .f32⟩
  | 53 => ⟨S64, .f32⟩
  | 54 => ⟨S1x64, .f32⟩
  | 55 => ⟨S1x64, .f32⟩
  | 56 => ⟨S64, .f32⟩
  | 57 => ⟨S1x64, .f32⟩
  | 58 => ⟨S50000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x1, .f32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x1, .f32⟩
  | 76 => ⟨S50000x64, .f32⟩
  | 77 => ⟨S50000x64, .f32⟩
  | 78 => ⟨S50000x64, .f32⟩
  | 79 => ⟨S50000x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S1x64, .f32⟩
  | 97 => ⟨S50000x64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1x64, .f32⟩
  | 104 => ⟨S64, .f32⟩
  | 105 => ⟨S1x64, .f32⟩
  | 106 => ⟨S1x64, .f32⟩
  | 107 => ⟨S64, .f32⟩
  | 108 => ⟨S1x64, .f32⟩
  | 109 => ⟨S50000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x1, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x64, .f32⟩
  | 17 => ⟨S1x64, .f32⟩
  | 18 => ⟨S1x64, .f32⟩
  | 19 => ⟨S1x64, .f32⟩
  | 20 => ⟨S50000x64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S1x64, .f32⟩
  | 27 => ⟨S64, .f32⟩
  | 28 => ⟨S1x64, .f32⟩
  | 29 => ⟨S1x64, .f32⟩
  | 30 => ⟨S64, .f32⟩
  | 31 => ⟨S1x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x1, .f32⟩
  | 43 => ⟨S800000x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S50000x1, .f32⟩
  | 50 => ⟨S50000x64, .f32⟩
  | 51 => ⟨S50000x64, .f32⟩
  | 52 => ⟨S50000x64, .f32⟩
  | 53 => ⟨S50000x64, .f32⟩
  | 54 => ⟨S1x64, .f32⟩
  | 55 => ⟨S1x64, .f32⟩
  | 56 => ⟨S_, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S50000x64, .f32⟩
  | 72 => ⟨S1x64x64, .f32⟩
  | 73 => ⟨S64x64, .f32⟩
  | 74 => ⟨S1x64, .f32⟩
  | 75 => ⟨S64, .f32⟩
  | 76 => ⟨S1x64, .f32⟩
  | 77 => ⟨S1x64, .f32⟩
  | 78 => ⟨S64, .f32⟩
  | 79 => ⟨S1x64, .f32⟩
  | 80 => ⟨S1x64, .f32⟩
  | 81 => ⟨S64, .f32⟩
  | 82 => ⟨S1x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x1, .f32⟩
  | 94 => ⟨S800000x64, .f32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000x1, .f32⟩
  | 101 => ⟨S50000x64, .f32⟩
  | 102 => ⟨S50000x64, .f32⟩
  | 103 => ⟨S50000x64, .f32⟩
  | 104 => ⟨S50000x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S50000x64, .f32⟩
  | 123 => ⟨S_, .f32⟩
  | 124 => ⟨S1024x64, .f32⟩
  | 125 => ⟨S50000x1, .i32⟩
  | 126 => ⟨S1024x64, .f32⟩
  | 127 => ⟨S1x64, .f32⟩
  | _ => ⟨S50000x64, .f32⟩

abbrev hbmTy0_2 (i : Nat) : BufTy := match i % 128 with
  | 0 => ⟨S1x64, .f32⟩
  | 1 => ⟨S1x1, .f32⟩
  | 2 => ⟨S1024x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S1x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S1x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S1024x64, .f32⟩
  | .local _ .vmem, ⟨81, _⟩ => ⟨S64x64, .f32⟩
  | .local _ .vmem, ⟨82, _⟩ => ⟨S1x64, .f32⟩
  | .local _ .vmem, ⟨83, _⟩ => ⟨S64x64, .f32⟩
  | .local _ .vmem, ⟨84, _⟩ => ⟨S1x64, .f32⟩
  | .local _ .vmem, ⟨85, _⟩ => ⟨S64x1, .f32⟩
  | .local _ .vmem, ⟨86, _⟩ => ⟨S1x1, .f32⟩
  | .local _ .vmem, ⟨87, _⟩ => ⟨S1024x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v56_2 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_11 : Ref sig .tc := ⟨.hbm, 110, rfl⟩
abbrev main_v82 : Ref sig .tc := ⟨.hbm, 111, rfl⟩
abbrev main_v83 : Ref sig .tc := ⟨.hbm, 112, rfl⟩
abbrev main_c_12 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_13 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99_0 : Ref sig .tc := ⟨.hbm, 130, rfl⟩
abbrev main_v99_1 : Ref sig .tc := ⟨.hbm, 131, rfl⟩
abbrev main_v99_2 : Ref sig .tc := ⟨.hbm, 132, rfl⟩
abbrev main_cst_14 : Ref sig .tc := ⟨.hbm, 133, rfl⟩
abbrev main_v100 : Ref sig .tc := ⟨.hbm, 134, rfl⟩
abbrev main_v101 : Ref sig .tc := ⟨.hbm, 135, rfl⟩
abbrev main_cst_15 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_16 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_17 : Ref sig .tc := ⟨.hbm, 161, rfl⟩
abbrev main_v125 : Ref sig .tc := ⟨.hbm, 162, rfl⟩
abbrev main_v126 : Ref sig .tc := ⟨.hbm, 163, rfl⟩
abbrev main_c_18 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_19 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142_0 : Ref sig .tc := ⟨.hbm, 181, rfl⟩
abbrev main_v142_1 : Ref sig .tc := ⟨.hbm, 182, rfl⟩
abbrev main_v142_2 : Ref sig .tc := ⟨.hbm, 183, rfl⟩
abbrev main_cst_20 : Ref sig .tc := ⟨.hbm, 184, rfl⟩
abbrev main_v143 : Ref sig .tc := ⟨.hbm, 185, rfl⟩
abbrev main_v144 : Ref sig .tc := ⟨.hbm, 186, rfl⟩
abbrev main_cst_21 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_22 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_c_23 : Ref sig .tc := ⟨.hbm, 212, rfl⟩
abbrev main_v168 : Ref sig .tc := ⟨.hbm, 213, rfl⟩
abbrev main_v169 : Ref sig .tc := ⟨.hbm, 214, rfl⟩
abbrev main_c_24 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_25 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185_0 : Ref sig .tc := ⟨.hbm, 232, rfl⟩
abbrev main_v185_1 : Ref sig .tc := ⟨.hbm, 233, rfl⟩
abbrev main_v185_2 : Ref sig .tc := ⟨.hbm, 234, rfl⟩
abbrev main_cst_26 : Ref sig .tc := ⟨.hbm, 235, rfl⟩
abbrev main_v186 : Ref sig .tc := ⟨.hbm, 236, rfl⟩
abbrev main_v187 : Ref sig .tc := ⟨.hbm, 237, rfl⟩
abbrev main_cst_27 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_28 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_29 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_scratch0 : Ref sig .tc := ⟨.vmem, 32, rfl⟩
abbrev cc4_scratch1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc7_scratch0 : Ref sig .tc := ⟨.vmem, 52, rfl⟩
abbrev cc7_scratch1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc10_stg3_0 : Ref sig .tc := ⟨.vmem, 70, rfl⟩
abbrev cc10_stg4_0 : Ref sig .tc := ⟨.vmem, 71, rfl⟩
abbrev cc10_scratch0 : Ref sig .tc := ⟨.vmem, 72, rfl⟩
abbrev cc10_scratch1 : Ref sig .tc := ⟨.vmem, 73, rfl⟩
abbrev cc11_stg0_0 : Ref sig .tc := ⟨.vmem, 74, rfl⟩
abbrev cc11_stg0_1 : Ref sig .tc := ⟨.vmem, 75, rfl⟩
abbrev cc11_stg1_0 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc12_stg0_0 : Ref sig .tc := ⟨.vmem, 80, rfl⟩
abbrev cc12_stg1_0 : Ref sig .tc := ⟨.vmem, 81, rfl⟩
abbrev cc12_stg2_0 : Ref sig .tc := ⟨.vmem, 82, rfl⟩
abbrev cc12_stg3_0 : Ref sig .tc := ⟨.vmem, 83, rfl⟩
abbrev cc12_stg4_0 : Ref sig .tc := ⟨.vmem, 84, rfl⟩
abbrev cc12_stg5_0 : Ref sig .tc := ⟨.vmem, 85, rfl⟩
abbrev cc12_stg6_0 : Ref sig .tc := ⟨.vmem, 86, rfl⟩
abbrev cc12_stg7_0 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc7_sem3_0 : DmaSem sig := 46
abbrev cc7_sem4_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc10_sem3_0 : DmaSem sig := 64
abbrev cc10_sem4_0 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem3_0 : DmaSem sig := 70
abbrev cc11_sem3_1 : DmaSem sig := 71
abbrev cc12_sem0_0 : DmaSem sig := 72
abbrev cc12_sem1_0 : DmaSem sig := 73
abbrev cc12_sem2_0 : DmaSem sig := 74
abbrev cc12_sem3_0 : DmaSem sig := 75
abbrev cc12_sem4_0 : DmaSem sig := 76
abbrev cc12_sem5_0 : DmaSem sig := 77
abbrev cc12_sem6_0 : DmaSem sig := 78
abbrev cc12_sem7_0 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_15 : BitVec 32 := 0#32
  let v27 : BitVec 1 := Scalar.cmpi .ne v26 c0_i32_15
  v27

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S1024x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x1 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1024x1 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S1024x64_S50000x1_S50000x64_1_0_0_1_wf : ScatterDims.WF S1024x64 S50000x1 S50000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S50000x64.size a
  hwx10_2 : ∀ i : grid10.Coords, EltTy.bits .f32 = 32 ∨ (Rect.block (s := S50000x64) S5000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S50000x64.size a
  hwx11_3 : ∀ i : grid11.Coords, EltTy.bits .f32 = 32 ∨ (Rect.block (s := S50000x64) S5000x64.size (cc11_transform_3 i) (hinb11_3 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S1024x64.size a ≤ S1024x64.size a
  hwx12_0 : ∀ i : grid12.Coords, EltTy.bits .f32 = 32 ∨ (Rect.block (s := S1024x64) S1024x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x64.size a ≤ S64x64.size a
  hwx12_3 : ∀ i : grid12.Coords, EltTy.bits .f32 = 32 ∨ (Rect.block (s := S64x64) S64x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x1.size a ≤ S64x1.size a
  hwx12_5 : ∀ i : grid12.Coords, EltTy.bits .f32 = 32 ∨ (Rect.block (s := S64x1) S64x1.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x1.size a ≤ S1x1.size a
  hwx12_6 : ∀ i : grid12.Coords, EltTy.bits .f32 = 32 ∨ (Rect.block (s := S1x1) S1x1.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1024x1.size a ≤ S1024x1.size a
  hwx12_7 : ∀ i : grid12.Coords, EltTy.bits .f32 = 32 ∨ (Rect.block (s := S1024x1) S1024x1.size (cc12_transform_7 i) (hinb12_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S1024x64_S50000x1_S50000x64_1_0_0_1 : ScatterDims S1024x64 S50000x1 S50000x64 where
  updateWindowDims := [1]
  insertedWindowDims := [0]
  scatterDimsToOperandDims := [0]
  indexVectorDim := 1
  wf := scatter_S1024x64_S50000x1_S50000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v56_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v98) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99_0) S5000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v99_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v99_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v112) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v114) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v124) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v141) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v117) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v142_0) S5000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v142_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun i => !(k7_cond2 i == 1#1) | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v142_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v152) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v154) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v155) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v155) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v157) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v167) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v184) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v160) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v185_0) S5000x64.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v185_1) S1x64.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v185_2) S1x64.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun i => !(k10_cond2 i == 1#1) | 4 => fun i => !(k10_cond2 i == 1#1) | ⟨_ + 5, h⟩ => absurd h (Nat.not_lt.2 (Nat.le_add_left _ _))

abbrev win11_0 : Pipeline.Window sig grid11 :=
  Pipeline.Window.ofSpec (Memref.whole main_v185_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v195) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v197) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v198) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v201) S1024x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg7) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v202) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg9) S64x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v203) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg11) S64x1.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v204) S1x1.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v205) S1024x1.size cc12_transform_7 reads12_7 true true 1 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x64x64 : Shape := ⟨3, ![1, 64, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1024x64 : Shape := ⟨2, ![1024, 64]⟩
abbrev S1024x1 : Shape := ⟨2, ![1024, 1]⟩
abbrev S1x1 : Shape := ⟨2, ![1, 1]⟩

abbrev nBuf : Space → Nat
  | .hbm => 475
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x64x64, .f32⟩
  | 4 => ⟨S4x64, .f32⟩
  | 5 => ⟨S4x64, .f32⟩
  | 6 => ⟨S4x64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S1x64x64, .f32⟩
  | 18 => ⟨S64x64, .f32⟩
  | 19 => ⟨S1x64, .f32⟩
  | 20 => ⟨S64, .f32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x1, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000, .f32⟩
  | 68 => ⟨S50000x1, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S1x64, .f32⟩
  | 76 => ⟨S64, .f32⟩
  | 77 => ⟨S1x64, .f32⟩
  | 78 => ⟨S64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S50000x64, .f32⟩
  | 92 => ⟨S50000x64, .f32⟩
  | 93 => ⟨S50000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S1x64x64, .f32⟩
  | 127 => ⟨S64x64, .f32⟩
  | _ => ⟨S50000x64, .f32⟩

abbrev hbmTy0_1 (i : Nat) : BufTy := match i % 128 with
  | 0 => ⟨S1x64, .f32⟩
  | 1 => ⟨S64, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S50000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000, .f32⟩
  | 49 => ⟨S50000x1, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S1x64, .f32⟩
  | 57 => ⟨S64, .f32⟩
  | 58 => ⟨S1x64, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S50000x64, .f32⟩
  | 73 => ⟨S50000x64, .f32⟩
  | 74 => ⟨S50000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S_, .f32⟩
  | 92 => ⟨S64, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S1x64x64, .f32⟩
  | 108 => ⟨S64x64, .f32⟩
  | 109 => ⟨S1x64, .f32⟩
  | 110 => ⟨S64, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_2 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x1, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000, .f32⟩
  | 30 => ⟨S50000x1, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S64, .f32⟩
  | 43 => ⟨S_, .f32⟩
  | 44 => ⟨S64, .f32⟩
  | 45 => ⟨S64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S50000x64, .f32⟩
  | 54 => ⟨S50000x64, .f32⟩
  | 55 => ⟨S50000x64, .f32⟩
  | 56 => ⟨S_, .f32⟩
  | 57 => ⟨S_, .f32⟩
  | 58 => ⟨S_, .f32⟩
  | 59 => ⟨S_, .f32⟩
  | 60 => ⟨S64, .f32⟩
  | 61 => ⟨S64, .f32⟩
  | 62 => ⟨S64, .f32⟩
  | 63 => ⟨S_, .f32⟩
  | 64 => ⟨S_, .i1⟩
  | 65 => ⟨S_, .f32⟩
  | 66 => ⟨S_, .f32⟩
  | 67 => ⟨S64, .f32⟩
  | 68 => ⟨S64, .f32⟩
  | 69 => ⟨S1x64, .f32⟩
  | 70 => ⟨S50000x64, .f32⟩
  | 71 => ⟨S50000x64, .f32⟩
  | 72 => ⟨S_, .f32⟩
  | 73 => ⟨S64, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S1x64x64, .f32⟩
  | 89 => ⟨S64x64, .f32⟩
  | 90 => ⟨S1x64, .f32⟩
  | 91 => ⟨S64, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_3 (i : Nat) : BufTy := match i % 128 with
  | 0 => ⟨S800000, .i32⟩
  | 1 => ⟨S800000x1, .i32⟩
  | 2 => ⟨S800000x64, .f32⟩
  | 3 => ⟨S800000x1, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000, .f32⟩
  | 11 => ⟨S50000x1, .f32⟩
  | 12 => ⟨S50000x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S1x64, .f32⟩
  | 19 => ⟨S64, .f32⟩
  | 20 => ⟨S1x64, .f32⟩
  | 21 => ⟨S64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S_, .f32⟩
  | 70 => ⟨S1024x64, .f32⟩
  | 71 => ⟨S50000x1, .i32⟩
  | 72 => ⟨S1024x64, .f32⟩
  | 73 => ⟨S1024x64, .f32⟩
  | 74 => ⟨S1x64, .f32⟩
  | 75 => ⟨S1024x64, .f32⟩
  | 76 => ⟨S1024x64, .f32⟩
  | 77 => ⟨S_, .f32⟩
  | 78 => ⟨S1024x64, .f32⟩
  | 79 => ⟨S1024x64, .f32⟩
  | 80 => ⟨S1024x64, .f32⟩
  | 81 => ⟨S1x64, .f32⟩
  | 82 => ⟨S1024x64, .f32⟩
  | 83 => ⟨S1024x64, .f32⟩
  | 84 => ⟨S_, .f32⟩
  | 85 => ⟨S1024x64, .f32⟩
  | 86 => ⟨S1024x64, .f32⟩
  | 87 => ⟨S1024x1, .f32⟩
  | 88 => ⟨S1x1, .f32⟩
  | 89 => ⟨S1024x1, .f32⟩
  | 90 => ⟨S1024x1, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_cst_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_cst_1 : Ref sig .tc := ⟨.hbm, 95, rfl⟩
abbrev main_call0_v8 : Ref sig .tc := ⟨.hbm, 96, rfl⟩
abbrev main_call0_cst_2 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_cst_3 : Ref sig .tc := ⟨.hbm, 101, rfl⟩
abbrev main_call0_v12 : Ref sig .tc := ⟨.hbm, 102, rfl⟩
abbrev main_call0_cst_4 : Ref sig .tc := ⟨.hbm, 103, rfl⟩
abbrev main_call0_call0_v0 : Ref sig .tc := ⟨.hbm, 104, rfl⟩
abbrev main_call0_call0_v1 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call1_cst : Ref sig .tc := ⟨.hbm, 123, rfl⟩
abbrev main_call1_v0 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_cst_13 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_14 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_15 : Ref sig .tc := ⟨.hbm, 141, rfl⟩
abbrev main_v88 : Ref sig .tc := ⟨.hbm, 142, rfl⟩
abbrev main_v89 : Ref sig .tc := ⟨.hbm, 143, rfl⟩
abbrev main_c_16 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_17 : Ref sig .tc := ⟨.hbm, 150, rfl⟩
abbrev main_v95 : Ref sig .tc := ⟨.hbm, 151, rfl⟩
abbrev main_v96 : Ref sig .tc := ⟨.hbm, 152, rfl⟩
abbrev main_c_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_19 : Ref sig .tc := ⟨.hbm, 160, rfl⟩
abbrev main_v103 : Ref sig .tc := ⟨.hbm, 161, rfl⟩
abbrev main_v104 : Ref sig .tc := ⟨.hbm, 162, rfl⟩
abbrev main_c_20 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_22 : Ref sig .tc := ⟨.hbm, 188, rfl⟩
abbrev main_v128 : Ref sig .tc := ⟨.hbm, 189, rfl⟩
abbrev main_cst_23 : Ref sig .tc := ⟨.hbm, 190, rfl⟩
abbrev main_v129 : Ref sig .tc := ⟨.hbm, 191, rfl⟩
abbrev main_v130 : Ref sig .tc := ⟨.hbm, 192, rfl⟩
abbrev main_c_24 : Ref sig .tc := ⟨.hbm, 193, rfl⟩
abbrev main_call2_cst : Ref sig .tc := ⟨.hbm, 194, rfl⟩
abbrev main_call2_v0 : Ref sig .tc := ⟨.hbm, 195, rfl⟩
abbrev main_call2_v1 : Ref sig .tc := ⟨.hbm, 196, rfl⟩
abbrev main_call2_cst_0 : Ref sig .tc := ⟨.hbm, 197, rfl⟩
abbrev main_call2_v2 : Ref sig .tc := ⟨.hbm, 198, rfl⟩
abbrev main_call2_v3 : Ref sig .tc := ⟨.hbm, 199, rfl⟩
abbrev main_call2_v4 : Ref sig .tc := ⟨.hbm, 200, rfl⟩
abbrev main_call2_v5 : Ref sig .tc := ⟨.hbm, 201, rfl⟩
abbrev main_call2_v6 : Ref sig .tc := ⟨.hbm, 202, rfl⟩
abbrev main_call2_v7 : Ref sig .tc := ⟨.hbm, 203, rfl⟩
abbrev main_call2_cst_1 : Ref sig .tc := ⟨.hbm, 204, rfl⟩
abbrev main_call2_v8 : Ref sig .tc := ⟨.hbm, 205, rfl⟩
abbrev main_call2_cst_2 : Ref sig .tc := ⟨.hbm, 206, rfl⟩
abbrev main_call2_v9 : Ref sig .tc := ⟨.hbm, 207, rfl⟩
abbrev main_call2_v10 : Ref sig .tc := ⟨.hbm, 208, rfl⟩
abbrev main_call2_v11 : Ref sig .tc := ⟨.hbm, 209, rfl⟩
abbrev main_call2_cst_3 : Ref sig .tc := ⟨.hbm, 210, rfl⟩
abbrev main_call2_v12 : Ref sig .tc := ⟨.hbm, 211, rfl⟩
abbrev main_call2_cst_4 : Ref sig .tc := ⟨.hbm, 212, rfl⟩
abbrev main_call2_call0_v0 : Ref sig .tc := ⟨.hbm, 213, rfl⟩
abbrev main_call2_call0_v1 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_cst_25 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_call3_cst : Ref sig .tc := ⟨.hbm, 232, rfl⟩
abbrev main_call3_v0 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_cst_26 : Ref sig .tc := ⟨.hbm, 239, rfl⟩
abbrev main_v152 : Ref sig .tc := ⟨.hbm, 240, rfl⟩
abbrev main_cst_27 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_cst_28 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_c_29 : Ref sig .tc := ⟨.hbm, 250, rfl⟩
abbrev main_v160 : Ref sig .tc := ⟨.hbm, 251, rfl⟩
abbrev main_v161 : Ref sig .tc := ⟨.hbm, 252, rfl⟩
abbrev main_c_30 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_c_31 : Ref sig .tc := ⟨.hbm, 259, rfl⟩
abbrev main_v167 : Ref sig .tc := ⟨.hbm, 260, rfl⟩
abbrev main_v168 : Ref sig .tc := ⟨.hbm, 261, rfl⟩
abbrev main_c_32 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_33 : Ref sig .tc := ⟨.hbm, 269, rfl⟩
abbrev main_v175 : Ref sig .tc := ⟨.hbm, 270, rfl⟩
abbrev main_v176 : Ref sig .tc := ⟨.hbm, 271, rfl⟩
abbrev main_c_34 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_35 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_cst_36 : Ref sig .tc := ⟨.hbm, 297, rfl⟩
abbrev main_v200 : Ref sig .tc := ⟨.hbm, 298, rfl⟩
abbrev main_cst_37 : Ref sig .tc := ⟨.hbm, 299, rfl⟩
abbrev main_v201 : Ref sig .tc := ⟨.hbm, 300, rfl⟩
abbrev main_v202 : Ref sig .tc := ⟨.hbm, 301, rfl⟩
abbrev main_c_38 : Ref sig .tc := ⟨.hbm, 302, rfl⟩
abbrev main_call4_cst : Ref sig .tc := ⟨.hbm, 303, rfl⟩
abbrev main_call4_v0 : Ref sig .tc := ⟨.hbm, 304, rfl⟩
abbrev main_call4_v1 : Ref sig .tc := ⟨.hbm, 305, rfl⟩
abbrev main_call4_cst_0 : Ref sig .tc := ⟨.hbm, 306, rfl⟩
abbrev main_call4_v2 : Ref sig .tc := ⟨.hbm, 307, rfl⟩
abbrev main_call4_v3 : Ref sig .tc := ⟨.hbm, 308, rfl⟩
abbrev main_call4_v4 : Ref sig .tc := ⟨.hbm, 309, rfl⟩
abbrev main_call4_v5 : Ref sig .tc := ⟨.hbm, 310, rfl⟩
abbrev main_call4_v6 : Ref sig .tc := ⟨.hbm, 311, rfl⟩
abbrev main_call4_v7 : Ref sig .tc := ⟨.hbm, 312, rfl⟩
abbrev main_call4_cst_1 : Ref sig .tc := ⟨.hbm, 313, rfl⟩
abbrev main_call4_v8 : Ref sig .tc := ⟨.hbm, 314, rfl⟩
abbrev main_call4_cst_2 : Ref sig .tc := ⟨.hbm, 315, rfl⟩
abbrev main_call4_v9 : Ref sig .tc := ⟨.hbm, 316, rfl⟩
abbrev main_call4_v10 : Ref sig .tc := ⟨.hbm, 317, rfl⟩
abbrev main_call4_v11 : Ref sig .tc := ⟨.hbm, 318, rfl⟩
abbrev main_call4_cst_3 : Ref sig .tc := ⟨.hbm, 319, rfl⟩
abbrev main_call4_v12 : Ref sig .tc := ⟨.hbm, 320, rfl⟩
abbrev main_call4_cst_4 : Ref sig .tc := ⟨.hbm, 321, rfl⟩
abbrev main_call4_call0_v0 : Ref sig .tc := ⟨.hbm, 322, rfl⟩
abbrev main_call4_call0_v1 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_cst_39 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_call5_cst : Ref sig .tc := ⟨.hbm, 341, rfl⟩
abbrev main_call5_v0 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_40 : Ref sig .tc := ⟨.hbm, 348, rfl⟩
abbrev main_v224 : Ref sig .tc := ⟨.hbm, 349, rfl⟩
abbrev main_cst_41 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_cst_42 : Ref sig .tc := ⟨.hbm, 354, rfl⟩
abbrev main_v228 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_c_43 : Ref sig .tc := ⟨.hbm, 359, rfl⟩
abbrev main_v232 : Ref sig .tc := ⟨.hbm, 360, rfl⟩
abbrev main_v233 : Ref sig .tc := ⟨.hbm, 361, rfl⟩
abbrev main_c_44 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_c_45 : Ref sig .tc := ⟨.hbm, 368, rfl⟩
abbrev main_v239 : Ref sig .tc := ⟨.hbm, 369, rfl⟩
abbrev main_v240 : Ref sig .tc := ⟨.hbm, 370, rfl⟩
abbrev main_c_46 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_c_47 : Ref sig .tc := ⟨.hbm, 378, rfl⟩
abbrev main_v247 : Ref sig .tc := ⟨.hbm, 379, rfl⟩
abbrev main_v248 : Ref sig .tc := ⟨.hbm, 380, rfl⟩
abbrev main_c_48 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_cst_49 : Ref sig .tc := ⟨.hbm, 390, rfl⟩
abbrev main_v257 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_cst_50 : Ref sig .tc := ⟨.hbm, 406, rfl⟩
abbrev main_v272 : Ref sig .tc := ⟨.hbm, 407, rfl⟩
abbrev main_cst_51 : Ref sig .tc := ⟨.hbm, 408, rfl⟩
abbrev main_v273 : Ref sig .tc := ⟨.hbm, 409, rfl⟩
abbrev main_v274 : Ref sig .tc := ⟨.hbm, 410, rfl⟩
abbrev main_c_52 : Ref sig .tc := ⟨.hbm, 411, rfl⟩
abbrev main_call6_cst : Ref sig .tc := ⟨.hbm, 412, rfl⟩
abbrev main_call6_v0 : Ref sig .tc := ⟨.hbm, 413, rfl⟩
abbrev main_call6_v1 : Ref sig .tc := ⟨.hbm, 414, rfl⟩
abbrev main_call6_cst_0 : Ref sig .tc := ⟨.hbm, 415, rfl⟩
abbrev main_call6_v2 : Ref sig .tc := ⟨.hbm, 416, rfl⟩
abbrev main_call6_v3 : Ref sig .tc := ⟨.hbm, 417, rfl⟩
abbrev main_call6_v4 : Ref sig .tc := ⟨.hbm, 418, rfl⟩
abbrev main_call6_v5 : Ref sig .tc := ⟨.hbm, 419, rfl⟩
abbrev main_call6_v6 : Ref sig .tc := ⟨.hbm, 420, rfl⟩
abbrev main_call6_v7 : Ref sig .tc := ⟨.hbm, 421, rfl⟩
abbrev main_call6_cst_1 : Ref sig .tc := ⟨.hbm, 422, rfl⟩
abbrev main_call6_v8 : Ref sig .tc := ⟨.hbm, 423, rfl⟩
abbrev main_call6_cst_2 : Ref sig .tc := ⟨.hbm, 424, rfl⟩
abbrev main_call6_v9 : Ref sig .tc := ⟨.hbm, 425, rfl⟩
abbrev main_call6_v10 : Ref sig .tc := ⟨.hbm, 426, rfl⟩
abbrev main_call6_v11 : Ref sig .tc := ⟨.hbm, 427, rfl⟩
abbrev main_call6_cst_3 : Ref sig .tc := ⟨.hbm, 428, rfl⟩
abbrev main_call6_v12 : Ref sig .tc := ⟨.hbm, 429, rfl⟩
abbrev main_call6_cst_4 : Ref sig .tc := ⟨.hbm, 430, rfl⟩
abbrev main_call6_call0_v0 : Ref sig .tc := ⟨.hbm, 431, rfl⟩
abbrev main_call6_call0_v1 : Ref sig .tc := ⟨.hbm, 432, rfl⟩
abbrev main_v275 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_cst_53 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_v287 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_call7_cst : Ref sig .tc := ⟨.hbm, 450, rfl⟩
abbrev main_call7_v0 : Ref sig .tc := ⟨.hbm, 451, rfl⟩
abbrev main_v291 : Ref sig .tc := ⟨.hbm, 452, rfl⟩
abbrev main_cst_54 : Ref sig .tc := ⟨.hbm, 453, rfl⟩
abbrev main_v292 : Ref sig .tc := ⟨.hbm, 454, rfl⟩
abbrev main_v293 : Ref sig .tc := ⟨.hbm, 455, rfl⟩
abbrev main_v294 : Ref sig .tc := ⟨.hbm, 456, rfl⟩
abbrev main_v295 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_call8_cst : Ref sig .tc := ⟨.hbm, 461, rfl⟩
abbrev main_call8_v0 : Ref sig .tc := ⟨.hbm, 462, rfl⟩
abbrev main_v299 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_call9_cst : Ref sig .tc := ⟨.hbm, 468, rfl⟩
abbrev main_call9_v0 : Ref sig .tc := ⟨.hbm, 469, rfl⟩
abbrev main_v304 : Ref sig .tc := ⟨.hbm, 470, rfl⟩
abbrev main_v305 : Ref sig .tc := ⟨.hbm, 471, rfl⟩
abbrev main_v306 : Ref sig .tc := ⟨.hbm, 472, rfl⟩
abbrev main_v307 : Ref sig .tc := ⟨.hbm, 473, rfl⟩
abbrev main_v308 : Ref sig .tc := ⟨.hbm, 474, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1024x64 : S_.BroadcastsInDim S1024x64 (![] : Fin 0 → Fin S1024x64.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S1024x64_S50000x1_S50000x64_1_0_0_1_wf : ScatterDims.WF S1024x64 S50000x1 S50000x64 [1] [0] [0] 1
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S1024x64_S50000x1_S50000x64_1_0_0_1 : ScatterDims S1024x64 S50000x1 S50000x64 where
  updateWindowDims := [1]
  insertedWindowDims := [0]
  scatterDimsToOperandDims := [0]
  indexVectorDim := 1
  wf := scatter_S1024x64_S50000x1_S50000x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.K.R0.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a constant block index: fetched at the first point only) likewise: where it is not fetched the
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0

/-! ## What the body leaves in the output window's buffer -/

/-- Window 2's staging buffer after the body, from the input windows' blocks: its one store. -/
def out0_2 (x0 : Vec F S5000x64 .f32) (x1 : Vec F S64x64 .f32) : Vec F S5000x64 .f32 :=
  View.canon [⟨r0_0, k0_pay1 (View.ld x0 r0_0) (View.ld x1 r0_1)⟩]

/-- The store is of the whole buffer, so it covers it. -/
theorem cover0_2 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 400000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__hw_matmul_kernel i arg0 harg0 arg1 harg1 arg2 harg2) K := by
  simp only [cc0__hw_matmul_kernel_eq_skeleton]; unfold cc0__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant: the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem owed0 (c : Dev nD) (t) : (dat0 V c).owed t = 0 := rfl
theorem share0 (c : Dev nD) (w) : (dat0 V c).q w = fullShare := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The invariant at the region's ends -/

theorem hin0 (c : Dev nD) : iprop((∃ r, prngReg c r) ∗ Pipeline.scopedRest (Ix := Unit) (Name := ℕ) (U := UR sig nD τ) (Lvl := ℕ) spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem hout0 (c : Dev nD) : (dat0 V c).Φ (Fin.last cfg0.N) ⊢ iprop((∃ r, prngReg c r) ∗ Pipeline.scopedRest (Ix := Unit) (Name := ℕ) (U := UR sig nD τ) (Lvl := ℕ) spec0 c) := by
  rw [show (dat0 V c).Φ (Fin.last _) = Pipeline.ΦA spec0 c from rfl]; unfold Pipeline.ΦA
  iintro ⟨Hr, Hp⟩
  isplitl [Hp]; · iexact Hp
  iexact Hr

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.R1.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body's accesses go through: all of a tile, all of a row -/

abbrev rX1 : Rect S5000x64 := Rect.unit (s := S5000x64) ![0, 0] S5000x64.size inb_S5000x64_S5000x64_0_0
abbrev rA1 : Rect S1x64 := Rect.unit (s := S1x64) ![0, 0] S1x64.size inb_S1x64_S1x64_0_0

theorem rX1_emb (x : S5000x64.Idx) : rX1.emb x = x := by
  funext a; apply Fin.ext; rw [Rect.emb_apply]
  fin_cases a
  · show 0 + 1 * (x 0).val = (x 0).val; omega
  · show 0 + 1 * (x 1).val = (x 1).val; omega

theorem rA1_emb (x : S1x64.Idx) : rA1.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX1 (c : Dev nD) (M : Memref sig .tc .vmem S5000x64 .f32) (g : Buf (Elt F) (M.view.loc (c : Thread nD τ))) :
    (M.access rX1).read (Elt F) g = M.view.read (Elt F) g := by
  funext x
  show _root_.cast _ (g (M.view.emb (rX1.emb x))) = _root_.cast _ (g (M.view.emb x))
  rw [rX1_emb]

omit [FloatOps F] in
theorem read_rA1 (c : Dev nD) (M : Memref sig .tc .vmem S1x64 .f32) (g : Buf (Elt F) (M.view.loc (c : Thread nD τ))) :
    (M.access rA1).read (Elt F) g = M.view.read (Elt F) g := by
  funext x
  show _root_.cast _ (g (M.view.emb (rA1.emb x))) = _root_.cast _ (g (M.view.emb x))
  rw [rA1_emb]

omit [FloatOps F] in
/-- after a store through all of it, unmasked, it holds the value stored. -/
theorem read_write_rX1 (c : Dev nD) (M : Memref sig .tc .vmem S5000x64 .f32) (f : Buf (Elt F) (M.view.loc (c : Thread nD τ))) (v : Vec F S5000x64 .f32) :
    M.view.read (Elt F) ((M.access rX1).write (Elt F) f v Finset.univ) = v := by
  funext y
  conv_lhs => rw [← rX1_emb y]
  rw [View.read_slice_write_emb _ _ _ (Finset.mem_univ _)]

omit [FloatOps F] in
theorem read_write_rA1 (c : Dev nD) (M : Memref sig .tc .vmem S1x64 .f32) (f : Buf (Elt F) (M.view.loc (c : Thread nD τ))) (v : Vec F S1x64 .f32) :
    M.view.read (Elt F) ((M.access rA1).write (Elt F) f v Finset.univ) = v := by
  funext y
  conv_lhs => rw [← rA1_emb y]
  rw [View.read_slice_write_emb _ _ _ (Finset.mem_univ _)]

/-! ## The body's three phases, each on any memrefs and continued by any program -/

/-- The zeroing of the two carried rows at the first point: for each, a load whose value is not used, then the store
    of the zero row. -/
theorem sound_zero1 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k1_pay1 (F := F)) ∗ owns (c : Thread nD τ) M7 fullShare (k1_pay2 (F := F)))
            -∗ wp frame (wpE (defs₀ (F := F)) Variants.none c none) E (k ⟨⟩) K)
          -∗ wp frame (wpE (defs₀ (F := F)) Variants.none c none) E
              (.op (.load M6 rA1.toLoadRect (View.loadsAt_vmem h_S1x64)) fun (_ : Vec F S1x64 .f32) =>
               .op (.store M6 rA1 (k1_pay1 (F := F)) Finset.univ (View.stores_vmem_bits_univ h_S1x64 rfl) (.inl rfl)) fun _ =>
               .op (.load M7 rA1.toLoadRect (View.loadsAt_vmem h_S1x64)) fun (_ : Vec F S1x64 .f32) =>
               .op (.store M7 rA1 (k1_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA1) (View.set_slice_subset _ _)) $$ H6
  iintro H6
  iapply (wp_store Variants.none (c : Thread nD τ) none E (m := M6) (r := rA1) (Mk := Finset.univ) (View.set_slice_subset _ _)) $$ H6
  iintro H6
  iapply (wp_load_rect Variants.none (c : Thread nD τ) none E (m := M7) (r := rA1) (View.set_slice_subset _ _)) $$ H7
  iintro H7
  iapply (wp_store Variants.none (c : Thread nD τ) none E (m := M7) (r := rA1) (Mk := Finset.univ) (View.set_slice_subset _ _)) $$ H7
  iintro H7
  iapply Hk
  isplitl [H6]
  · iexists _; isplitr
    swap; · iexact H6
    ipureintro; rw [read_write_rA1]
  · iexists _; isplitr
    swap; · iexact H7
    ipureintro; rw [read_write_rA1]

/-- The accumulation, at every point: the tile and the bias row are loaded, the output tile is stored at their sum
    (row-broadcast); then each carried row is loaded, and stored at itself plus the column sums of the output tile
    (of its square, for the second). The tile and the bias row are left as they were. -/
theorem sound_acc1 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k1_pay3 x b)
              ∗ owns (c : Thread nD τ) M6 fullShare (k1_pay4 x b a6) ∗ owns (c : Thread nD τ) M7 fullShare (k1_pay5 x b a7))
            -∗ wp frame (wpE (defs₀ (F := F)) Variants.none c none) E (k ⟨⟩) K)
          -∗ wp frame (wpE (defs₀ (F := F)) Variants.none c none) E
              (.op (.load M1 rX1.toLoadRect (View.loadsAt_vmem h_S5000x64)) fun (v3 : Vec F S5000x64 .f32) =>
               .op (.load M2 rA1.toLoadRect (View.loadsAt_vmem h_S1x64)) fun (v5 : Vec F S1x64 .f32) =>
               .op (.load M3 rX1.toLoadRect (View.loadsAt_vmem h_S5000x64)) fun (_ : Vec F S5000x64 .f32) =>
               .op (.store M3 rX1 (k1_pay3 v3 v5) Finset.univ (View.stores_vmem_bits_univ h_S5000x64 rfl) (.inl rfl)) fun _ =>
               .op (.load M6 rA1.toLoadRect (View.loadsAt_vmem h_S1x64)) fun (v10 : Vec F S1x64 .f32) =>
               .op (.load M6 rA1.toLoadRect (View.loadsAt_vmem h_S1x64)) fun (_ : Vec F S1x64 .f32) =>
               .op (.store M6 rA1 (k1_pay4 v3 v5 v10) Finset.univ (View.stores_vmem_bits_univ h_S1x64 rfl) (.inl rfl)) fun _ =>
               .op (.load M7 rA1.toLoadRect (View.loadsAt_vmem h_S1x64)) fun (v17 : Vec F S1x64 .f32) =>
               .op (.load M7 rA1.toLoadRect (View.loadsAt_vmem h_S1x64)) fun (_ : Vec F S1x64 .f32) =>
               .op (.store M7 rA1 (k1_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX1) (View.set_slice_subset _ _)) $$ H1
  iintro H1
  iapply (wp_load_rect Variants.none (c : Thread nD τ) none E (m := M2) (r := rA1) (View.set_slice_subset _ _)) $$ H2
  iintro H2
  iapply (wp_load_rect Variants.none (c : Thread nD τ) none E (m := M3) (r := rX1) (View.set_slice_subset _ _)) $$ H3
  iintro H3
  iapply (wp_store Variants.none (c : Thread nD τ) none E (m := M3) (r := rX1) (Mk := Finset.univ) (View.set_slice_subset _ _)) $$ H3
  iintro H3
  iapply (wp_load_rect Variants.none (c : Thread nD τ) none E (m := M6) (r := rA1) (View.set_slice_subset _ _)) $$ H6
  iintro H6
  iapply (wp_load_rect Variants.none (c : Thread nD τ) none E (m := M6) (r := rA1) (View.set_slice_subset _ _)) $$ H6
  iintro H6
  iapply (wp_store Variants.none (c : Thread nD τ) none E (m := M6) (r := rA1) (Mk := Finset.univ) (View.set_slice_subset _ _)) $$ H6
  iintro H6
  iapply (wp_load_rect Variants.none (c : Thread nD τ) none E (m := M7) (r := rA1) (View.set_slice_subset _ _)) $$ H7
  iintro H7
  iapply (wp_load_rect Variants.none (c : Thread nD τ) none E (m := M7) (r := rA1) (View.set_slice_subset _ _)) $$ H7
  iintro H7
  iapply (wp_store Variants.none (c : Thread nD τ) none E (m := M7) (r := rA1) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX1, read_rX1, read_rA1, hg1, hg2]
  isplitl [H6]
  · iexists _; isplitr
    swap; · iexact H6
    ipureintro; simp only [read_write_rA1, read_rX1, read_rA1, hg1, hg2, hf6]
  · iexists _; isplitr
    swap; · iexact H7
    ipureintro; simp only [read_write_rA1, read_rX1, read_rA1, hg1, hg2, hf7]

/-- The copy-out at the last point: each carried row is loaded and stored through all of its one-row output's
    memref (after a load of that memref whose value is not used). The carried rows are left as they were. -/
theorem sound_epi1 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA1.toLoadRect (View.loadsAt_vmem h_S1x64)) fun (v28 : Vec F S1x64 .f32) =>
               .op (.load M4 rA1.toLoadRect (View.loadsAt_vmem h_S1x64)) fun (_ : Vec F S1x64 .f32) =>
               .op (.store M4 rA1 v28 Finset.univ (View.stores_vmem_bits_univ h_S1x64 rfl) (.inl rfl)) fun _ =>
               .op (.load M7 rA1.toLoadRect (View.loadsAt_vmem h_S1x64)) fun (v30 : Vec F S1x64 .f32) =>
               .op (.load M5 rA1.toLoadRect (View.loadsAt_vmem h_S1x64)) fun (_ : Vec F S1x64 .f32) =>
               .op (.store M5 rA1 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA1) (View.set_slice_subset _ _)) $$ H6
  iintro H6
  iapply (wp_load_rect Variants.none (c : Thread nD τ) none E (m := M4) (r := rA1) (View.set_slice_subset _ _)) $$ H4
  iintro H4
  iapply (wp_store Variants.none (c : Thread nD τ) none E (m := M4) (r := rA1) (Mk := Finset.univ) (View.set_slice_subset _ _)) $$ H4
  iintro H4
  iapply (wp_load_rect Variants.none (c : Thread nD τ) none E (m := M7) (r := rA1) (View.set_slice_subset _ _)) $$ H7
  iintro H7
  iapply (wp_load_rect Variants.none (c : Thread nD τ) none E (m := M5) (r := rA1) (View.set_slice_subset _ _)) $$ H5
  iintro H5
  iapply (wp_store Variants.none (c : Thread nD τ) none E (m := M5) (r := rA1) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA1, read_rA1, hf6]
  · iexists _; isplitr
    swap; · iexact H5
    ipureintro; rw [read_write_rA1, read_rA1, hf7]

/-! ## The body's two conditions, in closed form over the grid -/

/-- The first conditional's condition, as the body computes it from the grid coordinate: the point is the first. -/
abbrev cond1_0 (i : grid1.Coords) : Prop :=
  (Scalar.cmpi .ne (Scalar.extui (Scalar.cmpi .eq (BitVec.ofNat 32 (i 0).val) 0#32)) 0#32) = 1#1
/-- The second's: the point is the last. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 9 :=
  (by decide +kernel : ∀ t : Fin grid1.N, cond1_1 (grid1.coords t) ↔ t.val = 9)

/-- The tile, the bias row and the output tile are stored or read at every point; -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- the two one-row outputs are stored at the last point only, and written back there only. -/
theorem idle1_3 : ∀ t : Fin cfg1.N, ¬cond1_1 (grid1.coords t) → cfg1.idle 3 (grid1.coords t) = true := by decide +kernel
theorem idle1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem live1_3 : ∀ t : Fin cfg1.N, cond1_1 (grid1.coords t) → cfg1.idle 3 (grid1.coords t) = false := by decide +kernel
theorem live1_4 : ∀ t : Fin cfg1.N, cond1_1 (grid1.coords t) → cfg1.idle 4 (grid1.coords t) = false := by decide +kernel

/-! ## The whole body, case by case, on any memrefs -/

/-- At the first point: the carried rows are zeroed, then accumulated into; the one-row outputs are not touched. -/
theorem run1_first (c : Dev nD) (E : Set ℕ) (i : grid1.Coords) (hc0 : cond1_0 i) (hc1 : ¬cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k1_pay3 x b)
            ∗ owns (c : Thread nD τ) arg6 fullShare (k1_pay4 x b (k1_pay1 (F := F))) ∗ owns (c : Thread nD τ) arg7 fullShare (k1_pay5 x b (k1_pay2 (F := F)))) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero1 c E arg6 arg7) $$ [H6 H7]
  · isplitl [H6]; · iexact H6
    iexact H7
  iintro ⟨H6, H7⟩
  iapply (sound_acc1 c E arg1 arg3 arg2 arg6 arg7 x b (k1_pay1 (F := F)) (k1_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run1_mid (c : Dev nD) (E : Set ℕ) (i : grid1.Coords) (hc0 : ¬cond1_0 i) (hc1 : ¬cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k1_pay3 x b)
            ∗ owns (c : Thread nD τ) arg6 fullShare (k1_pay4 x b a6) ∗ owns (c : Thread nD τ) arg7 fullShare (k1_pay5 x b a7)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc1 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run1_last (c : Dev nD) (E : Set ℕ) (i : grid1.Coords) (hc0 : ¬cond1_0 i) (hc1 : cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k1_pay3 x b)
            ∗ owns (c : Thread nD τ) arg4 fullShare (k1_pay4 x b a6) ∗ owns (c : Thread nD τ) arg5 fullShare (k1_pay5 x b a7)
            ∗ owns (c : Thread nD τ) arg6 fullShare (k1_pay4 x b a6) ∗ owns (c : Thread nD τ) arg7 fullShare (k1_pay5 x b a7)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc1 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi1 c E arg4 arg5 arg6 arg7 (k1_pay4 x b a6) (k1_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's current staging buffer holds the point's tile at every point, for any proof data whose array is
    `V`'s and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias row at every point, fetched there (the first) or not: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the two carried rows hold after each point -/

/-- After point `n`: the running column sums of the output tiles of points `0 … n` (first component) and of their
    squares (second), exactly as the body's stores leave them — at point 0 over the zero rows, afterwards over what
    the point before left. -/
def acc1 (c : Dev nD) : (n : ℕ) → n < cfg1.N → Vec F S1x64 .f32 × Vec F S1x64 .f32
  | 0, hn => (k1_pay4 (iblk1 V c 0 ⟨0, hn⟩) (iblk1 V c 1 ⟨0, hn⟩) (k1_pay1 (F := F)),
              k1_pay5 (iblk1 V c 0 ⟨0, hn⟩) (iblk1 V c 1 ⟨0, hn⟩) (k1_pay2 (F := F)))
  | n + 1, hn => (k1_pay4 (iblk1 V c 0 ⟨n + 1, hn⟩) (iblk1 V c 1 ⟨n + 1, hn⟩) (acc1 c n (Nat.lt_of_succ_lt hn)).1,
                  k1_pay5 (iblk1 V c 0 ⟨n + 1, hn⟩) (iblk1 V c 1 ⟨n + 1, hn⟩) (acc1 c n (Nat.lt_of_succ_lt hn)).2)

theorem acc1_first (c : Dev nD) (t : Fin cfg1.N) (h : t.val = 0) :
    acc1 V c t.val t.isLt = (k1_pay4 (iblk1 V c 0 t) (iblk1 V c 1 t) (k1_pay1 (F := F)), k1_pay5 (iblk1 V c 0 t) (iblk1 V c 1 t) (k1_pay2 (F := F))) := by
  obtain ⟨n, hn⟩ := t
  cases n with
  | zero => rfl
  | succ n => exact absurd h (Nat.succ_ne_zero n)

theorem acc1_next (c : Dev nD) (t : Fin cfg1.N) (h : t.val ≠ 0) :
    acc1 V c t.val t.isLt
      = (k1_pay4 (iblk1 V c 0 t) (iblk1 V c 1 t) (acc1 V c (t.val - 1) (Nat.lt_of_le_of_lt (Nat.sub_le _ _) t.isLt)).1,
         k1_pay5 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM1_0 : Memref sig .tc .vmem S1x64 .f32 := Memref.whole cc1_scratch0
abbrev scM1_1 : Memref sig .tc .vmem S1x64 .f32 := Memref.whole cc1_scratch1

/-- Before point `n`: the generator register at some state and the core's other scoped buffers at anything; the
    two carried rows at anything before the first point, and afterwards at what the point before left (`acc1`). -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((∃ r, prngReg c r)
      ∗ (owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) spec1 c [cc1_scratch0, cc1_scratch1])

omit V in
/-- What the region is entered with, the two carried rows split out of the core's scoped buffers. -/
theorem Phi1_entry (c : Dev nD) :
    (iprop((∃ r, prngReg c r) ∗ Pipeline.scopedRest (Ix := Unit) (Name := ℕ) (U := UR sig nD τ) (Lvl := ℕ) spec1 c) : sProp 𝕄)
      = iprop((∃ r, prngReg c r)
      ∗ ((∃ a, owns (c : Thread nD τ) scM1_0 fullShare a) ∗ (∃ a, owns (c : Thread nD τ) scM1_1 fullShare a))
      ∗ Pipeline.scopedRestBut (Ix := Unit) (Name := ℕ) (U := UR sig nD τ) (Lvl := ℕ) spec1 c [cc1_scratch0, cc1_scratch1]) := by
  rw [scopedRest1_split]; simp only [scM1_0, scM1_1, owns_whole]; try rfl

theorem Phi1_zero (c : Dev nD) (n : ℕ) (h : n ≤ cfg1.N) (hz : n = 0) :
    Phi1 V c n h = iprop((∃ r, prngReg c r)
      ∗ ((∃ a, owns (c : Thread nD τ) scM1_0 fullShare a) ∗ (∃ a, owns (c : Thread nD τ) scM1_1 fullShare a))
      ∗ Pipeline.scopedRestBut (Ix := Unit) (Name := ℕ) (U := UR sig nD τ) (Lvl := ℕ) spec1 c [cc1_scratch0, cc1_scratch1]) := by
  subst hz
  exact Phi1_entry c

theorem Phi1_succ (c : Dev nD) (n : ℕ) (hn : n < cfg1.N) :
    Phi1 V c (n + 1) hn = iprop((∃ r, prngReg c r)
      ∗ (owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) spec1 c [cc1_scratch0, cc1_scratch1]) := rfl

theorem Phi1_pos (c : Dev nD) (n : ℕ) (h : n ≤ cfg1.N) (hz : n ≠ 0) :
    Phi1 V c n h = iprop((∃ r, prngReg c r)
      ∗ (owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) spec1 c [cc1_scratch0, cc1_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => (acc1 V c t.val t.isLt).1
    | ⟨4, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl
theorem share1 (c : Dev nD) (w : Fin cfg1.W) : (dat1 V c).q w = fullShare := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  have hN : t.val < 10 := lt_of_lt_of_eq t.isLt (show cfg1.N = 10 from N_1)
  by_cases h0 : t.val = 0
  · -- the first point
    have h1 : ¬t.val = 9 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3 t hc1) (noFlush1_3 t hc1),
      Dat.leavesExact_idle (dat1 V c) 4 t (idle1_4 t hc1) (noFlush1_4 t hc1)]
    rw [Phi1_castSucc V c t, Phi1_zero V c _ _ h0, acc1_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run1_first c Set.univ (grid1.coords t) hc0 hc1 _ _ _ _ _ _ _ _ _ _ _ _ _ _ (iblk1 V c 0 t) (iblk1 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3 t hc1], after1_3]
      rw [show (dat1 V c).leavesExact 4 t = owns (c : Thread nD τ) (st1_4 t) fullShare ((dat1 V c).after 4 t) from by
        unfold Dat.leavesExact; rw [live1_4 t hc1], after1_4]
      rw [Phi1_castSucc V c t, Phi1_pos V c _ _ h0, acc1_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run1_last c Set.univ (grid1.coords t) hc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idle1_3 t hc1) (noFlush1_3 t hc1),
        Dat.leavesExact_idle (dat1 V c) 4 t (idle1_4 t hc1) (noFlush1_4 t hc1)]
      rw [Phi1_castSucc V c t, Phi1_pos V c _ _ h0, acc1_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run1_mid c Set.univ (grid1.coords t) hc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) :
    iprop((∃ r, prngReg c r) ∗ Pipeline.scopedRest (Ix := Unit) (Name := ℕ) (U := UR sig nD τ) (Lvl := ℕ) spec1 c) ⊢ (dat1 V c).Φ 0 := by
  rw [show (dat1 V c).Φ 0 = Phi1 V c 0 (Nat.zero_le _) from rfl]
  exact Idealize.SL.BI.Entails.refl _

/-- After the last point the invariant gives it back: what the carried rows hold is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega),
    Phi1_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.K.R2.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S5000x64 := Rect.unit (s := S5000x64) ![0, 0] S5000x64.size inb_S5000x64_S5000x64_0_0

/-! ## What the body leaves in the output window's buffer -/

/-- Window 3's staging buffer after the body, from the input windows' blocks: its one store. -/
def out2_3 (x0 : Vec F S5000x64 .f32) (x1 : Vec F S1x64 .f32) (x2 : Vec F S1x64 .f32) : Vec F S5000x64 .f32 :=
  View.canon [⟨r2_3, k2_pay1 (View.ld x0 r2_0) (View.ld x1 r2_1) (View.ld x2 r2_2)⟩]

/-- The store is of the whole buffer, so it covers it. -/
theorem cover2_3 (p0 : Vec F S5000x64 .f32) (y : S5000x64.Idx) :
    ∃ pc ∈ ([⟨r2_3, p0⟩] : List (View.Piece (Elt F) S5000x64 .f32)), y ∈ pc.1.set :=
  View.cover_of_tiled [⟨r2_3, p0⟩] S5000x64.size (by rfl) y

/-! ## The body's triple -/

set_option maxHeartbeats 400000 in
/-- The kernel body on whole staging memrefs, the inputs' at contents `x_w` and the output's at anything, runs to the
    continuation holding the inputs' as they were and the output's at `out2_3` of the inputs'. -/
theorem sound_kernel2 (c : Dev nD) (E : Set ℕ) (i : grid2.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__normalize_relu_kernel i arg0 harg0 arg1 harg1 arg2 harg2 arg3 harg3) K := by
  simp only [cc2__normalize_relu_kernel_eq_skeleton]; unfold cc2__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant: the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem owed2 (c : Dev nD) (t) : (dat2 V c).owed t = 0 := rfl
theorem share2 (c : Dev nD) (w) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The invariant at the region's ends -/

theorem hin2 (c : Dev nD) : iprop((∃ r, prngReg c r) ∗ Pipeline.scopedRest (Ix := Unit) (Name := ℕ) (U := UR sig nD τ) (Lvl := ℕ) spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 (c : Dev nD) : (dat2 V c).Φ (Fin.last cfg2.N) ⊢ iprop((∃ r, prngReg c r) ∗ Pipeline.scopedRest (Ix := Unit) (Name := ℕ) (U := UR sig nD τ) (Lvl := ℕ) spec2 c) := by
  rw [show (dat2 V c).Φ (Fin.last _) = Pipeline.ΦA spec2 c from rfl]; unfold Pipeline.ΦA
  iintro ⟨Hr, Hp⟩
  isplitl [Hp]; · iexact Hp
  iexact Hr

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.R3.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (a constant block index: fetched at the first point only) likewise: where it is not fetched the
    index has not moved, so the buffer still holds this point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0

/-! ## What the body leaves in the output window's buffer -/

/-- Window 2's staging buffer after the body, from the input windows' blocks: its one store. -/
def out3_2 (x0 : Vec F S5000x64 .f32) (x1 : Vec F S64x64 .f32) : Vec F S5000x64 .f32 :=
  View.canon [⟨r3_0, k3_pay1 (View.ld x0 r3_0) (View.ld x1 r3_1)⟩]

/-- The store is of the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 400000 in
/-- The kernel body on whole staging memrefs, the inputs' at contents `x0`, `x1` and the output's at anything, runs
    to the continuation holding the inputs' as they were and the output's at `out3_2 x0 x1`. -/
theorem sound_kernel3 (c : Dev nD) (E : Set ℕ) (i : grid3.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__hw_matmul_kernel i arg0 harg0 arg1 harg1 arg2 harg2) K := by
  simp only [cc3__hw_matmul_kernel_eq_skeleton]; unfold cc3__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant: the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The invariant at the region's ends -/

theorem hin3 (c : Dev nD) : iprop((∃ r, prngReg c r) ∗ Pipeline.scopedRest (Ix := Unit) (Name := ℕ) (U := UR sig nD τ) (Lvl := ℕ) spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) : (dat3 V c).Φ (Fin.last cfg3.N) ⊢ iprop((∃ r, prngReg c r) ∗ Pipeline.scopedRest (Ix := Unit) (Name := ℕ) (U := UR sig nD τ) (Lvl := ℕ) spec3 c) := by
  rw [show (dat3 V c).Φ (Fin.last _) = Pipeline.ΦA spec3 c from rfl]; unfold Pipeline.ΦA
  iintro ⟨Hr, Hp⟩
  isplitl [Hp]; · iexact Hp
  iexact Hr

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.R4.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body's accesses go through: all of a tile, all of a row -/

abbrev rX4 : Rect S5000x64 := Rect.unit (s := S5000x64) ![0, 0] S5000x64.size inb_S5000x64_S5000x64_0_0
abbrev rA4 : Rect S1x64 := Rect.unit (s := S1x64) ![0, 0] S1x64.size inb_S1x64_S1x64_0_0

theorem rX4_emb (x : S5000x64.Idx) : rX4.emb x = x := by
  funext a; apply Fin.ext; rw [Rect.emb_apply]
  fin_cases a
  · show 0 + 1 * (x 0).val = (x 0).val; omega
  · show 0 + 1 * (x 1).val = (x 1).val; omega

theorem rA4_emb (x : S1x64.Idx) : rA4.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX4 (c : Dev nD) (M : Memref sig .tc .vmem S5000x64 .f32) (g : Buf (Elt F) (M.view.loc (c : Thread nD τ))) :
    (M.access rX4).read (Elt F) g = M.view.read (Elt F) g := by
  funext x
  show _root_.cast _ (g (M.view.emb (rX4.emb x))) = _root_.cast _ (g (M.view.emb x))
  rw [rX4_emb]

omit [FloatOps F] in
theorem read_rA4 (c : Dev nD) (M : Memref sig .tc .vmem S1x64 .f32) (g : Buf (Elt F) (M.view.loc (c : Thread nD τ))) :
    (M.access rA4).read (Elt F) g = M.view.read (Elt F) g := by
  funext x
  show _root_.cast _ (g (M.view.emb (rA4.emb x))) = _root_.cast _ (g (M.view.emb x))
  rw [rA4_emb]

omit [FloatOps F] in
/-- after a store through all of it, unmasked, it holds the value stored. -/
theorem read_write_rX4 (c : Dev nD) (M : Memref sig .tc .vmem S5000x64 .f32) (f : Buf (Elt F) (M.view.loc (c : Thread nD τ))) (v : Vec F S5000x64 .f32) :
    M.view.read (Elt F) ((M.access rX4).write (Elt F) f v Finset.univ) = v := by
  funext y
  conv_lhs => rw [← rX4_emb y]
  rw [View.read_slice_write_emb _ _ _ (Finset.mem_univ _)]

omit [FloatOps F] in
theorem read_write_rA4 (c : Dev nD) (M : Memref sig .tc .vmem S1x64 .f32) (f : Buf (Elt F) (M.view.loc (c : Thread nD τ))) (v : Vec F S1x64 .f32) :
    M.view.read (Elt F) ((M.access rA4).write (Elt F) f v Finset.univ) = v := by
  funext y
  conv_lhs => rw [← rA4_emb y]
  rw [View.read_slice_write_emb _ _ _ (Finset.mem_univ _)]

/-! ## The body's three phases, each on any memrefs and continued by any program -/

/-- The zeroing of the two carried rows at the first point: for each, a load whose value is not used, then the store
    of the zero row. -/
theorem sound_zero4 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k4_pay1 (F := F)) ∗ owns (c : Thread nD τ) M7 fullShare (k4_pay2 (F := F)))
            -∗ wp frame (wpE (defs₀ (F := F)) Variants.none c none) E (k ⟨⟩) K)
          -∗ wp frame (wpE (defs₀ (F := F)) Variants.none c none) E
              (.op (.load M6 rA4.toLoadRect (View.loadsAt_vmem h_S1x64)) fun (_ : Vec F S1x64 .f32) =>
               .op (.store M6 rA4 (k4_pay1 (F := F)) Finset.univ (View.stores_vmem_bits_univ h_S1x64 rfl) (.inl rfl)) fun _ =>
               .op (.load M7 rA4.toLoadRect (View.loadsAt_vmem h_S1x64)) fun (_ : Vec F S1x64 .f32) =>
               .op (.store M7 rA4 (k4_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA4) (View.set_slice_subset _ _)) $$ H6
  iintro H6
  iapply (wp_store Variants.none (c : Thread nD τ) none E (m := M6) (r := rA4) (Mk := Finset.univ) (View.set_slice_subset _ _)) $$ H6
  iintro H6
  iapply (wp_load_rect Variants.none (c : Thread nD τ) none E (m := M7) (r := rA4) (View.set_slice_subset _ _)) $$ H7
  iintro H7
  iapply (wp_store Variants.none (c : Thread nD τ) none E (m := M7) (r := rA4) (Mk := Finset.univ) (View.set_slice_subset _ _)) $$ H7
  iintro H7
  iapply Hk
  isplitl [H6]
  · iexists _; isplitr
    swap; · iexact H6
    ipureintro; rw [read_write_rA4]
  · iexists _; isplitr
    swap; · iexact H7
    ipureintro; rw [read_write_rA4]

/-- The accumulation, at every point: the tile and the bias row are loaded, the output tile is stored at their sum
    (row-broadcast); then each carried row is loaded, and stored at itself plus the column sums of the output tile
    (of its square, for the second). The tile and the bias row are left as they were. -/
theorem sound_acc4 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k4_pay3 x b)
              ∗ owns (c : Thread nD τ) M6 fullShare (k4_pay4 x b a6) ∗ owns (c : Thread nD τ) M7 fullShare (k4_pay5 x b a7))
            -∗ wp frame (wpE (defs₀ (F := F)) Variants.none c none) E (k ⟨⟩) K)
          -∗ wp frame (wpE (defs₀ (F := F)) Variants.none c none) E
              (.op (.load M1 rX4.toLoadRect (View.loadsAt_vmem h_S5000x64)) fun (v3 : Vec F S5000x64 .f32) =>
               .op (.load M2 rA4.toLoadRect (View.loadsAt_vmem h_S1x64)) fun (v5 : Vec F S1x64 .f32) =>
               .op (.load M3 rX4.toLoadRect (View.loadsAt_vmem h_S5000x64)) fun (_ : Vec F S5000x64 .f32) =>
               .op (.store M3 rX4 (k4_pay3 v3 v5) Finset.univ (View.stores_vmem_bits_univ h_S5000x64 rfl) (.inl rfl)) fun _ =>
               .op (.load M6 rA4.toLoadRect (View.loadsAt_vmem h_S1x64)) fun (v10 : Vec F S1x64 .f32) =>
               .op (.load M6 rA4.toLoadRect (View.loadsAt_vmem h_S1x64)) fun (_ : Vec F S1x64 .f32) =>
               .op (.store M6 rA4 (k4_pay4 v3 v5 v10) Finset.univ (View.stores_vmem_bits_univ h_S1x64 rfl) (.inl rfl)) fun _ =>
               .op (.load M7 rA4.toLoadRect (View.loadsAt_vmem h_S1x64)) fun (v17 : Vec F S1x64 .f32) =>
               .op (.load M7 rA4.toLoadRect (View.loadsAt_vmem h_S1x64)) fun (_ : Vec F S1x64 .f32) =>
               .op (.store M7 rA4 (k4_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX4) (View.set_slice_subset _ _)) $$ H1
  iintro H1
  iapply (wp_load_rect Variants.none (c : Thread nD τ) none E (m := M2) (r := rA4) (View.set_slice_subset _ _)) $$ H2
  iintro H2
  iapply (wp_load_rect Variants.none (c : Thread nD τ) none E (m := M3) (r := rX4) (View.set_slice_subset _ _)) $$ H3
  iintro H3
  iapply (wp_store Variants.none (c : Thread nD τ) none E (m := M3) (r := rX4) (Mk := Finset.univ) (View.set_slice_subset _ _)) $$ H3
  iintro H3
  iapply (wp_load_rect Variants.none (c : Thread nD τ) none E (m := M6) (r := rA4) (View.set_slice_subset _ _)) $$ H6
  iintro H6
  iapply (wp_load_rect Variants.none (c : Thread nD τ) none E (m := M6) (r := rA4) (View.set_slice_subset _ _)) $$ H6
  iintro H6
  iapply (wp_store Variants.none (c : Thread nD τ) none E (m := M6) (r := rA4) (Mk := Finset.univ) (View.set_slice_subset _ _)) $$ H6
  iintro H6
  iapply (wp_load_rect Variants.none (c : Thread nD τ) none E (m := M7) (r := rA4) (View.set_slice_subset _ _)) $$ H7
  iintro H7
  iapply (wp_load_rect Variants.none (c : Thread nD τ) none E (m := M7) (r := rA4) (View.set_slice_subset _ _)) $$ H7
  iintro H7
  iapply (wp_store Variants.none (c : Thread nD τ) none E (m := M7) (r := rA4) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX4, read_rX4, read_rA4, hg1, hg2]
  isplitl [H6]
  · iexists _; isplitr
    swap; · iexact H6
    ipureintro; simp only [read_write_rA4, read_rX4, read_rA4, hg1, hg2, hf6]
  · iexists _; isplitr
    swap; · iexact H7
    ipureintro; simp only [read_write_rA4, read_rX4, read_rA4, hg1, hg2, hf7]

/-- The copy-out at the last point: each carried row is loaded and stored through all of its one-row output's
    memref (after a load of that memref whose value is not used). The carried rows are left as they were. -/
theorem sound_epi4 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA4.toLoadRect (View.loadsAt_vmem h_S1x64)) fun (v28 : Vec F S1x64 .f32) =>
               .op (.load M4 rA4.toLoadRect (View.loadsAt_vmem h_S1x64)) fun (_ : Vec F S1x64 .f32) =>
               .op (.store M4 rA4 v28 Finset.univ (View.stores_vmem_bits_univ h_S1x64 rfl) (.inl rfl)) fun _ =>
               .op (.load M7 rA4.toLoadRect (View.loadsAt_vmem h_S1x64)) fun (v30 : Vec F S1x64 .f32) =>
               .op (.load M5 rA4.toLoadRect (View.loadsAt_vmem h_S1x64)) fun (_ : Vec F S1x64 .f32) =>
               .op (.store M5 rA4 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA4) (View.set_slice_subset _ _)) $$ H6
  iintro H6
  iapply (wp_load_rect Variants.none (c : Thread nD τ) none E (m := M4) (r := rA4) (View.set_slice_subset _ _)) $$ H4
  iintro H4
  iapply (wp_store Variants.none (c : Thread nD τ) none E (m := M4) (r := rA4) (Mk := Finset.univ) (View.set_slice_subset _ _)) $$ H4
  iintro H4
  iapply (wp_load_rect Variants.none (c : Thread nD τ) none E (m := M7) (r := rA4) (View.set_slice_subset _ _)) $$ H7
  iintro H7
  iapply (wp_load_rect Variants.none (c : Thread nD τ) none E (m := M5) (r := rA4) (View.set_slice_subset _ _)) $$ H5
  iintro H5
  iapply (wp_store Variants.none (c : Thread nD τ) none E (m := M5) (r := rA4) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA4, read_rA4, hf6]
  · iexists _; isplitr
    swap; · iexact H5
    ipureintro; rw [read_write_rA4, read_rA4, hf7]

/-! ## The body's two conditions, in closed form over the grid -/

/-- The first conditional's condition, as the body computes it from the grid coordinate: the point is the first. -/
abbrev cond4_0 (i : grid4.Coords) : Prop :=
  (Scalar.cmpi .ne (Scalar.extui (Scalar.cmpi .eq (BitVec.ofNat 32 (i 0).val) 0#32)) 0#32) = 1#1
/-- The second's: the point is the last. -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

/-- The tile, the bias row and the output tile are stored or read at every point; -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
/-- the two one-row outputs are stored at the last point only, and written back there only. -/
theorem idle4_3 : ∀ t : Fin cfg4.N, ¬cond4_1 (grid4.coords t) → cfg4.idle 3 (grid4.coords t) = true := by decide +kernel
theorem idle4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem live4_3 : ∀ t : Fin cfg4.N, cond4_1 (grid4.coords t) → cfg4.idle 3 (grid4.coords t) = false := by decide +kernel
theorem live4_4 : ∀ t : Fin cfg4.N, cond4_1 (grid4.coords t) → cfg4.idle 4 (grid4.coords t) = false := by decide +kernel

/-! ## The whole body, case by case, on any memrefs -/

/-- At the first point: the carried rows are zeroed, then accumulated into; the one-row outputs are not touched. -/
theorem run4_first (c : Dev nD) (E : Set ℕ) (i : grid4.Coords) (hc0 : cond4_0 i) (hc1 : ¬cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k4_pay3 x b)
            ∗ owns (c : Thread nD τ) arg6 fullShare (k4_pay4 x b (k4_pay1 (F := F))) ∗ owns (c : Thread nD τ) arg7 fullShare (k4_pay5 x b (k4_pay2 (F := F)))) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero4 c E arg6 arg7) $$ [H6 H7]
  · isplitl [H6]; · iexact H6
    iexact H7
  iintro ⟨H6, H7⟩
  iapply (sound_acc4 c E arg1 arg3 arg2 arg6 arg7 x b (k4_pay1 (F := F)) (k4_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run4_mid (c : Dev nD) (E : Set ℕ) (i : grid4.Coords) (hc0 : ¬cond4_0 i) (hc1 : ¬cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k4_pay3 x b)
            ∗ owns (c : Thread nD τ) arg6 fullShare (k4_pay4 x b a6) ∗ owns (c : Thread nD τ) arg7 fullShare (k4_pay5 x b a7)) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc4 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run4_last (c : Dev nD) (E : Set ℕ) (i : grid4.Coords) (hc0 : ¬cond4_0 i) (hc1 : cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k4_pay3 x b)
            ∗ owns (c : Thread nD τ) arg4 fullShare (k4_pay4 x b a6) ∗ owns (c : Thread nD τ) arg5 fullShare (k4_pay5 x b a7)
            ∗ owns (c : Thread nD τ) arg6 fullShare (k4_pay4 x b a6) ∗ owns (c : Thread nD τ) arg7 fullShare (k4_pay5 x b a7)) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc4 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi4 c E arg4 arg5 arg6 arg7 (k4_pay4 x b a6) (k4_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's current staging buffer holds the point's tile at every point, for any proof data whose array is
    `V`'s and whose body leaves the tile in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the bias row at every point, fetched there (the first) or not: its block
    index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the two carried rows hold after each point -/

/-- After point `n`: the running column sums of the output tiles of points `0 … n` (first component) and of their
    squares (second), exactly as the body's stores leave them — at point 0 over the zero rows, afterwards over what
    the point before left. -/
def acc4 (c : Dev nD) : (n : ℕ) → n < cfg4.N → Vec F S1x64 .f32 × Vec F S1x64 .f32
  | 0, hn => (k4_pay4 (iblk4 V c 0 ⟨0, hn⟩) (iblk4 V c 1 ⟨0, hn⟩) (k4_pay1 (F := F)),
              k4_pay5 (iblk4 V c 0 ⟨0, hn⟩) (iblk4 V c 1 ⟨0, hn⟩) (k4_pay2 (F := F)))
  | n + 1, hn => (k4_pay4 (iblk4 V c 0 ⟨n + 1, hn⟩) (iblk4 V c 1 ⟨n + 1, hn⟩) (acc4 c n (Nat.lt_of_succ_lt hn)).1,
                  k4_pay5 (iblk4 V c 0 ⟨n + 1, hn⟩) (iblk4 V c 1 ⟨n + 1, hn⟩) (acc4 c n (Nat.lt_of_succ_lt hn)).2)

theorem acc4_first (c : Dev nD) (t : Fin cfg4.N) (h : t.val = 0) :
    acc4 V c t.val t.isLt = (k4_pay4 (iblk4 V c 0 t) (iblk4 V c 1 t) (k4_pay1 (F := F)), k4_pay5 (iblk4 V c 0 t) (iblk4 V c 1 t) (k4_pay2 (F := F))) := by
  obtain ⟨n, hn⟩ := t
  cases n with
  | zero => rfl
  | succ n => exact absurd h (Nat.succ_ne_zero n)

theorem acc4_next (c : Dev nD) (t : Fin cfg4.N) (h : t.val ≠ 0) :
    acc4 V c t.val t.isLt
      = (k4_pay4 (iblk4 V c 0 t) (iblk4 V c 1 t) (acc4 V c (t.val - 1) (Nat.lt_of_le_of_lt (Nat.sub_le _ _) t.isLt)).1,
         k4_pay5 (iblk4 V c 0 t) (iblk4 V c 1 t) (acc4 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM4_0 : Memref sig .tc .vmem S1x64 .f32 := Memref.whole cc4_scratch0
abbrev scM4_1 : Memref sig .tc .vmem S1x64 .f32 := Memref.whole cc4_scratch1

/-- Before point `n`: the generator register at some state and the core's other scoped buffers at anything; the
    two carried rows at anything before the first point, and afterwards at what the point before left (`acc4`). -/
def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((∃ r, prngReg c r)
      ∗ (owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) spec4 c [cc4_scratch0, cc4_scratch1])

omit V in
/-- What the region is entered with, the two carried rows split out of the core's scoped buffers. -/
theorem Phi4_entry (c : Dev nD) :
    (iprop((∃ r, prngReg c r) ∗ Pipeline.scopedRest (Ix := Unit) (Name := ℕ) (U := UR sig nD τ) (Lvl := ℕ) spec4 c) : sProp 𝕄)
      = iprop((∃ r, prngReg c r)
      ∗ ((∃ a, owns (c : Thread nD τ) scM4_0 fullShare a) ∗ (∃ a, owns (c : Thread nD τ) scM4_1 fullShare a))
      ∗ Pipeline.scopedRestBut (Ix := Unit) (Name := ℕ) (U := UR sig nD τ) (Lvl := ℕ) spec4 c [cc4_scratch0, cc4_scratch1]) := by
  rw [scopedRest4_split]; simp only [scM4_0, scM4_1, owns_whole]; try rfl

theorem Phi4_zero (c : Dev nD) (n : ℕ) (h : n ≤ cfg4.N) (hz : n = 0) :
    Phi4 V c n h = iprop((∃ r, prngReg c r)
      ∗ ((∃ a, owns (c : Thread nD τ) scM4_0 fullShare a) ∗ (∃ a, owns (c : Thread nD τ) scM4_1 fullShare a))
      ∗ Pipeline.scopedRestBut (Ix := Unit) (Name := ℕ) (U := UR sig nD τ) (Lvl := ℕ) spec4 c [cc4_scratch0, cc4_scratch1]) := by
  subst hz
  exact Phi4_entry c

theorem Phi4_succ (c : Dev nD) (n : ℕ) (hn : n < cfg4.N) :
    Phi4 V c (n + 1) hn = iprop((∃ r, prngReg c r)
      ∗ (owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) spec4 c [cc4_scratch0, cc4_scratch1]) := rfl

theorem Phi4_pos (c : Dev nD) (n : ℕ) (h : n ≤ cfg4.N) (hz : n ≠ 0) :
    Phi4 V c n h = iprop((∃ r, prngReg c r)
      ∗ (owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) spec4 c [cc4_scratch0, cc4_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (iblk4 V c 0 t) (iblk4 V c 1 t)
    | ⟨3, _⟩ => (acc4 V c t.val t.isLt).1
    | ⟨4, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem share4 (c : Dev nD) (w : Fin cfg4.W) : (dat4 V c).q w = fullShare := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (iblk4 V c 0 t) (iblk4 V c 1 t) := by dsimp only [dat4]
theorem after4_3 (c : Dev nD) (t : Fin cfg4.N) : (dat4 V c).after 3 t = (acc4 V c t.val t.isLt).1 := by dsimp only [dat4]
theorem after4_4 (c : Dev nD) (t : Fin cfg4.N) : (dat4 V c).after 4 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem Phi4_castSucc (c : Dev nD) (t : Fin cfg4.N) :
    (dat4 V c).Φ t.castSucc = Phi4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
      unfold Dat.leavesExact; rw [live4_0 t], after4_0]
  rw [show (dat4 V c).leavesExact 1 t = owns (c : Thread nD τ) (st4_1 t) fullShare ((dat4 V c).after 1 t) from by
      unfold Dat.leavesExact; rw [live4_1 t], after4_1]
  rw [show (dat4 V c).leavesExact 2 t = owns (c : Thread nD τ) (st4_2 t) fullShare ((dat4 V c).after 2 t) from by
      unfold Dat.leavesExact; rw [live4_2 t], after4_2]
  have hN : t.val < 10 := lt_of_lt_of_eq t.isLt (show cfg4.N = 10 from N_4)
  by_cases h0 : t.val = 0
  · -- the first point
    have h1 : ¬t.val = 9 := by omega
    have hc0 : cond4_0 (grid4.coords t) := (hcond4_0 t).mpr h0
    have hc1 : ¬cond4_1 (grid4.coords t) := fun h => h1 ((hcond4_1 t).mp h)
    rw [Dat.leavesExact_idle (dat4 V c) 3 t (idle4_3 t hc1) (noFlush4_3 t hc1),
      Dat.leavesExact_idle (dat4 V c) 4 t (idle4_4 t hc1) (noFlush4_4 t hc1)]
    rw [Phi4_castSucc V c t, Phi4_zero V c _ _ h0, acc4_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run4_first c Set.univ (grid4.coords t) hc0 hc1 _ _ _ _ _ _ _ _ _ _ _ _ _ _ (iblk4 V c 0 t) (iblk4 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond4_0 (grid4.coords t) := fun h => h0 ((hcond4_0 t).mp h)
      have hc1 : cond4_1 (grid4.coords t) := (hcond4_1 t).mpr h1
      rw [show (dat4 V c).leavesExact 3 t = owns (c : Thread nD τ) (st4_3 t) fullShare ((dat4 V c).after 3 t) from by
        unfold Dat.leavesExact; rw [live4_3 t hc1], after4_3]
      rw [show (dat4 V c).leavesExact 4 t = owns (c : Thread nD τ) (st4_4 t) fullShare ((dat4 V c).after 4 t) from by
        unfold Dat.leavesExact; rw [live4_4 t hc1], after4_4]
      rw [Phi4_castSucc V c t, Phi4_pos V c _ _ h0, acc4_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run4_last c Set.univ (grid4.coords t) hc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond4_0 (grid4.coords t) := fun h => h0 ((hcond4_0 t).mp h)
      have hc1 : ¬cond4_1 (grid4.coords t) := fun h => h1 ((hcond4_1 t).mp h)
      rw [Dat.leavesExact_idle (dat4 V c) 3 t (idle4_3 t hc1) (noFlush4_3 t hc1),
        Dat.leavesExact_idle (dat4 V c) 4 t (idle4_4 t hc1) (noFlush4_4 t hc1)]
      rw [Phi4_castSucc V c t, Phi4_pos V c _ _ h0, acc4_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run4_mid c Set.univ (grid4.coords t) hc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) :
    iprop((∃ r, prngReg c r) ∗ Pipeline.scopedRest (Ix := Unit) (Name := ℕ) (U := UR sig nD τ) (Lvl := ℕ) spec4 c) ⊢ (dat4 V c).Φ 0 := by
  rw [show (dat4 V c).Φ 0 = Phi4 V c 0 (Nat.zero_le _) from rfl]
  exact Idealize.SL.BI.Entails.refl _

/-- After the last point the invariant gives it back: what the carried rows hold is forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega),
    Phi4_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.K.R5.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (where it is not
    fetched the block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S5000x64 := Rect.unit (s := S5000x64) ![0, 0] S5000x64.size inb_S5000x64_S5000x64_0_0

/-! ## What the body leaves in the output window's buffer -/

/-- Window 3's staging buffer after the body, from the input windows' blocks: its one store. -/
def out5_3 (x0 : Vec F S5000x64 .f32) (x1 : Vec F S1x64 .f32) (x2 : Vec F S1x64 .f32) : Vec F S5000x64 .f32 :=
  View.canon [⟨r5_3, k5_pay1 (View.ld x0 r5_0) (View.ld x1 r5_1) (View.ld x2 r5_2)⟩]

/-- The store is of the whole buffer, so it covers it. -/
theorem cover5_3 (p0 : Vec F S5000x64 .f32) (y : S5000x64.Idx) :
    ∃ pc ∈ ([⟨r5_3, p0⟩] : List (View.Piece (Elt F) S5000x64 .f32)), y ∈ pc.1.set :=
  View.cover_of_tiled [⟨r5_3, p0⟩] S5000x64.size (by rfl) y

/-! ## The body's triple -/

set_option maxHeartbeats 400000 in
/-- The kernel body on whole staging memrefs, the inputs' at contents `x_w` and the output's at anything, runs to the
    continuation holding the inputs' as they were and the output's at `out5_3` of the inputs'. -/
theorem sound_kernel5 (c : Dev nD) (E : Set ℕ) (i : grid5.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__normalize_relu_kernel i arg0 harg0 arg1 harg1 arg2 harg2 arg3 harg3) K := by
  simp only [cc5__normalize_relu_kernel_eq_skeleton]; unfold cc5__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant: the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

theorem owed5 (c : Dev nD) (t) : (dat5 V c).owed t = 0 := rfl
theorem share5 (c : Dev nD) (w) : (dat5 V c).q w = fullShare := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The invariant at the region's ends -/

theorem hin5 (c : Dev nD) : iprop((∃ r, prngReg c r) ∗ Pipeline.scopedRest (Ix := Unit) (Name := ℕ) (U := UR sig nD τ) (Lvl := ℕ) spec5 c) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 (c : Dev nD) : (dat5 V c).Φ (Fin.last cfg5.N) ⊢ iprop((∃ r, prngReg c r) ∗ Pipeline.scopedRest (Ix := Unit) (Name := ℕ) (U := UR sig nD τ) (Lvl := ℕ) spec5 c) := by
  rw [show (dat5 V c).Φ (Fin.last _) = Pipeline.ΦA spec5 c from rfl]; unfold Pipeline.ΦA
  iintro ⟨Hr, Hp⟩
  isplitl [Hp]; · iexact Hp
  iexact Hr

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.R6.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (a constant block index: fetched at the first point only) likewise: where it is not fetched the
    index has not moved, so the buffer still holds this point's block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0

/-! ## What the body leaves in the output window's buffer -/

/-- Window 2's staging buffer after the body, from the input windows' blocks: its one store. -/
def out6_2 (x0 : Vec F S5000x64 .f32) (x1 : Vec F S64x64 .f32) : Vec F S5000x64 .f32 :=
  View.canon [⟨r6_0, k6_pay1 (View.ld x0 r6_0) (View.ld x1 r6_1)⟩]

/-- The store is of the whole buffer, so it covers it. -/
theorem cover6_2 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 400000 in
/-- The kernel body on whole staging memrefs, the inputs' at contents `x0`, `x1` and the output's at anything, runs
    to the continuation holding the inputs' as they were and the output's at `out6_2 x0 x1`. -/
theorem sound_kernel6 (c : Dev nD) (E : Set ℕ) (i : grid6.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__hw_matmul_kernel i arg0 harg0 arg1 harg1 arg2 harg2) K := by
  simp only [cc6__hw_matmul_kernel_eq_skeleton]; unfold cc6__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point `t`
    each input's buffer at its block and the output's at `out6_2` of the input blocks; the invariant: the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

theorem owed6 (c : Dev nD) (t) : (dat6 V c).owed t = 0 := rfl
theorem share6 (c : Dev nD) (w) : (dat6 V c).q w = fullShare := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The invariant at the region's ends -/

theorem hin6 (c : Dev nD) : iprop((∃ r, prngReg c r) ∗ Pipeline.scopedRest (Ix := Unit) (Name := ℕ) (U := UR sig nD τ) (Lvl := ℕ) spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

theorem hout6 (c : Dev nD) : (dat6 V c).Φ (Fin.last cfg6.N) ⊢ iprop((∃ r, prngReg c r) ∗ Pipeline.scopedRest (Ix := Unit) (Name := ℕ) (U := UR sig nD τ) (Lvl := ℕ) spec6 c) := by
  rw [show (dat6 V c).Φ (Fin.last _) = Pipeline.ΦA spec6 c from rfl]; unfold Pipeline.ΦA
  iintro ⟨Hr, Hp⟩
  isplitl [Hp]; · iexact Hp
  iexact Hr

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.R7.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body's accesses go through: all of a tile, all of a row -/

abbrev rX7 : Rect S5000x64 := Rect.unit (s := S5000x64) ![0, 0] S5000x64.size inb_S5000x64_S5000x64_0_0
abbrev rA7 : Rect S1x64 := Rect.unit (s := S1x64) ![0, 0] S1x64.size inb_S1x64_S1x64_0_0

theorem rX7_emb (x : S5000x64.Idx) : rX7.emb x = x := by
  funext a; apply Fin.ext; rw [Rect.emb_apply]
  fin_cases a
  · show 0 + 1 * (x 0).val = (x 0).val; omega
  · show 0 + 1 * (x 1).val = (x 1).val; omega

theorem rA7_emb (x : S1x64.Idx) : rA7.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX7 (c : Dev nD) (M : Memref sig .tc .vmem S5000x64 .f32) (g : Buf (Elt F) (M.view.loc (c : Thread nD τ))) :
    (M.access rX7).read (Elt F) g = M.view.read (Elt F) g := by
  funext x
  show _root_.cast _ (g (M.view.emb (rX7.emb x))) = _root_.cast _ (g (M.view.emb x))
  rw [rX7_emb]

omit [FloatOps F] in
theorem read_rA7 (c : Dev nD) (M : Memref sig .tc .vmem S1x64 .f32) (g : Buf (Elt F) (M.view.loc (c : Thread nD τ))) :
    (M.access rA7).read (Elt F) g = M.view.read (Elt F) g := by
  funext x
  show _root_.cast _ (g (M.view.emb (rA7.emb x))) = _root_.cast _ (g (M.view.emb x))
  rw [rA7_emb]

omit [FloatOps F] in
/-- after a store through all of it, unmasked, it holds the value stored. -/
theorem read_write_rX7 (c : Dev nD) (M : Memref sig .tc .vmem S5000x64 .f32) (f : Buf (Elt F) (M.view.loc (c : Thread nD τ))) (v : Vec F S5000x64 .f32) :
    M.view.read (Elt F) ((M.access rX7).write (Elt F) f v Finset.univ) = v := by
  funext y
  conv_lhs => rw [← rX7_emb y]
  rw [View.read_slice_write_emb _ _ _ (Finset.mem_univ _)]

omit [FloatOps F] in
theorem read_write_rA7 (c : Dev nD) (M : Memref sig .tc .vmem S1x64 .f32) (f : Buf (Elt F) (M.view.loc (c : Thread nD τ))) (v : Vec F S1x64 .f32) :
    M.view.read (Elt F) ((M.access rA7).write (Elt F) f v Finset.univ) = v := by
  funext y
  conv_lhs => rw [← rA7_emb y]
  rw [View.read_slice_write_emb _ _ _ (Finset.mem_univ _)]

/-! ## The body's three phases, each on any memrefs and continued by any program -/

/-- The zeroing of the two carried rows at the first point: for each, a load whose value is not used, then the store
    of the zero row. -/
theorem sound_zero7 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k7_pay1 (F := F)) ∗ owns (c : Thread nD τ) M7 fullShare (k7_pay2 (F := F)))
            -∗ wp frame (wpE (defs₀ (F := F)) Variants.none c none) E (k ⟨⟩) K)
          -∗ wp frame (wpE (defs₀ (F := F)) Variants.none c none) E
              (.op (.load M6 rA7.toLoadRect (View.loadsAt_vmem h_S1x64)) fun (_ : Vec F S1x64 .f32) =>
               .op (.store M6 rA7 (k7_pay1 (F := F)) Finset.univ (View.stores_vmem_bits_univ h_S1x64 rfl) (.inl rfl)) fun _ =>
               .op (.load M7 rA7.toLoadRect (View.loadsAt_vmem h_S1x64)) fun (_ : Vec F S1x64 .f32) =>
               .op (.store M7 rA7 (k7_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA7) (View.set_slice_subset _ _)) $$ H6
  iintro H6
  iapply (wp_store Variants.none (c : Thread nD τ) none E (m := M6) (r := rA7) (Mk := Finset.univ) (View.set_slice_subset _ _)) $$ H6
  iintro H6
  iapply (wp_load_rect Variants.none (c : Thread nD τ) none E (m := M7) (r := rA7) (View.set_slice_subset _ _)) $$ H7
  iintro H7
  iapply (wp_store Variants.none (c : Thread nD τ) none E (m := M7) (r := rA7) (Mk := Finset.univ) (View.set_slice_subset _ _)) $$ H7
  iintro H7
  iapply Hk
  isplitl [H6]
  · iexists _; isplitr
    swap; · iexact H6
    ipureintro; rw [read_write_rA7]
  · iexists _; isplitr
    swap; · iexact H7
    ipureintro; rw [read_write_rA7]

/-- The accumulation, at every point: the tile and the bias row are loaded, the output tile is stored at their sum
    (row-broadcast); then each carried row is loaded, and stored at itself plus the column sums of the output tile
    (of its square, for the second). The tile and the bias row are left as they were. -/
theorem sound_acc7 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k7_pay3 x b)
              ∗ owns (c : Thread nD τ) M6 fullShare (k7_pay4 x b a6) ∗ owns (c : Thread nD τ) M7 fullShare (k7_pay5 x b a7))
            -∗ wp frame (wpE (defs₀ (F := F)) Variants.none c none) E (k ⟨⟩) K)
          -∗ wp frame (wpE (defs₀ (F := F)) Variants.none c none) E
              (.op (.load M1 rX7.toLoadRect (View.loadsAt_vmem h_S5000x64)) fun (v3 : Vec F S5000x64 .f32) =>
               .op (.load M2 rA7.toLoadRect (View.loadsAt_vmem h_S1x64)) fun (v5 : Vec F S1x64 .f32) =>
               .op (.load M3 rX7.toLoadRect (View.loadsAt_vmem h_S5000x64)) fun (_ : Vec F S5000x64 .f32) =>
               .op (.store M3 rX7 (k7_pay3 v3 v5) Finset.univ (View.stores_vmem_bits_univ h_S5000x64 rfl) (.inl rfl)) fun _ =>
               .op (.load M6 rA7.toLoadRect (View.loadsAt_vmem h_S1x64)) fun (v10 : Vec F S1x64 .f32) =>
               .op (.load M6 rA7.toLoadRect (View.loadsAt_vmem h_S1x64)) fun (_ : Vec F S1x64 .f32) =>
               .op (.store M6 rA7 (k7_pay4 v3 v5 v10) Finset.univ (View.stores_vmem_bits_univ h_S1x64 rfl) (.inl rfl)) fun _ =>
               .op (.load M7 rA7.toLoadRect (View.loadsAt_vmem h_S1x64)) fun (v17 : Vec F S1x64 .f32) =>
               .op (.load M7 rA7.toLoadRect (View.loadsAt_vmem h_S1x64)) fun (_ : Vec F S1x64 .f32) =>
               .op (.store M7 rA7 (k7_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX7) (View.set_slice_subset _ _)) $$ H1
  iintro H1
  iapply (wp_load_rect Variants.none (c : Thread nD τ) none E (m := M2) (r := rA7) (View.set_slice_subset _ _)) $$ H2
  iintro H2
  iapply (wp_load_rect Variants.none (c : Thread nD τ) none E (m := M3) (r := rX7) (View.set_slice_subset _ _)) $$ H3
  iintro H3
  iapply (wp_store Variants.none (c : Thread nD τ) none E (m := M3) (r := rX7) (Mk := Finset.univ) (View.set_slice_subset _ _)) $$ H3
  iintro H3
  iapply (wp_load_rect Variants.none (c : Thread nD τ) none E (m := M6) (r := rA7) (View.set_slice_subset _ _)) $$ H6
  iintro H6
  iapply (wp_load_rect Variants.none (c : Thread nD τ) none E (m := M6) (r := rA7) (View.set_slice_subset _ _)) $$ H6
  iintro H6
  iapply (wp_store Variants.none (c : Thread nD τ) none E (m := M6) (r := rA7) (Mk := Finset.univ) (View.set_slice_subset _ _)) $$ H6
  iintro H6
  iapply (wp_load_rect Variants.none (c : Thread nD τ) none E (m := M7) (r := rA7) (View.set_slice_subset _ _)) $$ H7
  iintro H7
  iapply (wp_load_rect Variants.none (c : Thread nD τ) none E (m := M7) (r := rA7) (View.set_slice_subset _ _)) $$ H7
  iintro H7
  iapply (wp_store Variants.none (c : Thread nD τ) none E (m := M7) (r := rA7) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX7, read_rX7, read_rA7, hg1, hg2]
  isplitl [H6]
  · iexists _; isplitr
    swap; · iexact H6
    ipureintro; simp only [read_write_rA7, read_rX7, read_rA7, hg1, hg2, hf6]
  · iexists _; isplitr
    swap; · iexact H7
    ipureintro; simp only [read_write_rA7, read_rX7, read_rA7, hg1, hg2, hf7]

/-- The copy-out at the last point: each carried row is loaded and stored through all of its one-row output's
    memref (after a load of that memref whose value is not used). The carried rows are left as they were. -/
theorem sound_epi7 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA7.toLoadRect (View.loadsAt_vmem h_S1x64)) fun (v28 : Vec F S1x64 .f32) =>
               .op (.load M4 rA7.toLoadRect (View.loadsAt_vmem h_S1x64)) fun (_ : Vec F S1x64 .f32) =>
               .op (.store M4 rA7 v28 Finset.univ (View.stores_vmem_bits_univ h_S1x64 rfl) (.inl rfl)) fun _ =>
               .op (.load M7 rA7.toLoadRect (View.loadsAt_vmem h_S1x64)) fun (v30 : Vec F S1x64 .f32) =>
               .op (.load M5 rA7.toLoadRect (View.loadsAt_vmem h_S1x64)) fun (_ : Vec F S1x64 .f32) =>
               .op (.store M5 rA7 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA7) (View.set_slice_subset _ _)) $$ H6
  iintro H6
  iapply (wp_load_rect Variants.none (c : Thread nD τ) none E (m := M4) (r := rA7) (View.set_slice_subset _ _)) $$ H4
  iintro H4
  iapply (wp_store Variants.none (c : Thread nD τ) none E (m := M4) (r := rA7) (Mk := Finset.univ) (View.set_slice_subset _ _)) $$ H4
  iintro H4
  iapply (wp_load_rect Variants.none (c : Thread nD τ) none E (m := M7) (r := rA7) (View.set_slice_subset _ _)) $$ H7
  iintro H7
  iapply (wp_load_rect Variants.none (c : Thread nD τ) none E (m := M5) (r := rA7) (View.set_slice_subset _ _)) $$ H5
  iintro H5
  iapply (wp_store Variants.none (c : Thread nD τ) none E (m := M5) (r := rA7) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA7, read_rA7, hf6]
  · iexists _; isplitr
    swap; · iexact H5
    ipureintro; rw [read_write_rA7, read_rA7, hf7]

/-! ## The body's two conditions, in closed form over the grid -/

/-- The first conditional's condition, as the body computes it from the grid coordinate: the point is the first. -/
abbrev cond7_0 (i : grid7.Coords) : Prop :=
  (Scalar.cmpi .ne (Scalar.extui (Scalar.cmpi .eq (BitVec.ofNat 32 (i 0).val) 0#32)) 0#32) = 1#1
/-- The second's: the point is the last. -/
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 9 :=
  (by decide +kernel : ∀ t : Fin grid7.N, cond7_1 (grid7.coords t) ↔ t.val = 9)

/-- The tile, the bias row and the output tile are stored or read at every point; -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- the two one-row outputs are stored at the last point only, and written back there only. -/
theorem idle7_3 : ∀ t : Fin cfg7.N, ¬cond7_1 (grid7.coords t) → cfg7.idle 3 (grid7.coords t) = true := by decide +kernel
theorem idle7_4 : ∀ t : Fin cfg7.N, ¬cond7_1 (grid7.coords t) → cfg7.idle 4 (grid7.coords t) = true := by decide +kernel
theorem noFlush7_3 : ∀ t : Fin cfg7.N, ¬cond7_1 (grid7.coords t) → (cfg7.win 3).flush t = false := by decide +kernel
theorem noFlush7_4 : ∀ t : Fin cfg7.N, ¬cond7_1 (grid7.coords t) → (cfg7.win 4).flush t = false := by decide +kernel
theorem live7_3 : ∀ t : Fin cfg7.N, cond7_1 (grid7.coords t) → cfg7.idle 3 (grid7.coords t) = false := by decide +kernel
theorem live7_4 : ∀ t : Fin cfg7.N, cond7_1 (grid7.coords t) → cfg7.idle 4 (grid7.coords t) = false := by decide +kernel

/-! ## The whole body, case by case, on any memrefs -/

/-- At the first point: the carried rows are zeroed, then accumulated into; the one-row outputs are not touched. -/
theorem run7_first (c : Dev nD) (E : Set ℕ) (i : grid7.Coords) (hc0 : cond7_0 i) (hc1 : ¬cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k7_pay3 x b)
            ∗ owns (c : Thread nD τ) arg6 fullShare (k7_pay4 x b (k7_pay1 (F := F))) ∗ owns (c : Thread nD τ) arg7 fullShare (k7_pay5 x b (k7_pay2 (F := F)))) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero7 c E arg6 arg7) $$ [H6 H7]
  · isplitl [H6]; · iexact H6
    iexact H7
  iintro ⟨H6, H7⟩
  iapply (sound_acc7 c E arg1 arg3 arg2 arg6 arg7 x b (k7_pay1 (F := F)) (k7_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run7_mid (c : Dev nD) (E : Set ℕ) (i : grid7.Coords) (hc0 : ¬cond7_0 i) (hc1 : ¬cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k7_pay3 x b)
            ∗ owns (c : Thread nD τ) arg6 fullShare (k7_pay4 x b a6) ∗ owns (c : Thread nD τ) arg7 fullShare (k7_pay5 x b a7)) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc7 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run7_last (c : Dev nD) (E : Set ℕ) (i : grid7.Coords) (hc0 : ¬cond7_0 i) (hc1 : cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k7_pay3 x b)
            ∗ owns (c : Thread nD τ) arg4 fullShare (k7_pay4 x b a6) ∗ owns (c : Thread nD τ) arg5 fullShare (k7_pay5 x b a7)
            ∗ owns (c : Thread nD τ) arg6 fullShare (k7_pay4 x b a6) ∗ owns (c : Thread nD τ) arg7 fullShare (k7_pay5 x b a7)) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc7 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi7 c E arg4 arg5 arg6 arg7 (k7_pay4 x b a6) (k7_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The tile's current staging buffer holds the point's tile at every point, for any proof data whose array is
    `V`'s and whose body leaves the tile in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row's staging buffer holds the bias row at every point, fetched there (the first) or not: its block
    index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the two carried rows hold after each point -/

/-- After point `n`: the running column sums of the output tiles of points `0 … n` (first component) and of their
    squares (second), exactly as the body's stores leave them — at point 0 over the zero rows, afterwards over what
    the point before left. -/
def acc7 (c : Dev nD) : (n : ℕ) → n < cfg7.N → Vec F S1x64 .f32 × Vec F S1x64 .f32
  | 0, hn => (k7_pay4 (iblk7 V c 0 ⟨0, hn⟩) (iblk7 V c 1 ⟨0, hn⟩) (k7_pay1 (F := F)),
              k7_pay5 (iblk7 V c 0 ⟨0, hn⟩) (iblk7 V c 1 ⟨0, hn⟩) (k7_pay2 (F := F)))
  | n + 1, hn => (k7_pay4 (iblk7 V c 0 ⟨n + 1, hn⟩) (iblk7 V c 1 ⟨n + 1, hn⟩) (acc7 c n (Nat.lt_of_succ_lt hn)).1,
                  k7_pay5 (iblk7 V c 0 ⟨n + 1, hn⟩) (iblk7 V c 1 ⟨n + 1, hn⟩) (acc7 c n (Nat.lt_of_succ_lt hn)).2)

theorem acc7_first (c : Dev nD) (t : Fin cfg7.N) (h : t.val = 0) :
    acc7 V c t.val t.isLt = (k7_pay4 (iblk7 V c 0 t) (iblk7 V c 1 t) (k7_pay1 (F := F)), k7_pay5 (iblk7 V c 0 t) (iblk7 V c 1 t) (k7_pay2 (F := F))) := by
  obtain ⟨n, hn⟩ := t
  cases n with
  | zero => rfl
  | succ n => exact absurd h (Nat.succ_ne_zero n)

theorem acc7_next (c : Dev nD) (t : Fin cfg7.N) (h : t.val ≠ 0) :
    acc7 V c t.val t.isLt
      = (k7_pay4 (iblk7 V c 0 t) (iblk7 V c 1 t) (acc7 V c (t.val - 1) (Nat.lt_of_le_of_lt (Nat.sub_le _ _) t.isLt)).1,
         k7_pay5 (iblk7 V c 0 t) (iblk7 V c 1 t) (acc7 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM7_0 : Memref sig .tc .vmem S1x64 .f32 := Memref.whole cc7_scratch0
abbrev scM7_1 : Memref sig .tc .vmem S1x64 .f32 := Memref.whole cc7_scratch1

/-- Before point `n`: the generator register at some state and the core's other scoped buffers at anything; the
    two carried rows at anything before the first point, and afterwards at what the point before left (`acc7`). -/
def Phi7 (c : Dev nD) : (n : ℕ) → n ≤ cfg7.N → sProp 𝕄
  | 0, _ => iprop((∃ r, prngReg c r) ∗ Pipeline.scopedRest (Ix := Unit) (Name := ℕ) (U := UR sig nD τ) (Lvl := ℕ) spec7 c)
  | n + 1, hn => iprop((∃ r, prngReg c r)
      ∗ (owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) spec7 c [cc7_scratch0, cc7_scratch1])

omit V in
/-- What the region is entered with, the two carried rows split out of the core's scoped buffers. -/
theorem Phi7_entry (c : Dev nD) :
    (iprop((∃ r, prngReg c r) ∗ Pipeline.scopedRest (Ix := Unit) (Name := ℕ) (U := UR sig nD τ) (Lvl := ℕ) spec7 c) : sProp 𝕄)
      = iprop((∃ r, prngReg c r)
      ∗ ((∃ a, owns (c : Thread nD τ) scM7_0 fullShare a) ∗ (∃ a, owns (c : Thread nD τ) scM7_1 fullShare a))
      ∗ Pipeline.scopedRestBut (Ix := Unit) (Name := ℕ) (U := UR sig nD τ) (Lvl := ℕ) spec7 c [cc7_scratch0, cc7_scratch1]) := by
  rw [scopedRest7_split]; simp only [scM7_0, scM7_1, owns_whole]; try rfl

theorem Phi7_zero (c : Dev nD) (n : ℕ) (h : n ≤ cfg7.N) (hz : n = 0) :
    Phi7 V c n h = iprop((∃ r, prngReg c r)
      ∗ ((∃ a, owns (c : Thread nD τ) scM7_0 fullShare a) ∗ (∃ a, owns (c : Thread nD τ) scM7_1 fullShare a))
      ∗ Pipeline.scopedRestBut (Ix := Unit) (Name := ℕ) (U := UR sig nD τ) (Lvl := ℕ) spec7 c [cc7_scratch0, cc7_scratch1]) := by
  subst hz
  exact Phi7_entry c

theorem Phi7_succ (c : Dev nD) (n : ℕ) (hn : n < cfg7.N) :
    Phi7 V c (n + 1) hn = iprop((∃ r, prngReg c r)
      ∗ (owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) spec7 c [cc7_scratch0, cc7_scratch1]) := rfl

theorem Phi7_pos (c : Dev nD) (n : ℕ) (h : n ≤ cfg7.N) (hz : n ≠ 0) :
    Phi7 V c n h = iprop((∃ r, prngReg c r)
      ∗ (owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) spec7 c [cc7_scratch0, cc7_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay3 (iblk7 V c 0 t) (iblk7 V c 1 t)
    | ⟨3, _⟩ => (acc7 V c t.val t.isLt).1
    | ⟨4, _⟩ => (acc7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem owed7 (c : Dev nD) (t : Fin (cfg7.N + 1)) : (dat7 V c).owed t = 0 := rfl
theorem share7 (c : Dev nD) (w : Fin cfg7.W) : (dat7 V c).q w = fullShare := rfl

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay3 (iblk7 V c 0 t) (iblk7 V c 1 t) := by dsimp only [dat7]
theorem after7_3 (c : Dev nD) (t : Fin cfg7.N) : (dat7 V c).after 3 t = (acc7 V c t.val t.isLt).1 := by dsimp only [dat7]
theorem after7_4 (c : Dev nD) (t : Fin cfg7.N) : (dat7 V c).after 4 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem Phi7_castSucc (c : Dev nD) (t : Fin cfg7.N) :
    (dat7 V c).Φ t.castSucc = Phi7 V c t.val (Nat.le_of_lt t.isLt) := by
  dsimp only [dat7]; simp only [Fin.coe_castSucc]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
      unfold Dat.leavesExact; rw [live7_0 t], after7_0]
  rw [show (dat7 V c).leavesExact 1 t = owns (c : Thread nD τ) (st7_1 t) fullShare ((dat7 V c).after 1 t) from by
      unfold Dat.leavesExact; rw [live7_1 t], after7_1]
  rw [show (dat7 V c).leavesExact 2 t = owns (c : Thread nD τ) (st7_2 t) fullShare ((dat7 V c).after 2 t) from by
      unfold Dat.leavesExact; rw [live7_2 t], after7_2]
  have hN : t.val < 10 := lt_of_lt_of_eq t.isLt (show cfg7.N = 10 from N_7)
  by_cases h0 : t.val = 0
  · -- the first point
    have h1 : ¬t.val = 9 := by omega
    have hc0 : cond7_0 (grid7.coords t) := (hcond7_0 t).mpr h0
    have hc1 : ¬cond7_1 (grid7.coords t) := fun h => h1 ((hcond7_1 t).mp h)
    rw [Dat.leavesExact_idle (dat7 V c) 3 t (idle7_3 t hc1) (noFlush7_3 t hc1),
      Dat.leavesExact_idle (dat7 V c) 4 t (idle7_4 t hc1) (noFlush7_4 t hc1)]
    rw [Phi7_castSucc V c t, Phi7_zero V c _ _ h0, acc7_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run7_first c Set.univ (grid7.coords t) hc0 hc1 _ _ _ _ _ _ _ _ _ _ _ _ _ _ (iblk7 V c 0 t) (iblk7 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond7_0 (grid7.coords t) := fun h => h0 ((hcond7_0 t).mp h)
      have hc1 : cond7_1 (grid7.coords t) := (hcond7_1 t).mpr h1
      rw [show (dat7 V c).leavesExact 3 t = owns (c : Thread nD τ) (st7_3 t) fullShare ((dat7 V c).after 3 t) from by
        unfold Dat.leavesExact; rw [live7_3 t hc1], after7_3]
      rw [show (dat7 V c).leavesExact 4 t = owns (c : Thread nD τ) (st7_4 t) fullShare ((dat7 V c).after 4 t) from by
        unfold Dat.leavesExact; rw [live7_4 t hc1], after7_4]
      rw [Phi7_castSucc V c t, Phi7_pos V c _ _ h0, acc7_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run7_last c Set.univ (grid7.coords t) hc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond7_0 (grid7.coords t) := fun h => h0 ((hcond7_0 t).mp h)
      have hc1 : ¬cond7_1 (grid7.coords t) := fun h => h1 ((hcond7_1 t).mp h)
      rw [Dat.leavesExact_idle (dat7 V c) 3 t (idle7_3 t hc1) (noFlush7_3 t hc1),
        Dat.leavesExact_idle (dat7 V c) 4 t (idle7_4 t hc1) (noFlush7_4 t hc1)]
      rw [Phi7_castSucc V c t, Phi7_pos V c _ _ h0, acc7_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run7_mid c Set.univ (grid7.coords t) hc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) :
    iprop((∃ r, prngReg c r) ∗ Pipeline.scopedRest (Ix := Unit) (Name := ℕ) (U := UR sig nD τ) (Lvl := ℕ) spec7 c) ⊢ (dat7 V c).Φ 0 := by
  rw [show (dat7 V c).Φ 0 = Phi7 V c 0 (Nat.zero_le _) from rfl]
  exact Idealize.SL.BI.Entails.refl _

/-- After the last point the invariant gives it back: what the carried rows hold is forgotten. -/
theorem hout7 (c : Dev nD) :
    (dat7 V c).Φ (Fin.last cfg7.N) ⊢ iprop((∃ r, prngReg c r) ∗ Pipeline.scopedRest (Ix := Unit) (Name := ℕ) (U := UR sig nD τ) (Lvl := ℕ) spec7 c) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega),
    Phi7_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.K.R8.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (where it is not
    fetched the block index has not moved), for any proof data whose array is `V`'s and whose body leaves the block
    in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S5000x64 := Rect.unit (s := S5000x64) ![0, 0] S5000x64.size inb_S5000x64_S5000x64_0_0

/-! ## What the body leaves in the output window's buffer -/

/-- Window 3's staging buffer after the body, from the input windows' blocks: its one store. -/
def out8_3 (x0 : Vec F S5000x64 .f32) (x1 : Vec F S1x64 .f32) (x2 : Vec F S1x64 .f32) : Vec F S5000x64 .f32 :=
  View.canon [⟨r8_3, k8_pay1 (View.ld x0 r8_0) (View.ld x1 r8_1) (View.ld x2 r8_2)⟩]

/-- The store is of the whole buffer, so it covers it. -/
theorem cover8_3 (p0 : Vec F S5000x64 .f32) (y : S5000x64.Idx) :
    ∃ pc ∈ ([⟨r8_3, p0⟩] : List (View.Piece (Elt F) S5000x64 .f32)), y ∈ pc.1.set :=
  View.cover_of_tiled [⟨r8_3, p0⟩] S5000x64.size (by rfl) y

/-! ## The body's triple -/

set_option maxHeartbeats 400000 in
/-- The kernel body on whole staging memrefs, the inputs' at contents `x_w` and the output's at anything, runs to the
    continuation holding the inputs' as they were and the output's at `out8_3` of the inputs'. -/
theorem sound_kernel8 (c : Dev nD) (E : Set ℕ) (i : grid8.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__normalize_relu_kernel i arg0 harg0 arg1 harg1 arg2 harg2 arg3 harg3) K := by
  simp only [cc8__normalize_relu_kernel_eq_skeleton]; unfold cc8__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant: the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

theorem owed8 (c : Dev nD) (t) : (dat8 V c).owed t = 0 := rfl
theorem share8 (c : Dev nD) (w) : (dat8 V c).q w = fullShare := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The invariant at the region's ends -/

theorem hin8 (c : Dev nD) : iprop((∃ r, prngReg c r) ∗ Pipeline.scopedRest (Ix := Unit) (Name := ℕ) (U := UR sig nD τ) (Lvl := ℕ) spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

theorem hout8 (c : Dev nD) : (dat8 V c).Φ (Fin.last cfg8.N) ⊢ iprop((∃ r, prngReg c r) ∗ Pipeline.scopedRest (Ix := Unit) (Name := ℕ) (U := UR sig nD τ) (Lvl := ℕ) spec8 c) := by
  rw [show (dat8 V c).Φ (Fin.last _) = Pipeline.ΦA spec8 c from rfl]; unfold Pipeline.ΦA
  iintro ⟨Hr, Hp⟩
  isplitl [Hp]; · iexact Hp
  iexact Hr

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.R9.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (a constant block index: fetched at the first point only) likewise: where it is not fetched the
    index has not moved, so the buffer still holds this point's block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0

/-! ## What the body leaves in the output window's buffer -/

/-- Window 2's staging buffer after the body, from the input windows' blocks: its one store. -/
def out9_2 (x0 : Vec F S5000x64 .f32) (x1 : Vec F S64x64 .f32) : Vec F S5000x64 .f32 :=
  View.canon [⟨r9_0, k9_pay1 (View.ld x0 r9_0) (View.ld x1 r9_1)⟩]

/-- The store is of the whole buffer, so it covers it. -/
theorem cover9_2 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 400000 in
/-- The kernel body on whole staging memrefs, the inputs' at contents `x0`, `x1` and the output's at anything, runs
    to the continuation holding the inputs' as they were and the output's at `out9_2 x0 x1`. -/
theorem sound_kernel9 (c : Dev nD) (E : Set ℕ) (i : grid9.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__hw_matmul_kernel i arg0 harg0 arg1 harg1 arg2 harg2) K := by
  simp only [cc9__hw_matmul_kernel_eq_skeleton]; unfold cc9__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them (`V`); after the body at point `t`
    each input's buffer at its block and the output's at `out9_2` of the input blocks; the invariant: the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

theorem owed9 (c : Dev nD) (t) : (dat9 V c).owed t = 0 := rfl
theorem share9 (c : Dev nD) (w) : (dat9 V c).q w = fullShare := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The invariant at the region's ends -/

theorem hin9 (c : Dev nD) : iprop((∃ r, prngReg c r) ∗ Pipeline.scopedRest (Ix := Unit) (Name := ℕ) (U := UR sig nD τ) (Lvl := ℕ) spec9 c) ⊢ (dat9 V c).Φ 0 := by
  rw [show (dat9 V c).Φ 0 = Pipeline.ΦA spec9 c from rfl]; unfold Pipeline.ΦA
  iintro ⟨Hp, Hr⟩
  isplitl [Hr]; · iexact Hr
  iexact Hp

theorem hout9 (c : Dev nD) : (dat9 V c).Φ (Fin.last cfg9.N) ⊢ iprop((∃ r, prngReg c r) ∗ Pipeline.scopedRest (Ix := Unit) (Name := ℕ) (U := UR sig nD τ) (Lvl := ℕ) spec9 c) := by
  rw [show (dat9 V c).Φ (Fin.last _) = Pipeline.ΦA spec9 c from rfl]; unfold Pipeline.ΦA
  iintro ⟨Hr, Hp⟩
  isplitl [Hp]; · iexact Hp
  iexact Hr

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K.R10.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body's accesses go through: all of a tile, all of a row -/

abbrev rX10 : Rect S5000x64 := Rect.unit (s := S5000x64) ![0, 0] S5000x64.size inb_S5000x64_S5000x64_0_0
abbrev rA10 : Rect S1x64 := Rect.unit (s := S1x64) ![0, 0] S1x64.size inb_S1x64_S1x64_0_0

theorem rX10_emb (x : S5000x64.Idx) : rX10.emb x = x := by
  funext a; apply Fin.ext; rw [Rect.emb_apply]
  fin_cases a
  · show 0 + 1 * (x 0).val = (x 0).val; omega
  · show 0 + 1 * (x 1).val = (x 1).val; omega

theorem rA10_emb (x : S1x64.Idx) : rA10.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX10 (c : Dev nD) (M : Memref sig .tc .vmem S5000x64 .f32) (g : Buf (Elt F) (M.view.loc (c : Thread nD τ))) :
    (M.access rX10).read (Elt F) g = M.view.read (Elt F) g := by
  funext x
  show _root_.cast _ (g (M.view.emb (rX10.emb x))) = _root_.cast _ (g (M.view.emb x))
  rw [rX10_emb]

omit [FloatOps F] in
theorem read_rA10 (c : Dev nD) (M : Memref sig .tc .vmem S1x64 .f32) (g : Buf (Elt F) (M.view.loc (c : Thread nD τ))) :
    (M.access rA10).read (Elt F) g = M.view.read (Elt F) g := by
  funext x
  show _root_.cast _ (g (M.view.emb (rA10.emb x))) = _root_.cast _ (g (M.view.emb x))
  rw [rA10_emb]

omit [FloatOps F] in
/-- after a store through all of it, unmasked, it holds the value stored. -/
theorem read_write_rX10 (c : Dev nD) (M : Memref sig .tc .vmem S5000x64 .f32) (f : Buf (Elt F) (M.view.loc (c : Thread nD τ))) (v : Vec F S5000x64 .f32) :
    M.view.read (Elt F) ((M.access rX10).write (Elt F) f v Finset.univ) = v := by
  funext y
  conv_lhs => rw [← rX10_emb y]
  rw [View.read_slice_write_emb _ _ _ (Finset.mem_univ _)]

omit [FloatOps F] in
theorem read_write_rA10 (c : Dev nD) (M : Memref sig .tc .vmem S1x64 .f32) (f : Buf (Elt F) (M.view.loc (c : Thread nD τ))) (v : Vec F S1x64 .f32) :
    M.view.read (Elt F) ((M.access rA10).write (Elt F) f v Finset.univ) = v := by
  funext y
  conv_lhs => rw [← rA10_emb y]
  rw [View.read_slice_write_emb _ _ _ (Finset.mem_univ _)]

/-! ## The body's three phases, each on any memrefs and continued by any program -/

/-- The zeroing of the two carried rows at the first point: for each, a load whose value is not used, then the store
    of the zero row. -/
theorem sound_zero10 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k10_pay1 (F := F)) ∗ owns (c : Thread nD τ) M7 fullShare (k10_pay2 (F := F)))
            -∗ wp frame (wpE (defs₀ (F := F)) Variants.none c none) E (k ⟨⟩) K)
          -∗ wp frame (wpE (defs₀ (F := F)) Variants.none c none) E
              (.op (.load M6 rA10.toLoadRect (View.loadsAt_vmem h_S1x64)) fun (_ : Vec F S1x64 .f32) =>
               .op (.store M6 rA10 (k10_pay1 (F := F)) Finset.univ (View.stores_vmem_bits_univ h_S1x64 rfl) (.inl rfl)) fun _ =>
               .op (.load M7 rA10.toLoadRect (View.loadsAt_vmem h_S1x64)) fun (_ : Vec F S1x64 .f32) =>
               .op (.store M7 rA10 (k10_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA10) (View.set_slice_subset _ _)) $$ H6
  iintro H6
  iapply (wp_store Variants.none (c : Thread nD τ) none E (m := M6) (r := rA10) (Mk := Finset.univ) (View.set_slice_subset _ _)) $$ H6
  iintro H6
  iapply (wp_load_rect Variants.none (c : Thread nD τ) none E (m := M7) (r := rA10) (View.set_slice_subset _ _)) $$ H7
  iintro H7
  iapply (wp_store Variants.none (c : Thread nD τ) none E (m := M7) (r := rA10) (Mk := Finset.univ) (View.set_slice_subset _ _)) $$ H7
  iintro H7
  iapply Hk
  isplitl [H6]
  · iexists _; isplitr
    swap; · iexact H6
    ipureintro; rw [read_write_rA10]
  · iexists _; isplitr
    swap; · iexact H7
    ipureintro; rw [read_write_rA10]

/-- The accumulation, at every point: the tile and the bias row are loaded, the output tile is stored at their sum
    (row-broadcast); then each carried row is loaded, and stored at itself plus the column sums of the output tile
    (of its square, for the second). The tile and the bias row are left as they were. -/
theorem sound_acc10 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k10_pay3 x b)
              ∗ owns (c : Thread nD τ) M6 fullShare (k10_pay4 x b a6) ∗ owns (c : Thread nD τ) M7 fullShare (k10_pay5 x b a7))
            -∗ wp frame (wpE (defs₀ (F := F)) Variants.none c none) E (k ⟨⟩) K)
          -∗ wp frame (wpE (defs₀ (F := F)) Variants.none c none) E
              (.op (.load M1 rX10.toLoadRect (View.loadsAt_vmem h_S5000x64)) fun (v3 : Vec F S5000x64 .f32) =>
               .op (.load M2 rA10.toLoadRect (View.loadsAt_vmem h_S1x64)) fun (v5 : Vec F S1x64 .f32) =>
               .op (.load M3 rX10.toLoadRect (View.loadsAt_vmem h_S5000x64)) fun (_ : Vec F S5000x64 .f32) =>
               .op (.store M3 rX10 (k10_pay3 v3 v5) Finset.univ (View.stores_vmem_bits_univ h_S5000x64 rfl) (.inl rfl)) fun _ =>
               .op (.load M6 rA10.toLoadRect (View.loadsAt_vmem h_S1x64)) fun (v10 : Vec F S1x64 .f32) =>
               .op (.load M6 rA10.toLoadRect (View.loadsAt_vmem h_S1x64)) fun (_ : Vec F S1x64 .f32) =>
               .op (.store M6 rA10 (k10_pay4 v3 v5 v10) Finset.univ (View.stores_vmem_bits_univ h_S1x64 rfl) (.inl rfl)) fun _ =>
               .op (.load M7 rA10.toLoadRect (View.loadsAt_vmem h_S1x64)) fun (v17 : Vec F S1x64 .f32) =>
               .op (.load M7 rA10.toLoadRect (View.loadsAt_vmem h_S1x64)) fun (_ : Vec F S1x64 .f32) =>
               .op (.store M7 rA10 (k10_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX10) (View.set_slice_subset _ _)) $$ H1
  iintro H1
  iapply (wp_load_rect Variants.none (c : Thread nD τ) none E (m := M2) (r := rA10) (View.set_slice_subset _ _)) $$ H2
  iintro H2
  iapply (wp_load_rect Variants.none (c : Thread nD τ) none E (m := M3) (r := rX10) (View.set_slice_subset _ _)) $$ H3
  iintro H3
  iapply (wp_store Variants.none (c : Thread nD τ) none E (m := M3) (r := rX10) (Mk := Finset.univ) (View.set_slice_subset _ _)) $$ H3
  iintro H3
  iapply (wp_load_rect Variants.none (c : Thread nD τ) none E (m := M6) (r := rA10) (View.set_slice_subset _ _)) $$ H6
  iintro H6
  iapply (wp_load_rect Variants.none (c : Thread nD τ) none E (m := M6) (r := rA10) (View.set_slice_subset _ _)) $$ H6
  iintro H6
  iapply (wp_store Variants.none (c : Thread nD τ) none E (m := M6) (r := rA10) (Mk := Finset.univ) (View.set_slice_subset _ _)) $$ H6
  iintro H6
  iapply (wp_load_rect Variants.none (c : Thread nD τ) none E (m := M7) (r := rA10) (View.set_slice_subset _ _)) $$ H7
  iintro H7
  iapply (wp_load_rect Variants.none (c : Thread nD τ) none E (m := M7) (r := rA10) (View.set_slice_subset _ _)) $$ H7
  iintro H7
  iapply (wp_store Variants.none (c : Thread nD τ) none E (m := M7) (r := rA10) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX10, read_rX10, read_rA10, hg1, hg2]
  isplitl [H6]
  · iexists _; isplitr
    swap; · iexact H6
    ipureintro; simp only [read_write_rA10, read_rX10, read_rA10, hg1, hg2, hf6]
  · iexists _; isplitr
    swap; · iexact H7
    ipureintro; simp only [read_write_rA10, read_rX10, read_rA10, hg1, hg2, hf7]

/-- The copy-out at the last point: each carried row is loaded and stored through all of its one-row output's
    memref (after a load of that memref whose value is not used). The carried rows are left as they were. -/
theorem sound_epi10 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA10.toLoadRect (View.loadsAt_vmem h_S1x64)) fun (v28 : Vec F S1x64 .f32) =>
               .op (.load M4 rA10.toLoadRect (View.loadsAt_vmem h_S1x64)) fun (_ : Vec F S1x64 .f32) =>
               .op (.store M4 rA10 v28 Finset.univ (View.stores_vmem_bits_univ h_S1x64 rfl) (.inl rfl)) fun _ =>
               .op (.load M7 rA10.toLoadRect (View.loadsAt_vmem h_S1x64)) fun (v30 : Vec F S1x64 .f32) =>
               .op (.load M5 rA10.toLoadRect (View.loadsAt_vmem h_S1x64)) fun (_ : Vec F S1x64 .f32) =>
               .op (.store M5 rA10 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA10) (View.set_slice_subset _ _)) $$ H6
  iintro H6
  iapply (wp_load_rect Variants.none (c : Thread nD τ) none E (m := M4) (r := rA10) (View.set_slice_subset _ _)) $$ H4
  iintro H4
  iapply (wp_store Variants.none (c : Thread nD τ) none E (m := M4) (r := rA10) (Mk := Finset.univ) (View.set_slice_subset _ _)) $$ H4
  iintro H4
  iapply (wp_load_rect Variants.none (c : Thread nD τ) none E (m := M7) (r := rA10) (View.set_slice_subset _ _)) $$ H7
  iintro H7
  iapply (wp_load_rect Variants.none (c : Thread nD τ) none E (m := M5) (r := rA10) (View.set_slice_subset _ _)) $$ H5
  iintro H5
  iapply (wp_store Variants.none (c : Thread nD τ) none E (m := M5) (r := rA10) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA10, read_rA10, hf6]
  · iexists _; isplitr
    swap; · iexact H5
    ipureintro; rw [read_write_rA10, read_rA10, hf7]

/-! ## The body's two conditions, in closed form over the grid -/

/-- The first conditional's condition, as the body computes it from the grid coordinate: the point is the first. -/
abbrev cond10_0 (i : grid10.Coords) : Prop :=
  (Scalar.cmpi .ne (Scalar.extui (Scalar.cmpi .eq (BitVec.ofNat 32 (i 0).val) 0#32)) 0#32) = 1#1
/-- The second's: the point is the last. -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

/-- The tile, the bias row and the output tile are stored or read at every point; -/
theorem live10_0 : ∀ t : Fin cfg10.N, cfg10.idle 0 (grid10.coords t) = false := by decide +kernel
theorem live10_1 : ∀ t : Fin cfg10.N, cfg10.idle 1 (grid10.coords t) = false := by decide +kernel
theorem live10_2 : ∀ t : Fin cfg10.N, cfg10.idle 2 (grid10.coords t) = false := by decide +kernel
/-- the two one-row outputs are stored at the last point only, and written back there only. -/
theorem idle10_3 : ∀ t : Fin cfg10.N, ¬cond10_1 (grid10.coords t) → cfg10.idle 3 (grid10.coords t) = true := by decide +kernel
theorem idle10_4 : ∀ t : Fin cfg10.N, ¬cond10_1 (grid10.coords t) → cfg10.idle 4 (grid10.coords t) = true := by decide +kernel
theorem noFlush10_3 : ∀ t : Fin cfg10.N, ¬cond10_1 (grid10.coords t) → (cfg10.win 3).flush t = false := by decide +kernel
theorem noFlush10_4 : ∀ t : Fin cfg10.N, ¬cond10_1 (grid10.coords t) → (cfg10.win 4).flush t = false := by decide +kernel
theorem live10_3 : ∀ t : Fin cfg10.N, cond10_1 (grid10.coords t) → cfg10.idle 3 (grid10.coords t) = false := by decide +kernel
theorem live10_4 : ∀ t : Fin cfg10.N, cond10_1 (grid10.coords t) → cfg10.idle 4 (grid10.coords t) = false := by decide +kernel

/-! ## The whole body, case by case, on any memrefs -/

/-- At the first point: the carried rows are zeroed, then accumulated into; the one-row outputs are not touched. -/
theorem run10_first (c : Dev nD) (E : Set ℕ) (i : grid10.Coords) (hc0 : cond10_0 i) (hc1 : ¬cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k10_pay3 x b)
            ∗ owns (c : Thread nD τ) arg6 fullShare (k10_pay4 x b (k10_pay1 (F := F))) ∗ owns (c : Thread nD τ) arg7 fullShare (k10_pay5 x b (k10_pay2 (F := F)))) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero10 c E arg6 arg7) $$ [H6 H7]
  · isplitl [H6]; · iexact H6
    iexact H7
  iintro ⟨H6, H7⟩
  iapply (sound_acc10 c E arg1 arg3 arg2 arg6 arg7 x b (k10_pay1 (F := F)) (k10_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run10_mid (c : Dev nD) (E : Set ℕ) (i : grid10.Coords) (hc0 : ¬cond10_0 i) (hc1 : ¬cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k10_pay3 x b)
            ∗ owns (c : Thread nD τ) arg6 fullShare (k10_pay4 x b a6) ∗ owns (c : Thread nD τ) arg7 fullShare (k10_pay5 x b a7)) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc10 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run10_last (c : Dev nD) (E : Set ℕ) (i : grid10.Coords) (hc0 : ¬cond10_0 i) (hc1 : cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k10_pay3 x b)
            ∗ owns (c : Thread nD τ) arg4 fullShare (k10_pay4 x b a6) ∗ owns (c : Thread nD τ) arg5 fullShare (k10_pay5 x b a7)
            ∗ owns (c : Thread nD τ) arg6 fullShare (k10_pay4 x b a6) ∗ owns (c : Thread nD τ) arg7 fullShare (k10_pay5 x b a7)) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc10 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi10 c E arg4 arg5 arg6 arg7 (k10_pay4 x b a6) (k10_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The tile's current staging buffer holds the point's tile at every point, for any proof data whose array is
    `V`'s and whose body leaves the tile in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The bias row's staging buffer holds the bias row at every point, fetched there (the first) or not: its block
    index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What the two carried rows hold after each point -/

/-- After point `n`: the running column sums of the output tiles of points `0 … n` (first component) and of their
    squares (second), exactly as the body's stores leave them — at point 0 over the zero rows, afterwards over what
    the point before left. -/
def acc10 (c : Dev nD) : (n : ℕ) → n < cfg10.N → Vec F S1x64 .f32 × Vec F S1x64 .f32
  | 0, hn => (k10_pay4 (iblk10 V c 0 ⟨0, hn⟩) (iblk10 V c 1 ⟨0, hn⟩) (k10_pay1 (F := F)),
              k10_pay5 (iblk10 V c 0 ⟨0, hn⟩) (iblk10 V c 1 ⟨0, hn⟩) (k10_pay2 (F := F)))
  | n + 1, hn => (k10_pay4 (iblk10 V c 0 ⟨n + 1, hn⟩) (iblk10 V c 1 ⟨n + 1, hn⟩) (acc10 c n (Nat.lt_of_succ_lt hn)).1,
                  k10_pay5 (iblk10 V c 0 ⟨n + 1, hn⟩) (iblk10 V c 1 ⟨n + 1, hn⟩) (acc10 c n (Nat.lt_of_succ_lt hn)).2)

theorem acc10_first (c : Dev nD) (t : Fin cfg10.N) (h : t.val = 0) :
    acc10 V c t.val t.isLt = (k10_pay4 (iblk10 V c 0 t) (iblk10 V c 1 t) (k10_pay1 (F := F)), k10_pay5 (iblk10 V c 0 t) (iblk10 V c 1 t) (k10_pay2 (F := F))) := by
  obtain ⟨n, hn⟩ := t
  cases n with
  | zero => rfl
  | succ n => exact absurd h (Nat.succ_ne_zero n)

theorem acc10_next (c : Dev nD) (t : Fin cfg10.N) (h : t.val ≠ 0) :
    acc10 V c t.val t.isLt
      = (k10_pay4 (iblk10 V c 0 t) (iblk10 V c 1 t) (acc10 V c (t.val - 1) (Nat.lt_of_le_of_lt (Nat.sub_le _ _) t.isLt)).1,
         k10_pay5 (iblk10 V c 0 t) (iblk10 V c 1 t) (acc10 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM10_0 : Memref sig .tc .vmem S1x64 .f32 := Memref.whole cc10_scratch0
abbrev scM10_1 : Memref sig .tc .vmem S1x64 .f32 := Memref.whole cc10_scratch1

/-- Before point `n`: the generator register at some state and the core's other scoped buffers at anything; the
    two carried rows at anything before the first point, and afterwards at what the point before left (`acc10`). -/
def Phi10 (c : Dev nD) : (n : ℕ) → n ≤ cfg10.N → sProp 𝕄
  | 0, _ => iprop((∃ r, prngReg c r) ∗ Pipeline.scopedRest (Ix := Unit) (Name := ℕ) (U := UR sig nD τ) (Lvl := ℕ) spec10 c)
  | n + 1, hn => iprop((∃ r, prngReg c r)
      ∗ (owns (c : Thread nD τ) scM10_0 fullShare (acc10 V c n hn).1 ∗ owns (c : Thread nD τ) scM10_1 fullShare (acc10 V c n hn).2)
      ∗ Pipeline.scopedRestBut (Ix := Unit) (Name := ℕ) (U := UR sig nD τ) (Lvl := ℕ) spec10 c [cc10_scratch0, cc10_scratch1])

omit V in
/-- What the region is entered with, the two carried rows split out of the core's scoped buffers. -/
theorem Phi10_entry (c : Dev nD) :
    (iprop((∃ r, prngReg c r) ∗ Pipeline.scopedRest (Ix := Unit) (Name := ℕ) (U := UR sig nD τ) (Lvl := ℕ) spec10 c) : sProp 𝕄)
      = iprop((∃ r, prngReg c r)
      ∗ ((∃ a, owns (c : Thread nD τ) scM10_0 fullShare a) ∗ (∃ a, owns (c : Thread nD τ) scM10_1 fullShare a))
      ∗ Pipeline.scopedRestBut (Ix := Unit) (Name := ℕ) (U := UR sig nD τ) (Lvl := ℕ) spec10 c [cc10_scratch0, cc10_scratch1]) := by
  rw [scopedRest10_split]; simp only [scM10_0, scM10_1, owns_whole]; try rfl

theorem Phi10_zero (c : Dev nD) (n : ℕ) (h : n ≤ cfg10.N) (hz : n = 0) :
    Phi10 V c n h = iprop((∃ r, prngReg c r)
      ∗ ((∃ a, owns (c : Thread nD τ) scM10_0 fullShare a) ∗ (∃ a, owns (c : Thread nD τ) scM10_1 fullShare a))
      ∗ Pipeline.scopedRestBut (Ix := Unit) (Name := ℕ) (U := UR sig nD τ) (Lvl := ℕ) spec10 c [cc10_scratch0, cc10_scratch1]) := by
  subst hz
  exact Phi10_entry c

theorem Phi10_succ (c : Dev nD) (n : ℕ) (hn : n < cfg10.N) :
    Phi10 V c (n + 1) hn = iprop((∃ r, prngReg c r)
      ∗ (owns (c : Thread nD τ) scM10_0 fullShare (acc10 V c n hn).1 ∗ owns (c : Thread nD τ) scM10_1 fullShare (acc10 V c n hn).2)
      ∗ Pipeline.scopedRestBut (Ix := Unit) (Name := ℕ) (U := UR sig nD τ) (Lvl := ℕ) spec10 c [cc10_scratch0, cc10_scratch1]) := rfl

theorem Phi10_pos (c : Dev nD) (n : ℕ) (h : n ≤ cfg10.N) (hz : n ≠ 0) :
    Phi10 V c n h = iprop((∃ r, prngReg c r)
      ∗ (owns (c : Thread nD τ) scM10_0 fullShare (acc10 V c (n - 1) (by omega)).1 ∗ owns (c : Thread nD τ) scM10_1 fullShare (acc10 V c (n - 1) (by omega)).2)
      ∗ Pipeline.scopedRestBut (Ix := Unit) (Name := ℕ) (U := UR sig nD τ) (Lvl := ℕ) spec10 c [cc10_scratch0, cc10_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (iblk10 V c 0 t) (iblk10 V c 1 t)
    | ⟨3, _⟩ => (acc10 V c t.val t.isLt).1
    | ⟨4, _⟩ => (acc10 V c t.val t.isLt).2
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem owed10 (c : Dev nD) (t : Fin (cfg10.N + 1)) : (dat10 V c).owed t = 0 := rfl
theorem share10 (c : Dev nD) (w : Fin cfg10.W) : (dat10 V c).q w = fullShare := rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (iblk10 V c 0 t) (iblk10 V c 1 t) := by dsimp only [dat10]
theorem after10_3 (c : Dev nD) (t : Fin cfg10.N) : (dat10 V c).after 3 t = (acc10 V c t.val t.isLt).1 := by dsimp only [dat10]
theorem after10_4 (c : Dev nD) (t : Fin cfg10.N) : (dat10 V c).after 4 t = (acc10 V c t.val t.isLt).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

theorem Phi10_castSucc (c : Dev nD) (t : Fin cfg10.N) :
    (dat10 V c).Φ t.castSucc = Phi10 V c t.val (Nat.le_of_lt t.isLt) := by
  dsimp only [dat10]; simp only [Fin.coe_castSucc]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
      unfold Dat.leavesExact; rw [live10_0 t], after10_0]
  rw [show (dat10 V c).leavesExact 1 t = owns (c : Thread nD τ) (st10_1 t) fullShare ((dat10 V c).after 1 t) from by
      unfold Dat.leavesExact; rw [live10_1 t], after10_1]
  rw [show (dat10 V c).leavesExact 2 t = owns (c : Thread nD τ) (st10_2 t) fullShare ((dat10 V c).after 2 t) from by
      unfold Dat.leavesExact; rw [live10_2 t], after10_2]
  have hN : t.val < 10 := lt_of_lt_of_eq t.isLt (show cfg10.N = 10 from N_10)
  by_cases h0 : t.val = 0
  · -- the first point
    have h1 : ¬t.val = 9 := by omega
    have hc0 : cond10_0 (grid10.coords t) := (hcond10_0 t).mpr h0
    have hc1 : ¬cond10_1 (grid10.coords t) := fun h => h1 ((hcond10_1 t).mp h)
    rw [Dat.leavesExact_idle (dat10 V c) 3 t (idle10_3 t hc1) (noFlush10_3 t hc1),
      Dat.leavesExact_idle (dat10 V c) 4 t (idle10_4 t hc1) (noFlush10_4 t hc1)]
    rw [Phi10_castSucc V c t, Phi10_zero V c _ _ h0, acc10_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run10_first c Set.univ (grid10.coords t) hc0 hc1 _ _ _ _ _ _ _ _ _ _ _ _ _ _ (iblk10 V c 0 t) (iblk10 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond10_0 (grid10.coords t) := fun h => h0 ((hcond10_0 t).mp h)
      have hc1 : cond10_1 (grid10.coords t) := (hcond10_1 t).mpr h1
      rw [show (dat10 V c).leavesExact 3 t = owns (c : Thread nD τ) (st10_3 t) fullShare ((dat10 V c).after 3 t) from by
        unfold Dat.leavesExact; rw [live10_3 t hc1], after10_3]
      rw [show (dat10 V c).leavesExact 4 t = owns (c : Thread nD τ) (st10_4 t) fullShare ((dat10 V c).after 4 t) from by
        unfold Dat.leavesExact; rw [live10_4 t hc1], after10_4]
      rw [Phi10_castSucc V c t, Phi10_pos V c _ _ h0, acc10_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run10_last c Set.univ (grid10.coords t) hc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond10_0 (grid10.coords t) := fun h => h0 ((hcond10_0 t).mp h)
      have hc1 : ¬cond10_1 (grid10.coords t) := fun h => h1 ((hcond10_1 t).mp h)
      rw [Dat.leavesExact_idle (dat10 V c) 3 t (idle10_3 t hc1) (noFlush10_3 t hc1),
        Dat.leavesExact_idle (dat10 V c) 4 t (idle10_4 t hc1) (noFlush10_4 t hc1)]
      rw [Phi10_castSucc V c t, Phi10_pos V c _ _ h0, acc10_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run10_mid c Set.univ (grid10.coords t) hc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first point. -/
theorem hin10 (c : Dev nD) :
    iprop((∃ r, prngReg c r) ∗ Pipeline.scopedRest (Ix := Unit) (Name := ℕ) (U := UR sig nD τ) (Lvl := ℕ) spec10 c) ⊢ (dat10 V c).Φ 0 := by
  rw [show (dat10 V c).Φ 0 = Phi10 V c 0 (Nat.zero_le _) from rfl]
  exact Idealize.SL.BI.Entails.refl _

/-- After the last point the invariant gives it back: what the carried rows hold is forgotten. -/
theorem hout10 (c : Dev nD) :
    (dat10 V c).Φ (Fin.last cfg10.N) ⊢ iprop((∃ r, prngReg c r) ∗ Pipeline.scopedRest (Ix := Unit) (Name := ℕ) (U := UR sig nD τ) (Lvl := ℕ) spec10 c) := by
  rw [show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega),
    Phi10_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Hand

end
-- ==== Proof.K.R11.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (where it is not
    fetched the block index has not moved), for any proof data whose array is `V`'s and whose body leaves the block
    in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S1x64 := Rect.unit (s := S1x64) ![0, 0] S1x64.size inb_S1x64_S1x64_0_0
abbrev r11_2 : Rect S1x64 := Rect.unit (s := S1x64) ![0, 0] S1x64.size inb_S1x64_S1x64_0_0
abbrev r11_3 : Rect S5000x64 := Rect.unit (s := S5000x64) ![0, 0] S5000x64.size inb_S5000x64_S5000x64_0_0

/-! ## What the body leaves in the output window's buffer -/

/-- Window 3's staging buffer after the body, from the input windows' blocks: its one store. -/
def out11_3 (x0 : Vec F S5000x64 .f32) (x1 : Vec F S1x64 .f32) (x2 : Vec F S1x64 .f32) : Vec F S5000x64 .f32 :=
  View.canon [⟨r11_3, k11_pay1 (View.ld x0 r11_0) (View.ld x1 r11_1) (View.ld x2 r11_2)⟩]

/-- The store is of the whole buffer, so it covers it. -/
theorem cover11_3 (p0 : Vec F S5000x64 .f32) (y : S5000x64.Idx) :
    ∃ pc ∈ ([⟨r11_3, p0⟩] : List (View.Piece (Elt F) S5000x64 .f32)), y ∈ pc.1.set :=
  View.cover_of_tiled [⟨r11_3, p0⟩] S5000x64.size (by rfl) y

/-! ## The body's triple -/

set_option maxHeartbeats 400000 in
/-- The kernel body on whole staging memrefs, the inputs' at contents `x_w` and the output's at anything, runs to the
    continuation holding the inputs' as they were and the output's at `out11_3` of the inputs'. -/
theorem sound_kernel11 (c : Dev nD) (E : Set ℕ) (i : grid11.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2)) -∗ K ⟨⟩))
      ⊢ wp frame (wpE (defs₀ (F := F)) Variants.none c none) E (cc11__normalize_relu_kernel i arg0 harg0 arg1 harg1 arg2 harg2 arg3 harg3) K := by
  simp only [cc11__normalize_relu_kernel_eq_skeleton]; unfold cc11__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body at point `t`
    each input's buffer at its block and the output's at `out11_3` of the input blocks; the invariant: the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

theorem owed11 (c : Dev nD) (t) : (dat11 V c).owed t = 0 := rfl
theorem share11 (c : Dev nD) (w) : (dat11 V c).q w = fullShare := rfl

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The invariant at the region's ends -/

theorem hin11 (c : Dev nD) : iprop((∃ r, prngReg c r) ∗ Pipeline.scopedRest (Ix := Unit) (Name := ℕ) (U := UR sig nD τ) (Lvl := ℕ) spec11 c) ⊢ (dat11 V c).Φ 0 := by
  rw [show (dat11 V c).Φ 0 = Pipeline.ΦA spec11 c from rfl]; unfold Pipeline.ΦA
  iintro ⟨Hp, Hr⟩
  isplitl [Hr]; · iexact Hr
  iexact Hp

theorem hout11 (c : Dev nD) : (dat11 V c).Φ (Fin.last cfg11.N) ⊢ iprop((∃ r, prngReg c r) ∗ Pipeline.scopedRest (Ix := Unit) (Name := ℕ) (U := UR sig nD τ) (Lvl := ℕ) spec11 c) := by
  rw [show (dat11 V c).Φ (Fin.last _) = Pipeline.ΦA spec11 c from rfl]; unfold Pipeline.ΦA
  iintro ⟨Hr, Hp⟩
  isplitl [Hp]; · iexact Hp
  iexact Hr

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.R12.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (where it is not
    fetched the block index has not moved), for any proof data whose array is `V`'s and whose body leaves the block
    in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S1024x64 := Rect.unit (s := S1024x64) ![0, 0] S1024x64.size inb_S1024x64_S1024x64_0_0
abbrev r12_1 : Rect S64x64 := Rect.unit (s := S64x64) ![0, 0] S64x64.size inb_S64x64_S64x64_0_0
abbrev r12_2 : Rect S1x64 := Rect.unit (s := S1x64) ![0, 0] S1x64.size inb_S1x64_S1x64_0_0
abbrev r12_3 : Rect S64x64 := Rect.unit (s := S64x64) ![0, 0] S64x64.size inb_S64x64_S64x64_0_0
abbrev r12_4 : Rect S1x64 := Rect.unit (s := S1x64) ![0, 0] S1x64.size inb_S1x64_S1x64_0_0
abbrev r12_5 : Rect S64x1 := Rect.unit (s := S64x1) ![0, 0] S64x1.size inb_S64x1_S64x1_0_0
abbrev r12_6 : Rect S1x1 := Rect.unit (s := S1x1) ![0, 0] S1x1.size inb_S1x1_S1x1_0_0
abbrev r12_7 : Rect S1024x1 := Rect.unit (s := S1024x1) ![0, 0] S1024x1.size inb_S1024x1_S1024x1_0_0

/-! ## What the body leaves in the output window's buffer -/

/-- Window 7's staging buffer after the body, from the input windows' blocks: its one store. -/
def out12_7 (x0 : Vec F S1024x64 .f32) (x1 : Vec F S64x64 .f32) (x2 : Vec F S1x64 .f32) (x3 : Vec F S64x64 .f32) (x4 : Vec F S1x64 .f32) (x5 : Vec F S64x1 .f32) (x6 : Vec F S1x1 .f32) : Vec F S1024x1 .f32 :=
  View.canon [⟨r12_7, k12_pay1 (View.ld x0 r12_0) (View.ld x1 r12_1) (View.ld x2 r12_2) (View.ld x3 r12_3) (View.ld x4 r12_4) (View.ld x5 r12_5) (View.ld x6 r12_6)⟩]

/-- The store is of the whole buffer, so it covers it. -/
theorem cover12_7 (p0 : Vec F S1024x1 .f32) (y : S1024x1.Idx) :
    ∃ pc ∈ ([⟨r12_7, p0⟩] : List (View.Piece (Elt F) S1024x1 .f32)), y ∈ pc.1.set :=
  View.cover_of_tiled [⟨r12_7, p0⟩] S1024x1.size (by rfl) y

/-! ## The body's triple -/

set_option maxHeartbeats 400000 in
/-- The kernel body on whole staging memrefs, the inputs' at contents `x_w` and the output's at anything, runs to the
    continuation holding the inputs' as they were and the output's at `out12_7` of the inputs'. -/
theorem sound_kernel12 (c : Dev nD) (E : Set ℕ) (i : grid12.Coords)
    (arg0 : Memref sig .tc .vmem S1024x64 .f32) (harg0 : arg0.IsWhole)
    (arg1 : Memref sig .tc .vmem S64x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x1 .f32) (harg5 : arg5.IsWhole)
    (arg6 : Memref sig .tc .vmem S1x1 .f32) (harg6 : arg6.IsWhole)
    (arg7 : Memref sig .tc .vmem S1024x1 .f32) (harg7 : arg7.IsWhole)
    (x0 : Vec F S1024x64 .f32) (x1 : Vec F S64x64 .f32) (x2 : Vec F S1x64 .f32) (x3 : Vec F S64x64 .f32) (x4 : Vec F S1x64 .f32) (x5 : Vec F S64x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out12_7 x0 x1 x2 x3 x4 x5 x6)) -∗ K ⟨⟩))
      ⊢ wp frame (wpE (defs₀ (F := F)) Variants.none c none) E (cc12__mlp_head_kernel i arg0 harg0 arg1 harg1 arg2 harg2 arg3 harg3 arg4 harg4 arg5 harg5 arg6 harg6 arg7 harg7) K := by
  simp only [cc12__mlp_head_kernel_eq_skeleton]; unfold cc12__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The pipeline's proof data -/

/-- The proof data of pipeline 12 on core `c`: the arrays as the region finds them (`V`); after the body at point `t`
    each input's buffer at its block and the output's at `out12_7` of the input blocks; the invariant: the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

theorem owed12 (c : Dev nD) (t) : (dat12 V c).owed t = 0 := rfl
theorem share12 (c : Dev nD) (w) : (dat12 V c).q w = fullShare := rfl

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The invariant at the region's ends -/

theorem hin12 (c : Dev nD) : iprop((∃ r, prngReg c r) ∗ Pipeline.scopedRest (Ix := Unit) (Name := ℕ) (U := UR sig nD τ) (Lvl := ℕ) spec12 c) ⊢ (dat12 V c).Φ 0 := by
  rw [show (dat12 V c).Φ 0 = Pipeline.ΦA spec12 c from rfl]; unfold Pipeline.ΦA
  iintro ⟨Hp, Hr⟩
  isplitl [Hr]; · iexact Hr
  iexact Hp

theorem hout12 (c : Dev nD) : (dat12 V c).Φ (Fin.last cfg12.N) ⊢ iprop((∃ r, prngReg c r) ∗ Pipeline.scopedRest (Ix := Unit) (Name := ℕ) (U := UR sig nD τ) (Lvl := ℕ) spec12 c) := by
  rw [show (dat12 V c).Φ (Fin.last _) = Pipeline.ΦA spec12 c from rfl]; unfold Pipeline.ΦA
  iintro ⟨Hr, Hp⟩
  isplitl [Hp]; · iexact Hp
  iexact Hr

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.Family.lean ====
import proofs.«113306_j49254684950634_1_alg».proof.Proof.Gen.Kernel.Launch
import proofs.«113306_j49254684950634_1_alg».proof.Proof.Gen.Kernel.Skeleton
import proofs.«113306_j49254684950634_1_alg».proof.Proof.Gen.Kernel.Points
import proofs.«113306_j49254684950634_1_alg».proof.Proof.Gen.Kernel.Regions
import proofs.«113306_j49254684950634_1_alg».proof.Proof.K.R0
import proofs.«113306_j49254684950634_1_alg».proof.Proof.K.R1
import proofs.«113306_j49254684950634_1_alg».proof.Proof.K.R2
import proofs.«113306_j49254684950634_1_alg».proof.Proof.K.R3
import proofs.«113306_j49254684950634_1_alg».proof.Proof.K.R4
import proofs.«113306_j49254684950634_1_alg».proof.Proof.K.R5
import proofs.«113306_j49254684950634_1_alg».proof.Proof.K.R6
import proofs.«113306_j49254684950634_1_alg».proof.Proof.K.R7
import proofs.«113306_j49254684950634_1_alg».proof.Proof.K.R8
import proofs.«113306_j49254684950634_1_alg».proof.Proof.K.R9
import proofs.«113306_j49254684950634_1_alg».proof.Proof.K.R10
import proofs.«113306_j49254684950634_1_alg».proof.Proof.K.R11
import proofs.«113306_j49254684950634_1_alg».proof.Proof.K.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev Vr (U : Dev nD → Valuation τ sig (Elt F)) : ((c : Dev nD) → (b : Ref sig .tc) → Buf (Elt F) ((c : Thread nD τ).loc b)) := fun c b => U c b

/-- The contents chosen for the regions' output arrays are what each region's write-backs leave, region by region. -/
structure Good : Prop where
  g0_2 : ∀ (c : Dev nD) (w : Fin cfg0.W), w = 2 → (dat0 (Vr (V1 m)) c).arrAt w cfg0.N = outs 2 (Pipeline.arrRef spec0 w) c
  g1_2 : ∀ (c : Dev nD) (w : Fin cfg1.W), w = 2 → (dat1 (Vr (V3 m outs)) c).arrAt w cfg1.N = outs 4 (Pipeline.arrRef spec1 w) c
  g1_3 : ∀ (c : Dev nD) (w : Fin cfg1.W), w = 3 → (dat1 (Vr (V3 m outs)) c).arrAt w cfg1.N = outs 4 (Pipeline.arrRef spec1 w) c
  g1_4 : ∀ (c : Dev nD) (w : Fin cfg1.W), w = 4 → (dat1 (Vr (V3 m outs)) c).arrAt w cfg1.N = outs 4 (Pipeline.arrRef spec1 w) c
  g2_3 : ∀ (c : Dev nD) (w : Fin cfg2.W), w = 3 → (dat2 (Vr (V5 m outs)) c).arrAt w cfg2.N = outs 6 (Pipeline.arrRef spec2 w) c
  g3_2 : ∀ (c : Dev nD) (w : Fin cfg3.W), w = 2 → (dat3 (Vr (V7 m outs)) c).arrAt w cfg3.N = outs 8 (Pipeline.arrRef spec3 w) c
  g4_2 : ∀ (c : Dev nD) (w : Fin cfg4.W), w = 2 → (dat4 (Vr (V9 m outs)) c).arrAt w cfg4.N = outs 10 (Pipeline.arrRef spec4 w) c
  g4_3 : ∀ (c : Dev nD) (w : Fin cfg4.W), w = 3 → (dat4 (Vr (V9 m outs)) c).arrAt w cfg4.N = outs 10 (Pipeline.arrRef spec4 w) c
  g4_4 : ∀ (c : Dev nD) (w : Fin cfg4.W), w = 4 → (dat4 (Vr (V9 m outs)) c).arrAt w cfg4.N = outs 10 (Pipeline.arrRef spec4 w) c
  g5_3 : ∀ (c : Dev nD) (w : Fin cfg5.W), w = 3 → (dat5 (Vr (V11 m outs)) c).arrAt w cfg5.N = outs 12 (Pipeline.arrRef spec5 w) c
  g6_2 : ∀ (c : Dev nD) (w : Fin cfg6.W), w = 2 → (dat6 (Vr (V13 m outs)) c).arrAt w cfg6.N = outs 14 (Pipeline.arrRef spec6 w) c
  g7_2 : ∀ (c : Dev nD) (w : Fin cfg7.W), w = 2 → (dat7 (Vr (V15 m outs)) c).arrAt w cfg7.N = outs 16 (Pipeline.arrRef spec7 w) c
  g7_3 : ∀ (c : Dev nD) (w : Fin cfg7.W), w = 3 → (dat7 (Vr (V15 m outs)) c).arrAt w cfg7.N = outs 16 (Pipeline.arrRef spec7 w) c
  g7_4 : ∀ (c : Dev nD) (w : Fin cfg7.W), w = 4 → (dat7 (Vr (V15 m outs)) c).arrAt w cfg7.N = outs 16 (Pipeline.arrRef spec7 w) c
  g8_3 : ∀ (c : Dev nD) (w : Fin cfg8.W), w = 3 → (dat8 (Vr (V17 m outs)) c).arrAt w cfg8.N = outs 18 (Pipeline.arrRef spec8 w) c
  g9_2 : ∀ (c : Dev nD) (w : Fin cfg9.W), w = 2 → (dat9 (Vr (V19 m outs)) c).arrAt w cfg9.N = outs 20 (Pipeline.arrRef spec9 w) c
  g10_2 : ∀ (c : Dev nD) (w : Fin cfg10.W), w = 2 → (dat10 (Vr (V21 m outs)) c).arrAt w cfg10.N = outs 22 (Pipeline.arrRef spec10 w) c
  g10_3 : ∀ (c : Dev nD) (w : Fin cfg10.W), w = 3 → (dat10 (Vr (V21 m outs)) c).arrAt w cfg10.N = outs 22 (Pipeline.arrRef spec10 w) c
  g10_4 : ∀ (c : Dev nD) (w : Fin cfg10.W), w = 4 → (dat10 (Vr (V21 m outs)) c).arrAt w cfg10.N = outs 22 (Pipeline.arrRef spec10 w) c
  g11_3 : ∀ (c : Dev nD) (w : Fin cfg11.W), w = 3 → (dat11 (Vr (V23 m outs)) c).arrAt w cfg11.N = outs 24 (Pipeline.arrRef spec11 w) c
  g12_7 : ∀ (c : Dev nD) (w : Fin cfg12.W), w = 7 → (dat12 (Vr (V25 m outs)) c).arrAt w cfg12.N = outs 26 (Pipeline.arrRef spec12 w) c

end Cert.Kernel.Hand

end
-- ==== Proof.K.Data.lean ====
import proofs.«113306_j49254684950634_1_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))
theorem V2_at_2 (c : Dev nD) (r : Ref sig .tc) (h : r = main_v38) : V2 m outs c r = outs 2 r c := by
  subst h
  unfold V2

  exact Function.update_self ..
theorem hF0_w0 (hg : Good m outs) (c : Dev nD) : (dat0 (Vr (V1 m)) c).arrAt (0 : Fin cfg0.W) cfg0.N = V2 m outs c (Pipeline.arrRef spec0 (0 : Fin cfg0.W)) :=
  ((dat0 (Vr (V1 m)) c).arrAt_in 0 rfl _).trans ((A_eq0 (Vr (V1 m)) c 0).trans (V2_of m outs c _ (by decide)).symm)
theorem hF0_w1 (hg : Good m outs) (c : Dev nD) : (dat0 (Vr (V1 m)) c).arrAt (1 : Fin cfg0.W) cfg0.N = V2 m outs c (Pipeline.arrRef spec0 (1 : Fin cfg0.W)) :=
  ((dat0 (Vr (V1 m)) c).arrAt_in 1 rfl _).trans ((A_eq0 (Vr (V1 m)) c 1).trans (V2_of m outs c _ (by decide)).symm)
theorem hF0_w2 (hg : Good m outs) (c : Dev nD) : (dat0 (Vr (V1 m)) c).arrAt (2 : Fin cfg0.W) cfg0.N = V2 m outs c (Pipeline.arrRef spec0 (2 : Fin cfg0.W)) :=
  (hg.g0_2 c _ rfl).trans (V2_at_2 m outs c _ rfl).symm
theorem hF0 (hg : Good m outs) (c : Dev nD) : ∀ w : Fin cfg0.W, (dat0 (Vr (V1 m)) c).arrAt w cfg0.N = V2 m outs c (Pipeline.arrRef spec0 w)
  | ⟨0, _⟩ => hF0_w0 m outs hg c
  | ⟨1, _⟩ => hF0_w1 m outs hg c
  | ⟨2, _⟩ => hF0_w2 m outs hg c
  | ⟨n + 3, h⟩ => absurd h (Nat.not_lt.2 (Nat.le_add_left _ _))

theorem hrest0 (c : Dev nD) : ∀ b, b ∉ Finset.univ.image (Pipeline.arrRef spec0) → V2 m outs c b = V1 m c b :=
  fun b hb => V2_of m outs c b fun h => by
    simp only [List.mem_cons, List.not_mem_nil, or_false] at h
    rcases h with rfl
    · exact hb (Finset.mem_image.mpr ⟨2, Finset.mem_univ _, rfl⟩)

theorem V4_at_2 (c : Dev nD) (r : Ref sig .tc) (h : r = main_v56_0) : V4 m outs c r = outs 4 r c := by
  subst h
  unfold V4
  rw [Function.update_of_ne (StableHlo.devRef_ne_of_ne (by decide : main_v56_0 ≠ main_v56_2))]
  rw [Function.update_of_ne (StableHlo.devRef_ne_of_ne (by decide : main_v56_0 ≠ main_v56_1))]
  exact Function.update_self ..
theorem V4_at_3 (c : Dev nD) (r : Ref sig .tc) (h : r = main_v56_1) : V4 m outs c r = outs 4 r c := by
  subst h
  unfold V4
  rw [Function.update_of_ne (StableHlo.devRef_ne_of_ne (by decide : main_v56_1 ≠ main_v56_2))]
  exact Function.update_self ..
theorem V4_at_4 (c : Dev nD) (r : Ref sig .tc) (h : r = main_v56_2) : V4 m outs c r = outs 4 r c := by
  subst h
  unfold V4

  exact Function.update_self ..
theorem hF1_w0 (hg : Good m outs) (c : Dev nD) : (dat1 (Vr (V3 m outs)) c).arrAt (0 : Fin cfg1.W) cfg1.N = V4 m outs c (Pipeline.arrRef spec1 (0 : Fin cfg1.W)) :=
  ((dat1 (Vr (V3 m outs)) c).arrAt_in 0 rfl _).trans ((A_eq1 (Vr (V3 m outs)) c 0).trans (V4_of m outs c _ (by decide)).symm)
theorem hF1_w1 (hg : Good m outs) (c : Dev nD) : (dat1 (Vr (V3 m outs)) c).arrAt (1 : Fin cfg1.W) cfg1.N = V4 m outs c (Pipeline.arrRef spec1 (1 : Fin cfg1.W)) :=
  ((dat1 (Vr (V3 m outs)) c).arrAt_in 1 rfl _).trans ((A_eq1 (Vr (V3 m outs)) c 1).trans (V4_of m outs c _ (by decide)).symm)
theorem hF1_w2 (hg : Good m outs) (c : Dev nD) : (dat1 (Vr (V3 m outs)) c).arrAt (2 : Fin cfg1.W) cfg1.N = V4 m outs c (Pipeline.arrRef spec1 (2 : Fin cfg1.W)) :=
  (hg.g1_2 c _ rfl).trans (V4_at_2 m outs c _ rfl).symm
theorem hF1_w3 (hg : Good m outs) (c : Dev nD) : (dat1 (Vr (V3 m outs)) c).arrAt (3 : Fin cfg1.W) cfg1.N = V4 m outs c (Pipeline.arrRef spec1 (3 : Fin cfg1.W)) :=
  (hg.g1_3 c _ rfl).trans (V4_at_3 m outs c _ rfl).symm
theorem hF1_w4 (hg : Good m outs) (c : Dev nD) : (dat1 (Vr (V3 m outs)) c).arrAt (4 : Fin cfg1.W) cfg1.N = V4 m outs c (Pipeline.arrRef spec1 (4 : Fin cfg1.W)) :=
  (hg.g1_4 c _ rfl).trans (V4_at_4 m outs c _ rfl).symm
theorem hF1 (hg : Good m outs) (c : Dev nD) : ∀ w : Fin cfg1.W, (dat1 (Vr (V3 m outs)) c).arrAt w cfg1.N = V4 m outs c (Pipeline.arrRef spec1 w)
  | ⟨0, _⟩ => hF1_w0 m outs hg c
  | ⟨1, _⟩ => hF1_w1 m outs hg c
  | ⟨2, _⟩ => hF1_w2 m outs hg c
  | ⟨3, _⟩ => hF1_w3 m outs hg c
  | ⟨4, _⟩ => hF1_w4 m outs hg c
  | ⟨n + 5, h⟩ => absurd h (Nat.not_lt.2 (Nat.le_add_left _ _))

theorem hrest1 (c : Dev nD) : ∀ b, b ∉ Finset.univ.image (Pipeline.arrRef spec1) → V4 m outs c b = V3 m outs c b :=
  fun b hb => V4_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V6_at_3 (c : Dev nD) (r : Ref sig .tc) (h : r = main_v69) : V6 m outs c r = outs 6 r c := by
  subst h
  unfold V6

  exact Function.update_self ..
theorem hF2_w0 (hg : Good m outs) (c : Dev nD) : (dat2 (Vr (V5 m outs)) c).arrAt (0 : Fin cfg2.W) cfg2.N = V6 m outs c (Pipeline.arrRef spec2 (0 : Fin cfg2.W)) :=
  ((dat2 (Vr (V5 m outs)) c).arrAt_in 0 rfl _).trans ((A_eq2 (Vr (V5 m outs)) c 0).trans (V6_of m outs c _ (by decide)).symm)
theorem hF2_w1 (hg : Good m outs) (c : Dev nD) : (dat2 (Vr (V5 m outs)) c).arrAt (1 : Fin cfg2.W) cfg2.N = V6 m outs c (Pipeline.arrRef spec2 (1 : Fin cfg2.W)) :=
  ((dat2 (Vr (V5 m outs)) c).arrAt_in 1 rfl _).trans ((A_eq2 (Vr (V5 m outs)) c 1).trans (V6_of m outs c _ (by decide)).symm)
theorem hF2_w2 (hg : Good m outs) (c : Dev nD) : (dat2 (Vr (V5 m outs)) c).arrAt (2 : Fin cfg2.W) cfg2.N = V6 m outs c (Pipeline.arrRef spec2 (2 : Fin cfg2.W)) :=
  ((dat2 (Vr (V5 m outs)) c).arrAt_in 2 rfl _).trans ((A_eq2 (Vr (V5 m outs)) c 2).trans (V6_of m outs c _ (by decide)).symm)
theorem hF2_w3 (hg : Good m outs) (c : Dev nD) : (dat2 (Vr (V5 m outs)) c).arrAt (3 : Fin cfg2.W) cfg2.N = V6 m outs c (Pipeline.arrRef spec2 (3 : Fin cfg2.W)) :=
  (hg.g2_3 c _ rfl).trans (V6_at_3 m outs c _ rfl).symm
theorem hF2 (hg : Good m outs) (c : Dev nD) : ∀ w : Fin cfg2.W, (dat2 (Vr (V5 m outs)) c).arrAt w cfg2.N = V6 m outs c (Pipeline.arrRef spec2 w)
  | ⟨0, _⟩ => hF2_w0 m outs hg c
  | ⟨1, _⟩ => hF2_w1 m outs hg c
  | ⟨2, _⟩ => hF2_w2 m outs hg c
  | ⟨3, _⟩ => hF2_w3 m outs hg c
  | ⟨n + 4, h⟩ => absurd h (Nat.not_lt.2 (Nat.le_add_left _ _))

theorem hrest2 (c : Dev nD) : ∀ b, b ∉ Finset.univ.image (Pipeline.arrRef spec2) → V6 m outs c b = V5 m outs c b :=
  fun b hb => V6_of m outs c b fun h => by
    simp only [List.mem_cons, List.not_mem_nil, or_false] at h
    rcases h with rfl
    · exact hb (Finset.mem_image.mpr ⟨3, Finset.mem_univ _, rfl⟩)

theorem V8_at_2 (c : Dev nD) (r : Ref sig .tc) (h : r = main_v81) : V8 m outs c r = outs 8 r c := by
  subst h
  unfold V8

  exact Function.update_self ..
theorem hF3_w0 (hg : Good m outs) (c : Dev nD) : (dat3 (Vr (V7 m outs)) c).arrAt (0 : Fin cfg3.W) cfg3.N = V8 m outs c (Pipeline.arrRef spec3 (0 : Fin cfg3.W)) :=
  ((dat3 (Vr (V7 m outs)) c).arrAt_in 0 rfl _).trans ((A_eq3 (Vr (V7 m outs)) c 0).trans (V8_of m outs c _ (by decide)).symm)
theorem hF3_w1 (hg : Good m outs) (c : Dev nD) : (dat3 (Vr (V7 m outs)) c).arrAt (1 : Fin cfg3.W) cfg3.N = V8 m outs c (Pipeline.arrRef spec3 (1 : Fin cfg3.W)) :=
  ((dat3 (Vr (V7 m outs)) c).arrAt_in 1 rfl _).trans ((A_eq3 (Vr (V7 m outs)) c 1).trans (V8_of m outs c _ (by decide)).symm)
theorem hF3_w2 (hg : Good m outs) (c : Dev nD) : (dat3 (Vr (V7 m outs)) c).arrAt (2 : Fin cfg3.W) cfg3.N = V8 m outs c (Pipeline.arrRef spec3 (2 : Fin cfg3.W)) :=
  (hg.g3_2 c _ rfl).trans (V8_at_2 m outs c _ rfl).symm
theorem hF3 (hg : Good m outs) (c : Dev nD) : ∀ w : Fin cfg3.W, (dat3 (Vr (V7 m outs)) c).arrAt w cfg3.N = V8 m outs c (Pipeline.arrRef spec3 w)
  | ⟨0, _⟩ => hF3_w0 m outs hg c
  | ⟨1, _⟩ => hF3_w1 m outs hg c
  | ⟨2, _⟩ => hF3_w2 m outs hg c
  | ⟨n + 3, h⟩ => absurd h (Nat.not_lt.2 (Nat.le_add_left _ _))

theorem hrest3 (c : Dev nD) : ∀ b, b ∉ Finset.univ.image (Pipeline.arrRef spec3) → V8 m outs c b = V7 m outs c b :=
  fun b hb => V8_of m outs c b fun h => by
    simp only [List.mem_cons, List.not_mem_nil, or_false] at h
    rcases h with rfl
    · exact hb (Finset.mem_image.mpr ⟨2, Finset.mem_univ _, rfl⟩)

theorem V10_at_2 (c : Dev nD) (r : Ref sig .tc) (h : r = main_v99_0) : V10 m outs c r = outs 10 r c := by
  subst h
  unfold V10
  rw [Function.update_of_ne (StableHlo.devRef_ne_of_ne (by decide : main_v99_0 ≠ main_v99_2))]
  rw [Function.update_of_ne (StableHlo.devRef_ne_of_ne (by decide : main_v99_0 ≠ main_v99_1))]
  exact Function.update_self ..
theorem V10_at_3 (c : Dev nD) (r : Ref sig .tc) (h : r = main_v99_1) : V10 m outs c r = outs 10 r c := by
  subst h
  unfold V10
  rw [Function.update_of_ne (StableHlo.devRef_ne_of_ne (by decide : main_v99_1 ≠ main_v99_2))]
  exact Function.update_self ..
theorem V10_at_4 (c : Dev nD) (r : Ref sig .tc) (h : r = main_v99_2) : V10 m outs c r = outs 10 r c := by
  subst h
  unfold V10

  exact Function.update_self ..
theorem hF4_w0 (hg : Good m outs) (c : Dev nD) : (dat4 (Vr (V9 m outs)) c).arrAt (0 : Fin cfg4.W) cfg4.N = V10 m outs c (Pipeline.arrRef spec4 (0 : Fin cfg4.W)) :=
  ((dat4 (Vr (V9 m outs)) c).arrAt_in 0 rfl _).trans ((A_eq4 (Vr (V9 m outs)) c 0).trans (V10_of m outs c _ (by decide)).symm)
theorem hF4_w1 (hg : Good m outs) (c : Dev nD) : (dat4 (Vr (V9 m outs)) c).arrAt (1 : Fin cfg4.W) cfg4.N = V10 m outs c (Pipeline.arrRef spec4 (1 : Fin cfg4.W)) :=
  ((dat4 (Vr (V9 m outs)) c).arrAt_in 1 rfl _).trans ((A_eq4 (Vr (V9 m outs)) c 1).trans (V10_of m outs c _ (by decide)).symm)
theorem hF4_w2 (hg : Good m outs) (c : Dev nD) : (dat4 (Vr (V9 m outs)) c).arrAt (2 : Fin cfg4.W) cfg4.N = V10 m outs c (Pipeline.arrRef spec4 (2 : Fin cfg4.W)) :=
  (hg.g4_2 c _ rfl).trans (V10_at_2 m outs c _ rfl).symm
theorem hF4_w3 (hg : Good m outs) (c : Dev nD) : (dat4 (Vr (V9 m outs)) c).arrAt (3 : Fin cfg4.W) cfg4.N = V10 m outs c (Pipeline.arrRef spec4 (3 : Fin cfg4.W)) :=
  (hg.g4_3 c _ rfl).trans (V10_at_3 m outs c _ rfl).symm
theorem hF4_w4 (hg : Good m outs) (c : Dev nD) : (dat4 (Vr (V9 m outs)) c).arrAt (4 : Fin cfg4.W) cfg4.N = V10 m outs c (Pipeline.arrRef spec4 (4 : Fin cfg4.W)) :=
  (hg.g4_4 c _ rfl).trans (V10_at_4 m outs c _ rfl).symm
theorem hF4 (hg : Good m outs) (c : Dev nD) : ∀ w : Fin cfg4.W, (dat4 (Vr (V9 m outs)) c).arrAt w cfg4.N = V10 m outs c (Pipeline.arrRef spec4 w)
  | ⟨0, _⟩ => hF4_w0 m outs hg c
  | ⟨1, _⟩ => hF4_w1 m outs hg c
  | ⟨2, _⟩ => hF4_w2 m outs hg c
  | ⟨3, _⟩ => hF4_w3 m outs hg c
  | ⟨4, _⟩ => hF4_w4 m outs hg c
  | ⟨n + 5, h⟩ => absurd h (Nat.not_lt.2 (Nat.le_add_left _ _))

theorem hrest4 (c : Dev nD) : ∀ b, b ∉ Finset.univ.image (Pipeline.arrRef spec4) → V10 m outs c b = V9 m outs c b :=
  fun b hb => V10_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V12_at_3 (c : Dev nD) (r : Ref sig .tc) (h : r = main_v112) : V12 m outs c r = outs 12 r c := by
  subst h
  unfold V12

  exact Function.update_self ..
theorem hF5_w0 (hg : Good m outs) (c : Dev nD) : (dat5 (Vr (V11 m outs)) c).arrAt (0 : Fin cfg5.W) cfg5.N = V12 m outs c (Pipeline.arrRef spec5 (0 : Fin cfg5.W)) :=
  ((dat5 (Vr (V11 m outs)) c).arrAt_in 0 rfl _).trans ((A_eq5 (Vr (V11 m outs)) c 0).trans (V12_of m outs c _ (by decide)).symm)
theorem hF5_w1 (hg : Good m outs) (c : Dev nD) : (dat5 (Vr (V11 m outs)) c).arrAt (1 : Fin cfg5.W) cfg5.N = V12 m outs c (Pipeline.arrRef spec5 (1 : Fin cfg5.W)) :=
  ((dat5 (Vr (V11 m outs)) c).arrAt_in 1 rfl _).trans ((A_eq5 (Vr (V11 m outs)) c 1).trans (V12_of m outs c _ (by decide)).symm)
theorem hF5_w2 (hg : Good m outs) (c : Dev nD) : (dat5 (Vr (V11 m outs)) c).arrAt (2 : Fin cfg5.W) cfg5.N = V12 m outs c (Pipeline.arrRef spec5 (2 : Fin cfg5.W)) :=
  ((dat5 (Vr (V11 m outs)) c).arrAt_in 2 rfl _).trans ((A_eq5 (Vr (V11 m outs)) c 2).trans (V12_of m outs c _ (by decide)).symm)
theorem hF5_w3 (hg : Good m outs) (c : Dev nD) : (dat5 (Vr (V11 m outs)) c).arrAt (3 : Fin cfg5.W) cfg5.N = V12 m outs c (Pipeline.arrRef spec5 (3 : Fin cfg5.W)) :=
  (hg.g5_3 c _ rfl).trans (V12_at_3 m outs c _ rfl).symm
theorem hF5 (hg : Good m outs) (c : Dev nD) : ∀ w : Fin cfg5.W, (dat5 (Vr (V11 m outs)) c).arrAt w cfg5.N = V12 m outs c (Pipeline.arrRef spec5 w)
  | ⟨0, _⟩ => hF5_w0 m outs hg c
  | ⟨1, _⟩ => hF5_w1 m outs hg c
  | ⟨2, _⟩ => hF5_w2 m outs hg c
  | ⟨3, _⟩ => hF5_w3 m outs hg c
  | ⟨n + 4, h⟩ => absurd h (Nat.not_lt.2 (Nat.le_add_left _ _))

theorem hrest5 (c : Dev nD) : ∀ b, b ∉ Finset.univ.image (Pipeline.arrRef spec5) → V12 m outs c b = V11 m outs c b :=
  fun b hb => V12_of m outs c b fun h => by
    simp only [List.mem_cons, List.not_mem_nil, or_false] at h
    rcases h with rfl
    · exact hb (Finset.mem_image.mpr ⟨3, Finset.mem_univ _, rfl⟩)

theorem V14_at_2 (c : Dev nD) (r : Ref sig .tc) (h : r = main_v124) : V14 m outs c r = outs 14 r c := by
  subst h
  unfold V14

  exact Function.update_self ..
theorem hF6_w0 (hg : Good m outs) (c : Dev nD) : (dat6 (Vr (V13 m outs)) c).arrAt (0 : Fin cfg6.W) cfg6.N = V14 m outs c (Pipeline.arrRef spec6 (0 : Fin cfg6.W)) :=
  ((dat6 (Vr (V13 m outs)) c).arrAt_in 0 rfl _).trans ((A_eq6 (Vr (V13 m outs)) c 0).trans (V14_of m outs c _ (by decide)).symm)
theorem hF6_w1 (hg : Good m outs) (c : Dev nD) : (dat6 (Vr (V13 m outs)) c).arrAt (1 : Fin cfg6.W) cfg6.N = V14 m outs c (Pipeline.arrRef spec6 (1 : Fin cfg6.W)) :=
  ((dat6 (Vr (V13 m outs)) c).arrAt_in 1 rfl _).trans ((A_eq6 (Vr (V13 m outs)) c 1).trans (V14_of m outs c _ (by decide)).symm)
theorem hF6_w2 (hg : Good m outs) (c : Dev nD) : (dat6 (Vr (V13 m outs)) c).arrAt (2 : Fin cfg6.W) cfg6.N = V14 m outs c (Pipeline.arrRef spec6 (2 : Fin cfg6.W)) :=
  (hg.g6_2 c _ rfl).trans (V14_at_2 m outs c _ rfl).symm
theorem hF6 (hg : Good m outs) (c : Dev nD) : ∀ w : Fin cfg6.W, (dat6 (Vr (V13 m outs)) c).arrAt w cfg6.N = V14 m outs c (Pipeline.arrRef spec6 w)
  | ⟨0, _⟩ => hF6_w0 m outs hg c
  | ⟨1, _⟩ => hF6_w1 m outs hg c
  | ⟨2, _⟩ => hF6_w2 m outs hg c
  | ⟨n + 3, h⟩ => absurd h (Nat.not_lt.2 (Nat.le_add_left _ _))

theorem hrest6 (c : Dev nD) : ∀ b, b ∉ Finset.univ.image (Pipeline.arrRef spec6) → V14 m outs c b = V13 m outs c b :=
  fun b hb => V14_of m outs c b fun h => by
    simp only [List.mem_cons, List.not_mem_nil, or_false] at h
    rcases h with rfl
    · exact hb (Finset.mem_image.mpr ⟨2, Finset.mem_univ _, rfl⟩)

theorem V16_at_2 (c : Dev nD) (r : Ref sig .tc) (h : r = main_v142_0) : V16 m outs c r = outs 16 r c := by
  subst h
  unfold V16
  rw [Function.update_of_ne (StableHlo.devRef_ne_of_ne (by decide : main_v142_0 ≠ main_v142_2))]
  rw [Function.update_of_ne (StableHlo.devRef_ne_of_ne (by decide : main_v142_0 ≠ main_v142_1))]
  exact Function.update_self ..
theorem V16_at_3 (c : Dev nD) (r : Ref sig .tc) (h : r = main_v142_1) : V16 m outs c r = outs 16 r c := by
  subst h
  unfold V16
  rw [Function.update_of_ne (StableHlo.devRef_ne_of_ne (by decide : main_v142_1 ≠ main_v142_2))]
  exact Function.update_self ..
theorem V16_at_4 (c : Dev nD) (r : Ref sig .tc) (h : r = main_v142_2) : V16 m outs c r = outs 16 r c := by
  subst h
  unfold V16

  exact Function.update_self ..
theorem hF7_w0 (hg : Good m outs) (c : Dev nD) : (dat7 (Vr (V15 m outs)) c).arrAt (0 : Fin cfg7.W) cfg7.N = V16 m outs c (Pipeline.arrRef spec7 (0 : Fin cfg7.W)) :=
  ((dat7 (Vr (V15 m outs)) c).arrAt_in 0 rfl _).trans ((A_eq7 (Vr (V15 m outs)) c 0).trans (V16_of m outs c _ (by decide)).symm)
theorem hF7_w1 (hg : Good m outs) (c : Dev nD) : (dat7 (Vr (V15 m outs)) c).arrAt (1 : Fin cfg7.W) cfg7.N = V16 m outs c (Pipeline.arrRef spec7 (1 : Fin cfg7.W)) :=
  ((dat7 (Vr (V15 m outs)) c).arrAt_in 1 rfl _).trans ((A_eq7 (Vr (V15 m outs)) c 1).trans (V16_of m outs c _ (by decide)).symm)
theorem hF7_w2 (hg : Good m outs) (c : Dev nD) : (dat7 (Vr (V15 m outs)) c).arrAt (2 : Fin cfg7.W) cfg7.N = V16 m outs c (Pipeline.arrRef spec7 (2 : Fin cfg7.W)) :=
  (hg.g7_2 c _ rfl).trans (V16_at_2 m outs c _ rfl).symm
theorem hF7_w3 (hg : Good m outs) (c : Dev nD) : (dat7 (Vr (V15 m outs)) c).arrAt (3 : Fin cfg7.W) cfg7.N = V16 m outs c (Pipeline.arrRef spec7 (3 : Fin cfg7.W)) :=
  (hg.g7_3 c _ rfl).trans (V16_at_3 m outs c _ rfl).symm
theorem hF7_w4 (hg : Good m outs) (c : Dev nD) : (dat7 (Vr (V15 m outs)) c).arrAt (4 : Fin cfg7.W) cfg7.N = V16 m outs c (Pipeline.arrRef spec7 (4 : Fin cfg7.W)) :=
  (hg.g7_4 c _ rfl).trans (V16_at_4 m outs c _ rfl).symm
theorem hF7 (hg : Good m outs) (c : Dev nD) : ∀ w : Fin cfg7.W, (dat7 (Vr (V15 m outs)) c).arrAt w cfg7.N = V16 m outs c (Pipeline.arrRef spec7 w)
  | ⟨0, _⟩ => hF7_w0 m outs hg c
  | ⟨1, _⟩ => hF7_w1 m outs hg c
  | ⟨2, _⟩ => hF7_w2 m outs hg c
  | ⟨3, _⟩ => hF7_w3 m outs hg c
  | ⟨4, _⟩ => hF7_w4 m outs hg c
  | ⟨n + 5, h⟩ => absurd h (Nat.not_lt.2 (Nat.le_add_left _ _))

theorem hrest7 (c : Dev nD) : ∀ b, b ∉ Finset.univ.image (Pipeline.arrRef spec7) → V16 m outs c b = V15 m outs c b :=
  fun b hb => V16_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V18_at_3 (c : Dev nD) (r : Ref sig .tc) (h : r = main_v155) : V18 m outs c r = outs 18 r c := by
  subst h
  unfold V18

  exact Function.update_self ..
theorem hF8_w0 (hg : Good m outs) (c : Dev nD) : (dat8 (Vr (V17 m outs)) c).arrAt (0 : Fin cfg8.W) cfg8.N = V18 m outs c (Pipeline.arrRef spec8 (0 : Fin cfg8.W)) :=
  ((dat8 (Vr (V17 m outs)) c).arrAt_in 0 rfl _).trans ((A_eq8 (Vr (V17 m outs)) c 0).trans (V18_of m outs c _ (by decide)).symm)
theorem hF8_w1 (hg : Good m outs) (c : Dev nD) : (dat8 (Vr (V17 m outs)) c).arrAt (1 : Fin cfg8.W) cfg8.N = V18 m outs c (Pipeline.arrRef spec8 (1 : Fin cfg8.W)) :=
  ((dat8 (Vr (V17 m outs)) c).arrAt_in 1 rfl _).trans ((A_eq8 (Vr (V17 m outs)) c 1).trans (V18_of m outs c _ (by decide)).symm)
theorem hF8_w2 (hg : Good m outs) (c : Dev nD) : (dat8 (Vr (V17 m outs)) c).arrAt (2 : Fin cfg8.W) cfg8.N = V18 m outs c (Pipeline.arrRef spec8 (2 : Fin cfg8.W)) :=
  ((dat8 (Vr (V17 m outs)) c).arrAt_in 2 rfl _).trans ((A_eq8 (Vr (V17 m outs)) c 2).trans (V18_of m outs c _ (by decide)).symm)
theorem hF8_w3 (hg : Good m outs) (c : Dev nD) : (dat8 (Vr (V17 m outs)) c).arrAt (3 : Fin cfg8.W) cfg8.N = V18 m outs c (Pipeline.arrRef spec8 (3 : Fin cfg8.W)) :=
  (hg.g8_3 c _ rfl).trans (V18_at_3 m outs c _ rfl).symm
theorem hF8 (hg : Good m outs) (c : Dev nD) : ∀ w : Fin cfg8.W, (dat8 (Vr (V17 m outs)) c).arrAt w cfg8.N = V18 m outs c (Pipeline.arrRef spec8 w)
  | ⟨0, _⟩ => hF8_w0 m outs hg c
  | ⟨1, _⟩ => hF8_w1 m outs hg c
  | ⟨2, _⟩ => hF8_w2 m outs hg c
  | ⟨3, _⟩ => hF8_w3 m outs hg c
  | ⟨n + 4, h⟩ => absurd h (Nat.not_lt.2 (Nat.le_add_left _ _))

theorem hrest8 (c : Dev nD) : ∀ b, b ∉ Finset.univ.image (Pipeline.arrRef spec8) → V18 m outs c b = V17 m outs c b :=
  fun b hb => V18_of m outs c b fun h => by
    simp only [List.mem_cons, List.not_mem_nil, or_false] at h
    rcases h with rfl
    · exact hb (Finset.mem_image.mpr ⟨3, Finset.mem_univ _, rfl⟩)

theorem V20_at_2 (c : Dev nD) (r : Ref sig .tc) (h : r = main_v167) : V20 m outs c r = outs 20 r c := by
  subst h
  unfold V20

  exact Function.update_self ..
theorem hF9_w0 (hg : Good m outs) (c : Dev nD) : (dat9 (Vr (V19 m outs)) c).arrAt (0 : Fin cfg9.W) cfg9.N = V20 m outs c (Pipeline.arrRef spec9 (0 : Fin cfg9.W)) :=
  ((dat9 (Vr (V19 m outs)) c).arrAt_in 0 rfl _).trans ((A_eq9 (Vr (V19 m outs)) c 0).trans (V20_of m outs c _ (by decide)).symm)
theorem hF9_w1 (hg : Good m outs) (c : Dev nD) : (dat9 (Vr (V19 m outs)) c).arrAt (1 : Fin cfg9.W) cfg9.N = V20 m outs c (Pipeline.arrRef spec9 (1 : Fin cfg9.W)) :=
  ((dat9 (Vr (V19 m outs)) c).arrAt_in 1 rfl _).trans ((A_eq9 (Vr (V19 m outs)) c 1).trans (V20_of m outs c _ (by decide)).symm)
theorem hF9_w2 (hg : Good m outs) (c : Dev nD) : (dat9 (Vr (V19 m outs)) c).arrAt (2 : Fin cfg9.W) cfg9.N = V20 m outs c (Pipeline.arrRef spec9 (2 : Fin cfg9.W)) :=
  (hg.g9_2 c _ rfl).trans (V20_at_2 m outs c _ rfl).symm
theorem hF9 (hg : Good m outs) (c : Dev nD) : ∀ w : Fin cfg9.W, (dat9 (Vr (V19 m outs)) c).arrAt w cfg9.N = V20 m outs c (Pipeline.arrRef spec9 w)
  | ⟨0, _⟩ => hF9_w0 m outs hg c
  | ⟨1, _⟩ => hF9_w1 m outs hg c
  | ⟨2, _⟩ => hF9_w2 m outs hg c
  | ⟨n + 3, h⟩ => absurd h (Nat.not_lt.2 (Nat.le_add_left _ _))

theorem hrest9 (c : Dev nD) : ∀ b, b ∉ Finset.univ.image (Pipeline.arrRef spec9) → V20 m outs c b = V19 m outs c b :=
  fun b hb => V20_of m outs c b fun h => by
    simp only [List.mem_cons, List.not_mem_nil, or_false] at h
    rcases h with rfl
    · exact hb (Finset.mem_image.mpr ⟨2, Finset.mem_univ _, rfl⟩)

theorem V22_at_2 (c : Dev nD) (r : Ref sig .tc) (h : r = main_v185_0) : V22 m outs c r = outs 22 r c := by
  subst h
  unfold V22
  rw [Function.update_of_ne (StableHlo.devRef_ne_of_ne (by decide : main_v185_0 ≠ main_v185_2))]
  rw [Function.update_of_ne (StableHlo.devRef_ne_of_ne (by decide : main_v185_0 ≠ main_v185_1))]
  exact Function.update_self ..
theorem V22_at_3 (c : Dev nD) (r : Ref sig .tc) (h : r = main_v185_1) : V22 m outs c r = outs 22 r c := by
  subst h
  unfold V22
  rw [Function.update_of_ne (StableHlo.devRef_ne_of_ne (by decide : main_v185_1 ≠ main_v185_2))]
  exact Function.update_self ..
theorem V22_at_4 (c : Dev nD) (r : Ref sig .tc) (h : r = main_v185_2) : V22 m outs c r = outs 22 r c := by
  subst h
  unfold V22

  exact Function.update_self ..
theorem hF10_w0 (hg : Good m outs) (c : Dev nD) : (dat10 (Vr (V21 m outs)) c).arrAt (0 : Fin cfg10.W) cfg10.N = V22 m outs c (Pipeline.arrRef spec10 (0 : Fin cfg10.W)) :=
  ((dat10 (Vr (V21 m outs)) c).arrAt_in 0 rfl _).trans ((A_eq10 (Vr (V21 m outs)) c 0).trans (V22_of m outs c _ (by decide)).symm)
theorem hF10_w1 (hg : Good m outs) (c : Dev nD) : (dat10 (Vr (V21 m outs)) c).arrAt (1 : Fin cfg10.W) cfg10.N = V22 m outs c (Pipeline.arrRef spec10 (1 : Fin cfg10.W)) :=
  ((dat10 (Vr (V21 m outs)) c).arrAt_in 1 rfl _).trans ((A_eq10 (Vr (V21 m outs)) c 1).trans (V22_of m outs c _ (by decide)).symm)
theorem hF10_w2 (hg : Good m outs) (c : Dev nD) : (dat10 (Vr (V21 m outs)) c).arrAt (2 : Fin cfg10.W) cfg10.N = V22 m outs c (Pipeline.arrRef spec10 (2 : Fin cfg10.W)) :=
  (hg.g10_2 c _ rfl).trans (V22_at_2 m outs c _ rfl).symm
theorem hF10_w3 (hg : Good m outs) (c : Dev nD) : (dat10 (Vr (V21 m outs)) c).arrAt (3 : Fin cfg10.W) cfg10.N = V22 m outs c (Pipeline.arrRef spec10 (3 : Fin cfg10.W)) :=
  (hg.g10_3 c _ rfl).trans (V22_at_3 m outs c _ rfl).symm
theorem hF10_w4 (hg : Good m outs) (c : Dev nD) : (dat10 (Vr (V21 m outs)) c).arrAt (4 : Fin cfg10.W) cfg10.N = V22 m outs c (Pipeline.arrRef spec10 (4 : Fin cfg10.W)) :=
  (hg.g10_4 c _ rfl).trans (V22_at_4 m outs c _ rfl).symm
theorem hF10 (hg : Good m outs) (c : Dev nD) : ∀ w : Fin cfg10.W, (dat10 (Vr (V21 m outs)) c).arrAt w cfg10.N = V22 m outs c (Pipeline.arrRef spec10 w)
  | ⟨0, _⟩ => hF10_w0 m outs hg c
  | ⟨1, _⟩ => hF10_w1 m outs hg c
  | ⟨2, _⟩ => hF10_w2 m outs hg c
  | ⟨3, _⟩ => hF10_w3 m outs hg c
  | ⟨4, _⟩ => hF10_w4 m outs hg c
  | ⟨n + 5, h⟩ => absurd h (Nat.not_lt.2 (Nat.le_add_left _ _))

theorem hrest10 (c : Dev nD) : ∀ b, b ∉ Finset.univ.image (Pipeline.arrRef spec10) → V22 m outs c b = V21 m outs c b :=
  fun b hb => V22_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V24_at_3 (c : Dev nD) (r : Ref sig .tc) (h : r = main_v198) : V24 m outs c r = outs 24 r c := by
  subst h
  unfold V24

  exact Function.update_self ..
theorem hF11_w0 (hg : Good m outs) (c : Dev nD) : (dat11 (Vr (V23 m outs)) c).arrAt (0 : Fin cfg11.W) cfg11.N = V24 m outs c (Pipeline.arrRef spec11 (0 : Fin cfg11.W)) :=
  ((dat11 (Vr (V23 m outs)) c).arrAt_in 0 rfl _).trans ((A_eq11 (Vr (V23 m outs)) c 0).trans (V24_of m outs c _ (by decide)).symm)
theorem hF11_w1 (hg : Good m outs) (c : Dev nD) : (dat11 (Vr (V23 m outs)) c).arrAt (1 : Fin cfg11.W) cfg11.N = V24 m outs c (Pipeline.arrRef spec11 (1 : Fin cfg11.W)) :=
  ((dat11 (Vr (V23 m outs)) c).arrAt_in 1 rfl _).trans ((A_eq11 (Vr (V23 m outs)) c 1).trans (V24_of m outs c _ (by decide)).symm)
theorem hF11_w2 (hg : Good m outs) (c : Dev nD) : (dat11 (Vr (V23 m outs)) c).arrAt (2 : Fin cfg11.W) cfg11.N = V24 m outs c (Pipeline.arrRef spec11 (2 : Fin cfg11.W)) :=
  ((dat11 (Vr (V23 m outs)) c).arrAt_in 2 rfl _).trans ((A_eq11 (Vr (V23 m outs)) c 2).trans (V24_of m outs c _ (by decide)).symm)
theorem hF11_w3 (hg : Good m outs) (c : Dev nD) : (dat11 (Vr (V23 m outs)) c).arrAt (3 : Fin cfg11.W) cfg11.N = V24 m outs c (Pipeline.arrRef spec11 (3 : Fin cfg11.W)) :=
  (hg.g11_3 c _ rfl).trans (V24_at_3 m outs c _ rfl).symm
theorem hF11 (hg : Good m outs) (c : Dev nD) : ∀ w : Fin cfg11.W, (dat11 (Vr (V23 m outs)) c).arrAt w cfg11.N = V24 m outs c (Pipeline.arrRef spec11 w)
  | ⟨0, _⟩ => hF11_w0 m outs hg c
  | ⟨1, _⟩ => hF11_w1 m outs hg c
  | ⟨2, _⟩ => hF11_w2 m outs hg c
  | ⟨3, _⟩ => hF11_w3 m outs hg c
  | ⟨n + 4, h⟩ => absurd h (Nat.not_lt.2 (Nat.le_add_left _ _))

theorem hrest11 (c : Dev nD) : ∀ b, b ∉ Finset.univ.image (Pipeline.arrRef spec11) → V24 m outs c b = V23 m outs c b :=
  fun b hb => V24_of m outs c b fun h => by
    simp only [List.mem_cons, List.not_mem_nil, or_false] at h
    rcases h with rfl
    · exact hb (Finset.mem_image.mpr ⟨3, Finset.mem_univ _, rfl⟩)

theorem V26_at_7 (c : Dev nD) (r : Ref sig .tc) (h : r = main_v205) : V26 m outs c r = outs 26 r c := by
  subst h
  unfold V26

  exact Function.update_self ..
theorem hF12_w0 (hg : Good m outs) (c : Dev nD) : (dat12 (Vr (V25 m outs)) c).arrAt (0 : Fin cfg12.W) cfg12.N = V26 m outs c (Pipeline.arrRef spec12 (0 : Fin cfg12.W)) :=
  ((dat12 (Vr (V25 m outs)) c).arrAt_in 0 rfl _).trans ((A_eq12 (Vr (V25 m outs)) c 0).trans (V26_of m outs c _ (by decide)).symm)
theorem hF12_w1 (hg : Good m outs) (c : Dev nD) : (dat12 (Vr (V25 m outs)) c).arrAt (1 : Fin cfg12.W) cfg12.N = V26 m outs c (Pipeline.arrRef spec12 (1 : Fin cfg12.W)) :=
  ((dat12 (Vr (V25 m outs)) c).arrAt_in 1 rfl _).trans ((A_eq12 (Vr (V25 m outs)) c 1).trans (V26_of m outs c _ (by decide)).symm)
theorem hF12_w2 (hg : Good m outs) (c : Dev nD) : (dat12 (Vr (V25 m outs)) c).arrAt (2 : Fin cfg12.W) cfg12.N = V26 m outs c (Pipeline.arrRef spec12 (2 : Fin cfg12.W)) :=
  ((dat12 (Vr (V25 m outs)) c).arrAt_in 2 rfl _).trans ((A_eq12 (Vr (V25 m outs)) c 2).trans (V26_of m outs c _ (by decide)).symm)
theorem hF12_w3 (hg : Good m outs) (c : Dev nD) : (dat12 (Vr (V25 m outs)) c).arrAt (3 : Fin cfg12.W) cfg12.N = V26 m outs c (Pipeline.arrRef spec12 (3 : Fin cfg12.W)) :=
  ((dat12 (Vr (V25 m outs)) c).arrAt_in 3 rfl _).trans ((A_eq12 (Vr (V25 m outs)) c 3).trans (V26_of m outs c _ (by decide)).symm)
theorem hF12_w4 (hg : Good m outs) (c : Dev nD) : (dat12 (Vr (V25 m outs)) c).arrAt (4 : Fin cfg12.W) cfg12.N = V26 m outs c (Pipeline.arrRef spec12 (4 : Fin cfg12.W)) :=
  ((dat12 (Vr (V25 m outs)) c).arrAt_in 4 rfl _).trans ((A_eq12 (Vr (V25 m outs)) c 4).trans (V26_of m outs c _ (by decide)).symm)
theorem hF12_w5 (hg : Good m outs) (c : Dev nD) : (dat12 (Vr (V25 m outs)) c).arrAt (5 : Fin cfg12.W) cfg12.N = V26 m outs c (Pipeline.arrRef spec12 (5 : Fin cfg12.W)) :=
  ((dat12 (Vr (V25 m outs)) c).arrAt_in 5 rfl _).trans ((A_eq12 (Vr (V25 m outs)) c 5).trans (V26_of m outs c _ (by decide)).symm)
theorem hF12_w6 (hg : Good m outs) (c : Dev nD) : (dat12 (Vr (V25 m outs)) c).arrAt (6 : Fin cfg12.W) cfg12.N = V26 m outs c (Pipeline.arrRef spec12 (6 : Fin cfg12.W)) :=
  ((dat12 (Vr (V25 m outs)) c).arrAt_in 6 rfl _).trans ((A_eq12 (Vr (V25 m outs)) c 6).trans (V26_of m outs c _ (by decide)).symm)
theorem hF12_w7 (hg : Good m outs) (c : Dev nD) : (dat12 (Vr (V25 m outs)) c).arrAt (7 : Fin cfg12.W) cfg12.N = V26 m outs c (Pipeline.arrRef spec12 (7 : Fin cfg12.W)) :=
  (hg.g12_7 c _ rfl).trans (V26_at_7 m outs c _ rfl).symm
theorem hF12 (hg : Good m outs) (c : Dev nD) : ∀ w : Fin cfg12.W, (dat12 (Vr (V25 m outs)) c).arrAt w cfg12.N = V26 m outs c (Pipeline.arrRef spec12 w)
  | ⟨0, _⟩ => hF12_w0 m outs hg c
  | ⟨1, _⟩ => hF12_w1 m outs hg c
  | ⟨2, _⟩ => hF12_w2 m outs hg c
  | ⟨3, _⟩ => hF12_w3 m outs hg c
  | ⟨4, _⟩ => hF12_w4 m outs hg c
  | ⟨5, _⟩ => hF12_w5 m outs hg c
  | ⟨6, _⟩ => hF12_w6 m outs hg c
  | ⟨7, _⟩ => hF12_w7 m outs hg c
  | ⟨n + 8, h⟩ => absurd h (Nat.not_lt.2 (Nat.le_add_left _ _))

theorem hrest12 (c : Dev nD) : ∀ b, b ∉ Finset.univ.image (Pipeline.arrRef spec12) → V26 m outs c b = V25 m outs c b :=
  fun b hb => V26_of m outs c b fun h => by
    simp only [List.mem_cons, List.not_mem_nil, or_false] at h
    rcases h with rfl
    · exact hb (Finset.mem_image.mpr ⟨7, Finset.mem_univ _, rfl⟩)

/-- No pipeline has a prefetched table. -/
abbrev adm : (p : Fin 13) → (pcfgs (F := F) p).Adm := fun p => (cfgs p).toPCfg_adm
/-- Every pipeline's proof data, each at the contents its region is entered with: a literal match, so that the
    configuration at a numeral reduces to the printed one. -/
def pdats : (p : Fin 13) → (c : Dev nD) → Dat τ (Elt F) Unit ℕ (UR sig nD τ) ℕ (cfgs p) c
  | ⟨0, _⟩ => fun c => dat0 (Vr (V1 m)) c
  | ⟨1, _⟩ => fun c => dat1 (Vr (V3 m outs)) c
  | ⟨2, _⟩ => fun c => dat2 (Vr (V5 m outs)) c
  | ⟨3, _⟩ => fun c => dat3 (Vr (V7 m outs)) c
  | ⟨4, _⟩ => fun c => dat4 (Vr (V9 m outs)) c
  | ⟨5, _⟩ => fun c => dat5 (Vr (V11 m outs)) c
  | ⟨6, _⟩ => fun c => dat6 (Vr (V13 m outs)) c
  | ⟨7, _⟩ => fun c => dat7 (Vr (V15 m outs)) c
  | ⟨8, _⟩ => fun c => dat8 (Vr (V17 m outs)) c
  | ⟨9, _⟩ => fun c => dat9 (Vr (V19 m outs)) c
  | ⟨10, _⟩ => fun c => dat10 (Vr (V21 m outs)) c
  | ⟨11, _⟩ => fun c => dat11 (Vr (V23 m outs)) c
  | ⟨12, _⟩ => fun c => dat12 (Vr (V25 m outs)) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.Kernel.Hand

end
-- ==== Proof.K.Seg0.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 0's proof data in the family is the region's own. -/
theorem pdats_0 (c : Dev nD) : pdats m outs 0 c = dat0 (Vr (V1 m)) c := rfl

set_option backward.isDefEq.respectTransparency.types false in
/-- Region 0 over the thread state: entered with every unscoped buffer at the contents before it, left with them at
    the contents after it; its windows' arrays are split out of the unscoped buffers and put back at what the
    write-backs leave; the generator register goes into the body's invariant and comes back; nothing is owed. -/
def reg0 (hg : Good m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (V1 m)) c).loose
  hwaits := Pipeline.hwaits_of_owed_zero _ _ _ _ L lv 0 fun c t => owed0 (Vr (V1 m)) c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun w => share0 (Vr (V1 m)) c w) (Vr (V1 m) c) fun w => A_eq0 (Vr (V1 m)) c w
    rw [Pipeline.unscopedBufs_held] at hsplit
    have e0 : (pdats m outs 0 c).owed 0 = 0 := owed0 (Vr (V1 m)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat0 (Vr (V1 m)) c).Φ 0
    iintro ⟨Hp, -, Hr⟩
    iapply (hin0 (Vr (V1 m)) c)
    isplitl [Hp]; · iexact Hp
    iexact Hr
  hout c := by
    rw [Pipeline.ownSems0_none]
    change (dat0 (Vr (V1 m)) c).Φ (Fin.last cfg0.N) ⊢ _
    iintro H
    ihave H' := (hout0 (Vr (V1 m)) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun w => share0 (Vr (V1 m)) c w)
      (Vr (V1 m) c) (Vr (V2 m outs) c) ((pdats m outs 0 c).arrAt · cfg0.N) (hF0 m outs hg c) (hrest0 m outs c)
    rw [Pipeline.unscopedBufs_held] at hjoin
    have eN : (pdats m outs 0 c).owed (Fin.last (Pipeline.pin (pcfgs (F := F)) adm 0).N) = 0 := owed0 (Vr (V1 m)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg1.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 1's proof data in the family is the region's own. -/
theorem pdats_1 (c : Dev nD) : pdats m outs 1 c = dat1 (Vr (V3 m outs)) c := rfl

set_option backward.isDefEq.respectTransparency.types false in
/-- Region 1 over the thread state: entered with every unscoped buffer at the contents before it, left with them at
    the contents after it; its windows' arrays are split out of the unscoped buffers and put back at what the
    write-backs leave; the generator register goes into the body's invariant and comes back; nothing is owed. -/
def reg1 (hg : Good m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (V3 m outs)) c).loose
  hwaits := Pipeline.hwaits_of_owed_zero _ _ _ _ L lv 1 fun c t => owed1 (Vr (V3 m outs)) c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (Vr (V3 m outs) c)
  hentry c := by
    rw [Pipeline.ownSems0_none]
    have hsplit := Pipeline.arrays_of_unscopedBufs (p := 1) (pcfgs (F := F)) adm (pdats m outs) launch1.win launch1.arr_whole c
      ((pdats m outs 1 c).share_full fun w => share1 (Vr (V3 m outs)) c w) (Vr (V3 m outs) c) fun w => A_eq1 (Vr (V3 m outs)) c w
    rw [Pipeline.unscopedBufs_held] at hsplit
    have e0 : (pdats m outs 1 c).owed 0 = 0 := owed1 (Vr (V3 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat1 (Vr (V3 m outs)) c).Φ 0
    iintro ⟨Hp, -, Hr⟩
    iapply (hin1 (Vr (V3 m outs)) c)
    isplitl [Hp]; · iexact Hp
    iexact Hr
  hout c := by
    rw [Pipeline.ownSems0_none]
    change (dat1 (Vr (V3 m outs)) c).Φ (Fin.last cfg1.N) ⊢ _
    iintro H
    ihave H' := (hout1 (Vr (V3 m outs)) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun w => share1 (Vr (V3 m outs)) c w)
      (Vr (V3 m outs) c) (Vr (V4 m outs) c) ((pdats m outs 1 c).arrAt · cfg1.N) (hF1 m outs hg c) (hrest1 m outs c)
    rw [Pipeline.unscopedBufs_held] at hjoin
    have eN : (pdats m outs 1 c).owed (Fin.last (Pipeline.pin (pcfgs (F := F)) adm 1).N) = 0 := owed1 (Vr (V3 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg2.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 2's proof data in the family is the region's own. -/
theorem pdats_2 (c : Dev nD) : pdats m outs 2 c = dat2 (Vr (V5 m outs)) c := rfl

set_option backward.isDefEq.respectTransparency.types false in
/-- Region 2 over the thread state: entered with every unscoped buffer at the contents before it, left with them at
    the contents after it; its windows' arrays are split out of the unscoped buffers and put back at what the
    write-backs leave; the generator register goes into the body's invariant and comes back; nothing is owed. -/
def reg2 (hg : Good m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (V5 m outs)) c).loose
  hwaits := Pipeline.hwaits_of_owed_zero _ _ _ _ L lv 2 fun c t => owed2 (Vr (V5 m outs)) c t
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (Vr (V5 m outs) c)
  hentry c := by
    rw [Pipeline.ownSems0_none]
    have hsplit := Pipeline.arrays_of_unscopedBufs (p := 2) (pcfgs (F := F)) adm (pdats m outs) launch2.win launch2.arr_whole c
      ((pdats m outs 2 c).share_full fun w => share2 (Vr (V5 m outs)) c w) (Vr (V5 m outs) c) fun w => A_eq2 (Vr (V5 m outs)) c w
    rw [Pipeline.unscopedBufs_held] at hsplit
    have e0 : (pdats m outs 2 c).owed 0 = 0 := owed2 (Vr (V5 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat2 (Vr (V5 m outs)) c).Φ 0
    iintro ⟨Hp, -, Hr⟩
    iapply (hin2 (Vr (V5 m outs)) c)
    isplitl [Hp]; · iexact Hp
    iexact Hr
  hout c := by
    rw [Pipeline.ownSems0_none]
    change (dat2 (Vr (V5 m outs)) c).Φ (Fin.last cfg2.N) ⊢ _
    iintro H
    ihave H' := (hout2 (Vr (V5 m outs)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun w => share2 (Vr (V5 m outs)) c w)
      (Vr (V5 m outs) c) (Vr (V6 m outs) c) ((pdats m outs 2 c).arrAt · cfg2.N) (hF2 m outs hg c) (hrest2 m outs c)
    rw [Pipeline.unscopedBufs_held] at hjoin
    have eN : (pdats m outs 2 c).owed (Fin.last (Pipeline.pin (pcfgs (F := F)) adm 2).N) = 0 := owed2 (Vr (V5 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg3.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 3's proof data in the family is the region's own. -/
theorem pdats_3 (c : Dev nD) : pdats m outs 3 c = dat3 (Vr (V7 m outs)) c := rfl

set_option backward.isDefEq.respectTransparency.types false in
/-- Region 3 over the thread state: entered with every unscoped buffer at the contents before it, left with them at
    the contents after it; its windows' arrays are split out of the unscoped buffers and put back at what the
    write-backs leave; the generator register goes into the body's invariant and comes back; nothing is owed. -/
def reg3 (hg : Good m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (V7 m outs)) c).loose
  hwaits := Pipeline.hwaits_of_owed_zero _ _ _ _ L lv 3 fun c t => owed3 (Vr (V7 m outs)) c t
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (Vr (V7 m outs) c)
  hentry c := by
    rw [Pipeline.ownSems0_none]
    have hsplit := Pipeline.arrays_of_unscopedBufs (p := 3) (pcfgs (F := F)) adm (pdats m outs) launch3.win launch3.arr_whole c
      ((pdats m outs 3 c).share_full fun w => share3 (Vr (V7 m outs)) c w) (Vr (V7 m outs) c) fun w => A_eq3 (Vr (V7 m outs)) c w
    rw [Pipeline.unscopedBufs_held] at hsplit
    have e0 : (pdats m outs 3 c).owed 0 = 0 := owed3 (Vr (V7 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat3 (Vr (V7 m outs)) c).Φ 0
    iintro ⟨Hp, -, Hr⟩
    iapply (hin3 (Vr (V7 m outs)) c)
    isplitl [Hp]; · iexact Hp
    iexact Hr
  hout c := by
    rw [Pipeline.ownSems0_none]
    change (dat3 (Vr (V7 m outs)) c).Φ (Fin.last cfg3.N) ⊢ _
    iintro H
    ihave H' := (hout3 (Vr (V7 m outs)) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun w => share3 (Vr (V7 m outs)) c w)
      (Vr (V7 m outs) c) (Vr (V8 m outs) c) ((pdats m outs 3 c).arrAt · cfg3.N) (hF3 m outs hg c) (hrest3 m outs c)
    rw [Pipeline.unscopedBufs_held] at hjoin
    have eN : (pdats m outs 3 c).owed (Fin.last (Pipeline.pin (pcfgs (F := F)) adm 3).N) = 0 := owed3 (Vr (V7 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg4.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 4's proof data in the family is the region's own. -/
theorem pdats_4 (c : Dev nD) : pdats m outs 4 c = dat4 (Vr (V9 m outs)) c := rfl

set_option backward.isDefEq.respectTransparency.types false in
/-- Region 4 over the thread state: entered with every unscoped buffer at the contents before it, left with them at
    the contents after it; its windows' arrays are split out of the unscoped buffers and put back at what the
    write-backs leave; the generator register goes into the body's invariant and comes back; nothing is owed. -/
def reg4 (hg : Good m outs) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (V9 m outs)) c).loose
  hwaits := Pipeline.hwaits_of_owed_zero _ _ _ _ L lv 4 fun c t => owed4 (Vr (V9 m outs)) c t
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (Vr (V9 m outs) c)
  hentry c := by
    rw [Pipeline.ownSems0_none]
    have hsplit := Pipeline.arrays_of_unscopedBufs (p := 4) (pcfgs (F := F)) adm (pdats m outs) launch4.win launch4.arr_whole c
      ((pdats m outs 4 c).share_full fun w => share4 (Vr (V9 m outs)) c w) (Vr (V9 m outs) c) fun w => A_eq4 (Vr (V9 m outs)) c w
    rw [Pipeline.unscopedBufs_held] at hsplit
    have e0 : (pdats m outs 4 c).owed 0 = 0 := owed4 (Vr (V9 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat4 (Vr (V9 m outs)) c).Φ 0
    iintro ⟨Hp, -, Hr⟩
    iapply (hin4 (Vr (V9 m outs)) c)
    isplitl [Hp]; · iexact Hp
    iexact Hr
  hout c := by
    rw [Pipeline.ownSems0_none]
    change (dat4 (Vr (V9 m outs)) c).Φ (Fin.last cfg4.N) ⊢ _
    iintro H
    ihave H' := (hout4 (Vr (V9 m outs)) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun w => share4 (Vr (V9 m outs)) c w)
      (Vr (V9 m outs) c) (Vr (V10 m outs) c) ((pdats m outs 4 c).arrAt · cfg4.N) (hF4 m outs hg c) (hrest4 m outs c)
    rw [Pipeline.unscopedBufs_held] at hjoin
    have eN : (pdats m outs 4 c).owed (Fin.last (Pipeline.pin (pcfgs (F := F)) adm 4).N) = 0 := owed4 (Vr (V9 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg5.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 5's proof data in the family is the region's own. -/
theorem pdats_5 (c : Dev nD) : pdats m outs 5 c = dat5 (Vr (V11 m outs)) c := rfl

set_option backward.isDefEq.respectTransparency.types false in
/-- Region 5 over the thread state: entered with every unscoped buffer at the contents before it, left with them at
    the contents after it; its windows' arrays are split out of the unscoped buffers and put back at what the
    write-backs leave; the generator register goes into the body's invariant and comes back; nothing is owed. -/
def reg5 (hg : Good m outs) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (V11 m outs)) c).loose
  hwaits := Pipeline.hwaits_of_owed_zero _ _ _ _ L lv 5 fun c t => owed5 (Vr (V11 m outs)) c t
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (Vr (V11 m outs) c)
  hentry c := by
    rw [Pipeline.ownSems0_none]
    have hsplit := Pipeline.arrays_of_unscopedBufs (p := 5) (pcfgs (F := F)) adm (pdats m outs) launch5.win launch5.arr_whole c
      ((pdats m outs 5 c).share_full fun w => share5 (Vr (V11 m outs)) c w) (Vr (V11 m outs) c) fun w => A_eq5 (Vr (V11 m outs)) c w
    rw [Pipeline.unscopedBufs_held] at hsplit
    have e0 : (pdats m outs 5 c).owed 0 = 0 := owed5 (Vr (V11 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat5 (Vr (V11 m outs)) c).Φ 0
    iintro ⟨Hp, -, Hr⟩
    iapply (hin5 (Vr (V11 m outs)) c)
    isplitl [Hp]; · iexact Hp
    iexact Hr
  hout c := by
    rw [Pipeline.ownSems0_none]
    change (dat5 (Vr (V11 m outs)) c).Φ (Fin.last cfg5.N) ⊢ _
    iintro H
    ihave H' := (hout5 (Vr (V11 m outs)) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun w => share5 (Vr (V11 m outs)) c w)
      (Vr (V11 m outs) c) (Vr (V12 m outs) c) ((pdats m outs 5 c).arrAt · cfg5.N) (hF5 m outs hg c) (hrest5 m outs c)
    rw [Pipeline.unscopedBufs_held] at hjoin
    have eN : (pdats m outs 5 c).owed (Fin.last (Pipeline.pin (pcfgs (F := F)) adm 5).N) = 0 := owed5 (Vr (V11 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg6.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 6's proof data in the family is the region's own. -/
theorem pdats_6 (c : Dev nD) : pdats m outs 6 c = dat6 (Vr (V13 m outs)) c := rfl

set_option backward.isDefEq.respectTransparency.types false in
/-- Region 6 over the thread state: entered with every unscoped buffer at the contents before it, left with them at
    the contents after it; its windows' arrays are split out of the unscoped buffers and put back at what the
    write-backs leave; the generator register goes into the body's invariant and comes back; nothing is owed. -/
def reg6 (hg : Good m outs) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr (V13 m outs)) c).loose
  hwaits := Pipeline.hwaits_of_owed_zero _ _ _ _ L lv 6 fun c t => owed6 (Vr (V13 m outs)) c t
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (Vr (V13 m outs) c)
  hentry c := by
    rw [Pipeline.ownSems0_none]
    have hsplit := Pipeline.arrays_of_unscopedBufs (p := 6) (pcfgs (F := F)) adm (pdats m outs) launch6.win launch6.arr_whole c
      ((pdats m outs 6 c).share_full fun w => share6 (Vr (V13 m outs)) c w) (Vr (V13 m outs) c) fun w => A_eq6 (Vr (V13 m outs)) c w
    rw [Pipeline.unscopedBufs_held] at hsplit
    have e0 : (pdats m outs 6 c).owed 0 = 0 := owed6 (Vr (V13 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat6 (Vr (V13 m outs)) c).Φ 0
    iintro ⟨Hp, -, Hr⟩
    iapply (hin6 (Vr (V13 m outs)) c)
    isplitl [Hp]; · iexact Hp
    iexact Hr
  hout c := by
    rw [Pipeline.ownSems0_none]
    change (dat6 (Vr (V13 m outs)) c).Φ (Fin.last cfg6.N) ⊢ _
    iintro H
    ihave H' := (hout6 (Vr (V13 m outs)) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun w => share6 (Vr (V13 m outs)) c w)
      (Vr (V13 m outs) c) (Vr (V14 m outs) c) ((pdats m outs 6 c).arrAt · cfg6.N) (hF6 m outs hg c) (hrest6 m outs c)
    rw [Pipeline.unscopedBufs_held] at hjoin
    have eN : (pdats m outs 6 c).owed (Fin.last (Pipeline.pin (pcfgs (F := F)) adm 6).N) = 0 := owed6 (Vr (V13 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg7.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 7's proof data in the family is the region's own. -/
theorem pdats_7 (c : Dev nD) : pdats m outs 7 c = dat7 (Vr (V15 m outs)) c := rfl

set_option backward.isDefEq.respectTransparency.types false in
/-- Region 7 over the thread state: entered with every unscoped buffer at the contents before it, left with them at
    the contents after it; its windows' arrays are split out of the unscoped buffers and put back at what the
    write-backs leave; the generator register goes into the body's invariant and comes back; nothing is owed. -/
def reg7 (hg : Good m outs) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (V15 m outs)) c).loose
  hwaits := Pipeline.hwaits_of_owed_zero _ _ _ _ L lv 7 fun c t => owed7 (Vr (V15 m outs)) c t
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (Vr (V15 m outs) c)
  hentry c := by
    rw [Pipeline.ownSems0_none]
    have hsplit := Pipeline.arrays_of_unscopedBufs (p := 7) (pcfgs (F := F)) adm (pdats m outs) launch7.win launch7.arr_whole c
      ((pdats m outs 7 c).share_full fun w => share7 (Vr (V15 m outs)) c w) (Vr (V15 m outs) c) fun w => A_eq7 (Vr (V15 m outs)) c w
    rw [Pipeline.unscopedBufs_held] at hsplit
    have e0 : (pdats m outs 7 c).owed 0 = 0 := owed7 (Vr (V15 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat7 (Vr (V15 m outs)) c).Φ 0
    iintro ⟨Hp, -, Hr⟩
    iapply (hin7 (Vr (V15 m outs)) c)
    isplitl [Hp]; · iexact Hp
    iexact Hr
  hout c := by
    rw [Pipeline.ownSems0_none]
    change (dat7 (Vr (V15 m outs)) c).Φ (Fin.last cfg7.N) ⊢ _
    iintro H
    ihave H' := (hout7 (Vr (V15 m outs)) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun w => share7 (Vr (V15 m outs)) c w)
      (Vr (V15 m outs) c) (Vr (V16 m outs) c) ((pdats m outs 7 c).arrAt · cfg7.N) (hF7 m outs hg c) (hrest7 m outs c)
    rw [Pipeline.unscopedBufs_held] at hjoin
    have eN : (pdats m outs 7 c).owed (Fin.last (Pipeline.pin (pcfgs (F := F)) adm 7).N) = 0 := owed7 (Vr (V15 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg8.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 8's proof data in the family is the region's own. -/
theorem pdats_8 (c : Dev nD) : pdats m outs 8 c = dat8 (Vr (V17 m outs)) c := rfl

set_option backward.isDefEq.respectTransparency.types false in
/-- Region 8 over the thread state: entered with every unscoped buffer at the contents before it, left with them at
    the contents after it; its windows' arrays are split out of the unscoped buffers and put back at what the
    write-backs leave; the generator register goes into the body's invariant and comes back; nothing is owed. -/
def reg8 (hg : Good m outs) : Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr (V17 m outs)) c).loose
  hwaits := Pipeline.hwaits_of_owed_zero _ _ _ _ L lv 8 fun c t => owed8 (Vr (V17 m outs)) c t
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec8 c (Vr (V17 m outs) c)
  hentry c := by
    rw [Pipeline.ownSems0_none]
    have hsplit := Pipeline.arrays_of_unscopedBufs (p := 8) (pcfgs (F := F)) adm (pdats m outs) launch8.win launch8.arr_whole c
      ((pdats m outs 8 c).share_full fun w => share8 (Vr (V17 m outs)) c w) (Vr (V17 m outs) c) fun w => A_eq8 (Vr (V17 m outs)) c w
    rw [Pipeline.unscopedBufs_held] at hsplit
    have e0 : (pdats m outs 8 c).owed 0 = 0 := owed8 (Vr (V17 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat8 (Vr (V17 m outs)) c).Φ 0
    iintro ⟨Hp, -, Hr⟩
    iapply (hin8 (Vr (V17 m outs)) c)
    isplitl [Hp]; · iexact Hp
    iexact Hr
  hout c := by
    rw [Pipeline.ownSems0_none]
    change (dat8 (Vr (V17 m outs)) c).Φ (Fin.last cfg8.N) ⊢ _
    iintro H
    ihave H' := (hout8 (Vr (V17 m outs)) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun w => share8 (Vr (V17 m outs)) c w)
      (Vr (V17 m outs) c) (Vr (V18 m outs) c) ((pdats m outs 8 c).arrAt · cfg8.N) (hF8 m outs hg c) (hrest8 m outs c)
    rw [Pipeline.unscopedBufs_held] at hjoin
    have eN : (pdats m outs 8 c).owed (Fin.last (Pipeline.pin (pcfgs (F := F)) adm 8).N) = 0 := owed8 (Vr (V17 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg9.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 9's proof data in the family is the region's own. -/
theorem pdats_9 (c : Dev nD) : pdats m outs 9 c = dat9 (Vr (V19 m outs)) c := rfl

set_option backward.isDefEq.respectTransparency.types false in
/-- Region 9 over the thread state: entered with every unscoped buffer at the contents before it, left with them at
    the contents after it; its windows' arrays are split out of the unscoped buffers and put back at what the
    write-backs leave; the generator register goes into the body's invariant and comes back; nothing is owed. -/
def reg9 (hg : Good m outs) : Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (V19 m outs)) c).loose
  hwaits := Pipeline.hwaits_of_owed_zero _ _ _ _ L lv 9 fun c t => owed9 (Vr (V19 m outs)) c t
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec9 c (Vr (V19 m outs) c)
  hentry c := by
    rw [Pipeline.ownSems0_none]
    have hsplit := Pipeline.arrays_of_unscopedBufs (p := 9) (pcfgs (F := F)) adm (pdats m outs) launch9.win launch9.arr_whole c
      ((pdats m outs 9 c).share_full fun w => share9 (Vr (V19 m outs)) c w) (Vr (V19 m outs) c) fun w => A_eq9 (Vr (V19 m outs)) c w
    rw [Pipeline.unscopedBufs_held] at hsplit
    have e0 : (pdats m outs 9 c).owed 0 = 0 := owed9 (Vr (V19 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat9 (Vr (V19 m outs)) c).Φ 0
    iintro ⟨Hp, -, Hr⟩
    iapply (hin9 (Vr (V19 m outs)) c)
    isplitl [Hp]; · iexact Hp
    iexact Hr
  hout c := by
    rw [Pipeline.ownSems0_none]
    change (dat9 (Vr (V19 m outs)) c).Φ (Fin.last cfg9.N) ⊢ _
    iintro H
    ihave H' := (hout9 (Vr (V19 m outs)) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun w => share9 (Vr (V19 m outs)) c w)
      (Vr (V19 m outs) c) (Vr (V20 m outs) c) ((pdats m outs 9 c).arrAt · cfg9.N) (hF9 m outs hg c) (hrest9 m outs c)
    rw [Pipeline.unscopedBufs_held] at hjoin
    have eN : (pdats m outs 9 c).owed (Fin.last (Pipeline.pin (pcfgs (F := F)) adm 9).N) = 0 := owed9 (Vr (V19 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg10.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 10's proof data in the family is the region's own. -/
theorem pdats_10 (c : Dev nD) : pdats m outs 10 c = dat10 (Vr (V21 m outs)) c := rfl

set_option backward.isDefEq.respectTransparency.types false in
/-- Region 10 over the thread state: entered with every unscoped buffer at the contents before it, left with them at
    the contents after it; its windows' arrays are split out of the unscoped buffers and put back at what the
    write-backs leave; the generator register goes into the body's invariant and comes back; nothing is owed. -/
def reg10 (hg : Good m outs) : Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr (V21 m outs)) c).loose
  hwaits := Pipeline.hwaits_of_owed_zero _ _ _ _ L lv 10 fun c t => owed10 (Vr (V21 m outs)) c t
  pre c := iprop(StableHlo.held (c : Thread nD τ) (Pipeline.ucRefs τ sig) (V21 m outs c) ∗ R c)
  post c := iprop(StableHlo.held (c : Thread nD τ) (Pipeline.ucRefs τ sig) (V22 m outs c) ∗ R c)
  X c := iprop(∃ r, prngReg c r)
  Y c := iprop(∃ r, prngReg c r)
  Z c := Pipeline.unscopedRest (Ix := Unit) (Name := ℕ) (U := UR sig nD τ) (Lvl := ℕ) spec10 c (Vr (V21 m outs) c)
  hentry c := by
    rw [Pipeline.ownSems0_none]
    have hsplit := Pipeline.arrays_of_unscopedBufs (p := 10) (pcfgs (F := F)) adm (pdats m outs) launch10.win launch10.arr_whole c
      ((pdats m outs 10 c).share_full fun w => share10 (Vr (V21 m outs)) c w) (Vr (V21 m outs) c) fun w => A_eq10 (Vr (V21 m outs)) c w
    rw [Pipeline.unscopedBufs_held] at hsplit
    have e0 : (pdats m outs 10 c).owed 0 = 0 := owed10 (Vr (V21 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat10 (Vr (V21 m outs)) c).Φ 0
    iintro ⟨Hp, -, Hr⟩
    iapply (hin10 (Vr (V21 m outs)) c)
    isplitl [Hp]; · iexact Hp
    iexact Hr
  hout c := by
    rw [Pipeline.ownSems0_none]
    change (dat10 (Vr (V21 m outs)) c).Φ (Fin.last cfg10.N) ⊢ _
    iintro H
    ihave H' := (hout10 (Vr (V21 m outs)) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun w => share10 (Vr (V21 m outs)) c w)
      (Vr (V21 m outs) c) (Vr (V22 m outs) c) ((pdats m outs 10 c).arrAt · cfg10.N) (hF10 m outs hg c) (hrest10 m outs c)
    rw [Pipeline.unscopedBufs_held] at hjoin
    have eN : (pdats m outs 10 c).owed (Fin.last (Pipeline.pin (pcfgs (F := F)) adm 10).N) = 0 := owed10 (Vr (V21 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg11.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 11's proof data in the family is the region's own. -/
theorem pdats_11 (c : Dev nD) : pdats m outs 11 c = dat11 (Vr (V23 m outs)) c := rfl

set_option backward.isDefEq.respectTransparency.types false in
/-- Region 11 over the thread state: entered with every unscoped buffer at the contents before it, left with them at
    the contents after it; its windows' arrays are split out of the unscoped buffers and put back at what the
    write-backs leave; the generator register goes into the body's invariant and comes back; nothing is owed. -/
def reg11 (hg : Good m outs) : Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr (V23 m outs)) c).loose
  hwaits := Pipeline.hwaits_of_owed_zero _ _ _ _ L lv 11 fun c t => owed11 (Vr (V23 m outs)) c t
  pre c := iprop(StableHlo.held (c : Thread nD τ) (Pipeline.ucRefs τ sig) (V23 m outs c) ∗ R c)
  post c := iprop(StableHlo.held (c : Thread nD τ) (Pipeline.ucRefs τ sig) (V24 m outs c) ∗ R c)
  X c := iprop(∃ r, prngReg c r)
  Y c := iprop(∃ r, prngReg c r)
  Z c := Pipeline.unscopedRest (Ix := Unit) (Name := ℕ) (U := UR sig nD τ) (Lvl := ℕ) spec11 c (Vr (V23 m outs) c)
  hentry c := by
    rw [Pipeline.ownSems0_none]
    have hsplit := Pipeline.arrays_of_unscopedBufs (p := 11) (pcfgs (F := F)) adm (pdats m outs) launch11.win launch11.arr_whole c
      ((pdats m outs 11 c).share_full fun w => share11 (Vr (V23 m outs)) c w) (Vr (V23 m outs) c) fun w => A_eq11 (Vr (V23 m outs)) c w
    rw [Pipeline.unscopedBufs_held] at hsplit
    have e0 : (pdats m outs 11 c).owed 0 = 0 := owed11 (Vr (V23 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat11 (Vr (V23 m outs)) c).Φ 0
    iintro ⟨Hp, -, Hr⟩
    iapply (hin11 (Vr (V23 m outs)) c)
    isplitl [Hp]; · iexact Hp
    iexact Hr
  hout c := by
    rw [Pipeline.ownSems0_none]
    change (dat11 (Vr (V23 m outs)) c).Φ (Fin.last cfg11.N) ⊢ _
    iintro H
    ihave H' := (hout11 (Vr (V23 m outs)) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun w => share11 (Vr (V23 m outs)) c w)
      (Vr (V23 m outs) c) (Vr (V24 m outs) c) ((pdats m outs 11 c).arrAt · cfg11.N) (hF11 m outs hg c) (hrest11 m outs c)
    rw [Pipeline.unscopedBufs_held] at hjoin
    have eN : (pdats m outs 11 c).owed (Fin.last (Pipeline.pin (pcfgs (F := F)) adm 11).N) = 0 := owed11 (Vr (V23 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.Seg12.lean ====
import proofs.«113306_j49254684950634_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 12's proof data in the family is the region's own. -/
theorem pdats_12 (c : Dev nD) : pdats m outs 12 c = dat12 (Vr (V25 m outs)) c := rfl

set_option backward.isDefEq.respectTransparency.types false in
/-- Region 12 over the thread state: entered with every unscoped buffer at the contents before it, left with them at
    the contents after it; its windows' arrays are split out of the unscoped buffers and put back at what the
    write-backs leave; the generator register goes into the body's invariant and comes back; nothing is owed. -/
def reg12 (hg : Good m outs) : Pipeline.RegionSeg (pcfgs (F := F)) adm (pdats m outs) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vr (V25 m outs)) c).loose
  hwaits := Pipeline.hwaits_of_owed_zero _ _ _ _ L lv 12 fun c t => owed12 (Vr (V25 m outs)) c t
  pre c := iprop(StableHlo.held (c : Thread nD τ) (Pipeline.ucRefs τ sig) (V25 m outs c) ∗ R c)
  post c := iprop(StableHlo.held (c : Thread nD τ) (Pipeline.ucRefs τ sig) (V26 m outs c) ∗ R c)
  X c := iprop(∃ r, prngReg c r)
  Y c := iprop(∃ r, prngReg c r)
  Z c := Pipeline.unscopedRest (Ix := Unit) (Name := ℕ) (U := UR sig nD τ) (Lvl := ℕ) spec12 c (Vr (V25 m outs) c)
  hentry c := by
    rw [Pipeline.ownSems0_none]
    have hsplit := Pipeline.arrays_of_unscopedBufs (p := 12) (pcfgs (F := F)) adm (pdats m outs) launch12.win launch12.arr_whole c
      ((pdats m outs 12 c).share_full fun w => share12 (Vr (V25 m outs)) c w) (Vr (V25 m outs) c) fun w => A_eq12 (Vr (V25 m outs)) c w
    rw [Pipeline.unscopedBufs_held] at hsplit
    have e0 : (pdats m outs 12 c).owed 0 = 0 := owed12 (Vr (V25 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat12 (Vr (V25 m outs)) c).Φ 0
    iintro ⟨Hp, -, Hr⟩
    iapply (hin12 (Vr (V25 m outs)) c)
    isplitl [Hp]; · iexact Hp
    iexact Hr
  hout c := by
    rw [Pipeline.ownSems0_none]
    change (dat12 (Vr (V25 m outs)) c).Φ (Fin.last cfg12.N) ⊢ _
    iintro H
    ihave H' := (hout12 (Vr (V25 m outs)) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m outs) ((pdats m outs 12 c).share_full fun w => share12 (Vr (V25 m outs)) c w)
      (Vr (V25 m outs) c) (Vr (V26 m outs) c) ((pdats m outs 12 c).arrAt · cfg12.N) (hF12 m outs hg c) (hrest12 m outs c)
    rw [Pipeline.unscopedBufs_held] at hjoin
    have eN : (pdats m outs 12 c).owed (Fin.last (Pipeline.pin (pcfgs (F := F)) adm 12).N) = 0 := owed12 (Vr (V25 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.Kernel.Hand

end
-- ==== Proof.K.FrameVal.lean ====
import proofs.«113306_j49254684950634_1_alg».proof.Proof.Gen.Kernel.Regions

set_option maxRecDepth 1900

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run with the result named: given one segment record per region entered from and left at this program's thread states,
    every weakly fair execution of @main from memory `m` terminates, every final memory holds the result buffer at the
    contents chosen for the last region's output and each argument as launched. -/
theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c)) :
    θ_run defs (onTc (τ := τ) (main (F := F))) ⟨m, fun _ => 0, ρ⟩ (fun r => ∀ c : Dev nD,
      r.2.mem ((c.tc : Thread nD τ).loc main_v205) = outs 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, (hpost12 c).trans (sep_mono .rfl (hE13 c))⟩)
    (hinit := ?_) (QY := fun c s => s.mem ((c.tc : Thread nD τ).loc main_v205) = outs 26 main_v205 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨(h (Proc.devRef .tc main_v205) (Finset.mem_filter.mpr ⟨StableHlo.devRef_mem_tcRefs main_v205, by decide⟩)).trans (Function.update_self ..),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c),
        (h (Proc.devRef .tc main_arg9) (Finset.mem_filter.mpr ⟨StableHlo.devRef_mem_tcRefs main_arg9, by decide⟩)).trans (V26_main_arg9 m outs c),
        (h (Proc.devRef .tc main_arg10) (Finset.mem_filter.mpr ⟨StableHlo.devRef_mem_tcRefs main_arg10, by decide⟩)).trans (V26_main_arg10 m outs c),
        (h (Proc.devRef .tc main_arg11) (Finset.mem_filter.mpr ⟨StableHlo.devRef_mem_tcRefs main_arg11, by decide⟩)).trans (V26_main_arg11 m outs c),
        (h (Proc.devRef .tc main_arg12) (Finset.mem_filter.mpr ⟨StableHlo.devRef_mem_tcRefs main_arg12, by decide⟩)).trans (V26_main_arg12 m outs c)⟩
    · iexact HSI

end Cert.Kernel.Hand

end
-- ==== Proof.K.Witness.lean ====
import proofs.«113306_j49254684950634_1_alg».proof.Proof.K.Family

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Contents for the regions' output arrays that satisfy `Good`

Built level by level: the contents chosen up to region `K` fix the buffers region `K` is entered with, hence what its
write-backs leave in its arrays, which is the choice for region `K`. Each valuation between two items reads the choice
only at the levels before it, so a later level does not disturb an earlier one. -/

variable (m : (ℓ : Loc nD τ sig) → Buf (Elt F) ℓ)

/-- The choice extended by one level: at index `J` the valuation `U` read at the references, elsewhere as before. -/
def step (prev : Outs (F := F)) (J : ℕ) (U : Dev nD → Valuation τ sig (Elt F)) : Outs (F := F) :=
  fun J' r c => if J' = J then Vr U c r else prev J' r c

theorem step_same (prev : Outs (F := F)) (J : ℕ) (U : Dev nD → Valuation τ sig (Elt F)) :
    step prev J U J = fun r c => Vr U c r := by
  funext r c; unfold step; rw [if_pos rfl]

theorem step_ne (prev : Outs (F := F)) (J : ℕ) (U : Dev nD → Valuation τ sig (Elt F)) (J' : ℕ) (h : J' ≠ J) :
    step prev J U J' = prev J' := by
  funext r c; unfold step; rw [if_neg h]

/-- Before any region: the launch contents. -/
def lvl0 : Outs (F := F) := fun _ r c => m ((c : Thread nD τ).loc r)

/-- Region 0's buffers at its exit under the choice so far: its arrays at what its write-backs leave, every other
    buffer as it is entered. -/
def U0 (c : Dev nD) : Valuation τ sig (Elt F) :=
  Pipeline.withArrays spec0 c (V1 m c) fun w => (dat0 (Vr (V1 m)) c).arrAt w cfg0.N
/-- The choice through region 0. -/
def lvl1 : Outs (F := F) := step (lvl0 m) 2 (U0 m)
theorem down0 (J : ℕ) (h : J ≤ 0) : lvl1 m J = lvl0 m J :=
  step_ne (lvl0 m) 2 (U0 m) J (by omega)
theorem top0 : lvl1 m 2 = fun r c => Vr (U0 m) c r :=
  step_same (lvl0 m) 2 (U0 m)

/-- Region 1's buffers at its exit under the choice so far: its arrays at what its write-backs leave, every other
    buffer as it is entered. -/
def U1 (c : Dev nD) : Valuation τ sig (Elt F) :=
  Pipeline.withArrays spec1 c (V3 m (lvl1 m) c) fun w => (dat1 (Vr (V3 m (lvl1 m))) c).arrAt w cfg1.N
/-- The choice through region 1. -/
def lvl2 : Outs (F := F) := step (lvl1 m) 4 (U1 m)
theorem down1 (J : ℕ) (h : J ≤ 2) : lvl2 m J = lvl1 m J :=
  step_ne (lvl1 m) 4 (U1 m) J (by omega)
theorem top1 : lvl2 m 4 = fun r c => Vr (U1 m) c r :=
  step_same (lvl1 m) 4 (U1 m)

/-- Region 2's buffers at its exit under the choice so far: its arrays at what its write-backs leave, every other
    buffer as it is entered. -/
def U2 (c : Dev nD) : Valuation τ sig (Elt F) :=
  Pipeline.withArrays spec2 c (V5 m (lvl2 m) c) fun w => (dat2 (Vr (V5 m (lvl2 m))) c).arrAt w cfg2.N
/-- The choice through region 2. -/
def lvl3 : Outs (F := F) := step (lvl2 m) 6 (U2 m)
theorem down2 (J : ℕ) (h : J ≤ 4) : lvl3 m J = lvl2 m J :=
  step_ne (lvl2 m) 6 (U2 m) J (by omega)
theorem top2 : lvl3 m 6 = fun r c => Vr (U2 m) c r :=
  step_same (lvl2 m) 6 (U2 m)

/-- Region 3's buffers at its exit under the choice so far: its arrays at what its write-backs leave, every other
    buffer as it is entered. -/
def U3 (c : Dev nD) : Valuation τ sig (Elt F) :=
  Pipeline.withArrays spec3 c (V7 m (lvl3 m) c) fun w => (dat3 (Vr (V7 m (lvl3 m))) c).arrAt w cfg3.N
/-- The choice through region 3. -/
def lvl4 : Outs (F := F) := step (lvl3 m) 8 (U3 m)
theorem down3 (J : ℕ) (h : J ≤ 6) : lvl4 m J = lvl3 m J :=
  step_ne (lvl3 m) 8 (U3 m) J (by omega)
theorem top3 : lvl4 m 8 = fun r c => Vr (U3 m) c r :=
  step_same (lvl3 m) 8 (U3 m)

/-- Region 4's buffers at its exit under the choice so far: its arrays at what its write-backs leave, every other
    buffer as it is entered. -/
def U4 (c : Dev nD) : Valuation τ sig (Elt F) :=
  Pipeline.withArrays spec4 c (V9 m (lvl4 m) c) fun w => (dat4 (Vr (V9 m (lvl4 m))) c).arrAt w cfg4.N
/-- The choice through region 4. -/
def lvl5 : Outs (F := F) := step (lvl4 m) 10 (U4 m)
theorem down4 (J : ℕ) (h : J ≤ 8) : lvl5 m J = lvl4 m J :=
  step_ne (lvl4 m) 10 (U4 m) J (by omega)
theorem top4 : lvl5 m 10 = fun r c => Vr (U4 m) c r :=
  step_same (lvl4 m) 10 (U4 m)

/-- Region 5's buffers at its exit under the choice so far: its arrays at what its write-backs leave, every other
    buffer as it is entered. -/
def U5 (c : Dev nD) : Valuation τ sig (Elt F) :=
  Pipeline.withArrays spec5 c (V11 m (lvl5 m) c) fun w => (dat5 (Vr (V11 m (lvl5 m))) c).arrAt w cfg5.N
/-- The choice through region 5. -/
def lvl6 : Outs (F := F) := step (lvl5 m) 12 (U5 m)
theorem down5 (J : ℕ) (h : J ≤ 10) : lvl6 m J = lvl5 m J :=
  step_ne (lvl5 m) 12 (U5 m) J (by omega)
theorem top5 : lvl6 m 12 = fun r c => Vr (U5 m) c r :=
  step_same (lvl5 m) 12 (U5 m)

/-- Region 6's buffers at its exit under the choice so far: its arrays at what its write-backs leave, every other
    buffer as it is entered. -/
def U6 (c : Dev nD) : Valuation τ sig (Elt F) :=
  Pipeline.withArrays spec6 c (V13 m (lvl6 m) c) fun w => (dat6 (Vr (V13 m (lvl6 m))) c).arrAt w cfg6.N
/-- The choice through region 6. -/
def lvl7 : Outs (F := F) := step (lvl6 m) 14 (U6 m)
theorem down6 (J : ℕ) (h : J ≤ 12) : lvl7 m J = lvl6 m J :=
  step_ne (lvl6 m) 14 (U6 m) J (by omega)
theorem top6 : lvl7 m 14 = fun r c => Vr (U6 m) c r :=
  step_same (lvl6 m) 14 (U6 m)

/-- Region 7's buffers at its exit under the choice so far: its arrays at what its write-backs leave, every other
    buffer as it is entered. -/
def U7 (c : Dev nD) : Valuation τ sig (Elt F) :=
  Pipeline.withArrays spec7 c (V15 m (lvl7 m) c) fun w => (dat7 (Vr (V15 m (lvl7 m))) c).arrAt w cfg7.N
/-- The choice through region 7. -/
def lvl8 : Outs (F := F) := step (lvl7 m) 16 (U7 m)
theorem down7 (J : ℕ) (h : J ≤ 14) : lvl8 m J = lvl7 m J :=
  step_ne (lvl7 m) 16 (U7 m) J (by omega)
theorem top7 : lvl8 m 16 = fun r c => Vr (U7 m) c r :=
  step_same (lvl7 m) 16 (U7 m)

/-- Region 8's buffers at its exit under the choice so far: its arrays at what its write-backs leave, every other
    buffer as it is entered. -/
def U8 (c : Dev nD) : Valuation τ sig (Elt F) :=
  Pipeline.withArrays spec8 c (V17 m (lvl8 m) c) fun w => (dat8 (Vr (V17 m (lvl8 m))) c).arrAt w cfg8.N
/-- The choice through region 8. -/
def lvl9 : Outs (F := F) := step (lvl8 m) 18 (U8 m)
theorem down8 (J : ℕ) (h : J ≤ 16) : lvl9 m J = lvl8 m J :=
  step_ne (lvl8 m) 18 (U8 m) J (by omega)
theorem top8 : lvl9 m 18 = fun r c => Vr (U8 m) c r :=
  step_same (lvl8 m) 18 (U8 m)

/-- Region 9's buffers at its exit under the choice so far: its arrays at what its write-backs leave, every other
    buffer as it is entered. -/
def U9 (c : Dev nD) : Valuation τ sig (Elt F) :=
  Pipeline.withArrays spec9 c (V19 m (lvl9 m) c) fun w => (dat9 (Vr (V19 m (lvl9 m))) c).arrAt w cfg9.N
/-- The choice through region 9. -/
def lvl10 : Outs (F := F) := step (lvl9 m) 20 (U9 m)
theorem down9 (J : ℕ) (h : J ≤ 18) : lvl10 m J = lvl9 m J :=
  step_ne (lvl9 m) 20 (U9 m) J (by omega)
theorem top9 : lvl10 m 20 = fun r c => Vr (U9 m) c r :=
  step_same (lvl9 m) 20 (U9 m)

/-- Region 10's buffers at its exit under the choice so far: its arrays at what its write-backs leave, every other
    buffer as it is entered. -/
def U10 (c : Dev nD) : Valuation τ sig (Elt F) :=
  Pipeline.withArrays spec10 c (V21 m (lvl10 m) c) fun w => (dat10 (Vr (V21 m (lvl10 m))) c).arrAt w cfg10.N
/-- The choice through region 10. -/
def lvl11 : Outs (F := F) := step (lvl10 m) 22 (U10 m)
theorem down10 (J : ℕ) (h : J ≤ 20) : lvl11 m J = lvl10 m J :=
  step_ne (lvl10 m) 22 (U10 m) J (by omega)
theorem top10 : lvl11 m 22 = fun r c => Vr (U10 m) c r :=
  step_same (lvl10 m) 22 (U10 m)

/-- Region 11's buffers at its exit under the choice so far: its arrays at what its write-backs leave, every other
    buffer as it is entered. -/
def U11 (c : Dev nD) : Valuation τ sig (Elt F) :=
  Pipeline.withArrays spec11 c (V23 m (lvl11 m) c) fun w => (dat11 (Vr (V23 m (lvl11 m))) c).arrAt w cfg11.N
/-- The choice through region 11. -/
def lvl12 : Outs (F := F) := step (lvl11 m) 24 (U11 m)
theorem down11 (J : ℕ) (h : J ≤ 22) : lvl12 m J = lvl11 m J :=
  step_ne (lvl11 m) 24 (U11 m) J (by omega)
theorem top11 : lvl12 m 24 = fun r c => Vr (U11 m) c r :=
  step_same (lvl11 m) 24 (U11 m)

/-- Region 12's buffers at its exit under the choice so far: its arrays at what its write-backs leave, every other
    buffer as it is entered. -/
def U12 (c : Dev nD) : Valuation τ sig (Elt F) :=
  Pipeline.withArrays spec12 c (V25 m (lvl12 m) c) fun w => (dat12 (Vr (V25 m (lvl12 m))) c).arrAt w cfg12.N
/-- The choice through region 12. -/
def lvl13 : Outs (F := F) := step (lvl12 m) 26 (U12 m)
theorem down12 (J : ℕ) (h : J ≤ 24) : lvl13 m J = lvl12 m J :=
  step_ne (lvl12 m) 26 (U12 m) J (by omega)
theorem top12 : lvl13 m 26 = fun r c => Vr (U12 m) c r :=
  step_same (lvl12 m) 26 (U12 m)

/-- The contents chosen for every region's output arrays. -/
def outsStar : Outs (F := F) := lvl13 m

/-! ## The choice below a level is the level's -/
theorem agree0 (J : ℕ) (h : J ≤ 0) : outsStar m J = lvl0 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega)).trans ((down1 m J (by omega)).trans ((down0 m J (by omega))))))))))))))
theorem agree1 (J : ℕ) (h : J ≤ 2) : outsStar m J = lvl1 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega)).trans ((down1 m J (by omega)))))))))))))
theorem agree2 (J : ℕ) (h : J ≤ 4) : outsStar m J = lvl2 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega))))))))))))
theorem agree3 (J : ℕ) (h : J ≤ 6) : outsStar m J = lvl3 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)))))))))))
theorem agree4 (J : ℕ) (h : J ≤ 8) : outsStar m J = lvl4 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega))))))))))
theorem agree5 (J : ℕ) (h : J ≤ 10) : outsStar m J = lvl5 m J :=
  (down12 m J (by omega)).trans ((down11 m J (by omega)).trans ((down10 m J (by omega)).trans ((down9 m J (by omega)).trans ((down8 m J (by omega)).trans ((down7 m J (by omega)).trans ((down6 m J (by omega)).trans ((down5 m J (by omega)))))))))
theorem agree6 (J : ℕ) (h : J ≤ 12) : outsStar m J = lvl6 m J :=
  (down12 m J (by omega)).trans ((down11 m J (by omega)).trans ((down10 m J (by omega)).trans ((down9 m J (by omega)).trans ((down8 m J (by omega)).trans ((down7 m J (by omega)).trans ((down6 m J (by omega))))))))
theorem agree7 (J : ℕ) (h : J ≤ 14) : outsStar m J = lvl7 m J :=
  (down12 m J (by omega)).trans ((down11 m J (by omega)).trans ((down10 m J (by omega)).trans ((down9 m J (by omega)).trans ((down8 m J (by omega)).trans ((down7 m J (by omega)))))))
theorem agree8 (J : ℕ) (h : J ≤ 16) : outsStar m J = lvl8 m J :=
  (down12 m J (by omega)).trans ((down11 m J (by omega)).trans ((down10 m J (by omega)).trans ((down9 m J (by omega)).trans ((down8 m J (by omega))))))
theorem agree9 (J : ℕ) (h : J ≤ 18) : outsStar m J = lvl9 m J :=
  (down12 m J (by omega)).trans ((down11 m J (by omega)).trans ((down10 m J (by omega)).trans ((down9 m J (by omega)))))
theorem agree10 (J : ℕ) (h : J ≤ 20) : outsStar m J = lvl10 m J :=
  (down12 m J (by omega)).trans ((down11 m J (by omega)).trans ((down10 m J (by omega))))
theorem agree11 (J : ℕ) (h : J ≤ 22) : outsStar m J = lvl11 m J :=
  (down12 m J (by omega)).trans ((down11 m J (by omega)))
theorem agree12 (J : ℕ) (h : J ≤ 24) : outsStar m J = lvl12 m J :=
  (down12 m J (by omega))
theorem agree13 (J : ℕ) (h : J ≤ 26) : outsStar m J = lvl13 m J :=
  rfl

/-! ## Each valuation reads the choice only below its own item -/
theorem V2_congr (o o' : Outs (F := F)) (h : ∀ J, J ≤ 2 → o J = o' J) (c : Dev nD) : V2 m o c = V2 m o' c := by
  unfold V2
  rw [h 2 (by omega)]
theorem V3_congr (o o' : Outs (F := F)) (h : ∀ J, J ≤ 2 → o J = o' J) (c : Dev nD) : V3 m o c = V3 m o' c := by
  unfold V3
  rw [V2_congr m o o' h c]
theorem V4_congr (o o' : Outs (F := F)) (h : ∀ J, J ≤ 4 → o J = o' J) (c : Dev nD) : V4 m o c = V4 m o' c := by
  unfold V4
  rw [V3_congr m o o' (fun J hJ => h J (by omega)) c, h 4 (by omega)]
theorem V5_congr (o o' : Outs (F := F)) (h : ∀ J, J ≤ 4 → o J = o' J) (c : Dev nD) : V5 m o c = V5 m o' c := by
  unfold V5
  rw [V4_congr m o o' h c]
theorem V6_congr (o o' : Outs (F := F)) (h : ∀ J, J ≤ 6 → o J = o' J) (c : Dev nD) : V6 m o c = V6 m o' c := by
  unfold V6
  rw [V5_congr m o o' (fun J hJ => h J (by omega)) c, h 6 (by omega)]
theorem V7_congr (o o' : Outs (F := F)) (h : ∀ J, J ≤ 6 → o J = o' J) (c : Dev nD) : V7 m o c = V7 m o' c := by
  unfold V7
  rw [V6_congr m o o' h c]
theorem V8_congr (o o' : Outs (F := F)) (h : ∀ J, J ≤ 8 → o J = o' J) (c : Dev nD) : V8 m o c = V8 m o' c := by
  unfold V8
  rw [V7_congr m o o' (fun J hJ => h J (by omega)) c, h 8 (by omega)]
theorem V9_congr (o o' : Outs (F := F)) (h : ∀ J, J ≤ 8 → o J = o' J) (c : Dev nD) : V9 m o c = V9 m o' c := by
  unfold V9
  rw [V8_congr m o o' h c]
theorem V10_congr (o o' : Outs (F := F)) (h : ∀ J, J ≤ 10 → o J = o' J) (c : Dev nD) : V10 m o c = V10 m o' c := by
  unfold V10
  rw [V9_congr m o o' (fun J hJ => h J (by omega)) c, h 10 (by omega)]
theorem V11_congr (o o' : Outs (F := F)) (h : ∀ J, J ≤ 10 → o J = o' J) (c : Dev nD) : V11 m o c = V11 m o' c := by
  unfold V11
  rw [V10_congr m o o' h c]
theorem V12_congr (o o' : Outs (F := F)) (h : ∀ J, J ≤ 12 → o J = o' J) (c : Dev nD) : V12 m o c = V12 m o' c := by
  unfold V12
  rw [V11_congr m o o' (fun J hJ => h J (by omega)) c, h 12 (by omega)]
theorem V13_congr (o o' : Outs (F := F)) (h : ∀ J, J ≤ 12 → o J = o' J) (c : Dev nD) : V13 m o c = V13 m o' c := by
  unfold V13
  rw [V12_congr m o o' h c]
theorem V14_congr (o o' : Outs (F := F)) (h : ∀ J, J ≤ 14 → o J = o' J) (c : Dev nD) : V14 m o c = V14 m o' c := by
  unfold V14
  rw [V13_congr m o o' (fun J hJ => h J (by omega)) c, h 14 (by omega)]
theorem V15_congr (o o' : Outs (F := F)) (h : ∀ J, J ≤ 14 → o J = o' J) (c : Dev nD) : V15 m o c = V15 m o' c := by
  unfold V15
  rw [V14_congr m o o' h c]
theorem V16_congr (o o' : Outs (F := F)) (h : ∀ J, J ≤ 16 → o J = o' J) (c : Dev nD) : V16 m o c = V16 m o' c := by
  unfold V16
  rw [V15_congr m o o' (fun J hJ => h J (by omega)) c, h 16 (by omega)]
theorem V17_congr (o o' : Outs (F := F)) (h : ∀ J, J ≤ 16 → o J = o' J) (c : Dev nD) : V17 m o c = V17 m o' c := by
  unfold V17
  rw [V16_congr m o o' h c]
theorem V18_congr (o o' : Outs (F := F)) (h : ∀ J, J ≤ 18 → o J = o' J) (c : Dev nD) : V18 m o c = V18 m o' c := by
  unfold V18
  rw [V17_congr m o o' (fun J hJ => h J (by omega)) c, h 18 (by omega)]
theorem V19_congr (o o' : Outs (F := F)) (h : ∀ J, J ≤ 18 → o J = o' J) (c : Dev nD) : V19 m o c = V19 m o' c := by
  unfold V19
  rw [V18_congr m o o' h c]
theorem V20_congr (o o' : Outs (F := F)) (h : ∀ J, J ≤ 20 → o J = o' J) (c : Dev nD) : V20 m o c = V20 m o' c := by
  unfold V20
  rw [V19_congr m o o' (fun J hJ => h J (by omega)) c, h 20 (by omega)]
theorem V21_congr (o o' : Outs (F := F)) (h : ∀ J, J ≤ 20 → o J = o' J) (c : Dev nD) : V21 m o c = V21 m o' c := by
  unfold V21
  rw [V20_congr m o o' h c]
theorem V22_congr (o o' : Outs (F := F)) (h : ∀ J, J ≤ 22 → o J = o' J) (c : Dev nD) : V22 m o c = V22 m o' c := by
  unfold V22
  rw [V21_congr m o o' (fun J hJ => h J (by omega)) c, h 22 (by omega)]
theorem V23_congr (o o' : Outs (F := F)) (h : ∀ J, J ≤ 22 → o J = o' J) (c : Dev nD) : V23 m o c = V23 m o' c := by
  unfold V23
  rw [V22_congr m o o' h c]
theorem V24_congr (o o' : Outs (F := F)) (h : ∀ J, J ≤ 24 → o J = o' J) (c : Dev nD) : V24 m o c = V24 m o' c := by
  unfold V24
  rw [V23_congr m o o' (fun J hJ => h J (by omega)) c, h 24 (by omega)]
theorem V25_congr (o o' : Outs (F := F)) (h : ∀ J, J ≤ 24 → o J = o' J) (c : Dev nD) : V25 m o c = V25 m o' c := by
  unfold V25
  rw [V24_congr m o o' h c]
theorem V26_congr (o o' : Outs (F := F)) (h : ∀ J, J ≤ 26 → o J = o' J) (c : Dev nD) : V26 m o c = V26 m o' c := by
  unfold V26
  rw [V25_congr m o o' (fun J hJ => h J (by omega)) c, h 26 (by omega)]

/-! ## The fields of `Good`, region by region -/

/-- Region 0 is entered with buffers no choice reaches, and the choice at its own level is what its write-backs
    leave. -/
theorem good0 (c : Dev nD) (w : Fin cfg0.W) :
    (dat0 (Vr (V1 m)) c).arrAt w cfg0.N = outsStar m 2 (Pipeline.arrRef spec0 w) c := by
  have eO : outsStar m 2 = fun r c => Vr (U0 m) c r := (agree1 m 2 (le_refl _)).trans (top0 m)
  rw [eO]
  exact (Pipeline.withArrays_arr spec0 launch0.win.arr_inj c (V1 m c)
    (fun w => (dat0 (Vr (V1 m)) c).arrAt w cfg0.N) w).symm

/-- Region 1: under the whole choice it is entered with the buffers the choice through region 0 gives, and the
    choice at its own level is what its write-backs leave. -/
theorem good1 (c : Dev nD) (w : Fin cfg1.W) :
    (dat1 (Vr (V3 m (outsStar m))) c).arrAt w cfg1.N = outsStar m 4 (Pipeline.arrRef spec1 w) c := by
  have eV : V3 m (outsStar m) = V3 m (lvl1 m) :=
    funext fun c => V3_congr m (outsStar m) (lvl1 m) (fun J hJ => agree1 m J hJ) c
  have eO : outsStar m 4 = fun r c => Vr (U1 m) c r := (agree2 m 4 (le_refl _)).trans (top1 m)
  rw [eV, eO]
  exact (Pipeline.withArrays_arr spec1 launch1.win.arr_inj c (V3 m (lvl1 m) c)
    (fun w => (dat1 (Vr (V3 m (lvl1 m))) c).arrAt w cfg1.N) w).symm

/-- Region 2: under the whole choice it is entered with the buffers the choice through region 1 gives, and the
    choice at its own level is what its write-backs leave. -/
theorem good2 (c : Dev nD) (w : Fin cfg2.W) :
    (dat2 (Vr (V5 m (outsStar m))) c).arrAt w cfg2.N = outsStar m 6 (Pipeline.arrRef spec2 w) c := by
  have eV : V5 m (outsStar m) = V5 m (lvl2 m) :=
    funext fun c => V5_congr m (outsStar m) (lvl2 m) (fun J hJ => agree2 m J hJ) c
  have eO : outsStar m 6 = fun r c => Vr (U2 m) c r := (agree3 m 6 (le_refl _)).trans (top2 m)
  rw [eV, eO]
  exact (Pipeline.withArrays_arr spec2 launch2.win.arr_inj c (V5 m (lvl2 m) c)
    (fun w => (dat2 (Vr (V5 m (lvl2 m))) c).arrAt w cfg2.N) w).symm

/-- Region 3: under the whole choice it is entered with the buffers the choice through region 2 gives, and the
    choice at its own level is what its write-backs leave. -/
theorem good3 (c : Dev nD) (w : Fin cfg3.W) :
    (dat3 (Vr (V7 m (outsStar m))) c).arrAt w cfg3.N = outsStar m 8 (Pipeline.arrRef spec3 w) c := by
  have eV : V7 m (outsStar m) = V7 m (lvl3 m) :=
    funext fun c => V7_congr m (outsStar m) (lvl3 m) (fun J hJ => agree3 m J hJ) c
  have eO : outsStar m 8 = fun r c => Vr (U3 m) c r := (agree4 m 8 (le_refl _)).trans (top3 m)
  rw [eV, eO]
  exact (Pipeline.withArrays_arr spec3 launch3.win.arr_inj c (V7 m (lvl3 m) c)
    (fun w => (dat3 (Vr (V7 m (lvl3 m))) c).arrAt w cfg3.N) w).symm

/-- Region 4: under the whole choice it is entered with the buffers the choice through region 3 gives, and the
    choice at its own level is what its write-backs leave. -/
theorem good4 (c : Dev nD) (w : Fin cfg4.W) :
    (dat4 (Vr (V9 m (outsStar m))) c).arrAt w cfg4.N = outsStar m 10 (Pipeline.arrRef spec4 w) c := by
  have eV : V9 m (outsStar m) = V9 m (lvl4 m) :=
    funext fun c => V9_congr m (outsStar m) (lvl4 m) (fun J hJ => agree4 m J hJ) c
  have eO : outsStar m 10 = fun r c => Vr (U4 m) c r := (agree5 m 10 (le_refl _)).trans (top4 m)
  rw [eV, eO]
  exact (Pipeline.withArrays_arr spec4 launch4.win.arr_inj c (V9 m (lvl4 m) c)
    (fun w => (dat4 (Vr (V9 m (lvl4 m))) c).arrAt w cfg4.N) w).symm

/-- Region 5: under the whole choice it is entered with the buffers the choice through region 4 gives, and the
    choice at its own level is what its write-backs leave. -/
theorem good5 (c : Dev nD) (w : Fin cfg5.W) :
    (dat5 (Vr (V11 m (outsStar m))) c).arrAt w cfg5.N = outsStar m 12 (Pipeline.arrRef spec5 w) c := by
  have eV : V11 m (outsStar m) = V11 m (lvl5 m) :=
    funext fun c => V11_congr m (outsStar m) (lvl5 m) (fun J hJ => agree5 m J hJ) c
  have eO : outsStar m 12 = fun r c => Vr (U5 m) c r := (agree6 m 12 (le_refl _)).trans (top5 m)
  rw [eV, eO]
  exact (Pipeline.withArrays_arr spec5 launch5.win.arr_inj c (V11 m (lvl5 m) c)
    (fun w => (dat5 (Vr (V11 m (lvl5 m))) c).arrAt w cfg5.N) w).symm

/-- Region 6: under the whole choice it is entered with the buffers the choice through region 5 gives, and the
    choice at its own level is what its write-backs leave. -/
theorem good6 (c : Dev nD) (w : Fin cfg6.W) :
    (dat6 (Vr (V13 m (outsStar m))) c).arrAt w cfg6.N = outsStar m 14 (Pipeline.arrRef spec6 w) c := by
  have eV : V13 m (outsStar m) = V13 m (lvl6 m) :=
    funext fun c => V13_congr m (outsStar m) (lvl6 m) (fun J hJ => agree6 m J hJ) c
  have eO : outsStar m 14 = fun r c => Vr (U6 m) c r := (agree7 m 14 (le_refl _)).trans (top6 m)
  rw [eV, eO]
  exact (Pipeline.withArrays_arr spec6 launch6.win.arr_inj c (V13 m (lvl6 m) c)
    (fun w => (dat6 (Vr (V13 m (lvl6 m))) c).arrAt w cfg6.N) w).symm

/-- Region 7: under the whole choice it is entered with the buffers the choice through region 6 gives, and the
    choice at its own level is what its write-backs leave. -/
theorem good7 (c : Dev nD) (w : Fin cfg7.W) :
    (dat7 (Vr (V15 m (outsStar m))) c).arrAt w cfg7.N = outsStar m 16 (Pipeline.arrRef spec7 w) c := by
  have eV : V15 m (outsStar m) = V15 m (lvl7 m) :=
    funext fun c => V15_congr m (outsStar m) (lvl7 m) (fun J hJ => agree7 m J hJ) c
  have eO : outsStar m 16 = fun r c => Vr (U7 m) c r := (agree8 m 16 (le_refl _)).trans (top7 m)
  rw [eV, eO]
  exact (Pipeline.withArrays_arr spec7 launch7.win.arr_inj c (V15 m (lvl7 m) c)
    (fun w => (dat7 (Vr (V15 m (lvl7 m))) c).arrAt w cfg7.N) w).symm

/-- Region 8: under the whole choice it is entered with the buffers the choice through region 7 gives, and the
    choice at its own level is what its write-backs leave. -/
theorem good8 (c : Dev nD) (w : Fin cfg8.W) :
    (dat8 (Vr (V17 m (outsStar m))) c).arrAt w cfg8.N = outsStar m 18 (Pipeline.arrRef spec8 w) c := by
  have eV : V17 m (outsStar m) = V17 m (lvl8 m) :=
    funext fun c => V17_congr m (outsStar m) (lvl8 m) (fun J hJ => agree8 m J hJ) c
  have eO : outsStar m 18 = fun r c => Vr (U8 m) c r := (agree9 m 18 (le_refl _)).trans (top8 m)
  rw [eV, eO]
  exact (Pipeline.withArrays_arr spec8 launch8.win.arr_inj c (V17 m (lvl8 m) c)
    (fun w => (dat8 (Vr (V17 m (lvl8 m))) c).arrAt w cfg8.N) w).symm

/-- Region 9: under the whole choice it is entered with the buffers the choice through region 8 gives, and the
    choice at its own level is what its write-backs leave. -/
theorem good9 (c : Dev nD) (w : Fin cfg9.W) :
    (dat9 (Vr (V19 m (outsStar m))) c).arrAt w cfg9.N = outsStar m 20 (Pipeline.arrRef spec9 w) c := by
  have eV : V19 m (outsStar m) = V19 m (lvl9 m) :=
    funext fun c => V19_congr m (outsStar m) (lvl9 m) (fun J hJ => agree9 m J hJ) c
  have eO : outsStar m 20 = fun r c => Vr (U9 m) c r := (agree10 m 20 (le_refl _)).trans (top9 m)
  rw [eV, eO]
  exact (Pipeline.withArrays_arr spec9 launch9.win.arr_inj c (V19 m (lvl9 m) c)
    (fun w => (dat9 (Vr (V19 m (lvl9 m))) c).arrAt w cfg9.N) w).symm

/-- Region 10: under the whole choice it is entered with the buffers the choice through region 9 gives, and the
    choice at its own level is what its write-backs leave. -/
theorem good10 (c : Dev nD) (w : Fin cfg10.W) :
    (dat10 (Vr (V21 m (outsStar m))) c).arrAt w cfg10.N = outsStar m 22 (Pipeline.arrRef spec10 w) c := by
  have eV : V21 m (outsStar m) = V21 m (lvl10 m) :=
    funext fun c => V21_congr m (outsStar m) (lvl10 m) (fun J hJ => agree10 m J hJ) c
  have eO : outsStar m 22 = fun r c => Vr (U10 m) c r := (agree11 m 22 (le_refl _)).trans (top10 m)
  rw [eV, eO]
  exact (Pipeline.withArrays_arr spec10 launch10.win.arr_inj c (V21 m (lvl10 m) c)
    (fun w => (dat10 (Vr (V21 m (lvl10 m))) c).arrAt w cfg10.N) w).symm

/-- Region 11: under the whole choice it is entered with the buffers the choice through region 10 gives, and the
    choice at its own level is what its write-backs leave. -/
theorem good11 (c : Dev nD) (w : Fin cfg11.W) :
    (dat11 (Vr (V23 m (outsStar m))) c).arrAt w cfg11.N = outsStar m 24 (Pipeline.arrRef spec11 w) c := by
  have eV : V23 m (outsStar m) = V23 m (lvl11 m) :=
    funext fun c => V23_congr m (outsStar m) (lvl11 m) (fun J hJ => agree11 m J hJ) c
  have eO : outsStar m 24 = fun r c => Vr (U11 m) c r := (agree12 m 24 (le_refl _)).trans (top11 m)
  rw [eV, eO]
  exact (Pipeline.withArrays_arr spec11 launch11.win.arr_inj c (V23 m (lvl11 m) c)
    (fun w => (dat11 (Vr (V23 m (lvl11 m))) c).arrAt w cfg11.N) w).symm

/-- Region 12: under the whole choice it is entered with the buffers the choice through region 11 gives, and the
    choice at its own level is what its write-backs leave. -/
theorem good12 (c : Dev nD) (w : Fin cfg12.W) :
    (dat12 (Vr (V25 m (outsStar m))) c).arrAt w cfg12.N = outsStar m 26 (Pipeline.arrRef spec12 w) c := by
  have eV : V25 m (outsStar m) = V25 m (lvl12 m) :=
    funext fun c => V25_congr m (outsStar m) (lvl12 m) (fun J hJ => agree12 m J hJ) c
  have eO : outsStar m 26 = fun r c => Vr (U12 m) c r := (agree13 m 26 (le_refl _)).trans (top12 m)
  rw [eV, eO]
  exact (Pipeline.withArrays_arr spec12 launch12.win.arr_inj c (V25 m (lvl12 m) c)
    (fun w => (dat12 (Vr (V25 m (lvl12 m))) c).arrAt w cfg12.N) w).symm

/-- The chosen contents satisfy `Good`. -/
theorem good : Good m (outsStar m) where
  g0_2 := fun c w _ => good0 m c w
  g1_2 := fun c w _ => good1 m c w
  g1_3 := fun c w _ => good1 m c w
  g1_4 := fun c w _ => good1 m c w
  g2_3 := fun c w _ => good2 m c w
  g3_2 := fun c w _ => good3 m c w
  g4_2 := fun c w _ => good4 m c w
  g4_3 := fun c w _ => good4 m c w
  g4_4 := fun c w _ => good4 m c w
  g5_3 := fun c w _ => good5 m c w
  g6_2 := fun c w _ => good6 m c w
  g7_2 := fun c w _ => good7 m c w
  g7_3 := fun c w _ => good7 m c w
  g7_4 := fun c w _ => good7 m c w
  g8_3 := fun c w _ => good8 m c w
  g9_2 := fun c w _ => good9 m c w
  g10_2 := fun c w _ => good10 m c w
  g10_3 := fun c w _ => good10 m c w
  g10_4 := fun c w _ => good10 m c w
  g11_3 := fun c w _ => good11 m c w
  g12_7 := fun c w _ => good12 m c w

end Cert.Kernel.Hand

end
-- ==== Proof.K.Frame.lean ====
import proofs.«113306_j49254684950634_1_alg».proof.Proof.K.Seg0
import proofs.«113306_j49254684950634_1_alg».proof.Proof.K.Seg1
import proofs.«113306_j49254684950634_1_alg».proof.Proof.K.Seg2
import proofs.«113306_j49254684950634_1_alg».proof.Proof.K.Seg3
import proofs.«113306_j49254684950634_1_alg».proof.Proof.K.Seg4
import proofs.«113306_j49254684950634_1_alg».proof.Proof.K.Seg5
import proofs.«113306_j49254684950634_1_alg».proof.Proof.K.Seg6
import proofs.«113306_j49254684950634_1_alg».proof.Proof.K.Seg7
import proofs.«113306_j49254684950634_1_alg».proof.Proof.K.Seg8
import proofs.«113306_j49254684950634_1_alg».proof.Proof.K.Seg9
import proofs.«113306_j49254684950634_1_alg».proof.Proof.K.Seg10
import proofs.«113306_j49254684950634_1_alg».proof.Proof.K.Seg11
import proofs.«113306_j49254684950634_1_alg».proof.Proof.K.Seg12
import proofs.«113306_j49254684950634_1_alg».proof.Proof.K.FrameVal
import proofs.«113306_j49254684950634_1_alg».proof.Proof.K.Witness
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- The frame: when the contents chosen for the regions' outputs are what the regions leave, every weakly fair execution
    of @main from memory `m` with zero counters terminates, nothing faulting, and every argument array ends as launched. -/
theorem frame (ρ : Dev nD → PrngReg) (hg : Good m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond (m := m) (EP := emb₁) (ι := ()) (𝒱₀ := 𝒱₀) (L := L) (lv := lv) (hL := fun _ _ => rfl) (ρ := ρ) (outs := outs)
    (pdats := pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, HO⟩; iexact HO)
    (R0 := reg0 m outs hg) (hpre0 := fun _ => .rfl) (hpost0 := fun _ => .rfl)
    (R1 := reg1 m outs hg) (hpre1 := fun _ => .rfl) (hpost1 := fun _ => .rfl)
    (R2 := reg2 m outs hg) (hpre2 := fun _ => .rfl) (hpost2 := fun _ => .rfl)
    (R3 := reg3 m outs hg) (hpre3 := fun _ => .rfl) (hpost3 := fun _ => .rfl)
    (R4 := reg4 m outs hg) (hpre4 := fun _ => .rfl) (hpost4 := fun _ => .rfl)
    (R5 := reg5 m outs hg) (hpre5 := fun _ => .rfl) (hpost5 := fun _ => .rfl)
    (R6 := reg6 m outs hg) (hpre6 := fun _ => .rfl) (hpost6 := fun _ => .rfl)
    (R7 := reg7 m outs hg) (hpre7 := fun _ => .rfl) (hpost7 := fun _ => .rfl)
    (R8 := reg8 m outs hg) (hpre8 := fun _ => .rfl) (hpost8 := fun _ => .rfl)
    (R9 := reg9 m outs hg) (hpre9 := fun _ => .rfl) (hpost9 := fun _ => .rfl)
    (R10 := reg10 m outs hg) (hpre10 := fun _ => .rfl) (hpost10 := fun _ => .rfl)
    (R11 := reg11 m outs hg) (hpre11 := fun _ => .rfl) (hpost11 := fun _ => .rfl)
    (R12 := reg12 m outs hg) (hpre12 := fun _ => .rfl) (hpost12 := fun _ => .rfl)

set_option backward.isDefEq.respectTransparency.types false in
/-- The run with the result named: when the contents chosen for the regions' outputs are what the regions leave, every weakly fair execution
    of @main from memory `m` with zero counters terminates, nothing faulting, the result buffer ends at the last region's output and every argument array ends as launched. -/
theorem run_val (ρ : Dev nD → PrngReg) (hg : Good m outs) :
    θ_run defs (onTc (τ := τ) (main (F := F))) ⟨m, fun _ => 0, ρ⟩ (fun r => ∀ c : Dev nD,
      r.2.mem ((c.tc : Thread nD τ).loc main_v205) = outs 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond_val (m := m) (EP := emb₁) (ι := ()) (𝒱₀ := 𝒱₀) (L := L) (lv := lv) (hL := fun _ _ => rfl) (ρ := ρ) (outs := outs)
    (pdats := pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, HO⟩; iexact HO)
    (R0 := reg0 m outs hg) (hpre0 := fun _ => .rfl) (hpost0 := fun _ => .rfl)
    (R1 := reg1 m outs hg) (hpre1 := fun _ => .rfl) (hpost1 := fun _ => .rfl)
    (R2 := reg2 m outs hg) (hpre2 := fun _ => .rfl) (hpost2 := fun _ => .rfl)
    (R3 := reg3 m outs hg) (hpre3 := fun _ => .rfl) (hpost3 := fun _ => .rfl)
    (R4 := reg4 m outs hg) (hpre4 := fun _ => .rfl) (hpost4 := fun _ => .rfl)
    (R5 := reg5 m outs hg) (hpre5 := fun _ => .rfl) (hpost5 := fun _ => .rfl)
    (R6 := reg6 m outs hg) (hpre6 := fun _ => .rfl) (hpost6 := fun _ => .rfl)
    (R7 := reg7 m outs hg) (hpre7 := fun _ => .rfl) (hpost7 := fun _ => .rfl)
    (R8 := reg8 m outs hg) (hpre8 := fun _ => .rfl) (hpost8 := fun _ => .rfl)
    (R9 := reg9 m outs hg) (hpre9 := fun _ => .rfl) (hpost9 := fun _ => .rfl)
    (R10 := reg10 m outs hg) (hpre10 := fun _ => .rfl) (hpost10 := fun _ => .rfl)
    (R11 := reg11 m outs hg) (hpre11 := fun _ => .rfl) (hpost11 := fun _ => .rfl)
    (R12 := reg12 m outs hg) (hpre12 := fun _ => .rfl) (hpost12 := fun _ => .rfl)

/-- The frame at the contents the regions leave: every weakly fair execution of @main terminates, nothing faulting, with
    every argument array as launched. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame m (outsStar m) ρ (good m)

/-- The run with the result named, at the contents the regions leave: the result buffer ends at what the last region's
    write-back leaves, every argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v205) = outsStar m 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_val m (outsStar m) ρ (good m)

end Cert.Kernel.Hand

end
-- ==== Proof.KI.R0.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (a constant block index: fetched at the first point only) likewise: where it is not fetched the
    index has not moved, so the buffer still holds this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0

/-! ## What the body leaves in the output window's buffer -/

/-- Window 2's staging buffer after the body, from the input windows' blocks: its one store. -/
def out0_2 (x0 : Vec F S5000x64 .f32) (x1 : Vec F S64x64 .f32) : Vec F S5000x64 .f32 :=
  View.canon [⟨r0_0, k0_pay1 (View.ld x0 r0_0) (View.ld x1 r0_1)⟩]

/-- The store is of the whole buffer, so it covers it. -/
theorem cover0_2 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 400000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__hw_matmul_kernel i arg0 harg0 arg1 harg1 arg2 harg2) K := by
  simp only [cc0__hw_matmul_kernel_eq_skeleton]; unfold cc0__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant: the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem owed0 (c : Dev nD) (t) : (dat0 V c).owed t = 0 := rfl
theorem share0 (c : Dev nD) (w) : (dat0 V c).q w = fullShare := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The invariant at the region's ends -/

theorem hin0 (c : Dev nD) : iprop((∃ r, prngReg c r) ∗ Pipeline.scopedRest (Ix := Unit) (Name := ℕ) (U := UR sig nD τ) (Lvl := ℕ) spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

theorem hout0 (c : Dev nD) : (dat0 V c).Φ (Fin.last cfg0.N) ⊢ iprop((∃ r, prngReg c r) ∗ Pipeline.scopedRest (Ix := Unit) (Name := ℕ) (U := UR sig nD τ) (Lvl := ℕ) spec0 c) := by
  rw [show (dat0 V c).Φ (Fin.last _) = Pipeline.ΦA spec0 c from rfl]; unfold Pipeline.ΦA
  iintro ⟨Hr, Hp⟩
  isplitl [Hp]; · iexact Hp
  iexact Hr

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body's accesses go through: all of a tile, all of a row -/

abbrev rX1 : Rect S5000x64 := Rect.unit (s := S5000x64) ![0, 0] S5000x64.size inb_S5000x64_S5000x64_0_0
abbrev rA1 : Rect S1x64 := Rect.unit (s := S1x64) ![0, 0] S1x64.size inb_S1x64_S1x64_0_0

theorem rX1_emb (x : S5000x64.Idx) : rX1.emb x = x := by
  funext a; apply Fin.ext; rw [Rect.emb_apply]
  fin_cases a
  · show 0 + 1 * (x 0).val = (x 0).val; omega
  · show 0 + 1 * (x 1).val = (x 1).val; omega

theorem rA1_emb (x : S1x64.Idx) : rA1.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX1 (c : Dev nD) (M : Memref sig .tc .vmem S5000x64 .f32) (g : Buf (Elt F) (M.view.loc (c : Thread nD τ))) :
    (M.access rX1).read (Elt F) g = M.view.read (Elt F) g := by
  funext x
  show _root_.cast _ (g (M.view.emb (rX1.emb x))) = _root_.cast _ (g (M.view.emb x))
  rw [rX1_emb]

omit [FloatOps F] in
theorem read_rA1 (c : Dev nD) (M : Memref sig .tc .vmem S1x64 .f32) (g : Buf (Elt F) (M.view.loc (c : Thread nD τ))) :
    (M.access rA1).read (Elt F) g = M.view.read (Elt F) g := by
  funext x
  show _root_.cast _ (g (M.view.emb (rA1.emb x))) = _root_.cast _ (g (M.view.emb x))
  rw [rA1_emb]

omit [FloatOps F] in
/-- after a store through all of it, unmasked, it holds the value stored. -/
theorem read_write_rX1 (c : Dev nD) (M : Memref sig .tc .vmem S5000x64 .f32) (f : Buf (Elt F) (M.view.loc (c : Thread nD τ))) (v : Vec F S5000x64 .f32) :
    M.view.read (Elt F) ((M.access rX1).write (Elt F) f v Finset.univ) = v := by
  funext y
  conv_lhs => rw [← rX1_emb y]
  rw [View.read_slice_write_emb _ _ _ (Finset.mem_univ _)]

omit [FloatOps F] in
theorem read_write_rA1 (c : Dev nD) (M : Memref sig .tc .vmem S1x64 .f32) (f : Buf (Elt F) (M.view.loc (c : Thread nD τ))) (v : Vec F S1x64 .f32) :
    M.view.read (Elt F) ((M.access rA1).write (Elt F) f v Finset.univ) = v := by
  funext y
  conv_lhs => rw [← rA1_emb y]
  rw [View.read_slice_write_emb _ _ _ (Finset.mem_univ _)]

/-! ## The body's three phases, each on any memrefs and continued by any program -/

/-- The zeroing of the two carried rows at the first point: for each, a load whose value is not used, then the store
    of the zero row. -/
theorem sound_zero1 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k1_pay1 (F := F)) ∗ owns (c : Thread nD τ) M7 fullShare (k1_pay2 (F := F)))
            -∗ wp frame (wpE (defs₀ (F := F)) Variants.none c none) E (k ⟨⟩) K)
          -∗ wp frame (wpE (defs₀ (F := F)) Variants.none c none) E
              (.op (.load M6 rA1.toLoadRect (View.loadsAt_vmem h_S1x64)) fun (_ : Vec F S1x64 .f32) =>
               .op (.store M6 rA1 (k1_pay1 (F := F)) Finset.univ (View.stores_vmem_bits_univ h_S1x64 rfl) (.inl rfl)) fun _ =>
               .op (.load M7 rA1.toLoadRect (View.loadsAt_vmem h_S1x64)) fun (_ : Vec F S1x64 .f32) =>
               .op (.store M7 rA1 (k1_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA1) (View.set_slice_subset _ _)) $$ H6
  iintro H6
  iapply (wp_store Variants.none (c : Thread nD τ) none E (m := M6) (r := rA1) (Mk := Finset.univ) (View.set_slice_subset _ _)) $$ H6
  iintro H6
  iapply (wp_load_rect Variants.none (c : Thread nD τ) none E (m := M7) (r := rA1) (View.set_slice_subset _ _)) $$ H7
  iintro H7
  iapply (wp_store Variants.none (c : Thread nD τ) none E (m := M7) (r := rA1) (Mk := Finset.univ) (View.set_slice_subset _ _)) $$ H7
  iintro H7
  iapply Hk
  isplitl [H6]
  · iexists _; isplitr
    swap; · iexact H6
    ipureintro; rw [read_write_rA1]
  · iexists _; isplitr
    swap; · iexact H7
    ipureintro; rw [read_write_rA1]

/-- The accumulation, at every point: the tile and the bias row are loaded, the output tile is stored at their sum
    (row-broadcast); then each carried row is loaded, and stored at itself plus the column sums of the output tile
    (of its square, for the second). The tile and the bias row are left as they were. -/
theorem sound_acc1 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k1_pay3 x b)
              ∗ owns (c : Thread nD τ) M6 fullShare (k1_pay4 x b a6) ∗ owns (c : Thread nD τ) M7 fullShare (k1_pay5 x b a7))
            -∗ wp frame (wpE (defs₀ (F := F)) Variants.none c none) E (k ⟨⟩) K)
          -∗ wp frame (wpE (defs₀ (F := F)) Variants.none c none) E
              (.op (.load M1 rX1.toLoadRect (View.loadsAt_vmem h_S5000x64)) fun (v3 : Vec F S5000x64 .f32) =>
               .op (.load M2 rA1.toLoadRect (View.loadsAt_vmem h_S1x64)) fun (v5 : Vec F S1x64 .f32) =>
               .op (.load M3 rX1.toLoadRect (View.loadsAt_vmem h_S5000x64)) fun (_ : Vec F S5000x64 .f32) =>
               .op (.store M3 rX1 (k1_pay3 v3 v5) Finset.univ (View.stores_vmem_bits_univ h_S5000x64 rfl) (.inl rfl)) fun _ =>
               .op (.load M6 rA1.toLoadRect (View.loadsAt_vmem h_S1x64)) fun (v10 : Vec F S1x64 .f32) =>
               .op (.load M6 rA1.toLoadRect (View.loadsAt_vmem h_S1x64)) fun (_ : Vec F S1x64 .f32) =>
               .op (.store M6 rA1 (k1_pay4 v3 v5 v10) Finset.univ (View.stores_vmem_bits_univ h_S1x64 rfl) (.inl rfl)) fun _ =>
               .op (.load M7 rA1.toLoadRect (View.loadsAt_vmem h_S1x64)) fun (v17 : Vec F S1x64 .f32) =>
               .op (.load M7 rA1.toLoadRect (View.loadsAt_vmem h_S1x64)) fun (_ : Vec F S1x64 .f32) =>
               .op (.store M7 rA1 (k1_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX1) (View.set_slice_subset _ _)) $$ H1
  iintro H1
  iapply (wp_load_rect Variants.none (c : Thread nD τ) none E (m := M2) (r := rA1) (View.set_slice_subset _ _)) $$ H2
  iintro H2
  iapply (wp_load_rect Variants.none (c : Thread nD τ) none E (m := M3) (r := rX1) (View.set_slice_subset _ _)) $$ H3
  iintro H3
  iapply (wp_store Variants.none (c : Thread nD τ) none E (m := M3) (r := rX1) (Mk := Finset.univ) (View.set_slice_subset _ _)) $$ H3
  iintro H3
  iapply (wp_load_rect Variants.none (c : Thread nD τ) none E (m := M6) (r := rA1) (View.set_slice_subset _ _)) $$ H6
  iintro H6
  iapply (wp_load_rect Variants.none (c : Thread nD τ) none E (m := M6) (r := rA1) (View.set_slice_subset _ _)) $$ H6
  iintro H6
  iapply (wp_store Variants.none (c : Thread nD τ) none E (m := M6) (r := rA1) (Mk := Finset.univ) (View.set_slice_subset _ _)) $$ H6
  iintro H6
  iapply (wp_load_rect Variants.none (c : Thread nD τ) none E (m := M7) (r := rA1) (View.set_slice_subset _ _)) $$ H7
  iintro H7
  iapply (wp_load_rect Variants.none (c : Thread nD τ) none E (m := M7) (r := rA1) (View.set_slice_subset _ _)) $$ H7
  iintro H7
  iapply (wp_store Variants.none (c : Thread nD τ) none E (m := M7) (r := rA1) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX1, read_rX1, read_rA1, hg1, hg2]
  isplitl [H6]
  · iexists _; isplitr
    swap; · iexact H6
    ipureintro; simp only [read_write_rA1, read_rX1, read_rA1, hg1, hg2, hf6]
  · iexists _; isplitr
    swap; · iexact H7
    ipureintro; simp only [read_write_rA1, read_rX1, read_rA1, hg1, hg2, hf7]

/-- The copy-out at the last point: each carried row is loaded and stored through all of its one-row output's
    memref (after a load of that memref whose value is not used). The carried rows are left as they were. -/
theorem sound_epi1 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA1.toLoadRect (View.loadsAt_vmem h_S1x64)) fun (v28 : Vec F S1x64 .f32) =>
               .op (.load M4 rA1.toLoadRect (View.loadsAt_vmem h_S1x64)) fun (_ : Vec F S1x64 .f32) =>
               .op (.store M4 rA1 v28 Finset.univ (View.stores_vmem_bits_univ h_S1x64 rfl) (.inl rfl)) fun _ =>
               .op (.load M7 rA1.toLoadRect (View.loadsAt_vmem h_S1x64)) fun (v30 : Vec F S1x64 .f32) =>
               .op (.load M5 rA1.toLoadRect (View.loadsAt_vmem h_S1x64)) fun (_ : Vec F S1x64 .f32) =>
               .op (.store M5 rA1 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA1) (View.set_slice_subset _ _)) $$ H6
  iintro H6
  iapply (wp_load_rect Variants.none (c : Thread nD τ) none E (m := M4) (r := rA1) (View.set_slice_subset _ _)) $$ H4
  iintro H4
  iapply (wp_store Variants.none (c : Thread nD τ) none E (m := M4) (r := rA1) (Mk := Finset.univ) (View.set_slice_subset _ _)) $$ H4
  iintro H4
  iapply (wp_load_rect Variants.none (c : Thread nD τ) none E (m := M7) (r := rA1) (View.set_slice_subset _ _)) $$ H7
  iintro H7
  iapply (wp_load_rect Variants.none (c : Thread nD τ) none E (m := M5) (r := rA1) (View.set_slice_subset _ _)) $$ H5
  iintro H5
  iapply (wp_store Variants.none (c : Thread nD τ) none E (m := M5) (r := rA1) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA1, read_rA1, hf6]
  · iexists _; isplitr
    swap; · iexact H5
    ipureintro; rw [read_write_rA1, read_rA1, hf7]

/-! ## The body's two conditions, in closed form over the grid -/

/-- The first conditional's condition, as the body computes it from the grid coordinate: the point is the first. -/
abbrev cond1_0 (i : grid1.Coords) : Prop :=
  (Scalar.cmpi .ne (Scalar.extui (Scalar.cmpi .eq (BitVec.ofNat 32 (i 0).val) 0#32)) 0#32) = 1#1
/-- The second's: the point is the last. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 9 :=
  (by decide +kernel : ∀ t : Fin grid1.N, cond1_1 (grid1.coords t) ↔ t.val = 9)

/-- The tile, the bias row and the output tile are stored or read at every point; -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- the two one-row outputs are stored at the last point only, and written back there only. -/
theorem idle1_3 : ∀ t : Fin cfg1.N, ¬cond1_1 (grid1.coords t) → cfg1.idle 3 (grid1.coords t) = true := by decide +kernel
theorem idle1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem live1_3 : ∀ t : Fin cfg1.N, cond1_1 (grid1.coords t) → cfg1.idle 3 (grid1.coords t) = false := by decide +kernel
theorem live1_4 : ∀ t : Fin cfg1.N, cond1_1 (grid1.coords t) → cfg1.idle 4 (grid1.coords t) = false := by decide +kernel

/-! ## The whole body, case by case, on any memrefs -/

/-- At the first point: the carried rows are zeroed, then accumulated into; the one-row outputs are not touched. -/
theorem run1_first (c : Dev nD) (E : Set ℕ) (i : grid1.Coords) (hc0 : cond1_0 i) (hc1 : ¬cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k1_pay3 x b)
            ∗ owns (c : Thread nD τ) arg6 fullShare (k1_pay4 x b (k1_pay1 (F := F))) ∗ owns (c : Thread nD τ) arg7 fullShare (k1_pay5 x b (k1_pay2 (F := F)))) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero1 c E arg6 arg7) $$ [H6 H7]
  · isplitl [H6]; · iexact H6
    iexact H7
  iintro ⟨H6, H7⟩
  iapply (sound_acc1 c E arg1 arg3 arg2 arg6 arg7 x b (k1_pay1 (F := F)) (k1_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run1_mid (c : Dev nD) (E : Set ℕ) (i : grid1.Coords) (hc0 : ¬cond1_0 i) (hc1 : ¬cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k1_pay3 x b)
            ∗ owns (c : Thread nD τ) arg6 fullShare (k1_pay4 x b a6) ∗ owns (c : Thread nD τ) arg7 fullShare (k1_pay5 x b a7)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc1 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run1_last (c : Dev nD) (E : Set ℕ) (i : grid1.Coords) (hc0 : ¬cond1_0 i) (hc1 : cond1_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k1_pay3 x b)
            ∗ owns (c : Thread nD τ) arg4 fullShare (k1_pay4 x b a6) ∗ owns (c : Thread nD τ) arg5 fullShare (k1_pay5 x b a7)
            ∗ owns (c : Thread nD τ) arg6 fullShare (k1_pay4 x b a6) ∗ owns (c : Thread nD τ) arg7 fullShare (k1_pay5 x b a7)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc1 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi1 c E arg4 arg5 arg6 arg7 (k1_pay4 x b a6) (k1_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's current staging buffer holds the point's tile at every point, for any proof data whose array is
    `V`'s and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias row at every point, fetched there (the first) or not: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the two carried rows hold after each point -/

/-- After point `n`: the running column sums of the output tiles of points `0 … n` (first component) and of their
    squares (second), exactly as the body's stores leave them — at point 0 over the zero rows, afterwards over what
    the point before left. -/
def acc1 (c : Dev nD) : (n : ℕ) → n < cfg1.N → Vec F S1x64 .f32 × Vec F S1x64 .f32
  | 0, hn => (k1_pay4 (iblk1 V c 0 ⟨0, hn⟩) (iblk1 V c 1 ⟨0, hn⟩) (k1_pay1 (F := F)),
              k1_pay5 (iblk1 V c 0 ⟨0, hn⟩) (iblk1 V c 1 ⟨0, hn⟩) (k1_pay2 (F := F)))
  | n + 1, hn => (k1_pay4 (iblk1 V c 0 ⟨n + 1, hn⟩) (iblk1 V c 1 ⟨n + 1, hn⟩) (acc1 c n (Nat.lt_of_succ_lt hn)).1,
                  k1_pay5 (iblk1 V c 0 ⟨n + 1, hn⟩) (iblk1 V c 1 ⟨n + 1, hn⟩) (acc1 c n (Nat.lt_of_succ_lt hn)).2)

theorem acc1_first (c : Dev nD) (t : Fin cfg1.N) (h : t.val = 0) :
    acc1 V c t.val t.isLt = (k1_pay4 (iblk1 V c 0 t) (iblk1 V c 1 t) (k1_pay1 (F := F)), k1_pay5 (iblk1 V c 0 t) (iblk1 V c 1 t) (k1_pay2 (F := F))) := by
  obtain ⟨n, hn⟩ := t
  cases n with
  | zero => rfl
  | succ n => exact absurd h (Nat.succ_ne_zero n)

theorem acc1_next (c : Dev nD) (t : Fin cfg1.N) (h : t.val ≠ 0) :
    acc1 V c t.val t.isLt
      = (k1_pay4 (iblk1 V c 0 t) (iblk1 V c 1 t) (acc1 V c (t.val - 1) (Nat.lt_of_le_of_lt (Nat.sub_le _ _) t.isLt)).1,
         k1_pay5 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM1_0 : Memref sig .tc .vmem S1x64 .f32 := Memref.whole cc1_scratch0
abbrev scM1_1 : Memref sig .tc .vmem S1x64 .f32 := Memref.whole cc1_scratch1

/-- Before point `n`: the generator register at some state and the core's other scoped buffers at anything; the
    two carried rows at anything before the first point, and afterwards at what the point before left (`acc1`). -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((∃ r, prngReg c r)
      ∗ (owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) spec1 c [cc1_scratch0, cc1_scratch1])

omit V in
/-- What the region is entered with, the two carried rows split out of the core's scoped buffers. -/
theorem Phi1_entry (c : Dev nD) :
    (iprop((∃ r, prngReg c r) ∗ Pipeline.scopedRest (Ix := Unit) (Name := ℕ) (U := UR sig nD τ) (Lvl := ℕ) spec1 c) : sProp 𝕄)
      = iprop((∃ r, prngReg c r)
      ∗ ((∃ a, owns (c : Thread nD τ) scM1_0 fullShare a) ∗ (∃ a, owns (c : Thread nD τ) scM1_1 fullShare a))
      ∗ Pipeline.scopedRestBut (Ix := Unit) (Name := ℕ) (U := UR sig nD τ) (Lvl := ℕ) spec1 c [cc1_scratch0, cc1_scratch1]) := by
  rw [scopedRest1_split]; simp only [scM1_0, scM1_1, owns_whole]; try rfl

theorem Phi1_zero (c : Dev nD) (n : ℕ) (h : n ≤ cfg1.N) (hz : n = 0) :
    Phi1 V c n h = iprop((∃ r, prngReg c r)
      ∗ ((∃ a, owns (c : Thread nD τ) scM1_0 fullShare a) ∗ (∃ a, owns (c : Thread nD τ) scM1_1 fullShare a))
      ∗ Pipeline.scopedRestBut (Ix := Unit) (Name := ℕ) (U := UR sig nD τ) (Lvl := ℕ) spec1 c [cc1_scratch0, cc1_scratch1]) := by
  subst hz
  exact Phi1_entry c

theorem Phi1_succ (c : Dev nD) (n : ℕ) (hn : n < cfg1.N) :
    Phi1 V c (n + 1) hn = iprop((∃ r, prngReg c r)
      ∗ (owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) spec1 c [cc1_scratch0, cc1_scratch1]) := rfl

theorem Phi1_pos (c : Dev nD) (n : ℕ) (h : n ≤ cfg1.N) (hz : n ≠ 0) :
    Phi1 V c n h = iprop((∃ r, prngReg c r)
      ∗ (owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) spec1 c [cc1_scratch0, cc1_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => (acc1 V c t.val t.isLt).1
    | ⟨4, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl
theorem share1 (c : Dev nD) (w : Fin cfg1.W) : (dat1 V c).q w = fullShare := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
      unfold Dat.leavesExact; rw [live1_0 t], after1_0]
  rw [show (dat1 V c).leavesExact 1 t = owns (c : Thread nD τ) (st1_1 t) fullShare ((dat1 V c).after 1 t) from by
      unfold Dat.leavesExact; rw [live1_1 t], after1_1]
  rw [show (dat1 V c).leavesExact 2 t = owns (c : Thread nD τ) (st1_2 t) fullShare ((dat1 V c).after 2 t) from by
      unfold Dat.leavesExact; rw [live1_2 t], after1_2]
  have hN : t.val < 10 := lt_of_lt_of_eq t.isLt (show cfg1.N = 10 from N_1)
  by_cases h0 : t.val = 0
  · -- the first point
    have h1 : ¬t.val = 9 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3 t hc1) (noFlush1_3 t hc1),
      Dat.leavesExact_idle (dat1 V c) 4 t (idle1_4 t hc1) (noFlush1_4 t hc1)]
    rw [Phi1_castSucc V c t, Phi1_zero V c _ _ h0, acc1_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run1_first c Set.univ (grid1.coords t) hc0 hc1 _ _ _ _ _ _ _ _ _ _ _ _ _ _ (iblk1 V c 0 t) (iblk1 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond1_0 (grid1.coords t) := fun h => h0 ((hcond1_0 t).mp h)
      have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3 t hc1], after1_3]
      rw [show (dat1 V c).leavesExact 4 t = owns (c : Thread nD τ) (st1_4 t) fullShare ((dat1 V c).after 4 t) from by
        unfold Dat.leavesExact; rw [live1_4 t hc1], after1_4]
      rw [Phi1_castSucc V c t, Phi1_pos V c _ _ h0, acc1_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run1_last c Set.univ (grid1.coords t) hc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond1_0 (grid1.coords t) := fun h => h0 ((hcond1_0 t).mp h)
      have hc1 : ¬cond1_1 (grid1.coords t) := fun h => h1 ((hcond1_1 t).mp h)
      rw [Dat.leavesExact_idle (dat1 V c) 3 t (idle1_3 t hc1) (noFlush1_3 t hc1),
        Dat.leavesExact_idle (dat1 V c) 4 t (idle1_4 t hc1) (noFlush1_4 t hc1)]
      rw [Phi1_castSucc V c t, Phi1_pos V c _ _ h0, acc1_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run1_mid c Set.univ (grid1.coords t) hc0 hc1 _ _ _ _ _ _ _ _ _ _ _ _ _ _ (iblk1 V c 0 t) (iblk1 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) :
    iprop((∃ r, prngReg c r) ∗ Pipeline.scopedRest (Ix := Unit) (Name := ℕ) (U := UR sig nD τ) (Lvl := ℕ) spec1 c) ⊢ (dat1 V c).Φ 0 := by
  rw [show (dat1 V c).Φ 0 = Phi1 V c 0 (Nat.zero_le _) from rfl]
  exact Idealize.SL.BI.Entails.refl _

/-- After the last point the invariant gives it back: what the carried rows hold is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega),
    Phi1_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KI.R2.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S5000x64 := Rect.unit (s := S5000x64) ![0, 0] S5000x64.size inb_S5000x64_S5000x64_0_0

/-! ## What the body leaves in the output window's buffer -/

/-- Window 3's staging buffer after the body, from the input windows' blocks: its one store. -/
def out2_3 (x0 : Vec F S5000x64 .f32) (x1 : Vec F S1x64 .f32) (x2 : Vec F S1x64 .f32) : Vec F S5000x64 .f32 :=
  View.canon [⟨r2_3, k2_pay1 (View.ld x0 r2_0) (View.ld x1 r2_1) (View.ld x2 r2_2)⟩]

/-- The store is of the whole buffer, so it covers it. -/
theorem cover2_3 (p0 : Vec F S5000x64 .f32) (y : S5000x64.Idx) :
    ∃ pc ∈ ([⟨r2_3, p0⟩] : List (View.Piece (Elt F) S5000x64 .f32)), y ∈ pc.1.set :=
  View.cover_of_tiled [⟨r2_3, p0⟩] S5000x64.size (by rfl) y

/-! ## The body's triple -/

set_option maxHeartbeats 400000 in
/-- The kernel body on whole staging memrefs, the inputs' at contents `x_w` and the output's at anything, runs to the
    continuation holding the inputs' as they were and the output's at `out2_3` of the inputs'. -/
theorem sound_kernel2 (c : Dev nD) (E : Set ℕ) (i : grid2.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__normalize_relu_kernel i arg0 harg0 arg1 harg1 arg2 harg2 arg3 harg3) K := by
  simp only [cc2__normalize_relu_kernel_eq_skeleton]; unfold cc2__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant: the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem owed2 (c : Dev nD) (t) : (dat2 V c).owed t = 0 := rfl
theorem share2 (c : Dev nD) (w) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The invariant at the region's ends -/

theorem hin2 (c : Dev nD) : iprop((∃ r, prngReg c r) ∗ Pipeline.scopedRest (Ix := Unit) (Name := ℕ) (U := UR sig nD τ) (Lvl := ℕ) spec2 c) ⊢ (dat2 V c).Φ 0 := by
  rw [show (dat2 V c).Φ 0 = Pipeline.ΦA spec2 c from rfl]; unfold Pipeline.ΦA
  iintro ⟨Hp, Hr⟩
  isplitl [Hr]; · iexact Hr
  iexact Hp

theorem hout2 (c : Dev nD) : (dat2 V c).Φ (Fin.last cfg2.N) ⊢ iprop((∃ r, prngReg c r) ∗ Pipeline.scopedRest (Ix := Unit) (Name := ℕ) (U := UR sig nD τ) (Lvl := ℕ) spec2 c) := by
  rw [show (dat2 V c).Φ (Fin.last _) = Pipeline.ΦA spec2 c from rfl]; unfold Pipeline.ΦA
  iintro ⟨Hr, Hp⟩
  isplitl [Hp]; · iexact Hp
  iexact Hr

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.R3.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (a constant block index: fetched at the first point only) likewise: where it is not fetched the
    index has not moved, so the buffer still holds this point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0

/-! ## What the body leaves in the output window's buffer -/

/-- Window 2's staging buffer after the body, from the input windows' blocks: its one store. -/
def out3_2 (x0 : Vec F S5000x64 .f32) (x1 : Vec F S64x64 .f32) : Vec F S5000x64 .f32 :=
  View.canon [⟨r3_0, k3_pay1 (View.ld x0 r3_0) (View.ld x1 r3_1)⟩]

/-- The store is of the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 400000 in
/-- The kernel body on whole staging memrefs, the inputs' at contents `x0`, `x1` and the output's at anything, runs
    to the continuation holding the inputs' as they were and the output's at `out3_2 x0 x1`. -/
theorem sound_kernel3 (c : Dev nD) (E : Set ℕ) (i : grid3.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__hw_matmul_kernel i arg0 harg0 arg1 harg1 arg2 harg2) K := by
  simp only [cc3__hw_matmul_kernel_eq_skeleton]; unfold cc3__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point `t`
    each input's buffer at its block and the output's at `out3_2` of the input blocks; the invariant: the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The invariant at the region's ends -/

theorem hin3 (c : Dev nD) : iprop((∃ r, prngReg c r) ∗ Pipeline.scopedRest (Ix := Unit) (Name := ℕ) (U := UR sig nD τ) (Lvl := ℕ) spec3 c) ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem hout3 (c : Dev nD) : (dat3 V c).Φ (Fin.last cfg3.N) ⊢ iprop((∃ r, prngReg c r) ∗ Pipeline.scopedRest (Ix := Unit) (Name := ℕ) (U := UR sig nD τ) (Lvl := ℕ) spec3 c) := by
  rw [show (dat3 V c).Φ (Fin.last _) = Pipeline.ΦA spec3 c from rfl]; unfold Pipeline.ΦA
  iintro ⟨Hr, Hp⟩
  isplitl [Hp]; · iexact Hp
  iexact Hr

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.R4.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body's accesses go through: all of a tile, all of a row -/

abbrev rX4 : Rect S5000x64 := Rect.unit (s := S5000x64) ![0, 0] S5000x64.size inb_S5000x64_S5000x64_0_0
abbrev rA4 : Rect S1x64 := Rect.unit (s := S1x64) ![0, 0] S1x64.size inb_S1x64_S1x64_0_0

theorem rX4_emb (x : S5000x64.Idx) : rX4.emb x = x := by
  funext a; apply Fin.ext; rw [Rect.emb_apply]
  fin_cases a
  · show 0 + 1 * (x 0).val = (x 0).val; omega
  · show 0 + 1 * (x 1).val = (x 1).val; omega

theorem rA4_emb (x : S1x64.Idx) : rA4.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX4 (c : Dev nD) (M : Memref sig .tc .vmem S5000x64 .f32) (g : Buf (Elt F) (M.view.loc (c : Thread nD τ))) :
    (M.access rX4).read (Elt F) g = M.view.read (Elt F) g := by
  funext x
  show _root_.cast _ (g (M.view.emb (rX4.emb x))) = _root_.cast _ (g (M.view.emb x))
  rw [rX4_emb]

omit [FloatOps F] in
theorem read_rA4 (c : Dev nD) (M : Memref sig .tc .vmem S1x64 .f32) (g : Buf (Elt F) (M.view.loc (c : Thread nD τ))) :
    (M.access rA4).read (Elt F) g = M.view.read (Elt F) g := by
  funext x
  show _root_.cast _ (g (M.view.emb (rA4.emb x))) = _root_.cast _ (g (M.view.emb x))
  rw [rA4_emb]

omit [FloatOps F] in
/-- after a store through all of it, unmasked, it holds the value stored. -/
theorem read_write_rX4 (c : Dev nD) (M : Memref sig .tc .vmem S5000x64 .f32) (f : Buf (Elt F) (M.view.loc (c : Thread nD τ))) (v : Vec F S5000x64 .f32) :
    M.view.read (Elt F) ((M.access rX4).write (Elt F) f v Finset.univ) = v := by
  funext y
  conv_lhs => rw [← rX4_emb y]
  rw [View.read_slice_write_emb _ _ _ (Finset.mem_univ _)]

omit [FloatOps F] in
theorem read_write_rA4 (c : Dev nD) (M : Memref sig .tc .vmem S1x64 .f32) (f : Buf (Elt F) (M.view.loc (c : Thread nD τ))) (v : Vec F S1x64 .f32) :
    M.view.read (Elt F) ((M.access rA4).write (Elt F) f v Finset.univ) = v := by
  funext y
  conv_lhs => rw [← rA4_emb y]
  rw [View.read_slice_write_emb _ _ _ (Finset.mem_univ _)]

/-! ## The body's three phases, each on any memrefs and continued by any program -/

/-- The zeroing of the two carried rows at the first point: for each, a load whose value is not used, then the store
    of the zero row. -/
theorem sound_zero4 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k4_pay1 (F := F)) ∗ owns (c : Thread nD τ) M7 fullShare (k4_pay2 (F := F)))
            -∗ wp frame (wpE (defs₀ (F := F)) Variants.none c none) E (k ⟨⟩) K)
          -∗ wp frame (wpE (defs₀ (F := F)) Variants.none c none) E
              (.op (.load M6 rA4.toLoadRect (View.loadsAt_vmem h_S1x64)) fun (_ : Vec F S1x64 .f32) =>
               .op (.store M6 rA4 (k4_pay1 (F := F)) Finset.univ (View.stores_vmem_bits_univ h_S1x64 rfl) (.inl rfl)) fun _ =>
               .op (.load M7 rA4.toLoadRect (View.loadsAt_vmem h_S1x64)) fun (_ : Vec F S1x64 .f32) =>
               .op (.store M7 rA4 (k4_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA4) (View.set_slice_subset _ _)) $$ H6
  iintro H6
  iapply (wp_store Variants.none (c : Thread nD τ) none E (m := M6) (r := rA4) (Mk := Finset.univ) (View.set_slice_subset _ _)) $$ H6
  iintro H6
  iapply (wp_load_rect Variants.none (c : Thread nD τ) none E (m := M7) (r := rA4) (View.set_slice_subset _ _)) $$ H7
  iintro H7
  iapply (wp_store Variants.none (c : Thread nD τ) none E (m := M7) (r := rA4) (Mk := Finset.univ) (View.set_slice_subset _ _)) $$ H7
  iintro H7
  iapply Hk
  isplitl [H6]
  · iexists _; isplitr
    swap; · iexact H6
    ipureintro; rw [read_write_rA4]
  · iexists _; isplitr
    swap; · iexact H7
    ipureintro; rw [read_write_rA4]

/-- The accumulation, at every point: the tile and the bias row are loaded, the output tile is stored at their sum
    (row-broadcast); then each carried row is loaded, and stored at itself plus the column sums of the output tile
    (of its square, for the second). The tile and the bias row are left as they were. -/
theorem sound_acc4 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k4_pay3 x b)
              ∗ owns (c : Thread nD τ) M6 fullShare (k4_pay4 x b a6) ∗ owns (c : Thread nD τ) M7 fullShare (k4_pay5 x b a7))
            -∗ wp frame (wpE (defs₀ (F := F)) Variants.none c none) E (k ⟨⟩) K)
          -∗ wp frame (wpE (defs₀ (F := F)) Variants.none c none) E
              (.op (.load M1 rX4.toLoadRect (View.loadsAt_vmem h_S5000x64)) fun (v3 : Vec F S5000x64 .f32) =>
               .op (.load M2 rA4.toLoadRect (View.loadsAt_vmem h_S1x64)) fun (v5 : Vec F S1x64 .f32) =>
               .op (.load M3 rX4.toLoadRect (View.loadsAt_vmem h_S5000x64)) fun (_ : Vec F S5000x64 .f32) =>
               .op (.store M3 rX4 (k4_pay3 v3 v5) Finset.univ (View.stores_vmem_bits_univ h_S5000x64 rfl) (.inl rfl)) fun _ =>
               .op (.load M6 rA4.toLoadRect (View.loadsAt_vmem h_S1x64)) fun (v10 : Vec F S1x64 .f32) =>
               .op (.load M6 rA4.toLoadRect (View.loadsAt_vmem h_S1x64)) fun (_ : Vec F S1x64 .f32) =>
               .op (.store M6 rA4 (k4_pay4 v3 v5 v10) Finset.univ (View.stores_vmem_bits_univ h_S1x64 rfl) (.inl rfl)) fun _ =>
               .op (.load M7 rA4.toLoadRect (View.loadsAt_vmem h_S1x64)) fun (v17 : Vec F S1x64 .f32) =>
               .op (.load M7 rA4.toLoadRect (View.loadsAt_vmem h_S1x64)) fun (_ : Vec F S1x64 .f32) =>
               .op (.store M7 rA4 (k4_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX4) (View.set_slice_subset _ _)) $$ H1
  iintro H1
  iapply (wp_load_rect Variants.none (c : Thread nD τ) none E (m := M2) (r := rA4) (View.set_slice_subset _ _)) $$ H2
  iintro H2
  iapply (wp_load_rect Variants.none (c : Thread nD τ) none E (m := M3) (r := rX4) (View.set_slice_subset _ _)) $$ H3
  iintro H3
  iapply (wp_store Variants.none (c : Thread nD τ) none E (m := M3) (r := rX4) (Mk := Finset.univ) (View.set_slice_subset _ _)) $$ H3
  iintro H3
  iapply (wp_load_rect Variants.none (c : Thread nD τ) none E (m := M6) (r := rA4) (View.set_slice_subset _ _)) $$ H6
  iintro H6
  iapply (wp_load_rect Variants.none (c : Thread nD τ) none E (m := M6) (r := rA4) (View.set_slice_subset _ _)) $$ H6
  iintro H6
  iapply (wp_store Variants.none (c : Thread nD τ) none E (m := M6) (r := rA4) (Mk := Finset.univ) (View.set_slice_subset _ _)) $$ H6
  iintro H6
  iapply (wp_load_rect Variants.none (c : Thread nD τ) none E (m := M7) (r := rA4) (View.set_slice_subset _ _)) $$ H7
  iintro H7
  iapply (wp_load_rect Variants.none (c : Thread nD τ) none E (m := M7) (r := rA4) (View.set_slice_subset _ _)) $$ H7
  iintro H7
  iapply (wp_store Variants.none (c : Thread nD τ) none E (m := M7) (r := rA4) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX4, read_rX4, read_rA4, hg1, hg2]
  isplitl [H6]
  · iexists _; isplitr
    swap; · iexact H6
    ipureintro; simp only [read_write_rA4, read_rX4, read_rA4, hg1, hg2, hf6]
  · iexists _; isplitr
    swap; · iexact H7
    ipureintro; simp only [read_write_rA4, read_rX4, read_rA4, hg1, hg2, hf7]

/-- The copy-out at the last point: each carried row is loaded and stored through all of its one-row output's
    memref (after a load of that memref whose value is not used). The carried rows are left as they were. -/
theorem sound_epi4 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA4.toLoadRect (View.loadsAt_vmem h_S1x64)) fun (v28 : Vec F S1x64 .f32) =>
               .op (.load M4 rA4.toLoadRect (View.loadsAt_vmem h_S1x64)) fun (_ : Vec F S1x64 .f32) =>
               .op (.store M4 rA4 v28 Finset.univ (View.stores_vmem_bits_univ h_S1x64 rfl) (.inl rfl)) fun _ =>
               .op (.load M7 rA4.toLoadRect (View.loadsAt_vmem h_S1x64)) fun (v30 : Vec F S1x64 .f32) =>
               .op (.load M5 rA4.toLoadRect (View.loadsAt_vmem h_S1x64)) fun (_ : Vec F S1x64 .f32) =>
               .op (.store M5 rA4 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA4) (View.set_slice_subset _ _)) $$ H6
  iintro H6
  iapply (wp_load_rect Variants.none (c : Thread nD τ) none E (m := M4) (r := rA4) (View.set_slice_subset _ _)) $$ H4
  iintro H4
  iapply (wp_store Variants.none (c : Thread nD τ) none E (m := M4) (r := rA4) (Mk := Finset.univ) (View.set_slice_subset _ _)) $$ H4
  iintro H4
  iapply (wp_load_rect Variants.none (c : Thread nD τ) none E (m := M7) (r := rA4) (View.set_slice_subset _ _)) $$ H7
  iintro H7
  iapply (wp_load_rect Variants.none (c : Thread nD τ) none E (m := M5) (r := rA4) (View.set_slice_subset _ _)) $$ H5
  iintro H5
  iapply (wp_store Variants.none (c : Thread nD τ) none E (m := M5) (r := rA4) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA4, read_rA4, hf6]
  · iexists _; isplitr
    swap; · iexact H5
    ipureintro; rw [read_write_rA4, read_rA4, hf7]

/-! ## The body's two conditions, in closed form over the grid -/

/-- The first conditional's condition, as the body computes it from the grid coordinate: the point is the first. -/
abbrev cond4_0 (i : grid4.Coords) : Prop :=
  (Scalar.cmpi .ne (Scalar.extui (Scalar.cmpi .eq (BitVec.ofNat 32 (i 0).val) 0#32)) 0#32) = 1#1
/-- The second's: the point is the last. -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

/-- The tile, the bias row and the output tile are stored or read at every point; -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
/-- the two one-row outputs are stored at the last point only, and written back there only. -/
theorem idle4_3 : ∀ t : Fin cfg4.N, ¬cond4_1 (grid4.coords t) → cfg4.idle 3 (grid4.coords t) = true := by decide +kernel
theorem idle4_4 : ∀ t : Fin cfg4.N, ¬cond4_1 (grid4.coords t) → cfg4.idle 4 (grid4.coords t) = true := by decide +kernel
theorem noFlush4_3 : ∀ t : Fin cfg4.N, ¬cond4_1 (grid4.coords t) → (cfg4.win 3).flush t = false := by decide +kernel
theorem noFlush4_4 : ∀ t : Fin cfg4.N, ¬cond4_1 (grid4.coords t) → (cfg4.win 4).flush t = false := by decide +kernel
theorem live4_3 : ∀ t : Fin cfg4.N, cond4_1 (grid4.coords t) → cfg4.idle 3 (grid4.coords t) = false := by decide +kernel
theorem live4_4 : ∀ t : Fin cfg4.N, cond4_1 (grid4.coords t) → cfg4.idle 4 (grid4.coords t) = false := by decide +kernel

/-! ## The whole body, case by case, on any memrefs -/

/-- At the first point: the carried rows are zeroed, then accumulated into; the one-row outputs are not touched. -/
theorem run4_first (c : Dev nD) (E : Set ℕ) (i : grid4.Coords) (hc0 : cond4_0 i) (hc1 : ¬cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k4_pay3 x b)
            ∗ owns (c : Thread nD τ) arg6 fullShare (k4_pay4 x b (k4_pay1 (F := F))) ∗ owns (c : Thread nD τ) arg7 fullShare (k4_pay5 x b (k4_pay2 (F := F)))) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero4 c E arg6 arg7) $$ [H6 H7]
  · isplitl [H6]; · iexact H6
    iexact H7
  iintro ⟨H6, H7⟩
  iapply (sound_acc4 c E arg1 arg3 arg2 arg6 arg7 x b (k4_pay1 (F := F)) (k4_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run4_mid (c : Dev nD) (E : Set ℕ) (i : grid4.Coords) (hc0 : ¬cond4_0 i) (hc1 : ¬cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k4_pay3 x b)
            ∗ owns (c : Thread nD τ) arg6 fullShare (k4_pay4 x b a6) ∗ owns (c : Thread nD τ) arg7 fullShare (k4_pay5 x b a7)) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc4 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run4_last (c : Dev nD) (E : Set ℕ) (i : grid4.Coords) (hc0 : ¬cond4_0 i) (hc1 : cond4_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k4_pay3 x b)
            ∗ owns (c : Thread nD τ) arg4 fullShare (k4_pay4 x b a6) ∗ owns (c : Thread nD τ) arg5 fullShare (k4_pay5 x b a7)
            ∗ owns (c : Thread nD τ) arg6 fullShare (k4_pay4 x b a6) ∗ owns (c : Thread nD τ) arg7 fullShare (k4_pay5 x b a7)) -∗ K ⟨⟩))
      ⊢ wp frame (wpE (defs₀ (F := F)) Variants.none c none) E (cc4__combine_stats_kernel i arg1 harg1 arg2 harg2 arg3 harg3 arg4 harg4 arg5 harg5 arg6 harg6 arg7 harg7) K := by
  simp only [cc4__combine_stats_kernel_eq_skeleton]; unfold cc4__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc4 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi4 c E arg4 arg5 arg6 arg7 (k4_pay4 x b a6) (k4_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile's current staging buffer holds the point's tile at every point, for any proof data whose array is
    `V`'s and whose body leaves the tile in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the bias row at every point, fetched there (the first) or not: its block
    index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the two carried rows hold after each point -/

/-- After point `n`: the running column sums of the output tiles of points `0 … n` (first component) and of their
    squares (second), exactly as the body's stores leave them — at point 0 over the zero rows, afterwards over what
    the point before left. -/
def acc4 (c : Dev nD) : (n : ℕ) → n < cfg4.N → Vec F S1x64 .f32 × Vec F S1x64 .f32
  | 0, hn => (k4_pay4 (iblk4 V c 0 ⟨0, hn⟩) (iblk4 V c 1 ⟨0, hn⟩) (k4_pay1 (F := F)),
              k4_pay5 (iblk4 V c 0 ⟨0, hn⟩) (iblk4 V c 1 ⟨0, hn⟩) (k4_pay2 (F := F)))
  | n + 1, hn => (k4_pay4 (iblk4 V c 0 ⟨n + 1, hn⟩) (iblk4 V c 1 ⟨n + 1, hn⟩) (acc4 c n (Nat.lt_of_succ_lt hn)).1,
                  k4_pay5 (iblk4 V c 0 ⟨n + 1, hn⟩) (iblk4 V c 1 ⟨n + 1, hn⟩) (acc4 c n (Nat.lt_of_succ_lt hn)).2)

theorem acc4_first (c : Dev nD) (t : Fin cfg4.N) (h : t.val = 0) :
    acc4 V c t.val t.isLt = (k4_pay4 (iblk4 V c 0 t) (iblk4 V c 1 t) (k4_pay1 (F := F)), k4_pay5 (iblk4 V c 0 t) (iblk4 V c 1 t) (k4_pay2 (F := F))) := by
  obtain ⟨n, hn⟩ := t
  cases n with
  | zero => rfl
  | succ n => exact absurd h (Nat.succ_ne_zero n)

theorem acc4_next (c : Dev nD) (t : Fin cfg4.N) (h : t.val ≠ 0) :
    acc4 V c t.val t.isLt
      = (k4_pay4 (iblk4 V c 0 t) (iblk4 V c 1 t) (acc4 V c (t.val - 1) (Nat.lt_of_le_of_lt (Nat.sub_le _ _) t.isLt)).1,
         k4_pay5 (iblk4 V c 0 t) (iblk4 V c 1 t) (acc4 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM4_0 : Memref sig .tc .vmem S1x64 .f32 := Memref.whole cc4_scratch0
abbrev scM4_1 : Memref sig .tc .vmem S1x64 .f32 := Memref.whole cc4_scratch1

/-- Before point `n`: the generator register at some state and the core's other scoped buffers at anything; the
    two carried rows at anything before the first point, and afterwards at what the point before left (`acc4`). -/
def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, hn => iprop((∃ r, prngReg c r)
      ∗ (owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) spec4 c [cc4_scratch0, cc4_scratch1])

omit V in
/-- What the region is entered with, the two carried rows split out of the core's scoped buffers. -/
theorem Phi4_entry (c : Dev nD) :
    (iprop((∃ r, prngReg c r) ∗ Pipeline.scopedRest (Ix := Unit) (Name := ℕ) (U := UR sig nD τ) (Lvl := ℕ) spec4 c) : sProp 𝕄)
      = iprop((∃ r, prngReg c r)
      ∗ ((∃ a, owns (c : Thread nD τ) scM4_0 fullShare a) ∗ (∃ a, owns (c : Thread nD τ) scM4_1 fullShare a))
      ∗ Pipeline.scopedRestBut (Ix := Unit) (Name := ℕ) (U := UR sig nD τ) (Lvl := ℕ) spec4 c [cc4_scratch0, cc4_scratch1]) := by
  rw [scopedRest4_split]; simp only [scM4_0, scM4_1, owns_whole]; try rfl

theorem Phi4_zero (c : Dev nD) (n : ℕ) (h : n ≤ cfg4.N) (hz : n = 0) :
    Phi4 V c n h = iprop((∃ r, prngReg c r)
      ∗ ((∃ a, owns (c : Thread nD τ) scM4_0 fullShare a) ∗ (∃ a, owns (c : Thread nD τ) scM4_1 fullShare a))
      ∗ Pipeline.scopedRestBut (Ix := Unit) (Name := ℕ) (U := UR sig nD τ) (Lvl := ℕ) spec4 c [cc4_scratch0, cc4_scratch1]) := by
  subst hz
  exact Phi4_entry c

theorem Phi4_succ (c : Dev nD) (n : ℕ) (hn : n < cfg4.N) :
    Phi4 V c (n + 1) hn = iprop((∃ r, prngReg c r)
      ∗ (owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) spec4 c [cc4_scratch0, cc4_scratch1]) := rfl

theorem Phi4_pos (c : Dev nD) (n : ℕ) (h : n ≤ cfg4.N) (hz : n ≠ 0) :
    Phi4 V c n h = iprop((∃ r, prngReg c r)
      ∗ (owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) spec4 c [cc4_scratch0, cc4_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (iblk4 V c 0 t) (iblk4 V c 1 t)
    | ⟨3, _⟩ => (acc4 V c t.val t.isLt).1
    | ⟨4, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl
theorem share4 (c : Dev nD) (w : Fin cfg4.W) : (dat4 V c).q w = fullShare := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (iblk4 V c 0 t) (iblk4 V c 1 t) := by dsimp only [dat4]
theorem after4_3 (c : Dev nD) (t : Fin cfg4.N) : (dat4 V c).after 3 t = (acc4 V c t.val t.isLt).1 := by dsimp only [dat4]
theorem after4_4 (c : Dev nD) (t : Fin cfg4.N) : (dat4 V c).after 4 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem Phi4_castSucc (c : Dev nD) (t : Fin cfg4.N) :
    (dat4 V c).Φ t.castSucc = Phi4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
      unfold Dat.leavesExact; rw [live4_0 t], after4_0]
  rw [show (dat4 V c).leavesExact 1 t = owns (c : Thread nD τ) (st4_1 t) fullShare ((dat4 V c).after 1 t) from by
      unfold Dat.leavesExact; rw [live4_1 t], after4_1]
  rw [show (dat4 V c).leavesExact 2 t = owns (c : Thread nD τ) (st4_2 t) fullShare ((dat4 V c).after 2 t) from by
      unfold Dat.leavesExact; rw [live4_2 t], after4_2]
  have hN : t.val < 10 := lt_of_lt_of_eq t.isLt (show cfg4.N = 10 from N_4)
  by_cases h0 : t.val = 0
  · -- the first point
    have h1 : ¬t.val = 9 := by omega
    have hc0 : cond4_0 (grid4.coords t) := (hcond4_0 t).mpr h0
    have hc1 : ¬cond4_1 (grid4.coords t) := fun h => h1 ((hcond4_1 t).mp h)
    rw [Dat.leavesExact_idle (dat4 V c) 3 t (idle4_3 t hc1) (noFlush4_3 t hc1),
      Dat.leavesExact_idle (dat4 V c) 4 t (idle4_4 t hc1) (noFlush4_4 t hc1)]
    rw [Phi4_castSucc V c t, Phi4_zero V c _ _ h0, acc4_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run4_first c Set.univ (grid4.coords t) hc0 hc1 _ _ _ _ _ _ _ _ _ _ _ _ _ _ (iblk4 V c 0 t) (iblk4 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond4_0 (grid4.coords t) := fun h => h0 ((hcond4_0 t).mp h)
      have hc1 : cond4_1 (grid4.coords t) := (hcond4_1 t).mpr h1
      rw [show (dat4 V c).leavesExact 3 t = owns (c : Thread nD τ) (st4_3 t) fullShare ((dat4 V c).after 3 t) from by
        unfold Dat.leavesExact; rw [live4_3 t hc1], after4_3]
      rw [show (dat4 V c).leavesExact 4 t = owns (c : Thread nD τ) (st4_4 t) fullShare ((dat4 V c).after 4 t) from by
        unfold Dat.leavesExact; rw [live4_4 t hc1], after4_4]
      rw [Phi4_castSucc V c t, Phi4_pos V c _ _ h0, acc4_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run4_last c Set.univ (grid4.coords t) hc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond4_0 (grid4.coords t) := fun h => h0 ((hcond4_0 t).mp h)
      have hc1 : ¬cond4_1 (grid4.coords t) := fun h => h1 ((hcond4_1 t).mp h)
      rw [Dat.leavesExact_idle (dat4 V c) 3 t (idle4_3 t hc1) (noFlush4_3 t hc1),
        Dat.leavesExact_idle (dat4 V c) 4 t (idle4_4 t hc1) (noFlush4_4 t hc1)]
      rw [Phi4_castSucc V c t, Phi4_pos V c _ _ h0, acc4_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run4_mid c Set.univ (grid4.coords t) hc0 hc1 _ _ _ _ _ _ _ _ _ _ _ _ _ _ (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) :
    iprop((∃ r, prngReg c r) ∗ Pipeline.scopedRest (Ix := Unit) (Name := ℕ) (U := UR sig nD τ) (Lvl := ℕ) spec4 c) ⊢ (dat4 V c).Φ 0 := by
  rw [show (dat4 V c).Φ 0 = Phi4 V c 0 (Nat.zero_le _) from rfl]
  exact Idealize.SL.BI.Entails.refl _

/-- After the last point the invariant gives it back: what the carried rows hold is forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega),
    Phi4_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KI.R5.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (where it is not
    fetched the block index has not moved), for any proof data whose array is `V`'s and whose body leaves the block
    in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S5000x64 := Rect.unit (s := S5000x64) ![0, 0] S5000x64.size inb_S5000x64_S5000x64_0_0

/-! ## What the body leaves in the output window's buffer -/

/-- Window 3's staging buffer after the body, from the input windows' blocks: its one store. -/
def out5_3 (x0 : Vec F S5000x64 .f32) (x1 : Vec F S1x64 .f32) (x2 : Vec F S1x64 .f32) : Vec F S5000x64 .f32 :=
  View.canon [⟨r5_3, k5_pay1 (View.ld x0 r5_0) (View.ld x1 r5_1) (View.ld x2 r5_2)⟩]

/-- The store is of the whole buffer, so it covers it. -/
theorem cover5_3 (p0 : Vec F S5000x64 .f32) (y : S5000x64.Idx) :
    ∃ pc ∈ ([⟨r5_3, p0⟩] : List (View.Piece (Elt F) S5000x64 .f32)), y ∈ pc.1.set :=
  View.cover_of_tiled [⟨r5_3, p0⟩] S5000x64.size (by rfl) y

/-! ## The body's triple -/

set_option maxHeartbeats 400000 in
/-- The kernel body on whole staging memrefs, the inputs' at contents `x_w` and the output's at anything, runs to the
    continuation holding the inputs' as they were and the output's at `out5_3` of the inputs'. -/
theorem sound_kernel5 (c : Dev nD) (E : Set ℕ) (i : grid5.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__normalize_relu_kernel i arg0 harg0 arg1 harg1 arg2 harg2 arg3 harg3) K := by
  simp only [cc5__normalize_relu_kernel_eq_skeleton]; unfold cc5__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant: the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

theorem owed5 (c : Dev nD) (t) : (dat5 V c).owed t = 0 := rfl
theorem share5 (c : Dev nD) (w) : (dat5 V c).q w = fullShare := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The invariant at the region's ends -/

theorem hin5 (c : Dev nD) : iprop((∃ r, prngReg c r) ∗ Pipeline.scopedRest (Ix := Unit) (Name := ℕ) (U := UR sig nD τ) (Lvl := ℕ) spec5 c) ⊢ (dat5 V c).Φ 0 := by
  rw [show (dat5 V c).Φ 0 = Pipeline.ΦA spec5 c from rfl]; unfold Pipeline.ΦA
  iintro ⟨Hp, Hr⟩
  isplitl [Hr]; · iexact Hr
  iexact Hp

theorem hout5 (c : Dev nD) : (dat5 V c).Φ (Fin.last cfg5.N) ⊢ iprop((∃ r, prngReg c r) ∗ Pipeline.scopedRest (Ix := Unit) (Name := ℕ) (U := UR sig nD τ) (Lvl := ℕ) spec5 c) := by
  rw [show (dat5 V c).Φ (Fin.last _) = Pipeline.ΦA spec5 c from rfl]; unfold Pipeline.ΦA
  iintro ⟨Hr, Hp⟩
  isplitl [Hp]; · iexact Hp
  iexact Hr

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.R6.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (a constant block index: fetched at the first point only) likewise: where it is not fetched the
    index has not moved, so the buffer still holds this point's block. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0

/-! ## What the body leaves in the output window's buffer -/

/-- Window 2's staging buffer after the body, from the input windows' blocks: its one store. -/
def out6_2 (x0 : Vec F S5000x64 .f32) (x1 : Vec F S64x64 .f32) : Vec F S5000x64 .f32 :=
  View.canon [⟨r6_0, k6_pay1 (View.ld x0 r6_0) (View.ld x1 r6_1)⟩]

/-- The store is of the whole buffer, so it covers it. -/
theorem cover6_2 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 400000 in
/-- The kernel body on whole staging memrefs, the inputs' at contents `x0`, `x1` and the output's at anything, runs
    to the continuation holding the inputs' as they were and the output's at `out6_2 x0 x1`. -/
theorem sound_kernel6 (c : Dev nD) (E : Set ℕ) (i : grid6.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__hw_matmul_kernel i arg0 harg0 arg1 harg1 arg2 harg2) K := by
  simp only [cc6__hw_matmul_kernel_eq_skeleton]; unfold cc6__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point `t`
    each input's buffer at its block and the output's at `out6_2` of the input blocks; the invariant: the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

theorem owed6 (c : Dev nD) (t) : (dat6 V c).owed t = 0 := rfl
theorem share6 (c : Dev nD) (w) : (dat6 V c).q w = fullShare := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The invariant at the region's ends -/

theorem hin6 (c : Dev nD) : iprop((∃ r, prngReg c r) ∗ Pipeline.scopedRest (Ix := Unit) (Name := ℕ) (U := UR sig nD τ) (Lvl := ℕ) spec6 c) ⊢ (dat6 V c).Φ 0 := by
  rw [show (dat6 V c).Φ 0 = Pipeline.ΦA spec6 c from rfl]; unfold Pipeline.ΦA
  iintro ⟨Hp, Hr⟩
  isplitl [Hr]; · iexact Hr
  iexact Hp

theorem hout6 (c : Dev nD) : (dat6 V c).Φ (Fin.last cfg6.N) ⊢ iprop((∃ r, prngReg c r) ∗ Pipeline.scopedRest (Ix := Unit) (Name := ℕ) (U := UR sig nD τ) (Lvl := ℕ) spec6 c) := by
  rw [show (dat6 V c).Φ (Fin.last _) = Pipeline.ΦA spec6 c from rfl]; unfold Pipeline.ΦA
  iintro ⟨Hr, Hp⟩
  isplitl [Hp]; · iexact Hp
  iexact Hr

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.R7.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body's accesses go through: all of a tile, all of a row -/

abbrev rX7 : Rect S5000x64 := Rect.unit (s := S5000x64) ![0, 0] S5000x64.size inb_S5000x64_S5000x64_0_0
abbrev rA7 : Rect S1x64 := Rect.unit (s := S1x64) ![0, 0] S1x64.size inb_S1x64_S1x64_0_0

theorem rX7_emb (x : S5000x64.Idx) : rX7.emb x = x := by
  funext a; apply Fin.ext; rw [Rect.emb_apply]
  fin_cases a
  · show 0 + 1 * (x 0).val = (x 0).val; omega
  · show 0 + 1 * (x 1).val = (x 1).val; omega

theorem rA7_emb (x : S1x64.Idx) : rA7.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX7 (c : Dev nD) (M : Memref sig .tc .vmem S5000x64 .f32) (g : Buf (Elt F) (M.view.loc (c : Thread nD τ))) :
    (M.access rX7).read (Elt F) g = M.view.read (Elt F) g := by
  funext x
  show _root_.cast _ (g (M.view.emb (rX7.emb x))) = _root_.cast _ (g (M.view.emb x))
  rw [rX7_emb]

omit [FloatOps F] in
theorem read_rA7 (c : Dev nD) (M : Memref sig .tc .vmem S1x64 .f32) (g : Buf (Elt F) (M.view.loc (c : Thread nD τ))) :
    (M.access rA7).read (Elt F) g = M.view.read (Elt F) g := by
  funext x
  show _root_.cast _ (g (M.view.emb (rA7.emb x))) = _root_.cast _ (g (M.view.emb x))
  rw [rA7_emb]

omit [FloatOps F] in
/-- after a store through all of it, unmasked, it holds the value stored. -/
theorem read_write_rX7 (c : Dev nD) (M : Memref sig .tc .vmem S5000x64 .f32) (f : Buf (Elt F) (M.view.loc (c : Thread nD τ))) (v : Vec F S5000x64 .f32) :
    M.view.read (Elt F) ((M.access rX7).write (Elt F) f v Finset.univ) = v := by
  funext y
  conv_lhs => rw [← rX7_emb y]
  rw [View.read_slice_write_emb _ _ _ (Finset.mem_univ _)]

omit [FloatOps F] in
theorem read_write_rA7 (c : Dev nD) (M : Memref sig .tc .vmem S1x64 .f32) (f : Buf (Elt F) (M.view.loc (c : Thread nD τ))) (v : Vec F S1x64 .f32) :
    M.view.read (Elt F) ((M.access rA7).write (Elt F) f v Finset.univ) = v := by
  funext y
  conv_lhs => rw [← rA7_emb y]
  rw [View.read_slice_write_emb _ _ _ (Finset.mem_univ _)]

/-! ## The body's three phases, each on any memrefs and continued by any program -/

/-- The zeroing of the two carried rows at the first point: for each, a load whose value is not used, then the store
    of the zero row. -/
theorem sound_zero7 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k7_pay1 (F := F)) ∗ owns (c : Thread nD τ) M7 fullShare (k7_pay2 (F := F)))
            -∗ wp frame (wpE (defs₀ (F := F)) Variants.none c none) E (k ⟨⟩) K)
          -∗ wp frame (wpE (defs₀ (F := F)) Variants.none c none) E
              (.op (.load M6 rA7.toLoadRect (View.loadsAt_vmem h_S1x64)) fun (_ : Vec F S1x64 .f32) =>
               .op (.store M6 rA7 (k7_pay1 (F := F)) Finset.univ (View.stores_vmem_bits_univ h_S1x64 rfl) (.inl rfl)) fun _ =>
               .op (.load M7 rA7.toLoadRect (View.loadsAt_vmem h_S1x64)) fun (_ : Vec F S1x64 .f32) =>
               .op (.store M7 rA7 (k7_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA7) (View.set_slice_subset _ _)) $$ H6
  iintro H6
  iapply (wp_store Variants.none (c : Thread nD τ) none E (m := M6) (r := rA7) (Mk := Finset.univ) (View.set_slice_subset _ _)) $$ H6
  iintro H6
  iapply (wp_load_rect Variants.none (c : Thread nD τ) none E (m := M7) (r := rA7) (View.set_slice_subset _ _)) $$ H7
  iintro H7
  iapply (wp_store Variants.none (c : Thread nD τ) none E (m := M7) (r := rA7) (Mk := Finset.univ) (View.set_slice_subset _ _)) $$ H7
  iintro H7
  iapply Hk
  isplitl [H6]
  · iexists _; isplitr
    swap; · iexact H6
    ipureintro; rw [read_write_rA7]
  · iexists _; isplitr
    swap; · iexact H7
    ipureintro; rw [read_write_rA7]

/-- The accumulation, at every point: the tile and the bias row are loaded, the output tile is stored at their sum
    (row-broadcast); then each carried row is loaded, and stored at itself plus the column sums of the output tile
    (of its square, for the second). The tile and the bias row are left as they were. -/
theorem sound_acc7 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k7_pay3 x b)
              ∗ owns (c : Thread nD τ) M6 fullShare (k7_pay4 x b a6) ∗ owns (c : Thread nD τ) M7 fullShare (k7_pay5 x b a7))
            -∗ wp frame (wpE (defs₀ (F := F)) Variants.none c none) E (k ⟨⟩) K)
          -∗ wp frame (wpE (defs₀ (F := F)) Variants.none c none) E
              (.op (.load M1 rX7.toLoadRect (View.loadsAt_vmem h_S5000x64)) fun (v3 : Vec F S5000x64 .f32) =>
               .op (.load M2 rA7.toLoadRect (View.loadsAt_vmem h_S1x64)) fun (v5 : Vec F S1x64 .f32) =>
               .op (.load M3 rX7.toLoadRect (View.loadsAt_vmem h_S5000x64)) fun (_ : Vec F S5000x64 .f32) =>
               .op (.store M3 rX7 (k7_pay3 v3 v5) Finset.univ (View.stores_vmem_bits_univ h_S5000x64 rfl) (.inl rfl)) fun _ =>
               .op (.load M6 rA7.toLoadRect (View.loadsAt_vmem h_S1x64)) fun (v10 : Vec F S1x64 .f32) =>
               .op (.load M6 rA7.toLoadRect (View.loadsAt_vmem h_S1x64)) fun (_ : Vec F S1x64 .f32) =>
               .op (.store M6 rA7 (k7_pay4 v3 v5 v10) Finset.univ (View.stores_vmem_bits_univ h_S1x64 rfl) (.inl rfl)) fun _ =>
               .op (.load M7 rA7.toLoadRect (View.loadsAt_vmem h_S1x64)) fun (v17 : Vec F S1x64 .f32) =>
               .op (.load M7 rA7.toLoadRect (View.loadsAt_vmem h_S1x64)) fun (_ : Vec F S1x64 .f32) =>
               .op (.store M7 rA7 (k7_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX7) (View.set_slice_subset _ _)) $$ H1
  iintro H1
  iapply (wp_load_rect Variants.none (c : Thread nD τ) none E (m := M2) (r := rA7) (View.set_slice_subset _ _)) $$ H2
  iintro H2
  iapply (wp_load_rect Variants.none (c : Thread nD τ) none E (m := M3) (r := rX7) (View.set_slice_subset _ _)) $$ H3
  iintro H3
  iapply (wp_store Variants.none (c : Thread nD τ) none E (m := M3) (r := rX7) (Mk := Finset.univ) (View.set_slice_subset _ _)) $$ H3
  iintro H3
  iapply (wp_load_rect Variants.none (c : Thread nD τ) none E (m := M6) (r := rA7) (View.set_slice_subset _ _)) $$ H6
  iintro H6
  iapply (wp_load_rect Variants.none (c : Thread nD τ) none E (m := M6) (r := rA7) (View.set_slice_subset _ _)) $$ H6
  iintro H6
  iapply (wp_store Variants.none (c : Thread nD τ) none E (m := M6) (r := rA7) (Mk := Finset.univ) (View.set_slice_subset _ _)) $$ H6
  iintro H6
  iapply (wp_load_rect Variants.none (c : Thread nD τ) none E (m := M7) (r := rA7) (View.set_slice_subset _ _)) $$ H7
  iintro H7
  iapply (wp_load_rect Variants.none (c : Thread nD τ) none E (m := M7) (r := rA7) (View.set_slice_subset _ _)) $$ H7
  iintro H7
  iapply (wp_store Variants.none (c : Thread nD τ) none E (m := M7) (r := rA7) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX7, read_rX7, read_rA7, hg1, hg2]
  isplitl [H6]
  · iexists _; isplitr
    swap; · iexact H6
    ipureintro; simp only [read_write_rA7, read_rX7, read_rA7, hg1, hg2, hf6]
  · iexists _; isplitr
    swap; · iexact H7
    ipureintro; simp only [read_write_rA7, read_rX7, read_rA7, hg1, hg2, hf7]

/-- The copy-out at the last point: each carried row is loaded and stored through all of its one-row output's
    memref (after a load of that memref whose value is not used). The carried rows are left as they were. -/
theorem sound_epi7 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA7.toLoadRect (View.loadsAt_vmem h_S1x64)) fun (v28 : Vec F S1x64 .f32) =>
               .op (.load M4 rA7.toLoadRect (View.loadsAt_vmem h_S1x64)) fun (_ : Vec F S1x64 .f32) =>
               .op (.store M4 rA7 v28 Finset.univ (View.stores_vmem_bits_univ h_S1x64 rfl) (.inl rfl)) fun _ =>
               .op (.load M7 rA7.toLoadRect (View.loadsAt_vmem h_S1x64)) fun (v30 : Vec F S1x64 .f32) =>
               .op (.load M5 rA7.toLoadRect (View.loadsAt_vmem h_S1x64)) fun (_ : Vec F S1x64 .f32) =>
               .op (.store M5 rA7 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA7) (View.set_slice_subset _ _)) $$ H6
  iintro H6
  iapply (wp_load_rect Variants.none (c : Thread nD τ) none E (m := M4) (r := rA7) (View.set_slice_subset _ _)) $$ H4
  iintro H4
  iapply (wp_store Variants.none (c : Thread nD τ) none E (m := M4) (r := rA7) (Mk := Finset.univ) (View.set_slice_subset _ _)) $$ H4
  iintro H4
  iapply (wp_load_rect Variants.none (c : Thread nD τ) none E (m := M7) (r := rA7) (View.set_slice_subset _ _)) $$ H7
  iintro H7
  iapply (wp_load_rect Variants.none (c : Thread nD τ) none E (m := M5) (r := rA7) (View.set_slice_subset _ _)) $$ H5
  iintro H5
  iapply (wp_store Variants.none (c : Thread nD τ) none E (m := M5) (r := rA7) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA7, read_rA7, hf6]
  · iexists _; isplitr
    swap; · iexact H5
    ipureintro; rw [read_write_rA7, read_rA7, hf7]

/-! ## The body's two conditions, in closed form over the grid -/

/-- The first conditional's condition, as the body computes it from the grid coordinate: the point is the first. -/
abbrev cond7_0 (i : grid7.Coords) : Prop :=
  (Scalar.cmpi .ne (Scalar.extui (Scalar.cmpi .eq (BitVec.ofNat 32 (i 0).val) 0#32)) 0#32) = 1#1
/-- The second's: the point is the last. -/
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 9 :=
  (by decide +kernel : ∀ t : Fin grid7.N, cond7_1 (grid7.coords t) ↔ t.val = 9)

/-- The tile, the bias row and the output tile are stored or read at every point; -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- the two one-row outputs are stored at the last point only, and written back there only. -/
theorem idle7_3 : ∀ t : Fin cfg7.N, ¬cond7_1 (grid7.coords t) → cfg7.idle 3 (grid7.coords t) = true := by decide +kernel
theorem idle7_4 : ∀ t : Fin cfg7.N, ¬cond7_1 (grid7.coords t) → cfg7.idle 4 (grid7.coords t) = true := by decide +kernel
theorem noFlush7_3 : ∀ t : Fin cfg7.N, ¬cond7_1 (grid7.coords t) → (cfg7.win 3).flush t = false := by decide +kernel
theorem noFlush7_4 : ∀ t : Fin cfg7.N, ¬cond7_1 (grid7.coords t) → (cfg7.win 4).flush t = false := by decide +kernel
theorem live7_3 : ∀ t : Fin cfg7.N, cond7_1 (grid7.coords t) → cfg7.idle 3 (grid7.coords t) = false := by decide +kernel
theorem live7_4 : ∀ t : Fin cfg7.N, cond7_1 (grid7.coords t) → cfg7.idle 4 (grid7.coords t) = false := by decide +kernel

/-! ## The whole body, case by case, on any memrefs -/

/-- At the first point: the carried rows are zeroed, then accumulated into; the one-row outputs are not touched. -/
theorem run7_first (c : Dev nD) (E : Set ℕ) (i : grid7.Coords) (hc0 : cond7_0 i) (hc1 : ¬cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k7_pay3 x b)
            ∗ owns (c : Thread nD τ) arg6 fullShare (k7_pay4 x b (k7_pay1 (F := F))) ∗ owns (c : Thread nD τ) arg7 fullShare (k7_pay5 x b (k7_pay2 (F := F)))) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero7 c E arg6 arg7) $$ [H6 H7]
  · isplitl [H6]; · iexact H6
    iexact H7
  iintro ⟨H6, H7⟩
  iapply (sound_acc7 c E arg1 arg3 arg2 arg6 arg7 x b (k7_pay1 (F := F)) (k7_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run7_mid (c : Dev nD) (E : Set ℕ) (i : grid7.Coords) (hc0 : ¬cond7_0 i) (hc1 : ¬cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k7_pay3 x b)
            ∗ owns (c : Thread nD τ) arg6 fullShare (k7_pay4 x b a6) ∗ owns (c : Thread nD τ) arg7 fullShare (k7_pay5 x b a7)) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc7 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run7_last (c : Dev nD) (E : Set ℕ) (i : grid7.Coords) (hc0 : ¬cond7_0 i) (hc1 : cond7_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k7_pay3 x b)
            ∗ owns (c : Thread nD τ) arg4 fullShare (k7_pay4 x b a6) ∗ owns (c : Thread nD τ) arg5 fullShare (k7_pay5 x b a7)
            ∗ owns (c : Thread nD τ) arg6 fullShare (k7_pay4 x b a6) ∗ owns (c : Thread nD τ) arg7 fullShare (k7_pay5 x b a7)) -∗ K ⟨⟩))
      ⊢ wp frame (wpE (defs₀ (F := F)) Variants.none c none) E (cc7__combine_stats_kernel i arg1 harg1 arg2 harg2 arg3 harg3 arg4 harg4 arg5 harg5 arg6 harg6 arg7 harg7) K := by
  simp only [cc7__combine_stats_kernel_eq_skeleton]; unfold cc7__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc7 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi7 c E arg4 arg5 arg6 arg7 (k7_pay4 x b a6) (k7_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The tile's current staging buffer holds the point's tile at every point, for any proof data whose array is
    `V`'s and whose body leaves the tile in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row's staging buffer holds the bias row at every point, fetched there (the first) or not: its block
    index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the two carried rows hold after each point -/

/-- After point `n`: the running column sums of the output tiles of points `0 … n` (first component) and of their
    squares (second), exactly as the body's stores leave them — at point 0 over the zero rows, afterwards over what
    the point before left. -/
def acc7 (c : Dev nD) : (n : ℕ) → n < cfg7.N → Vec F S1x64 .f32 × Vec F S1x64 .f32
  | 0, hn => (k7_pay4 (iblk7 V c 0 ⟨0, hn⟩) (iblk7 V c 1 ⟨0, hn⟩) (k7_pay1 (F := F)),
              k7_pay5 (iblk7 V c 0 ⟨0, hn⟩) (iblk7 V c 1 ⟨0, hn⟩) (k7_pay2 (F := F)))
  | n + 1, hn => (k7_pay4 (iblk7 V c 0 ⟨n + 1, hn⟩) (iblk7 V c 1 ⟨n + 1, hn⟩) (acc7 c n (Nat.lt_of_succ_lt hn)).1,
                  k7_pay5 (iblk7 V c 0 ⟨n + 1, hn⟩) (iblk7 V c 1 ⟨n + 1, hn⟩) (acc7 c n (Nat.lt_of_succ_lt hn)).2)

theorem acc7_first (c : Dev nD) (t : Fin cfg7.N) (h : t.val = 0) :
    acc7 V c t.val t.isLt = (k7_pay4 (iblk7 V c 0 t) (iblk7 V c 1 t) (k7_pay1 (F := F)), k7_pay5 (iblk7 V c 0 t) (iblk7 V c 1 t) (k7_pay2 (F := F))) := by
  obtain ⟨n, hn⟩ := t
  cases n with
  | zero => rfl
  | succ n => exact absurd h (Nat.succ_ne_zero n)

theorem acc7_next (c : Dev nD) (t : Fin cfg7.N) (h : t.val ≠ 0) :
    acc7 V c t.val t.isLt
      = (k7_pay4 (iblk7 V c 0 t) (iblk7 V c 1 t) (acc7 V c (t.val - 1) (Nat.lt_of_le_of_lt (Nat.sub_le _ _) t.isLt)).1,
         k7_pay5 (iblk7 V c 0 t) (iblk7 V c 1 t) (acc7 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM7_0 : Memref sig .tc .vmem S1x64 .f32 := Memref.whole cc7_scratch0
abbrev scM7_1 : Memref sig .tc .vmem S1x64 .f32 := Memref.whole cc7_scratch1

/-- Before point `n`: the generator register at some state and the core's other scoped buffers at anything; the
    two carried rows at anything before the first point, and afterwards at what the point before left (`acc7`). -/
def Phi7 (c : Dev nD) : (n : ℕ) → n ≤ cfg7.N → sProp 𝕄
  | 0, _ => iprop((∃ r, prngReg c r) ∗ Pipeline.scopedRest (Ix := Unit) (Name := ℕ) (U := UR sig nD τ) (Lvl := ℕ) spec7 c)
  | n + 1, hn => iprop((∃ r, prngReg c r)
      ∗ (owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) spec7 c [cc7_scratch0, cc7_scratch1])

omit V in
/-- What the region is entered with, the two carried rows split out of the core's scoped buffers. -/
theorem Phi7_entry (c : Dev nD) :
    (iprop((∃ r, prngReg c r) ∗ Pipeline.scopedRest (Ix := Unit) (Name := ℕ) (U := UR sig nD τ) (Lvl := ℕ) spec7 c) : sProp 𝕄)
      = iprop((∃ r, prngReg c r)
      ∗ ((∃ a, owns (c : Thread nD τ) scM7_0 fullShare a) ∗ (∃ a, owns (c : Thread nD τ) scM7_1 fullShare a))
      ∗ Pipeline.scopedRestBut (Ix := Unit) (Name := ℕ) (U := UR sig nD τ) (Lvl := ℕ) spec7 c [cc7_scratch0, cc7_scratch1]) := by
  rw [scopedRest7_split]; simp only [scM7_0, scM7_1, owns_whole]; try rfl

theorem Phi7_zero (c : Dev nD) (n : ℕ) (h : n ≤ cfg7.N) (hz : n = 0) :
    Phi7 V c n h = iprop((∃ r, prngReg c r)
      ∗ ((∃ a, owns (c : Thread nD τ) scM7_0 fullShare a) ∗ (∃ a, owns (c : Thread nD τ) scM7_1 fullShare a))
      ∗ Pipeline.scopedRestBut (Ix := Unit) (Name := ℕ) (U := UR sig nD τ) (Lvl := ℕ) spec7 c [cc7_scratch0, cc7_scratch1]) := by
  subst hz
  exact Phi7_entry c

theorem Phi7_succ (c : Dev nD) (n : ℕ) (hn : n < cfg7.N) :
    Phi7 V c (n + 1) hn = iprop((∃ r, prngReg c r)
      ∗ (owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) spec7 c [cc7_scratch0, cc7_scratch1]) := rfl

theorem Phi7_pos (c : Dev nD) (n : ℕ) (h : n ≤ cfg7.N) (hz : n ≠ 0) :
    Phi7 V c n h = iprop((∃ r, prngReg c r)
      ∗ (owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) spec7 c [cc7_scratch0, cc7_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay3 (iblk7 V c 0 t) (iblk7 V c 1 t)
    | ⟨3, _⟩ => (acc7 V c t.val t.isLt).1
    | ⟨4, _⟩ => (acc7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem owed7 (c : Dev nD) (t : Fin (cfg7.N + 1)) : (dat7 V c).owed t = 0 := rfl
theorem share7 (c : Dev nD) (w : Fin cfg7.W) : (dat7 V c).q w = fullShare := rfl

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay3 (iblk7 V c 0 t) (iblk7 V c 1 t) := by dsimp only [dat7]
theorem after7_3 (c : Dev nD) (t : Fin cfg7.N) : (dat7 V c).after 3 t = (acc7 V c t.val t.isLt).1 := by dsimp only [dat7]
theorem after7_4 (c : Dev nD) (t : Fin cfg7.N) : (dat7 V c).after 4 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem Phi7_castSucc (c : Dev nD) (t : Fin cfg7.N) :
    (dat7 V c).Φ t.castSucc = Phi7 V c t.val (Nat.le_of_lt t.isLt) := by
  dsimp only [dat7]; simp only [Fin.coe_castSucc]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
      unfold Dat.leavesExact; rw [live7_0 t], after7_0]
  rw [show (dat7 V c).leavesExact 1 t = owns (c : Thread nD τ) (st7_1 t) fullShare ((dat7 V c).after 1 t) from by
      unfold Dat.leavesExact; rw [live7_1 t], after7_1]
  rw [show (dat7 V c).leavesExact 2 t = owns (c : Thread nD τ) (st7_2 t) fullShare ((dat7 V c).after 2 t) from by
      unfold Dat.leavesExact; rw [live7_2 t], after7_2]
  have hN : t.val < 10 := lt_of_lt_of_eq t.isLt (show cfg7.N = 10 from N_7)
  by_cases h0 : t.val = 0
  · -- the first point
    have h1 : ¬t.val = 9 := by omega
    have hc0 : cond7_0 (grid7.coords t) := (hcond7_0 t).mpr h0
    have hc1 : ¬cond7_1 (grid7.coords t) := fun h => h1 ((hcond7_1 t).mp h)
    rw [Dat.leavesExact_idle (dat7 V c) 3 t (idle7_3 t hc1) (noFlush7_3 t hc1),
      Dat.leavesExact_idle (dat7 V c) 4 t (idle7_4 t hc1) (noFlush7_4 t hc1)]
    rw [Phi7_castSucc V c t, Phi7_zero V c _ _ h0, acc7_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run7_first c Set.univ (grid7.coords t) hc0 hc1 _ _ _ _ _ _ _ _ _ _ _ _ _ _ (iblk7 V c 0 t) (iblk7 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond7_0 (grid7.coords t) := fun h => h0 ((hcond7_0 t).mp h)
      have hc1 : cond7_1 (grid7.coords t) := (hcond7_1 t).mpr h1
      rw [show (dat7 V c).leavesExact 3 t = owns (c : Thread nD τ) (st7_3 t) fullShare ((dat7 V c).after 3 t) from by
        unfold Dat.leavesExact; rw [live7_3 t hc1], after7_3]
      rw [show (dat7 V c).leavesExact 4 t = owns (c : Thread nD τ) (st7_4 t) fullShare ((dat7 V c).after 4 t) from by
        unfold Dat.leavesExact; rw [live7_4 t hc1], after7_4]
      rw [Phi7_castSucc V c t, Phi7_pos V c _ _ h0, acc7_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run7_last c Set.univ (grid7.coords t) hc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond7_0 (grid7.coords t) := fun h => h0 ((hcond7_0 t).mp h)
      have hc1 : ¬cond7_1 (grid7.coords t) := fun h => h1 ((hcond7_1 t).mp h)
      rw [Dat.leavesExact_idle (dat7 V c) 3 t (idle7_3 t hc1) (noFlush7_3 t hc1),
        Dat.leavesExact_idle (dat7 V c) 4 t (idle7_4 t hc1) (noFlush7_4 t hc1)]
      rw [Phi7_castSucc V c t, Phi7_pos V c _ _ h0, acc7_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run7_mid c Set.univ (grid7.coords t) hc0 hc1 _ _ _ _ _ _ _ _ _ _ _ _ _ _ (iblk7 V c 0 t) (iblk7 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) :
    iprop((∃ r, prngReg c r) ∗ Pipeline.scopedRest (Ix := Unit) (Name := ℕ) (U := UR sig nD τ) (Lvl := ℕ) spec7 c) ⊢ (dat7 V c).Φ 0 := by
  rw [show (dat7 V c).Φ 0 = Phi7 V c 0 (Nat.zero_le _) from rfl]
  exact Idealize.SL.BI.Entails.refl _

/-- After the last point the invariant gives it back: what the carried rows hold is forgotten. -/
theorem hout7 (c : Dev nD) :
    (dat7 V c).Φ (Fin.last cfg7.N) ⊢ iprop((∃ r, prngReg c r) ∗ Pipeline.scopedRest (Ix := Unit) (Name := ℕ) (U := UR sig nD τ) (Lvl := ℕ) spec7 c) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega),
    Phi7_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KI.R8.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not (where it is not
    fetched the block index has not moved), for any proof data whose array is `V`'s and whose body leaves the block
    in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S5000x64 := Rect.unit (s := S5000x64) ![0, 0] S5000x64.size inb_S5000x64_S5000x64_0_0

/-! ## What the body leaves in the output window's buffer -/

/-- Window 3's staging buffer after the body, from the input windows' blocks: its one store. -/
def out8_3 (x0 : Vec F S5000x64 .f32) (x1 : Vec F S1x64 .f32) (x2 : Vec F S1x64 .f32) : Vec F S5000x64 .f32 :=
  View.canon [⟨r8_3, k8_pay1 (View.ld x0 r8_0) (View.ld x1 r8_1) (View.ld x2 r8_2)⟩]

/-- The store is of the whole buffer, so it covers it. -/
theorem cover8_3 (p0 : Vec F S5000x64 .f32) (y : S5000x64.Idx) :
    ∃ pc ∈ ([⟨r8_3, p0⟩] : List (View.Piece (Elt F) S5000x64 .f32)), y ∈ pc.1.set :=
  View.cover_of_tiled [⟨r8_3, p0⟩] S5000x64.size (by rfl) y

/-! ## The body's triple -/

set_option maxHeartbeats 400000 in
/-- The kernel body on whole staging memrefs, the inputs' at contents `x_w` and the output's at anything, runs to the
    continuation holding the inputs' as they were and the output's at `out8_3` of the inputs'. -/
theorem sound_kernel8 (c : Dev nD) (E : Set ℕ) (i : grid8.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__normalize_relu_kernel i arg0 harg0 arg1 harg1 arg2 harg2 arg3 harg3) K := by
  simp only [cc8__normalize_relu_kernel_eq_skeleton]; unfold cc8__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point `t`
    each input's buffer at its block and the output's at `out8_3` of the input blocks; the invariant: the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

theorem owed8 (c : Dev nD) (t) : (dat8 V c).owed t = 0 := rfl
theorem share8 (c : Dev nD) (w) : (dat8 V c).q w = fullShare := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The invariant at the region's ends -/

theorem hin8 (c : Dev nD) : iprop((∃ r, prngReg c r) ∗ Pipeline.scopedRest (Ix := Unit) (Name := ℕ) (U := UR sig nD τ) (Lvl := ℕ) spec8 c) ⊢ (dat8 V c).Φ 0 := by
  rw [show (dat8 V c).Φ 0 = Pipeline.ΦA spec8 c from rfl]; unfold Pipeline.ΦA
  iintro ⟨Hp, Hr⟩
  isplitl [Hr]; · iexact Hr
  iexact Hp

theorem hout8 (c : Dev nD) : (dat8 V c).Φ (Fin.last cfg8.N) ⊢ iprop((∃ r, prngReg c r) ∗ Pipeline.scopedRest (Ix := Unit) (Name := ℕ) (U := UR sig nD τ) (Lvl := ℕ) spec8 c) := by
  rw [show (dat8 V c).Φ (Fin.last _) = Pipeline.ΦA spec8 c from rfl]; unfold Pipeline.ΦA
  iintro ⟨Hr, Hp⟩
  isplitl [Hp]; · iexact Hp
  iexact Hr

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.R9.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (a constant block index: fetched at the first point only) likewise: where it is not fetched the
    index has not moved, so the buffer still holds this point's block. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0

/-! ## What the body leaves in the output window's buffer -/

/-- Window 2's staging buffer after the body, from the input windows' blocks: its one store. -/
def out9_2 (x0 : Vec F S5000x64 .f32) (x1 : Vec F S64x64 .f32) : Vec F S5000x64 .f32 :=
  View.canon [⟨r9_0, k9_pay1 (View.ld x0 r9_0) (View.ld x1 r9_1)⟩]

/-- The store is of the whole buffer, so it covers it. -/
theorem cover9_2 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-! ## The body's triple -/

set_option maxHeartbeats 400000 in
/-- The kernel body on whole staging memrefs, the inputs' at contents `x0`, `x1` and the output's at anything, runs
    to the continuation holding the inputs' as they were and the output's at `out9_2 x0 x1`. -/
theorem sound_kernel9 (c : Dev nD) (E : Set ℕ) (i : grid9.Coords)
    (arg0 : Memref sig .tc .vmem S5000x64 .f32) (harg0 : arg0.IsWhole) (arg1 : Memref sig .tc .vmem S64x64 .f32) (harg1 : arg1.IsWhole)
    (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__hw_matmul_kernel i arg0 harg0 arg1 harg1 arg2 harg2) K := by
  simp only [cc9__hw_matmul_kernel_eq_skeleton]; unfold cc9__hw_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them (`V`); after the body at point `t`
    each input's buffer at its block and the output's at `out9_2` of the input blocks; the invariant: the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

theorem owed9 (c : Dev nD) (t) : (dat9 V c).owed t = 0 := rfl
theorem share9 (c : Dev nD) (w) : (dat9 V c).q w = fullShare := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The invariant at the region's ends -/

theorem hin9 (c : Dev nD) : iprop((∃ r, prngReg c r) ∗ Pipeline.scopedRest (Ix := Unit) (Name := ℕ) (U := UR sig nD τ) (Lvl := ℕ) spec9 c) ⊢ (dat9 V c).Φ 0 := by
  rw [show (dat9 V c).Φ 0 = Pipeline.ΦA spec9 c from rfl]; unfold Pipeline.ΦA
  iintro ⟨Hp, Hr⟩
  isplitl [Hr]; · iexact Hr
  iexact Hp

theorem hout9 (c : Dev nD) : (dat9 V c).Φ (Fin.last cfg9.N) ⊢ iprop((∃ r, prngReg c r) ∗ Pipeline.scopedRest (Ix := Unit) (Name := ℕ) (U := UR sig nD τ) (Lvl := ℕ) spec9 c) := by
  rw [show (dat9 V c).Φ (Fin.last _) = Pipeline.ΦA spec9 c from rfl]; unfold Pipeline.ΦA
  iintro ⟨Hr, Hp⟩
  isplitl [Hp]; · iexact Hp
  iexact Hr

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.R10.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 10: bias, column sums and column sums of squares over ten row tiles, at any float model

The body adds the bias row to the point's 5000-row tile and stores the result as the output tile; it keeps two
64-entry rows between points — the column sums of the result tiles so far and the column sums of their squares —
which it zeroes at the first point, adds the tile's column sums to at every point, and copies into the two one-row
outputs at the last point. The proof data therefore names, by recursion over the points, what the two carried rows
hold after each point, and the region invariant holds them at exactly that; the two one-row outputs are untouched
until the last point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body's accesses go through: all of a tile, all of a row -/

abbrev rX10 : Rect S5000x64 := Rect.unit (s := S5000x64) ![0, 0] S5000x64.size inb_S5000x64_S5000x64_0_0
abbrev rA10 : Rect S1x64 := Rect.unit (s := S1x64) ![0, 0] S1x64.size inb_S1x64_S1x64_0_0

theorem rX10_emb (x : S5000x64.Idx) : rX10.emb x = x := by
  funext a; apply Fin.ext; rw [Rect.emb_apply]
  fin_cases a
  · show 0 + 1 * (x 0).val = (x 0).val; omega
  · show 0 + 1 * (x 1).val = (x 1).val; omega

theorem rA10_emb (x : S1x64.Idx) : rA10.emb x = x := by
  funext a; apply Fin.ext; rw [Rect.emb_apply]
  fin_cases a
  · show 0 + 1 * (x 0).val = (x 0).val; omega
  · show 0 + 1 * (x 1).val = (x 1).val; omega

omit [FloatOps F] in
/-- A load of all of a memref reads what the memref holds; -/
theorem read_rX10 (c : Dev nD) (M : Memref sig .tc .vmem S5000x64 .f32) (g : Buf (Elt F) (M.view.loc (c : Thread nD τ))) :
    (M.access rX10).read (Elt F) g = M.view.read (Elt F) g := by
  funext x
  show _root_.cast _ (g (M.view.emb (rX10.emb x))) = _root_.cast _ (g (M.view.emb x))
  rw [rX10_emb]

omit [FloatOps F] in
theorem read_rA10 (c : Dev nD) (M : Memref sig .tc .vmem S1x64 .f32) (g : Buf (Elt F) (M.view.loc (c : Thread nD τ))) :
    (M.access rA10).read (Elt F) g = M.view.read (Elt F) g := by
  funext x
  show _root_.cast _ (g (M.view.emb (rA10.emb x))) = _root_.cast _ (g (M.view.emb x))
  rw [rA10_emb]

omit [FloatOps F] in
/-- after a store through all of it, unmasked, it holds the value stored. -/
theorem read_write_rX10 (c : Dev nD) (M : Memref sig .tc .vmem S5000x64 .f32) (f : Buf (Elt F) (M.view.loc (c : Thread nD τ))) (v : Vec F S5000x64 .f32) :
    M.view.read (Elt F) ((M.access rX10).write (Elt F) f v Finset.univ) = v := by
  funext y
  conv_lhs => rw [← rX10_emb y]
  rw [View.read_slice_write_emb _ _ _ (Finset.mem_univ _)]

omit [FloatOps F] in
theorem read_write_rA10 (c : Dev nD) (M : Memref sig .tc .vmem S1x64 .f32) (f : Buf (Elt F) (M.view.loc (c : Thread nD τ))) (v : Vec F S1x64 .f32) :
    M.view.read (Elt F) ((M.access rA10).write (Elt F) f v Finset.univ) = v := by
  funext y
  conv_lhs => rw [← rA10_emb y]
  rw [View.read_slice_write_emb _ _ _ (Finset.mem_univ _)]

/-! ## The body's three phases, each on any memrefs and continued by any program -/

/-- The zeroing of the two carried rows at the first point: for each, a load whose value is not used, then the store
    of the zero row. -/
theorem sound_zero10 (c : Dev nD) (E : Set ℕ) (M6 M7 : Memref sig .tc .vmem S1x64 .f32)
    {k : PUnit.{1} → Prog (TpuEff nD τ sig (Elt F) Λ₀ .tc) PUnit.{1}} {K : PUnit.{1} → sProp 𝕄} :
    iprop((∃ a, owns (c : Thread nD τ) M6 fullShare a) ∗ (∃ a, owns (c : Thread nD τ) M7 fullShare a))
      ⊢ iprop(((owns (c : Thread nD τ) M6 fullShare (k10_pay1 (F := F)) ∗ owns (c : Thread nD τ) M7 fullShare (k10_pay2 (F := F)))
            -∗ wp frame (wpE (defs₀ (F := F)) Variants.none c none) E (k ⟨⟩) K)
          -∗ wp frame (wpE (defs₀ (F := F)) Variants.none c none) E
              (.op (.load M6 rA10.toLoadRect (View.loadsAt_vmem h_S1x64)) fun (_ : Vec F S1x64 .f32) =>
               .op (.store M6 rA10 (k10_pay1 (F := F)) Finset.univ (View.stores_vmem_bits_univ h_S1x64 rfl) (.inl rfl)) fun _ =>
               .op (.load M7 rA10.toLoadRect (View.loadsAt_vmem h_S1x64)) fun (_ : Vec F S1x64 .f32) =>
               .op (.store M7 rA10 (k10_pay2 (F := F)) Finset.univ (View.stores_vmem_bits_univ h_S1x64 rfl) (.inl rfl)) k) K) := by
  unfold owns
  iintro ⟨⟨%a6, %f6, -, H6⟩, ⟨%a7, %f7, -, H7⟩⟩ Hk
  iapply (wp_load_rect Variants.none (c : Thread nD τ) none E (m := M6) (r := rA10) (View.set_slice_subset _ _)) $$ H6
  iintro H6
  iapply (wp_store Variants.none (c : Thread nD τ) none E (m := M6) (r := rA10) (Mk := Finset.univ) (View.set_slice_subset _ _)) $$ H6
  iintro H6
  iapply (wp_load_rect Variants.none (c : Thread nD τ) none E (m := M7) (r := rA10) (View.set_slice_subset _ _)) $$ H7
  iintro H7
  iapply (wp_store Variants.none (c : Thread nD τ) none E (m := M7) (r := rA10) (Mk := Finset.univ) (View.set_slice_subset _ _)) $$ H7
  iintro H7
  iapply Hk
  isplitl [H6]
  · iexists _; isplitr
    swap; · iexact H6
    ipureintro; rw [read_write_rA10]
  · iexists _; isplitr
    swap; · iexact H7
    ipureintro; rw [read_write_rA10]

/-- The accumulation, at every point: the tile and the bias row are loaded, the output tile is stored at their sum
    (row-broadcast); then each carried row is loaded, and stored at itself plus the column sums of the output tile
    (of its square, for the second). The tile and the bias row are left as they were. -/
theorem sound_acc10 (c : Dev nD) (E : Set ℕ) (M1 M3 : Memref sig .tc .vmem S5000x64 .f32) (M2 M6 M7 : Memref sig .tc .vmem S1x64 .f32)
    (x : Vec F S5000x64 .f32) (b a6 a7 : Vec F S1x64 .f32)
    {k : PUnit.{1} → Prog (TpuEff nD τ sig (Elt F) Λ₀ .tc) PUnit.{1}} {K : PUnit.{1} → sProp 𝕄} :
    iprop(owns (c : Thread nD τ) M1 fullShare x ∗ owns (c : Thread nD τ) M2 fullShare b ∗ (∃ d, owns (c : Thread nD τ) M3 fullShare d) ∗ owns (c : Thread nD τ) M6 fullShare a6 ∗ owns (c : Thread nD τ) M7 fullShare a7)
      ⊢ iprop(((owns (c : Thread nD τ) M1 fullShare x ∗ owns (c : Thread nD τ) M2 fullShare b ∗ owns (c : Thread nD τ) M3 fullShare (k10_pay3 x b)
              ∗ owns (c : Thread nD τ) M6 fullShare (k10_pay4 x b a6) ∗ owns (c : Thread nD τ) M7 fullShare (k10_pay5 x b a7))
            -∗ wp frame (wpE (defs₀ (F := F)) Variants.none c none) E (k ⟨⟩) K)
          -∗ wp frame (wpE (defs₀ (F := F)) Variants.none c none) E
              (.op (.load M1 rX10.toLoadRect (View.loadsAt_vmem h_S5000x64)) fun (v3 : Vec F S5000x64 .f32) =>
               .op (.load M2 rA10.toLoadRect (View.loadsAt_vmem h_S1x64)) fun (v5 : Vec F S1x64 .f32) =>
               .op (.load M3 rX10.toLoadRect (View.loadsAt_vmem h_S5000x64)) fun (_ : Vec F S5000x64 .f32) =>
               .op (.store M3 rX10 (k10_pay3 v3 v5) Finset.univ (View.stores_vmem_bits_univ h_S5000x64 rfl) (.inl rfl)) fun _ =>
               .op (.load M6 rA10.toLoadRect (View.loadsAt_vmem h_S1x64)) fun (v10 : Vec F S1x64 .f32) =>
               .op (.load M6 rA10.toLoadRect (View.loadsAt_vmem h_S1x64)) fun (_ : Vec F S1x64 .f32) =>
               .op (.store M6 rA10 (k10_pay4 v3 v5 v10) Finset.univ (View.stores_vmem_bits_univ h_S1x64 rfl) (.inl rfl)) fun _ =>
               .op (.load M7 rA10.toLoadRect (View.loadsAt_vmem h_S1x64)) fun (v17 : Vec F S1x64 .f32) =>
               .op (.load M7 rA10.toLoadRect (View.loadsAt_vmem h_S1x64)) fun (_ : Vec F S1x64 .f32) =>
               .op (.store M7 rA10 (k10_pay5 v3 v5 v17) Finset.univ (View.stores_vmem_bits_univ h_S1x64 rfl) (.inl rfl)) k) K) := by
  unfold owns
  iintro ⟨⟨%g1, %hg1, H1⟩, ⟨%g2, %hg2, H2⟩, ⟨%d3, %f3, -, H3⟩, ⟨%f6, %hf6, H6⟩, ⟨%f7, %hf7, H7⟩⟩ Hk
  iapply (wp_load_rect Variants.none (c : Thread nD τ) none E (m := M1) (r := rX10) (View.set_slice_subset _ _)) $$ H1
  iintro H1
  iapply (wp_load_rect Variants.none (c : Thread nD τ) none E (m := M2) (r := rA10) (View.set_slice_subset _ _)) $$ H2
  iintro H2
  iapply (wp_load_rect Variants.none (c : Thread nD τ) none E (m := M3) (r := rX10) (View.set_slice_subset _ _)) $$ H3
  iintro H3
  iapply (wp_store Variants.none (c : Thread nD τ) none E (m := M3) (r := rX10) (Mk := Finset.univ) (View.set_slice_subset _ _)) $$ H3
  iintro H3
  iapply (wp_load_rect Variants.none (c : Thread nD τ) none E (m := M6) (r := rA10) (View.set_slice_subset _ _)) $$ H6
  iintro H6
  iapply (wp_load_rect Variants.none (c : Thread nD τ) none E (m := M6) (r := rA10) (View.set_slice_subset _ _)) $$ H6
  iintro H6
  iapply (wp_store Variants.none (c : Thread nD τ) none E (m := M6) (r := rA10) (Mk := Finset.univ) (View.set_slice_subset _ _)) $$ H6
  iintro H6
  iapply (wp_load_rect Variants.none (c : Thread nD τ) none E (m := M7) (r := rA10) (View.set_slice_subset _ _)) $$ H7
  iintro H7
  iapply (wp_load_rect Variants.none (c : Thread nD τ) none E (m := M7) (r := rA10) (View.set_slice_subset _ _)) $$ H7
  iintro H7
  iapply (wp_store Variants.none (c : Thread nD τ) none E (m := M7) (r := rA10) (Mk := Finset.univ) (View.set_slice_subset _ _)) $$ H7
  iintro H7
  iapply Hk
  isplitl [H1]
  · iexists g1; isplitr; · ipureintro; exact hg1
    iexact H1
  isplitl [H2]
  · iexists g2; isplitr; · ipureintro; exact hg2
    iexact H2
  isplitl [H3]
  · iexists _; isplitr
    swap; · iexact H3
    ipureintro; rw [read_write_rX10, read_rX10, read_rA10, hg1, hg2]
  isplitl [H6]
  · iexists _; isplitr
    swap; · iexact H6
    ipureintro; simp only [read_write_rA10, read_rX10, read_rA10, hg1, hg2, hf6]
  · iexists _; isplitr
    swap; · iexact H7
    ipureintro; simp only [read_write_rA10, read_rX10, read_rA10, hg1, hg2, hf7]

/-- The copy-out at the last point: each carried row is loaded and stored through all of its one-row output's
    memref (after a load of that memref whose value is not used). The carried rows are left as they were. -/
theorem sound_epi10 (c : Dev nD) (E : Set ℕ) (M4 M5 M6 M7 : Memref sig .tc .vmem S1x64 .f32) (a6 a7 : Vec F S1x64 .f32)
    {k : PUnit.{1} → Prog (TpuEff nD τ sig (Elt F) Λ₀ .tc) PUnit.{1}} {K : PUnit.{1} → sProp 𝕄} :
    iprop(owns (c : Thread nD τ) M6 fullShare a6 ∗ owns (c : Thread nD τ) M7 fullShare a7 ∗ (∃ d, owns (c : Thread nD τ) M4 fullShare d) ∗ (∃ d, owns (c : Thread nD τ) M5 fullShare d))
      ⊢ iprop(((owns (c : Thread nD τ) M6 fullShare a6 ∗ owns (c : Thread nD τ) M7 fullShare a7 ∗ owns (c : Thread nD τ) M4 fullShare a6 ∗ owns (c : Thread nD τ) M5 fullShare a7)
            -∗ wp frame (wpE (defs₀ (F := F)) Variants.none c none) E (k ⟨⟩) K)
          -∗ wp frame (wpE (defs₀ (F := F)) Variants.none c none) E
              (.op (.load M6 rA10.toLoadRect (View.loadsAt_vmem h_S1x64)) fun (v28 : Vec F S1x64 .f32) =>
               .op (.load M4 rA10.toLoadRect (View.loadsAt_vmem h_S1x64)) fun (_ : Vec F S1x64 .f32) =>
               .op (.store M4 rA10 v28 Finset.univ (View.stores_vmem_bits_univ h_S1x64 rfl) (.inl rfl)) fun _ =>
               .op (.load M7 rA10.toLoadRect (View.loadsAt_vmem h_S1x64)) fun (v30 : Vec F S1x64 .f32) =>
               .op (.load M5 rA10.toLoadRect (View.loadsAt_vmem h_S1x64)) fun (_ : Vec F S1x64 .f32) =>
               .op (.store M5 rA10 v30 Finset.univ (View.stores_vmem_bits_univ h_S1x64 rfl) (.inl rfl)) k) K) := by
  unfold owns
  iintro ⟨⟨%f6, %hf6, H6⟩, ⟨%f7, %hf7, H7⟩, ⟨%d4, %f4, -, H4⟩, ⟨%d5, %f5, -, H5⟩⟩ Hk
  iapply (wp_load_rect Variants.none (c : Thread nD τ) none E (m := M6) (r := rA10) (View.set_slice_subset _ _)) $$ H6
  iintro H6
  iapply (wp_load_rect Variants.none (c : Thread nD τ) none E (m := M4) (r := rA10) (View.set_slice_subset _ _)) $$ H4
  iintro H4
  iapply (wp_store Variants.none (c : Thread nD τ) none E (m := M4) (r := rA10) (Mk := Finset.univ) (View.set_slice_subset _ _)) $$ H4
  iintro H4
  iapply (wp_load_rect Variants.none (c : Thread nD τ) none E (m := M7) (r := rA10) (View.set_slice_subset _ _)) $$ H7
  iintro H7
  iapply (wp_load_rect Variants.none (c : Thread nD τ) none E (m := M5) (r := rA10) (View.set_slice_subset _ _)) $$ H5
  iintro H5
  iapply (wp_store Variants.none (c : Thread nD τ) none E (m := M5) (r := rA10) (Mk := Finset.univ) (View.set_slice_subset _ _)) $$ H5
  iintro H5
  iapply Hk
  isplitl [H6]
  · iexists f6; isplitr; · ipureintro; exact hf6
    iexact H6
  isplitl [H7]
  · iexists f7; isplitr; · ipureintro; exact hf7
    iexact H7
  isplitl [H4]
  · iexists _; isplitr
    swap; · iexact H4
    ipureintro; rw [read_write_rA10, read_rA10, hf6]
  · iexists _; isplitr
    swap; · iexact H5
    ipureintro; rw [read_write_rA10, read_rA10, hf7]

/-! ## The body's two conditions, in closed form over the grid -/

/-- The first conditional's condition, as the body computes it from the grid coordinate: the point is the first. -/
abbrev cond10_0 (i : grid10.Coords) : Prop :=
  (Scalar.cmpi .ne (Scalar.extui (Scalar.cmpi .eq (BitVec.ofNat 32 (i 0).val) 0#32)) 0#32) = 1#1
/-- The second's: the point is the last. -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

/-- The tile, the bias row and the output tile are stored or read at every point; -/
theorem live10_0 : ∀ t : Fin cfg10.N, cfg10.idle 0 (grid10.coords t) = false := by decide +kernel
theorem live10_1 : ∀ t : Fin cfg10.N, cfg10.idle 1 (grid10.coords t) = false := by decide +kernel
theorem live10_2 : ∀ t : Fin cfg10.N, cfg10.idle 2 (grid10.coords t) = false := by decide +kernel
/-- the two one-row outputs are stored at the last point only, and written back there only. -/
theorem idle10_3 : ∀ t : Fin cfg10.N, ¬cond10_1 (grid10.coords t) → cfg10.idle 3 (grid10.coords t) = true := by decide +kernel
theorem idle10_4 : ∀ t : Fin cfg10.N, ¬cond10_1 (grid10.coords t) → cfg10.idle 4 (grid10.coords t) = true := by decide +kernel
theorem noFlush10_3 : ∀ t : Fin cfg10.N, ¬cond10_1 (grid10.coords t) → (cfg10.win 3).flush t = false := by decide +kernel
theorem noFlush10_4 : ∀ t : Fin cfg10.N, ¬cond10_1 (grid10.coords t) → (cfg10.win 4).flush t = false := by decide +kernel
theorem live10_3 : ∀ t : Fin cfg10.N, cond10_1 (grid10.coords t) → cfg10.idle 3 (grid10.coords t) = false := by decide +kernel
theorem live10_4 : ∀ t : Fin cfg10.N, cond10_1 (grid10.coords t) → cfg10.idle 4 (grid10.coords t) = false := by decide +kernel

/-! ## The whole body, case by case, on any memrefs -/

/-- At the first point: the carried rows are zeroed, then accumulated into; the one-row outputs are not touched. -/
theorem run10_first (c : Dev nD) (E : Set ℕ) (i : grid10.Coords) (hc0 : cond10_0 i) (hc1 : ¬cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ a, owns (c : Thread nD τ) arg6 fullShare a) ∗ (∃ a, owns (c : Thread nD τ) arg7 fullShare a)
        ∗ (iprop(owns (c : Thread nD τ) arg1 fullShare x ∗ owns (c : Thread nD τ) arg2 fullShare b ∗ owns (c : Thread nD τ) arg3 fullShare (k10_pay3 x b)
            ∗ owns (c : Thread nD τ) arg6 fullShare (k10_pay4 x b (k10_pay1 (F := F))) ∗ owns (c : Thread nD τ) arg7 fullShare (k10_pay5 x b (k10_pay2 (F := F)))) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_zero10 c E arg6 arg7) $$ [H6 H7]
  · isplitl [H6]; · iexact H6
    iexact H7
  iintro ⟨H6, H7⟩
  iapply (sound_acc10 c E arg1 arg3 arg2 arg6 arg7 x b (k10_pay1 (F := F)) (k10_pay2 (F := F))) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At a point that is neither the first nor the last: the carried rows are accumulated into. -/
theorem run10_mid (c : Dev nD) (E : Set ℕ) (i : grid10.Coords) (hc0 : ¬cond10_0 i) (hc1 : ¬cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k10_pay3 x b)
            ∗ owns (c : Thread nD τ) arg6 fullShare (k10_pay4 x b a6) ∗ owns (c : Thread nD τ) arg7 fullShare (k10_pay5 x b a7)) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H6, H7, Hk⟩
  iapply (sound_acc10 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  rw [wp_ret]; imodintro
  iapply Hk
  isplitl [H1]; · iexact H1
  isplitl [H2]; · iexact H2
  isplitl [H3]; · iexact H3
  isplitl [H6]; · iexact H6
  iexact H7

/-- At the last point: the carried rows are accumulated into, then copied into the one-row outputs. -/
theorem run10_last (c : Dev nD) (E : Set ℕ) (i : grid10.Coords) (hc0 : ¬cond10_0 i) (hc1 : cond10_1 i)
    (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (x : Vec F S5000x64 .f32) (b a6 a7 : Vec F S1x64 .f32) (K : PUnit.{1} → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x ∗ owns (c : Thread nD τ) arg2 fullShare b ∗ owns (c : Thread nD τ) arg3 fullShare (k10_pay3 x b)
            ∗ owns (c : Thread nD τ) arg4 fullShare (k10_pay4 x b a6) ∗ owns (c : Thread nD τ) arg5 fullShare (k10_pay5 x b a7)
            ∗ owns (c : Thread nD τ) arg6 fullShare (k10_pay4 x b a6) ∗ owns (c : Thread nD τ) arg7 fullShare (k10_pay5 x b a7)) -∗ K ⟨⟩))
      ⊢ wp frame (wpE (defs₀ (F := F)) Variants.none c none) E (cc10__combine_stats_kernel i arg1 harg1 arg2 harg2 arg3 harg3 arg4 harg4 arg5 harg5 arg6 harg6 arg7 harg7) K := by
  simp only [cc10__combine_stats_kernel_eq_skeleton]; unfold cc10__combine_stats_kernel_skel
  simp only [Prog.lift, Prog.bind_op, Prog.bind_ret, Prog.bind_assoc, Prog.pure_eq_ret, hc0, hc1, ↓reduceDIte, dite_true, dite_false]
  iintro ⟨H1, H2, H3, H4, H5, H6, H7, Hk⟩
  iapply (sound_acc10 c E arg1 arg3 arg2 arg6 arg7 x b a6 a7) $$ [H1 H2 H3 H6 H7]
  · isplitl [H1]; · iexact H1
    isplitl [H2]; · iexact H2
    isplitl [H3]; · iexact H3
    isplitl [H6]; · iexact H6
    iexact H7
  iintro ⟨H1, H2, H3, H6, H7⟩
  iapply (sound_epi10 c E arg4 arg5 arg6 arg7 (k10_pay4 x b a6) (k10_pay5 x b a7)) $$ [H4 H5 H6 H7]
  · isplitl [H6]; · iexact H6
    isplitl [H7]; · iexact H7
    isplitl [H4]; · iexact H4
    iexact H5
  iintro ⟨H6, H7, H4, H5⟩
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The tile's current staging buffer holds the point's tile at every point, for any proof data whose array is
    `V`'s and whose body leaves the tile in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The bias row's staging buffer holds the bias row at every point, fetched there (the first) or not: its block
    index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What the two carried rows hold after each point -/

/-- After point `n`: the running column sums of the output tiles of points `0 … n` (first component) and of their
    squares (second), exactly as the body's stores leave them — at point 0 over the zero rows, afterwards over what
    the point before left. -/
def acc10 (c : Dev nD) : (n : ℕ) → n < cfg10.N → Vec F S1x64 .f32 × Vec F S1x64 .f32
  | 0, hn => (k10_pay4 (iblk10 V c 0 ⟨0, hn⟩) (iblk10 V c 1 ⟨0, hn⟩) (k10_pay1 (F := F)),
              k10_pay5 (iblk10 V c 0 ⟨0, hn⟩) (iblk10 V c 1 ⟨0, hn⟩) (k10_pay2 (F := F)))
  | n + 1, hn => (k10_pay4 (iblk10 V c 0 ⟨n + 1, hn⟩) (iblk10 V c 1 ⟨n + 1, hn⟩) (acc10 c n (Nat.lt_of_succ_lt hn)).1,
                  k10_pay5 (iblk10 V c 0 ⟨n + 1, hn⟩) (iblk10 V c 1 ⟨n + 1, hn⟩) (acc10 c n (Nat.lt_of_succ_lt hn)).2)

theorem acc10_first (c : Dev nD) (t : Fin cfg10.N) (h : t.val = 0) :
    acc10 V c t.val t.isLt = (k10_pay4 (iblk10 V c 0 t) (iblk10 V c 1 t) (k10_pay1 (F := F)), k10_pay5 (iblk10 V c 0 t) (iblk10 V c 1 t) (k10_pay2 (F := F))) := by
  obtain ⟨n, hn⟩ := t
  cases n with
  | zero => rfl
  | succ n => exact absurd h (Nat.succ_ne_zero n)

theorem acc10_next (c : Dev nD) (t : Fin cfg10.N) (h : t.val ≠ 0) :
    acc10 V c t.val t.isLt
      = (k10_pay4 (iblk10 V c 0 t) (iblk10 V c 1 t) (acc10 V c (t.val - 1) (Nat.lt_of_le_of_lt (Nat.sub_le _ _) t.isLt)).1,
         k10_pay5 (iblk10 V c 0 t) (iblk10 V c 1 t) (acc10 V c (t.val - 1) (Nat.lt_of_le_of_lt (Nat.sub_le _ _) t.isLt)).2) := by
  obtain ⟨n, hn⟩ := t
  cases n with
  | zero => exact absurd rfl h
  | succ n => rfl

/-! ## The region invariant -/

/-- The two carried rows, as memrefs: whole scoped buffers of the call's own. -/
abbrev scM10_0 : Memref sig .tc .vmem S1x64 .f32 := Memref.whole cc10_scratch0
abbrev scM10_1 : Memref sig .tc .vmem S1x64 .f32 := Memref.whole cc10_scratch1

/-- Before point `n`: the generator register at some state and the core's other scoped buffers at anything; the
    two carried rows at anything before the first point, and afterwards at what the point before left (`acc10`). -/
def Phi10 (c : Dev nD) : (n : ℕ) → n ≤ cfg10.N → sProp 𝕄
  | 0, _ => iprop((∃ r, prngReg c r) ∗ Pipeline.scopedRest (Ix := Unit) (Name := ℕ) (U := UR sig nD τ) (Lvl := ℕ) spec10 c)
  | n + 1, hn => iprop((∃ r, prngReg c r)
      ∗ (owns (c : Thread nD τ) scM10_0 fullShare (acc10 V c n hn).1 ∗ owns (c : Thread nD τ) scM10_1 fullShare (acc10 V c n hn).2)
      ∗ Pipeline.scopedRestBut (Ix := Unit) (Name := ℕ) (U := UR sig nD τ) (Lvl := ℕ) spec10 c [cc10_scratch0, cc10_scratch1])

omit V in
/-- What the region is entered with, the two carried rows split out of the core's scoped buffers. -/
theorem Phi10_entry (c : Dev nD) :
    (iprop((∃ r, prngReg c r) ∗ Pipeline.scopedRest (Ix := Unit) (Name := ℕ) (U := UR sig nD τ) (Lvl := ℕ) spec10 c) : sProp 𝕄)
      = iprop((∃ r, prngReg c r)
      ∗ ((∃ a, owns (c : Thread nD τ) scM10_0 fullShare a) ∗ (∃ a, owns (c : Thread nD τ) scM10_1 fullShare a))
      ∗ Pipeline.scopedRestBut (Ix := Unit) (Name := ℕ) (U := UR sig nD τ) (Lvl := ℕ) spec10 c [cc10_scratch0, cc10_scratch1]) := by
  rw [scopedRest10_split]; simp only [scM10_0, scM10_1, owns_whole]; try rfl

theorem Phi10_zero (c : Dev nD) (n : ℕ) (h : n ≤ cfg10.N) (hz : n = 0) :
    Phi10 V c n h = iprop((∃ r, prngReg c r)
      ∗ ((∃ a, owns (c : Thread nD τ) scM10_0 fullShare a) ∗ (∃ a, owns (c : Thread nD τ) scM10_1 fullShare a))
      ∗ Pipeline.scopedRestBut (Ix := Unit) (Name := ℕ) (U := UR sig nD τ) (Lvl := ℕ) spec10 c [cc10_scratch0, cc10_scratch1]) := by
  subst hz
  exact Phi10_entry c

theorem Phi10_succ (c : Dev nD) (n : ℕ) (hn : n < cfg10.N) :
    Phi10 V c (n + 1) hn = iprop((∃ r, prngReg c r)
      ∗ (owns (c : Thread nD τ) scM10_0 fullShare (acc10 V c n hn).1 ∗ owns (c : Thread nD τ) scM10_1 fullShare (acc10 V c n hn).2)
      ∗ Pipeline.scopedRestBut (Ix := Unit) (Name := ℕ) (U := UR sig nD τ) (Lvl := ℕ) spec10 c [cc10_scratch0, cc10_scratch1]) := rfl

theorem Phi10_pos (c : Dev nD) (n : ℕ) (h : n ≤ cfg10.N) (hz : n ≠ 0) :
    Phi10 V c n h = iprop((∃ r, prngReg c r)
      ∗ (owns (c : Thread nD τ) scM10_0 fullShare (acc10 V c (n - 1) (by omega)).1 ∗ owns (c : Thread nD τ) scM10_1 fullShare (acc10 V c (n - 1) (by omega)).2)
      ∗ Pipeline.scopedRestBut (Ix := Unit) (Name := ℕ) (U := UR sig nD τ) (Lvl := ℕ) spec10 c [cc10_scratch0, cc10_scratch1]) := by
  cases n with
  | zero => exact absurd rfl hz
  | succ n => rfl

/-! ## The pipeline's proof data -/

/-- The proof data of this pipeline on core `c`: the arrays as the region finds them (`V`); after the body at point
    `t` the tile's and the bias row's buffers at their blocks, the output tile's at their row-broadcast sum, the two
    one-row outputs' at the carried rows after `t` (consulted at the last point only: elsewhere the body does not
    touch them); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (iblk10 V c 0 t) (iblk10 V c 1 t)
    | ⟨3, _⟩ => (acc10 V c t.val t.isLt).1
    | ⟨4, _⟩ => (acc10 V c t.val t.isLt).2
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem owed10 (c : Dev nD) (t : Fin (cfg10.N + 1)) : (dat10 V c).owed t = 0 := rfl
theorem share10 (c : Dev nD) (w : Fin cfg10.W) : (dat10 V c).q w = fullShare := rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (iblk10 V c 0 t) (iblk10 V c 1 t) := by dsimp only [dat10]
theorem after10_3 (c : Dev nD) (t : Fin cfg10.N) : (dat10 V c).after 3 t = (acc10 V c t.val t.isLt).1 := by dsimp only [dat10]
theorem after10_4 (c : Dev nD) (t : Fin cfg10.N) : (dat10 V c).after 4 t = (acc10 V c t.val t.isLt).2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

theorem Phi10_castSucc (c : Dev nD) (t : Fin cfg10.N) :
    (dat10 V c).Φ t.castSucc = Phi10 V c t.val (Nat.le_of_lt t.isLt) := by
  dsimp only [dat10]; simp only [Fin.coe_castSucc]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

/-- The body at any point. The tile's and the bias row's buffers hold their blocks; the closed forms of the two
    conditions say whether the point is the first, the last or neither, and the matching whole-body run applies. The
    invariant hands the body the carried rows — at anything before the first point, else at what the point before
    left — and takes them back at this point's contents; before the last point the one-row outputs' buffers are
    handed back as found, at the last they hold the carried rows. The core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
      unfold Dat.leavesExact; rw [live10_0 t], after10_0]
  rw [show (dat10 V c).leavesExact 1 t = owns (c : Thread nD τ) (st10_1 t) fullShare ((dat10 V c).after 1 t) from by
      unfold Dat.leavesExact; rw [live10_1 t], after10_1]
  rw [show (dat10 V c).leavesExact 2 t = owns (c : Thread nD τ) (st10_2 t) fullShare ((dat10 V c).after 2 t) from by
      unfold Dat.leavesExact; rw [live10_2 t], after10_2]
  have hN : t.val < 10 := lt_of_lt_of_eq t.isLt (show cfg10.N = 10 from N_10)
  by_cases h0 : t.val = 0
  · -- the first point
    have h1 : ¬t.val = 9 := by omega
    have hc0 : cond10_0 (grid10.coords t) := (hcond10_0 t).mpr h0
    have hc1 : ¬cond10_1 (grid10.coords t) := fun h => h1 ((hcond10_1 t).mp h)
    rw [Dat.leavesExact_idle (dat10 V c) 3 t (idle10_3 t hc1) (noFlush10_3 t hc1),
      Dat.leavesExact_idle (dat10 V c) 4 t (idle10_4 t hc1) (noFlush10_4 t hc1)]
    rw [Phi10_castSucc V c t, Phi10_zero V c _ _ h0, acc10_first V c t h0]
    iintro ⟨⟨Hg, ⟨HS0, HS1⟩, Hr⟩, Ho, ⟨%d0, H0⟩, ⟨%d1, H1⟩, ⟨%d2, H2⟩, ⟨%d3, H3⟩, ⟨%d4, H4⟩⟩
    iapply (run10_first c Set.univ (grid10.coords t) hc0 hc1 _ _ _ _ _ _ _ _ _ _ _ _ _ _ (iblk10 V c 0 t) (iblk10 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexact H2
    isplitl [H3]; · iexists d3; iexact H3
    iexists d4; iexact H4
  · by_cases h1 : t.val = 9
    · -- the last point
      have hc0 : ¬cond10_0 (grid10.coords t) := fun h => h0 ((hcond10_0 t).mp h)
      have hc1 : cond10_1 (grid10.coords t) := (hcond10_1 t).mpr h1
      rw [show (dat10 V c).leavesExact 3 t = owns (c : Thread nD τ) (st10_3 t) fullShare ((dat10 V c).after 3 t) from by
        unfold Dat.leavesExact; rw [live10_3 t hc1], after10_3]
      rw [show (dat10 V c).leavesExact 4 t = owns (c : Thread nD τ) (st10_4 t) fullShare ((dat10 V c).after 4 t) from by
        unfold Dat.leavesExact; rw [live10_4 t hc1], after10_4]
      rw [Phi10_castSucc V c t, Phi10_pos V c _ _ h0, acc10_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run10_last c Set.univ (grid10.coords t) hc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexact H3
      iexact H4
    · -- a point between
      have hc0 : ¬cond10_0 (grid10.coords t) := fun h => h0 ((hcond10_0 t).mp h)
      have hc1 : ¬cond10_1 (grid10.coords t) := fun h => h1 ((hcond10_1 t).mp h)
      rw [Dat.leavesExact_idle (dat10 V c) 3 t (idle10_3 t hc1) (noFlush10_3 t hc1),
        Dat.leavesExact_idle (dat10 V c) 4 t (idle10_4 t hc1) (noFlush10_4 t hc1)]
      rw [Phi10_castSucc V c t, Phi10_pos V c _ _ h0, acc10_next V c t h0]
      iintro ⟨⟨Hg, ⟨HS0, HS1⟩, Hr⟩, Ho, ⟨%d0, H0⟩, ⟨%d1, H1⟩, ⟨%d2, H2⟩, ⟨%d3, H3⟩, ⟨%d4, H4⟩⟩
      iapply (run10_mid c Set.univ (grid10.coords t) hc0 hc1 _ _ _ _ _ _ _ _ _ _ _ _ _ _ (iblk10 V c 0 t) (iblk10 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      isplitl [H3]; · iexists d3; iexact H3
      iexists d4; iexact H4

/-- The body obligation, at every point. -/
theorem body_obligation10 (c : Dev nD) : BodyObligation (dat10 (F := F) V c) (defs₀ (F := F)) Variants.none () Set.univ := fun t => by
  rw [bigSep_W10, bigSep_W10]
  exact sound_body10 V c t

/-- What the region is entered with is the invariant before the first point. -/
theorem hin10 (c : Dev nD) :
    iprop((∃ r, prngReg c r) ∗ Pipeline.scopedRest (Ix := Unit) (Name := ℕ) (U := UR sig nD τ) (Lvl := ℕ) spec10 c) ⊢ (dat10 V c).Φ 0 := by
  rw [show (dat10 V c).Φ 0 = Phi10 V c 0 (Nat.zero_le _) from rfl]
  exact Idealize.SL.BI.Entails.refl _

/-- After the last point the invariant gives it back: what the carried rows hold is forgotten. -/
theorem hout10 (c : Dev nD) :
    (dat10 V c).Φ (Fin.last cfg10.N) ⊢ iprop((∃ r, prngReg c r) ∗ Pipeline.scopedRest (Ix := Unit) (Name := ℕ) (U := UR sig nD τ) (Lvl := ℕ) spec10 c) := by
  rw [show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega),
    Phi10_entry c]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Hand

end
-- ==== Proof.KI.R11.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not (where it is not
    fetched the block index has not moved), for any proof data whose array is `V`'s and whose body leaves the block
    in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S1x64 := Rect.unit (s := S1x64) ![0, 0] S1x64.size inb_S1x64_S1x64_0_0
abbrev r11_2 : Rect S1x64 := Rect.unit (s := S1x64) ![0, 0] S1x64.size inb_S1x64_S1x64_0_0
abbrev r11_3 : Rect S5000x64 := Rect.unit (s := S5000x64) ![0, 0] S5000x64.size inb_S5000x64_S5000x64_0_0

/-! ## What the body leaves in the output window's buffer -/

/-- Window 3's staging buffer after the body, from the input windows' blocks: its one store. -/
def out11_3 (x0 : Vec F S5000x64 .f32) (x1 : Vec F S1x64 .f32) (x2 : Vec F S1x64 .f32) : Vec F S5000x64 .f32 :=
  View.canon [⟨r11_3, k11_pay1 (View.ld x0 r11_0) (View.ld x1 r11_1) (View.ld x2 r11_2)⟩]

/-- The store is of the whole buffer, so it covers it. -/
theorem cover11_3 (p0 : Vec F S5000x64 .f32) (y : S5000x64.Idx) :
    ∃ pc ∈ ([⟨r11_3, p0⟩] : List (View.Piece (Elt F) S5000x64 .f32)), y ∈ pc.1.set :=
  View.cover_of_tiled [⟨r11_3, p0⟩] S5000x64.size (by rfl) y

/-! ## The body's triple -/

set_option maxHeartbeats 400000 in
/-- The kernel body on whole staging memrefs, the inputs' at contents `x_w` and the output's at anything, runs to the
    continuation holding the inputs' as they were and the output's at `out11_3` of the inputs'. -/
theorem sound_kernel11 (c : Dev nD) (E : Set ℕ) (i : grid11.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2)) -∗ K ⟨⟩))
      ⊢ wp frame (wpE (defs₀ (F := F)) Variants.none c none) E (cc11__normalize_relu_kernel i arg0 harg0 arg1 harg1 arg2 harg2 arg3 harg3) K := by
  simp only [cc11__normalize_relu_kernel_eq_skeleton]; unfold cc11__normalize_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The pipeline's proof data -/

/-- The proof data of pipeline 11 on core `c`: the arrays as the region finds them (`V`); after the body at point `t`
    each input's buffer at its block and the output's at `out11_3` of the input blocks; the invariant: the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

theorem owed11 (c : Dev nD) (t) : (dat11 V c).owed t = 0 := rfl
theorem share11 (c : Dev nD) (w) : (dat11 V c).q w = fullShare := rfl

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The invariant at the region's ends -/

theorem hin11 (c : Dev nD) : iprop((∃ r, prngReg c r) ∗ Pipeline.scopedRest (Ix := Unit) (Name := ℕ) (U := UR sig nD τ) (Lvl := ℕ) spec11 c) ⊢ (dat11 V c).Φ 0 := by
  rw [show (dat11 V c).Φ 0 = Pipeline.ΦA spec11 c from rfl]; unfold Pipeline.ΦA
  iintro ⟨Hp, Hr⟩
  isplitl [Hr]; · iexact Hr
  iexact Hp

theorem hout11 (c : Dev nD) : (dat11 V c).Φ (Fin.last cfg11.N) ⊢ iprop((∃ r, prngReg c r) ∗ Pipeline.scopedRest (Ix := Unit) (Name := ℕ) (U := UR sig nD τ) (Lvl := ℕ) spec11 c) := by
  rw [show (dat11 V c).Φ (Fin.last _) = Pipeline.ΦA spec11 c from rfl]; unfold Pipeline.ΦA
  iintro ⟨Hr, Hp⟩
  isplitl [Hp]; · iexact Hp
  iexact Hr

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.R12.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12: the pipeline's proof data and the body's triple, at any float model

For the buffer contents `V` a region is entered with: each window's block at a grid point, what the body leaves in
the output window's buffer (its one store, over the input blocks), the body's triple, the proof data, and the body
obligation at every point. The body reads the output buffer once before it stores into it; the value read is not
used, so the triple holds from any contents of that buffer. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not (where it is not
    fetched the block index has not moved), for any proof data whose array is `V`'s and whose body leaves the block
    in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S1024x64 := Rect.unit (s := S1024x64) ![0, 0] S1024x64.size inb_S1024x64_S1024x64_0_0
abbrev r12_1 : Rect S64x64 := Rect.unit (s := S64x64) ![0, 0] S64x64.size inb_S64x64_S64x64_0_0
abbrev r12_2 : Rect S1x64 := Rect.unit (s := S1x64) ![0, 0] S1x64.size inb_S1x64_S1x64_0_0
abbrev r12_3 : Rect S64x64 := Rect.unit (s := S64x64) ![0, 0] S64x64.size inb_S64x64_S64x64_0_0
abbrev r12_4 : Rect S1x64 := Rect.unit (s := S1x64) ![0, 0] S1x64.size inb_S1x64_S1x64_0_0
abbrev r12_5 : Rect S64x1 := Rect.unit (s := S64x1) ![0, 0] S64x1.size inb_S64x1_S64x1_0_0
abbrev r12_6 : Rect S1x1 := Rect.unit (s := S1x1) ![0, 0] S1x1.size inb_S1x1_S1x1_0_0
abbrev r12_7 : Rect S1024x1 := Rect.unit (s := S1024x1) ![0, 0] S1024x1.size inb_S1024x1_S1024x1_0_0

/-! ## What the body leaves in the output window's buffer -/

/-- Window 7's staging buffer after the body, from the input windows' blocks: its one store. -/
def out12_7 (x0 : Vec F S1024x64 .f32) (x1 : Vec F S64x64 .f32) (x2 : Vec F S1x64 .f32) (x3 : Vec F S64x64 .f32) (x4 : Vec F S1x64 .f32) (x5 : Vec F S64x1 .f32) (x6 : Vec F S1x1 .f32) : Vec F S1024x1 .f32 :=
  View.canon [⟨r12_7, k12_pay1 (View.ld x0 r12_0) (View.ld x1 r12_1) (View.ld x2 r12_2) (View.ld x3 r12_3) (View.ld x4 r12_4) (View.ld x5 r12_5) (View.ld x6 r12_6)⟩]

/-- The store is of the whole buffer, so it covers it. -/
theorem cover12_7 (p0 : Vec F S1024x1 .f32) (y : S1024x1.Idx) :
    ∃ pc ∈ ([⟨r12_7, p0⟩] : List (View.Piece (Elt F) S1024x1 .f32)), y ∈ pc.1.set :=
  View.cover_of_tiled [⟨r12_7, p0⟩] S1024x1.size (by rfl) y

/-! ## The body's triple -/

set_option maxHeartbeats 400000 in
/-- The kernel body on whole staging memrefs, the inputs' at contents `x_w` and the output's at anything, runs to the
    continuation holding the inputs' as they were and the output's at `out12_7` of the inputs'. -/
theorem sound_kernel12 (c : Dev nD) (E : Set ℕ) (i : grid12.Coords)
    (arg0 : Memref sig .tc .vmem S1024x64 .f32) (harg0 : arg0.IsWhole)
    (arg1 : Memref sig .tc .vmem S64x64 .f32) (harg1 : arg1.IsWhole)
    (arg2 : Memref sig .tc .vmem S1x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x1 .f32) (harg5 : arg5.IsWhole)
    (arg6 : Memref sig .tc .vmem S1x1 .f32) (harg6 : arg6.IsWhole)
    (arg7 : Memref sig .tc .vmem S1024x1 .f32) (harg7 : arg7.IsWhole)
    (x0 : Vec F S1024x64 .f32) (x1 : Vec F S64x64 .f32) (x2 : Vec F S1x64 .f32) (x3 : Vec F S64x64 .f32) (x4 : Vec F S1x64 .f32) (x5 : Vec F S64x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out12_7 x0 x1 x2 x3 x4 x5 x6)) -∗ K ⟨⟩))
      ⊢ wp frame (wpE (defs₀ (F := F)) Variants.none c none) E (cc12__mlp_head_kernel i arg0 harg0 arg1 harg1 arg2 harg2 arg3 harg3 arg4 harg4 arg5 harg5 arg6 harg6 arg7 harg7) K := by
  simp only [cc12__mlp_head_kernel_eq_skeleton]; unfold cc12__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The pipeline's proof data -/

/-- The proof data of pipeline 12 on core `c`: the arrays as the region finds them (`V`); after the body at point `t`
    each input's buffer at its block and the output's at `out12_7` of the input blocks; the invariant: the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

theorem owed12 (c : Dev nD) (t) : (dat12 V c).owed t = 0 := rfl
theorem share12 (c : Dev nD) (w) : (dat12 V c).q w = fullShare := rfl

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The invariant at the region's ends -/

theorem hin12 (c : Dev nD) : iprop((∃ r, prngReg c r) ∗ Pipeline.scopedRest (Ix := Unit) (Name := ℕ) (U := UR sig nD τ) (Lvl := ℕ) spec12 c) ⊢ (dat12 V c).Φ 0 := by
  rw [show (dat12 V c).Φ 0 = Pipeline.ΦA spec12 c from rfl]; unfold Pipeline.ΦA
  iintro ⟨Hp, Hr⟩
  isplitl [Hr]; · iexact Hr
  iexact Hp

theorem hout12 (c : Dev nD) : (dat12 V c).Φ (Fin.last cfg12.N) ⊢ iprop((∃ r, prngReg c r) ∗ Pipeline.scopedRest (Ix := Unit) (Name := ℕ) (U := UR sig nD τ) (Lvl := ℕ) spec12 c) := by
  rw [show (dat12 V c).Φ (Fin.last _) = Pipeline.ΦA spec12 c from rfl]; unfold Pipeline.ΦA
  iintro ⟨Hr, Hp⟩
  isplitl [Hp]; · iexact Hp
  iexact Hr

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Family.lean ====
import proofs.«113306_j49254684950634_1_alg».proof.Proof.Gen.KernelIdeal.Launch
import proofs.«113306_j49254684950634_1_alg».proof.Proof.Gen.KernelIdeal.Skeleton
import proofs.«113306_j49254684950634_1_alg».proof.Proof.Gen.KernelIdeal.Points
import proofs.«113306_j49254684950634_1_alg».proof.Proof.Gen.KernelIdeal.Regions
import proofs.«113306_j49254684950634_1_alg».proof.Proof.KI.R0
import proofs.«113306_j49254684950634_1_alg».proof.Proof.KI.R1
import proofs.«113306_j49254684950634_1_alg».proof.Proof.KI.R2
import proofs.«113306_j49254684950634_1_alg».proof.Proof.KI.R3
import proofs.«113306_j49254684950634_1_alg».proof.Proof.KI.R4
import proofs.«113306_j49254684950634_1_alg».proof.Proof.KI.R5
import proofs.«113306_j49254684950634_1_alg».proof.Proof.KI.R6
import proofs.«113306_j49254684950634_1_alg».proof.Proof.KI.R7
import proofs.«113306_j49254684950634_1_alg».proof.Proof.KI.R8
import proofs.«113306_j49254684950634_1_alg».proof.Proof.KI.R9
import proofs.«113306_j49254684950634_1_alg».proof.Proof.KI.R10
import proofs.«113306_j49254684950634_1_alg».proof.Proof.KI.R11
import proofs.«113306_j49254684950634_1_alg».proof.Proof.KI.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev Vr (U : Dev nD → Valuation τ sig (Elt F)) : ((c : Dev nD) → (b : Ref sig .tc) → Buf (Elt F) ((c : Thread nD τ).loc b)) := fun c b => U c b

/-- The contents chosen for the regions' output arrays are what each region's write-backs leave, region by region. -/
structure Good : Prop where
  g0_2 : ∀ (c : Dev nD) (w : Fin cfg0.W), w = 2 → (dat0 (Vr (V1 m)) c).arrAt w cfg0.N = outs 2 (Pipeline.arrRef spec0 w) c
  g1_2 : ∀ (c : Dev nD) (w : Fin cfg1.W), w = 2 → (dat1 (Vr (V3 m outs)) c).arrAt w cfg1.N = outs 4 (Pipeline.arrRef spec1 w) c
  g1_3 : ∀ (c : Dev nD) (w : Fin cfg1.W), w = 3 → (dat1 (Vr (V3 m outs)) c).arrAt w cfg1.N = outs 4 (Pipeline.arrRef spec1 w) c
  g1_4 : ∀ (c : Dev nD) (w : Fin cfg1.W), w = 4 → (dat1 (Vr (V3 m outs)) c).arrAt w cfg1.N = outs 4 (Pipeline.arrRef spec1 w) c
  g2_3 : ∀ (c : Dev nD) (w : Fin cfg2.W), w = 3 → (dat2 (Vr (V5 m outs)) c).arrAt w cfg2.N = outs 6 (Pipeline.arrRef spec2 w) c
  g3_2 : ∀ (c : Dev nD) (w : Fin cfg3.W), w = 2 → (dat3 (Vr (V7 m outs)) c).arrAt w cfg3.N = outs 8 (Pipeline.arrRef spec3 w) c
  g4_2 : ∀ (c : Dev nD) (w : Fin cfg4.W), w = 2 → (dat4 (Vr (V9 m outs)) c).arrAt w cfg4.N = outs 10 (Pipeline.arrRef spec4 w) c
  g4_3 : ∀ (c : Dev nD) (w : Fin cfg4.W), w = 3 → (dat4 (Vr (V9 m outs)) c).arrAt w cfg4.N = outs 10 (Pipeline.arrRef spec4 w) c
  g4_4 : ∀ (c : Dev nD) (w : Fin cfg4.W), w = 4 → (dat4 (Vr (V9 m outs)) c).arrAt w cfg4.N = outs 10 (Pipeline.arrRef spec4 w) c
  g5_3 : ∀ (c : Dev nD) (w : Fin cfg5.W), w = 3 → (dat5 (Vr (V11 m outs)) c).arrAt w cfg5.N = outs 12 (Pipeline.arrRef spec5 w) c
  g6_2 : ∀ (c : Dev nD) (w : Fin cfg6.W), w = 2 → (dat6 (Vr (V13 m outs)) c).arrAt w cfg6.N = outs 14 (Pipeline.arrRef spec6 w) c
  g7_2 : ∀ (c : Dev nD) (w : Fin cfg7.W), w = 2 → (dat7 (Vr (V15 m outs)) c).arrAt w cfg7.N = outs 16 (Pipeline.arrRef spec7 w) c
  g7_3 : ∀ (c : Dev nD) (w : Fin cfg7.W), w = 3 → (dat7 (Vr (V15 m outs)) c).arrAt w cfg7.N = outs 16 (Pipeline.arrRef spec7 w) c
  g7_4 : ∀ (c : Dev nD) (w : Fin cfg7.W), w = 4 → (dat7 (Vr (V15 m outs)) c).arrAt w cfg7.N = outs 16 (Pipeline.arrRef spec7 w) c
  g8_3 : ∀ (c : Dev nD) (w : Fin cfg8.W), w = 3 → (dat8 (Vr (V17 m outs)) c).arrAt w cfg8.N = outs 18 (Pipeline.arrRef spec8 w) c
  g9_2 : ∀ (c : Dev nD) (w : Fin cfg9.W), w = 2 → (dat9 (Vr (V19 m outs)) c).arrAt w cfg9.N = outs 20 (Pipeline.arrRef spec9 w) c
  g10_2 : ∀ (c : Dev nD) (w : Fin cfg10.W), w = 2 → (dat10 (Vr (V21 m outs)) c).arrAt w cfg10.N = outs 22 (Pipeline.arrRef spec10 w) c
  g10_3 : ∀ (c : Dev nD) (w : Fin cfg10.W), w = 3 → (dat10 (Vr (V21 m outs)) c).arrAt w cfg10.N = outs 22 (Pipeline.arrRef spec10 w) c
  g10_4 : ∀ (c : Dev nD) (w : Fin cfg10.W), w = 4 → (dat10 (Vr (V21 m outs)) c).arrAt w cfg10.N = outs 22 (Pipeline.arrRef spec10 w) c
  g11_3 : ∀ (c : Dev nD) (w : Fin cfg11.W), w = 3 → (dat11 (Vr (V23 m outs)) c).arrAt w cfg11.N = outs 24 (Pipeline.arrRef spec11 w) c
  g12_7 : ∀ (c : Dev nD) (w : Fin cfg12.W), w = 7 → (dat12 (Vr (V25 m outs)) c).arrAt w cfg12.N = outs 26 (Pipeline.arrRef spec12 w) c

end Cert.KernelIdeal.Hand

end
-- ==== Proof.KI.Data.lean ====
import proofs.«113306_j49254684950634_1_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))
theorem V2_at_2 (c : Dev nD) (r : Ref sig .tc) (h : r = main_v38) : V2 m outs c r = outs 2 r c := by
  subst h
  unfold V2

  exact Function.update_self ..
theorem hF0_w0 (hg : Good m outs) (c : Dev nD) : (dat0 (Vr (V1 m)) c).arrAt (0 : Fin cfg0.W) cfg0.N = V2 m outs c (Pipeline.arrRef spec0 (0 : Fin cfg0.W)) :=
  ((dat0 (Vr (V1 m)) c).arrAt_in 0 rfl _).trans ((A_eq0 (Vr (V1 m)) c 0).trans (V2_of m outs c _ (by decide)).symm)
theorem hF0_w1 (hg : Good m outs) (c : Dev nD) : (dat0 (Vr (V1 m)) c).arrAt (1 : Fin cfg0.W) cfg0.N = V2 m outs c (Pipeline.arrRef spec0 (1 : Fin cfg0.W)) :=
  ((dat0 (Vr (V1 m)) c).arrAt_in 1 rfl _).trans ((A_eq0 (Vr (V1 m)) c 1).trans (V2_of m outs c _ (by decide)).symm)
theorem hF0_w2 (hg : Good m outs) (c : Dev nD) : (dat0 (Vr (V1 m)) c).arrAt (2 : Fin cfg0.W) cfg0.N = V2 m outs c (Pipeline.arrRef spec0 (2 : Fin cfg0.W)) :=
  (hg.g0_2 c _ rfl).trans (V2_at_2 m outs c _ rfl).symm
theorem hF0 (hg : Good m outs) (c : Dev nD) : ∀ w : Fin cfg0.W, (dat0 (Vr (V1 m)) c).arrAt w cfg0.N = V2 m outs c (Pipeline.arrRef spec0 w)
  | ⟨0, _⟩ => hF0_w0 m outs hg c
  | ⟨1, _⟩ => hF0_w1 m outs hg c
  | ⟨2, _⟩ => hF0_w2 m outs hg c
  | ⟨n + 3, h⟩ => absurd h (Nat.not_lt.2 (Nat.le_add_left _ _))

theorem hrest0 (c : Dev nD) : ∀ b, b ∉ Finset.univ.image (Pipeline.arrRef spec0) → V2 m outs c b = V1 m c b :=
  fun b hb => V2_of m outs c b fun h => by
    simp only [List.mem_cons, List.not_mem_nil, or_false] at h
    rcases h with rfl
    · exact hb (Finset.mem_image.mpr ⟨2, Finset.mem_univ _, rfl⟩)

theorem V4_at_2 (c : Dev nD) (r : Ref sig .tc) (h : r = main_v56_0) : V4 m outs c r = outs 4 r c := by
  subst h
  unfold V4
  rw [Function.update_of_ne (StableHlo.devRef_ne_of_ne (by decide : main_v56_0 ≠ main_v56_2))]
  rw [Function.update_of_ne (StableHlo.devRef_ne_of_ne (by decide : main_v56_0 ≠ main_v56_1))]
  exact Function.update_self ..
theorem V4_at_3 (c : Dev nD) (r : Ref sig .tc) (h : r = main_v56_1) : V4 m outs c r = outs 4 r c := by
  subst h
  unfold V4
  rw [Function.update_of_ne (StableHlo.devRef_ne_of_ne (by decide : main_v56_1 ≠ main_v56_2))]
  exact Function.update_self ..
theorem V4_at_4 (c : Dev nD) (r : Ref sig .tc) (h : r = main_v56_2) : V4 m outs c r = outs 4 r c := by
  subst h
  unfold V4

  exact Function.update_self ..
theorem hF1_w0 (hg : Good m outs) (c : Dev nD) : (dat1 (Vr (V3 m outs)) c).arrAt (0 : Fin cfg1.W) cfg1.N = V4 m outs c (Pipeline.arrRef spec1 (0 : Fin cfg1.W)) :=
  ((dat1 (Vr (V3 m outs)) c).arrAt_in 0 rfl _).trans ((A_eq1 (Vr (V3 m outs)) c 0).trans (V4_of m outs c _ (by decide)).symm)
theorem hF1_w1 (hg : Good m outs) (c : Dev nD) : (dat1 (Vr (V3 m outs)) c).arrAt (1 : Fin cfg1.W) cfg1.N = V4 m outs c (Pipeline.arrRef spec1 (1 : Fin cfg1.W)) :=
  ((dat1 (Vr (V3 m outs)) c).arrAt_in 1 rfl _).trans ((A_eq1 (Vr (V3 m outs)) c 1).trans (V4_of m outs c _ (by decide)).symm)
theorem hF1_w2 (hg : Good m outs) (c : Dev nD) : (dat1 (Vr (V3 m outs)) c).arrAt (2 : Fin cfg1.W) cfg1.N = V4 m outs c (Pipeline.arrRef spec1 (2 : Fin cfg1.W)) :=
  (hg.g1_2 c _ rfl).trans (V4_at_2 m outs c _ rfl).symm
theorem hF1_w3 (hg : Good m outs) (c : Dev nD) : (dat1 (Vr (V3 m outs)) c).arrAt (3 : Fin cfg1.W) cfg1.N = V4 m outs c (Pipeline.arrRef spec1 (3 : Fin cfg1.W)) :=
  (hg.g1_3 c _ rfl).trans (V4_at_3 m outs c _ rfl).symm
theorem hF1_w4 (hg : Good m outs) (c : Dev nD) : (dat1 (Vr (V3 m outs)) c).arrAt (4 : Fin cfg1.W) cfg1.N = V4 m outs c (Pipeline.arrRef spec1 (4 : Fin cfg1.W)) :=
  (hg.g1_4 c _ rfl).trans (V4_at_4 m outs c _ rfl).symm
theorem hF1 (hg : Good m outs) (c : Dev nD) : ∀ w : Fin cfg1.W, (dat1 (Vr (V3 m outs)) c).arrAt w cfg1.N = V4 m outs c (Pipeline.arrRef spec1 w)
  | ⟨0, _⟩ => hF1_w0 m outs hg c
  | ⟨1, _⟩ => hF1_w1 m outs hg c
  | ⟨2, _⟩ => hF1_w2 m outs hg c
  | ⟨3, _⟩ => hF1_w3 m outs hg c
  | ⟨4, _⟩ => hF1_w4 m outs hg c
  | ⟨n + 5, h⟩ => absurd h (Nat.not_lt.2 (Nat.le_add_left _ _))

theorem hrest1 (c : Dev nD) : ∀ b, b ∉ Finset.univ.image (Pipeline.arrRef spec1) → V4 m outs c b = V3 m outs c b :=
  fun b hb => V4_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V6_at_3 (c : Dev nD) (r : Ref sig .tc) (h : r = main_v69) : V6 m outs c r = outs 6 r c := by
  subst h
  unfold V6

  exact Function.update_self ..
theorem hF2_w0 (hg : Good m outs) (c : Dev nD) : (dat2 (Vr (V5 m outs)) c).arrAt (0 : Fin cfg2.W) cfg2.N = V6 m outs c (Pipeline.arrRef spec2 (0 : Fin cfg2.W)) :=
  ((dat2 (Vr (V5 m outs)) c).arrAt_in 0 rfl _).trans ((A_eq2 (Vr (V5 m outs)) c 0).trans (V6_of m outs c _ (by decide)).symm)
theorem hF2_w1 (hg : Good m outs) (c : Dev nD) : (dat2 (Vr (V5 m outs)) c).arrAt (1 : Fin cfg2.W) cfg2.N = V6 m outs c (Pipeline.arrRef spec2 (1 : Fin cfg2.W)) :=
  ((dat2 (Vr (V5 m outs)) c).arrAt_in 1 rfl _).trans ((A_eq2 (Vr (V5 m outs)) c 1).trans (V6_of m outs c _ (by decide)).symm)
theorem hF2_w2 (hg : Good m outs) (c : Dev nD) : (dat2 (Vr (V5 m outs)) c).arrAt (2 : Fin cfg2.W) cfg2.N = V6 m outs c (Pipeline.arrRef spec2 (2 : Fin cfg2.W)) :=
  ((dat2 (Vr (V5 m outs)) c).arrAt_in 2 rfl _).trans ((A_eq2 (Vr (V5 m outs)) c 2).trans (V6_of m outs c _ (by decide)).symm)
theorem hF2_w3 (hg : Good m outs) (c : Dev nD) : (dat2 (Vr (V5 m outs)) c).arrAt (3 : Fin cfg2.W) cfg2.N = V6 m outs c (Pipeline.arrRef spec2 (3 : Fin cfg2.W)) :=
  (hg.g2_3 c _ rfl).trans (V6_at_3 m outs c _ rfl).symm
theorem hF2 (hg : Good m outs) (c : Dev nD) : ∀ w : Fin cfg2.W, (dat2 (Vr (V5 m outs)) c).arrAt w cfg2.N = V6 m outs c (Pipeline.arrRef spec2 w)
  | ⟨0, _⟩ => hF2_w0 m outs hg c
  | ⟨1, _⟩ => hF2_w1 m outs hg c
  | ⟨2, _⟩ => hF2_w2 m outs hg c
  | ⟨3, _⟩ => hF2_w3 m outs hg c
  | ⟨n + 4, h⟩ => absurd h (Nat.not_lt.2 (Nat.le_add_left _ _))

theorem hrest2 (c : Dev nD) : ∀ b, b ∉ Finset.univ.image (Pipeline.arrRef spec2) → V6 m outs c b = V5 m outs c b :=
  fun b hb => V6_of m outs c b fun h => by
    simp only [List.mem_cons, List.not_mem_nil, or_false] at h
    rcases h with rfl
    · exact hb (Finset.mem_image.mpr ⟨3, Finset.mem_univ _, rfl⟩)

theorem V8_at_2 (c : Dev nD) (r : Ref sig .tc) (h : r = main_v81) : V8 m outs c r = outs 8 r c := by
  subst h
  unfold V8

  exact Function.update_self ..
theorem hF3_w0 (hg : Good m outs) (c : Dev nD) : (dat3 (Vr (V7 m outs)) c).arrAt (0 : Fin cfg3.W) cfg3.N = V8 m outs c (Pipeline.arrRef spec3 (0 : Fin cfg3.W)) :=
  ((dat3 (Vr (V7 m outs)) c).arrAt_in 0 rfl _).trans ((A_eq3 (Vr (V7 m outs)) c 0).trans (V8_of m outs c _ (by decide)).symm)
theorem hF3_w1 (hg : Good m outs) (c : Dev nD) : (dat3 (Vr (V7 m outs)) c).arrAt (1 : Fin cfg3.W) cfg3.N = V8 m outs c (Pipeline.arrRef spec3 (1 : Fin cfg3.W)) :=
  ((dat3 (Vr (V7 m outs)) c).arrAt_in 1 rfl _).trans ((A_eq3 (Vr (V7 m outs)) c 1).trans (V8_of m outs c _ (by decide)).symm)
theorem hF3_w2 (hg : Good m outs) (c : Dev nD) : (dat3 (Vr (V7 m outs)) c).arrAt (2 : Fin cfg3.W) cfg3.N = V8 m outs c (Pipeline.arrRef spec3 (2 : Fin cfg3.W)) :=
  (hg.g3_2 c _ rfl).trans (V8_at_2 m outs c _ rfl).symm
theorem hF3 (hg : Good m outs) (c : Dev nD) : ∀ w : Fin cfg3.W, (dat3 (Vr (V7 m outs)) c).arrAt w cfg3.N = V8 m outs c (Pipeline.arrRef spec3 w)
  | ⟨0, _⟩ => hF3_w0 m outs hg c
  | ⟨1, _⟩ => hF3_w1 m outs hg c
  | ⟨2, _⟩ => hF3_w2 m outs hg c
  | ⟨n + 3, h⟩ => absurd h (Nat.not_lt.2 (Nat.le_add_left _ _))

theorem hrest3 (c : Dev nD) : ∀ b, b ∉ Finset.univ.image (Pipeline.arrRef spec3) → V8 m outs c b = V7 m outs c b :=
  fun b hb => V8_of m outs c b fun h => by
    simp only [List.mem_cons, List.not_mem_nil, or_false] at h
    rcases h with rfl
    · exact hb (Finset.mem_image.mpr ⟨2, Finset.mem_univ _, rfl⟩)

theorem V10_at_2 (c : Dev nD) (r : Ref sig .tc) (h : r = main_v99_0) : V10 m outs c r = outs 10 r c := by
  subst h
  unfold V10
  rw [Function.update_of_ne (StableHlo.devRef_ne_of_ne (by decide : main_v99_0 ≠ main_v99_2))]
  rw [Function.update_of_ne (StableHlo.devRef_ne_of_ne (by decide : main_v99_0 ≠ main_v99_1))]
  exact Function.update_self ..
theorem V10_at_3 (c : Dev nD) (r : Ref sig .tc) (h : r = main_v99_1) : V10 m outs c r = outs 10 r c := by
  subst h
  unfold V10
  rw [Function.update_of_ne (StableHlo.devRef_ne_of_ne (by decide : main_v99_1 ≠ main_v99_2))]
  exact Function.update_self ..
theorem V10_at_4 (c : Dev nD) (r : Ref sig .tc) (h : r = main_v99_2) : V10 m outs c r = outs 10 r c := by
  subst h
  unfold V10

  exact Function.update_self ..
theorem hF4_w0 (hg : Good m outs) (c : Dev nD) : (dat4 (Vr (V9 m outs)) c).arrAt (0 : Fin cfg4.W) cfg4.N = V10 m outs c (Pipeline.arrRef spec4 (0 : Fin cfg4.W)) :=
  ((dat4 (Vr (V9 m outs)) c).arrAt_in 0 rfl _).trans ((A_eq4 (Vr (V9 m outs)) c 0).trans (V10_of m outs c _ (by decide)).symm)
theorem hF4_w1 (hg : Good m outs) (c : Dev nD) : (dat4 (Vr (V9 m outs)) c).arrAt (1 : Fin cfg4.W) cfg4.N = V10 m outs c (Pipeline.arrRef spec4 (1 : Fin cfg4.W)) :=
  ((dat4 (Vr (V9 m outs)) c).arrAt_in 1 rfl _).trans ((A_eq4 (Vr (V9 m outs)) c 1).trans (V10_of m outs c _ (by decide)).symm)
theorem hF4_w2 (hg : Good m outs) (c : Dev nD) : (dat4 (Vr (V9 m outs)) c).arrAt (2 : Fin cfg4.W) cfg4.N = V10 m outs c (Pipeline.arrRef spec4 (2 : Fin cfg4.W)) :=
  (hg.g4_2 c _ rfl).trans (V10_at_2 m outs c _ rfl).symm
theorem hF4_w3 (hg : Good m outs) (c : Dev nD) : (dat4 (Vr (V9 m outs)) c).arrAt (3 : Fin cfg4.W) cfg4.N = V10 m outs c (Pipeline.arrRef spec4 (3 : Fin cfg4.W)) :=
  (hg.g4_3 c _ rfl).trans (V10_at_3 m outs c _ rfl).symm
theorem hF4_w4 (hg : Good m outs) (c : Dev nD) : (dat4 (Vr (V9 m outs)) c).arrAt (4 : Fin cfg4.W) cfg4.N = V10 m outs c (Pipeline.arrRef spec4 (4 : Fin cfg4.W)) :=
  (hg.g4_4 c _ rfl).trans (V10_at_4 m outs c _ rfl).symm
theorem hF4 (hg : Good m outs) (c : Dev nD) : ∀ w : Fin cfg4.W, (dat4 (Vr (V9 m outs)) c).arrAt w cfg4.N = V10 m outs c (Pipeline.arrRef spec4 w)
  | ⟨0, _⟩ => hF4_w0 m outs hg c
  | ⟨1, _⟩ => hF4_w1 m outs hg c
  | ⟨2, _⟩ => hF4_w2 m outs hg c
  | ⟨3, _⟩ => hF4_w3 m outs hg c
  | ⟨4, _⟩ => hF4_w4 m outs hg c
  | ⟨n + 5, h⟩ => absurd h (Nat.not_lt.2 (Nat.le_add_left _ _))

theorem hrest4 (c : Dev nD) : ∀ b, b ∉ Finset.univ.image (Pipeline.arrRef spec4) → V10 m outs c b = V9 m outs c b :=
  fun b hb => V10_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V12_at_3 (c : Dev nD) (r : Ref sig .tc) (h : r = main_v112) : V12 m outs c r = outs 12 r c := by
  subst h
  unfold V12

  exact Function.update_self ..
theorem hF5_w0 (hg : Good m outs) (c : Dev nD) : (dat5 (Vr (V11 m outs)) c).arrAt (0 : Fin cfg5.W) cfg5.N = V12 m outs c (Pipeline.arrRef spec5 (0 : Fin cfg5.W)) :=
  ((dat5 (Vr (V11 m outs)) c).arrAt_in 0 rfl _).trans ((A_eq5 (Vr (V11 m outs)) c 0).trans (V12_of m outs c _ (by decide)).symm)
theorem hF5_w1 (hg : Good m outs) (c : Dev nD) : (dat5 (Vr (V11 m outs)) c).arrAt (1 : Fin cfg5.W) cfg5.N = V12 m outs c (Pipeline.arrRef spec5 (1 : Fin cfg5.W)) :=
  ((dat5 (Vr (V11 m outs)) c).arrAt_in 1 rfl _).trans ((A_eq5 (Vr (V11 m outs)) c 1).trans (V12_of m outs c _ (by decide)).symm)
theorem hF5_w2 (hg : Good m outs) (c : Dev nD) : (dat5 (Vr (V11 m outs)) c).arrAt (2 : Fin cfg5.W) cfg5.N = V12 m outs c (Pipeline.arrRef spec5 (2 : Fin cfg5.W)) :=
  ((dat5 (Vr (V11 m outs)) c).arrAt_in 2 rfl _).trans ((A_eq5 (Vr (V11 m outs)) c 2).trans (V12_of m outs c _ (by decide)).symm)
theorem hF5_w3 (hg : Good m outs) (c : Dev nD) : (dat5 (Vr (V11 m outs)) c).arrAt (3 : Fin cfg5.W) cfg5.N = V12 m outs c (Pipeline.arrRef spec5 (3 : Fin cfg5.W)) :=
  (hg.g5_3 c _ rfl).trans (V12_at_3 m outs c _ rfl).symm
theorem hF5 (hg : Good m outs) (c : Dev nD) : ∀ w : Fin cfg5.W, (dat5 (Vr (V11 m outs)) c).arrAt w cfg5.N = V12 m outs c (Pipeline.arrRef spec5 w)
  | ⟨0, _⟩ => hF5_w0 m outs hg c
  | ⟨1, _⟩ => hF5_w1 m outs hg c
  | ⟨2, _⟩ => hF5_w2 m outs hg c
  | ⟨3, _⟩ => hF5_w3 m outs hg c
  | ⟨n + 4, h⟩ => absurd h (Nat.not_lt.2 (Nat.le_add_left _ _))

theorem hrest5 (c : Dev nD) : ∀ b, b ∉ Finset.univ.image (Pipeline.arrRef spec5) → V12 m outs c b = V11 m outs c b :=
  fun b hb => V12_of m outs c b fun h => by
    simp only [List.mem_cons, List.not_mem_nil, or_false] at h
    rcases h with rfl
    · exact hb (Finset.mem_image.mpr ⟨3, Finset.mem_univ _, rfl⟩)

theorem V14_at_2 (c : Dev nD) (r : Ref sig .tc) (h : r = main_v124) : V14 m outs c r = outs 14 r c := by
  subst h
  unfold V14

  exact Function.update_self ..
theorem hF6_w0 (hg : Good m outs) (c : Dev nD) : (dat6 (Vr (V13 m outs)) c).arrAt (0 : Fin cfg6.W) cfg6.N = V14 m outs c (Pipeline.arrRef spec6 (0 : Fin cfg6.W)) :=
  ((dat6 (Vr (V13 m outs)) c).arrAt_in 0 rfl _).trans ((A_eq6 (Vr (V13 m outs)) c 0).trans (V14_of m outs c _ (by decide)).symm)
theorem hF6_w1 (hg : Good m outs) (c : Dev nD) : (dat6 (Vr (V13 m outs)) c).arrAt (1 : Fin cfg6.W) cfg6.N = V14 m outs c (Pipeline.arrRef spec6 (1 : Fin cfg6.W)) :=
  ((dat6 (Vr (V13 m outs)) c).arrAt_in 1 rfl _).trans ((A_eq6 (Vr (V13 m outs)) c 1).trans (V14_of m outs c _ (by decide)).symm)
theorem hF6_w2 (hg : Good m outs) (c : Dev nD) : (dat6 (Vr (V13 m outs)) c).arrAt (2 : Fin cfg6.W) cfg6.N = V14 m outs c (Pipeline.arrRef spec6 (2 : Fin cfg6.W)) :=
  (hg.g6_2 c _ rfl).trans (V14_at_2 m outs c _ rfl).symm
theorem hF6 (hg : Good m outs) (c : Dev nD) : ∀ w : Fin cfg6.W, (dat6 (Vr (V13 m outs)) c).arrAt w cfg6.N = V14 m outs c (Pipeline.arrRef spec6 w)
  | ⟨0, _⟩ => hF6_w0 m outs hg c
  | ⟨1, _⟩ => hF6_w1 m outs hg c
  | ⟨2, _⟩ => hF6_w2 m outs hg c
  | ⟨n + 3, h⟩ => absurd h (Nat.not_lt.2 (Nat.le_add_left _ _))

theorem hrest6 (c : Dev nD) : ∀ b, b ∉ Finset.univ.image (Pipeline.arrRef spec6) → V14 m outs c b = V13 m outs c b :=
  fun b hb => V14_of m outs c b fun h => by
    simp only [List.mem_cons, List.not_mem_nil, or_false] at h
    rcases h with rfl
    · exact hb (Finset.mem_image.mpr ⟨2, Finset.mem_univ _, rfl⟩)

theorem V16_at_2 (c : Dev nD) (r : Ref sig .tc) (h : r = main_v142_0) : V16 m outs c r = outs 16 r c := by
  subst h
  unfold V16
  rw [Function.update_of_ne (StableHlo.devRef_ne_of_ne (by decide : main_v142_0 ≠ main_v142_2))]
  rw [Function.update_of_ne (StableHlo.devRef_ne_of_ne (by decide : main_v142_0 ≠ main_v142_1))]
  exact Function.update_self ..
theorem V16_at_3 (c : Dev nD) (r : Ref sig .tc) (h : r = main_v142_1) : V16 m outs c r = outs 16 r c := by
  subst h
  unfold V16
  rw [Function.update_of_ne (StableHlo.devRef_ne_of_ne (by decide : main_v142_1 ≠ main_v142_2))]
  exact Function.update_self ..
theorem V16_at_4 (c : Dev nD) (r : Ref sig .tc) (h : r = main_v142_2) : V16 m outs c r = outs 16 r c := by
  subst h
  unfold V16

  exact Function.update_self ..
theorem hF7_w0 (hg : Good m outs) (c : Dev nD) : (dat7 (Vr (V15 m outs)) c).arrAt (0 : Fin cfg7.W) cfg7.N = V16 m outs c (Pipeline.arrRef spec7 (0 : Fin cfg7.W)) :=
  ((dat7 (Vr (V15 m outs)) c).arrAt_in 0 rfl _).trans ((A_eq7 (Vr (V15 m outs)) c 0).trans (V16_of m outs c _ (by decide)).symm)
theorem hF7_w1 (hg : Good m outs) (c : Dev nD) : (dat7 (Vr (V15 m outs)) c).arrAt (1 : Fin cfg7.W) cfg7.N = V16 m outs c (Pipeline.arrRef spec7 (1 : Fin cfg7.W)) :=
  ((dat7 (Vr (V15 m outs)) c).arrAt_in 1 rfl _).trans ((A_eq7 (Vr (V15 m outs)) c 1).trans (V16_of m outs c _ (by decide)).symm)
theorem hF7_w2 (hg : Good m outs) (c : Dev nD) : (dat7 (Vr (V15 m outs)) c).arrAt (2 : Fin cfg7.W) cfg7.N = V16 m outs c (Pipeline.arrRef spec7 (2 : Fin cfg7.W)) :=
  (hg.g7_2 c _ rfl).trans (V16_at_2 m outs c _ rfl).symm
theorem hF7_w3 (hg : Good m outs) (c : Dev nD) : (dat7 (Vr (V15 m outs)) c).arrAt (3 : Fin cfg7.W) cfg7.N = V16 m outs c (Pipeline.arrRef spec7 (3 : Fin cfg7.W)) :=
  (hg.g7_3 c _ rfl).trans (V16_at_3 m outs c _ rfl).symm
theorem hF7_w4 (hg : Good m outs) (c : Dev nD) : (dat7 (Vr (V15 m outs)) c).arrAt (4 : Fin cfg7.W) cfg7.N = V16 m outs c (Pipeline.arrRef spec7 (4 : Fin cfg7.W)) :=
  (hg.g7_4 c _ rfl).trans (V16_at_4 m outs c _ rfl).symm
theorem hF7 (hg : Good m outs) (c : Dev nD) : ∀ w : Fin cfg7.W, (dat7 (Vr (V15 m outs)) c).arrAt w cfg7.N = V16 m outs c (Pipeline.arrRef spec7 w)
  | ⟨0, _⟩ => hF7_w0 m outs hg c
  | ⟨1, _⟩ => hF7_w1 m outs hg c
  | ⟨2, _⟩ => hF7_w2 m outs hg c
  | ⟨3, _⟩ => hF7_w3 m outs hg c
  | ⟨4, _⟩ => hF7_w4 m outs hg c
  | ⟨n + 5, h⟩ => absurd h (Nat.not_lt.2 (Nat.le_add_left _ _))

theorem hrest7 (c : Dev nD) : ∀ b, b ∉ Finset.univ.image (Pipeline.arrRef spec7) → V16 m outs c b = V15 m outs c b :=
  fun b hb => V16_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V18_at_3 (c : Dev nD) (r : Ref sig .tc) (h : r = main_v155) : V18 m outs c r = outs 18 r c := by
  subst h
  unfold V18

  exact Function.update_self ..
theorem hF8_w0 (hg : Good m outs) (c : Dev nD) : (dat8 (Vr (V17 m outs)) c).arrAt (0 : Fin cfg8.W) cfg8.N = V18 m outs c (Pipeline.arrRef spec8 (0 : Fin cfg8.W)) :=
  ((dat8 (Vr (V17 m outs)) c).arrAt_in 0 rfl _).trans ((A_eq8 (Vr (V17 m outs)) c 0).trans (V18_of m outs c _ (by decide)).symm)
theorem hF8_w1 (hg : Good m outs) (c : Dev nD) : (dat8 (Vr (V17 m outs)) c).arrAt (1 : Fin cfg8.W) cfg8.N = V18 m outs c (Pipeline.arrRef spec8 (1 : Fin cfg8.W)) :=
  ((dat8 (Vr (V17 m outs)) c).arrAt_in 1 rfl _).trans ((A_eq8 (Vr (V17 m outs)) c 1).trans (V18_of m outs c _ (by decide)).symm)
theorem hF8_w2 (hg : Good m outs) (c : Dev nD) : (dat8 (Vr (V17 m outs)) c).arrAt (2 : Fin cfg8.W) cfg8.N = V18 m outs c (Pipeline.arrRef spec8 (2 : Fin cfg8.W)) :=
  ((dat8 (Vr (V17 m outs)) c).arrAt_in 2 rfl _).trans ((A_eq8 (Vr (V17 m outs)) c 2).trans (V18_of m outs c _ (by decide)).symm)
theorem hF8_w3 (hg : Good m outs) (c : Dev nD) : (dat8 (Vr (V17 m outs)) c).arrAt (3 : Fin cfg8.W) cfg8.N = V18 m outs c (Pipeline.arrRef spec8 (3 : Fin cfg8.W)) :=
  (hg.g8_3 c _ rfl).trans (V18_at_3 m outs c _ rfl).symm
theorem hF8 (hg : Good m outs) (c : Dev nD) : ∀ w : Fin cfg8.W, (dat8 (Vr (V17 m outs)) c).arrAt w cfg8.N = V18 m outs c (Pipeline.arrRef spec8 w)
  | ⟨0, _⟩ => hF8_w0 m outs hg c
  | ⟨1, _⟩ => hF8_w1 m outs hg c
  | ⟨2, _⟩ => hF8_w2 m outs hg c
  | ⟨3, _⟩ => hF8_w3 m outs hg c
  | ⟨n + 4, h⟩ => absurd h (Nat.not_lt.2 (Nat.le_add_left _ _))

theorem hrest8 (c : Dev nD) : ∀ b, b ∉ Finset.univ.image (Pipeline.arrRef spec8) → V18 m outs c b = V17 m outs c b :=
  fun b hb => V18_of m outs c b fun h => by
    simp only [List.mem_cons, List.not_mem_nil, or_false] at h
    rcases h with rfl
    · exact hb (Finset.mem_image.mpr ⟨3, Finset.mem_univ _, rfl⟩)

theorem V20_at_2 (c : Dev nD) (r : Ref sig .tc) (h : r = main_v167) : V20 m outs c r = outs 20 r c := by
  subst h
  unfold V20

  exact Function.update_self ..
theorem hF9_w0 (hg : Good m outs) (c : Dev nD) : (dat9 (Vr (V19 m outs)) c).arrAt (0 : Fin cfg9.W) cfg9.N = V20 m outs c (Pipeline.arrRef spec9 (0 : Fin cfg9.W)) :=
  ((dat9 (Vr (V19 m outs)) c).arrAt_in 0 rfl _).trans ((A_eq9 (Vr (V19 m outs)) c 0).trans (V20_of m outs c _ (by decide)).symm)
theorem hF9_w1 (hg : Good m outs) (c : Dev nD) : (dat9 (Vr (V19 m outs)) c).arrAt (1 : Fin cfg9.W) cfg9.N = V20 m outs c (Pipeline.arrRef spec9 (1 : Fin cfg9.W)) :=
  ((dat9 (Vr (V19 m outs)) c).arrAt_in 1 rfl _).trans ((A_eq9 (Vr (V19 m outs)) c 1).trans (V20_of m outs c _ (by decide)).symm)
theorem hF9_w2 (hg : Good m outs) (c : Dev nD) : (dat9 (Vr (V19 m outs)) c).arrAt (2 : Fin cfg9.W) cfg9.N = V20 m outs c (Pipeline.arrRef spec9 (2 : Fin cfg9.W)) :=
  (hg.g9_2 c _ rfl).trans (V20_at_2 m outs c _ rfl).symm
theorem hF9 (hg : Good m outs) (c : Dev nD) : ∀ w : Fin cfg9.W, (dat9 (Vr (V19 m outs)) c).arrAt w cfg9.N = V20 m outs c (Pipeline.arrRef spec9 w)
  | ⟨0, _⟩ => hF9_w0 m outs hg c
  | ⟨1, _⟩ => hF9_w1 m outs hg c
  | ⟨2, _⟩ => hF9_w2 m outs hg c
  | ⟨n + 3, h⟩ => absurd h (Nat.not_lt.2 (Nat.le_add_left _ _))

theorem hrest9 (c : Dev nD) : ∀ b, b ∉ Finset.univ.image (Pipeline.arrRef spec9) → V20 m outs c b = V19 m outs c b :=
  fun b hb => V20_of m outs c b fun h => by
    simp only [List.mem_cons, List.not_mem_nil, or_false] at h
    rcases h with rfl
    · exact hb (Finset.mem_image.mpr ⟨2, Finset.mem_univ _, rfl⟩)

theorem V22_at_2 (c : Dev nD) (r : Ref sig .tc) (h : r = main_v185_0) : V22 m outs c r = outs 22 r c := by
  subst h
  unfold V22
  rw [Function.update_of_ne (StableHlo.devRef_ne_of_ne (by decide : main_v185_0 ≠ main_v185_2))]
  rw [Function.update_of_ne (StableHlo.devRef_ne_of_ne (by decide : main_v185_0 ≠ main_v185_1))]
  exact Function.update_self ..
theorem V22_at_3 (c : Dev nD) (r : Ref sig .tc) (h : r = main_v185_1) : V22 m outs c r = outs 22 r c := by
  subst h
  unfold V22
  rw [Function.update_of_ne (StableHlo.devRef_ne_of_ne (by decide : main_v185_1 ≠ main_v185_2))]
  exact Function.update_self ..
theorem V22_at_4 (c : Dev nD) (r : Ref sig .tc) (h : r = main_v185_2) : V22 m outs c r = outs 22 r c := by
  subst h
  unfold V22

  exact Function.update_self ..
theorem hF10_w0 (hg : Good m outs) (c : Dev nD) : (dat10 (Vr (V21 m outs)) c).arrAt (0 : Fin cfg10.W) cfg10.N = V22 m outs c (Pipeline.arrRef spec10 (0 : Fin cfg10.W)) :=
  ((dat10 (Vr (V21 m outs)) c).arrAt_in 0 rfl _).trans ((A_eq10 (Vr (V21 m outs)) c 0).trans (V22_of m outs c _ (by decide)).symm)
theorem hF10_w1 (hg : Good m outs) (c : Dev nD) : (dat10 (Vr (V21 m outs)) c).arrAt (1 : Fin cfg10.W) cfg10.N = V22 m outs c (Pipeline.arrRef spec10 (1 : Fin cfg10.W)) :=
  ((dat10 (Vr (V21 m outs)) c).arrAt_in 1 rfl _).trans ((A_eq10 (Vr (V21 m outs)) c 1).trans (V22_of m outs c _ (by decide)).symm)
theorem hF10_w2 (hg : Good m outs) (c : Dev nD) : (dat10 (Vr (V21 m outs)) c).arrAt (2 : Fin cfg10.W) cfg10.N = V22 m outs c (Pipeline.arrRef spec10 (2 : Fin cfg10.W)) :=
  (hg.g10_2 c _ rfl).trans (V22_at_2 m outs c _ rfl).symm
theorem hF10_w3 (hg : Good m outs) (c : Dev nD) : (dat10 (Vr (V21 m outs)) c).arrAt (3 : Fin cfg10.W) cfg10.N = V22 m outs c (Pipeline.arrRef spec10 (3 : Fin cfg10.W)) :=
  (hg.g10_3 c _ rfl).trans (V22_at_3 m outs c _ rfl).symm
theorem hF10_w4 (hg : Good m outs) (c : Dev nD) : (dat10 (Vr (V21 m outs)) c).arrAt (4 : Fin cfg10.W) cfg10.N = V22 m outs c (Pipeline.arrRef spec10 (4 : Fin cfg10.W)) :=
  (hg.g10_4 c _ rfl).trans (V22_at_4 m outs c _ rfl).symm
theorem hF10 (hg : Good m outs) (c : Dev nD) : ∀ w : Fin cfg10.W, (dat10 (Vr (V21 m outs)) c).arrAt w cfg10.N = V22 m outs c (Pipeline.arrRef spec10 w)
  | ⟨0, _⟩ => hF10_w0 m outs hg c
  | ⟨1, _⟩ => hF10_w1 m outs hg c
  | ⟨2, _⟩ => hF10_w2 m outs hg c
  | ⟨3, _⟩ => hF10_w3 m outs hg c
  | ⟨4, _⟩ => hF10_w4 m outs hg c
  | ⟨n + 5, h⟩ => absurd h (Nat.not_lt.2 (Nat.le_add_left _ _))

theorem hrest10 (c : Dev nD) : ∀ b, b ∉ Finset.univ.image (Pipeline.arrRef spec10) → V22 m outs c b = V21 m outs c b :=
  fun b hb => V22_of m outs c b fun h => by
    simp only [List.mem_cons, List.not_mem_nil, or_false] at h
    rcases h with rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)

theorem V24_at_3 (c : Dev nD) (r : Ref sig .tc) (h : r = main_v198) : V24 m outs c r = outs 24 r c := by
  subst h
  unfold V24

  exact Function.update_self ..
theorem hF11_w0 (hg : Good m outs) (c : Dev nD) : (dat11 (Vr (V23 m outs)) c).arrAt (0 : Fin cfg11.W) cfg11.N = V24 m outs c (Pipeline.arrRef spec11 (0 : Fin cfg11.W)) :=
  ((dat11 (Vr (V23 m outs)) c).arrAt_in 0 rfl _).trans ((A_eq11 (Vr (V23 m outs)) c 0).trans (V24_of m outs c _ (by decide)).symm)
theorem hF11_w1 (hg : Good m outs) (c : Dev nD) : (dat11 (Vr (V23 m outs)) c).arrAt (1 : Fin cfg11.W) cfg11.N = V24 m outs c (Pipeline.arrRef spec11 (1 : Fin cfg11.W)) :=
  ((dat11 (Vr (V23 m outs)) c).arrAt_in 1 rfl _).trans ((A_eq11 (Vr (V23 m outs)) c 1).trans (V24_of m outs c _ (by decide)).symm)
theorem hF11_w2 (hg : Good m outs) (c : Dev nD) : (dat11 (Vr (V23 m outs)) c).arrAt (2 : Fin cfg11.W) cfg11.N = V24 m outs c (Pipeline.arrRef spec11 (2 : Fin cfg11.W)) :=
  ((dat11 (Vr (V23 m outs)) c).arrAt_in 2 rfl _).trans ((A_eq11 (Vr (V23 m outs)) c 2).trans (V24_of m outs c _ (by decide)).symm)
theorem hF11_w3 (hg : Good m outs) (c : Dev nD) : (dat11 (Vr (V23 m outs)) c).arrAt (3 : Fin cfg11.W) cfg11.N = V24 m outs c (Pipeline.arrRef spec11 (3 : Fin cfg11.W)) :=
  (hg.g11_3 c _ rfl).trans (V24_at_3 m outs c _ rfl).symm
theorem hF11 (hg : Good m outs) (c : Dev nD) : ∀ w : Fin cfg11.W, (dat11 (Vr (V23 m outs)) c).arrAt w cfg11.N = V24 m outs c (Pipeline.arrRef spec11 w)
  | ⟨0, _⟩ => hF11_w0 m outs hg c
  | ⟨1, _⟩ => hF11_w1 m outs hg c
  | ⟨2, _⟩ => hF11_w2 m outs hg c
  | ⟨3, _⟩ => hF11_w3 m outs hg c
  | ⟨n + 4, h⟩ => absurd h (Nat.not_lt.2 (Nat.le_add_left _ _))

theorem hrest11 (c : Dev nD) : ∀ b, b ∉ Finset.univ.image (Pipeline.arrRef spec11) → V24 m outs c b = V23 m outs c b :=
  fun b hb => V24_of m outs c b fun h => by
    simp only [List.mem_cons, List.not_mem_nil, or_false] at h
    rcases h with rfl
    · exact hb (Finset.mem_image.mpr ⟨3, Finset.mem_univ _, rfl⟩)

theorem V26_at_7 (c : Dev nD) (r : Ref sig .tc) (h : r = main_v205) : V26 m outs c r = outs 26 r c := by
  subst h
  unfold V26

  exact Function.update_self ..
theorem hF12_w0 (hg : Good m outs) (c : Dev nD) : (dat12 (Vr (V25 m outs)) c).arrAt (0 : Fin cfg12.W) cfg12.N = V26 m outs c (Pipeline.arrRef spec12 (0 : Fin cfg12.W)) :=
  ((dat12 (Vr (V25 m outs)) c).arrAt_in 0 rfl _).trans ((A_eq12 (Vr (V25 m outs)) c 0).trans (V26_of m outs c _ (by decide)).symm)
theorem hF12_w1 (hg : Good m outs) (c : Dev nD) : (dat12 (Vr (V25 m outs)) c).arrAt (1 : Fin cfg12.W) cfg12.N = V26 m outs c (Pipeline.arrRef spec12 (1 : Fin cfg12.W)) :=
  ((dat12 (Vr (V25 m outs)) c).arrAt_in 1 rfl _).trans ((A_eq12 (Vr (V25 m outs)) c 1).trans (V26_of m outs c _ (by decide)).symm)
theorem hF12_w2 (hg : Good m outs) (c : Dev nD) : (dat12 (Vr (V25 m outs)) c).arrAt (2 : Fin cfg12.W) cfg12.N = V26 m outs c (Pipeline.arrRef spec12 (2 : Fin cfg12.W)) :=
  ((dat12 (Vr (V25 m outs)) c).arrAt_in 2 rfl _).trans ((A_eq12 (Vr (V25 m outs)) c 2).trans (V26_of m outs c _ (by decide)).symm)
theorem hF12_w3 (hg : Good m outs) (c : Dev nD) : (dat12 (Vr (V25 m outs)) c).arrAt (3 : Fin cfg12.W) cfg12.N = V26 m outs c (Pipeline.arrRef spec12 (3 : Fin cfg12.W)) :=
  ((dat12 (Vr (V25 m outs)) c).arrAt_in 3 rfl _).trans ((A_eq12 (Vr (V25 m outs)) c 3).trans (V26_of m outs c _ (by decide)).symm)
theorem hF12_w4 (hg : Good m outs) (c : Dev nD) : (dat12 (Vr (V25 m outs)) c).arrAt (4 : Fin cfg12.W) cfg12.N = V26 m outs c (Pipeline.arrRef spec12 (4 : Fin cfg12.W)) :=
  ((dat12 (Vr (V25 m outs)) c).arrAt_in 4 rfl _).trans ((A_eq12 (Vr (V25 m outs)) c 4).trans (V26_of m outs c _ (by decide)).symm)
theorem hF12_w5 (hg : Good m outs) (c : Dev nD) : (dat12 (Vr (V25 m outs)) c).arrAt (5 : Fin cfg12.W) cfg12.N = V26 m outs c (Pipeline.arrRef spec12 (5 : Fin cfg12.W)) :=
  ((dat12 (Vr (V25 m outs)) c).arrAt_in 5 rfl _).trans ((A_eq12 (Vr (V25 m outs)) c 5).trans (V26_of m outs c _ (by decide)).symm)
theorem hF12_w6 (hg : Good m outs) (c : Dev nD) : (dat12 (Vr (V25 m outs)) c).arrAt (6 : Fin cfg12.W) cfg12.N = V26 m outs c (Pipeline.arrRef spec12 (6 : Fin cfg12.W)) :=
  ((dat12 (Vr (V25 m outs)) c).arrAt_in 6 rfl _).trans ((A_eq12 (Vr (V25 m outs)) c 6).trans (V26_of m outs c _ (by decide)).symm)
theorem hF12_w7 (hg : Good m outs) (c : Dev nD) : (dat12 (Vr (V25 m outs)) c).arrAt (7 : Fin cfg12.W) cfg12.N = V26 m outs c (Pipeline.arrRef spec12 (7 : Fin cfg12.W)) :=
  (hg.g12_7 c _ rfl).trans (V26_at_7 m outs c _ rfl).symm
theorem hF12 (hg : Good m outs) (c : Dev nD) : ∀ w : Fin cfg12.W, (dat12 (Vr (V25 m outs)) c).arrAt w cfg12.N = V26 m outs c (Pipeline.arrRef spec12 w)
  | ⟨0, _⟩ => hF12_w0 m outs hg c
  | ⟨1, _⟩ => hF12_w1 m outs hg c
  | ⟨2, _⟩ => hF12_w2 m outs hg c
  | ⟨3, _⟩ => hF12_w3 m outs hg c
  | ⟨4, _⟩ => hF12_w4 m outs hg c
  | ⟨5, _⟩ => hF12_w5 m outs hg c
  | ⟨6, _⟩ => hF12_w6 m outs hg c
  | ⟨7, _⟩ => hF12_w7 m outs hg c
  | ⟨n + 8, h⟩ => absurd h (Nat.not_lt.2 (Nat.le_add_left _ _))

theorem hrest12 (c : Dev nD) : ∀ b, b ∉ Finset.univ.image (Pipeline.arrRef spec12) → V26 m outs c b = V25 m outs c b :=
  fun b hb => V26_of m outs c b fun h => by
    simp only [List.mem_cons, List.not_mem_nil, or_false] at h
    rcases h with rfl
    · exact hb (Finset.mem_image.mpr ⟨7, Finset.mem_univ _, rfl⟩)

/-- No pipeline has a prefetched table. -/
abbrev adm : (p : Fin 13) → (pcfgs (F := F) p).Adm := fun p => (cfgs p).toPCfg_adm
/-- Every pipeline's proof data, each at the contents its region is entered with: a literal match, so that the
    configuration at a numeral reduces to the printed one. -/
def pdats : (p : Fin 13) → (c : Dev nD) → Dat τ (Elt F) Unit ℕ (UR sig nD τ) ℕ (cfgs p) c
  | ⟨0, _⟩ => fun c => dat0 (Vr (V1 m)) c
  | ⟨1, _⟩ => fun c => dat1 (Vr (V3 m outs)) c
  | ⟨2, _⟩ => fun c => dat2 (Vr (V5 m outs)) c
  | ⟨3, _⟩ => fun c => dat3 (Vr (V7 m outs)) c
  | ⟨4, _⟩ => fun c => dat4 (Vr (V9 m outs)) c
  | ⟨5, _⟩ => fun c => dat5 (Vr (V11 m outs)) c
  | ⟨6, _⟩ => fun c => dat6 (Vr (V13 m outs)) c
  | ⟨7, _⟩ => fun c => dat7 (Vr (V15 m outs)) c
  | ⟨8, _⟩ => fun c => dat8 (Vr (V17 m outs)) c
  | ⟨9, _⟩ => fun c => dat9 (Vr (V19 m outs)) c
  | ⟨10, _⟩ => fun c => dat10 (Vr (V21 m outs)) c
  | ⟨11, _⟩ => fun c => dat11 (Vr (V23 m outs)) c
  | ⟨12, _⟩ => fun c => dat12 (Vr (V25 m outs)) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.Seg0.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 0's proof data in the family is the region's own. -/
theorem pdats_0 (c : Dev nD) : pdats m outs 0 c = dat0 (Vr (V1 m)) c := rfl

set_option backward.isDefEq.respectTransparency.types false in
/-- Region 0 over the thread state: entered with every unscoped buffer at the contents before it, left with them at
    the contents after it; its windows' arrays are split out of the unscoped buffers and put back at what the
    write-backs leave; the generator register goes into the body's invariant and comes back; nothing is owed. -/
def reg0 (hg : Good m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (V1 m)) c).loose
  hwaits := Pipeline.hwaits_of_owed_zero _ _ _ _ L lv 0 fun c t => owed0 (Vr (V1 m)) c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun w => share0 (Vr (V1 m)) c w) (Vr (V1 m) c) fun w => A_eq0 (Vr (V1 m)) c w
    rw [Pipeline.unscopedBufs_held] at hsplit
    have e0 : (pdats m outs 0 c).owed 0 = 0 := owed0 (Vr (V1 m)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat0 (Vr (V1 m)) c).Φ 0
    iintro ⟨Hp, -, Hr⟩
    iapply (hin0 (Vr (V1 m)) c)
    isplitl [Hp]; · iexact Hp
    iexact Hr
  hout c := by
    rw [Pipeline.ownSems0_none]
    change (dat0 (Vr (V1 m)) c).Φ (Fin.last cfg0.N) ⊢ _
    iintro H
    ihave H' := (hout0 (Vr (V1 m)) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun w => share0 (Vr (V1 m)) c w)
      (Vr (V1 m) c) (Vr (V2 m outs) c) ((pdats m outs 0 c).arrAt · cfg0.N) (hF0 m outs hg c) (hrest0 m outs c)
    rw [Pipeline.unscopedBufs_held] at hjoin
    have eN : (pdats m outs 0 c).owed (Fin.last (Pipeline.pin (pcfgs (F := F)) adm 0).N) = 0 := owed0 (Vr (V1 m)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg1.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 1's proof data in the family is the region's own. -/
theorem pdats_1 (c : Dev nD) : pdats m outs 1 c = dat1 (Vr (V3 m outs)) c := rfl

set_option backward.isDefEq.respectTransparency.types false in
/-- Region 1 over the thread state: entered with every unscoped buffer at the contents before it, left with them at
    the contents after it; its windows' arrays are split out of the unscoped buffers and put back at what the
    write-backs leave; the generator register goes into the body's invariant and comes back; nothing is owed. -/
def reg1 (hg : Good m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (V3 m outs)) c).loose
  hwaits := Pipeline.hwaits_of_owed_zero _ _ _ _ L lv 1 fun c t => owed1 (Vr (V3 m outs)) c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (Vr (V3 m outs) c)
  hentry c := by
    rw [Pipeline.ownSems0_none]
    have hsplit := Pipeline.arrays_of_unscopedBufs (p := 1) (pcfgs (F := F)) adm (pdats m outs) launch1.win launch1.arr_whole c
      ((pdats m outs 1 c).share_full fun w => share1 (Vr (V3 m outs)) c w) (Vr (V3 m outs) c) fun w => A_eq1 (Vr (V3 m outs)) c w
    rw [Pipeline.unscopedBufs_held] at hsplit
    have e0 : (pdats m outs 1 c).owed 0 = 0 := owed1 (Vr (V3 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat1 (Vr (V3 m outs)) c).Φ 0
    iintro ⟨Hp, -, Hr⟩
    iapply (hin1 (Vr (V3 m outs)) c)
    isplitl [Hp]; · iexact Hp
    iexact Hr
  hout c := by
    rw [Pipeline.ownSems0_none]
    change (dat1 (Vr (V3 m outs)) c).Φ (Fin.last cfg1.N) ⊢ _
    iintro H
    ihave H' := (hout1 (Vr (V3 m outs)) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun w => share1 (Vr (V3 m outs)) c w)
      (Vr (V3 m outs) c) (Vr (V4 m outs) c) ((pdats m outs 1 c).arrAt · cfg1.N) (hF1 m outs hg c) (hrest1 m outs c)
    rw [Pipeline.unscopedBufs_held] at hjoin
    have eN : (pdats m outs 1 c).owed (Fin.last (Pipeline.pin (pcfgs (F := F)) adm 1).N) = 0 := owed1 (Vr (V3 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg2.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 2's proof data in the family is the region's own. -/
theorem pdats_2 (c : Dev nD) : pdats m outs 2 c = dat2 (Vr (V5 m outs)) c := rfl

set_option backward.isDefEq.respectTransparency.types false in
/-- Region 2 over the thread state: entered with every unscoped buffer at the contents before it, left with them at
    the contents after it; its windows' arrays are split out of the unscoped buffers and put back at what the
    write-backs leave; the generator register goes into the body's invariant and comes back; nothing is owed. -/
def reg2 (hg : Good m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (V5 m outs)) c).loose
  hwaits := Pipeline.hwaits_of_owed_zero _ _ _ _ L lv 2 fun c t => owed2 (Vr (V5 m outs)) c t
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (Vr (V5 m outs) c)
  hentry c := by
    rw [Pipeline.ownSems0_none]
    have hsplit := Pipeline.arrays_of_unscopedBufs (p := 2) (pcfgs (F := F)) adm (pdats m outs) launch2.win launch2.arr_whole c
      ((pdats m outs 2 c).share_full fun w => share2 (Vr (V5 m outs)) c w) (Vr (V5 m outs) c) fun w => A_eq2 (Vr (V5 m outs)) c w
    rw [Pipeline.unscopedBufs_held] at hsplit
    have e0 : (pdats m outs 2 c).owed 0 = 0 := owed2 (Vr (V5 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat2 (Vr (V5 m outs)) c).Φ 0
    iintro ⟨Hp, -, Hr⟩
    iapply (hin2 (Vr (V5 m outs)) c)
    isplitl [Hp]; · iexact Hp
    iexact Hr
  hout c := by
    rw [Pipeline.ownSems0_none]
    change (dat2 (Vr (V5 m outs)) c).Φ (Fin.last cfg2.N) ⊢ _
    iintro H
    ihave H' := (hout2 (Vr (V5 m outs)) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun w => share2 (Vr (V5 m outs)) c w)
      (Vr (V5 m outs) c) (Vr (V6 m outs) c) ((pdats m outs 2 c).arrAt · cfg2.N) (hF2 m outs hg c) (hrest2 m outs c)
    rw [Pipeline.unscopedBufs_held] at hjoin
    have eN : (pdats m outs 2 c).owed (Fin.last (Pipeline.pin (pcfgs (F := F)) adm 2).N) = 0 := owed2 (Vr (V5 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg3.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 3's proof data in the family is the region's own. -/
theorem pdats_3 (c : Dev nD) : pdats m outs 3 c = dat3 (Vr (V7 m outs)) c := rfl

set_option backward.isDefEq.respectTransparency.types false in
/-- Region 3 over the thread state: entered with every unscoped buffer at the contents before it, left with them at
    the contents after it; its windows' arrays are split out of the unscoped buffers and put back at what the
    write-backs leave; the generator register goes into the body's invariant and comes back; nothing is owed. -/
def reg3 (hg : Good m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (V7 m outs)) c).loose
  hwaits := Pipeline.hwaits_of_owed_zero _ _ _ _ L lv 3 fun c t => owed3 (Vr (V7 m outs)) c t
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (Vr (V7 m outs) c)
  hentry c := by
    rw [Pipeline.ownSems0_none]
    have hsplit := Pipeline.arrays_of_unscopedBufs (p := 3) (pcfgs (F := F)) adm (pdats m outs) launch3.win launch3.arr_whole c
      ((pdats m outs 3 c).share_full fun w => share3 (Vr (V7 m outs)) c w) (Vr (V7 m outs) c) fun w => A_eq3 (Vr (V7 m outs)) c w
    rw [Pipeline.unscopedBufs_held] at hsplit
    have e0 : (pdats m outs 3 c).owed 0 = 0 := owed3 (Vr (V7 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat3 (Vr (V7 m outs)) c).Φ 0
    iintro ⟨Hp, -, Hr⟩
    iapply (hin3 (Vr (V7 m outs)) c)
    isplitl [Hp]; · iexact Hp
    iexact Hr
  hout c := by
    rw [Pipeline.ownSems0_none]
    change (dat3 (Vr (V7 m outs)) c).Φ (Fin.last cfg3.N) ⊢ _
    iintro H
    ihave H' := (hout3 (Vr (V7 m outs)) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun w => share3 (Vr (V7 m outs)) c w)
      (Vr (V7 m outs) c) (Vr (V8 m outs) c) ((pdats m outs 3 c).arrAt · cfg3.N) (hF3 m outs hg c) (hrest3 m outs c)
    rw [Pipeline.unscopedBufs_held] at hjoin
    have eN : (pdats m outs 3 c).owed (Fin.last (Pipeline.pin (pcfgs (F := F)) adm 3).N) = 0 := owed3 (Vr (V7 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg4.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 4's proof data in the family is the region's own. -/
theorem pdats_4 (c : Dev nD) : pdats m outs 4 c = dat4 (Vr (V9 m outs)) c := rfl

set_option backward.isDefEq.respectTransparency.types false in
/-- Region 4 over the thread state: entered with every unscoped buffer at the contents before it, left with them at
    the contents after it; its windows' arrays are split out of the unscoped buffers and put back at what the
    write-backs leave; the generator register goes into the body's invariant and comes back; nothing is owed. -/
def reg4 (hg : Good m outs) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (V9 m outs)) c).loose
  hwaits := Pipeline.hwaits_of_owed_zero _ _ _ _ L lv 4 fun c t => owed4 (Vr (V9 m outs)) c t
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec4 c (Vr (V9 m outs) c)
  hentry c := by
    rw [Pipeline.ownSems0_none]
    have hsplit := Pipeline.arrays_of_unscopedBufs (p := 4) (pcfgs (F := F)) adm (pdats m outs) launch4.win launch4.arr_whole c
      ((pdats m outs 4 c).share_full fun w => share4 (Vr (V9 m outs)) c w) (Vr (V9 m outs) c) fun w => A_eq4 (Vr (V9 m outs)) c w
    rw [Pipeline.unscopedBufs_held] at hsplit
    have e0 : (pdats m outs 4 c).owed 0 = 0 := owed4 (Vr (V9 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat4 (Vr (V9 m outs)) c).Φ 0
    iintro ⟨Hp, -, Hr⟩
    iapply (hin4 (Vr (V9 m outs)) c)
    isplitl [Hp]; · iexact Hp
    iexact Hr
  hout c := by
    rw [Pipeline.ownSems0_none]
    change (dat4 (Vr (V9 m outs)) c).Φ (Fin.last cfg4.N) ⊢ _
    iintro H
    ihave H' := (hout4 (Vr (V9 m outs)) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun w => share4 (Vr (V9 m outs)) c w)
      (Vr (V9 m outs) c) (Vr (V10 m outs) c) ((pdats m outs 4 c).arrAt · cfg4.N) (hF4 m outs hg c) (hrest4 m outs c)
    rw [Pipeline.unscopedBufs_held] at hjoin
    have eN : (pdats m outs 4 c).owed (Fin.last (Pipeline.pin (pcfgs (F := F)) adm 4).N) = 0 := owed4 (Vr (V9 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg5.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 5's proof data in the family is the region's own. -/
theorem pdats_5 (c : Dev nD) : pdats m outs 5 c = dat5 (Vr (V11 m outs)) c := rfl

set_option backward.isDefEq.respectTransparency.types false in
/-- Region 5 over the thread state: entered with every unscoped buffer at the contents before it, left with them at
    the contents after it; its windows' arrays are split out of the unscoped buffers and put back at what the
    write-backs leave; the generator register goes into the body's invariant and comes back; nothing is owed. -/
def reg5 (hg : Good m outs) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (V11 m outs)) c).loose
  hwaits := Pipeline.hwaits_of_owed_zero _ _ _ _ L lv 5 fun c t => owed5 (Vr (V11 m outs)) c t
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec5 c (Vr (V11 m outs) c)
  hentry c := by
    rw [Pipeline.ownSems0_none]
    have hsplit := Pipeline.arrays_of_unscopedBufs (p := 5) (pcfgs (F := F)) adm (pdats m outs) launch5.win launch5.arr_whole c
      ((pdats m outs 5 c).share_full fun w => share5 (Vr (V11 m outs)) c w) (Vr (V11 m outs) c) fun w => A_eq5 (Vr (V11 m outs)) c w
    rw [Pipeline.unscopedBufs_held] at hsplit
    have e0 : (pdats m outs 5 c).owed 0 = 0 := owed5 (Vr (V11 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat5 (Vr (V11 m outs)) c).Φ 0
    iintro ⟨Hp, -, Hr⟩
    iapply (hin5 (Vr (V11 m outs)) c)
    isplitl [Hp]; · iexact Hp
    iexact Hr
  hout c := by
    rw [Pipeline.ownSems0_none]
    change (dat5 (Vr (V11 m outs)) c).Φ (Fin.last cfg5.N) ⊢ _
    iintro H
    ihave H' := (hout5 (Vr (V11 m outs)) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun w => share5 (Vr (V11 m outs)) c w)
      (Vr (V11 m outs) c) (Vr (V12 m outs) c) ((pdats m outs 5 c).arrAt · cfg5.N) (hF5 m outs hg c) (hrest5 m outs c)
    rw [Pipeline.unscopedBufs_held] at hjoin
    have eN : (pdats m outs 5 c).owed (Fin.last (Pipeline.pin (pcfgs (F := F)) adm 5).N) = 0 := owed5 (Vr (V11 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg6.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 6's proof data in the family is the region's own. -/
theorem pdats_6 (c : Dev nD) : pdats m outs 6 c = dat6 (Vr (V13 m outs)) c := rfl

set_option backward.isDefEq.respectTransparency.types false in
/-- Region 6 over the thread state: entered with every unscoped buffer at the contents before it, left with them at
    the contents after it; its windows' arrays are split out of the unscoped buffers and put back at what the
    write-backs leave; the generator register goes into the body's invariant and comes back; nothing is owed. -/
def reg6 (hg : Good m outs) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr (V13 m outs)) c).loose
  hwaits := Pipeline.hwaits_of_owed_zero _ _ _ _ L lv 6 fun c t => owed6 (Vr (V13 m outs)) c t
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (Vr (V13 m outs) c)
  hentry c := by
    rw [Pipeline.ownSems0_none]
    have hsplit := Pipeline.arrays_of_unscopedBufs (p := 6) (pcfgs (F := F)) adm (pdats m outs) launch6.win launch6.arr_whole c
      ((pdats m outs 6 c).share_full fun w => share6 (Vr (V13 m outs)) c w) (Vr (V13 m outs) c) fun w => A_eq6 (Vr (V13 m outs)) c w
    rw [Pipeline.unscopedBufs_held] at hsplit
    have e0 : (pdats m outs 6 c).owed 0 = 0 := owed6 (Vr (V13 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat6 (Vr (V13 m outs)) c).Φ 0
    iintro ⟨Hp, -, Hr⟩
    iapply (hin6 (Vr (V13 m outs)) c)
    isplitl [Hp]; · iexact Hp
    iexact Hr
  hout c := by
    rw [Pipeline.ownSems0_none]
    change (dat6 (Vr (V13 m outs)) c).Φ (Fin.last cfg6.N) ⊢ _
    iintro H
    ihave H' := (hout6 (Vr (V13 m outs)) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun w => share6 (Vr (V13 m outs)) c w)
      (Vr (V13 m outs) c) (Vr (V14 m outs) c) ((pdats m outs 6 c).arrAt · cfg6.N) (hF6 m outs hg c) (hrest6 m outs c)
    rw [Pipeline.unscopedBufs_held] at hjoin
    have eN : (pdats m outs 6 c).owed (Fin.last (Pipeline.pin (pcfgs (F := F)) adm 6).N) = 0 := owed6 (Vr (V13 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg7.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 7's proof data in the family is the region's own. -/
theorem pdats_7 (c : Dev nD) : pdats m outs 7 c = dat7 (Vr (V15 m outs)) c := rfl

set_option backward.isDefEq.respectTransparency.types false in
/-- Region 7 over the thread state: entered with every unscoped buffer at the contents before it, left with them at
    the contents after it; its windows' arrays are split out of the unscoped buffers and put back at what the
    write-backs leave; the generator register goes into the body's invariant and comes back; nothing is owed. -/
def reg7 (hg : Good m outs) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (V15 m outs)) c).loose
  hwaits := Pipeline.hwaits_of_owed_zero _ _ _ _ L lv 7 fun c t => owed7 (Vr (V15 m outs)) c t
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (Vr (V15 m outs) c)
  hentry c := by
    rw [Pipeline.ownSems0_none]
    have hsplit := Pipeline.arrays_of_unscopedBufs (p := 7) (pcfgs (F := F)) adm (pdats m outs) launch7.win launch7.arr_whole c
      ((pdats m outs 7 c).share_full fun w => share7 (Vr (V15 m outs)) c w) (Vr (V15 m outs) c) fun w => A_eq7 (Vr (V15 m outs)) c w
    rw [Pipeline.unscopedBufs_held] at hsplit
    have e0 : (pdats m outs 7 c).owed 0 = 0 := owed7 (Vr (V15 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat7 (Vr (V15 m outs)) c).Φ 0
    iintro ⟨Hp, -, Hr⟩
    iapply (hin7 (Vr (V15 m outs)) c)
    isplitl [Hp]; · iexact Hp
    iexact Hr
  hout c := by
    rw [Pipeline.ownSems0_none]
    change (dat7 (Vr (V15 m outs)) c).Φ (Fin.last cfg7.N) ⊢ _
    iintro H
    ihave H' := (hout7 (Vr (V15 m outs)) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun w => share7 (Vr (V15 m outs)) c w)
      (Vr (V15 m outs) c) (Vr (V16 m outs) c) ((pdats m outs 7 c).arrAt · cfg7.N) (hF7 m outs hg c) (hrest7 m outs c)
    rw [Pipeline.unscopedBufs_held] at hjoin
    have eN : (pdats m outs 7 c).owed (Fin.last (Pipeline.pin (pcfgs (F := F)) adm 7).N) = 0 := owed7 (Vr (V15 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg8.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 8's proof data in the family is the region's own. -/
theorem pdats_8 (c : Dev nD) : pdats m outs 8 c = dat8 (Vr (V17 m outs)) c := rfl

set_option backward.isDefEq.respectTransparency.types false in
/-- Region 8 over the thread state: entered with every unscoped buffer at the contents before it, left with them at
    the contents after it; its windows' arrays are split out of the unscoped buffers and put back at what the
    write-backs leave; the generator register goes into the body's invariant and comes back; nothing is owed. -/
def reg8 (hg : Good m outs) : Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr (V17 m outs)) c).loose
  hwaits := Pipeline.hwaits_of_owed_zero _ _ _ _ L lv 8 fun c t => owed8 (Vr (V17 m outs)) c t
  pre c := iprop(StableHlo.held (c : Thread nD τ) (Pipeline.ucRefs τ sig) (V17 m outs c) ∗ R c)
  post c := iprop(StableHlo.held (c : Thread nD τ) (Pipeline.ucRefs τ sig) (V18 m outs c) ∗ R c)
  X c := iprop(∃ r, prngReg c r)
  Y c := iprop(∃ r, prngReg c r)
  Z c := Pipeline.unscopedRest (Ix := Unit) (Name := ℕ) (U := UR sig nD τ) (Lvl := ℕ) spec8 c (Vr (V17 m outs) c)
  hentry c := by
    rw [Pipeline.ownSems0_none]
    have hsplit := Pipeline.arrays_of_unscopedBufs (p := 8) (pcfgs (F := F)) adm (pdats m outs) launch8.win launch8.arr_whole c
      ((pdats m outs 8 c).share_full fun w => share8 (Vr (V17 m outs)) c w) (Vr (V17 m outs) c) fun w => A_eq8 (Vr (V17 m outs)) c w
    rw [Pipeline.unscopedBufs_held] at hsplit
    have e0 : (pdats m outs 8 c).owed 0 = 0 := owed8 (Vr (V17 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat8 (Vr (V17 m outs)) c).Φ 0
    iintro ⟨Hp, -, Hr⟩
    iapply (hin8 (Vr (V17 m outs)) c)
    isplitl [Hp]; · iexact Hp
    iexact Hr
  hout c := by
    rw [Pipeline.ownSems0_none]
    change (dat8 (Vr (V17 m outs)) c).Φ (Fin.last cfg8.N) ⊢ _
    iintro H
    ihave H' := (hout8 (Vr (V17 m outs)) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun w => share8 (Vr (V17 m outs)) c w)
      (Vr (V17 m outs) c) (Vr (V18 m outs) c) ((pdats m outs 8 c).arrAt · cfg8.N) (hF8 m outs hg c) (hrest8 m outs c)
    rw [Pipeline.unscopedBufs_held] at hjoin
    have eN : (pdats m outs 8 c).owed (Fin.last (Pipeline.pin (pcfgs (F := F)) adm 8).N) = 0 := owed8 (Vr (V17 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg9.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 9's proof data in the family is the region's own. -/
theorem pdats_9 (c : Dev nD) : pdats m outs 9 c = dat9 (Vr (V19 m outs)) c := rfl

set_option backward.isDefEq.respectTransparency.types false in
/-- Region 9 over the thread state: entered with every unscoped buffer at the contents before it, left with them at
    the contents after it; its windows' arrays are split out of the unscoped buffers and put back at what the
    write-backs leave; the generator register goes into the body's invariant and comes back; nothing is owed. -/
def reg9 (hg : Good m outs) : Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (V19 m outs)) c).loose
  hwaits := Pipeline.hwaits_of_owed_zero _ _ _ _ L lv 9 fun c t => owed9 (Vr (V19 m outs)) c t
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec9 c (Vr (V19 m outs) c)
  hentry c := by
    rw [Pipeline.ownSems0_none]
    have hsplit := Pipeline.arrays_of_unscopedBufs (p := 9) (pcfgs (F := F)) adm (pdats m outs) launch9.win launch9.arr_whole c
      ((pdats m outs 9 c).share_full fun w => share9 (Vr (V19 m outs)) c w) (Vr (V19 m outs) c) fun w => A_eq9 (Vr (V19 m outs)) c w
    rw [Pipeline.unscopedBufs_held] at hsplit
    have e0 : (pdats m outs 9 c).owed 0 = 0 := owed9 (Vr (V19 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat9 (Vr (V19 m outs)) c).Φ 0
    iintro ⟨Hp, -, Hr⟩
    iapply (hin9 (Vr (V19 m outs)) c)
    isplitl [Hp]; · iexact Hp
    iexact Hr
  hout c := by
    rw [Pipeline.ownSems0_none]
    change (dat9 (Vr (V19 m outs)) c).Φ (Fin.last cfg9.N) ⊢ _
    iintro H
    ihave H' := (hout9 (Vr (V19 m outs)) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun w => share9 (Vr (V19 m outs)) c w)
      (Vr (V19 m outs) c) (Vr (V20 m outs) c) ((pdats m outs 9 c).arrAt · cfg9.N) (hF9 m outs hg c) (hrest9 m outs c)
    rw [Pipeline.unscopedBufs_held] at hjoin
    have eN : (pdats m outs 9 c).owed (Fin.last (Pipeline.pin (pcfgs (F := F)) adm 9).N) = 0 := owed9 (Vr (V19 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg10.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 10's proof data in the family is the region's own. -/
theorem pdats_10 (c : Dev nD) : pdats m outs 10 c = dat10 (Vr (V21 m outs)) c := rfl

set_option backward.isDefEq.respectTransparency.types false in
/-- Region 10 over the thread state: entered with every unscoped buffer at the contents before it, left with them at
    the contents after it; its windows' arrays are split out of the unscoped buffers and put back at what the
    write-backs leave; the generator register goes into the body's invariant and comes back; nothing is owed. -/
def reg10 (hg : Good m outs) : Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr (V21 m outs)) c).loose
  hwaits := Pipeline.hwaits_of_owed_zero _ _ _ _ L lv 10 fun c t => owed10 (Vr (V21 m outs)) c t
  pre c := iprop(StableHlo.held (c : Thread nD τ) (Pipeline.ucRefs τ sig) (V21 m outs c) ∗ R c)
  post c := iprop(StableHlo.held (c : Thread nD τ) (Pipeline.ucRefs τ sig) (V22 m outs c) ∗ R c)
  X c := iprop(∃ r, prngReg c r)
  Y c := iprop(∃ r, prngReg c r)
  Z c := Pipeline.unscopedRest (Ix := Unit) (Name := ℕ) (U := UR sig nD τ) (Lvl := ℕ) spec10 c (Vr (V21 m outs) c)
  hentry c := by
    rw [Pipeline.ownSems0_none]
    have hsplit := Pipeline.arrays_of_unscopedBufs (p := 10) (pcfgs (F := F)) adm (pdats m outs) launch10.win launch10.arr_whole c
      ((pdats m outs 10 c).share_full fun w => share10 (Vr (V21 m outs)) c w) (Vr (V21 m outs) c) fun w => A_eq10 (Vr (V21 m outs)) c w
    rw [Pipeline.unscopedBufs_held] at hsplit
    have e0 : (pdats m outs 10 c).owed 0 = 0 := owed10 (Vr (V21 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat10 (Vr (V21 m outs)) c).Φ 0
    iintro ⟨Hp, -, Hr⟩
    iapply (hin10 (Vr (V21 m outs)) c)
    isplitl [Hp]; · iexact Hp
    iexact Hr
  hout c := by
    rw [Pipeline.ownSems0_none]
    change (dat10 (Vr (V21 m outs)) c).Φ (Fin.last cfg10.N) ⊢ _
    iintro H
    ihave H' := (hout10 (Vr (V21 m outs)) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun w => share10 (Vr (V21 m outs)) c w)
      (Vr (V21 m outs) c) (Vr (V22 m outs) c) ((pdats m outs 10 c).arrAt · cfg10.N) (hF10 m outs hg c) (hrest10 m outs c)
    rw [Pipeline.unscopedBufs_held] at hjoin
    have eN : (pdats m outs 10 c).owed (Fin.last (Pipeline.pin (pcfgs (F := F)) adm 10).N) = 0 := owed10 (Vr (V21 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg11.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 11's proof data in the family is the region's own. -/
theorem pdats_11 (c : Dev nD) : pdats m outs 11 c = dat11 (Vr (V23 m outs)) c := rfl

set_option backward.isDefEq.respectTransparency.types false in
/-- Region 11 over the thread state: entered with every unscoped buffer at the contents before it, left with them at
    the contents after it; its windows' arrays are split out of the unscoped buffers and put back at what the
    write-backs leave; the generator register goes into the body's invariant and comes back; nothing is owed. -/
def reg11 (hg : Good m outs) : Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr (V23 m outs)) c).loose
  hwaits := Pipeline.hwaits_of_owed_zero _ _ _ _ L lv 11 fun c t => owed11 (Vr (V23 m outs)) c t
  pre c := iprop(StableHlo.held (c : Thread nD τ) (Pipeline.ucRefs τ sig) (V23 m outs c) ∗ R c)
  post c := iprop(StableHlo.held (c : Thread nD τ) (Pipeline.ucRefs τ sig) (V24 m outs c) ∗ R c)
  X c := iprop(∃ r, prngReg c r)
  Y c := iprop(∃ r, prngReg c r)
  Z c := Pipeline.unscopedRest (Ix := Unit) (Name := ℕ) (U := UR sig nD τ) (Lvl := ℕ) spec11 c (Vr (V23 m outs) c)
  hentry c := by
    rw [Pipeline.ownSems0_none]
    have hsplit := Pipeline.arrays_of_unscopedBufs (p := 11) (pcfgs (F := F)) adm (pdats m outs) launch11.win launch11.arr_whole c
      ((pdats m outs 11 c).share_full fun w => share11 (Vr (V23 m outs)) c w) (Vr (V23 m outs) c) fun w => A_eq11 (Vr (V23 m outs)) c w
    rw [Pipeline.unscopedBufs_held] at hsplit
    have e0 : (pdats m outs 11 c).owed 0 = 0 := owed11 (Vr (V23 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat11 (Vr (V23 m outs)) c).Φ 0
    iintro ⟨Hp, -, Hr⟩
    iapply (hin11 (Vr (V23 m outs)) c)
    isplitl [Hp]; · iexact Hp
    iexact Hr
  hout c := by
    rw [Pipeline.ownSems0_none]
    change (dat11 (Vr (V23 m outs)) c).Φ (Fin.last cfg11.N) ⊢ _
    iintro H
    ihave H' := (hout11 (Vr (V23 m outs)) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun w => share11 (Vr (V23 m outs)) c w)
      (Vr (V23 m outs) c) (Vr (V24 m outs) c) ((pdats m outs 11 c).arrAt · cfg11.N) (hF11 m outs hg c) (hrest11 m outs c)
    rw [Pipeline.unscopedBufs_held] at hjoin
    have eN : (pdats m outs 11 c).owed (Fin.last (Pipeline.pin (pcfgs (F := F)) adm 11).N) = 0 := owed11 (Vr (V23 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.Seg12.lean ====
import proofs.«113306_j49254684950634_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- Pipeline 12's proof data in the family is the region's own. -/
theorem pdats_12 (c : Dev nD) : pdats m outs 12 c = dat12 (Vr (V25 m outs)) c := rfl

set_option backward.isDefEq.respectTransparency.types false in
/-- Region 12 over the thread state: entered with every unscoped buffer at the contents before it, left with them at
    the contents after it; its windows' arrays are split out of the unscoped buffers and put back at what the
    write-backs leave; the generator register goes into the body's invariant and comes back; nothing is owed. -/
def reg12 (hg : Good m outs) : Pipeline.RegionSeg (pcfgs (F := F)) adm (pdats m outs) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vr (V25 m outs)) c).loose
  hwaits := Pipeline.hwaits_of_owed_zero _ _ _ _ L lv 12 fun c t => owed12 (Vr (V25 m outs)) c t
  pre c := iprop(StableHlo.held (c : Thread nD τ) (Pipeline.ucRefs τ sig) (V25 m outs c) ∗ R c)
  post c := iprop(StableHlo.held (c : Thread nD τ) (Pipeline.ucRefs τ sig) (V26 m outs c) ∗ R c)
  X c := iprop(∃ r, prngReg c r)
  Y c := iprop(∃ r, prngReg c r)
  Z c := Pipeline.unscopedRest (Ix := Unit) (Name := ℕ) (U := UR sig nD τ) (Lvl := ℕ) spec12 c (Vr (V25 m outs) c)
  hentry c := by
    rw [Pipeline.ownSems0_none]
    have hsplit := Pipeline.arrays_of_unscopedBufs (p := 12) (pcfgs (F := F)) adm (pdats m outs) launch12.win launch12.arr_whole c
      ((pdats m outs 12 c).share_full fun w => share12 (Vr (V25 m outs)) c w) (Vr (V25 m outs) c) fun w => A_eq12 (Vr (V25 m outs)) c w
    rw [Pipeline.unscopedBufs_held] at hsplit
    have e0 : (pdats m outs 12 c).owed 0 = 0 := owed12 (Vr (V25 m outs)) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun _ _ => Or.inl trivial
      iexact HO
    isplitl [Hp]; · iexact Hp
    iexact Hrest
  hin c := by
    change _ ⊢ (dat12 (Vr (V25 m outs)) c).Φ 0
    iintro ⟨Hp, -, Hr⟩
    iapply (hin12 (Vr (V25 m outs)) c)
    isplitl [Hp]; · iexact Hp
    iexact Hr
  hout c := by
    rw [Pipeline.ownSems0_none]
    change (dat12 (Vr (V25 m outs)) c).Φ (Fin.last cfg12.N) ⊢ _
    iintro H
    ihave H' := (hout12 (Vr (V25 m outs)) c) $$ H
    icases H' with ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m outs) ((pdats m outs 12 c).share_full fun w => share12 (Vr (V25 m outs)) c w)
      (Vr (V25 m outs) c) (Vr (V26 m outs) c) ((pdats m outs 12 c).arrAt · cfg12.N) (hF12 m outs hg c) (hrest12 m outs c)
    rw [Pipeline.unscopedBufs_held] at hjoin
    have eN : (pdats m outs 12 c).owed (Fin.last (Pipeline.pin (pcfgs (F := F)) adm 12).N) = 0 := owed12 (Vr (V25 m outs)) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W
    iexact HO

end Cert.KernelIdeal.Hand

end
-- ==== Proof.KI.FrameVal.lean ====
import proofs.«113306_j49254684950634_1_alg».proof.Proof.Gen.KernelIdeal.Regions

set_option maxRecDepth 1900

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run with the result named: given one segment record per region entered from and left at this program's thread states,
    every weakly fair execution of @main from memory `m` terminates, every final memory holds the result buffer at the
    contents chosen for the last region's output and each argument as launched. -/
theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c)) :
    θ_run defs (onTc (τ := τ) (main (F := F))) ⟨m, fun _ => 0, ρ⟩ (fun r => ∀ c : Dev nD,
      r.2.mem ((c.tc : Thread nD τ).loc main_v205) = outs 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, (hpost12 c).trans (sep_mono .rfl (hE13 c))⟩)
    (hinit := ?_) (QY := fun c s => s.mem ((c.tc : Thread nD τ).loc main_v205) = outs 26 main_v205 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨(h (Proc.devRef .tc main_v205) (Finset.mem_filter.mpr ⟨StableHlo.devRef_mem_tcRefs main_v205, by decide⟩)).trans (Function.update_self ..),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c),
        (h (Proc.devRef .tc main_arg9) (Finset.mem_filter.mpr ⟨StableHlo.devRef_mem_tcRefs main_arg9, by decide⟩)).trans (V26_main_arg9 m outs c),
        (h (Proc.devRef .tc main_arg10) (Finset.mem_filter.mpr ⟨StableHlo.devRef_mem_tcRefs main_arg10, by decide⟩)).trans (V26_main_arg10 m outs c),
        (h (Proc.devRef .tc main_arg11) (Finset.mem_filter.mpr ⟨StableHlo.devRef_mem_tcRefs main_arg11, by decide⟩)).trans (V26_main_arg11 m outs c),
        (h (Proc.devRef .tc main_arg12) (Finset.mem_filter.mpr ⟨StableHlo.devRef_mem_tcRefs main_arg12, by decide⟩)).trans (V26_main_arg12 m outs c)⟩
    · iexact HSI

end Cert.KernelIdeal.Hand

end
-- ==== Proof.KI.Witness.lean ====
import proofs.«113306_j49254684950634_1_alg».proof.Proof.KI.Family

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Contents for the regions' output arrays that satisfy `Good`

Built level by level: the contents chosen up to region `K` fix the buffers region `K` is entered with, hence what its
write-backs leave in its arrays, which is the choice for region `K`. Each valuation between two items reads the choice
only at the levels before it, so a later level does not disturb an earlier one. -/

variable (m : (ℓ : Loc nD τ sig) → Buf (Elt F) ℓ)

/-- The choice extended by one level: at index `J` the valuation `U` read at the references, elsewhere as before. -/
def step (prev : Outs (F := F)) (J : ℕ) (U : Dev nD → Valuation τ sig (Elt F)) : Outs (F := F) :=
  fun J' r c => if J' = J then Vr U c r else prev J' r c

theorem step_same (prev : Outs (F := F)) (J : ℕ) (U : Dev nD → Valuation τ sig (Elt F)) :
    step prev J U J = fun r c => Vr U c r := by
  funext r c; unfold step; rw [if_pos rfl]

theorem step_ne (prev : Outs (F := F)) (J : ℕ) (U : Dev nD → Valuation τ sig (Elt F)) (J' : ℕ) (h : J' ≠ J) :
    step prev J U J' = prev J' := by
  funext r c; unfold step; rw [if_neg h]

/-- Before any region: the launch contents. -/
def lvl0 : Outs (F := F) := fun _ r c => m ((c : Thread nD τ).loc r)

/-- Region 0's buffers at its exit under the choice so far: its arrays at what its write-backs leave, every other
    buffer as it is entered. -/
def U0 (c : Dev nD) : Valuation τ sig (Elt F) :=
  Pipeline.withArrays spec0 c (V1 m c) fun w => (dat0 (Vr (V1 m)) c).arrAt w cfg0.N
/-- The choice through region 0. -/
def lvl1 : Outs (F := F) := step (lvl0 m) 2 (U0 m)
theorem down0 (J : ℕ) (h : J ≤ 0) : lvl1 m J = lvl0 m J :=
  step_ne (lvl0 m) 2 (U0 m) J (by omega)
theorem top0 : lvl1 m 2 = fun r c => Vr (U0 m) c r :=
  step_same (lvl0 m) 2 (U0 m)

/-- Region 1's buffers at its exit under the choice so far: its arrays at what its write-backs leave, every other
    buffer as it is entered. -/
def U1 (c : Dev nD) : Valuation τ sig (Elt F) :=
  Pipeline.withArrays spec1 c (V3 m (lvl1 m) c) fun w => (dat1 (Vr (V3 m (lvl1 m))) c).arrAt w cfg1.N
/-- The choice through region 1. -/
def lvl2 : Outs (F := F) := step (lvl1 m) 4 (U1 m)
theorem down1 (J : ℕ) (h : J ≤ 2) : lvl2 m J = lvl1 m J :=
  step_ne (lvl1 m) 4 (U1 m) J (by omega)
theorem top1 : lvl2 m 4 = fun r c => Vr (U1 m) c r :=
  step_same (lvl1 m) 4 (U1 m)

/-- Region 2's buffers at its exit under the choice so far: its arrays at what its write-backs leave, every other
    buffer as it is entered. -/
def U2 (c : Dev nD) : Valuation τ sig (Elt F) :=
  Pipeline.withArrays spec2 c (V5 m (lvl2 m) c) fun w => (dat2 (Vr (V5 m (lvl2 m))) c).arrAt w cfg2.N
/-- The choice through region 2. -/
def lvl3 : Outs (F := F) := step (lvl2 m) 6 (U2 m)
theorem down2 (J : ℕ) (h : J ≤ 4) : lvl3 m J = lvl2 m J :=
  step_ne (lvl2 m) 6 (U2 m) J (by omega)
theorem top2 : lvl3 m 6 = fun r c => Vr (U2 m) c r :=
  step_same (lvl2 m) 6 (U2 m)

/-- Region 3's buffers at its exit under the choice so far: its arrays at what its write-backs leave, every other
    buffer as it is entered. -/
def U3 (c : Dev nD) : Valuation τ sig (Elt F) :=
  Pipeline.withArrays spec3 c (V7 m (lvl3 m) c) fun w => (dat3 (Vr (V7 m (lvl3 m))) c).arrAt w cfg3.N
/-- The choice through region 3. -/
def lvl4 : Outs (F := F) := step (lvl3 m) 8 (U3 m)
theorem down3 (J : ℕ) (h : J ≤ 6) : lvl4 m J = lvl3 m J :=
  step_ne (lvl3 m) 8 (U3 m) J (by omega)
theorem top3 : lvl4 m 8 = fun r c => Vr (U3 m) c r :=
  step_same (lvl3 m) 8 (U3 m)

/-- Region 4's buffers at its exit under the choice so far: its arrays at what its write-backs leave, every other
    buffer as it is entered. -/
def U4 (c : Dev nD) : Valuation τ sig (Elt F) :=
  Pipeline.withArrays spec4 c (V9 m (lvl4 m) c) fun w => (dat4 (Vr (V9 m (lvl4 m))) c).arrAt w cfg4.N
/-- The choice through region 4. -/
def lvl5 : Outs (F := F) := step (lvl4 m) 10 (U4 m)
theorem down4 (J : ℕ) (h : J ≤ 8) : lvl5 m J = lvl4 m J :=
  step_ne (lvl4 m) 10 (U4 m) J (by omega)
theorem top4 : lvl5 m 10 = fun r c => Vr (U4 m) c r :=
  step_same (lvl4 m) 10 (U4 m)

/-- Region 5's buffers at its exit under the choice so far: its arrays at what its write-backs leave, every other
    buffer as it is entered. -/
def U5 (c : Dev nD) : Valuation τ sig (Elt F) :=
  Pipeline.withArrays spec5 c (V11 m (lvl5 m) c) fun w => (dat5 (Vr (V11 m (lvl5 m))) c).arrAt w cfg5.N
/-- The choice through region 5. -/
def lvl6 : Outs (F := F) := step (lvl5 m) 12 (U5 m)
theorem down5 (J : ℕ) (h : J ≤ 10) : lvl6 m J = lvl5 m J :=
  step_ne (lvl5 m) 12 (U5 m) J (by omega)
theorem top5 : lvl6 m 12 = fun r c => Vr (U5 m) c r :=
  step_same (lvl5 m) 12 (U5 m)

/-- Region 6's buffers at its exit under the choice so far: its arrays at what its write-backs leave, every other
    buffer as it is entered. -/
def U6 (c : Dev nD) : Valuation τ sig (Elt F) :=
  Pipeline.withArrays spec6 c (V13 m (lvl6 m) c) fun w => (dat6 (Vr (V13 m (lvl6 m))) c).arrAt w cfg6.N
/-- The choice through region 6. -/
def lvl7 : Outs (F := F) := step (lvl6 m) 14 (U6 m)
theorem down6 (J : ℕ) (h : J ≤ 12) : lvl7 m J = lvl6 m J :=
  step_ne (lvl6 m) 14 (U6 m) J (by omega)
theorem top6 : lvl7 m 14 = fun r c => Vr (U6 m) c r :=
  step_same (lvl6 m) 14 (U6 m)

/-- Region 7's buffers at its exit under the choice so far: its arrays at what its write-backs leave, every other
    buffer as it is entered. -/
def U7 (c : Dev nD) : Valuation τ sig (Elt F) :=
  Pipeline.withArrays spec7 c (V15 m (lvl7 m) c) fun w => (dat7 (Vr (V15 m (lvl7 m))) c).arrAt w cfg7.N
/-- The choice through region 7. -/
def lvl8 : Outs (F := F) := step (lvl7 m) 16 (U7 m)
theorem down7 (J : ℕ) (h : J ≤ 14) : lvl8 m J = lvl7 m J :=
  step_ne (lvl7 m) 16 (U7 m) J (by omega)
theorem top7 : lvl8 m 16 = fun r c => Vr (U7 m) c r :=
  step_same (lvl7 m) 16 (U7 m)

/-- Region 8's buffers at its exit under the choice so far: its arrays at what its write-backs leave, every other
    buffer as it is entered. -/
def U8 (c : Dev nD) : Valuation τ sig (Elt F) :=
  Pipeline.withArrays spec8 c (V17 m (lvl8 m) c) fun w => (dat8 (Vr (V17 m (lvl8 m))) c).arrAt w cfg8.N
/-- The choice through region 8. -/
def lvl9 : Outs (F := F) := step (lvl8 m) 18 (U8 m)
theorem down8 (J : ℕ) (h : J ≤ 16) : lvl9 m J = lvl8 m J :=
  step_ne (lvl8 m) 18 (U8 m) J (by omega)
theorem top8 : lvl9 m 18 = fun r c => Vr (U8 m) c r :=
  step_same (lvl8 m) 18 (U8 m)

/-- Region 9's buffers at its exit under the choice so far: its arrays at what its write-backs leave, every other
    buffer as it is entered. -/
def U9 (c : Dev nD) : Valuation τ sig (Elt F) :=
  Pipeline.withArrays spec9 c (V19 m (lvl9 m) c) fun w => (dat9 (Vr (V19 m (lvl9 m))) c).arrAt w cfg9.N
/-- The choice through region 9. -/
def lvl10 : Outs (F := F) := step (lvl9 m) 20 (U9 m)
theorem down9 (J : ℕ) (h : J ≤ 18) : lvl10 m J = lvl9 m J :=
  step_ne (lvl9 m) 20 (U9 m) J (by omega)
theorem top9 : lvl10 m 20 = fun r c => Vr (U9 m) c r :=
  step_same (lvl9 m) 20 (U9 m)

/-- Region 10's buffers at its exit under the choice so far: its arrays at what its write-backs leave, every other
    buffer as it is entered. -/
def U10 (c : Dev nD) : Valuation τ sig (Elt F) :=
  Pipeline.withArrays spec10 c (V21 m (lvl10 m) c) fun w => (dat10 (Vr (V21 m (lvl10 m))) c).arrAt w cfg10.N
/-- The choice through region 10. -/
def lvl11 : Outs (F := F) := step (lvl10 m) 22 (U10 m)
theorem down10 (J : ℕ) (h : J ≤ 20) : lvl11 m J = lvl10 m J :=
  step_ne (lvl10 m) 22 (U10 m) J (by omega)
theorem top10 : lvl11 m 22 = fun r c => Vr (U10 m) c r :=
  step_same (lvl10 m) 22 (U10 m)

/-- Region 11's buffers at its exit under the choice so far: its arrays at what its write-backs leave, every other
    buffer as it is entered. -/
def U11 (c : Dev nD) : Valuation τ sig (Elt F) :=
  Pipeline.withArrays spec11 c (V23 m (lvl11 m) c) fun w => (dat11 (Vr (V23 m (lvl11 m))) c).arrAt w cfg11.N
/-- The choice through region 11. -/
def lvl12 : Outs (F := F) := step (lvl11 m) 24 (U11 m)
theorem down11 (J : ℕ) (h : J ≤ 22) : lvl12 m J = lvl11 m J :=
  step_ne (lvl11 m) 24 (U11 m) J (by omega)
theorem top11 : lvl12 m 24 = fun r c => Vr (U11 m) c r :=
  step_same (lvl11 m) 24 (U11 m)

/-- Region 12's buffers at its exit under the choice so far: its arrays at what its write-backs leave, every other
    buffer as it is entered. -/
def U12 (c : Dev nD) : Valuation τ sig (Elt F) :=
  Pipeline.withArrays spec12 c (V25 m (lvl12 m) c) fun w => (dat12 (Vr (V25 m (lvl12 m))) c).arrAt w cfg12.N
/-- The choice through region 12. -/
def lvl13 : Outs (F := F) := step (lvl12 m) 26 (U12 m)
theorem down12 (J : ℕ) (h : J ≤ 24) : lvl13 m J = lvl12 m J :=
  step_ne (lvl12 m) 26 (U12 m) J (by omega)
theorem top12 : lvl13 m 26 = fun r c => Vr (U12 m) c r :=
  step_same (lvl12 m) 26 (U12 m)

/-- The contents chosen for every region's output arrays. -/
def outsStar : Outs (F := F) := lvl13 m

/-! ## The choice below a level is the level's -/
theorem agree0 (J : ℕ) (h : J ≤ 0) : outsStar m J = lvl0 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega)).trans ((down1 m J (by omega)).trans ((down0 m J (by omega))))))))))))))
theorem agree1 (J : ℕ) (h : J ≤ 2) : outsStar m J = lvl1 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega)).trans ((down1 m J (by omega)))))))))))))
theorem agree2 (J : ℕ) (h : J ≤ 4) : outsStar m J = lvl2 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)).trans ((down2 m J (by omega))))))))))))
theorem agree3 (J : ℕ) (h : J ≤ 6) : outsStar m J = lvl3 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega)).trans ((down3 m J (by omega)))))))))))
theorem agree4 (J : ℕ) (h : J ≤ 8) : outsStar m J = lvl4 m J :=
  (down12 m J (by omega)).trans ((down11 m J (by omega)).trans ((down10 m J (by omega)).trans ((down9 m J (by omega)).trans ((down8 m J (by omega)).trans ((down7 m J (by omega)).trans ((down6 m J (by omega)).trans ((down5 m J (by omega)).trans ((down4 m J (by omega))))))))))
theorem agree5 (J : ℕ) (h : J ≤ 10) : outsStar m J = lvl5 m J :=
  (down12 m J (by omega)).trans ((down11 m J (by omega)).trans ((down10 m J (by omega)).trans ((down9 m J (by omega)).trans ((down8 m J (by omega)).trans ((down7 m J (by omega)).trans ((down6 m J (by omega)).trans ((down5 m J (by omega)))))))))
theorem agree6 (J : ℕ) (h : J ≤ 12) : outsStar m J = lvl6 m J :=
  (down12 m J (by omega)).trans ((down11 m J (by omega)).trans ((down10 m J (by omega)).trans ((down9 m J (by omega)).trans ((down8 m J (by omega)).trans ((down7 m J (by omega)).trans ((down6 m J (by omega))))))))
theorem agree7 (J : ℕ) (h : J ≤ 14) : outsStar m J = lvl7 m J :=
  (down12 m J (by omega)).trans ((down11 m J (by omega)).trans ((down10 m J (by omega)).trans ((down9 m J (by omega)).trans ((down8 m J (by omega)).trans ((down7 m J (by omega)))))))
theorem agree8 (J : ℕ) (h : J ≤ 16) : outsStar m J = lvl8 m J :=
  (down12 m J (by omega)).trans ((down11 m J (by omega)).trans ((down10 m J (by omega)).trans ((down9 m J (by omega)).trans ((down8 m J (by omega))))))
theorem agree9 (J : ℕ) (h : J ≤ 18) : outsStar m J = lvl9 m J :=
  (down12 m J (by omega)).trans ((down11 m J (by omega)).trans ((down10 m J (by omega)).trans ((down9 m J (by omega)))))
theorem agree10 (J : ℕ) (h : J ≤ 20) : outsStar m J = lvl10 m J :=
  (down12 m J (by omega)).trans ((down11 m J (by omega)).trans ((down10 m J (by omega))))
theorem agree11 (J : ℕ) (h : J ≤ 22) : outsStar m J = lvl11 m J :=
  (down12 m J (by omega)).trans ((down11 m J (by omega)))
theorem agree12 (J : ℕ) (h : J ≤ 24) : outsStar m J = lvl12 m J :=
  (down12 m J (by omega))
theorem agree13 (J : ℕ) (h : J ≤ 26) : outsStar m J = lvl13 m J :=
  rfl

/-! ## Each valuation reads the choice only below its own item -/
theorem V2_congr (o o' : Outs (F := F)) (h : ∀ J, J ≤ 2 → o J = o' J) (c : Dev nD) : V2 m o c = V2 m o' c := by
  unfold V2
  rw [h 2 (by omega)]
theorem V3_congr (o o' : Outs (F := F)) (h : ∀ J, J ≤ 2 → o J = o' J) (c : Dev nD) : V3 m o c = V3 m o' c := by
  unfold V3
  rw [V2_congr m o o' h c]
theorem V4_congr (o o' : Outs (F := F)) (h : ∀ J, J ≤ 4 → o J = o' J) (c : Dev nD) : V4 m o c = V4 m o' c := by
  unfold V4
  rw [V3_congr m o o' (fun J hJ => h J (by omega)) c, h 4 (by omega)]
theorem V5_congr (o o' : Outs (F := F)) (h : ∀ J, J ≤ 4 → o J = o' J) (c : Dev nD) : V5 m o c = V5 m o' c := by
  unfold V5
  rw [V4_congr m o o' h c]
theorem V6_congr (o o' : Outs (F := F)) (h : ∀ J, J ≤ 6 → o J = o' J) (c : Dev nD) : V6 m o c = V6 m o' c := by
  unfold V6
  rw [V5_congr m o o' (fun J hJ => h J (by omega)) c, h 6 (by omega)]
theorem V7_congr (o o' : Outs (F := F)) (h : ∀ J, J ≤ 6 → o J = o' J) (c : Dev nD) : V7 m o c = V7 m o' c := by
  unfold V7
  rw [V6_congr m o o' h c]
theorem V8_congr (o o' : Outs (F := F)) (h : ∀ J, J ≤ 8 → o J = o' J) (c : Dev nD) : V8 m o c = V8 m o' c := by
  unfold V8
  rw [V7_congr m o o' (fun J hJ => h J (by omega)) c, h 8 (by omega)]
theorem V9_congr (o o' : Outs (F := F)) (h : ∀ J, J ≤ 8 → o J = o' J) (c : Dev nD) : V9 m o c = V9 m o' c := by
  unfold V9
  rw [V8_congr m o o' h c]
theorem V10_congr (o o' : Outs (F := F)) (h : ∀ J, J ≤ 10 → o J = o' J) (c : Dev nD) : V10 m o c = V10 m o' c := by
  unfold V10
  rw [V9_congr m o o' (fun J hJ => h J (by omega)) c, h 10 (by omega)]
theorem V11_congr (o o' : Outs (F := F)) (h : ∀ J, J ≤ 10 → o J = o' J) (c : Dev nD) : V11 m o c = V11 m o' c := by
  unfold V11
  rw [V10_congr m o o' h c]
theorem V12_congr (o o' : Outs (F := F)) (h : ∀ J, J ≤ 12 → o J = o' J) (c : Dev nD) : V12 m o c = V12 m o' c := by
  unfold V12
  rw [V11_congr m o o' (fun J hJ => h J (by omega)) c, h 12 (by omega)]
theorem V13_congr (o o' : Outs (F := F)) (h : ∀ J, J ≤ 12 → o J = o' J) (c : Dev nD) : V13 m o c = V13 m o' c := by
  unfold V13
  rw [V12_congr m o o' h c]
theorem V14_congr (o o' : Outs (F := F)) (h : ∀ J, J ≤ 14 → o J = o' J) (c : Dev nD) : V14 m o c = V14 m o' c := by
  unfold V14
  rw [V13_congr m o o' (fun J hJ => h J (by omega)) c, h 14 (by omega)]
theorem V15_congr (o o' : Outs (F := F)) (h : ∀ J, J ≤ 14 → o J = o' J) (c : Dev nD) : V15 m o c = V15 m o' c := by
  unfold V15
  rw [V14_congr m o o' h c]
theorem V16_congr (o o' : Outs (F := F)) (h : ∀ J, J ≤ 16 → o J = o' J) (c : Dev nD) : V16 m o c = V16 m o' c := by
  unfold V16
  rw [V15_congr m o o' (fun J hJ => h J (by omega)) c, h 16 (by omega)]
theorem V17_congr (o o' : Outs (F := F)) (h : ∀ J, J ≤ 16 → o J = o' J) (c : Dev nD) : V17 m o c = V17 m o' c := by
  unfold V17
  rw [V16_congr m o o' h c]
theorem V18_congr (o o' : Outs (F := F)) (h : ∀ J, J ≤ 18 → o J = o' J) (c : Dev nD) : V18 m o c = V18 m o' c := by
  unfold V18
  rw [V17_congr m o o' (fun J hJ => h J (by omega)) c, h 18 (by omega)]
theorem V19_congr (o o' : Outs (F := F)) (h : ∀ J, J ≤ 18 → o J = o' J) (c : Dev nD) : V19 m o c = V19 m o' c := by
  unfold V19
  rw [V18_congr m o o' h c]
theorem V20_congr (o o' : Outs (F := F)) (h : ∀ J, J ≤ 20 → o J = o' J) (c : Dev nD) : V20 m o c = V20 m o' c := by
  unfold V20
  rw [V19_congr m o o' (fun J hJ => h J (by omega)) c, h 20 (by omega)]
theorem V21_congr (o o' : Outs (F := F)) (h : ∀ J, J ≤ 20 → o J = o' J) (c : Dev nD) : V21 m o c = V21 m o' c := by
  unfold V21
  rw [V20_congr m o o' h c]
theorem V22_congr (o o' : Outs (F := F)) (h : ∀ J, J ≤ 22 → o J = o' J) (c : Dev nD) : V22 m o c = V22 m o' c := by
  unfold V22
  rw [V21_congr m o o' (fun J hJ => h J (by omega)) c, h 22 (by omega)]
theorem V23_congr (o o' : Outs (F := F)) (h : ∀ J, J ≤ 22 → o J = o' J) (c : Dev nD) : V23 m o c = V23 m o' c := by
  unfold V23
  rw [V22_congr m o o' h c]
theorem V24_congr (o o' : Outs (F := F)) (h : ∀ J, J ≤ 24 → o J = o' J) (c : Dev nD) : V24 m o c = V24 m o' c := by
  unfold V24
  rw [V23_congr m o o' (fun J hJ => h J (by omega)) c, h 24 (by omega)]
theorem V25_congr (o o' : Outs (F := F)) (h : ∀ J, J ≤ 24 → o J = o' J) (c : Dev nD) : V25 m o c = V25 m o' c := by
  unfold V25
  rw [V24_congr m o o' h c]
theorem V26_congr (o o' : Outs (F := F)) (h : ∀ J, J ≤ 26 → o J = o' J) (c : Dev nD) : V26 m o c = V26 m o' c := by
  unfold V26
  rw [V25_congr m o o' (fun J hJ => h J (by omega)) c, h 26 (by omega)]

/-! ## The fields of `Good`, region by region -/

/-- Region 0 is entered with buffers no choice reaches, and the choice at its own level is what its write-backs
    leave. -/
theorem good0 (c : Dev nD) (w : Fin cfg0.W) :
    (dat0 (Vr (V1 m)) c).arrAt w cfg0.N = outsStar m 2 (Pipeline.arrRef spec0 w) c := by
  have eO : outsStar m 2 = fun r c => Vr (U0 m) c r := (agree1 m 2 (le_refl _)).trans (top0 m)
  rw [eO]
  exact (Pipeline.withArrays_arr spec0 launch0.win.arr_inj c (V1 m c)
    (fun w => (dat0 (Vr (V1 m)) c).arrAt w cfg0.N) w).symm

/-- Region 1: under the whole choice it is entered with the buffers the choice through region 0 gives, and the
    choice at its own level is what its write-backs leave. -/
theorem good1 (c : Dev nD) (w : Fin cfg1.W) :
    (dat1 (Vr (V3 m (outsStar m))) c).arrAt w cfg1.N = outsStar m 4 (Pipeline.arrRef spec1 w) c := by
  have eV : V3 m (outsStar m) = V3 m (lvl1 m) :=
    funext fun c => V3_congr m (outsStar m) (lvl1 m) (fun J hJ => agree1 m J hJ) c
  have eO : outsStar m 4 = fun r c => Vr (U1 m) c r := (agree2 m 4 (le_refl _)).trans (top1 m)
  rw [eV, eO]
  exact (Pipeline.withArrays_arr spec1 launch1.win.arr_inj c (V3 m (lvl1 m) c)
    (fun w => (dat1 (Vr (V3 m (lvl1 m))) c).arrAt w cfg1.N) w).symm

/-- Region 2: under the whole choice it is entered with the buffers the choice through region 1 gives, and the
    choice at its own level is what its write-backs leave. -/
theorem good2 (c : Dev nD) (w : Fin cfg2.W) :
    (dat2 (Vr (V5 m (outsStar m))) c).arrAt w cfg2.N = outsStar m 6 (Pipeline.arrRef spec2 w) c := by
  have eV : V5 m (outsStar m) = V5 m (lvl2 m) :=
    funext fun c => V5_congr m (outsStar m) (lvl2 m) (fun J hJ => agree2 m J hJ) c
  have eO : outsStar m 6 = fun r c => Vr (U2 m) c r := (agree3 m 6 (le_refl _)).trans (top2 m)
  rw [eV, eO]
  exact (Pipeline.withArrays_arr spec2 launch2.win.arr_inj c (V5 m (lvl2 m) c)
    (fun w => (dat2 (Vr (V5 m (lvl2 m))) c).arrAt w cfg2.N) w).symm

/-- Region 3: under the whole choice it is entered with the buffers the choice through region 2 gives, and the
    choice at its own level is what its write-backs leave. -/
theorem good3 (c : Dev nD) (w : Fin cfg3.W) :
    (dat3 (Vr (V7 m (outsStar m))) c).arrAt w cfg3.N = outsStar m 8 (Pipeline.arrRef spec3 w) c := by
  have eV : V7 m (outsStar m) = V7 m (lvl3 m) :=
    funext fun c => V7_congr m (outsStar m) (lvl3 m) (fun J hJ => agree3 m J hJ) c
  have eO : outsStar m 8 = fun r c => Vr (U3 m) c r := (agree4 m 8 (le_refl _)).trans (top3 m)
  rw [eV, eO]
  exact (Pipeline.withArrays_arr spec3 launch3.win.arr_inj c (V7 m (lvl3 m) c)
    (fun w => (dat3 (Vr (V7 m (lvl3 m))) c).arrAt w cfg3.N) w).symm

/-- Region 4: under the whole choice it is entered with the buffers the choice through region 3 gives, and the
    choice at its own level is what its write-backs leave. -/
theorem good4 (c : Dev nD) (w : Fin cfg4.W) :
    (dat4 (Vr (V9 m (outsStar m))) c).arrAt w cfg4.N = outsStar m 10 (Pipeline.arrRef spec4 w) c := by
  have eV : V9 m (outsStar m) = V9 m (lvl4 m) :=
    funext fun c => V9_congr m (outsStar m) (lvl4 m) (fun J hJ => agree4 m J hJ) c
  have eO : outsStar m 10 = fun r c => Vr (U4 m) c r := (agree5 m 10 (le_refl _)).trans (top4 m)
  rw [eV, eO]
  exact (Pipeline.withArrays_arr spec4 launch4.win.arr_inj c (V9 m (lvl4 m) c)
    (fun w => (dat4 (Vr (V9 m (lvl4 m))) c).arrAt w cfg4.N) w).symm

/-- Region 5: under the whole choice it is entered with the buffers the choice through region 4 gives, and the
    choice at its own level is what its write-backs leave. -/
theorem good5 (c : Dev nD) (w : Fin cfg5.W) :
    (dat5 (Vr (V11 m (outsStar m))) c).arrAt w cfg5.N = outsStar m 12 (Pipeline.arrRef spec5 w) c := by
  have eV : V11 m (outsStar m) = V11 m (lvl5 m) :=
    funext fun c => V11_congr m (outsStar m) (lvl5 m) (fun J hJ => agree5 m J hJ) c
  have eO : outsStar m 12 = fun r c => Vr (U5 m) c r := (agree6 m 12 (le_refl _)).trans (top5 m)
  rw [eV, eO]
  exact (Pipeline.withArrays_arr spec5 launch5.win.arr_inj c (V11 m (lvl5 m) c)
    (fun w => (dat5 (Vr (V11 m (lvl5 m))) c).arrAt w cfg5.N) w).symm

/-- Region 6: under the whole choice it is entered with the buffers the choice through region 5 gives, and the
    choice at its own level is what its write-backs leave. -/
theorem good6 (c : Dev nD) (w : Fin cfg6.W) :
    (dat6 (Vr (V13 m (outsStar m))) c).arrAt w cfg6.N = outsStar m 14 (Pipeline.arrRef spec6 w) c := by
  have eV : V13 m (outsStar m) = V13 m (lvl6 m) :=
    funext fun c => V13_congr m (outsStar m) (lvl6 m) (fun J hJ => agree6 m J hJ) c
  have eO : outsStar m 14 = fun r c => Vr (U6 m) c r := (agree7 m 14 (le_refl _)).trans (top6 m)
  rw [eV, eO]
  exact (Pipeline.withArrays_arr spec6 launch6.win.arr_inj c (V13 m (lvl6 m) c)
    (fun w => (dat6 (Vr (V13 m (lvl6 m))) c).arrAt w cfg6.N) w).symm

/-- Region 7: under the whole choice it is entered with the buffers the choice through region 6 gives, and the
    choice at its own level is what its write-backs leave. -/
theorem good7 (c : Dev nD) (w : Fin cfg7.W) :
    (dat7 (Vr (V15 m (outsStar m))) c).arrAt w cfg7.N = outsStar m 16 (Pipeline.arrRef spec7 w) c := by
  have eV : V15 m (outsStar m) = V15 m (lvl7 m) :=
    funext fun c => V15_congr m (outsStar m) (lvl7 m) (fun J hJ => agree7 m J hJ) c
  have eO : outsStar m 16 = fun r c => Vr (U7 m) c r := (agree8 m 16 (le_refl _)).trans (top7 m)
  rw [eV, eO]
  exact (Pipeline.withArrays_arr spec7 launch7.win.arr_inj c (V15 m (lvl7 m) c)
    (fun w => (dat7 (Vr (V15 m (lvl7 m))) c).arrAt w cfg7.N) w).symm

/-- Region 8: under the whole choice it is entered with the buffers the choice through region 7 gives, and the
    choice at its own level is what its write-backs leave. -/
theorem good8 (c : Dev nD) (w : Fin cfg8.W) :
    (dat8 (Vr (V17 m (outsStar m))) c).arrAt w cfg8.N = outsStar m 18 (Pipeline.arrRef spec8 w) c := by
  have eV : V17 m (outsStar m) = V17 m (lvl8 m) :=
    funext fun c => V17_congr m (outsStar m) (lvl8 m) (fun J hJ => agree8 m J hJ) c
  have eO : outsStar m 18 = fun r c => Vr (U8 m) c r := (agree9 m 18 (le_refl _)).trans (top8 m)
  rw [eV, eO]
  exact (Pipeline.withArrays_arr spec8 launch8.win.arr_inj c (V17 m (lvl8 m) c)
    (fun w => (dat8 (Vr (V17 m (lvl8 m))) c).arrAt w cfg8.N) w).symm

/-- Region 9: under the whole choice it is entered with the buffers the choice through region 8 gives, and the
    choice at its own level is what its write-backs leave. -/
theorem good9 (c : Dev nD) (w : Fin cfg9.W) :
    (dat9 (Vr (V19 m (outsStar m))) c).arrAt w cfg9.N = outsStar m 20 (Pipeline.arrRef spec9 w) c := by
  have eV : V19 m (outsStar m) = V19 m (lvl9 m) :=
    funext fun c => V19_congr m (outsStar m) (lvl9 m) (fun J hJ => agree9 m J hJ) c
  have eO : outsStar m 20 = fun r c => Vr (U9 m) c r := (agree10 m 20 (le_refl _)).trans (top9 m)
  rw [eV, eO]
  exact (Pipeline.withArrays_arr spec9 launch9.win.arr_inj c (V19 m (lvl9 m) c)
    (fun w => (dat9 (Vr (V19 m (lvl9 m))) c).arrAt w cfg9.N) w).symm

/-- Region 10: under the whole choice it is entered with the buffers the choice through region 9 gives, and the
    choice at its own level is what its write-backs leave. -/
theorem good10 (c : Dev nD) (w : Fin cfg10.W) :
    (dat10 (Vr (V21 m (outsStar m))) c).arrAt w cfg10.N = outsStar m 22 (Pipeline.arrRef spec10 w) c := by
  have eV : V21 m (outsStar m) = V21 m (lvl10 m) :=
    funext fun c => V21_congr m (outsStar m) (lvl10 m) (fun J hJ => agree10 m J hJ) c
  have eO : outsStar m 22 = fun r c => Vr (U10 m) c r := (agree11 m 22 (le_refl _)).trans (top10 m)
  rw [eV, eO]
  exact (Pipeline.withArrays_arr spec10 launch10.win.arr_inj c (V21 m (lvl10 m) c)
    (fun w => (dat10 (Vr (V21 m (lvl10 m))) c).arrAt w cfg10.N) w).symm

/-- Region 11: under the whole choice it is entered with the buffers the choice through region 10 gives, and the
    choice at its own level is what its write-backs leave. -/
theorem good11 (c : Dev nD) (w : Fin cfg11.W) :
    (dat11 (Vr (V23 m (outsStar m))) c).arrAt w cfg11.N = outsStar m 24 (Pipeline.arrRef spec11 w) c := by
  have eV : V23 m (outsStar m) = V23 m (lvl11 m) :=
    funext fun c => V23_congr m (outsStar m) (lvl11 m) (fun J hJ => agree11 m J hJ) c
  have eO : outsStar m 24 = fun r c => Vr (U11 m) c r := (agree12 m 24 (le_refl _)).trans (top11 m)
  rw [eV, eO]
  exact (Pipeline.withArrays_arr spec11 launch11.win.arr_inj c (V23 m (lvl11 m) c)
    (fun w => (dat11 (Vr (V23 m (lvl11 m))) c).arrAt w cfg11.N) w).symm

/-- Region 12: under the whole choice it is entered with the buffers the choice through region 11 gives, and the
    choice at its own level is what its write-backs leave. -/
theorem good12 (c : Dev nD) (w : Fin cfg12.W) :
    (dat12 (Vr (V25 m (outsStar m))) c).arrAt w cfg12.N = outsStar m 26 (Pipeline.arrRef spec12 w) c := by
  have eV : V25 m (outsStar m) = V25 m (lvl12 m) :=
    funext fun c => V25_congr m (outsStar m) (lvl12 m) (fun J hJ => agree12 m J hJ) c
  have eO : outsStar m 26 = fun r c => Vr (U12 m) c r := (agree13 m 26 (le_refl _)).trans (top12 m)
  rw [eV, eO]
  exact (Pipeline.withArrays_arr spec12 launch12.win.arr_inj c (V25 m (lvl12 m) c)
    (fun w => (dat12 (Vr (V25 m (lvl12 m))) c).arrAt w cfg12.N) w).symm

/-- The chosen contents satisfy `Good`. -/
theorem good : Good m (outsStar m) where
  g0_2 := fun c w _ => good0 m c w
  g1_2 := fun c w _ => good1 m c w
  g1_3 := fun c w _ => good1 m c w
  g1_4 := fun c w _ => good1 m c w
  g2_3 := fun c w _ => good2 m c w
  g3_2 := fun c w _ => good3 m c w
  g4_2 := fun c w _ => good4 m c w
  g4_3 := fun c w _ => good4 m c w
  g4_4 := fun c w _ => good4 m c w
  g5_3 := fun c w _ => good5 m c w
  g6_2 := fun c w _ => good6 m c w
  g7_2 := fun c w _ => good7 m c w
  g7_3 := fun c w _ => good7 m c w
  g7_4 := fun c w _ => good7 m c w
  g8_3 := fun c w _ => good8 m c w
  g9_2 := fun c w _ => good9 m c w
  g10_2 := fun c w _ => good10 m c w
  g10_3 := fun c w _ => good10 m c w
  g10_4 := fun c w _ => good10 m c w
  g11_3 := fun c w _ => good11 m c w
  g12_7 := fun c w _ => good12 m c w

end Cert.KernelIdeal.Hand

end
-- ==== Proof.KI.Frame.lean ====
import proofs.«113306_j49254684950634_1_alg».proof.Proof.KI.Seg0
import proofs.«113306_j49254684950634_1_alg».proof.Proof.KI.Seg1
import proofs.«113306_j49254684950634_1_alg».proof.Proof.KI.Seg2
import proofs.«113306_j49254684950634_1_alg».proof.Proof.KI.Seg3
import proofs.«113306_j49254684950634_1_alg».proof.Proof.KI.Seg4
import proofs.«113306_j49254684950634_1_alg».proof.Proof.KI.Seg5
import proofs.«113306_j49254684950634_1_alg».proof.Proof.KI.Seg6
import proofs.«113306_j49254684950634_1_alg».proof.Proof.KI.Seg7
import proofs.«113306_j49254684950634_1_alg».proof.Proof.KI.Seg8
import proofs.«113306_j49254684950634_1_alg».proof.Proof.KI.Seg9
import proofs.«113306_j49254684950634_1_alg».proof.Proof.KI.Seg10
import proofs.«113306_j49254684950634_1_alg».proof.Proof.KI.Seg11
import proofs.«113306_j49254684950634_1_alg».proof.Proof.KI.Seg12
import proofs.«113306_j49254684950634_1_alg».proof.Proof.KI.FrameVal
import proofs.«113306_j49254684950634_1_alg».proof.Proof.KI.Witness
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- The frame: when the contents chosen for the regions' outputs are what the regions leave, every weakly fair execution
    of @main from memory `m` with zero counters terminates, nothing faulting, and every argument array ends as launched. -/
theorem frame (ρ : Dev nD → PrngReg) (hg : Good m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond (m := m) (EP := emb₁) (ι := ()) (𝒱₀ := 𝒱₀) (L := L) (lv := lv) (hL := fun _ _ => rfl) (ρ := ρ) (outs := outs)
    (pdats := pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, HO⟩; iexact HO)
    (R0 := reg0 m outs hg) (hpre0 := fun _ => .rfl) (hpost0 := fun _ => .rfl)
    (R1 := reg1 m outs hg) (hpre1 := fun _ => .rfl) (hpost1 := fun _ => .rfl)
    (R2 := reg2 m outs hg) (hpre2 := fun _ => .rfl) (hpost2 := fun _ => .rfl)
    (R3 := reg3 m outs hg) (hpre3 := fun _ => .rfl) (hpost3 := fun _ => .rfl)
    (R4 := reg4 m outs hg) (hpre4 := fun _ => .rfl) (hpost4 := fun _ => .rfl)
    (R5 := reg5 m outs hg) (hpre5 := fun _ => .rfl) (hpost5 := fun _ => .rfl)
    (R6 := reg6 m outs hg) (hpre6 := fun _ => .rfl) (hpost6 := fun _ => .rfl)
    (R7 := reg7 m outs hg) (hpre7 := fun _ => .rfl) (hpost7 := fun _ => .rfl)
    (R8 := reg8 m outs hg) (hpre8 := fun _ => .rfl) (hpost8 := fun _ => .rfl)
    (R9 := reg9 m outs hg) (hpre9 := fun _ => .rfl) (hpost9 := fun _ => .rfl)
    (R10 := reg10 m outs hg) (hpre10 := fun _ => .rfl) (hpost10 := fun _ => .rfl)
    (R11 := reg11 m outs hg) (hpre11 := fun _ => .rfl) (hpost11 := fun _ => .rfl)
    (R12 := reg12 m outs hg) (hpre12 := fun _ => .rfl) (hpost12 := fun _ => .rfl)

set_option backward.isDefEq.respectTransparency.types false in
/-- The run with the result named: when the contents chosen for the regions' outputs are what the regions leave, every weakly fair execution
    of @main from memory `m` with zero counters terminates, nothing faulting, the result buffer ends at the last region's output and every argument array ends as launched. -/
theorem run_val (ρ : Dev nD → PrngReg) (hg : Good m outs) :
    θ_run defs (onTc (τ := τ) (main (F := F))) ⟨m, fun _ => 0, ρ⟩ (fun r => ∀ c : Dev nD,
      r.2.mem ((c.tc : Thread nD τ).loc main_v205) = outs 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond_val (m := m) (EP := emb₁) (ι := ()) (𝒱₀ := 𝒱₀) (L := L) (lv := lv) (hL := fun _ _ => rfl) (ρ := ρ) (outs := outs)
    (pdats := pdats m outs) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, HO⟩; iexact HO)
    (R0 := reg0 m outs hg) (hpre0 := fun _ => .rfl) (hpost0 := fun _ => .rfl)
    (R1 := reg1 m outs hg) (hpre1 := fun _ => .rfl) (hpost1 := fun _ => .rfl)
    (R2 := reg2 m outs hg) (hpre2 := fun _ => .rfl) (hpost2 := fun _ => .rfl)
    (R3 := reg3 m outs hg) (hpre3 := fun _ => .rfl) (hpost3 := fun _ => .rfl)
    (R4 := reg4 m outs hg) (hpre4 := fun _ => .rfl) (hpost4 := fun _ => .rfl)
    (R5 := reg5 m outs hg) (hpre5 := fun _ => .rfl) (hpost5 := fun _ => .rfl)
    (R6 := reg6 m outs hg) (hpre6 := fun _ => .rfl) (hpost6 := fun _ => .rfl)
    (R7 := reg7 m outs hg) (hpre7 := fun _ => .rfl) (hpost7 := fun _ => .rfl)
    (R8 := reg8 m outs hg) (hpre8 := fun _ => .rfl) (hpost8 := fun _ => .rfl)
    (R9 := reg9 m outs hg) (hpre9 := fun _ => .rfl) (hpost9 := fun _ => .rfl)
    (R10 := reg10 m outs hg) (hpre10 := fun _ => .rfl) (hpost10 := fun _ => .rfl)
    (R11 := reg11 m outs hg) (hpre11 := fun _ => .rfl) (hpost11 := fun _ => .rfl)
    (R12 := reg12 m outs hg) (hpre12 := fun _ => .rfl) (hpost12 := fun _ => .rfl)

/-- The frame at the contents the regions leave: every weakly fair execution of @main terminates, nothing faulting, with
    every argument array as launched. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame m (outsStar m) ρ (good m)

/-- The run with the result named, at the contents the regions leave: the result buffer ends at what the last region's
    write-back leaves, every argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v205) = outsStar m 26 main_v205 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_val m (outsStar m) ρ (good m)

end Cert.KernelIdeal.Hand

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.KI.Val0.lean ====
import proofs.«113306_j49254684950634_1_alg».proof.Proof.KI.R0
import proofs.«113306_j49254684950634_1_alg».proof.Proof.LibMatmulNN
import Idealize.ShloMosaic.Lib.Pipeline.Value
import Idealize.ShloMosaic.Lib.ValueIdx
import Idealize.ShloMosaic.Lib.Tactic

/-! # Region 0 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The product of the row-block array `h` ([50000, 64]) with the weight array `W` ([64, 64]), entry by entry. -/
def G0_2 (h : S50000x64.Idx → Elt Ideal .f32) (W : S64x64.Idx → Elt Ideal .f32) : S50000x64.Idx → Elt Ideal .f32 :=
  fun i => ∑ k : Fin 64, h (ix2 (i 0 : Fin 50000) k) * W (ix2 k (i 1 : Fin 64))

/-- The body's payload at an entry: the format changes are the identity on extended reals, and the matrix product
    into the zero accumulator is the sum of products. -/
theorem pay0_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  simp only [shapeCast_self]
  exact Cert.LibMatmulNN.matmul_zero_apply dot_S5000x64_S64x64_S5000x64_1_0_0_1_n_n rfl none _ _ p q

/-- The printed index maps over the grid: the row blocks of windows 0 and 2 are the grid point's, every other block
    index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is row `5000 t + p` of the array. -/
def row0 (t : Fin cfg0.N) (p : Fin 5000) : Fin 50000 :=
  ⟨5000 * t.val + p.val, by have := t.isLt; have hN : cfg0.N = 10 := N_0; have := p.isLt; omega⟩

/-- Where an index of point `t`'s block sits in its array, window by window. -/
theorem emb0_0 (t : Fin cfg0.N) (p : Fin 5000) (k : Fin 64) :
    ((cfg0.win 0).blk t).view.emb (ix2 p k) = ix2 (row0 t p) k := by
  obtain ⟨e0, e1, e2, e3, e4, e5⟩ := idx0 t
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega
theorem emb0_1 (t : Fin cfg0.N) (k : Fin 64) (q : Fin 64) :
    ((cfg0.win 1).blk t).view.emb (ix2 k q) = ix2 k q := by
  obtain ⟨e0, e1, e2, e3, e4, e5⟩ := idx0 t
  funext a; apply Fin.ext
  match a with
  | ⟨0, _⟩ => show win0_1.index t (0 : Fin 2) * 64 + 1 * k.val = k.val; omega
  | ⟨1, _⟩ => show win0_1.index t (1 : Fin 2) * 64 + 1 * q.val = q.val; omega
theorem emb0_2 (t : Fin cfg0.N) (p : Fin 5000) (q : Fin 64) :
    ((cfg0.win 2).blk t).view.emb (ix2 p q) = ix2 (row0 t p) q := by
  obtain ⟨e0, e1, e2, e3, e4, e5⟩ := idx0 t
  funext a; apply Fin.ext
  match a with
  | ⟨0, _⟩ => show win0_2.index t (0 : Fin 2) * 5000 + 1 * p.val = 5000 * t.val + p.val; omega
  | ⟨1, _⟩ => show win0_2.index t (1 : Fin 2) * 64 + 1 * q.val = q.val; omega

/-- The input blocks read at an entry, as entries of their arrays. -/
theorem iblk0_0_apply (c : Dev nD) (t : Fin cfg0.N) (p : Fin 5000) (k : Fin 64) :
    iblk0 V c 0 t (ix2 p k) = V c (Pipeline.arrRef spec0 0) (ix2 (row0 t p) k) := by
  show V c (Pipeline.arrRef spec0 0) (((cfg0.win 0).blk t).view.emb (ix2 p k)) = _
  rw [emb0_0]
theorem iblk0_1_apply (c : Dev nD) (t : Fin cfg0.N) (k : Fin 64) (q : Fin 64) :
    iblk0 V c 1 t (ix2 k q) = V c (Pipeline.arrRef spec0 1) (ix2 k q) := by
  show V c (Pipeline.arrRef spec0 1) (((cfg0.win 1).blk t).view.emb (ix2 k q)) = _
  rw [emb0_1]

/-- What point `t` writes back is block `t` of `G0_2` of the input arrays as the region finds them. -/
theorem flushed0_2_eq (c : Dev nD) (t : Fin cfg0.N) :
    (dat0 (F := Ideal) V c).flushed 2 t
      = ((cfg0.win 2).blk t).view.read (Elt Ideal) (G0_2 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S5000x64) hz0, View.ld_unit_zero (S := S64x64) hz0]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = G0_2 _ _ (((cfg0.win 2).blk t).view.emb (ix2 p q))
  rw [pay0_apply, emb0_2]
  refine Finset.sum_congr rfl fun k _ => ?_
  rw [iblk0_0_apply, iblk0_1_apply]

/-- An index of the output array is in point `t`'s block iff each coordinate is in the block's range on its axis. -/
theorem mem_blk0_2 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v38).slice (win0_2.rect t)).set ↔ _
  rw [View.set_slice_whole, Rect.mem_set_unit]
  exact Iff.rfl

/-- Every index of the output array is in the block of the point its row falls in: rows 5000 t … 5000 t + 4999. -/
theorem cover0_2_arr (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨e0, e1, e2, e3, e4, e5⟩ := idx0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region's last point is `G0_2` of the two input arrays as the region finds them. -/
theorem final0_2 (c : Dev nD) :
    (dat0 (F := Ideal) V c).arrAt 2 cfg0.N = G0_2 (V c (Pipeline.arrRef spec0 0)) (V c (Pipeline.arrRef spec0 1)) :=
  (dat0 (F := Ideal) V c).arrAt_eq_of_cover 2 (G0_2 (V c (Pipeline.arrRef spec0 0)) (V c (Pipeline.arrRef spec0 1)))
    (fun t _ => flushed0_2_eq V c t) cover0_2_arr

end Cert.KernelIdeal.HandVal
-- ==== Proof.LibRowLayout.lean ====
/-
  Row vectors on the host, read at an index given by coordinates.

  A per-column quantity of an `[R, C]` array — a column's sum, its mean, a scale — lives in a `[C]` vector. The host
  lifts it to `[1, C]` and repeats that one row over the `R` rows (two `broadcast_in_dim`s), and it spreads a
  rank-zero constant over any shape. Each of these, read at `(p, c)`, is the vector at `c` (or the constant), and the
  host's sum of an `[R, C]` array over its rows, read at column `c`, is the initial value plus the sum over `p` of the
  array at `(p, c)`; a kernel's lane-wise sum of an `[R, C]` block over its rows reads the same sum, with no
  initial value.
-/
import Idealize.ShloMosaic.Lib.ValueIdx
import Idealize.ShloMosaic.Lib.Pipeline.Value
import Idealize.ShloMosaic.PureOps.Ideal.Laws

noncomputable section

namespace RowLayout

open Idealize.ShloMosaic Idealize.ShloMosaic.ValueIdx

variable {α : Type}

/-- A `[b]` vector lifted to `[1, b]` along the last axis reads, at `(u, c)`, the vector at `c`. -/
theorem liftRow_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- A `[1, b]` row repeated over `a` rows reads, at `(p, c)`, the row at `c`. -/
theorem repeatRow_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

/-- A rank-zero value spread over any shape reads that value everywhere. -/
theorem spread_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply (![] : Fin 0 → Fin t.rank) h x j ix0 fun ax => ax.elim0

/-- The host's sum of an `[R, C]` array over its rows, read at column `c`: the initial value plus the sum over the rows. -/
theorem hostColSum_apply {R C : ℕ} {φ : FTy} (x : FVec Ideal ⟨2, ![R, C]⟩ φ) (z : (⟨0, ![]⟩ : Shape).Idx → Ideal φ)
    (h' : (⟨2, ![R, C]⟩ : Shape).ReducesTo [0] ⟨1, ![C]⟩) (hu : 0 < (⟨0, ![]⟩ : Shape).numel) (c : Fin C) :
    Host.reduceAdd (F := Ideal) x z h' hu (ix1 c) = z ix0 + ∑ p : Fin R, x (ix2 p c) := by
  have h : (⟨2, ![R, C]⟩ : Shape).Reduces [0] ⟨1, ![C]⟩ := by
    obtain ⟨h1, h2⟩ := h'
    exact ⟨h1, Nat.one_pos, h2⟩
  have hz : z (Shape.Idx.first hu) = z ix0 := congrArg z (funext fun a => a.elim0)
  show Ideal.hostReduceAdd h' x (z (Shape.Idx.first hu)) (ix1 c) = _
  rw [Ideal.hostReduceAdd_single h' h, hz]
  refine congrArg (z ix0 + ·) ?_
  show ∑ p : Fin R, x (h.lift (ix1 c) p) = ∑ p : Fin R, x (ix2 p c)
  refine Finset.sum_congr rfl fun p _ => congrArg x (funext fun ax => Fin.ext ?_)
  match ax with
  | ⟨0, _⟩ => rfl
  | ⟨1, _⟩ => rfl

/-- A lane-wise sum (`vector.multi_reduction <add>`) of an `[R, C]` block over its rows, read at column `c`: the sum over
    the rows. -/
theorem laneColSum_apply {R C : ℕ} {φ : FTy} (src : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ)
    (c : Fin C) :
    multiReduction .add [0] ⟨1, ![C]⟩ src acc h hφ hacc (ix1 c) = ∑ p : Fin R, src (ix2 p c) := by
  refine (Ideal.multiReduction_add_single src acc h hφ hacc (ix1 c)).trans ?_
  show ∑ p : Fin R, src (h.lift (ix1 c) p) = ∑ p : Fin R, src (ix2 p c)
  refine Finset.sum_congr rfl fun p _ => congrArg src (funext fun ax => Fin.ext ?_)
  match ax with
  | ⟨0, _⟩ => rfl
  | ⟨1, _⟩ => rfl

end RowLayout

end
-- ==== Proof.LibBatchNormAlgebra.lean ====
/-
  Batch normalisation on the extended reals, for finite data, and sums taken tile by tile.

  A column of a batch-normalised layer is a family of reals `x i` over a finite index type with `N` elements.
  Written `S = ∑ x i` and `Q = ∑ (x i)²`, the mean is `μ = S / N` and the (biased) variance has two textbook forms,
  the one by moments `Q / N - μ²` and the centred one `(∑ (x i - μ)²) / N`. They are the same real number, and it is
  nonnegative, so that adding a positive `ε` gives a positive number whose reciprocal square root is again a real.
  Hence the normalised value in its folded affine form `x · (γ · r) + (β - μ · (γ · r))` — the scale and the shift
  computed once per column — and in its centred form `(x - μ) · r · γ + β` agree, and both are finite.

  The statements are over `EReal` for coerced reals, with the quotient and the reciprocal square root of the ideal
  float instance (`Ideal.div`, `Ideal.rsqrt`), so that they rewrite terms as a printed program spells them.

  A second part is about sums: a sum over `T * R` rows is the sum over the `T` tiles of the sums inside each tile,
  and an accumulator that starts from `z` and adds one tile's sum per step ends at `z` plus the whole sum.
-/
import Mathlib.Data.EReal.Inv
import Mathlib.Algebra.BigOperators.Fin
import Mathlib.Tactic
import Idealize.ShloMosaic.PureOps.Ideal

noncomputable section

namespace BatchNormAlgebra

open Idealize.ShloMosaic

variable {ι : Type*} [Fintype ι]

/-! ## The real numbers a column determines -/

/-- The mean `(∑ x i) / N`. -/
def mean (x : ι → ℝ) (N : ℝ) : ℝ := (∑ i, x i) / N

/-- The variance by moments, `(∑ (x i)²) / N - μ²`. -/
def varMoments (x : ι → ℝ) (N : ℝ) : ℝ := (∑ i, x i * x i) / N - mean x N * mean x N

/-- The centred variance, `(∑ (x i - μ)²) / N`. -/
def varCentred (x : ι → ℝ) (N : ℝ) : ℝ := (∑ i, (x i - mean x N) * (x i - mean x N)) / N

/-- The two forms of the variance are one number when `N` is the number of terms: expanding the square,
    `∑ (x i - μ)² = Q - 2 μ S + N μ² = Q - S² / N`. -/
theorem varMoments_eq_varCentred (x : ι → ℝ) {N : ℝ} (hN : N ≠ 0) (hcard : (Fintype.card ι : ℝ) = N) :
    varMoments x N = varCentred x N := by
  unfold varMoments varCentred
  have hsq : ∀ i, (x i - mean x N) * (x i - mean x N)
      = x i * x i - 2 * mean x N * x i + mean x N * mean x N := fun i => by ring
  simp only [hsq]
  rw [Finset.sum_add_distrib, Finset.sum_sub_distrib, ← Finset.mul_sum, Finset.sum_const, Finset.card_univ,
    nsmul_eq_mul, hcard]
  unfold mean
  field_simp
  ring

/-- A centred variance over a positive count is nonnegative: a sum of squares. -/
theorem varCentred_nonneg (x : ι → ℝ) {N : ℝ} (hN : 0 < N) : 0 ≤ varCentred x N :=
  div_nonneg (Finset.sum_nonneg fun i _ => mul_self_nonneg _) hN.le

/-! ## Coercions -/

/-- The coercion of a finite sum of reals is the sum of the coercions. -/
theorem coe_sum {κ : Type*} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real, at the ideal instance, is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- The quotient of a finite sum of coerced reals by a nonzero real is the coerced mean. -/
theorem div_sum_coe (x : ι → ℝ) {N : ℝ} (hN : N ≠ 0) :
    Ideal.div (∑ i, (x i : EReal)) (N : EReal) = ((mean x N : ℝ) : EReal) := by
  rw [Ideal.div_coe hN, ← coe_sum, ← EReal.coe_mul, mean]
  congr 1
  ring

/-- The variance by moments, spelt on the extended reals, is the coerced real. -/
theorem moments_coe (x : ι → ℝ) {N : ℝ} (hN : N ≠ 0) :
    Ideal.div (∑ i, (x i : EReal) * (x i : EReal)) (N : EReal)
        - ((mean x N : ℝ) : EReal) * ((mean x N : ℝ) : EReal)
      = ((varMoments x N : ℝ) : EReal) := by
  have hQ : ∑ i, (x i : EReal) * (x i : EReal) = ((∑ i, x i * x i : ℝ) : EReal) := by
    rw [coe_sum]
    exact Finset.sum_congr rfl fun i _ => (EReal.coe_mul _ _).symm
  rw [hQ, Ideal.div_coe hN, ← EReal.coe_mul, ← EReal.coe_mul, ← EReal.coe_sub, varMoments]
  congr 1
  ring

/-- The centred variance, spelt on the extended reals, is the coerced real. -/
theorem centred_coe (x : ι → ℝ) {N : ℝ} (hN : N ≠ 0) :
    Ideal.div (∑ i, ((x i : EReal) - ((mean x N : ℝ) : EReal)) * ((x i : EReal) - ((mean x N : ℝ) : EReal)))
        (N : EReal)
      = ((varCentred x N : ℝ) : EReal) := by
  have hC : ∑ i, ((x i : EReal) - ((mean x N : ℝ) : EReal)) * ((x i : EReal) - ((mean x N : ℝ) : EReal))
      = ((∑ i, (x i - mean x N) * (x i - mean x N) : ℝ) : EReal) := by
    rw [coe_sum]
    exact Finset.sum_congr rfl fun i _ => by rw [← EReal.coe_sub, ← EReal.coe_mul]
  rw [hC, Ideal.div_coe hN, ← EReal.coe_mul, varCentred]
  congr 1
  ring

/-! ## The normalised value -/

/-- The centred form of the normalised value is a real. -/
theorem centred_form_coe (x : ι → ℝ) {N ε : ℝ} (γ β : ℝ) (hN : 0 < N) (hε : 0 < ε) (j : ι) :
    ((x j : EReal) - ((mean x N : ℝ) : EReal)) * Ideal.rsqrt (((varCentred x N : ℝ) : EReal) + (ε : EReal))
        * (γ : EReal) + (β : EReal)
      = (((x j - mean x N) * (Real.sqrt (varCentred x N + ε))⁻¹ * γ + β : ℝ) : EReal) := by
  have hpos : 0 < varCentred x N + ε := add_pos_of_nonneg_of_pos (varCentred_nonneg x hN) hε
  rw [← EReal.coe_add, rsqrt_coe_pos hpos, ← EReal.coe_sub, ← EReal.coe_mul, ← EReal.coe_mul, ← EReal.coe_add]

/-- The folded affine form `x · (γ · r) + (β - μ · (γ · r))`, with the variance by moments inside `r`, is the centred
    form `(x - μ) · r · γ + β` with the centred variance inside `r`. -/
theorem folded_eq_centred (x : ι → ℝ) {N ε : ℝ} (γ β : ℝ) (hN : 0 < N) (hcard : (Fintype.card ι : ℝ) = N)
    (hε : 0 < ε) (j : ι) :
    (x j : EReal) * ((γ : EReal) * Ideal.rsqrt (((varMoments x N : ℝ) : EReal) + (ε : EReal)))
        + ((β : EReal) - ((mean x N : ℝ) : EReal)
            * ((γ : EReal) * Ideal.rsqrt (((varMoments x N : ℝ) : EReal) + (ε : EReal))))
      = ((x j : EReal) - ((mean x N : ℝ) : EReal)) * Ideal.rsqrt (((varCentred x N : ℝ) : EReal) + (ε : EReal))
          * (γ : EReal) + (β : EReal) := by
  have hpos : 0 < varCentred x N + ε := add_pos_of_nonneg_of_pos (varCentred_nonneg x hN) hε
  rw [varMoments_eq_varCentred x hN.ne' hcard, ← EReal.coe_add, rsqrt_coe_pos hpos]
  simp only [← EReal.coe_mul, ← EReal.coe_sub, ← EReal.coe_add]
  congr 1
  ring

/-- The positive part of a real, taken on the extended reals against the coerced zero, is the coerced positive part. -/
theorem max_coe_zero (a : ℝ) : max (a : EReal) ((0 : ℝ) : EReal) = ((max a 0 : ℝ) : EReal) :=
  (EReal.coe_strictMono.monotone.map_max (a := a) (b := 0)).symm

/-! ## Sums tile by tile -/

/-- A sum over `T * R` rows is the sum over the `T` tiles of the sums over the `R` rows of each tile; row `r` of
    tile `t` is row `r + R * t`. -/
theorem sum_tiles {M : Type*} [AddCommMonoid M] (T R : ℕ) (f : Fin (T * R) → M) :
    ∑ i, f i = ∑ t : Fin T, ∑ r : Fin R, f (finProdFinEquiv (t, r)) := by
  rw [← Fintype.sum_prod_type', ← Equiv.sum_comp finProdFinEquiv f]

/-- The row of `finProdFinEquiv (t, r)`. -/
theorem tile_row_val (T R : ℕ) (t : Fin T) (r : Fin R) :
    (finProdFinEquiv (t, r) : Fin (T * R)).val = r.val + R * t.val := rfl

/-- An accumulator that starts at `z` and adds `a t` at step `t`. -/
def accum {M : Type*} [AddCommMonoid M] (z : M) (a : ℕ → M) : ℕ → M
  | 0 => z
  | n + 1 => accum z a n + a n

/-- After `n` steps the accumulator holds its start plus the sum of what the steps added. -/
theorem accum_eq {M : Type*} [AddCommMonoid M] (z : M) (a : ℕ → M) (n : ℕ) :
    accum z a n = z + ∑ t ∈ Finset.range n, a t := by
  induction n with
  | zero => simp [accum]
  | succ n ih => rw [accum, ih, Finset.sum_range_succ, add_assoc]

end BatchNormAlgebra

end
-- ==== Proof.KI.Val1.lean ====
import proofs.«113306_j49254684950634_1_alg».proof.Proof.KI.R1
import proofs.«113306_j49254684950634_1_alg».proof.Proof.LibRowLayout
import proofs.«113306_j49254684950634_1_alg».proof.Proof.LibBatchNormAlgebra
import Idealize.ShloMosaic.Lib.ValueIdx
import Idealize.ShloMosaic.Lib.Pipeline.Value
import Idealize.ShloMosaic.PureOps.Ideal.Laws

/-! # Region 1 on the extended reals: what its three outputs hold at the end

The first output is the input plus the bias row repeated over the rows. The second and third are, column by column,
the sum over all 50000 rows of the first output and of its square: the body adds one 5000-row tile's column sums per
grid point to a row it carries between points, ten tiles in all, and a sum over `10 · 5000` rows is the sum over the
tiles of the sums inside each tile. Addition of extended reals is associative and commutative, so no finiteness is
needed. -/

set_option maxRecDepth 16384

noncomputable section

namespace Cert.KernelIdeal.HandVal

open Cert.KernelIdeal Cert.KernelIdeal.Gen Idealize.ShloMosaic Idealize.ShloMosaic.ValueIdx
open scoped BigOperators

/-! ## The body's stored values, read at an index, on the extended reals

`x` is a 5000-row tile, `b` the bias row, `a` a carried row. The output tile is `x + b` with `b` repeated over the
rows; a carried row gains, at column `q`, the sum over the tile's rows of the output tile (of its square) at `q`. -/

/-- The zero row is zero everywhere. -/
theorem zeroRow1_apply (q : Fin 64) : k1_pay1 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

theorem zeroRow1'_apply (q : Fin 64) : k1_pay2 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

/-- The output tile at row `p`, column `q`: the tile there plus the bias at `q`. -/
theorem conv1_apply (x : Vec Ideal S5000x64 .f32) (b : Vec Ideal S1x64 .f32) (p : Fin 5000) (q : Fin 64) :
    k1_pay3 (F := Ideal) x b (ix2 p q) = x (ix2 p q) + b (ix2 (0 : Fin 1) q) := by
  unfold k1_pay3
  refine (addf_apply _ _ (ix2 p q)).trans ?_
  refine congrArg₂ (· + ·) (congrFun (shapeCast_self x _) _) ?_
  refine (broadcastTo_apply _ _ (ix2 p q) (ix2 (0 : Fin 1) q) fun a => ?_).trans (congrFun (shapeCast_self b _) _)
  match a with
  | ⟨0, _⟩ => rfl
  | ⟨1, _⟩ => rfl

/-- A lane-wise sum of a 5000-row tile over its rows, lifted to a one-row block, read at column `q`. -/
theorem colSum1_apply (src : FVec Ideal S5000x64 .f32) (q : Fin 64) :
    shapeCast S1x64 (multiReduction (F := Ideal) .add [0] S64 src 0x00000000#32 reduces_S5000x64_S64 (.inl rfl) rfl) shapeCasts_S64_S1x64 (ix2 (0 : Fin 1) q)
      = ∑ p : Fin 5000, src (ix2 p q) := by
  refine (shapeCast_addUnit_apply ![64] _ _ (ix2 (0 : Fin 1) q)).trans ?_
  have e : (fun a : Fin 1 => (ix2 (0 : Fin 1) q) a.succ) = ix1 q := by
    funext a; match a with | ⟨0, _⟩ => rfl
  exact (congrArg _ e).trans (RowLayout.laneColSum_apply src _ _ _ _ q)

/-- The first carried row after a point: what it held plus the output tile's column sums. -/
theorem sumRow1_apply (x : Vec Ideal S5000x64 .f32) (b a : Vec Ideal S1x64 .f32) (q : Fin 64) :
    k1_pay4 (F := Ideal) x b a (ix2 (0 : Fin 1) q)
      = a (ix2 (0 : Fin 1) q) + ∑ p : Fin 5000, k1_pay3 (F := Ideal) x b (ix2 p q) := by
  unfold k1_pay4
  refine (congrFun (shapeCast_self _ _) (ix2 (0 : Fin 1) q)).trans ?_
  refine (addf_apply _ _ (ix2 (0 : Fin 1) q)).trans ?_
  exact congrArg (a (ix2 (0 : Fin 1) q) + ·) (colSum1_apply _ q)

/-- The second carried row after a point: what it held plus the column sums of the output tile's squares. -/
theorem sqRow1_apply (x : Vec Ideal S5000x64 .f32) (b a : Vec Ideal S1x64 .f32) (q : Fin 64) :
    k1_pay5 (F := Ideal) x b a (ix2 (0 : Fin 1) q)
      = a (ix2 (0 : Fin 1) q) + ∑ p : Fin 5000, k1_pay3 (F := Ideal) x b (ix2 p q) * k1_pay3 (F := Ideal) x b (ix2 p q) := by
  unfold k1_pay5
  refine (congrFun (shapeCast_self _ _) (ix2 (0 : Fin 1) q)).trans ?_
  refine (addf_apply _ _ (ix2 (0 : Fin 1) q)).trans ?_
  refine congrArg (a (ix2 (0 : Fin 1) q) + ·) ((colSum1_apply _ q).trans ?_)
  exact Finset.sum_congr rfl fun p _ => mulf_apply _ _ _

open Cert.KernelIdeal.Hand Idealize.ShloMosaic.TcCoe Idealize.SL.Sem
open Idealize.ShloMosaic.Pipeline (Dat)

/-! ## What the three outputs hold at the end, as functions of the two inputs

`x` is the whole 50000-row input, `b` the bias row. -/

/-- The first output: `x` plus the bias row repeated over the rows. -/
def G1_2 (x : S50000x64.Idx → EReal) (b : S1x64.Idx → EReal) : S50000x64.Idx → EReal :=
  fun i => x i + b (ix2 (0 : Fin 1) (i 1 : Fin 64))

/-- The second: at column `q`, the sum of the first output's column `q` over all 50000 rows. -/
def G1_3 (x : S50000x64.Idx → EReal) (b : S1x64.Idx → EReal) : S1x64.Idx → EReal :=
  fun i => ∑ r : Fin 50000, G1_2 x b (ix2 r (i 1 : Fin 64))

/-- The third: likewise of the squares. -/
def G1_4 (x : S50000x64.Idx → EReal) (b : S1x64.Idx → EReal) : S1x64.Idx → EReal :=
  fun i => ∑ r : Fin 50000, G1_2 x b (ix2 r (i 1 : Fin 64)) * G1_2 x b (ix2 r (i 1 : Fin 64))

variable (V : (c : Dev nD) → (b : Ref sig .tc) → Buf (Elt Ideal) ((c : Thread nD τ).loc b))

/-! ## Where the blocks sit -/

/-- The block indices, decided over the ten points: the tile and the output tile are at row block `t`, the three
    one-row windows never move. -/
theorem idx1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of the tile at point `t` is row `5000 t + p` of the input. -/
theorem tile1_apply (c : Dev nD) (t : Fin cfg1.N) (p : Fin 5000) (q : Fin 64) (r : Fin 50000) (hr : r.val = 5000 * t.val + p.val) :
    iblk1 V c 0 t (ix2 p q) = V c (Pipeline.arrRef spec1 0) (ix2 r q) := by
  obtain ⟨e00, e01, -⟩ := idx1 t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega

/-- The bias row's block is the bias row at every point. -/
theorem bias1_apply (c : Dev nD) (t : Fin cfg1.N) (q : Fin 64) :
    iblk1 V c 1 t (ix2 (0 : Fin 1) q) = V c (Pipeline.arrRef spec1 1) (ix2 (0 : Fin 1) q) := by
  obtain ⟨-, -, e10, e11, -⟩ := idx1 t
  show V c (Pipeline.arrRef spec1 1) (((cfg1.win 1).blk t).view.emb (ix2 (0 : Fin 1) q)) = _
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega

/-- So the output tile at point `t`, row `p`, is the first output's specification at row `5000 t + p`. -/
theorem convTile1_apply (c : Dev nD) (t : Fin cfg1.N) (p : Fin 5000) (q : Fin 64) (r : Fin 50000) (hr : r.val = 5000 * t.val + p.val) :
    k1_pay3 (F := Ideal) (iblk1 V c 0 t) (iblk1 V c 1 t) (ix2 p q)
      = G1_2 (V c (Pipeline.arrRef spec1 0)) (V c (Pipeline.arrRef spec1 1)) (ix2 r q) :=
  (conv1_apply _ _ p q).trans (congrArg₂ (· + ·) (tile1_apply V c t p q r hr) (bias1_apply V c t q))

/-! ## The carried rows are running sums over the points -/

/-- Point `m`'s contribution to the first carried row at column `q`: the column sum of its output tile (nothing
    beyond the grid). -/
def tileSum1 (c : Dev nD) (q : Fin 64) (m : ℕ) : EReal :=
  if h : m < cfg1.N then ∑ p : Fin 5000, k1_pay3 (F := Ideal) (iblk1 V c 0 ⟨m, h⟩) (iblk1 V c 1 ⟨m, h⟩) (ix2 p q) else 0

/-- and to the second: the column sum of the squares. -/
def tileSq1 (c : Dev nD) (q : Fin 64) (m : ℕ) : EReal :=
  if h : m < cfg1.N then ∑ p : Fin 5000, k1_pay3 (F := Ideal) (iblk1 V c 0 ⟨m, h⟩) (iblk1 V c 1 ⟨m, h⟩) (ix2 p q)
      * k1_pay3 (F := Ideal) (iblk1 V c 0 ⟨m, h⟩) (iblk1 V c 1 ⟨m, h⟩) (ix2 p q) else 0

/-- After point `n` the first carried row holds, at column `q`, the contributions of points `0 … n`: by induction
    on `n`, the first point starting from the zero row. -/
theorem acc1_fst_apply (c : Dev nD) (q : Fin 64) :
    ∀ (n : ℕ) (hn : n < cfg1.N), (acc1 V c n hn).1 (ix2 (0 : Fin 1) q) = ∑ m ∈ Finset.range (n + 1), tileSum1 V c q m
  | 0, hn => by
    show k1_pay4 (F := Ideal) (iblk1 V c 0 ⟨0, hn⟩) (iblk1 V c 1 ⟨0, hn⟩) (k1_pay1 (F := Ideal)) (ix2 (0 : Fin 1) q) = _
    refine (sumRow1_apply _ _ _ q).trans ?_
    refine (congrArg₂ (· + ·) (zeroRow1_apply q) (Eq.refl _)).trans ?_
    simp only [zero_add, Finset.sum_range_one]
    unfold tileSum1
    rw [dif_pos hn]
  | n + 1, hn => by
    show k1_pay4 (F := Ideal) (iblk1 V c 0 ⟨n + 1, hn⟩) (iblk1 V c 1 ⟨n + 1, hn⟩) (acc1 V c n (Nat.lt_of_succ_lt hn)).1 (ix2 (0 : Fin 1) q) = _
    refine (sumRow1_apply _ _ _ q).trans ?_
    exact (congrArg₂ (· + ·) (acc1_fst_apply c q n (Nat.lt_of_succ_lt hn)) (dif_pos hn).symm).trans (Finset.sum_range_succ _ _).symm

/-- Likewise the second. -/
theorem acc1_snd_apply (c : Dev nD) (q : Fin 64) :
    ∀ (n : ℕ) (hn : n < cfg1.N), (acc1 V c n hn).2 (ix2 (0 : Fin 1) q) = ∑ m ∈ Finset.range (n + 1), tileSq1 V c q m
  | 0, hn => by
    show k1_pay5 (F := Ideal) (iblk1 V c 0 ⟨0, hn⟩) (iblk1 V c 1 ⟨0, hn⟩) (k1_pay2 (F := Ideal)) (ix2 (0 : Fin 1) q) = _
    refine (sqRow1_apply _ _ _ q).trans ?_
    refine (congrArg₂ (· + ·) (zeroRow1'_apply q) (Eq.refl _)).trans ?_
    simp only [zero_add, Finset.sum_range_one]
    unfold tileSq1
    rw [dif_pos hn]
  | n + 1, hn => by
    show k1_pay5 (F := Ideal) (iblk1 V c 0 ⟨n + 1, hn⟩) (iblk1 V c 1 ⟨n + 1, hn⟩) (acc1 V c n (Nat.lt_of_succ_lt hn)).2 (ix2 (0 : Fin 1) q) = _
    refine (sqRow1_apply _ _ _ q).trans ?_
    exact (congrArg₂ (· + ·) (acc1_snd_apply c q n (Nat.lt_of_succ_lt hn)) (dif_pos hn).symm).trans (Finset.sum_range_succ _ _).symm

/-- Over the ten points the contributions add up to the sum over all 50000 rows: row `p` of tile `t` is row
    `5000 t + p`, and a sum over `10 · 5000` rows is the sum over the tiles of the sums inside each. -/
theorem total1_3 (c : Dev nD) (q : Fin 64) :
    ∑ m ∈ Finset.range 10, tileSum1 V c q m = G1_3 (V c (Pipeline.arrRef spec1 0)) (V c (Pipeline.arrRef spec1 1)) (ix2 (0 : Fin 1) q) := by
  rw [Finset.sum_range]
  show _ = ∑ r : Fin 50000, G1_2 (V c (Pipeline.arrRef spec1 0)) (V c (Pipeline.arrRef spec1 1)) (ix2 r q)
  refine Eq.trans ?_ (BatchNormAlgebra.sum_tiles 10 5000 fun r : Fin (10 * 5000) => G1_2 (V c (Pipeline.arrRef spec1 0)) (V c (Pipeline.arrRef spec1 1)) (ix2 r q)).symm
  refine Finset.sum_congr rfl fun t _ => ?_
  have ht : t.val < cfg1.N := lt_of_lt_of_eq t.isLt (show cfg1.N = 10 from N_1).symm
  refine (dif_pos ht).trans (Finset.sum_congr rfl fun p _ => ?_)
  have hr : (finProdFinEquiv (t, p) : Fin (10 * 5000)).val = 5000 * (⟨t.val, ht⟩ : Fin cfg1.N).val + p.val := by
    rw [BatchNormAlgebra.tile_row_val]; show p.val + 5000 * t.val = 5000 * t.val + p.val; omega
  exact convTile1_apply V c ⟨t.val, ht⟩ p q (finProdFinEquiv (t, p)) hr

/-- Over the ten points the contributions add up to the sum over all 50000 rows: row `p` of tile `t` is row
    `5000 t + p`, and a sum over `10 · 5000` rows is the sum over the tiles of the sums inside each. -/
theorem total1_4 (c : Dev nD) (q : Fin 64) :
    ∑ m ∈ Finset.range 10, tileSq1 V c q m = G1_4 (V c (Pipeline.arrRef spec1 0)) (V c (Pipeline.arrRef spec1 1)) (ix2 (0 : Fin 1) q) := by
  rw [Finset.sum_range]
  show _ = ∑ r : Fin 50000, G1_2 (V c (Pipeline.arrRef spec1 0)) (V c (Pipeline.arrRef spec1 1)) (ix2 r q) * G1_2 (V c (Pipeline.arrRef spec1 0)) (V c (Pipeline.arrRef spec1 1)) (ix2 r q)
  refine Eq.trans ?_ (BatchNormAlgebra.sum_tiles 10 5000 fun r : Fin (10 * 5000) => G1_2 (V c (Pipeline.arrRef spec1 0)) (V c (Pipeline.arrRef spec1 1)) (ix2 r q) * G1_2 (V c (Pipeline.arrRef spec1 0)) (V c (Pipeline.arrRef spec1 1)) (ix2 r q)).symm
  refine Finset.sum_congr rfl fun t _ => ?_
  have ht : t.val < cfg1.N := lt_of_lt_of_eq t.isLt (show cfg1.N = 10 from N_1).symm
  refine (dif_pos ht).trans (Finset.sum_congr rfl fun p _ => ?_)
  have hr : (finProdFinEquiv (t, p) : Fin (10 * 5000)).val = 5000 * (⟨t.val, ht⟩ : Fin cfg1.N).val + p.val := by
    rw [BatchNormAlgebra.tile_row_val]; show p.val + 5000 * t.val = 5000 * t.val + p.val; omega
  exact congrArg₂ (· * ·) (convTile1_apply V c ⟨t.val, ht⟩ p q (finProdFinEquiv (t, p)) hr) (convTile1_apply V c ⟨t.val, ht⟩ p q (finProdFinEquiv (t, p)) hr)

/-! ## From blocks to the arrays -/

/-- The output tile at point `t`, read at any index of the tile, is the specification at the index's place in the
    whole output. -/
theorem conv_blk1 (c : Dev nD) (t : Fin cfg1.N) (j : S5000x64.Idx) :
    k1_pay3 (F := Ideal) (iblk1 V c 0 t) (iblk1 V c 1 t) j = G1_2 (V c (Pipeline.arrRef spec1 0)) (V c (Pipeline.arrRef spec1 1)) (((cfg1.win 2).blk t).view.emb j) := by
  obtain ⟨p, q, rfl⟩ : ∃ (p : Fin 5000) (q : Fin 64), j = ix2 p q := ⟨j 0, j 1, eq_ix2 j⟩
  have hidx := idx1 t
  have hN : t.val < 10 := lt_of_lt_of_eq t.isLt (show cfg1.N = 10 from N_1)
  have hr : 5000 * t.val + p.val < 50000 := by have := p.isLt; omega
  have he : ((cfg1.win 2).blk t).view.emb (ix2 p q) = ix2 (⟨5000 * t.val + p.val, hr⟩ : Fin 50000) q := by
    funext a; apply Fin.ext
    match a with
    | ⟨0, _⟩ => show win1_2.index t (0 : Fin 2) * 5000 + 1 * p.val = 5000 * t.val + p.val; omega
    | ⟨1, _⟩ => show win1_2.index t (1 : Fin 2) * 64 + 1 * q.val = q.val; omega
  rw [he]
  exact convTile1_apply V c t p q _ rfl

/-- What point `t` writes back to the first output is its block of the specification. -/
theorem flushed1_2_eq (c : Dev nD) (t : Fin cfg1.N) :
    (dat1 (F := Ideal) V c).flushed 2 t = ((cfg1.win 2).blk t).view.read (Elt Ideal) (G1_2 (V c (Pipeline.arrRef spec1 0)) (V c (Pipeline.arrRef spec1 1))) := by
  show (cfg1.win 2).cut (grid1.coords t) ((dat1 V c).after 2 t) = _
  rw [after1_2]
  exact funext fun j => conv_blk1 V c t j

/-- An index of the first output is in point `t`'s block iff each coordinate is in the block's range. -/
theorem mem_blk1_2 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole (Pipeline.arrRef spec1 2)).slice (win1_2.rect t)).set ↔ _
  rw [View.set_slice_whole, Rect.mem_set_unit]
  exact Iff.rfl

/-- Row `r` is in the block of point `r / 5000`: the ten tiles cover the output. -/
theorem cover1_2 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hlt : (i 0).val / 5000 < cfg1.N := by rw [show cfg1.N = 10 from N_1]; omega
  have hidx := idx1 ⟨(i 0).val / 5000, hlt⟩
  refine ⟨⟨(i 0).val / 5000, hlt⟩, flush1_2 _, ?_⟩
  rw [mem_blk1_2]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000
              have e : win1_2.index ⟨(i 0).val / 5000, hlt⟩ (0 : Fin 2) = (i 0).val / 5000 := hidx.2.2.2.2.1
              omega
  | ⟨1, _⟩ => show win1_2.index ⟨(i 0).val / 5000, hlt⟩ (1 : Fin 2) * 64 ≤ (i 1).val ∧ (i 1).val < win1_2.index ⟨(i 0).val / 5000, hlt⟩ (1 : Fin 2) * 64 + 64
              have e : win1_2.index ⟨(i 0).val / 5000, hlt⟩ (1 : Fin 2) = 0 := hidx.2.2.2.2.2.1
              omega

/-- THE FIRST OUTPUT after the run: the input plus the bias row, everywhere. -/
theorem final1_2 (c : Dev nD) :
    (dat1 (F := Ideal) V c).arrAt 2 cfg1.N = G1_2 (V c (Pipeline.arrRef spec1 0)) (V c (Pipeline.arrRef spec1 1)) :=
  (dat1 V c).arrAt_eq_of_cover 2 _ (fun t _ => flushed1_2_eq V c t) cover1_2

/-- An index of the one-row output is in a point's block iff each coordinate is in the block's range. -/
theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole (Pipeline.arrRef spec1 3)).slice (win1_3.rect t)).set ↔ _
  rw [View.set_slice_whole, Rect.mem_set_unit]
  exact Iff.rfl

/-- Reading any one-row array through a point's block, at an index of the block, is the array at the index's place. -/
theorem read_blk1_3 (t : Fin cfg1.N) (G : S1x64.Idx → EReal) (j : S1x64.Idx) :
    ((cfg1.win 3).blk t).view.read (Elt Ideal) G j = G (((cfg1.win 3).blk t).view.emb j) := rfl

/-- At the last point the carried row, read through the output's block, is the specification. -/
theorem row_blk1_3 (c : Dev nD) (t : Fin cfg1.N) (h9 : t.val = 9) (j : S1x64.Idx) :
    (acc1 V c t.val t.isLt).1 j = G1_3 (V c (Pipeline.arrRef spec1 0)) (V c (Pipeline.arrRef spec1 1)) (((cfg1.win 3).blk t).view.emb j) := by
  obtain ⟨u, q, rfl⟩ : ∃ (u : Fin 1) (q : Fin 64), j = ix2 u q := ⟨j 0, j 1, eq_ix2 j⟩
  obtain rfl : u = 0 := Subsingleton.elim _ _
  have hidx := idx1 t
  have he : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 64 + 1 * q.val = q.val; omega
  rw [he]
  refine (acc1_fst_apply V c q t.val t.isLt).trans ?_
  rw [h9]
  exact total1_3 V c q

/-- What the last point writes back to the one-row output is its block of the specification. -/
theorem flushed1_3_eq (c : Dev nD) (t : Fin cfg1.N) (hf : (cfg1.win 3).flush t = true) :
    (dat1 (F := Ideal) V c).flushed 3 t = ((cfg1.win 3).blk t).view.read (Elt Ideal) (G1_3 (V c (Pipeline.arrRef spec1 0)) (V c (Pipeline.arrRef spec1 1))) := by
  have hN : t.val < 10 := lt_of_lt_of_eq t.isLt (show cfg1.N = 10 from N_1)
  have h9 : t.val = 9 := by have := (flush1_3 t).mp hf; omega
  show (cfg1.win 3).cut (grid1.coords t) ((dat1 V c).after 3 t) = _
  rw [after1_3]
  funext j
  refine Eq.trans ?_ (read_blk1_3 t (G1_3 (V c (Pipeline.arrRef spec1 0)) (V c (Pipeline.arrRef spec1 1))) j).symm
  exact row_blk1_3 V c t h9 j

/-- The last point's block is the whole one-row output. -/
theorem cover1_3 (i : S1x64.Idx) : ∃ t : Fin cfg1.N, (cfg1.win 3).flush t = true ∧ i ∈ ((cfg1.win 3).blk t).view.set := by
  have hi0 : (i 0).val < 1 := (i 0).isLt
  have hi1 : (i 1).val < 64 := (i 1).isLt
  have hidx := idx1 t1_9
  refine ⟨t1_9, (flush1_3 t1_9).mpr (by decide), ?_⟩
  rw [mem_blk1_3]
  intro a
  match a with
  | ⟨0, _⟩ => show win1_3.index t1_9 (0 : Fin 2) * 1 ≤ (i 0).val ∧ (i 0).val < win1_3.index t1_9 (0 : Fin 2) * 1 + 1; omega
  | ⟨1, _⟩ => show win1_3.index t1_9 (1 : Fin 2) * 64 ≤ (i 1).val ∧ (i 1).val < win1_3.index t1_9 (1 : Fin 2) * 64 + 64; omega

/-- THE ONE-ROW OUTPUT after the run. -/
theorem final1_3 (c : Dev nD) :
    (dat1 (F := Ideal) V c).arrAt 3 cfg1.N = G1_3 (V c (Pipeline.arrRef spec1 0)) (V c (Pipeline.arrRef spec1 1)) :=
  (dat1 V c).arrAt_eq_of_cover 3 _ (fun t hf => flushed1_3_eq V c t hf) cover1_3

/-- An index of the one-row output is in a point's block iff each coordinate is in the block's range. -/
theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole (Pipeline.arrRef spec1 4)).slice (win1_4.rect t)).set ↔ _
  rw [View.set_slice_whole, Rect.mem_set_unit]
  exact Iff.rfl

/-- Reading any one-row array through a point's block, at an index of the block, is the array at the index's place. -/
theorem read_blk1_4 (t : Fin cfg1.N) (G : S1x64.Idx → EReal) (j : S1x64.Idx) :
    ((cfg1.win 4).blk t).view.read (Elt Ideal) G j = G (((cfg1.win 4).blk t).view.emb j) := rfl

/-- At the last point the carried row, read through the output's block, is the specification. -/
theorem row_blk1_4 (c : Dev nD) (t : Fin cfg1.N) (h9 : t.val = 9) (j : S1x64.Idx) :
    (acc1 V c t.val t.isLt).2 j = G1_4 (V c (Pipeline.arrRef spec1 0)) (V c (Pipeline.arrRef spec1 1)) (((cfg1.win 4).blk t).view.emb j) := by
  obtain ⟨u, q, rfl⟩ : ∃ (u : Fin 1) (q : Fin 64), j = ix2 u q := ⟨j 0, j 1, eq_ix2 j⟩
  obtain rfl : u = 0 := Subsingleton.elim _ _
  have hidx := idx1 t
  have he : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 64 + 1 * q.val = q.val; omega
  rw [he]
  refine (acc1_snd_apply V c q t.val t.isLt).trans ?_
  rw [h9]
  exact total1_4 V c q

/-- What the last point writes back to the one-row output is its block of the specification. -/
theorem flushed1_4_eq (c : Dev nD) (t : Fin cfg1.N) (hf : (cfg1.win 4).flush t = true) :
    (dat1 (F := Ideal) V c).flushed 4 t = ((cfg1.win 4).blk t).view.read (Elt Ideal) (G1_4 (V c (Pipeline.arrRef spec1 0)) (V c (Pipeline.arrRef spec1 1))) := by
  have hN : t.val < 10 := lt_of_lt_of_eq t.isLt (show cfg1.N = 10 from N_1)
  have h9 : t.val = 9 := by have := (flush1_4 t).mp hf; omega
  show (cfg1.win 4).cut (grid1.coords t) ((dat1 V c).after 4 t) = _
  rw [after1_4]
  funext j
  refine Eq.trans ?_ (read_blk1_4 t (G1_4 (V c (Pipeline.arrRef spec1 0)) (V c (Pipeline.arrRef spec1 1))) j).symm
  exact row_blk1_4 V c t h9 j

/-- The last point's block is the whole one-row output. -/
theorem cover1_4 (i : S1x64.Idx) : ∃ t : Fin cfg1.N, (cfg1.win 4).flush t = true ∧ i ∈ ((cfg1.win 4).blk t).view.set := by
  have hi0 : (i 0).val < 1 := (i 0).isLt
  have hi1 : (i 1).val < 64 := (i 1).isLt
  have hidx := idx1 t1_9
  refine ⟨t1_9, (flush1_4 t1_9).mpr (by decide), ?_⟩
  rw [mem_blk1_4]
  intro a
  match a with
  | ⟨0, _⟩ => show win1_4.index t1_9 (0 : Fin 2) * 1 ≤ (i 0).val ∧ (i 0).val < win1_4.index t1_9 (0 : Fin 2) * 1 + 1; omega
  | ⟨1, _⟩ => show win1_4.index t1_9 (1 : Fin 2) * 64 ≤ (i 1).val ∧ (i 1).val < win1_4.index t1_9 (1 : Fin 2) * 64 + 64; omega

/-- THE ONE-ROW OUTPUT after the run. -/
theorem final1_4 (c : Dev nD) :
    (dat1 (F := Ideal) V c).arrAt 4 cfg1.N = G1_4 (V c (Pipeline.arrRef spec1 0)) (V c (Pipeline.arrRef spec1 1)) :=
  (dat1 V c).arrAt_eq_of_cover 4 _ (fun t hf => flushed1_4_eq V c t hf) cover1_4

end Cert.KernelIdeal.HandVal

end
-- ==== Proof.KI.Val2.lean ====
import proofs.«113306_j49254684950634_1_alg».proof.Proof.KI.R2
import Idealize.ShloMosaic.Lib.Pipeline.Value
import Idealize.ShloMosaic.Lib.ValueIdx
import Idealize.ShloMosaic.PureOps.Ideal.Laws
import Idealize.ShloMosaic.Lib.Tactic

/-! # Region 2 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The normalised and rectified array: each entry of `x` ([50000, 64]) times its column's scale plus its column's
    shift, then the maximum with zero. -/
def G2_3 (x : S50000x64.Idx → Elt Ideal .f32) (scale shift : S1x64.Idx → Elt Ideal .f32) : S50000x64.Idx → Elt Ideal .f32 :=
  fun i => max (x i * scale (ix2 (0 : Fin 1) (i 1 : Fin 64)) + shift (ix2 (0 : Fin 1) (i 1 : Fin 64))) 0

/-- The body's payload at an entry. -/
theorem pay2_apply (x0 : Vec Ideal S5000x64 .f32) (x1 x2 : Vec Ideal S1x64 .f32) (p : Fin 5000) (q : Fin 64) :
    k2_pay1 x0 x1 x2 (ix2 p q) = max (x0 (ix2 p q) * x1 (ix2 (0 : Fin 1) q) + x2 (ix2 (0 : Fin 1) q)) 0 := by
  unfold k2_pay1
  simp only [shapeCast_self]
  rw [maximumf_apply, addf_apply, mulf_apply, broadcast_apply,
    broadcastTo_apply x1 broadcasts_S1x64_S5000x64 (ix2 p q) (ix2 (0 : Fin 1) q) (fun a => by match a with | ⟨0, _⟩ => rfl | ⟨1, _⟩ => rfl),
    broadcastTo_apply x2 broadcasts_S1x64_S5000x64 (ix2 p q) (ix2 (0 : Fin 1) q) (fun a => by match a with | ⟨0, _⟩ => rfl | ⟨1, _⟩ => rfl)]
  exact congrArg _ Ideal.ofBits_zero_f32

/-- The printed index maps over the grid: the row blocks of windows 0 and 3 are the grid point's, every other block
    index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of point `t`'s block is row `5000 t + p` of the array. -/
def row2 (t : Fin cfg2.N) (p : Fin 5000) : Fin 50000 :=
  ⟨5000 * t.val + p.val, by have := t.isLt; have hN : cfg2.N = 10 := N_2; have := p.isLt; omega⟩

/-- Where an index of point `t`'s block sits in its array, window by window. -/
theorem emb2_0 (t : Fin cfg2.N) (p : Fin 5000) (q : Fin 64) :
    ((cfg2.win 0).blk t).view.emb (ix2 p q) = ix2 (row2 t p) q := by
  obtain ⟨e0, e1, e2, e3, e4, e5, e6, e7⟩ := idx2 t
  funext a; apply Fin.ext
  match a with
  | ⟨0, _⟩ => show win2_0.index t (0 : Fin 2) * 5000 + 1 * p.val = 5000 * t.val + p.val; omega
  | ⟨1, _⟩ => show win2_0.index t (1 : Fin 2) * 64 + 1 * q.val = q.val; omega
theorem emb2_1 (t : Fin cfg2.N) (z : Fin 1) (q : Fin 64) :
    ((cfg2.win 1).blk t).view.emb (ix2 z q) = ix2 z q := by
  obtain ⟨e0, e1, e2, e3, e4, e5, e6, e7⟩ := idx2 t
  funext a; apply Fin.ext
  match a with
  | ⟨0, _⟩ => show win2_1.index t (0 : Fin 2) * 1 + 1 * z.val = z.val; omega
  | ⟨1, _⟩ => show win2_1.index t (1 : Fin 2) * 64 + 1 * q.val = q.val; omega
theorem emb2_2 (t : Fin cfg2.N) (z : Fin 1) (q : Fin 64) :
    ((cfg2.win 2).blk t).view.emb (ix2 z q) = ix2 z q := by
  obtain ⟨e0, e1, e2, e3, e4, e5, e6, e7⟩ := idx2 t
  funext a; apply Fin.ext
  match a with
  | ⟨0, _⟩ => show win2_2.index t (0 : Fin 2) * 1 + 1 * z.val = z.val; omega
  | ⟨1, _⟩ => show win2_2.index t (1 : Fin 2) * 64 + 1 * q.val = q.val; omega
theorem emb2_3 (t : Fin cfg2.N) (p : Fin 5000) (q : Fin 64) :
    ((cfg2.win 3).blk t).view.emb (ix2 p q) = ix2 (row2 t p) q := by
  obtain ⟨e0, e1, e2, e3, e4, e5, e6, e7⟩ := idx2 t
  funext a; apply Fin.ext
  match a with
  | ⟨0, _⟩ => show win2_3.index t (0 : Fin 2) * 5000 + 1 * p.val = 5000 * t.val + p.val; omega
  | ⟨1, _⟩ => show win2_3.index t (1 : Fin 2) * 64 + 1 * q.val = q.val; omega

/-- The input blocks read at an entry, as entries of their arrays. -/
theorem iblk2_0_apply (c : Dev nD) (t : Fin cfg2.N) (p : Fin 5000) (q : Fin 64) :
    iblk2 V c 0 t (ix2 p q) = V c (Pipeline.arrRef spec2 0) (ix2 (row2 t p) q) := by
  show V c (Pipeline.arrRef spec2 0) (((cfg2.win 0).blk t).view.emb (ix2 p q)) = _
  rw [emb2_0]
theorem iblk2_1_apply (c : Dev nD) (t : Fin cfg2.N) (z : Fin 1) (q : Fin 64) :
    iblk2 V c 1 t (ix2 z q) = V c (Pipeline.arrRef spec2 1) (ix2 z q) := by
  show V c (Pipeline.arrRef spec2 1) (((cfg2.win 1).blk t).view.emb (ix2 z q)) = _
  rw [emb2_1]
theorem iblk2_2_apply (c : Dev nD) (t : Fin cfg2.N) (z : Fin 1) (q : Fin 64) :
    iblk2 V c 2 t (ix2 z q) = V c (Pipeline.arrRef spec2 2) (ix2 z q) := by
  show V c (Pipeline.arrRef spec2 2) (((cfg2.win 2).blk t).view.emb (ix2 z q)) = _
  rw [emb2_2]

/-- The output buffer after the body, read at an entry of the block. -/
theorem out2_3_apply (x0 : Vec Ideal S5000x64 .f32) (x1 x2 : Vec Ideal S1x64 .f32) (p : Fin 5000) (q : Fin 64) :
    out2_3 x0 x1 x2 (ix2 p q) = max (x0 (ix2 p q) * x1 (ix2 (0 : Fin 1) q) + x2 (ix2 (0 : Fin 1) q)) 0 := by
  unfold out2_3
  rw [View.canon_unit_zero hz2]
  simp only [View.ld_unit_zero (S := S5000x64) hz2, View.ld_unit_zero (S := S1x64) hz2]
  exact pay2_apply x0 x1 x2 p q

set_option maxHeartbeats 400000 in
/-- What point `t` writes back is block `t` of `G2_3` of the input arrays as the region finds them. -/
theorem flushed2_3_eq (c : Dev nD) (t : Fin cfg2.N) :
    (dat2 (F := Ideal) V c).flushed 3 t
      = ((cfg2.win 3).blk t).view.read (Elt Ideal) (G2_3 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  funext j
  obtain ⟨p, q, rfl⟩ : ∃ (p : Fin 5000) (q : Fin 64), j = ix2 p q := ⟨j 0, j 1, eq_ix2 j⟩
  show out2_3 (iblk2 V c 0 t) (iblk2 V c 1 t) (iblk2 V c 2 t) (ix2 p q) = G2_3 _ _ _ (((cfg2.win 3).blk t).view.emb (ix2 p q))
  rw [out2_3_apply, emb2_3]
  rw [iblk2_0_apply, iblk2_1_apply, iblk2_2_apply]
  rfl

/-- An index of the output array is in point `t`'s block iff each coordinate is in the block's range on its axis. -/
theorem mem_blk2_3 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v69).slice (win2_3.rect t)).set ↔ _
  rw [View.set_slice_whole, Rect.mem_set_unit]
  exact Iff.rfl

/-- Every index of the output array is in the block of the point its row falls in: rows 5000 t … 5000 t + 4999. -/
theorem cover2_3_arr (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨e0, e1, e2, e3, e4, e5, e6, e7⟩ := idx2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region's last point is `G2_3` of the three input arrays as the region finds them. -/
theorem final2_3 (c : Dev nD) :
    (dat2 (F := Ideal) V c).arrAt 3 cfg2.N = G2_3 (V c (Pipeline.arrRef spec2 0)) (V c (Pipeline.arrRef spec2 1)) (V c (Pipeline.arrRef spec2 2)) :=
  (dat2 (F := Ideal) V c).arrAt_eq_of_cover 3 (G2_3 (V c (Pipeline.arrRef spec2 0)) (V c (Pipeline.arrRef spec2 1)) (V c (Pipeline.arrRef spec2 2)))
    (fun t _ => flushed2_3_eq V c t) cover2_3_arr

end Cert.KernelIdeal.HandVal
-- ==== Proof.KI.Val12.lean ====
import proofs.«113306_j49254684950634_1_alg».proof.Proof.KI.R12
import proofs.«113306_j49254684950634_1_alg».proof.Proof.LibMatmulNN
import Idealize.ShloMosaic.Lib.Pipeline.Value
import Idealize.ShloMosaic.Lib.ValueIdx
import Idealize.ShloMosaic.PureOps.Ideal.Laws
import Idealize.ShloMosaic.Lib.Tactic

/-! # Region 12 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz12 : (![0, 0] : Fin 2 → Nat) = fun _ => 0 := funext fun a => by fin_cases a <;> rfl

/-- One hidden layer: `x` ([1024, 64]) times `W` ([64, 64]) plus the bias row, then the maximum with zero. -/
def layer12 (x : S1024x64.Idx → Elt Ideal .f32) (W : S64x64.Idx → Elt Ideal .f32) (b : S1x64.Idx → Elt Ideal .f32) :
    S1024x64.Idx → Elt Ideal .f32 :=
  fun i => max (∑ k : Fin 64, x (ix2 (i 0 : Fin 1024) k) * W (ix2 k (i 1 : Fin 64)) + b (ix2 (0 : Fin 1) (i 1 : Fin 64))) 0

/-- The head: two hidden layers, then the product with the [64, 1] column plus the scalar bias. -/
def G12_7 (x : S1024x64.Idx → Elt Ideal .f32) (W1 : S64x64.Idx → Elt Ideal .f32) (b1 : S1x64.Idx → Elt Ideal .f32)
    (W2 : S64x64.Idx → Elt Ideal .f32) (b2 : S1x64.Idx → Elt Ideal .f32) (W3 : S64x1.Idx → Elt Ideal .f32) (b3 : S1x1.Idx → Elt Ideal .f32) :
    S1024x1.Idx → Elt Ideal .f32 :=
  fun i => ∑ k : Fin 64, layer12 (layer12 x W1 b1) W2 b2 (ix2 (i 0 : Fin 1024) k) * W3 (ix2 k (i 1 : Fin 1)) + b3 (ix2 (0 : Fin 1) (0 : Fin 1))

/-- A hidden layer's operations read at an entry, from any left operand of the matrix product. -/
theorem hidden12_apply (a : FVec Ideal S1024x64 .bf16) (W : Vec Ideal S64x64 .f32) (b : Vec Ideal S1x64 .f32) (p : Fin 1024) (q : Fin 64) :
    maximumf (addf (FloatOps.matmul dot_S1024x64_S64x64_S1024x64_1_0_0_1_n_n none a (truncf .bf16 W bitsLt_bf16_f32) (constant S1024x64 .f32 0x00000000#32))
        (broadcastTo S1024x64 b broadcasts_S1x64_S1024x64)) (broadcast S1024x64 (Scalar.ofBits (F := Ideal) .f32 0x00000000#32)) (ix2 p q)
      = max (∑ k : Fin 64, a (ix2 p k) * W (ix2 k q) + b (ix2 (0 : Fin 1) q)) 0 := by
  rw [maximumf_apply, addf_apply, broadcast_apply,
    Cert.LibMatmulNN.matmul_zero_apply dot_S1024x64_S64x64_S1024x64_1_0_0_1_n_n rfl none _ _ p q,
    broadcastTo_apply b broadcasts_S1x64_S1024x64 (ix2 p q) (ix2 (0 : Fin 1) q) (fun a => by match a with | ⟨0, _⟩ => rfl | ⟨1, _⟩ => rfl)]
  exact congrArg _ Ideal.ofBits_zero_f32

/-- The body's payload at an entry. -/
theorem pay12_apply (x0 : Vec Ideal S1024x64 .f32) (x1 : Vec Ideal S64x64 .f32) (x2 : Vec Ideal S1x64 .f32) (x3 : Vec Ideal S64x64 .f32)
    (x4 : Vec Ideal S1x64 .f32) (x5 : Vec Ideal S64x1 .f32) (x6 : Vec Ideal S1x1 .f32) (p : Fin 1024) (z : Fin 1) :
    k12_pay1 x0 x1 x2 x3 x4 x5 x6 (ix2 p z) = G12_7 x0 x1 x2 x3 x4 x5 x6 (ix2 p z) := by
  unfold k12_pay1
  simp only [shapeCast_self, matmul]
  rw [addf_apply, Cert.LibMatmulNN.matmul_zero_apply dot_S1024x64_S64x1_S1024x1_1_0_0_1_n_n rfl none _ _ p z,
    broadcastTo_apply x6 broadcasts_S1x1_S1024x1 (ix2 p z) (ix2 (0 : Fin 1) (0 : Fin 1)) (fun a => by match a with | ⟨0, _⟩ => rfl | ⟨1, _⟩ => rfl)]
  refine congrArg₂ (· + ·) (Finset.sum_congr rfl fun k _ => congrArg₂ (· * ·) ?_ rfl) rfl
  rw [truncf_apply, hidden12_apply]
  refine congrArg₂ max (congrArg₂ (· + ·) (Finset.sum_congr rfl fun k' _ => congrArg₂ (· * ·) ?_ rfl) rfl) rfl
  rw [truncf_apply, hidden12_apply]
  rfl

/-- The one grid point's block indices are all zero. -/
theorem idx12 : ∀ t : Fin cfg12.N, win12_0.index t (0 : Fin 2) = 0 ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = 0 ∧ win12_7.index t (1 : Fin 2) = 0 :=
  (by decide +kernel : ∀ t : Fin grid12.N, _)

/-- Each window's one block is its whole array. -/
theorem emb12_0 (t : Fin cfg12.N) (a : Fin 1024) (b : Fin 64) :
    ((cfg12.win 0).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_0.index t (0 : Fin 2) * 1024 + 1 * a.val = a.val; omega
  | ⟨1, _⟩ => show win12_0.index t (1 : Fin 2) * 64 + 1 * b.val = b.val; omega
theorem emb12_1 (t : Fin cfg12.N) (a : Fin 64) (b : Fin 64) :
    ((cfg12.win 1).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_1.index t (0 : Fin 2) * 64 + 1 * a.val = a.val; omega
  | ⟨1, _⟩ => show win12_1.index t (1 : Fin 2) * 64 + 1 * b.val = b.val; omega
theorem emb12_2 (t : Fin cfg12.N) (a : Fin 1) (b : Fin 64) :
    ((cfg12.win 2).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_2.index t (0 : Fin 2) * 1 + 1 * a.val = a.val; omega
  | ⟨1, _⟩ => show win12_2.index t (1 : Fin 2) * 64 + 1 * b.val = b.val; omega
theorem emb12_3 (t : Fin cfg12.N) (a : Fin 64) (b : Fin 64) :
    ((cfg12.win 3).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_3.index t (0 : Fin 2) * 64 + 1 * a.val = a.val; omega
  | ⟨1, _⟩ => show win12_3.index t (1 : Fin 2) * 64 + 1 * b.val = b.val; omega
theorem emb12_4 (t : Fin cfg12.N) (a : Fin 1) (b : Fin 64) :
    ((cfg12.win 4).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_4.index t (0 : Fin 2) * 1 + 1 * a.val = a.val; omega
  | ⟨1, _⟩ => show win12_4.index t (1 : Fin 2) * 64 + 1 * b.val = b.val; omega
theorem emb12_5 (t : Fin cfg12.N) (a : Fin 64) (b : Fin 1) :
    ((cfg12.win 5).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_5.index t (0 : Fin 2) * 64 + 1 * a.val = a.val; omega
  | ⟨1, _⟩ => show win12_5.index t (1 : Fin 2) * 1 + 1 * b.val = b.val; omega
theorem emb12_6 (t : Fin cfg12.N) (a : Fin 1) (b : Fin 1) :
    ((cfg12.win 6).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_6.index t (0 : Fin 2) * 1 + 1 * a.val = a.val; omega
  | ⟨1, _⟩ => show win12_6.index t (1 : Fin 2) * 1 + 1 * b.val = b.val; omega
theorem emb12_7 (t : Fin cfg12.N) (a : Fin 1024) (b : Fin 1) :
    ((cfg12.win 7).blk t).view.emb (ix2 a b) = ix2 a b := by
  obtain ⟨e0, e1, e2, e3, e4, e5, e6, e7, e8, e9, e10, e11, e12, e13, e14, e15⟩ := idx12 t
  funext d; apply Fin.ext
  match d with
  | ⟨0, _⟩ => show win12_7.index t (0 : Fin 2) * 1024 + 1 * a.val = a.val; omega
  | ⟨1, _⟩ => show win12_7.index t (1 : Fin 2) * 1 + 1 * b.val = b.val; omega

/-- So each input block is its array. -/
theorem iblk12_0_eq (c : Dev nD) (t : Fin cfg12.N) : (iblk12 V c 0 t : S1024x64.Idx → Elt Ideal .f32) = V c (Pipeline.arrRef spec12 0) := by
  funext j
  obtain ⟨a, b, rfl⟩ : ∃ (a : Fin 1024) (b : Fin 64), j = ix2 a b := ⟨j 0, j 1, eq_ix2 j⟩
  show V c (Pipeline.arrRef spec12 0) (((cfg12.win 0).blk t).view.emb (ix2 a b)) = _
  rw [emb12_0]
theorem iblk12_1_eq (c : Dev nD) (t : Fin cfg12.N) : (iblk12 V c 1 t : S64x64.Idx → Elt Ideal .f32) = V c (Pipeline.arrRef spec12 1) := by
  funext j
  obtain ⟨a, b, rfl⟩ : ∃ (a : Fin 64) (b : Fin 64), j = ix2 a b := ⟨j 0, j 1, eq_ix2 j⟩
  show V c (Pipeline.arrRef spec12 1) (((cfg12.win 1).blk t).view.emb (ix2 a b)) = _
  rw [emb12_1]
theorem iblk12_2_eq (c : Dev nD) (t : Fin cfg12.N) : (iblk12 V c 2 t : S1x64.Idx → Elt Ideal .f32) = V c (Pipeline.arrRef spec12 2) := by
  funext j
  obtain ⟨a, b, rfl⟩ : ∃ (a : Fin 1) (b : Fin 64), j = ix2 a b := ⟨j 0, j 1, eq_ix2 j⟩
  show V c (Pipeline.arrRef spec12 2) (((cfg12.win 2).blk t).view.emb (ix2 a b)) = _
  rw [emb12_2]
theorem iblk12_3_eq (c : Dev nD) (t : Fin cfg12.N) : (iblk12 V c 3 t : S64x64.Idx → Elt Ideal .f32) = V c (Pipeline.arrRef spec12 3) := by
  funext j
  obtain ⟨a, b, rfl⟩ : ∃ (a : Fin 64) (b : Fin 64), j = ix2 a b := ⟨j 0, j 1, eq_ix2 j⟩
  show V c (Pipeline.arrRef spec12 3) (((cfg12.win 3).blk t).view.emb (ix2 a b)) = _
  rw [emb12_3]
theorem iblk12_4_eq (c : Dev nD) (t : Fin cfg12.N) : (iblk12 V c 4 t : S1x64.Idx → Elt Ideal .f32) = V c (Pipeline.arrRef spec12 4) := by
  funext j
  obtain ⟨a, b, rfl⟩ : ∃ (a : Fin 1) (b : Fin 64), j = ix2 a b := ⟨j 0, j 1, eq_ix2 j⟩
  show V c (Pipeline.arrRef spec12 4) (((cfg12.win 4).blk t).view.emb (ix2 a b)) = _
  rw [emb12_4]
theorem iblk12_5_eq (c : Dev nD) (t : Fin cfg12.N) : (iblk12 V c 5 t : S64x1.Idx → Elt Ideal .f32) = V c (Pipeline.arrRef spec12 5) := by
  funext j
  obtain ⟨a, b, rfl⟩ : ∃ (a : Fin 64) (b : Fin 1), j = ix2 a b := ⟨j 0, j 1, eq_ix2 j⟩
  show V c (Pipeline.arrRef spec12 5) (((cfg12.win 5).blk t).view.emb (ix2 a b)) = _
  rw [emb12_5]
theorem iblk12_6_eq (c : Dev nD) (t : Fin cfg12.N) : (iblk12 V c 6 t : S1x1.Idx → Elt Ideal .f32) = V c (Pipeline.arrRef spec12 6) := by
  funext j
  obtain ⟨a, b, rfl⟩ : ∃ (a : Fin 1) (b : Fin 1), j = ix2 a b := ⟨j 0, j 1, eq_ix2 j⟩
  show V c (Pipeline.arrRef spec12 6) (((cfg12.win 6).blk t).view.emb (ix2 a b)) = _
  rw [emb12_6]

/-- The output buffer after the body, read at an entry. -/
theorem out12_7_apply (x0 : Vec Ideal S1024x64 .f32) (x1 : Vec Ideal S64x64 .f32) (x2 : Vec Ideal S1x64 .f32) (x3 : Vec Ideal S64x64 .f32)
    (x4 : Vec Ideal S1x64 .f32) (x5 : Vec Ideal S64x1 .f32) (x6 : Vec Ideal S1x1 .f32) (p : Fin 1024) (z : Fin 1) :
    out12_7 x0 x1 x2 x3 x4 x5 x6 (ix2 p z) = G12_7 x0 x1 x2 x3 x4 x5 x6 (ix2 p z) := by
  unfold out12_7
  rw [View.canon_unit_zero hz12]
  simp only [View.ld_unit_zero (S := S1024x64) hz12, View.ld_unit_zero (S := S64x64) hz12, View.ld_unit_zero (S := S1x64) hz12,
    View.ld_unit_zero (S := S64x1) hz12, View.ld_unit_zero (S := S1x1) hz12]
  exact pay12_apply x0 x1 x2 x3 x4 x5 x6 p z

set_option maxHeartbeats 400000 in
/-- What the one point writes back is the one block of `G12_7` of the input arrays as the region finds them. -/
theorem flushed12_7_eq (c : Dev nD) (t : Fin cfg12.N) :
    (dat12 (F := Ideal) V c).flushed 7 t
      = ((cfg12.win 7).blk t).view.read (Elt Ideal) (G12_7 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6))) := by
  show (cfg12.win 7).cut (grid12.coords t) ((dat12 (F := Ideal) V c).after 7 t) = _
  rw [after12_7]
  funext j
  obtain ⟨p, z, rfl⟩ : ∃ (p : Fin 1024) (z : Fin 1), j = ix2 p z := ⟨j 0, j 1, eq_ix2 j⟩
  show out12_7 (iblk12 V c 0 t) (iblk12 V c 1 t) (iblk12 V c 2 t) (iblk12 V c 3 t) (iblk12 V c 4 t) (iblk12 V c 5 t) (iblk12 V c 6 t) (ix2 p z) = G12_7 _ _ _ _ _ _ _ (((cfg12.win 7).blk t).view.emb (ix2 p z))
  rw [out12_7_apply, emb12_7, iblk12_0_eq, iblk12_1_eq, iblk12_2_eq, iblk12_3_eq, iblk12_4_eq, iblk12_5_eq, iblk12_6_eq]

/-- An index of the output array is in the point's block iff each coordinate is in the block's range on its axis. -/
theorem mem_blk12_7 (t : Fin cfg12.N) (i : S1024x1.Idx) :
    i ∈ ((cfg12.win 7).blk t).view.set ↔ ∀ a : Fin 2, win12_7.index t a * S1024x1.size a ≤ (i a).val ∧ (i a).val < win12_7.index t a * S1024x1.size a + S1024x1.size a := by
  show i ∈ ((View.whole main_v205).slice (win12_7.rect t)).set ↔ _
  rw [View.set_slice_whole, Rect.mem_set_unit]
  exact Iff.rfl

/-- Every index of the output array is in the one point's block. -/
theorem cover12_7_arr (i : S1024x1.Idx) :
    ∃ t : Fin cfg12.N, (cfg12.win 7).flush t = true ∧ i ∈ ((cfg12.win 7).blk t).view.set := by
  have hi0 : (i 0).val < 1024 := (i 0).isLt
  have hi1 : (i 1).val < 1 := (i 1).isLt
  obtain ⟨e0, e1, e2, e3, e4, e5, e6, e7, e8, e9, e10, e11, e12, e13, e14, e15⟩ := idx12 t12_0
  refine ⟨t12_0, flush12_7 t12_0, ?_⟩
  rw [mem_blk12_7]
  intro a
  match a with
  | ⟨0, _⟩ => show win12_7.index t12_0 (0 : Fin 2) * 1024 ≤ (i 0).val ∧ (i 0).val < win12_7.index t12_0 (0 : Fin 2) * 1024 + 1024; omega
  | ⟨1, _⟩ => show win12_7.index t12_0 (1 : Fin 2) * 1 ≤ (i 1).val ∧ (i 1).val < win12_7.index t12_0 (1 : Fin 2) * 1 + 1; omega

/-- The output array after the region is `G12_7` of the seven input arrays as the region finds them. -/
theorem final12_7 (c : Dev nD) :
    (dat12 (F := Ideal) V c).arrAt 7 cfg12.N = G12_7 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) :=
  (dat12 (F := Ideal) V c).arrAt_eq_of_cover 7 (G12_7 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)))
    (fun t _ => flushed12_7_eq V c t) cover12_7_arr

end Cert.KernelIdeal.HandVal
-- ==== Proof.KI.Host0.lean ====
/-
  The first host stretch, read as values: the structural arrays every layer reads, and the first layer's parameter rows.

  From the edge-index argument it takes the source and destination index vectors (rows 0 and 1, as vectors); from the
  destination vector the degree — a scatter-add of ones into zeros, plus one — and its reciprocal square root `dinv`;
  the edge coefficients `norm`, the product of `dinv` gathered at the (wrapped) source and at the (wrapped)
  destination; the node coefficients `dinv * dinv`; and row 0 of the weight, bias, scale and shift parameter arrays,
  the last three as `[1, 64]` rows. Each is stated as ONE function of the arguments it reads, made of the very
  operations the stretch applies, in order.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- The source index vector: row 0 of the edge index, as a vector. -/
def kSrc (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The destination index vector: row 1 of the edge index, as a vector. -/
def kDst (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The reciprocal square root of the degree: ones scatter-added into zeros at `dst`, plus one, then `rsqrt`. -/
def kDinv (dst : (⟨S800000, .i32⟩ : BufTy).Contents (Elt F)) : (⟨S50000, .f32⟩ : BufTy).Contents (Elt F) :=
  Host.rsqrt
    (addf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- An index vector with its negative words wrapped by the row count, as a column: how a gather reads its indices. -/
def kWrapCol (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The edge coefficients: `dinv` gathered at the source times `dinv` gathered at the destination. -/
def kNorm (dinv : (⟨S50000, .f32⟩ : BufTy).Contents (Elt F)) (src dst : (⟨S800000, .i32⟩ : BufTy).Contents (Elt F)) : (⟨S800000, .f32⟩ : BufTy).Contents (Elt F) :=
  mulf (Host.gather gather_S50000_S800000x1_S800000_n_0_n_n_0_1_1 dinv (kWrapCol src))
    (Host.gather gather_S50000_S800000x1_S800000_n_0_n_n_0_1_1 dinv (kWrapCol dst))

/-- The node coefficients: `dinv` times `dinv`. -/
def kDinv2 (dinv : (⟨S50000, .f32⟩ : BufTy).Contents (Elt F)) : (⟨S50000, .f32⟩ : BufTy).Contents (Elt F) := mulf dinv dinv

/-- Row 0 of the stacked weight matrices, as a matrix. -/
def kW0 (ws : (⟨S4x64x64, .f32⟩ : BufTy).Contents (Elt F)) : (⟨S64x64, .f32⟩ : BufTy).Contents (Elt F) :=
  shapeCast S64x64 (extractStridedSlice S1x64x64 ![0, 0, 0] ws slices_S4x64x64_S1x64x64_0_0_0) shapeCasts_S1x64x64_S64x64

/-- Row 0 of a stacked `[4, 64]` parameter array, as a `[1, 64]` row (sliced, flattened, and raised again, as printed). -/
def kRow0 (p : (⟨S4x64, .f32⟩ : BufTy).Contents (Elt F)) : (⟨S1x64, .f32⟩ : BufTy).Contents (Elt F) :=
  shapeCast S1x64 (shapeCast S64 (extractStridedSlice S1x64 ![0, 0] p slices_S4x64_S1x64_0_0) shapeCasts_S1x64_S64)
    shapeCasts_S64_S1x64

set_option maxHeartbeats 4000000 in
theorem after0_v1 (W : Valuation τ sig (Elt F)) :
    StableHlo.after hostOps0 W (Proc.devRef .tc main_v1)
      = kSrc (W (Proc.devRef .tc main_arg1)) := by
  after_results_simp
  unfold kSrc
  rfl

set_option maxHeartbeats 4000000 in
theorem after0_v3 (W : Valuation τ sig (Elt F)) :
    StableHlo.after hostOps0 W (Proc.devRef .tc main_v3)
      = kDst (W (Proc.devRef .tc main_arg1)) := by
  after_results_simp
  unfold kDst
  rfl

set_option maxHeartbeats 4000000 in
theorem after0_v10 (W : Valuation τ sig (Elt F)) :
    StableHlo.after hostOps0 W (Proc.devRef .tc main_v10)
      = kDinv (kDst (W (Proc.devRef .tc main_arg1))) := by
  after_results_simp
  unfold kDinv kDst
  rfl

set_option maxHeartbeats 4000000 in
theorem after0_v25 (W : Valuation τ sig (Elt F)) :
    StableHlo.after hostOps0 W (Proc.devRef .tc main_v25)
      = kNorm (kDinv (kDst (W (Proc.devRef .tc main_arg1)))) (kSrc (W (Proc.devRef .tc main_arg1))) (kDst (W (Proc.devRef .tc main_arg1))) := by
  after_results_simp
  unfold kNorm kWrapCol kDinv kSrc kDst
  rfl

set_option maxHeartbeats 4000000 in
theorem after0_v26 (W : Valuation τ sig (Elt F)) :
    StableHlo.after hostOps0 W (Proc.devRef .tc main_v26)
      = kDinv2 (kDinv (kDst (W (Proc.devRef .tc main_arg1)))) := by
  after_results_simp
  unfold kDinv2 kDinv kDst
  rfl

set_option maxHeartbeats 4000000 in
theorem after0_v28 (W : Valuation τ sig (Elt F)) :
    StableHlo.after hostOps0 W (Proc.devRef .tc main_v28)
      = kW0 (W (Proc.devRef .tc main_arg3)) := by
  after_results_simp
  unfold kW0
  rfl

set_option maxHeartbeats 4000000 in
theorem after0_v31 (W : Valuation τ sig (Elt F)) :
    StableHlo.after hostOps0 W (Proc.devRef .tc main_v31)
      = kRow0 (W (Proc.devRef .tc main_arg4)) := by
  after_results_simp
  unfold kRow0
  rfl

set_option maxHeartbeats 4000000 in
theorem after0_v34 (W : Valuation τ sig (Elt F)) :
    StableHlo.after hostOps0 W (Proc.devRef .tc main_v34)
      = kRow0 (W (Proc.devRef .tc main_arg5)) := by
  after_results_simp
  unfold kRow0
  rfl

set_option maxHeartbeats 4000000 in
theorem after0_v37 (W : Valuation τ sig (Elt F)) :
    StableHlo.after hostOps0 W (Proc.devRef .tc main_v37)
      = kRow0 (W (Proc.devRef .tc main_arg6)) := by
  after_results_simp
  unfold kRow0
  rfl

variable (m : (ℓ : Loc nD τ sig) → Buf (Elt F) ℓ)

/-- The first region's first input is the launch's: the stretch does not write it. -/
theorem V1_main_arg0 (c : Dev nD) : V1 m c main_arg0 = V0 m c main_arg0 := V1_of m c main_arg0 (by decide)

theorem V1_main_v1 (c : Dev nD) : V1 m c main_v1 = kSrc (V0 m c main_arg1) := after0_v1 (V0 m c)
theorem V1_main_v3 (c : Dev nD) : V1 m c main_v3 = kDst (V0 m c main_arg1) := after0_v3 (V0 m c)
theorem V1_main_v10 (c : Dev nD) : V1 m c main_v10 = kDinv (kDst (V0 m c main_arg1)) := after0_v10 (V0 m c)
theorem V1_main_v25 (c : Dev nD) :
    V1 m c main_v25 = kNorm (kDinv (kDst (V0 m c main_arg1))) (kSrc (V0 m c main_arg1)) (kDst (V0 m c main_arg1)) :=
  after0_v25 (V0 m c)
theorem V1_main_v26 (c : Dev nD) : V1 m c main_v26 = kDinv2 (kDinv (kDst (V0 m c main_arg1))) := after0_v26 (V0 m c)
/-- The first region's second input: the first weight matrix. -/
theorem V1_main_v28 (c : Dev nD) : V1 m c main_v28 = kW0 (V0 m c main_arg3) := after0_v28 (V0 m c)
theorem V1_main_v31 (c : Dev nD) : V1 m c main_v31 = kRow0 (V0 m c main_arg4) := after0_v31 (V0 m c)
theorem V1_main_v34 (c : Dev nD) : V1 m c main_v34 = kRow0 (V0 m c main_arg5) := after0_v34 (V0 m c)
theorem V1_main_v37 (c : Dev nD) : V1 m c main_v37 = kRow0 (V0 m c main_arg6) := after0_v37 (V0 m c)

end Cert.KernelIdeal.HandVal

end
-- ==== Proof.KI.Host1.lean ====
/-
  The host operations between the first matrix product and the bias-and-statistics region, read as values.

  From the product `hw`, the two index vectors `src` and `dst`, the edge coefficients `norm` and the node coefficients
  `dinv2`, this stretch computes the aggregate: the rows of `hw` gathered at `src` (negative words wrapped by the row
  count, as a row gather reads its indices), each scaled by its edge coefficient, scatter-added into zeros at `dst`; plus
  the rows of `hw` scaled by the node coefficients. The value is stated as ONE function of those five arrays, made of
  the very operations the stretch applies, in order; what the region then reads is that function of what the previous
  region left and of the structural arrays the first stretch computed.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- The messages' sum: rows of `hw` gathered at the wrapped `src`, times `norm` along rows, scatter-added into zeros at `dst`. -/
def kAgg (hw : (⟨S50000x64, .f32⟩ : BufTy).Contents (Elt F)) (src dst : (⟨S800000, .i32⟩ : BufTy).Contents (Elt F))
    (norm : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 hw
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 norm)))

/-- The aggregate with the self term: `kAgg` plus the rows of `hw` times `dinv2` along rows. -/
def kAggSelf (hw : (⟨S50000x64, .f32⟩ : BufTy).Contents (Elt F)) (src dst : (⟨S800000, .i32⟩ : BufTy).Contents (Elt F))
    (norm : (⟨S800000, .f32⟩ : BufTy).Contents (Elt F)) (dinv2 : (⟨S50000, .f32⟩ : BufTy).Contents (Elt F)) :
    (⟨S50000x64, .f32⟩ : BufTy).Contents (Elt F) :=
  addf (kAgg hw src dst norm)
    (mulf hw
      (broadcastInDim S50000x64 ![0, 1] bcast_S50000x1_S50000x64_0_1
        (broadcastInDim S50000x1 ![0] bcast_S50000_S50000x1_0 dinv2)))

set_option maxHeartbeats 4000000 in
/-- What the stretch leaves in the region's first input, over any contents `W` before it. -/
theorem after1_v55 (W : Valuation τ sig (Elt F)) :
    StableHlo.after hostOps1 W (Proc.devRef .tc main_v55)
      = kAggSelf (W (Proc.devRef .tc main_v38)) (W (Proc.devRef .tc main_v1)) (W (Proc.devRef .tc main_v3))
          (W (Proc.devRef .tc main_v25)) (W (Proc.devRef .tc main_v26)) := by
  after_results_simp
  unfold kAggSelf kAgg
  with_reducible rfl

variable (m : (ℓ : Loc nD τ sig) → Buf (Elt F) ℓ) (outs : Outs (F := F))

/-- The region's first input: the aggregate of what the matrix-product region left, over the structural arrays. -/
theorem V3_main_v55 (c : Dev nD) :
    V3 m outs c main_v55
      = kAggSelf (outs 2 main_v38 c) (V1 m c main_v1) (V1 m c main_v3) (V1 m c main_v25) (V1 m c main_v26) := by
  show StableHlo.after hostOps1 (V2 m outs c) (Proc.devRef .tc main_v55) = _
  rw [after1_v55 (V2 m outs c)]
  have e38 : V2 m outs c main_v38 = outs 2 main_v38 c := Function.update_self ..
  rw [e38, V2_of m outs c main_v1 (by decide), V2_of m outs c main_v3 (by decide),
    V2_of m outs c main_v25 (by decide), V2_of m outs c main_v26 (by decide)]

/-- The region's second input, the bias row, is what the first stretch left there. -/
theorem V3_main_v31 (c : Dev nD) : V3 m outs c main_v31 = V1 m c main_v31 :=
  (V3_of m outs c main_v31 (by decide)).trans (V2_of m outs c main_v31 (by decide))

end Cert.KernelIdeal.HandVal

end
-- ==== Proof.KI.Host2.lean ====
/-
  The host operations between the bias-and-statistics region and the normalisation region, read as values.

  From the column sums `s` and the column sums of squares `ssq` that the region left, and the scale and shift parameter
  rows `gamma` and `beta`, this stretch computes the mean `s / 50000`, the variance `ssq / 50000 - mean * mean`, the scale
  `gamma * rsqrt (variance + eps)` and the shift `beta - mean * scale`. Each is stated as ONE function of those rows, made
  of the very operations the stretch applies, in order.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- The mean row: the column sums divided by the row count. -/
def kMean (s : (⟨S1x64, .f32⟩ : BufTy).Contents (Elt F)) : (⟨S1x64, .f32⟩ : BufTy).Contents (Elt F) :=
  Host.divf s (broadcastInDim S1x64 ![] bcast_S_S1x64 (constant S_ .f32 0x47435000#32))

/-- The variance row by moments: the sums of squares divided by the row count, minus the mean times the mean. -/
def kVar (s ssq : (⟨S1x64, .f32⟩ : BufTy).Contents (Elt F)) : (⟨S1x64, .f32⟩ : BufTy).Contents (Elt F) :=
  subf (Host.divf ssq (broadcastInDim S1x64 ![] bcast_S_S1x64 (constant S_ .f32 0x47435000#32)))
    (mulf (kMean s) (kMean s))

/-- The scale row: `gamma` times the reciprocal square root of the variance plus `eps`. -/
def kScale (s ssq gamma : (⟨S1x64, .f32⟩ : BufTy).Contents (Elt F)) : (⟨S1x64, .f32⟩ : BufTy).Contents (Elt F) :=
  mulf gamma
    (Host.rsqrt (addf (kVar s ssq) (broadcastInDim S1x64 ![] bcast_S_S1x64 (constant S_ .f32 0x3727C5AC#32))))

/-- The shift row: `beta` minus the mean times the scale. -/
def kShift (s ssq gamma beta : (⟨S1x64, .f32⟩ : BufTy).Contents (Elt F)) : (⟨S1x64, .f32⟩ : BufTy).Contents (Elt F) :=
  subf beta (mulf (kMean s) (kScale s ssq gamma))

set_option maxHeartbeats 4000000 in
/-- What the stretch leaves in the scale row, over any contents `W` before it. -/
theorem after2_v66 (W : Valuation τ sig (Elt F)) :
    StableHlo.after hostOps2 W (Proc.devRef .tc main_v66)
      = kScale (W (Proc.devRef .tc main_v56_1)) (W (Proc.devRef .tc main_v56_2)) (W (Proc.devRef .tc main_v34)) := by
  after_results_simp
  unfold kScale kVar kMean
  with_reducible rfl

set_option maxHeartbeats 4000000 in
/-- What the stretch leaves in the shift row, over any contents `W` before it. -/
theorem after2_v68 (W : Valuation τ sig (Elt F)) :
    StableHlo.after hostOps2 W (Proc.devRef .tc main_v68)
      = kShift (W (Proc.devRef .tc main_v56_1)) (W (Proc.devRef .tc main_v56_2)) (W (Proc.devRef .tc main_v34))
          (W (Proc.devRef .tc main_v37)) := by
  after_results_simp
  unfold kShift kScale kVar kMean
  with_reducible rfl

variable (m : (ℓ : Loc nD τ sig) → Buf (Elt F) ℓ) (outs : Outs (F := F))

/-- What the bias-and-statistics region left, read off the contents after it. -/
theorem V4_main_v56_2 (c : Dev nD) : V4 m outs c main_v56_2 = outs 4 main_v56_2 c := Function.update_self ..

theorem V4_main_v56_1 (c : Dev nD) : V4 m outs c main_v56_1 = outs 4 main_v56_1 c := by
  simp only [V4]
  rw [Function.update_of_ne (StableHlo.devRef_ne_of_ne (by decide : main_v56_1 ≠ main_v56_2)), Function.update_self]

theorem V4_main_v56_0 (c : Dev nD) : V4 m outs c main_v56_0 = outs 4 main_v56_0 c := by
  simp only [V4]
  rw [Function.update_of_ne (StableHlo.devRef_ne_of_ne (by decide : main_v56_0 ≠ main_v56_2)),
    Function.update_of_ne (StableHlo.devRef_ne_of_ne (by decide : main_v56_0 ≠ main_v56_1)), Function.update_self]

/-- A parameter row the first stretch computed is still there before this stretch. -/
theorem V4_main_v34 (c : Dev nD) : V4 m outs c main_v34 = V1 m c main_v34 :=
  (V4_of m outs c main_v34 (by decide)).trans <| (V3_of m outs c main_v34 (by decide)).trans (V2_of m outs c main_v34 (by decide))

theorem V4_main_v37 (c : Dev nD) : V4 m outs c main_v37 = V1 m c main_v37 :=
  (V4_of m outs c main_v37 (by decide)).trans <| (V3_of m outs c main_v37 (by decide)).trans (V2_of m outs c main_v37 (by decide))

/-- The normalisation region's scale input. -/
theorem V5_main_v66 (c : Dev nD) :
    V5 m outs c main_v66 = kScale (outs 4 main_v56_1 c) (outs 4 main_v56_2 c) (V1 m c main_v34) := by
  show StableHlo.after hostOps2 (V4 m outs c) (Proc.devRef .tc main_v66) = _
  rw [after2_v66 (V4 m outs c), V4_main_v56_1, V4_main_v56_2, V4_main_v34]

/-- The normalisation region's shift input. -/
theorem V5_main_v68 (c : Dev nD) :
    V5 m outs c main_v68
      = kShift (outs 4 main_v56_1 c) (outs 4 main_v56_2 c) (V1 m c main_v34) (V1 m c main_v37) := by
  show StableHlo.after hostOps2 (V4 m outs c) (Proc.devRef .tc main_v68) = _
  rw [after2_v68 (V4 m outs c), V4_main_v56_1, V4_main_v56_2, V4_main_v34, V4_main_v37]

/-- The normalisation region's first input is what the previous region left: this stretch does not write it. -/
theorem V5_main_v56_0 (c : Dev nD) : V5 m outs c main_v56_0 = outs 4 main_v56_0 c :=
  (V5_of m outs c main_v56_0 (by decide)).trans (V4_main_v56_0 m outs c)

end Cert.KernelIdeal.HandVal

end
-- ==== Proof.KI.Host3.lean ====
/-
  The host stretch before matrix product 1, read as values: row 1 of the weight, bias, scale and shift parameter arrays.

  The weight row is a `[64, 64]` matrix; the other three are `[1, 64]` rows (sliced, flattened, and raised again, as printed).
  Each is ONE function of the argument it reads. The matrix product's first input is what the previous region left.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- Row 1 of the stacked weight matrices, as a matrix. -/
def kW1 (ws : (⟨S4x64x64, .f32⟩ : BufTy).Contents (Elt F)) : (⟨S64x64, .f32⟩ : BufTy).Contents (Elt F) :=
  shapeCast S64x64 (extractStridedSlice S1x64x64 ![1, 0, 0] ws slices_S4x64x64_S1x64x64_1_0_0) shapeCasts_S1x64x64_S64x64

/-- Row 1 of a stacked `[4, 64]` parameter array, as a `[1, 64]` row. -/
def kRow1 (p : (⟨S4x64, .f32⟩ : BufTy).Contents (Elt F)) : (⟨S1x64, .f32⟩ : BufTy).Contents (Elt F) :=
  shapeCast S1x64 (shapeCast S64 (extractStridedSlice S1x64 ![1, 0] p slices_S4x64_S1x64_1_0) shapeCasts_S1x64_S64)
    shapeCasts_S64_S1x64

set_option maxHeartbeats 4000000 in
theorem after3_W (W : Valuation τ sig (Elt F)) :
    StableHlo.after hostOps3 W (Proc.devRef .tc main_v71)
      = kW1 (W (Proc.devRef .tc main_arg3)) := by
  after_results_simp
  unfold kW1
  rfl

set_option maxHeartbeats 4000000 in
theorem after3_b (W : Valuation τ sig (Elt F)) :
    StableHlo.after hostOps3 W (Proc.devRef .tc main_v74)
      = kRow1 (W (Proc.devRef .tc main_arg4)) := by
  after_results_simp
  unfold kRow1
  rfl

set_option maxHeartbeats 4000000 in
theorem after3_g (W : Valuation τ sig (Elt F)) :
    StableHlo.after hostOps3 W (Proc.devRef .tc main_v77)
      = kRow1 (W (Proc.devRef .tc main_arg5)) := by
  after_results_simp
  unfold kRow1
  rfl

set_option maxHeartbeats 4000000 in
theorem after3_bt (W : Valuation τ sig (Elt F)) :
    StableHlo.after hostOps3 W (Proc.devRef .tc main_v80)
      = kRow1 (W (Proc.devRef .tc main_arg6)) := by
  after_results_simp
  unfold kRow1
  rfl

variable (m : (ℓ : Loc nD τ sig) → Buf (Elt F) ℓ) (outs : Outs (F := F))

/-- An argument array is still the launch's before this stretch. -/
theorem V6_main_arg3 (c : Dev nD) : V6 m outs c main_arg3 = V0 m c main_arg3 := (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))
theorem V6_main_arg4 (c : Dev nD) : V6 m outs c main_arg4 = V0 m c main_arg4 := (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))
theorem V6_main_arg5 (c : Dev nD) : V6 m outs c main_arg5 = V0 m c main_arg5 := (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
theorem V6_main_arg6 (c : Dev nD) : V6 m outs c main_arg6 = V0 m c main_arg6 := (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))

/-- The matrix product's second input: weight matrix 1. -/
theorem V7_main_v71 (c : Dev nD) : V7 m outs c main_v71 = kW1 (V0 m c main_arg3) := by
  show StableHlo.after hostOps3 (V6 m outs c) (Proc.devRef .tc main_v71) = _
  rw [after3_W (V6 m outs c), V6_main_arg3]
/-- Bias row 1. -/
theorem V7_main_v74 (c : Dev nD) : V7 m outs c main_v74 = kRow1 (V0 m c main_arg4) := by
  show StableHlo.after hostOps3 (V6 m outs c) (Proc.devRef .tc main_v74) = _
  rw [after3_b (V6 m outs c), V6_main_arg4]
/-- Scale parameter row 1. -/
theorem V7_main_v77 (c : Dev nD) : V7 m outs c main_v77 = kRow1 (V0 m c main_arg5) := by
  show StableHlo.after hostOps3 (V6 m outs c) (Proc.devRef .tc main_v77) = _
  rw [after3_g (V6 m outs c), V6_main_arg5]
/-- Shift parameter row 1. -/
theorem V7_main_v80 (c : Dev nD) : V7 m outs c main_v80 = kRow1 (V0 m c main_arg6) := by
  show StableHlo.after hostOps3 (V6 m outs c) (Proc.devRef .tc main_v80) = _
  rw [after3_bt (V6 m outs c), V6_main_arg6]

/-- The matrix product's first input is what the previous region left: this stretch does not write it. -/
theorem V7_main_v69 (c : Dev nD) : V7 m outs c main_v69 = outs 6 main_v69 c :=
  (V7_of m outs c main_v69 (by decide)).trans (Function.update_self ..)

end Cert.KernelIdeal.HandVal

end
-- ==== Proof.KI.Host6.lean ====
/-
  The host stretch before matrix product 2, read as values: row 2 of the weight, bias, scale and shift parameter arrays.

  The weight row is a `[64, 64]` matrix; the other three are `[1, 64]` rows (sliced, flattened, and raised again, as printed).
  Each is ONE function of the argument it reads. The matrix product's first input is what the previous region left.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- Row 2 of the stacked weight matrices, as a matrix. -/
def kW2 (ws : (⟨S4x64x64, .f32⟩ : BufTy).Contents (Elt F)) : (⟨S64x64, .f32⟩ : BufTy).Contents (Elt F) :=
  shapeCast S64x64 (extractStridedSlice S1x64x64 ![2, 0, 0] ws slices_S4x64x64_S1x64x64_2_0_0) shapeCasts_S1x64x64_S64x64

/-- Row 2 of a stacked `[4, 64]` parameter array, as a `[1, 64]` row. -/
def kRow2 (p : (⟨S4x64, .f32⟩ : BufTy).Contents (Elt F)) : (⟨S1x64, .f32⟩ : BufTy).Contents (Elt F) :=
  shapeCast S1x64 (shapeCast S64 (extractStridedSlice S1x64 ![2, 0] p slices_S4x64_S1x64_2_0) shapeCasts_S1x64_S64)
    shapeCasts_S64_S1x64

set_option maxHeartbeats 4000000 in
theorem after6_W (W : Valuation τ sig (Elt F)) :
    StableHlo.after hostOps6 W (Proc.devRef .tc main_v114)
      = kW2 (W (Proc.devRef .tc main_arg3)) := by
  after_results_simp
  unfold kW2
  rfl

set_option maxHeartbeats 4000000 in
theorem after6_b (W : Valuation τ sig (Elt F)) :
    StableHlo.after hostOps6 W (Proc.devRef .tc main_v117)
      = kRow2 (W (Proc.devRef .tc main_arg4)) := by
  after_results_simp
  unfold kRow2
  rfl

set_option maxHeartbeats 4000000 in
theorem after6_g (W : Valuation τ sig (Elt F)) :
    StableHlo.after hostOps6 W (Proc.devRef .tc main_v120)
      = kRow2 (W (Proc.devRef .tc main_arg5)) := by
  after_results_simp
  unfold kRow2
  rfl

set_option maxHeartbeats 4000000 in
theorem after6_bt (W : Valuation τ sig (Elt F)) :
    StableHlo.after hostOps6 W (Proc.devRef .tc main_v123)
      = kRow2 (W (Proc.devRef .tc main_arg6)) := by
  after_results_simp
  unfold kRow2
  rfl

variable (m : (ℓ : Loc nD τ sig) → Buf (Elt F) ℓ) (outs : Outs (F := F))

/-- An argument array is still the launch's before this stretch. -/
theorem V12_main_arg3 (c : Dev nD) : V12 m outs c main_arg3 = V0 m c main_arg3 := (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))
theorem V12_main_arg4 (c : Dev nD) : V12 m outs c main_arg4 = V0 m c main_arg4 := (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))
theorem V12_main_arg5 (c : Dev nD) : V12 m outs c main_arg5 = V0 m c main_arg5 := (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
theorem V12_main_arg6 (c : Dev nD) : V12 m outs c main_arg6 = V0 m c main_arg6 := (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))

/-- The matrix product's second input: weight matrix 2. -/
theorem V13_main_v114 (c : Dev nD) : V13 m outs c main_v114 = kW2 (V0 m c main_arg3) := by
  show StableHlo.after hostOps6 (V12 m outs c) (Proc.devRef .tc main_v114) = _
  rw [after6_W (V12 m outs c), V12_main_arg3]
/-- Bias row 2. -/
theorem V13_main_v117 (c : Dev nD) : V13 m outs c main_v117 = kRow2 (V0 m c main_arg4) := by
  show StableHlo.after hostOps6 (V12 m outs c) (Proc.devRef .tc main_v117) = _
  rw [after6_b (V12 m outs c), V12_main_arg4]
/-- Scale parameter row 2. -/
theorem V13_main_v120 (c : Dev nD) : V13 m outs c main_v120 = kRow2 (V0 m c main_arg5) := by
  show StableHlo.after hostOps6 (V12 m outs c) (Proc.devRef .tc main_v120) = _
  rw [after6_g (V12 m outs c), V12_main_arg5]
/-- Shift parameter row 2. -/
theorem V13_main_v123 (c : Dev nD) : V13 m outs c main_v123 = kRow2 (V0 m c main_arg6) := by
  show StableHlo.after hostOps6 (V12 m outs c) (Proc.devRef .tc main_v123) = _
  rw [after6_bt (V12 m outs c), V12_main_arg6]

/-- The matrix product's first input is what the previous region left: this stretch does not write it. -/
theorem V13_main_v112 (c : Dev nD) : V13 m outs c main_v112 = outs 12 main_v112 c :=
  (V13_of m outs c main_v112 (by decide)).trans (Function.update_self ..)

end Cert.KernelIdeal.HandVal

end
-- ==== Proof.KI.Host9.lean ====
/-
  The host stretch before matrix product 3, read as values: row 3 of the weight, bias, scale and shift parameter arrays.

  The weight row is a `[64, 64]` matrix; the other three are `[1, 64]` rows (sliced, flattened, and raised again, as printed).
  Each is ONE function of the argument it reads. The matrix product's first input is what the previous region left.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- Row 3 of the stacked weight matrices, as a matrix. -/
def kW3 (ws : (⟨S4x64x64, .f32⟩ : BufTy).Contents (Elt F)) : (⟨S64x64, .f32⟩ : BufTy).Contents (Elt F) :=
  shapeCast S64x64 (extractStridedSlice S1x64x64 ![3, 0, 0] ws slices_S4x64x64_S1x64x64_3_0_0) shapeCasts_S1x64x64_S64x64

/-- Row 3 of a stacked `[4, 64]` parameter array, as a `[1, 64]` row. -/
def kRow3 (p : (⟨S4x64, .f32⟩ : BufTy).Contents (Elt F)) : (⟨S1x64, .f32⟩ : BufTy).Contents (Elt F) :=
  shapeCast S1x64 (shapeCast S64 (extractStridedSlice S1x64 ![3, 0] p slices_S4x64_S1x64_3_0) shapeCasts_S1x64_S64)
    shapeCasts_S64_S1x64

set_option maxHeartbeats 4000000 in
theorem after9_W (W : Valuation τ sig (Elt F)) :
    StableHlo.after hostOps9 W (Proc.devRef .tc main_v157)
      = kW3 (W (Proc.devRef .tc main_arg3)) := by
  after_results_simp
  unfold kW3
  rfl

set_option maxHeartbeats 4000000 in
theorem after9_b (W : Valuation τ sig (Elt F)) :
    StableHlo.after hostOps9 W (Proc.devRef .tc main_v160)
      = kRow3 (W (Proc.devRef .tc main_arg4)) := by
  after_results_simp
  unfold kRow3
  rfl

set_option maxHeartbeats 4000000 in
theorem after9_g (W : Valuation τ sig (Elt F)) :
    StableHlo.after hostOps9 W (Proc.devRef .tc main_v163)
      = kRow3 (W (Proc.devRef .tc main_arg5)) := by
  after_results_simp
  unfold kRow3
  rfl

set_option maxHeartbeats 4000000 in
theorem after9_bt (W : Valuation τ sig (Elt F)) :
    StableHlo.after hostOps9 W (Proc.devRef .tc main_v166)
      = kRow3 (W (Proc.devRef .tc main_arg6)) := by
  after_results_simp
  unfold kRow3
  rfl

variable (m : (ℓ : Loc nD τ sig) → Buf (Elt F) ℓ) (outs : Outs (F := F))

/-- An argument array is still the launch's before this stretch. -/
theorem V18_main_arg3 (c : Dev nD) : V18 m outs c main_arg3 = V0 m c main_arg3 := (V18_of m outs c main_arg3 (by decide)).trans <| (V17_of m outs c main_arg3 (by decide)).trans <| (V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))
theorem V18_main_arg4 (c : Dev nD) : V18 m outs c main_arg4 = V0 m c main_arg4 := (V18_of m outs c main_arg4 (by decide)).trans <| (V17_of m outs c main_arg4 (by decide)).trans <| (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))
theorem V18_main_arg5 (c : Dev nD) : V18 m outs c main_arg5 = V0 m c main_arg5 := (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
theorem V18_main_arg6 (c : Dev nD) : V18 m outs c main_arg6 = V0 m c main_arg6 := (V18_of m outs c main_arg6 (by decide)).trans <| (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))

/-- The matrix product's second input: weight matrix 3. -/
theorem V19_main_v157 (c : Dev nD) : V19 m outs c main_v157 = kW3 (V0 m c main_arg3) := by
  show StableHlo.after hostOps9 (V18 m outs c) (Proc.devRef .tc main_v157) = _
  rw [after9_W (V18 m outs c), V18_main_arg3]
/-- Bias row 3. -/
theorem V19_main_v160 (c : Dev nD) : V19 m outs c main_v160 = kRow3 (V0 m c main_arg4) := by
  show StableHlo.after hostOps9 (V18 m outs c) (Proc.devRef .tc main_v160) = _
  rw [after9_b (V18 m outs c), V18_main_arg4]
/-- Scale parameter row 3. -/
theorem V19_main_v163 (c : Dev nD) : V19 m outs c main_v163 = kRow3 (V0 m c main_arg5) := by
  show StableHlo.after hostOps9 (V18 m outs c) (Proc.devRef .tc main_v163) = _
  rw [after9_g (V18 m outs c), V18_main_arg5]
/-- Shift parameter row 3. -/
theorem V19_main_v166 (c : Dev nD) : V19 m outs c main_v166 = kRow3 (V0 m c main_arg6) := by
  show StableHlo.after hostOps9 (V18 m outs c) (Proc.devRef .tc main_v166) = _
  rw [after9_bt (V18 m outs c), V18_main_arg6]

/-- The matrix product's first input is what the previous region left: this stretch does not write it. -/
theorem V19_main_v155 (c : Dev nD) : V19 m outs c main_v155 = outs 18 main_v155 c :=
  (V19_of m outs c main_v155 (by decide)).trans (Function.update_self ..)

end Cert.KernelIdeal.HandVal

end
-- ==== Proof.KI.Host12.lean ====
/-
  The last host stretch, read as values: the pooled array and the small operands of the final region.

  The pooled array is the scatter-add, into zeros, of the rows of the last layer's output at the graph index of each
  node; the three bias operands are the bias arguments raised to rows (`[64]` to `[1, 64]`, `[1]` to `[1, 1]`); the
  three weight operands are the arguments themselves. Each is ONE function of what it reads.
-/
import proofs.«113306_j49254684950634_1_alg».proof.Proof.Gen.KernelIdeal.Regions

set_option maxRecDepth 1900

noncomputable section

namespace Cert.KernelIdeal.HandVal

open Idealize.ShloMosaic Idealize.ShloMosaic.TcCoe
open Cert.KernelIdeal Cert.KernelIdeal.Gen

variable {F : FTy → Type} [FloatOps F]

/-- The pooled array: the rows of `h` scatter-added into zeros at the graph index `batch` of each node. -/
def kPool (batch : (⟨S50000, .i32⟩ : BufTy).Contents (Elt F)) (h : (⟨S50000x64, .f32⟩ : BufTy).Contents (Elt F)) : (⟨S1024x64, .f32⟩ : BufTy).Contents (Elt F) :=
  Host.scatterAdd scatter_S1024x64_S50000x1_S50000x64_1_0_0_1
    (broadcastInDim S1024x64 ![] bcast_S_S1024x64 (constant S_ .f32 0x00000000#32))
    (broadcastInDim S50000x1 ![0] bcast_S50000_S50000x1_0 batch) h

/-- A `[64]` vector as a `[1, 64]` row. -/
def kRowOf (p : (⟨S64, .f32⟩ : BufTy).Contents (Elt F)) : (⟨S1x64, .f32⟩ : BufTy).Contents (Elt F) := shapeCast S1x64 p shapeCasts_S64_S1x64

/-- A `[1]` vector as a `[1, 1]` array. -/
def kCellOf (p : (⟨S1, .f32⟩ : BufTy).Contents (Elt F)) : (⟨S1x1, .f32⟩ : BufTy).Contents (Elt F) := shapeCast S1x1 p shapeCasts_S1_S1x1

set_option maxHeartbeats 4000000 in
theorem after12_pool (W : Valuation τ sig (Elt F)) :
    StableHlo.after hostOps12 W (Proc.devRef .tc main_v201)
      = kPool (W (Proc.devRef .tc main_arg2)) (W (Proc.devRef .tc main_v198)) := by
  after_results_simp
  unfold kPool
  with_reducible rfl

set_option maxHeartbeats 4000000 in
theorem after12_b1 (W : Valuation τ sig (Elt F)) :
    StableHlo.after hostOps12 W (Proc.devRef .tc main_v202)
      = kRowOf (W (Proc.devRef .tc main_arg8)) := by
  after_results_simp
  unfold kRowOf
  rfl

set_option maxHeartbeats 4000000 in
theorem after12_b2 (W : Valuation τ sig (Elt F)) :
    StableHlo.after hostOps12 W (Proc.devRef .tc main_v203)
      = kRowOf (W (Proc.devRef .tc main_arg10)) := by
  after_results_simp
  unfold kRowOf
  rfl

set_option maxHeartbeats 4000000 in
theorem after12_b3 (W : Valuation τ sig (Elt F)) :
    StableHlo.after hostOps12 W (Proc.devRef .tc main_v204)
      = kCellOf (W (Proc.devRef .tc main_arg12)) := by
  after_results_simp
  unfold kCellOf
  rfl

variable (m : (ℓ : Loc nD τ sig) → Buf (Elt F) ℓ) (outs : Outs (F := F))

/-- An argument array is still the launch's before this stretch. -/
theorem V24_main_arg2 (c : Dev nD) : V24 m outs c main_arg2 = V0 m c main_arg2 := (V24_of m outs c main_arg2 (by decide)).trans <| (V23_of m outs c main_arg2 (by decide)).trans <| (V22_of m outs c main_arg2 (by decide)).trans <| (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))
theorem V24_main_arg7 (c : Dev nD) : V24 m outs c main_arg7 = V0 m c main_arg7 := (V24_of m outs c main_arg7 (by decide)).trans <| (V23_of m outs c main_arg7 (by decide)).trans <| (V22_of m outs c main_arg7 (by decide)).trans <| (V21_of m outs c main_arg7 (by decide)).trans <| (V20_of m outs c main_arg7 (by decide)).trans <| (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))
theorem V24_main_arg8 (c : Dev nD) : V24 m outs c main_arg8 = V0 m c main_arg8 := (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide))
theorem V24_main_arg9 (c : Dev nD) : V24 m outs c main_arg9 = V0 m c main_arg9 := (V24_of m outs c main_arg9 (by decide)).trans <| (V23_of m outs c main_arg9 (by decide)).trans <| (V22_of m outs c main_arg9 (by decide)).trans <| (V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))
theorem V24_main_arg10 (c : Dev nD) : V24 m outs c main_arg10 = V0 m c main_arg10 := (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
theorem V24_main_arg11 (c : Dev nD) : V24 m outs c main_arg11 = V0 m c main_arg11 := (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))
theorem V24_main_arg12 (c : Dev nD) : V24 m outs c main_arg12 = V0 m c main_arg12 := (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide))

/-- The final region's first input: the pooled output of the last layer. -/
theorem V25_main_v201 (c : Dev nD) : V25 m outs c main_v201 = kPool (V0 m c main_arg2) (outs 24 main_v198 c) := by
  show StableHlo.after hostOps12 (V24 m outs c) (Proc.devRef .tc main_v201) = _
  rw [after12_pool (V24 m outs c), V24_main_arg2]
  have e : V24 m outs c main_v198 = outs 24 main_v198 c := Function.update_self ..
  rw [e]
/-- Its three bias operands. -/
theorem V25_main_v202 (c : Dev nD) : V25 m outs c main_v202 = kRowOf (V0 m c main_arg8) := by
  show StableHlo.after hostOps12 (V24 m outs c) (Proc.devRef .tc main_v202) = _
  rw [after12_b1 (V24 m outs c), V24_main_arg8]
theorem V25_main_v203 (c : Dev nD) : V25 m outs c main_v203 = kRowOf (V0 m c main_arg10) := by
  show StableHlo.after hostOps12 (V24 m outs c) (Proc.devRef .tc main_v203) = _
  rw [after12_b2 (V24 m outs c), V24_main_arg10]
theorem V25_main_v204 (c : Dev nD) : V25 m outs c main_v204 = kCellOf (V0 m c main_arg12) := by
  show StableHlo.after hostOps12 (V24 m outs c) (Proc.devRef .tc main_v204) = _
  rw [after12_b3 (V24 m outs c), V24_main_arg12]
/-- Its three weight operands are the arguments: this stretch does not write them. -/
theorem V25_main_arg7 (c : Dev nD) : V25 m outs c main_arg7 = V0 m c main_arg7 :=
  (V25_of m outs c main_arg7 (by decide)).trans (V24_main_arg7 m outs c)
theorem V25_main_arg9 (c : Dev nD) : V25 m outs c main_arg9 = V0 m c main_arg9 :=
  (V25_of m outs c main_arg9 (by decide)).trans (V24_main_arg9 m outs c)
theorem V25_main_arg11 (c : Dev nD) : V25 m outs c main_arg11 = V0 m c main_arg11 :=
  (V25_of m outs c main_arg11 (by decide)).trans (V24_main_arg11 m outs c)

end Cert.KernelIdeal.HandVal

end
-- ==== Proof.KI.KOut.lean ====
import proofs.«113306_j49254684950634_1_alg».proof.Proof.KI.Val0
import proofs.«113306_j49254684950634_1_alg».proof.Proof.KI.Val1
import proofs.«113306_j49254684950634_1_alg».proof.Proof.KI.Val2
import proofs.«113306_j49254684950634_1_alg».proof.Proof.KI.Val12
import proofs.«113306_j49254684950634_1_alg».proof.Proof.KI.Host0
import proofs.«113306_j49254684950634_1_alg».proof.Proof.KI.Host1
import proofs.«113306_j49254684950634_1_alg».proof.Proof.KI.Host2
import proofs.«113306_j49254684950634_1_alg».proof.Proof.KI.Host3
import proofs.«113306_j49254684950634_1_alg».proof.Proof.KI.Host6
import proofs.«113306_j49254684950634_1_alg».proof.Proof.KI.Host9
import proofs.«113306_j49254684950634_1_alg».proof.Proof.KI.Host12

noncomputable section

namespace Cert.KernelIdeal.HandVal

open Idealize.ShloMosaic Idealize.ShloMosaic.TcCoe
open Cert.KernelIdeal Cert.KernelIdeal.Gen

/-- One layer of the kernel program as a function of its input features and parameters: the feature product, the
    normalised aggregate with its self term, the bias, the column sums and sums of squares over all rows, the scale and
    shift computed from them, and the rectified affine map. -/
def kLayer (h : S50000x64.Idx → Elt Ideal .f32) (W : S64x64.Idx → Elt Ideal .f32) (b g bt : S1x64.Idx → Elt Ideal .f32)
    (src dst : (⟨S800000, .i32⟩ : BufTy).Contents (Elt Ideal)) (norm : (⟨S800000, .f32⟩ : BufTy).Contents (Elt Ideal))
    (dinv2 : (⟨S50000, .f32⟩ : BufTy).Contents (Elt Ideal)) : S50000x64.Idx → Elt Ideal .f32 :=
  G2_3 (G1_2 (kAggSelf (G0_2 h W) src dst norm dinv2) b)
    (kScale (G1_3 (kAggSelf (G0_2 h W) src dst norm dinv2) b) (G1_4 (kAggSelf (G0_2 h W) src dst norm dinv2) b) g)
    (kShift (G1_3 (kAggSelf (G0_2 h W) src dst norm dinv2) b) (G1_4 (kAggSelf (G0_2 h W) src dst norm dinv2) b) g bt)

/-- The kernel program's result as a function of its thirteen arguments: four layers, the pooled sums by graph, and
    the three dense layers of the head. -/
def kOut (a0 : S50000x64.Idx → Elt Ideal .f32) (a1 : (⟨S2x800000, .i32⟩ : BufTy).Contents (Elt Ideal)) (a2 : (⟨S50000, .i32⟩ : BufTy).Contents (Elt Ideal))
    (a3 : (⟨S4x64x64, .f32⟩ : BufTy).Contents (Elt Ideal)) (a4 a5 a6 : (⟨S4x64, .f32⟩ : BufTy).Contents (Elt Ideal))
    (a7 : S64x64.Idx → Elt Ideal .f32) (a8 : (⟨S64, .f32⟩ : BufTy).Contents (Elt Ideal)) (a9 : S64x64.Idx → Elt Ideal .f32)
    (a10 : (⟨S64, .f32⟩ : BufTy).Contents (Elt Ideal)) (a11 : S64x1.Idx → Elt Ideal .f32) (a12 : (⟨S1, .f32⟩ : BufTy).Contents (Elt Ideal)) :
    S1024x1.Idx → Elt Ideal .f32 :=
  let src := kSrc a1; let dst := kDst a1; let dinv := kDinv dst; let norm := kNorm dinv src dst; let d2 := kDinv2 dinv
  let h1 := kLayer a0 (kW0 a3) (kRow0 a4) (kRow0 a5) (kRow0 a6) src dst norm d2
  let h2 := kLayer h1 (kW1 a3) (kRow1 a4) (kRow1 a5) (kRow1 a6) src dst norm d2
  let h3 := kLayer h2 (kW2 a3) (kRow2 a4) (kRow2 a5) (kRow2 a6) src dst norm d2
  let h4 := kLayer h3 (kW3 a3) (kRow3 a4) (kRow3 a5) (kRow3 a6) src dst norm d2
  G12_7 (kPool a2 h4) a7 (kRowOf a8) a9 (kRowOf a10) a11 (kCellOf a12)

end Cert.KernelIdeal.HandVal

end
-- ==== Proof.KI.Val3.lean ====
import proofs.«113306_j49254684950634_1_alg».proof.Proof.KI.R3
import proofs.«113306_j49254684950634_1_alg».proof.Proof.LibMatmulNN
import Idealize.ShloMosaic.Lib.Pipeline.Value
import Idealize.ShloMosaic.Lib.ValueIdx
import Idealize.ShloMosaic.Lib.Tactic

/-! # Region 3 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz3 : (![0, 0] : Fin 2 → Nat) = fun _ => 0 := funext fun a => by fin_cases a <;> rfl

/-- The product of the row-block array `h` ([50000, 64]) with the weight array `W` ([64, 64]), entry by entry. -/
def G3_2 (h : S50000x64.Idx → Elt Ideal .f32) (W : S64x64.Idx → Elt Ideal .f32) : S50000x64.Idx → Elt Ideal .f32 :=
  fun i => ∑ k : Fin 64, h (ix2 (i 0 : Fin 50000) k) * W (ix2 k (i 1 : Fin 64))

/-- The body's payload at an entry: the format changes are the identity on extended reals, and the matrix product
    into the zero accumulator is the sum of products. -/
theorem pay3_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  simp only [shapeCast_self]
  exact Cert.LibMatmulNN.matmul_zero_apply dot_S5000x64_S64x64_S5000x64_1_0_0_1_n_n rfl none _ _ p q

/-- The printed index maps over the grid: the row blocks of windows 0 and 2 are the grid point's, every other block
    index is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of point `t`'s block is row `5000 t + p` of the array. -/
def row3 (t : Fin cfg3.N) (p : Fin 5000) : Fin 50000 :=
  ⟨5000 * t.val + p.val, by have := t.isLt; have hN : cfg3.N = 10 := N_3; have := p.isLt; omega⟩

/-- Where an index of point `t`'s block sits in its array, window by window. -/
theorem emb3_0 (t : Fin cfg3.N) (p : Fin 5000) (k : Fin 64) :
    ((cfg3.win 0).blk t).view.emb (ix2 p k) = ix2 (row3 t p) k := by
  obtain ⟨e0, e1, e2, e3, e4, e5⟩ := idx3 t
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega
theorem emb3_1 (t : Fin cfg3.N) (k : Fin 64) (q : Fin 64) :
    ((cfg3.win 1).blk t).view.emb (ix2 k q) = ix2 k q := by
  obtain ⟨e0, e1, e2, e3, e4, e5⟩ := idx3 t
  funext a; apply Fin.ext
  match a with
  | ⟨0, _⟩ => show win3_1.index t (0 : Fin 2) * 64 + 1 * k.val = k.val; omega
  | ⟨1, _⟩ => show win3_1.index t (1 : Fin 2) * 64 + 1 * q.val = q.val; omega
theorem emb3_2 (t : Fin cfg3.N) (p : Fin 5000) (q : Fin 64) :
    ((cfg3.win 2).blk t).view.emb (ix2 p q) = ix2 (row3 t p) q := by
  obtain ⟨e0, e1, e2, e3, e4, e5⟩ := idx3 t
  funext a; apply Fin.ext
  match a with
  | ⟨0, _⟩ => show win3_2.index t (0 : Fin 2) * 5000 + 1 * p.val = 5000 * t.val + p.val; omega
  | ⟨1, _⟩ => show win3_2.index t (1 : Fin 2) * 64 + 1 * q.val = q.val; omega

/-- The input blocks read at an entry, as entries of their arrays. -/
theorem iblk3_0_apply (c : Dev nD) (t : Fin cfg3.N) (p : Fin 5000) (k : Fin 64) :
    iblk3 V c 0 t (ix2 p k) = V c (Pipeline.arrRef spec3 0) (ix2 (row3 t p) k) := by
  show V c (Pipeline.arrRef spec3 0) (((cfg3.win 0).blk t).view.emb (ix2 p k)) = _
  rw [emb3_0]
theorem iblk3_1_apply (c : Dev nD) (t : Fin cfg3.N) (k : Fin 64) (q : Fin 64) :
    iblk3 V c 1 t (ix2 k q) = V c (Pipeline.arrRef spec3 1) (ix2 k q) := by
  show V c (Pipeline.arrRef spec3 1) (((cfg3.win 1).blk t).view.emb (ix2 k q)) = _
  rw [emb3_1]

/-- What point `t` writes back is block `t` of `G3_2` of the input arrays as the region finds them. -/
theorem flushed3_2_eq (c : Dev nD) (t : Fin cfg3.N) :
    (dat3 (F := Ideal) V c).flushed 2 t
      = ((cfg3.win 2).blk t).view.read (Elt Ideal) (G3_2 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S64x64) hz3]
  funext j
  obtain ⟨p, q, rfl⟩ : ∃ (p : Fin 5000) (q : Fin 64), j = ix2 p q := ⟨j 0, j 1, eq_ix2 j⟩
  show k3_pay1 (iblk3 V c 0 t) (iblk3 V c 1 t) (ix2 p q) = G3_2 _ _ (((cfg3.win 2).blk t).view.emb (ix2 p q))
  rw [pay3_apply, emb3_2]
  refine Finset.sum_congr rfl fun k _ => ?_
  rw [iblk3_0_apply, iblk3_1_apply]

/-- An index of the output array is in point `t`'s block iff each coordinate is in the block's range on its axis. -/
theorem mem_blk3_2 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v81).slice (win3_2.rect t)).set ↔ _
  rw [View.set_slice_whole, Rect.mem_set_unit]
  exact Iff.rfl

/-- Every index of the output array is in the block of the point its row falls in: rows 5000 t … 5000 t + 4999. -/
theorem cover3_2_arr (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by omega⟩, rfl⟩
  obtain ⟨e0, e1, e2, e3, e4, e5⟩ := idx3 t
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region's last point is `G3_2` of the two input arrays as the region finds them. -/
theorem final3_2 (c : Dev nD) :
    (dat3 (F := Ideal) V c).arrAt 2 cfg3.N = G3_2 (V c (Pipeline.arrRef spec3 0)) (V c (Pipeline.arrRef spec3 1)) :=
  (dat3 (F := Ideal) V c).arrAt_eq_of_cover 2 (G3_2 (V c (Pipeline.arrRef spec3 0)) (V c (Pipeline.arrRef spec3 1)))
    (fun t _ => flushed3_2_eq V c t) cover3_2_arr

end Cert.KernelIdeal.HandVal
-- ==== Proof.KI.Val4.lean ====
import proofs.«113306_j49254684950634_1_alg».proof.Proof.KI.R4
import proofs.«113306_j49254684950634_1_alg».proof.Proof.LibRowLayout
import proofs.«113306_j49254684950634_1_alg».proof.Proof.LibBatchNormAlgebra
import Idealize.ShloMosaic.Lib.ValueIdx
import Idealize.ShloMosaic.Lib.Pipeline.Value
import Idealize.ShloMosaic.PureOps.Ideal.Laws

/-! # Region 4 on the extended reals: what its three outputs hold at the end

The first output is the input plus the bias row repeated over the rows. The second and third are, column by column,
the sum over all 50000 rows of the first output and of its square: the body adds one 5000-row tile's column sums per
grid point to a row it carries between points, ten tiles in all, and a sum over `10 · 5000` rows is the sum over the
tiles of the sums inside each tile. Addition of extended reals is associative and commutative, so no finiteness is
needed. -/

set_option maxRecDepth 16384

noncomputable section

namespace Cert.KernelIdeal.HandVal

open Cert.KernelIdeal Cert.KernelIdeal.Gen Idealize.ShloMosaic Idealize.ShloMosaic.ValueIdx
open scoped BigOperators

/-! ## The body's stored values, read at an index, on the extended reals

`x` is a 5000-row tile, `b` the bias row, `a` a carried row. The output tile is `x + b` with `b` repeated over the
rows; a carried row gains, at column `q`, the sum over the tile's rows of the output tile (of its square) at `q`. -/

/-- The zero row is zero everywhere. -/
theorem zeroRow4_apply (q : Fin 64) : k4_pay1 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

theorem zeroRow4'_apply (q : Fin 64) : k4_pay2 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

/-- The output tile at row `p`, column `q`: the tile there plus the bias at `q`. -/
theorem conv4_apply (x : Vec Ideal S5000x64 .f32) (b : Vec Ideal S1x64 .f32) (p : Fin 5000) (q : Fin 64) :
    k4_pay3 (F := Ideal) x b (ix2 p q) = x (ix2 p q) + b (ix2 (0 : Fin 1) q) := by
  unfold k4_pay3
  refine (addf_apply _ _ (ix2 p q)).trans ?_
  refine congrArg₂ (· + ·) (congrFun (shapeCast_self x _) _) ?_
  refine (broadcastTo_apply _ _ (ix2 p q) (ix2 (0 : Fin 1) q) fun a => ?_).trans (congrFun (shapeCast_self b _) _)
  match a with
  | ⟨0, _⟩ => rfl
  | ⟨1, _⟩ => rfl

/-- A lane-wise sum of a 5000-row tile over its rows, lifted to a one-row block, read at column `q`. -/
theorem colSum4_apply (src : FVec Ideal S5000x64 .f32) (q : Fin 64) :
    shapeCast S1x64 (multiReduction (F := Ideal) .add [0] S64 src 0x00000000#32 reduces_S5000x64_S64 (.inl rfl) rfl) shapeCasts_S64_S1x64 (ix2 (0 : Fin 1) q)
      = ∑ p : Fin 5000, src (ix2 p q) := by
  refine (shapeCast_addUnit_apply ![64] _ _ (ix2 (0 : Fin 1) q)).trans ?_
  have e : (fun a : Fin 1 => (ix2 (0 : Fin 1) q) a.succ) = ix1 q := by
    funext a; match a with | ⟨0, _⟩ => rfl
  exact (congrArg _ e).trans (RowLayout.laneColSum_apply src _ _ _ _ q)

/-- The first carried row after a point: what it held plus the output tile's column sums. -/
theorem sumRow4_apply (x : Vec Ideal S5000x64 .f32) (b a : Vec Ideal S1x64 .f32) (q : Fin 64) :
    k4_pay4 (F := Ideal) x b a (ix2 (0 : Fin 1) q)
      = a (ix2 (0 : Fin 1) q) + ∑ p : Fin 5000, k4_pay3 (F := Ideal) x b (ix2 p q) := by
  unfold k4_pay4
  refine (congrFun (shapeCast_self _ _) (ix2 (0 : Fin 1) q)).trans ?_
  refine (addf_apply _ _ (ix2 (0 : Fin 1) q)).trans ?_
  exact congrArg (a (ix2 (0 : Fin 1) q) + ·) (colSum4_apply _ q)

/-- The second carried row after a point: what it held plus the column sums of the output tile's squares. -/
theorem sqRow4_apply (x : Vec Ideal S5000x64 .f32) (b a : Vec Ideal S1x64 .f32) (q : Fin 64) :
    k4_pay5 (F := Ideal) x b a (ix2 (0 : Fin 1) q)
      = a (ix2 (0 : Fin 1) q) + ∑ p : Fin 5000, k4_pay3 (F := Ideal) x b (ix2 p q) * k4_pay3 (F := Ideal) x b (ix2 p q) := by
  unfold k4_pay5
  refine (congrFun (shapeCast_self _ _) (ix2 (0 : Fin 1) q)).trans ?_
  refine (addf_apply _ _ (ix2 (0 : Fin 1) q)).trans ?_
  refine congrArg (a (ix2 (0 : Fin 1) q) + ·) ((colSum4_apply _ q).trans ?_)
  exact Finset.sum_congr rfl fun p _ => mulf_apply _ _ _

open Cert.KernelIdeal.Hand Idealize.ShloMosaic.TcCoe Idealize.SL.Sem
open Idealize.ShloMosaic.Pipeline (Dat)

/-! ## What the three outputs hold at the end, as functions of the two inputs

`x` is the whole 50000-row input, `b` the bias row. -/

/-- The first output: `x` plus the bias row repeated over the rows. -/
def G4_2 (x : S50000x64.Idx → EReal) (b : S1x64.Idx → EReal) : S50000x64.Idx → EReal :=
  fun i => x i + b (ix2 (0 : Fin 1) (i 1 : Fin 64))

/-- The second: at column `q`, the sum of the first output's column `q` over all 50000 rows. -/
def G4_3 (x : S50000x64.Idx → EReal) (b : S1x64.Idx → EReal) : S1x64.Idx → EReal :=
  fun i => ∑ r : Fin 50000, G4_2 x b (ix2 r (i 1 : Fin 64))

/-- The third: likewise of the squares. -/
def G4_4 (x : S50000x64.Idx → EReal) (b : S1x64.Idx → EReal) : S1x64.Idx → EReal :=
  fun i => ∑ r : Fin 50000, G4_2 x b (ix2 r (i 1 : Fin 64)) * G4_2 x b (ix2 r (i 1 : Fin 64))

variable (V : (c : Dev nD) → (b : Ref sig .tc) → Buf (Elt Ideal) ((c : Thread nD τ).loc b))

/-! ## Where the blocks sit -/

/-- The block indices, decided over the ten points: the tile and the output tile are at row block `t`, the three
    one-row windows never move. -/
theorem idx4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row `p` of the tile at point `t` is row `5000 t + p` of the input. -/
theorem tile4_apply (c : Dev nD) (t : Fin cfg4.N) (p : Fin 5000) (q : Fin 64) (r : Fin 50000) (hr : r.val = 5000 * t.val + p.val) :
    iblk4 V c 0 t (ix2 p q) = V c (Pipeline.arrRef spec4 0) (ix2 r q) := by
  obtain ⟨e00, e01, -⟩ := idx4 t
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 5000 + 1 * p.val = r.val; omega
  | ⟨1, _⟩ => show win4_0.index t (1 : Fin 2) * 64 + 1 * q.val = q.val; omega

/-- The bias row's block is the bias row at every point. -/
theorem bias4_apply (c : Dev nD) (t : Fin cfg4.N) (q : Fin 64) :
    iblk4 V c 1 t (ix2 (0 : Fin 1) q) = V c (Pipeline.arrRef spec4 1) (ix2 (0 : Fin 1) q) := by
  obtain ⟨-, -, e10, e11, -⟩ := idx4 t
  show V c (Pipeline.arrRef spec4 1) (((cfg4.win 1).blk t).view.emb (ix2 (0 : Fin 1) q)) = _
  refine congrArg (V c (Pipeline.arrRef spec4 1)) (funext fun a => Fin.ext ?_)
  match a with
  | ⟨0, _⟩ => show win4_1.index t (0 : Fin 2) * 1 + 1 * 0 = 0; omega
  | ⟨1, _⟩ => show win4_1.index t (1 : Fin 2) * 64 + 1 * q.val = q.val; omega

/-- So the output tile at point `t`, row `p`, is the first output's specification at row `5000 t + p`. -/
theorem convTile4_apply (c : Dev nD) (t : Fin cfg4.N) (p : Fin 5000) (q : Fin 64) (r : Fin 50000) (hr : r.val = 5000 * t.val + p.val) :
    k4_pay3 (F := Ideal) (iblk4 V c 0 t) (iblk4 V c 1 t) (ix2 p q)
      = G4_2 (V c (Pipeline.arrRef spec4 0)) (V c (Pipeline.arrRef spec4 1)) (ix2 r q) :=
  (conv4_apply _ _ p q).trans (congrArg₂ (· + ·) (tile4_apply V c t p q r hr) (bias4_apply V c t q))

/-! ## The carried rows are running sums over the points -/

/-- Point `m`'s contribution to the first carried row at column `q`: the column sum of its output tile (nothing
    beyond the grid). -/
def tileSum4 (c : Dev nD) (q : Fin 64) (m : ℕ) : EReal :=
  if h : m < cfg4.N then ∑ p : Fin 5000, k4_pay3 (F := Ideal) (iblk4 V c 0 ⟨m, h⟩) (iblk4 V c 1 ⟨m, h⟩) (ix2 p q) else 0

/-- and to the second: the column sum of the squares. -/
def tileSq4 (c : Dev nD) (q : Fin 64) (m : ℕ) : EReal :=
  if h : m < cfg4.N then ∑ p : Fin 5000, k4_pay3 (F := Ideal) (iblk4 V c 0 ⟨m, h⟩) (iblk4 V c 1 ⟨m, h⟩) (ix2 p q)
      * k4_pay3 (F := Ideal) (iblk4 V c 0 ⟨m, h⟩) (iblk4 V c 1 ⟨m, h⟩) (ix2 p q) else 0

/-- After point `n` the first carried row holds, at column `q`, the contributions of points `0 … n`: by induction
    on `n`, the first point starting from the zero row. -/
theorem acc4_fst_apply (c : Dev nD) (q : Fin 64) :
    ∀ (n : ℕ) (hn : n < cfg4.N), (acc4 V c n hn).1 (ix2 (0 : Fin 1) q) = ∑ m ∈ Finset.range (n + 1), tileSum4 V c q m
  | 0, hn => by
    show k4_pay4 (F := Ideal) (iblk4 V c 0 ⟨0, hn⟩) (iblk4 V c 1 ⟨0, hn⟩) (k4_pay1 (F := Ideal)) (ix2 (0 : Fin 1) q) = _
    refine (sumRow4_apply _ _ _ q).trans ?_
    refine (congrArg₂ (· + ·) (zeroRow4_apply q) (Eq.refl _)).trans ?_
    simp only [zero_add, Finset.sum_range_one]
    unfold tileSum4
    rw [dif_pos hn]
  | n + 1, hn => by
    show k4_pay4 (F := Ideal) (iblk4 V c 0 ⟨n + 1, hn⟩) (iblk4 V c 1 ⟨n + 1, hn⟩) (acc4 V c n (Nat.lt_of_succ_lt hn)).1 (ix2 (0 : Fin 1) q) = _
    refine (sumRow4_apply _ _ _ q).trans ?_
    exact (congrArg₂ (· + ·) (acc4_fst_apply c q n (Nat.lt_of_succ_lt hn)) (dif_pos hn).symm).trans (Finset.sum_range_succ _ _).symm

/-- Likewise the second. -/
theorem acc4_snd_apply (c : Dev nD) (q : Fin 64) :
    ∀ (n : ℕ) (hn : n < cfg4.N), (acc4 V c n hn).2 (ix2 (0 : Fin 1) q) = ∑ m ∈ Finset.range (n + 1), tileSq4 V c q m
  | 0, hn => by
    show k4_pay5 (F := Ideal) (iblk4 V c 0 ⟨0, hn⟩) (iblk4 V c 1 ⟨0, hn⟩) (k4_pay2 (F := Ideal)) (ix2 (0 : Fin 1) q) = _
    refine (sqRow4_apply _ _ _ q).trans ?_
    refine (congrArg₂ (· + ·) (zeroRow4'_apply q) (Eq.refl _)).trans ?_
    simp only [zero_add, Finset.sum_range_one]
    unfold tileSq4
    rw [dif_pos hn]
  | n + 1, hn => by
    show k4_pay5 (F := Ideal) (iblk4 V c 0 ⟨n + 1, hn⟩) (iblk4 V c 1 ⟨n + 1, hn⟩) (acc4 V c n (Nat.lt_of_succ_lt hn)).2 (ix2 (0 : Fin 1) q) = _
    refine (sqRow4_apply _ _ _ q).trans ?_
    exact (congrArg₂ (· + ·) (acc4_snd_apply c q n (Nat.lt_of_succ_lt hn)) (dif_pos hn).symm).trans (Finset.sum_range_succ _ _).symm

/-- Over the ten points the contributions add up to the sum over all 50000 rows: row `p` of tile `t` is row
    `5000 t + p`, and a sum over `10 · 5000` rows is the sum over the tiles of the sums inside each. -/
theorem total4_3 (c : Dev nD) (q : Fin 64) :
    ∑ m ∈ Finset.range 10, tileSum4 V c q m = G4_3 (V c (Pipeline.arrRef spec4 0)) (V c (Pipeline.arrRef spec4 1)) (ix2 (0 : Fin 1) q) := by
  rw [Finset.sum_range]
  show _ = ∑ r : Fin 50000, G4_2 (V c (Pipeline.arrRef spec4 0)) (V c (Pipeline.arrRef spec4 1)) (ix2 r q)
  refine Eq.trans ?_ (BatchNormAlgebra.sum_tiles 10 5000 fun r : Fin (10 * 5000) => G4_2 (V c (Pipeline.arrRef spec4 0)) (V c (Pipeline.arrRef spec4 1)) (ix2 r q)).symm
  refine Finset.sum_congr rfl fun t _ => ?_
  have ht : t.val < cfg4.N := lt_of_lt_of_eq t.isLt (show cfg4.N = 10 from N_4).symm
  refine (dif_pos ht).trans (Finset.sum_congr rfl fun p _ => ?_)
  have hr : (finProdFinEquiv (t, p) : Fin (10 * 5000)).val = 5000 * (⟨t.val, ht⟩ : Fin cfg4.N).val + p.val := by
    rw [BatchNormAlgebra.tile_row_val]; show p.val + 5000 * t.val = 5000 * t.val + p.val; omega
  exact convTile4_apply V c ⟨t.val, ht⟩ p q (finProdFinEquiv (t, p)) hr

/-- Over the ten points the contributions add up to the sum over all 50000 rows: row `p` of tile `t` is row
    `5000 t + p`, and a sum over `10 · 5000` rows is the sum over the tiles of the sums inside each. -/
theorem total4_4 (c : Dev nD) (q : Fin 64) :
    ∑ m ∈ Finset.range 10, tileSq4 V c q m = G4_4 (V c (Pipeline.arrRef spec4 0)) (V c (Pipeline.arrRef spec4 1)) (ix2 (0 : Fin 1) q) := by
  rw [Finset.sum_range]
  show _ = ∑ r : Fin 50000, G4_2 (V c (Pipeline.arrRef spec4 0)) (V c (Pipeline.arrRef spec4 1)) (ix2 r q) * G4_2 (V c (Pipeline.arrRef spec4 0)) (V c (Pipeline.arrRef spec4 1)) (ix2 r q)
  refine Eq.trans ?_ (BatchNormAlgebra.sum_tiles 10 5000 fun r : Fin (10 * 5000) => G4_2 (V c (Pipeline.arrRef spec4 0)) (V c (Pipeline.arrRef spec4 1)) (ix2 r q) * G4_2 (V c (Pipeline.arrRef spec4 0)) (V c (Pipeline.arrRef spec4 1)) (ix2 r q)).symm
  refine Finset.sum_congr rfl fun t _ => ?_
  have ht : t.val < cfg4.N := lt_of_lt_of_eq t.isLt (show cfg4.N = 10 from N_4).symm
  refine (dif_pos ht).trans (Finset.sum_congr rfl fun p _ => ?_)
  have hr : (finProdFinEquiv (t, p) : Fin (10 * 5000)).val = 5000 * (⟨t.val, ht⟩ : Fin cfg4.N).val + p.val := by
    rw [BatchNormAlgebra.tile_row_val]; show p.val + 5000 * t.val = 5000 * t.val + p.val; omega
  exact congrArg₂ (· * ·) (convTile4_apply V c ⟨t.val, ht⟩ p q (finProdFinEquiv (t, p)) hr) (convTile4_apply V c ⟨t.val, ht⟩ p q (finProdFinEquiv (t, p)) hr)

/-! ## From blocks to the arrays -/

/-- The output tile at point `t`, read at any index of the tile, is the specification at the index's place in the
    whole output. -/
theorem conv_blk4 (c : Dev nD) (t : Fin cfg4.N) (j : S5000x64.Idx) :
    k4_pay3 (F := Ideal) (iblk4 V c 0 t) (iblk4 V c 1 t) j = G4_2 (V c (Pipeline.arrRef spec4 0)) (V c (Pipeline.arrRef spec4 1)) (((cfg4.win 2).blk t).view.emb j) := by
  obtain ⟨p, q, rfl⟩ : ∃ (p : Fin 5000) (q : Fin 64), j = ix2 p q := ⟨j 0, j 1, eq_ix2 j⟩
  have hidx := idx4 t
  have hN : t.val < 10 := lt_of_lt_of_eq t.isLt (show cfg4.N = 10 from N_4)
  have hr : 5000 * t.val + p.val < 50000 := by have := p.isLt; omega
  have he : ((cfg4.win 2).blk t).view.emb (ix2 p q) = ix2 (⟨5000 * t.val + p.val, hr⟩ : Fin 50000) q := by
    funext a; apply Fin.ext
    match a with
    | ⟨0, _⟩ => show win4_2.index t (0 : Fin 2) * 5000 + 1 * p.val = 5000 * t.val + p.val; omega
    | ⟨1, _⟩ => show win4_2.index t (1 : Fin 2) * 64 + 1 * q.val = q.val; omega
  rw [he]
  exact convTile4_apply V c t p q _ rfl

/-- What point `t` writes back to the first output is its block of the specification. -/
theorem flushed4_2_eq (c : Dev nD) (t : Fin cfg4.N) :
    (dat4 (F := Ideal) V c).flushed 2 t = ((cfg4.win 2).blk t).view.read (Elt Ideal) (G4_2 (V c (Pipeline.arrRef spec4 0)) (V c (Pipeline.arrRef spec4 1))) := by
  show (cfg4.win 2).cut (grid4.coords t) ((dat4 V c).after 2 t) = _
  rw [after4_2]
  exact funext fun j => conv_blk4 V c t j

/-- An index of the first output is in point `t`'s block iff each coordinate is in the block's range. -/
theorem mem_blk4_2 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole (Pipeline.arrRef spec4 2)).slice (win4_2.rect t)).set ↔ _
  rw [View.set_slice_whole, Rect.mem_set_unit]
  exact Iff.rfl

/-- Row `r` is in the block of point `r / 5000`: the ten tiles cover the output. -/
theorem cover4_2 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hlt : (i 0).val / 5000 < cfg4.N := by rw [show cfg4.N = 10 from N_4]; omega
  have hidx := idx4 ⟨(i 0).val / 5000, hlt⟩
  refine ⟨⟨(i 0).val / 5000, hlt⟩, flush4_2 _, ?_⟩
  rw [mem_blk4_2]
  intro a
  match a with
  | ⟨0, _⟩ => show win4_2.index ⟨(i 0).val / 5000, hlt⟩ (0 : Fin 2) * 5000 ≤ (i 0).val ∧ (i 0).val < win4_2.index ⟨(i 0).val / 5000, hlt⟩ (0 : Fin 2) * 5000 + 5000
              have e : win4_2.index ⟨(i 0).val / 5000, hlt⟩ (0 : Fin 2) = (i 0).val / 5000 := hidx.2.2.2.2.1
              omega
  | ⟨1, _⟩ => show win4_2.index ⟨(i 0).val / 5000, hlt⟩ (1 : Fin 2) * 64 ≤ (i 1).val ∧ (i 1).val < win4_2.index ⟨(i 0).val / 5000, hlt⟩ (1 : Fin 2) * 64 + 64
              have e : win4_2.index ⟨(i 0).val / 5000, hlt⟩ (1 : Fin 2) = 0 := hidx.2.2.2.2.2.1
              omega

/-- THE FIRST OUTPUT after the run: the input plus the bias row, everywhere. -/
theorem final4_2 (c : Dev nD) :
    (dat4 (F := Ideal) V c).arrAt 2 cfg4.N = G4_2 (V c (Pipeline.arrRef spec4 0)) (V c (Pipeline.arrRef spec4 1)) :=
  (dat4 V c).arrAt_eq_of_cover 2 _ (fun t _ => flushed4_2_eq V c t) cover4_2

/-- An index of the one-row output is in a point's block iff each coordinate is in the block's range. -/
theorem mem_blk4_3 (t : Fin cfg4.N) (i : S1x64.Idx) :
    i ∈ ((cfg4.win 3).blk t).view.set ↔ ∀ a : Fin 2, win4_3.index t a * S1x64.size a ≤ (i a).val ∧ (i a).val < win4_3.index t a * S1x64.size a + S1x64.size a := by
  show i ∈ ((View.whole (Pipeline.arrRef spec4 3)).slice (win4_3.rect t)).set ↔ _
  rw [View.set_slice_whole, Rect.mem_set_unit]
  exact Iff.rfl

/-- Reading any one-row array through a point's block, at an index of the block, is the array at the index's place. -/
theorem read_blk4_3 (t : Fin cfg4.N) (G : S1x64.Idx → EReal) (j : S1x64.Idx) :
    ((cfg4.win 3).blk t).view.read (Elt Ideal) G j = G (((cfg4.win 3).blk t).view.emb j) := rfl

/-- At the last point the carried row, read through the output's block, is the specification. -/
theorem row_blk4_3 (c : Dev nD) (t : Fin cfg4.N) (h9 : t.val = 9) (j : S1x64.Idx) :
    (acc4 V c t.val t.isLt).1 j = G4_3 (V c (Pipeline.arrRef spec4 0)) (V c (Pipeline.arrRef spec4 1)) (((cfg4.win 3).blk t).view.emb j) := by
  obtain ⟨u, q, rfl⟩ : ∃ (u : Fin 1) (q : Fin 64), j = ix2 u q := ⟨j 0, j 1, eq_ix2 j⟩
  obtain rfl : u = 0 := Subsingleton.elim _ _
  have hidx := idx4 t
  have he : ((cfg4.win 3).blk t).view.emb (ix2 (0 : Fin 1) q) = ix2 (0 : Fin 1) q := by
    funext a; apply Fin.ext
    match a with
    | ⟨0, _⟩ => show win4_3.index t (0 : Fin 2) * 1 + 1 * 0 = 0; omega
    | ⟨1, _⟩ => show win4_3.index t (1 : Fin 2) * 64 + 1 * q.val = q.val; omega
  rw [he]
  refine (acc4_fst_apply V c q t.val t.isLt).trans ?_
  rw [h9]
  exact total4_3 V c q

/-- What the last point writes back to the one-row output is its block of the specification. -/
theorem flushed4_3_eq (c : Dev nD) (t : Fin cfg4.N) (hf : (cfg4.win 3).flush t = true) :
    (dat4 (F := Ideal) V c).flushed 3 t = ((cfg4.win 3).blk t).view.read (Elt Ideal) (G4_3 (V c (Pipeline.arrRef spec4 0)) (V c (Pipeline.arrRef spec4 1))) := by
  have hN : t.val < 10 := lt_of_lt_of_eq t.isLt (show cfg4.N = 10 from N_4)
  have h9 : t.val = 9 := by have := (flush4_3 t).mp hf; omega
  show (cfg4.win 3).cut (grid4.coords t) ((dat4 V c).after 3 t) = _
  rw [after4_3]
  funext j
  refine Eq.trans ?_ (read_blk4_3 t (G4_3 (V c (Pipeline.arrRef spec4 0)) (V c (Pipeline.arrRef spec4 1))) j).symm
  exact row_blk4_3 V c t h9 j

/-- The last point's block is the whole one-row output. -/
theorem cover4_3 (i : S1x64.Idx) : ∃ t : Fin cfg4.N, (cfg4.win 3).flush t = true ∧ i ∈ ((cfg4.win 3).blk t).view.set := by
  have hi0 : (i 0).val < 1 := (i 0).isLt
  have hi1 : (i 1).val < 64 := (i 1).isLt
  have hidx := idx4 t4_9
  refine ⟨t4_9, (flush4_3 t4_9).mpr (by decide), ?_⟩
  rw [mem_blk4_3]
  intro a
  match a with
  | ⟨0, _⟩ => show win4_3.index t4_9 (0 : Fin 2) * 1 ≤ (i 0).val ∧ (i 0).val < win4_3.index t4_9 (0 : Fin 2) * 1 + 1; omega
  | ⟨1, _⟩ => show win4_3.index t4_9 (1 : Fin 2) * 64 ≤ (i 1).val ∧ (i 1).val < win4_3.index t4_9 (1 : Fin 2) * 64 + 64; omega

/-- THE ONE-ROW OUTPUT after the run. -/
theorem final4_3 (c : Dev nD) :
    (dat4 (F := Ideal) V c).arrAt 3 cfg4.N = G4_3 (V c (Pipeline.arrRef spec4 0)) (V c (Pipeline.arrRef spec4 1)) :=
  (dat4 V c).arrAt_eq_of_cover 3 _ (fun t hf => flushed4_3_eq V c t hf) cover4_3

/-- An index of the one-row output is in a point's block iff each coordinate is in the block's range. -/
theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole (Pipeline.arrRef spec4 4)).slice (win4_4.rect t)).set ↔ _
  rw [View.set_slice_whole, Rect.mem_set_unit]
  exact Iff.rfl

/-- Reading any one-row array through a point's block, at an index of the block, is the array at the index's place. -/
theorem read_blk4_4 (t : Fin cfg4.N) (G : S1x64.Idx → EReal) (j : S1x64.Idx) :
    ((cfg4.win 4).blk t).view.read (Elt Ideal) G j = G (((cfg4.win 4).blk t).view.emb j) := rfl

/-- At the last point the carried row, read through the output's block, is the specification. -/
theorem row_blk4_4 (c : Dev nD) (t : Fin cfg4.N) (h9 : t.val = 9) (j : S1x64.Idx) :
    (acc4 V c t.val t.isLt).2 j = G4_4 (V c (Pipeline.arrRef spec4 0)) (V c (Pipeline.arrRef spec4 1)) (((cfg4.win 4).blk t).view.emb j) := by
  obtain ⟨u, q, rfl⟩ : ∃ (u : Fin 1) (q : Fin 64), j = ix2 u q := ⟨j 0, j 1, eq_ix2 j⟩
  obtain rfl : u = 0 := Subsingleton.elim _ _
  have hidx := idx4 t
  have he : ((cfg4.win 4).blk t).view.emb (ix2 (0 : Fin 1) q) = ix2 (0 : Fin 1) q := by
    funext a; apply Fin.ext
    match a with
    | ⟨0, _⟩ => show win4_4.index t (0 : Fin 2) * 1 + 1 * 0 = 0; omega
    | ⟨1, _⟩ => show win4_4.index t (1 : Fin 2) * 64 + 1 * q.val = q.val; omega
  rw [he]
  refine (acc4_snd_apply V c q t.val t.isLt).trans ?_
  rw [h9]
  exact total4_4 V c q

/-- What the last point writes back to the one-row output is its block of the specification. -/
theorem flushed4_4_eq (c : Dev nD) (t : Fin cfg4.N) (hf : (cfg4.win 4).flush t = true) :
    (dat4 (F := Ideal) V c).flushed 4 t = ((cfg4.win 4).blk t).view.read (Elt Ideal) (G4_4 (V c (Pipeline.arrRef spec4 0)) (V c (Pipeline.arrRef spec4 1))) := by
  have hN : t.val < 10 := lt_of_lt_of_eq t.isLt (show cfg4.N = 10 from N_4)
  have h9 : t.val = 9 := by have := (flush4_4 t).mp hf; omega
  show (cfg4.win 4).cut (grid4.coords t) ((dat4 V c).after 4 t) = _
  rw [after4_4]
  funext j
  refine Eq.trans ?_ (read_blk4_4 t (G4_4 (V c (Pipeline.arrRef spec4 0)) (V c (Pipeline.arrRef spec4 1))) j).symm
  exact row_blk4_4 V c t h9 j

/-- The last point's block is the whole one-row output. -/
theorem cover4_4 (i : S1x64.Idx) : ∃ t : Fin cfg4.N, (cfg4.win 4).flush t = true ∧ i ∈ ((cfg4.win 4).blk t).view.set := by
  have hi0 : (i 0).val < 1 := (i 0).isLt
  have hi1 : (i 1).val < 64 := (i 1).isLt
  have hidx := idx4 t4_9
  refine ⟨t4_9, (flush4_4 t4_9).mpr (by decide), ?_⟩
  rw [mem_blk4_4]
  intro a
  match a with
  | ⟨0, _⟩ => show win4_4.index t4_9 (0 : Fin 2) * 1 ≤ (i 0).val ∧ (i 0).val < win4_4.index t4_9 (0 : Fin 2) * 1 + 1; omega
  | ⟨1, _⟩ => show win4_4.index t4_9 (1 : Fin 2) * 64 ≤ (i 1).val ∧ (i 1).val < win4_4.index t4_9 (1 : Fin 2) * 64 + 64; omega

/-- THE ONE-ROW OUTPUT after the run. -/
theorem final4_4 (c : Dev nD) :
    (dat4 (F := Ideal) V c).arrAt 4 cfg4.N = G4_4 (V c (Pipeline.arrRef spec4 0)) (V c (Pipeline.arrRef spec4 1)) :=
  (dat4 V c).arrAt_eq_of_cover 4 _ (fun t hf => flushed4_4_eq V c t hf) cover4_4

end Cert.KernelIdeal.HandVal

end
-- ==== Proof.KI.Val5.lean ====
import proofs.«113306_j49254684950634_1_alg».proof.Proof.KI.R5
import Idealize.ShloMosaic.Lib.Pipeline.Value
import Idealize.ShloMosaic.Lib.ValueIdx
import Idealize.ShloMosaic.PureOps.Ideal.Laws
import Idealize.ShloMosaic.Lib.Tactic

/-! # Region 5 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz5 : (![0, 0] : Fin 2 → Nat) = fun _ => 0 := funext fun a => by fin_cases a <;> rfl

/-- The normalised and rectified array: each entry of `x` ([50000, 64]) times its column's scale plus its column's
    shift, then the maximum with zero. -/
def G5_3 (x : S50000x64.Idx → Elt Ideal .f32) (scale shift : S1x64.Idx → Elt Ideal .f32) : S50000x64.Idx → Elt Ideal .f32 :=
  fun i => max (x i * scale (ix2 (0 : Fin 1) (i 1 : Fin 64)) + shift (ix2 (0 : Fin 1) (i 1 : Fin 64))) 0

/-- The body's payload at an entry. -/
theorem pay5_apply (x0 : Vec Ideal S5000x64 .f32) (x1 x2 : Vec Ideal S1x64 .f32) (p : Fin 5000) (q : Fin 64) :
    k5_pay1 x0 x1 x2 (ix2 p q) = max (x0 (ix2 p q) * x1 (ix2 (0 : Fin 1) q) + x2 (ix2 (0 : Fin 1) q)) 0 := by
  unfold k5_pay1
  simp only [shapeCast_self]
  rw [maximumf_apply, addf_apply, mulf_apply, broadcast_apply,
    broadcastTo_apply x1 broadcasts_S1x64_S5000x64 (ix2 p q) (ix2 (0 : Fin 1) q) (fun a => by match a with | ⟨0, _⟩ => rfl | ⟨1, _⟩ => rfl),
    broadcastTo_apply x2 broadcasts_S1x64_S5000x64 (ix2 p q) (ix2 (0 : Fin 1) q) (fun a => by match a with | ⟨0, _⟩ => rfl | ⟨1, _⟩ => rfl)]
  exact congrArg _ Ideal.ofBits_zero_f32

/-- The printed index maps over the grid: the row blocks of windows 0 and 3 are the grid point's, every other block
    index is zero. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of point `t`'s block is row `5000 t + p` of the array. -/
def row5 (t : Fin cfg5.N) (p : Fin 5000) : Fin 50000 :=
  ⟨5000 * t.val + p.val, by have := t.isLt; have hN : cfg5.N = 10 := N_5; have := p.isLt; omega⟩

/-- Where an index of point `t`'s block sits in its array, window by window. -/
theorem emb5_0 (t : Fin cfg5.N) (p : Fin 5000) (q : Fin 64) :
    ((cfg5.win 0).blk t).view.emb (ix2 p q) = ix2 (row5 t p) q := by
  obtain ⟨e0, e1, e2, e3, e4, e5, e6, e7⟩ := idx5 t
  funext a; apply Fin.ext
  match a with
  | ⟨0, _⟩ => show win5_0.index t (0 : Fin 2) * 5000 + 1 * p.val = 5000 * t.val + p.val; omega
  | ⟨1, _⟩ => show win5_0.index t (1 : Fin 2) * 64 + 1 * q.val = q.val; omega
theorem emb5_1 (t : Fin cfg5.N) (z : Fin 1) (q : Fin 64) :
    ((cfg5.win 1).blk t).view.emb (ix2 z q) = ix2 z q := by
  obtain ⟨e0, e1, e2, e3, e4, e5, e6, e7⟩ := idx5 t
  funext a; apply Fin.ext
  match a with
  | ⟨0, _⟩ => show win5_1.index t (0 : Fin 2) * 1 + 1 * z.val = z.val; omega
  | ⟨1, _⟩ => show win5_1.index t (1 : Fin 2) * 64 + 1 * q.val = q.val; omega
theorem emb5_2 (t : Fin cfg5.N) (z : Fin 1) (q : Fin 64) :
    ((cfg5.win 2).blk t).view.emb (ix2 z q) = ix2 z q := by
  obtain ⟨e0, e1, e2, e3, e4, e5, e6, e7⟩ := idx5 t
  funext a; apply Fin.ext
  match a with
  | ⟨0, _⟩ => show win5_2.index t (0 : Fin 2) * 1 + 1 * z.val = z.val; omega
  | ⟨1, _⟩ => show win5_2.index t (1 : Fin 2) * 64 + 1 * q.val = q.val; omega
theorem emb5_3 (t : Fin cfg5.N) (p : Fin 5000) (q : Fin 64) :
    ((cfg5.win 3).blk t).view.emb (ix2 p q) = ix2 (row5 t p) q := by
  obtain ⟨e0, e1, e2, e3, e4, e5, e6, e7⟩ := idx5 t
  funext a; apply Fin.ext
  match a with
  | ⟨0, _⟩ => show win5_3.index t (0 : Fin 2) * 5000 + 1 * p.val = 5000 * t.val + p.val; omega
  | ⟨1, _⟩ => show win5_3.index t (1 : Fin 2) * 64 + 1 * q.val = q.val; omega

/-- The input blocks read at an entry, as entries of their arrays. -/
theorem iblk5_0_apply (c : Dev nD) (t : Fin cfg5.N) (p : Fin 5000) (q : Fin 64) :
    iblk5 V c 0 t (ix2 p q) = V c (Pipeline.arrRef spec5 0) (ix2 (row5 t p) q) := by
  show V c (Pipeline.arrRef spec5 0) (((cfg5.win 0).blk t).view.emb (ix2 p q)) = _
  rw [emb5_0]
theorem iblk5_1_apply (c : Dev nD) (t : Fin cfg5.N) (z : Fin 1) (q : Fin 64) :
    iblk5 V c 1 t (ix2 z q) = V c (Pipeline.arrRef spec5 1) (ix2 z q) := by
  show V c (Pipeline.arrRef spec5 1) (((cfg5.win 1).blk t).view.emb (ix2 z q)) = _
  rw [emb5_1]
theorem iblk5_2_apply (c : Dev nD) (t : Fin cfg5.N) (z : Fin 1) (q : Fin 64) :
    iblk5 V c 2 t (ix2 z q) = V c (Pipeline.arrRef spec5 2) (ix2 z q) := by
  show V c (Pipeline.arrRef spec5 2) (((cfg5.win 2).blk t).view.emb (ix2 z q)) = _
  rw [emb5_2]

/-- The output buffer after the body, read at an entry of the block. -/
theorem out5_3_apply (x0 : Vec Ideal S5000x64 .f32) (x1 x2 : Vec Ideal S1x64 .f32) (p : Fin 5000) (q : Fin 64) :
    out5_3 x0 x1 x2 (ix2 p q) = max (x0 (ix2 p q) * x1 (ix2 (0 : Fin 1) q) + x2 (ix2 (0 : Fin 1) q)) 0 := by
  unfold out5_3
  rw [View.canon_unit_zero hz5]
  simp only [View.ld_unit_zero (S := S5000x64) hz5, View.ld_unit_zero (S := S1x64) hz5]
  exact pay5_apply x0 x1 x2 p q

set_option maxHeartbeats 400000 in
/-- What point `t` writes back is block `t` of `G5_3` of the input arrays as the region finds them. -/
theorem flushed5_3_eq (c : Dev nD) (t : Fin cfg5.N) :
    (dat5 (F := Ideal) V c).flushed 3 t
      = ((cfg5.win 3).blk t).view.read (Elt Ideal) (G5_3 (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  funext j
  obtain ⟨p, q, rfl⟩ : ∃ (p : Fin 5000) (q : Fin 64), j = ix2 p q := ⟨j 0, j 1, eq_ix2 j⟩
  show out5_3 (iblk5 V c 0 t) (iblk5 V c 1 t) (iblk5 V c 2 t) (ix2 p q) = G5_3 _ _ _ (((cfg5.win 3).blk t).view.emb (ix2 p q))
  rw [out5_3_apply, emb5_3]
  rw [iblk5_0_apply, iblk5_1_apply, iblk5_2_apply]
  rfl

/-- An index of the output array is in point `t`'s block iff each coordinate is in the block's range on its axis. -/
theorem mem_blk5_3 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v112).slice (win5_3.rect t)).set ↔ _
  rw [View.set_slice_whole, Rect.mem_set_unit]
  exact Iff.rfl

/-- Every index of the output array is in the block of the point its row falls in: rows 5000 t … 5000 t + 4999. -/
theorem cover5_3_arr (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by omega⟩, rfl⟩
  obtain ⟨e0, e1, e2, e3, e4, e5, e6, e7⟩ := idx5 t
  refine ⟨t, flush5_3 t, ?_⟩
  rw [mem_blk5_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The output array after the region's last point is `G5_3` of the three input arrays as the region finds them. -/
theorem final5_3 (c : Dev nD) :
    (dat5 (F := Ideal) V c).arrAt 3 cfg5.N = G5_3 (V c (Pipeline.arrRef spec5 0)) (V c (Pipeline.arrRef spec5 1)) (V c (Pipeline.arrRef spec5 2)) :=
  (dat5 (F := Ideal) V c).arrAt_eq_of_cover 3 (G5_3 (V c (Pipeline.arrRef spec5 0)) (V c (Pipeline.arrRef spec5 1)) (V c (Pipeline.arrRef spec5 2)))
    (fun t _ => flushed5_3_eq V c t) cover5_3_arr

end Cert.KernelIdeal.HandVal
-- ==== Proof.KI.Val6.lean ====
import proofs.«113306_j49254684950634_1_alg».proof.Proof.KI.R6
import proofs.«113306_j49254684950634_1_alg».proof.Proof.LibMatmulNN
import Idealize.ShloMosaic.Lib.Pipeline.Value
import Idealize.ShloMosaic.Lib.ValueIdx
import Idealize.ShloMosaic.Lib.Tactic

/-! # Region 6 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz6 : (![0, 0] : Fin 2 → Nat) = fun _ => 0 := funext fun a => by fin_cases a <;> rfl

/-- The product of the row-block array `h` ([50000, 64]) with the weight array `W` ([64, 64]), entry by entry. -/
def G6_2 (h : S50000x64.Idx → Elt Ideal .f32) (W : S64x64.Idx → Elt Ideal .f32) : S50000x64.Idx → Elt Ideal .f32 :=
  fun i => ∑ k : Fin 64, h (ix2 (i 0 : Fin 50000) k) * W (ix2 k (i 1 : Fin 64))

/-- The body's payload at an entry: the format changes are the identity on extended reals, and the matrix product
    into the zero accumulator is the sum of products. -/
theorem pay6_apply (x0 : Vec Ideal S5000x64 .f32) (x1 : Vec Ideal S64x64 .f32) (p : Fin 5000) (q : Fin 64) :
    k6_pay1 x0 x1 (ix2 p q) = ∑ k : Fin 64, x0 (ix2 p k) * x1 (ix2 k q) := by
  unfold k6_pay1
  simp only [shapeCast_self]
  exact Cert.LibMatmulNN.matmul_zero_apply dot_S5000x64_S64x64_S5000x64_1_0_0_1_n_n rfl none _ _ p q

/-- The printed index maps over the grid: the row blocks of windows 0 and 2 are the grid point's, every other block
    index is zero. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `p` of point `t`'s block is row `5000 t + p` of the array. -/
def row6 (t : Fin cfg6.N) (p : Fin 5000) : Fin 50000 :=
  ⟨5000 * t.val + p.val, by have := t.isLt; have hN : cfg6.N = 10 := N_6; have := p.isLt; omega⟩

/-- Where an index of point `t`'s block sits in its array, window by window. -/
theorem emb6_0 (t : Fin cfg6.N) (p : Fin 5000) (k : Fin 64) :
    ((cfg6.win 0).blk t).view.emb (ix2 p k) = ix2 (row6 t p) k := by
  obtain ⟨e0, e1, e2, e3, e4, e5⟩ := idx6 t
  funext a; apply Fin.ext
  match a with
  | ⟨0, _⟩ => show win6_0.index t (0 : Fin 2) * 5000 + 1 * p.val = 5000 * t.val + p.val; omega
  | ⟨1, _⟩ => show win6_0.index t (1 : Fin 2) * 64 + 1 * k.val = k.val; omega
theorem emb6_1 (t : Fin cfg6.N) (k : Fin 64) (q : Fin 64) :
    ((cfg6.win 1).blk t).view.emb (ix2 k q) = ix2 k q := by
  obtain ⟨e0, e1, e2, e3, e4, e5⟩ := idx6 t
  funext a; apply Fin.ext
  match a with
  | ⟨0, _⟩ => show win6_1.index t (0 : Fin 2) * 64 + 1 * k.val = k.val; omega
  | ⟨1, _⟩ => show win6_1.index t (1 : Fin 2) * 64 + 1 * q.val = q.val; omega
theorem emb6_2 (t : Fin cfg6.N) (p : Fin 5000) (q : Fin 64) :
    ((cfg6.win 2).blk t).view.emb (ix2 p q) = ix2 (row6 t p) q := by
  obtain ⟨e0, e1, e2, e3, e4, e5⟩ := idx6 t
  funext a; apply Fin.ext
  match a with
  | ⟨0, _⟩ => show win6_2.index t (0 : Fin 2) * 5000 + 1 * p.val = 5000 * t.val + p.val; omega
  | ⟨1, _⟩ => show win6_2.index t (1 : Fin 2) * 64 + 1 * q.val = q.val; omega

/-- The input blocks read at an entry, as entries of their arrays. -/
theorem iblk6_0_apply (c : Dev nD) (t : Fin cfg6.N) (p : Fin 5000) (k : Fin 64) :
    iblk6 V c 0 t (ix2 p k) = V c (Pipeline.arrRef spec6 0) (ix2 (row6 t p) k) := by
  show V c (Pipeline.arrRef spec6 0) (((cfg6.win 0).blk t).view.emb (ix2 p k)) = _
  rw [emb6_0]
theorem iblk6_1_apply (c : Dev nD) (t : Fin cfg6.N) (k : Fin 64) (q : Fin 64) :
    iblk6 V c 1 t (ix2 k q) = V c (Pipeline.arrRef spec6 1) (ix2 k q) := by
  show V c (Pipeline.arrRef spec6 1) (((cfg6.win 1).blk t).view.emb (ix2 k q)) = _
  rw [emb6_1]

/-- What point `t` writes back is block `t` of `G6_2` of the input arrays as the region finds them. -/
theorem flushed6_2_eq (c : Dev nD) (t : Fin cfg6.N) :
    (dat6 (F := Ideal) V c).flushed 2 t
      = ((cfg6.win 2).blk t).view.read (Elt Ideal) (G6_2 (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S5000x64) hz6, View.ld_unit_zero (S := S64x64) hz6]
  funext j
  obtain ⟨p, q, rfl⟩ : ∃ (p : Fin 5000) (q : Fin 64), j = ix2 p q := ⟨j 0, j 1, eq_ix2 j⟩
  show k6_pay1 (iblk6 V c 0 t) (iblk6 V c 1 t) (ix2 p q) = G6_2 _ _ (((cfg6.win 2).blk t).view.emb (ix2 p q))
  rw [pay6_apply, emb6_2]
  refine Finset.sum_congr rfl fun k _ => ?_
  rw [iblk6_0_apply, iblk6_1_apply]

/-- An index of the output array is in point `t`'s block iff each coordinate is in the block's range on its axis. -/
theorem mem_blk6_2 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v124).slice (win6_2.rect t)).set ↔ _
  rw [View.set_slice_whole, Rect.mem_set_unit]
  exact Iff.rfl

/-- Every index of the output array is in the block of the point its row falls in: rows 5000 t … 5000 t + 4999. -/
theorem cover6_2_arr (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by omega⟩, rfl⟩
  obtain ⟨e0, e1, e2, e3, e4, e5⟩ := idx6 t
  refine ⟨t, flush6_2 t, ?_⟩
  rw [mem_blk6_2]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array after the region's last point is `G6_2` of the two input arrays as the region finds them. -/
theorem final6_2 (c : Dev nD) :
    (dat6 (F := Ideal) V c).arrAt 2 cfg6.N = G6_2 (V c (Pipeline.arrRef spec6 0)) (V c (Pipeline.arrRef spec6 1)) :=
  (dat6 (F := Ideal) V c).arrAt_eq_of_cover 2 (G6_2 (V c (Pipeline.arrRef spec6 0)) (V c (Pipeline.arrRef spec6 1)))
    (fun t _ => flushed6_2_eq V c t) cover6_2_arr

end Cert.KernelIdeal.HandVal
-- ==== Proof.KI.Val7.lean ====
import proofs.«113306_j49254684950634_1_alg».proof.Proof.KI.R7
import proofs.«113306_j49254684950634_1_alg».proof.Proof.LibRowLayout
import proofs.«113306_j49254684950634_1_alg».proof.Proof.LibBatchNormAlgebra
import Idealize.ShloMosaic.Lib.ValueIdx
import Idealize.ShloMosaic.Lib.Pipeline.Value
import Idealize.ShloMosaic.PureOps.Ideal.Laws

/-! # Region 7 on the extended reals: what its three outputs hold at the end

The first output is the input plus the bias row repeated over the rows. The second and third are, column by column,
the sum over all 50000 rows of the first output and of its square: the body adds one 5000-row tile's column sums per
grid point to a row it carries between points, ten tiles in all, and a sum over `10 · 5000` rows is the sum over the
tiles of the sums inside each tile. Addition of extended reals is associative and commutative, so no finiteness is
needed. -/

set_option maxRecDepth 16384

noncomputable section

namespace Cert.KernelIdeal.HandVal

open Cert.KernelIdeal Cert.KernelIdeal.Gen Idealize.ShloMosaic Idealize.ShloMosaic.ValueIdx
open scoped BigOperators

/-! ## The body's stored values, read at an index, on the extended reals

`x` is a 5000-row tile, `b` the bias row, `a` a carried row. The output tile is `x + b` with `b` repeated over the
rows; a carried row gains, at column `q`, the sum over the tile's rows of the output tile (of its square) at `q`. -/

/-- The zero row is zero everywhere. -/
theorem zeroRow7_apply (q : Fin 64) : k7_pay1 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

theorem zeroRow7'_apply (q : Fin 64) : k7_pay2 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

/-- The output tile at row `p`, column `q`: the tile there plus the bias at `q`. -/
theorem conv7_apply (x : Vec Ideal S5000x64 .f32) (b : Vec Ideal S1x64 .f32) (p : Fin 5000) (q : Fin 64) :
    k7_pay3 (F := Ideal) x b (ix2 p q) = x (ix2 p q) + b (ix2 (0 : Fin 1) q) := by
  unfold k7_pay3
  refine (addf_apply _ _ (ix2 p q)).trans ?_
  refine congrArg₂ (· + ·) (congrFun (shapeCast_self x _) _) ?_
  refine (broadcastTo_apply _ _ (ix2 p q) (ix2 (0 : Fin 1) q) fun a => ?_).trans (congrFun (shapeCast_self b _) _)
  match a with
  | ⟨0, _⟩ => rfl
  | ⟨1, _⟩ => rfl

/-- A lane-wise sum of a 5000-row tile over its rows, lifted to a one-row block, read at column `q`. -/
theorem colSum7_apply (src : FVec Ideal S5000x64 .f32) (q : Fin 64) :
    shapeCast S1x64 (multiReduction (F := Ideal) .add [0] S64 src 0x00000000#32 reduces_S5000x64_S64 (.inl rfl) rfl) shapeCasts_S64_S1x64 (ix2 (0 : Fin 1) q)
      = ∑ p : Fin 5000, src (ix2 p q) := by
  refine (shapeCast_addUnit_apply ![64] _ _ (ix2 (0 : Fin 1) q)).trans ?_
  have e : (fun a : Fin 1 => (ix2 (0 : Fin 1) q) a.succ) = ix1 q := by
    funext a; match a with | ⟨0, _⟩ => rfl
  exact (congrArg _ e).trans (RowLayout.laneColSum_apply src _ _ _ _ q)

/-- The first carried row after a point: what it held plus the output tile's column sums. -/
theorem sumRow7_apply (x : Vec Ideal S5000x64 .f32) (b a : Vec Ideal S1x64 .f32) (q : Fin 64) :
    k7_pay4 (F := Ideal) x b a (ix2 (0 : Fin 1) q)
      = a (ix2 (0 : Fin 1) q) + ∑ p : Fin 5000, k7_pay3 (F := Ideal) x b (ix2 p q) := by
  unfold k7_pay4
  refine (congrFun (shapeCast_self _ _) (ix2 (0 : Fin 1) q)).trans ?_
  refine (addf_apply _ _ (ix2 (0 : Fin 1) q)).trans ?_
  exact congrArg (a (ix2 (0 : Fin 1) q) + ·) (colSum7_apply _ q)

/-- The second carried row after a point: what it held plus the column sums of the output tile's squares. -/
theorem sqRow7_apply (x : Vec Ideal S5000x64 .f32) (b a : Vec Ideal S1x64 .f32) (q : Fin 64) :
    k7_pay5 (F := Ideal) x b a (ix2 (0 : Fin 1) q)
      = a (ix2 (0 : Fin 1) q) + ∑ p : Fin 5000, k7_pay3 (F := Ideal) x b (ix2 p q) * k7_pay3 (F := Ideal) x b (ix2 p q) := by
  unfold k7_pay5
  refine (congrFun (shapeCast_self _ _) (ix2 (0 : Fin 1) q)).trans ?_
  refine (addf_apply _ _ (ix2 (0 : Fin 1) q)).trans ?_
  refine congrArg (a (ix2 (0 : Fin 1) q) + ·) ((colSum7_apply _ q).trans ?_)
  exact Finset.sum_congr rfl fun p _ => mulf_apply _ _ _

open Cert.KernelIdeal.Hand Idealize.ShloMosaic.TcCoe Idealize.SL.Sem
open Idealize.ShloMosaic.Pipeline (Dat)

/-! ## What the three outputs hold at the end, as functions of the two inputs

`x` is the whole 50000-row input, `b` the bias row. -/

/-- The first output: `x` plus the bias row repeated over the rows. -/
def G7_2 (x : S50000x64.Idx → EReal) (b : S1x64.Idx → EReal) : S50000x64.Idx → EReal :=
  fun i => x i + b (ix2 (0 : Fin 1) (i 1 : Fin 64))

/-- The second: at column `q`, the sum of the first output's column `q` over all 50000 rows. -/
def G7_3 (x : S50000x64.Idx → EReal) (b : S1x64.Idx → EReal) : S1x64.Idx → EReal :=
  fun i => ∑ r : Fin 50000, G7_2 x b (ix2 r (i 1 : Fin 64))

/-- The third: likewise of the squares. -/
def G7_4 (x : S50000x64.Idx → EReal) (b : S1x64.Idx → EReal) : S1x64.Idx → EReal :=
  fun i => ∑ r : Fin 50000, G7_2 x b (ix2 r (i 1 : Fin 64)) * G7_2 x b (ix2 r (i 1 : Fin 64))

variable (V : (c : Dev nD) → (b : Ref sig .tc) → Buf (Elt Ideal) ((c : Thread nD τ).loc b))

/-! ## Where the blocks sit -/

/-- The block indices, decided over the ten points: the tile and the output tile are at row block `t`, the three
    one-row windows never move. -/
theorem idx7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Row `p` of the tile at point `t` is row `5000 t + p` of the input. -/
theorem tile7_apply (c : Dev nD) (t : Fin cfg7.N) (p : Fin 5000) (q : Fin 64) (r : Fin 50000) (hr : r.val = 5000 * t.val + p.val) :
    iblk7 V c 0 t (ix2 p q) = V c (Pipeline.arrRef spec7 0) (ix2 r q) := by
  obtain ⟨e00, e01, -⟩ := idx7 t
  show V c (Pipeline.arrRef spec7 0) (((cfg7.win 0).blk t).view.emb (ix2 p q)) = _
  refine congrArg (V c (Pipeline.arrRef spec7 0)) (funext fun a => Fin.ext ?_)
  match a with
  | ⟨0, _⟩ => show win7_0.index t (0 : Fin 2) * 5000 + 1 * p.val = r.val; omega
  | ⟨1, _⟩ => show win7_0.index t (1 : Fin 2) * 64 + 1 * q.val = q.val; omega

/-- The bias row's block is the bias row at every point. -/
theorem bias7_apply (c : Dev nD) (t : Fin cfg7.N) (q : Fin 64) :
    iblk7 V c 1 t (ix2 (0 : Fin 1) q) = V c (Pipeline.arrRef spec7 1) (ix2 (0 : Fin 1) q) := by
  obtain ⟨-, -, e10, e11, -⟩ := idx7 t
  show V c (Pipeline.arrRef spec7 1) (((cfg7.win 1).blk t).view.emb (ix2 (0 : Fin 1) q)) = _
  refine congrArg (V c (Pipeline.arrRef spec7 1)) (funext fun a => Fin.ext ?_)
  match a with
  | ⟨0, _⟩ => show win7_1.index t (0 : Fin 2) * 1 + 1 * 0 = 0; omega
  | ⟨1, _⟩ => show win7_1.index t (1 : Fin 2) * 64 + 1 * q.val = q.val; omega

/-- So the output tile at point `t`, row `p`, is the first output's specification at row `5000 t + p`. -/
theorem convTile7_apply (c : Dev nD) (t : Fin cfg7.N) (p : Fin 5000) (q : Fin 64) (r : Fin 50000) (hr : r.val = 5000 * t.val + p.val) :
    k7_pay3 (F := Ideal) (iblk7 V c 0 t) (iblk7 V c 1 t) (ix2 p q)
      = G7_2 (V c (Pipeline.arrRef spec7 0)) (V c (Pipeline.arrRef spec7 1)) (ix2 r q) :=
  (conv7_apply _ _ p q).trans (congrArg₂ (· + ·) (tile7_apply V c t p q r hr) (bias7_apply V c t q))

/-! ## The carried rows are running sums over the points -/

/-- Point `m`'s contribution to the first carried row at column `q`: the column sum of its output tile (nothing
    beyond the grid). -/
def tileSum7 (c : Dev nD) (q : Fin 64) (m : ℕ) : EReal :=
  if h : m < cfg7.N then ∑ p : Fin 5000, k7_pay3 (F := Ideal) (iblk7 V c 0 ⟨m, h⟩) (iblk7 V c 1 ⟨m, h⟩) (ix2 p q) else 0

/-- and to the second: the column sum of the squares. -/
def tileSq7 (c : Dev nD) (q : Fin 64) (m : ℕ) : EReal :=
  if h : m < cfg7.N then ∑ p : Fin 5000, k7_pay3 (F := Ideal) (iblk7 V c 0 ⟨m, h⟩) (iblk7 V c 1 ⟨m, h⟩) (ix2 p q)
      * k7_pay3 (F := Ideal) (iblk7 V c 0 ⟨m, h⟩) (iblk7 V c 1 ⟨m, h⟩) (ix2 p q) else 0

/-- After point `n` the first carried row holds, at column `q`, the contributions of points `0 … n`: by induction
    on `n`, the first point starting from the zero row. -/
theorem acc7_fst_apply (c : Dev nD) (q : Fin 64) :
    ∀ (n : ℕ) (hn : n < cfg7.N), (acc7 V c n hn).1 (ix2 (0 : Fin 1) q) = ∑ m ∈ Finset.range (n + 1), tileSum7 V c q m
  | 0, hn => by
    show k7_pay4 (F := Ideal) (iblk7 V c 0 ⟨0, hn⟩) (iblk7 V c 1 ⟨0, hn⟩) (k7_pay1 (F := Ideal)) (ix2 (0 : Fin 1) q) = _
    refine (sumRow7_apply _ _ _ q).trans ?_
    refine (congrArg₂ (· + ·) (zeroRow7_apply q) (Eq.refl _)).trans ?_
    simp only [zero_add, Finset.sum_range_one]
    unfold tileSum7
    rw [dif_pos hn]
  | n + 1, hn => by
    show k7_pay4 (F := Ideal) (iblk7 V c 0 ⟨n + 1, hn⟩) (iblk7 V c 1 ⟨n + 1, hn⟩) (acc7 V c n (Nat.lt_of_succ_lt hn)).1 (ix2 (0 : Fin 1) q) = _
    refine (sumRow7_apply _ _ _ q).trans ?_
    exact (congrArg₂ (· + ·) (acc7_fst_apply c q n (Nat.lt_of_succ_lt hn)) (dif_pos hn).symm).trans (Finset.sum_range_succ _ _).symm

/-- Likewise the second. -/
theorem acc7_snd_apply (c : Dev nD) (q : Fin 64) :
    ∀ (n : ℕ) (hn : n < cfg7.N), (acc7 V c n hn).2 (ix2 (0 : Fin 1) q) = ∑ m ∈ Finset.range (n + 1), tileSq7 V c q m
  | 0, hn => by
    show k7_pay5 (F := Ideal) (iblk7 V c 0 ⟨0, hn⟩) (iblk7 V c 1 ⟨0, hn⟩) (k7_pay2 (F := Ideal)) (ix2 (0 : Fin 1) q) = _
    refine (sqRow7_apply _ _ _ q).trans ?_
    refine (congrArg₂ (· + ·) (zeroRow7'_apply q) (Eq.refl _)).trans ?_
    simp only [zero_add, Finset.sum_range_one]
    unfold tileSq7
    rw [dif_pos hn]
  | n + 1, hn => by
    show k7_pay5 (F := Ideal) (iblk7 V c 0 ⟨n + 1, hn⟩) (iblk7 V c 1 ⟨n + 1, hn⟩) (acc7 V c n (Nat.lt_of_succ_lt hn)).2 (ix2 (0 : Fin 1) q) = _
    refine (sqRow7_apply _ _ _ q).trans ?_
    exact (congrArg₂ (· + ·) (acc7_snd_apply c q n (Nat.lt_of_succ_lt hn)) (dif_pos hn).symm).trans (Finset.sum_range_succ _ _).symm

/-- Over the ten points the contributions add up to the sum over all 50000 rows: row `p` of tile `t` is row
    `5000 t + p`, and a sum over `10 · 5000` rows is the sum over the tiles of the sums inside each. -/
theorem total7_3 (c : Dev nD) (q : Fin 64) :
    ∑ m ∈ Finset.range 10, tileSum7 V c q m = G7_3 (V c (Pipeline.arrRef spec7 0)) (V c (Pipeline.arrRef spec7 1)) (ix2 (0 : Fin 1) q) := by
  rw [Finset.sum_range]
  show _ = ∑ r : Fin 50000, G7_2 (V c (Pipeline.arrRef spec7 0)) (V c (Pipeline.arrRef spec7 1)) (ix2 r q)
  refine Eq.trans ?_ (BatchNormAlgebra.sum_tiles 10 5000 fun r : Fin (10 * 5000) => G7_2 (V c (Pipeline.arrRef spec7 0)) (V c (Pipeline.arrRef spec7 1)) (ix2 r q)).symm
  refine Finset.sum_congr rfl fun t _ => ?_
  have ht : t.val < cfg7.N := lt_of_lt_of_eq t.isLt (show cfg7.N = 10 from N_7).symm
  refine (dif_pos ht).trans (Finset.sum_congr rfl fun p _ => ?_)
  have hr : (finProdFinEquiv (t, p) : Fin (10 * 5000)).val = 5000 * (⟨t.val, ht⟩ : Fin cfg7.N).val + p.val := by
    rw [BatchNormAlgebra.tile_row_val]; show p.val + 5000 * t.val = 5000 * t.val + p.val; omega
  exact convTile7_apply V c ⟨t.val, ht⟩ p q (finProdFinEquiv (t, p)) hr

/-- Over the ten points the contributions add up to the sum over all 50000 rows: row `p` of tile `t` is row
    `5000 t + p`, and a sum over `10 · 5000` rows is the sum over the tiles of the sums inside each. -/
theorem total7_4 (c : Dev nD) (q : Fin 64) :
    ∑ m ∈ Finset.range 10, tileSq7 V c q m = G7_4 (V c (Pipeline.arrRef spec7 0)) (V c (Pipeline.arrRef spec7 1)) (ix2 (0 : Fin 1) q) := by
  rw [Finset.sum_range]
  show _ = ∑ r : Fin 50000, G7_2 (V c (Pipeline.arrRef spec7 0)) (V c (Pipeline.arrRef spec7 1)) (ix2 r q) * G7_2 (V c (Pipeline.arrRef spec7 0)) (V c (Pipeline.arrRef spec7 1)) (ix2 r q)
  refine Eq.trans ?_ (BatchNormAlgebra.sum_tiles 10 5000 fun r : Fin (10 * 5000) => G7_2 (V c (Pipeline.arrRef spec7 0)) (V c (Pipeline.arrRef spec7 1)) (ix2 r q) * G7_2 (V c (Pipeline.arrRef spec7 0)) (V c (Pipeline.arrRef spec7 1)) (ix2 r q)).symm
  refine Finset.sum_congr rfl fun t _ => ?_
  have ht : t.val < cfg7.N := lt_of_lt_of_eq t.isLt (show cfg7.N = 10 from N_7).symm
  refine (dif_pos ht).trans (Finset.sum_congr rfl fun p _ => ?_)
  have hr : (finProdFinEquiv (t, p) : Fin (10 * 5000)).val = 5000 * (⟨t.val, ht⟩ : Fin cfg7.N).val + p.val := by
    rw [BatchNormAlgebra.tile_row_val]; show p.val + 5000 * t.val = 5000 * t.val + p.val; omega
  exact congrArg₂ (· * ·) (convTile7_apply V c ⟨t.val, ht⟩ p q (finProdFinEquiv (t, p)) hr) (convTile7_apply V c ⟨t.val, ht⟩ p q (finProdFinEquiv (t, p)) hr)

/-! ## From blocks to the arrays -/

/-- The output tile at point `t`, read at any index of the tile, is the specification at the index's place in the
    whole output. -/
theorem conv_blk7 (c : Dev nD) (t : Fin cfg7.N) (j : S5000x64.Idx) :
    k7_pay3 (F := Ideal) (iblk7 V c 0 t) (iblk7 V c 1 t) j = G7_2 (V c (Pipeline.arrRef spec7 0)) (V c (Pipeline.arrRef spec7 1)) (((cfg7.win 2).blk t).view.emb j) := by
  obtain ⟨p, q, rfl⟩ : ∃ (p : Fin 5000) (q : Fin 64), j = ix2 p q := ⟨j 0, j 1, eq_ix2 j⟩
  have hidx := idx7 t
  have hN : t.val < 10 := lt_of_lt_of_eq t.isLt (show cfg7.N = 10 from N_7)
  have hr : 5000 * t.val + p.val < 50000 := by have := p.isLt; omega
  have he : ((cfg7.win 2).blk t).view.emb (ix2 p q) = ix2 (⟨5000 * t.val + p.val, hr⟩ : Fin 50000) q := by
    funext a; apply Fin.ext
    match a with
    | ⟨0, _⟩ => show win7_2.index t (0 : Fin 2) * 5000 + 1 * p.val = 5000 * t.val + p.val; omega
    | ⟨1, _⟩ => show win7_2.index t (1 : Fin 2) * 64 + 1 * q.val = q.val; omega
  rw [he]
  exact convTile7_apply V c t p q _ rfl

/-- What point `t` writes back to the first output is its block of the specification. -/
theorem flushed7_2_eq (c : Dev nD) (t : Fin cfg7.N) :
    (dat7 (F := Ideal) V c).flushed 2 t = ((cfg7.win 2).blk t).view.read (Elt Ideal) (G7_2 (V c (Pipeline.arrRef spec7 0)) (V c (Pipeline.arrRef spec7 1))) := by
  show (cfg7.win 2).cut (grid7.coords t) ((dat7 V c).after 2 t) = _
  rw [after7_2]
  exact funext fun j => conv_blk7 V c t j

/-- An index of the first output is in point `t`'s block iff each coordinate is in the block's range. -/
theorem mem_blk7_2 (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole (Pipeline.arrRef spec7 2)).slice (win7_2.rect t)).set ↔ _
  rw [View.set_slice_whole, Rect.mem_set_unit]
  exact Iff.rfl

/-- Row `r` is in the block of point `r / 5000`: the ten tiles cover the output. -/
theorem cover7_2 (i : S50000x64.Idx) : ∃ t : Fin cfg7.N, (cfg7.win 2).flush t = true ∧ i ∈ ((cfg7.win 2).blk t).view.set := by
  have hi0 : (i 0).val < 50000 := (i 0).isLt
  have hi1 : (i 1).val < 64 := (i 1).isLt
  have hlt : (i 0).val / 5000 < cfg7.N := by rw [show cfg7.N = 10 from N_7]; omega
  have hidx := idx7 ⟨(i 0).val / 5000, hlt⟩
  refine ⟨⟨(i 0).val / 5000, hlt⟩, flush7_2 _, ?_⟩
  rw [mem_blk7_2]
  intro a
  match a with
  | ⟨0, _⟩ => show win7_2.index ⟨(i 0).val / 5000, hlt⟩ (0 : Fin 2) * 5000 ≤ (i 0).val ∧ (i 0).val < win7_2.index ⟨(i 0).val / 5000, hlt⟩ (0 : Fin 2) * 5000 + 5000
              have e : win7_2.index ⟨(i 0).val / 5000, hlt⟩ (0 : Fin 2) = (i 0).val / 5000 := hidx.2.2.2.2.1
              omega
  | ⟨1, _⟩ => show win7_2.index ⟨(i 0).val / 5000, hlt⟩ (1 : Fin 2) * 64 ≤ (i 1).val ∧ (i 1).val < win7_2.index ⟨(i 0).val / 5000, hlt⟩ (1 : Fin 2) * 64 + 64
              have e : win7_2.index ⟨(i 0).val / 5000, hlt⟩ (1 : Fin 2) = 0 := hidx.2.2.2.2.2.1
              omega

/-- THE FIRST OUTPUT after the run: the input plus the bias row, everywhere. -/
theorem final7_2 (c : Dev nD) :
    (dat7 (F := Ideal) V c).arrAt 2 cfg7.N = G7_2 (V c (Pipeline.arrRef spec7 0)) (V c (Pipeline.arrRef spec7 1)) :=
  (dat7 V c).arrAt_eq_of_cover 2 _ (fun t _ => flushed7_2_eq V c t) cover7_2

/-- An index of the one-row output is in a point's block iff each coordinate is in the block's range. -/
theorem mem_blk7_3 (t : Fin cfg7.N) (i : S1x64.Idx) :
    i ∈ ((cfg7.win 3).blk t).view.set ↔ ∀ a : Fin 2, win7_3.index t a * S1x64.size a ≤ (i a).val ∧ (i a).val < win7_3.index t a * S1x64.size a + S1x64.size a := by
  show i ∈ ((View.whole (Pipeline.arrRef spec7 3)).slice (win7_3.rect t)).set ↔ _
  rw [View.set_slice_whole, Rect.mem_set_unit]
  exact Iff.rfl

/-- Reading any one-row array through a point's block, at an index of the block, is the array at the index's place. -/
theorem read_blk7_3 (t : Fin cfg7.N) (G : S1x64.Idx → EReal) (j : S1x64.Idx) :
    ((cfg7.win 3).blk t).view.read (Elt Ideal) G j = G (((cfg7.win 3).blk t).view.emb j) := rfl

/-- At the last point the carried row, read through the output's block, is the specification. -/
theorem row_blk7_3 (c : Dev nD) (t : Fin cfg7.N) (h9 : t.val = 9) (j : S1x64.Idx) :
    (acc7 V c t.val t.isLt).1 j = G7_3 (V c (Pipeline.arrRef spec7 0)) (V c (Pipeline.arrRef spec7 1)) (((cfg7.win 3).blk t).view.emb j) := by
  obtain ⟨u, q, rfl⟩ : ∃ (u : Fin 1) (q : Fin 64), j = ix2 u q := ⟨j 0, j 1, eq_ix2 j⟩
  obtain rfl : u = 0 := Subsingleton.elim _ _
  have hidx := idx7 t
  have he : ((cfg7.win 3).blk t).view.emb (ix2 (0 : Fin 1) q) = ix2 (0 : Fin 1) q := by
    funext a; apply Fin.ext
    match a with
    | ⟨0, _⟩ => show win7_3.index t (0 : Fin 2) * 1 + 1 * 0 = 0; omega
    | ⟨1, _⟩ => show win7_3.index t (1 : Fin 2) * 64 + 1 * q.val = q.val; omega
  rw [he]
  refine (acc7_fst_apply V c q t.val t.isLt).trans ?_
  rw [h9]
  exact total7_3 V c q

/-- What the last point writes back to the one-row output is its block of the specification. -/
theorem flushed7_3_eq (c : Dev nD) (t : Fin cfg7.N) (hf : (cfg7.win 3).flush t = true) :
    (dat7 (F := Ideal) V c).flushed 3 t = ((cfg7.win 3).blk t).view.read (Elt Ideal) (G7_3 (V c (Pipeline.arrRef spec7 0)) (V c (Pipeline.arrRef spec7 1))) := by
  have hN : t.val < 10 := lt_of_lt_of_eq t.isLt (show cfg7.N = 10 from N_7)
  have h9 : t.val = 9 := by have := (flush7_3 t).mp hf; omega
  show (cfg7.win 3).cut (grid7.coords t) ((dat7 V c).after 3 t) = _
  rw [after7_3]
  funext j
  refine Eq.trans ?_ (read_blk7_3 t (G7_3 (V c (Pipeline.arrRef spec7 0)) (V c (Pipeline.arrRef spec7 1))) j).symm
  exact row_blk7_3 V c t h9 j

/-- The last point's block is the whole one-row output. -/
theorem cover7_3 (i : S1x64.Idx) : ∃ t : Fin cfg7.N, (cfg7.win 3).flush t = true ∧ i ∈ ((cfg7.win 3).blk t).view.set := by
  have hi0 : (i 0).val < 1 := (i 0).isLt
  have hi1 : (i 1).val < 64 := (i 1).isLt
  have hidx := idx7 t7_9
  refine ⟨t7_9, (flush7_3 t7_9).mpr (by decide), ?_⟩
  rw [mem_blk7_3]
  intro a
  match a with
  | ⟨0, _⟩ => show win7_3.index t7_9 (0 : Fin 2) * 1 ≤ (i 0).val ∧ (i 0).val < win7_3.index t7_9 (0 : Fin 2) * 1 + 1; omega
  | ⟨1, _⟩ => show win7_3.index t7_9 (1 : Fin 2) * 64 ≤ (i 1).val ∧ (i 1).val < win7_3.index t7_9 (1 : Fin 2) * 64 + 64; omega

/-- THE ONE-ROW OUTPUT after the run. -/
theorem final7_3 (c : Dev nD) :
    (dat7 (F := Ideal) V c).arrAt 3 cfg7.N = G7_3 (V c (Pipeline.arrRef spec7 0)) (V c (Pipeline.arrRef spec7 1)) :=
  (dat7 V c).arrAt_eq_of_cover 3 _ (fun t hf => flushed7_3_eq V c t hf) cover7_3

/-- An index of the one-row output is in a point's block iff each coordinate is in the block's range. -/
theorem mem_blk7_4 (t : Fin cfg7.N) (i : S1x64.Idx) :
    i ∈ ((cfg7.win 4).blk t).view.set ↔ ∀ a : Fin 2, win7_4.index t a * S1x64.size a ≤ (i a).val ∧ (i a).val < win7_4.index t a * S1x64.size a + S1x64.size a := by
  show i ∈ ((View.whole (Pipeline.arrRef spec7 4)).slice (win7_4.rect t)).set ↔ _
  rw [View.set_slice_whole, Rect.mem_set_unit]
  exact Iff.rfl

/-- Reading any one-row array through a point's block, at an index of the block, is the array at the index's place. -/
theorem read_blk7_4 (t : Fin cfg7.N) (G : S1x64.Idx → EReal) (j : S1x64.Idx) :
    ((cfg7.win 4).blk t).view.read (Elt Ideal) G j = G (((cfg7.win 4).blk t).view.emb j) := rfl

/-- At the last point the carried row, read through the output's block, is the specification. -/
theorem row_blk7_4 (c : Dev nD) (t : Fin cfg7.N) (h9 : t.val = 9) (j : S1x64.Idx) :
    (acc7 V c t.val t.isLt).2 j = G7_4 (V c (Pipeline.arrRef spec7 0)) (V c (Pipeline.arrRef spec7 1)) (((cfg7.win 4).blk t).view.emb j) := by
  obtain ⟨u, q, rfl⟩ : ∃ (u : Fin 1) (q : Fin 64), j = ix2 u q := ⟨j 0, j 1, eq_ix2 j⟩
  obtain rfl : u = 0 := Subsingleton.elim _ _
  have hidx := idx7 t
  have he : ((cfg7.win 4).blk t).view.emb (ix2 (0 : Fin 1) q) = ix2 (0 : Fin 1) q := by
    funext a; apply Fin.ext
    match a with
    | ⟨0, _⟩ => show win7_4.index t (0 : Fin 2) * 1 + 1 * 0 = 0; omega
    | ⟨1, _⟩ => show win7_4.index t (1 : Fin 2) * 64 + 1 * q.val = q.val; omega
  rw [he]
  refine (acc7_snd_apply V c q t.val t.isLt).trans ?_
  rw [h9]
  exact total7_4 V c q

/-- What the last point writes back to the one-row output is its block of the specification. -/
theorem flushed7_4_eq (c : Dev nD) (t : Fin cfg7.N) (hf : (cfg7.win 4).flush t = true) :
    (dat7 (F := Ideal) V c).flushed 4 t = ((cfg7.win 4).blk t).view.read (Elt Ideal) (G7_4 (V c (Pipeline.arrRef spec7 0)) (V c (Pipeline.arrRef spec7 1))) := by
  have hN : t.val < 10 := lt_of_lt_of_eq t.isLt (show cfg7.N = 10 from N_7)
  have h9 : t.val = 9 := by have := (flush7_4 t).mp hf; omega
  show (cfg7.win 4).cut (grid7.coords t) ((dat7 V c).after 4 t) = _
  rw [after7_4]
  funext j
  refine Eq.trans ?_ (read_blk7_4 t (G7_4 (V c (Pipeline.arrRef spec7 0)) (V c (Pipeline.arrRef spec7 1))) j).symm
  exact row_blk7_4 V c t h9 j

/-- The last point's block is the whole one-row output. -/
theorem cover7_4 (i : S1x64.Idx) : ∃ t : Fin cfg7.N, (cfg7.win 4).flush t = true ∧ i ∈ ((cfg7.win 4).blk t).view.set := by
  have hi0 : (i 0).val < 1 := (i 0).isLt
  have hi1 : (i 1).val < 64 := (i 1).isLt
  have hidx := idx7 t7_9
  refine ⟨t7_9, (flush7_4 t7_9).mpr (by decide), ?_⟩
  rw [mem_blk7_4]
  intro a
  match a with
  | ⟨0, _⟩ => show win7_4.index t7_9 (0 : Fin 2) * 1 ≤ (i 0).val ∧ (i 0).val < win7_4.index t7_9 (0 : Fin 2) * 1 + 1; omega
  | ⟨1, _⟩ => show win7_4.index t7_9 (1 : Fin 2) * 64 ≤ (i 1).val ∧ (i 1).val < win7_4.index t7_9 (1 : Fin 2) * 64 + 64; omega

/-- THE ONE-ROW OUTPUT after the run. -/
theorem final7_4 (c : Dev nD) :
    (dat7 (F := Ideal) V c).arrAt 4 cfg7.N = G7_4 (V c (Pipeline.arrRef spec7 0)) (V c (Pipeline.arrRef spec7 1)) :=
  (dat7 V c).arrAt_eq_of_cover 4 _ (fun t hf => flushed7_4_eq V c t hf) cover7_4

end Cert.KernelIdeal.HandVal

end
-- ==== Proof.KI.Val8.lean ====
import proofs.«113306_j49254684950634_1_alg».proof.Proof.KI.R8
import Idealize.ShloMosaic.Lib.Pipeline.Value
import Idealize.ShloMosaic.Lib.ValueIdx
import Idealize.ShloMosaic.PureOps.Ideal.Laws
import Idealize.ShloMosaic.Lib.Tactic

/-! # Region 8 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz8 : (![0, 0] : Fin 2 → Nat) = fun _ => 0 := funext fun a => by fin_cases a <;> rfl

/-- The normalised and rectified array: each entry of `x` ([50000, 64]) times its column's scale plus its column's
    shift, then the maximum with zero. -/
def G8_3 (x : S50000x64.Idx → Elt Ideal .f32) (scale shift : S1x64.Idx → Elt Ideal .f32) : S50000x64.Idx → Elt Ideal .f32 :=
  fun i => max (x i * scale (ix2 (0 : Fin 1) (i 1 : Fin 64)) + shift (ix2 (0 : Fin 1) (i 1 : Fin 64))) 0

/-- The body's payload at an entry. -/
theorem pay8_apply (x0 : Vec Ideal S5000x64 .f32) (x1 x2 : Vec Ideal S1x64 .f32) (p : Fin 5000) (q : Fin 64) :
    k8_pay1 x0 x1 x2 (ix2 p q) = max (x0 (ix2 p q) * x1 (ix2 (0 : Fin 1) q) + x2 (ix2 (0 : Fin 1) q)) 0 := by
  unfold k8_pay1
  simp only [shapeCast_self]
  rw [maximumf_apply, addf_apply, mulf_apply, broadcast_apply,
    broadcastTo_apply x1 broadcasts_S1x64_S5000x64 (ix2 p q) (ix2 (0 : Fin 1) q) (fun a => by match a with | ⟨0, _⟩ => rfl | ⟨1, _⟩ => rfl),
    broadcastTo_apply x2 broadcasts_S1x64_S5000x64 (ix2 p q) (ix2 (0 : Fin 1) q) (fun a => by match a with | ⟨0, _⟩ => rfl | ⟨1, _⟩ => rfl)]
  exact congrArg _ Ideal.ofBits_zero_f32

/-- The printed index maps over the grid: the row blocks of windows 0 and 3 are the grid point's, every other block
    index is zero. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row `p` of point `t`'s block is row `5000 t + p` of the array. -/
def row8 (t : Fin cfg8.N) (p : Fin 5000) : Fin 50000 :=
  ⟨5000 * t.val + p.val, by have := t.isLt; have hN : cfg8.N = 10 := N_8; have := p.isLt; omega⟩

/-- Where an index of point `t`'s block sits in its array, window by window. -/
theorem emb8_0 (t : Fin cfg8.N) (p : Fin 5000) (q : Fin 64) :
    ((cfg8.win 0).blk t).view.emb (ix2 p q) = ix2 (row8 t p) q := by
  obtain ⟨e0, e1, e2, e3, e4, e5, e6, e7⟩ := idx8 t
  funext a; apply Fin.ext
  match a with
  | ⟨0, _⟩ => show win8_0.index t (0 : Fin 2) * 5000 + 1 * p.val = 5000 * t.val + p.val; omega
  | ⟨1, _⟩ => show win8_0.index t (1 : Fin 2) * 64 + 1 * q.val = q.val; omega
theorem emb8_1 (t : Fin cfg8.N) (z : Fin 1) (q : Fin 64) :
    ((cfg8.win 1).blk t).view.emb (ix2 z q) = ix2 z q := by
  obtain ⟨e0, e1, e2, e3, e4, e5, e6, e7⟩ := idx8 t
  funext a; apply Fin.ext
  match a with
  | ⟨0, _⟩ => show win8_1.index t (0 : Fin 2) * 1 + 1 * z.val = z.val; omega
  | ⟨1, _⟩ => show win8_1.index t (1 : Fin 2) * 64 + 1 * q.val = q.val; omega
theorem emb8_2 (t : Fin cfg8.N) (z : Fin 1) (q : Fin 64) :
    ((cfg8.win 2).blk t).view.emb (ix2 z q) = ix2 z q := by
  obtain ⟨e0, e1, e2, e3, e4, e5, e6, e7⟩ := idx8 t
  funext a; apply Fin.ext
  match a with
  | ⟨0, _⟩ => show win8_2.index t (0 : Fin 2) * 1 + 1 * z.val = z.val; omega
  | ⟨1, _⟩ => show win8_2.index t (1 : Fin 2) * 64 + 1 * q.val = q.val; omega
theorem emb8_3 (t : Fin cfg8.N) (p : Fin 5000) (q : Fin 64) :
    ((cfg8.win 3).blk t).view.emb (ix2 p q) = ix2 (row8 t p) q := by
  obtain ⟨e0, e1, e2, e3, e4, e5, e6, e7⟩ := idx8 t
  funext a; apply Fin.ext
  match a with
  | ⟨0, _⟩ => show win8_3.index t (0 : Fin 2) * 5000 + 1 * p.val = 5000 * t.val + p.val; omega
  | ⟨1, _⟩ => show win8_3.index t (1 : Fin 2) * 64 + 1 * q.val = q.val; omega

/-- The input blocks read at an entry, as entries of their arrays. -/
theorem iblk8_0_apply (c : Dev nD) (t : Fin cfg8.N) (p : Fin 5000) (q : Fin 64) :
    iblk8 V c 0 t (ix2 p q) = V c (Pipeline.arrRef spec8 0) (ix2 (row8 t p) q) := by
  show V c (Pipeline.arrRef spec8 0) (((cfg8.win 0).blk t).view.emb (ix2 p q)) = _
  rw [emb8_0]
theorem iblk8_1_apply (c : Dev nD) (t : Fin cfg8.N) (z : Fin 1) (q : Fin 64) :
    iblk8 V c 1 t (ix2 z q) = V c (Pipeline.arrRef spec8 1) (ix2 z q) := by
  show V c (Pipeline.arrRef spec8 1) (((cfg8.win 1).blk t).view.emb (ix2 z q)) = _
  rw [emb8_1]
theorem iblk8_2_apply (c : Dev nD) (t : Fin cfg8.N) (z : Fin 1) (q : Fin 64) :
    iblk8 V c 2 t (ix2 z q) = V c (Pipeline.arrRef spec8 2) (ix2 z q) := by
  show V c (Pipeline.arrRef spec8 2) (((cfg8.win 2).blk t).view.emb (ix2 z q)) = _
  rw [emb8_2]

/-- The output buffer after the body, read at an entry of the block. -/
theorem out8_3_apply (x0 : Vec Ideal S5000x64 .f32) (x1 x2 : Vec Ideal S1x64 .f32) (p : Fin 5000) (q : Fin 64) :
    out8_3 x0 x1 x2 (ix2 p q) = max (x0 (ix2 p q) * x1 (ix2 (0 : Fin 1) q) + x2 (ix2 (0 : Fin 1) q)) 0 := by
  unfold out8_3
  rw [View.canon_unit_zero hz8]
  simp only [View.ld_unit_zero (S := S5000x64) hz8, View.ld_unit_zero (S := S1x64) hz8]
  exact pay8_apply x0 x1 x2 p q

set_option maxHeartbeats 400000 in
/-- What point `t` writes back is block `t` of `G8_3` of the input arrays as the region finds them. -/
theorem flushed8_3_eq (c : Dev nD) (t : Fin cfg8.N) :
    (dat8 (F := Ideal) V c).flushed 3 t
      = ((cfg8.win 3).blk t).view.read (Elt Ideal) (G8_3 (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  funext j
  obtain ⟨p, q, rfl⟩ : ∃ (p : Fin 5000) (q : Fin 64), j = ix2 p q := ⟨j 0, j 1, eq_ix2 j⟩
  show out8_3 (iblk8 V c 0 t) (iblk8 V c 1 t) (iblk8 V c 2 t) (ix2 p q) = G8_3 _ _ _ (((cfg8.win 3).blk t).view.emb (ix2 p q))
  rw [out8_3_apply, emb8_3]
  rw [iblk8_0_apply, iblk8_1_apply, iblk8_2_apply]
  rfl

/-- An index of the output array is in point `t`'s block iff each coordinate is in the block's range on its axis. -/
theorem mem_blk8_3 (t : Fin cfg8.N) (i : S50000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v155).slice (win8_3.rect t)).set ↔ _
  rw [View.set_slice_whole, Rect.mem_set_unit]
  exact Iff.rfl

/-- Every index of the output array is in the block of the point its row falls in: rows 5000 t … 5000 t + 4999. -/
theorem cover8_3_arr (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 10 := N_8
  obtain ⟨t, ht⟩ : ∃ t : Fin cfg8.N, t.val = (i 0).val / 5000 := ⟨⟨(i 0).val / 5000, by omega⟩, rfl⟩
  obtain ⟨e0, e1, e2, e3, e4, e5, e6, e7⟩ := idx8 t
  refine ⟨t, flush8_3 t, ?_⟩
  rw [mem_blk8_3]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

/-- The output array after the region's last point is `G8_3` of the three input arrays as the region finds them. -/
theorem final8_3 (c : Dev nD) :
    (dat8 (F := Ideal) V c).arrAt 3 cfg8.N = G8_3 (V c (Pipeline.arrRef spec8 0)) (V c (Pipeline.arrRef spec8 1)) (V c (Pipeline.arrRef spec8 2)) :=
  (dat8 (F := Ideal) V c).arrAt_eq_of_cover 3 (G8_3 (V c (Pipeline.arrRef spec8 0)) (V c (Pipeline.arrRef spec8 1)) (V c (Pipeline.arrRef spec8 2)))
    (fun t _ => flushed8_3_eq V c t) cover8_3_arr

end Cert.KernelIdeal.HandVal
-- ==== Proof.KI.Val9.lean ====
import proofs.«113306_j49254684950634_1_alg».proof.Proof.KI.R9
import proofs.«113306_j49254684950634_1_alg».proof.Proof.LibMatmulNN
import Idealize.ShloMosaic.Lib.Pipeline.Value
import Idealize.ShloMosaic.Lib.ValueIdx
import Idealize.ShloMosaic.Lib.Tactic

/-! # Region 9 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz9 : (![0, 0] : Fin 2 → Nat) = fun _ => 0 := funext fun a => by fin_cases a <;> rfl

/-- The product of the row-block array `h` ([50000, 64]) with the weight array `W` ([64, 64]), entry by entry. -/
def G9_2 (h : S50000x64.Idx → Elt Ideal .f32) (W : S64x64.Idx → Elt Ideal .f32) : S50000x64.Idx → Elt Ideal .f32 :=
  fun i => ∑ k : Fin 64, h (ix2 (i 0 : Fin 50000) k) * W (ix2 k (i 1 : Fin 64))

/-- The body's payload at an entry: the format changes are the identity on extended reals, and the matrix product
    into the zero accumulator is the sum of products. -/
theorem pay9_apply (x0 : Vec Ideal S5000x64 .f32) (x1 : Vec Ideal S64x64 .f32) (p : Fin 5000) (q : Fin 64) :
    k9_pay1 x0 x1 (ix2 p q) = ∑ k : Fin 64, x0 (ix2 p k) * x1 (ix2 k q) := by
  unfold k9_pay1
  simp only [shapeCast_self]
  exact Cert.LibMatmulNN.matmul_zero_apply dot_S5000x64_S64x64_S5000x64_1_0_0_1_n_n rfl none _ _ p q

/-- The printed index maps over the grid: the row blocks of windows 0 and 2 are the grid point's, every other block
    index is zero. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Row `p` of point `t`'s block is row `5000 t + p` of the array. -/
def row9 (t : Fin cfg9.N) (p : Fin 5000) : Fin 50000 :=
  ⟨5000 * t.val + p.val, by have := t.isLt; have hN : cfg9.N = 10 := N_9; have := p.isLt; omega⟩

/-- Where an index of point `t`'s block sits in its array, window by window. -/
theorem emb9_0 (t : Fin cfg9.N) (p : Fin 5000) (k : Fin 64) :
    ((cfg9.win 0).blk t).view.emb (ix2 p k) = ix2 (row9 t p) k := by
  obtain ⟨e0, e1, e2, e3, e4, e5⟩ := idx9 t
  funext a; apply Fin.ext
  match a with
  | ⟨0, _⟩ => show win9_0.index t (0 : Fin 2) * 5000 + 1 * p.val = 5000 * t.val + p.val; omega
  | ⟨1, _⟩ => show win9_0.index t (1 : Fin 2) * 64 + 1 * k.val = k.val; omega
theorem emb9_1 (t : Fin cfg9.N) (k : Fin 64) (q : Fin 64) :
    ((cfg9.win 1).blk t).view.emb (ix2 k q) = ix2 k q := by
  obtain ⟨e0, e1, e2, e3, e4, e5⟩ := idx9 t
  funext a; apply Fin.ext
  match a with
  | ⟨0, _⟩ => show win9_1.index t (0 : Fin 2) * 64 + 1 * k.val = k.val; omega
  | ⟨1, _⟩ => show win9_1.index t (1 : Fin 2) * 64 + 1 * q.val = q.val; omega
theorem emb9_2 (t : Fin cfg9.N) (p : Fin 5000) (q : Fin 64) :
    ((cfg9.win 2).blk t).view.emb (ix2 p q) = ix2 (row9 t p) q := by
  obtain ⟨e0, e1, e2, e3, e4, e5⟩ := idx9 t
  funext a; apply Fin.ext
  match a with
  | ⟨0, _⟩ => show win9_2.index t (0 : Fin 2) * 5000 + 1 * p.val = 5000 * t.val + p.val; omega
  | ⟨1, _⟩ => show win9_2.index t (1 : Fin 2) * 64 + 1 * q.val = q.val; omega

/-- The input blocks read at an entry, as entries of their arrays. -/
theorem iblk9_0_apply (c : Dev nD) (t : Fin cfg9.N) (p : Fin 5000) (k : Fin 64) :
    iblk9 V c 0 t (ix2 p k) = V c (Pipeline.arrRef spec9 0) (ix2 (row9 t p) k) := by
  show V c (Pipeline.arrRef spec9 0) (((cfg9.win 0).blk t).view.emb (ix2 p k)) = _
  rw [emb9_0]
theorem iblk9_1_apply (c : Dev nD) (t : Fin cfg9.N) (k : Fin 64) (q : Fin 64) :
    iblk9 V c 1 t (ix2 k q) = V c (Pipeline.arrRef spec9 1) (ix2 k q) := by
  show V c (Pipeline.arrRef spec9 1) (((cfg9.win 1).blk t).view.emb (ix2 k q)) = _
  rw [emb9_1]

/-- What point `t` writes back is block `t` of `G9_2` of the input arrays as the region finds them. -/
theorem flushed9_2_eq (c : Dev nD) (t : Fin cfg9.N) :
    (dat9 (F := Ideal) V c).flushed 2 t
      = ((cfg9.win 2).blk t).view.read (Elt Ideal) (G9_2 (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero hz9]
  simp only [View.ld_unit_zero (S := S5000x64) hz9, View.ld_unit_zero (S := S64x64) hz9]
  funext j
  obtain ⟨p, q, rfl⟩ : ∃ (p : Fin 5000) (q : Fin 64), j = ix2 p q := ⟨j 0, j 1, eq_ix2 j⟩
  show k9_pay1 (iblk9 V c 0 t) (iblk9 V c 1 t) (ix2 p q) = G9_2 _ _ (((cfg9.win 2).blk t).view.emb (ix2 p q))
  rw [pay9_apply, emb9_2]
  refine Finset.sum_congr rfl fun k _ => ?_
  rw [iblk9_0_apply, iblk9_1_apply]

/-- An index of the output array is in point `t`'s block iff each coordinate is in the block's range on its axis. -/
theorem mem_blk9_2 (t : Fin cfg9.N) (i : S50000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v167).slice (win9_2.rect t)).set ↔ _
  rw [View.set_slice_whole, Rect.mem_set_unit]
  exact Iff.rfl

/-- Every index of the output array is in the block of the point its row falls in: rows 5000 t … 5000 t + 4999. -/
theorem cover9_2_arr (i : S50000x64.Idx) :
    ∃ t : Fin cfg9.N, (cfg9.win 2).flush t = true ∧ i ∈ ((cfg9.win 2).blk t).view.set := by
  have hi0 : (i 0).val < 50000 := (i 0).isLt
  have hi1 : (i 1).val < 64 := (i 1).isLt
  have hN : cfg9.N = 10 := N_9
  obtain ⟨t, ht⟩ : ∃ t : Fin cfg9.N, t.val = (i 0).val / 5000 := ⟨⟨(i 0).val / 5000, by omega⟩, rfl⟩
  obtain ⟨e0, e1, e2, e3, e4, e5⟩ := idx9 t
  refine ⟨t, flush9_2 t, ?_⟩
  rw [mem_blk9_2]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 64 ≤ (i 1).val ∧ (i 1).val < win9_2.index t (1 : Fin 2) * 64 + 64; omega

/-- The output array after the region's last point is `G9_2` of the two input arrays as the region finds them. -/
theorem final9_2 (c : Dev nD) :
    (dat9 (F := Ideal) V c).arrAt 2 cfg9.N = G9_2 (V c (Pipeline.arrRef spec9 0)) (V c (Pipeline.arrRef spec9 1)) :=
  (dat9 (F := Ideal) V c).arrAt_eq_of_cover 2 (G9_2 (V c (Pipeline.arrRef spec9 0)) (V c (Pipeline.arrRef spec9 1)))
    (fun t _ => flushed9_2_eq V c t) cover9_2_arr

end Cert.KernelIdeal.HandVal
-- ==== Proof.KI.Val10.lean ====
import proofs.«113306_j49254684950634_1_alg».proof.Proof.KI.R10
import proofs.«113306_j49254684950634_1_alg».proof.Proof.LibRowLayout
import proofs.«113306_j49254684950634_1_alg».proof.Proof.LibBatchNormAlgebra
import Idealize.ShloMosaic.Lib.ValueIdx
import Idealize.ShloMosaic.Lib.Pipeline.Value
import Idealize.ShloMosaic.PureOps.Ideal.Laws

/-! # Region 10 on the extended reals: what its three outputs hold at the end

The first output is the input plus the bias row repeated over the rows. The second and third are, column by column,
the sum over all 50000 rows of the first output and of its square: the body adds one 5000-row tile's column sums per
grid point to a row it carries between points, ten tiles in all, and a sum over `10 · 5000` rows is the sum over the
tiles of the sums inside each tile. Addition of extended reals is associative and commutative, so no finiteness is
needed. -/

set_option maxRecDepth 16384

noncomputable section

namespace Cert.KernelIdeal.HandVal

open Cert.KernelIdeal Cert.KernelIdeal.Gen Idealize.ShloMosaic Idealize.ShloMosaic.ValueIdx
open scoped BigOperators

/-! ## The body's stored values, read at an index, on the extended reals

`x` is a 5000-row tile, `b` the bias row, `a` a carried row. The output tile is `x + b` with `b` repeated over the
rows; a carried row gains, at column `q`, the sum over the tile's rows of the output tile (of its square) at `q`. -/

/-- The zero row is zero everywhere. -/
theorem zeroRow10_apply (q : Fin 64) : k10_pay1 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

theorem zeroRow10'_apply (q : Fin 64) : k10_pay2 (F := Ideal) (ix2 (0 : Fin 1) q) = 0 := by
  show shapeCast S1x64 (broadcast S1x64 (Scalar.ofBits (F := Ideal) .f32 0x00000000#32)) shapeCasts_S1x64_S1x64 (ix2 (0 : Fin 1) q) = 0
  refine (congrFun (shapeCast_self _ _) _).trans ?_
  exact Ideal.ofBits_zero_f32

/-- The output tile at row `p`, column `q`: the tile there plus the bias at `q`. -/
theorem conv10_apply (x : Vec Ideal S5000x64 .f32) (b : Vec Ideal S1x64 .f32) (p : Fin 5000) (q : Fin 64) :
    k10_pay3 (F := Ideal) x b (ix2 p q) = x (ix2 p q) + b (ix2 (0 : Fin 1) q) := by
  unfold k10_pay3
  refine (addf_apply _ _ (ix2 p q)).trans ?_
  refine congrArg₂ (· + ·) (congrFun (shapeCast_self x _) _) ?_
  refine (broadcastTo_apply _ _ (ix2 p q) (ix2 (0 : Fin 1) q) fun a => ?_).trans (congrFun (shapeCast_self b _) _)
  match a with
  | ⟨0, _⟩ => rfl
  | ⟨1, _⟩ => rfl

/-- A lane-wise sum of a 5000-row tile over its rows, lifted to a one-row block, read at column `q`. -/
theorem colSum10_apply (src : FVec Ideal S5000x64 .f32) (q : Fin 64) :
    shapeCast S1x64 (multiReduction (F := Ideal) .add [0] S64 src 0x00000000#32 reduces_S5000x64_S64 (.inl rfl) rfl) shapeCasts_S64_S1x64 (ix2 (0 : Fin 1) q)
      = ∑ p : Fin 5000, src (ix2 p q) := by
  refine (shapeCast_addUnit_apply ![64] _ _ (ix2 (0 : Fin 1) q)).trans ?_
  have e : (fun a : Fin 1 => (ix2 (0 : Fin 1) q) a.succ) = ix1 q := by
    funext a; match a with | ⟨0, _⟩ => rfl
  exact (congrArg _ e).trans (RowLayout.laneColSum_apply src _ _ _ _ q)

/-- The first carried row after a point: what it held plus the output tile's column sums. -/
theorem sumRow10_apply (x : Vec Ideal S5000x64 .f32) (b a : Vec Ideal S1x64 .f32) (q : Fin 64) :
    k10_pay4 (F := Ideal) x b a (ix2 (0 : Fin 1) q)
      = a (ix2 (0 : Fin 1) q) + ∑ p : Fin 5000, k10_pay3 (F := Ideal) x b (ix2 p q) := by
  unfold k10_pay4
  refine (congrFun (shapeCast_self _ _) (ix2 (0 : Fin 1) q)).trans ?_
  refine (addf_apply _ _ (ix2 (0 : Fin 1) q)).trans ?_
  exact congrArg (a (ix2 (0 : Fin 1) q) + ·) (colSum10_apply _ q)

/-- The second carried row after a point: what it held plus the column sums of the output tile's squares. -/
theorem sqRow10_apply (x : Vec Ideal S5000x64 .f32) (b a : Vec Ideal S1x64 .f32) (q : Fin 64) :
    k10_pay5 (F := Ideal) x b a (ix2 (0 : Fin 1) q)
      = a (ix2 (0 : Fin 1) q) + ∑ p : Fin 5000, k10_pay3 (F := Ideal) x b (ix2 p q) * k10_pay3 (F := Ideal) x b (ix2 p q) := by
  unfold k10_pay5
  refine (congrFun (shapeCast_self _ _) (ix2 (0 : Fin 1) q)).trans ?_
  refine (addf_apply _ _ (ix2 (0 : Fin 1) q)).trans ?_
  refine congrArg (a (ix2 (0 : Fin 1) q) + ·) ((colSum10_apply _ q).trans ?_)
  exact Finset.sum_congr rfl fun p _ => mulf_apply _ _ _

open Cert.KernelIdeal.Hand Idealize.ShloMosaic.TcCoe Idealize.SL.Sem
open Idealize.ShloMosaic.Pipeline (Dat)

/-! ## What the three outputs hold at the end, as functions of the two inputs

`x` is the whole 50000-row input, `b` the bias row. -/

/-- The first output: `x` plus the bias row repeated over the rows. -/
def G10_2 (x : S50000x64.Idx → EReal) (b : S1x64.Idx → EReal) : S50000x64.Idx → EReal :=
  fun i => x i + b (ix2 (0 : Fin 1) (i 1 : Fin 64))

/-- The second: at column `q`, the sum of the first output's column `q` over all 50000 rows. -/
def G10_3 (x : S50000x64.Idx → EReal) (b : S1x64.Idx → EReal) : S1x64.Idx → EReal :=
  fun i => ∑ r : Fin 50000, G10_2 x b (ix2 r (i 1 : Fin 64))

/-- The third: likewise of the squares. -/
def G10_4 (x : S50000x64.Idx → EReal) (b : S1x64.Idx → EReal) : S1x64.Idx → EReal :=
  fun i => ∑ r : Fin 50000, G10_2 x b (ix2 r (i 1 : Fin 64)) * G10_2 x b (ix2 r (i 1 : Fin 64))

variable (V : (c : Dev nD) → (b : Ref sig .tc) → Buf (Elt Ideal) ((c : Thread nD τ).loc b))

/-! ## Where the blocks sit -/

/-- The block indices, decided over the ten points: the tile and the output tile are at row block `t`, the three
    one-row windows never move. -/
theorem idx10 : ∀ t : Fin cfg10.N,
      win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Row `p` of the tile at point `t` is row `5000 t + p` of the input. -/
theorem tile10_apply (c : Dev nD) (t : Fin cfg10.N) (p : Fin 5000) (q : Fin 64) (r : Fin 50000) (hr : r.val = 5000 * t.val + p.val) :
    iblk10 V c 0 t (ix2 p q) = V c (Pipeline.arrRef spec10 0) (ix2 r q) := by
  obtain ⟨e00, e01, -⟩ := idx10 t
  show V c (Pipeline.arrRef spec10 0) (((cfg10.win 0).blk t).view.emb (ix2 p q)) = _
  refine congrArg (V c (Pipeline.arrRef spec10 0)) (funext fun a => Fin.ext ?_)
  match a with
  | ⟨0, _⟩ => show win10_0.index t (0 : Fin 2) * 5000 + 1 * p.val = r.val; omega
  | ⟨1, _⟩ => show win10_0.index t (1 : Fin 2) * 64 + 1 * q.val = q.val; omega

/-- The bias row's block is the bias row at every point. -/
theorem bias10_apply (c : Dev nD) (t : Fin cfg10.N) (q : Fin 64) :
    iblk10 V c 1 t (ix2 (0 : Fin 1) q) = V c (Pipeline.arrRef spec10 1) (ix2 (0 : Fin 1) q) := by
  obtain ⟨-, -, e10, e11, -⟩ := idx10 t
  show V c (Pipeline.arrRef spec10 1) (((cfg10.win 1).blk t).view.emb (ix2 (0 : Fin 1) q)) = _
  refine congrArg (V c (Pipeline.arrRef spec10 1)) (funext fun a => Fin.ext ?_)
  match a with
  | ⟨0, _⟩ => show win10_1.index t (0 : Fin 2) * 1 + 1 * 0 = 0; omega
  | ⟨1, _⟩ => show win10_1.index t (1 : Fin 2) * 64 + 1 * q.val = q.val; omega

/-- So the output tile at point `t`, row `p`, is the first output's specification at row `5000 t + p`. -/
theorem convTile10_apply (c : Dev nD) (t : Fin cfg10.N) (p : Fin 5000) (q : Fin 64) (r : Fin 50000) (hr : r.val = 5000 * t.val + p.val) :
    k10_pay3 (F := Ideal) (iblk10 V c 0 t) (iblk10 V c 1 t) (ix2 p q)
      = G10_2 (V c (Pipeline.arrRef spec10 0)) (V c (Pipeline.arrRef spec10 1)) (ix2 r q) :=
  (conv10_apply _ _ p q).trans (congrArg₂ (· + ·) (tile10_apply V c t p q r hr) (bias10_apply V c t q))

/-! ## The carried rows are running sums over the points -/

/-- Point `m`'s contribution to the first carried row at column `q`: the column sum of its output tile (nothing
    beyond the grid). -/
def tileSum10 (c : Dev nD) (q : Fin 64) (m : ℕ) : EReal :=
  if h : m < cfg10.N then ∑ p : Fin 5000, k10_pay3 (F := Ideal) (iblk10 V c 0 ⟨m, h⟩) (iblk10 V c 1 ⟨m, h⟩) (ix2 p q) else 0

/-- and to the second: the column sum of the squares. -/
def tileSq10 (c : Dev nD) (q : Fin 64) (m : ℕ) : EReal :=
  if h : m < cfg10.N then ∑ p : Fin 5000, k10_pay3 (F := Ideal) (iblk10 V c 0 ⟨m, h⟩) (iblk10 V c 1 ⟨m, h⟩) (ix2 p q)
      * k10_pay3 (F := Ideal) (iblk10 V c 0 ⟨m, h⟩) (iblk10 V c 1 ⟨m, h⟩) (ix2 p q) else 0

/-- After point `n` the first carried row holds, at column `q`, the contributions of points `0 … n`: by induction
    on `n`, the first point starting from the zero row. -/
theorem acc10_fst_apply (c : Dev nD) (q : Fin 64) :
    ∀ (n : ℕ) (hn : n < cfg10.N), (acc10 V c n hn).1 (ix2 (0 : Fin 1) q) = ∑ m ∈ Finset.range (n + 1), tileSum10 V c q m
  | 0, hn => by
    show k10_pay4 (F := Ideal) (iblk10 V c 0 ⟨0, hn⟩) (iblk10 V c 1 ⟨0, hn⟩) (k10_pay1 (F := Ideal)) (ix2 (0 : Fin 1) q) = _
    refine (sumRow10_apply _ _ _ q).trans ?_
    refine (congrArg₂ (· + ·) (zeroRow10_apply q) (Eq.refl _)).trans ?_
    simp only [zero_add, Finset.sum_range_one]
    unfold tileSum10
    rw [dif_pos hn]
  | n + 1, hn => by
    show k10_pay4 (F := Ideal) (iblk10 V c 0 ⟨n + 1, hn⟩) (iblk10 V c 1 ⟨n + 1, hn⟩) (acc10 V c n (Nat.lt_of_succ_lt hn)).1 (ix2 (0 : Fin 1) q) = _
    refine (sumRow10_apply _ _ _ q).trans ?_
    exact (congrArg₂ (· + ·) (acc10_fst_apply c q n (Nat.lt_of_succ_lt hn)) (dif_pos hn).symm).trans (Finset.sum_range_succ _ _).symm

/-- Likewise the second. -/
theorem acc10_snd_apply (c : Dev nD) (q : Fin 64) :
    ∀ (n : ℕ) (hn : n < cfg10.N), (acc10 V c n hn).2 (ix2 (0 : Fin 1) q) = ∑ m ∈ Finset.range (n + 1), tileSq10 V c q m
  | 0, hn => by
    show k10_pay5 (F := Ideal) (iblk10 V c 0 ⟨0, hn⟩) (iblk10 V c 1 ⟨0, hn⟩) (k10_pay2 (F := Ideal)) (ix2 (0 : Fin 1) q) = _
    refine (sqRow10_apply _ _ _ q).trans ?_
    refine (congrArg₂ (· + ·) (zeroRow10'_apply q) (Eq.refl _)).trans ?_
    simp only [zero_add, Finset.sum_range_one]
    unfold tileSq10
    rw [dif_pos hn]
  | n + 1, hn => by
    show k10_pay5 (F := Ideal) (iblk10 V c 0 ⟨n + 1, hn⟩) (iblk10 V c 1 ⟨n + 1, hn⟩) (acc10 V c n (Nat.lt_of_succ_lt hn)).2 (ix2 (0 : Fin 1) q) = _
    refine (sqRow10_apply _ _ _ q).trans ?_
    exact (congrArg₂ (· + ·) (acc10_snd_apply c q n (Nat.lt_of_succ_lt hn)) (dif_pos hn).symm).trans (Finset.sum_range_succ _ _).symm

/-- Over the ten points the contributions add up to the sum over all 50000 rows: row `p` of tile `t` is row
    `5000 t + p`, and a sum over `10 · 5000` rows is the sum over the tiles of the sums inside each. -/
theorem total10_3 (c : Dev nD) (q : Fin 64) :
    ∑ m ∈ Finset.range 10, tileSum10 V c q m = G10_3 (V c (Pipeline.arrRef spec10 0)) (V c (Pipeline.arrRef spec10 1)) (ix2 (0 : Fin 1) q) := by
  rw [Finset.sum_range]
  show _ = ∑ r : Fin 50000, G10_2 (V c (Pipeline.arrRef spec10 0)) (V c (Pipeline.arrRef spec10 1)) (ix2 r q)
  refine Eq.trans ?_ (BatchNormAlgebra.sum_tiles 10 5000 fun r : Fin (10 * 5000) => G10_2 (V c (Pipeline.arrRef spec10 0)) (V c (Pipeline.arrRef spec10 1)) (ix2 r q)).symm
  refine Finset.sum_congr rfl fun t _ => ?_
  have ht : t.val < cfg10.N := lt_of_lt_of_eq t.isLt (show cfg10.N = 10 from N_10).symm
  refine (dif_pos ht).trans (Finset.sum_congr rfl fun p _ => ?_)
  have hr : (finProdFinEquiv (t, p) : Fin (10 * 5000)).val = 5000 * (⟨t.val, ht⟩ : Fin cfg10.N).val + p.val := by
    rw [BatchNormAlgebra.tile_row_val]; show p.val + 5000 * t.val = 5000 * t.val + p.val; omega
  exact convTile10_apply V c ⟨t.val, ht⟩ p q (finProdFinEquiv (t, p)) hr

/-- Over the ten points the contributions add up to the sum over all 50000 rows: row `p` of tile `t` is row
    `5000 t + p`, and a sum over `10 · 5000` rows is the sum over the tiles of the sums inside each. -/
theorem total10_4 (c : Dev nD) (q : Fin 64) :
    ∑ m ∈ Finset.range 10, tileSq10 V c q m = G10_4 (V c (Pipeline.arrRef spec10 0)) (V c (Pipeline.arrRef spec10 1)) (ix2 (0 : Fin 1) q) := by
  rw [Finset.sum_range]
  show _ = ∑ r : Fin 50000, G10_2 (V c (Pipeline.arrRef spec10 0)) (V c (Pipeline.arrRef spec10 1)) (ix2 r q) * G10_2 (V c (Pipeline.arrRef spec10 0)) (V c (Pipeline.arrRef spec10 1)) (ix2 r q)
  refine Eq.trans ?_ (BatchNormAlgebra.sum_tiles 10 5000 fun r : Fin (10 * 5000) => G10_2 (V c (Pipeline.arrRef spec10 0)) (V c (Pipeline.arrRef spec10 1)) (ix2 r q) * G10_2 (V c (Pipeline.arrRef spec10 0)) (V c (Pipeline.arrRef spec10 1)) (ix2 r q)).symm
  refine Finset.sum_congr rfl fun t _ => ?_
  have ht : t.val < cfg10.N := lt_of_lt_of_eq t.isLt (show cfg10.N = 10 from N_10).symm
  refine (dif_pos ht).trans (Finset.sum_congr rfl fun p _ => ?_)
  have hr : (finProdFinEquiv (t, p) : Fin (10 * 5000)).val = 5000 * (⟨t.val, ht⟩ : Fin cfg10.N).val + p.val := by
    rw [BatchNormAlgebra.tile_row_val]; show p.val + 5000 * t.val = 5000 * t.val + p.val; omega
  exact congrArg₂ (· * ·) (convTile10_apply V c ⟨t.val, ht⟩ p q (finProdFinEquiv (t, p)) hr) (convTile10_apply V c ⟨t.val, ht⟩ p q (finProdFinEquiv (t, p)) hr)

/-! ## From blocks to the arrays -/

/-- The output tile at point `t`, read at any index of the tile, is the specification at the index's place in the
    whole output. -/
theorem conv_blk10 (c : Dev nD) (t : Fin cfg10.N) (j : S5000x64.Idx) :
    k10_pay3 (F := Ideal) (iblk10 V c 0 t) (iblk10 V c 1 t) j = G10_2 (V c (Pipeline.arrRef spec10 0)) (V c (Pipeline.arrRef spec10 1)) (((cfg10.win 2).blk t).view.emb j) := by
  obtain ⟨p, q, rfl⟩ : ∃ (p : Fin 5000) (q : Fin 64), j = ix2 p q := ⟨j 0, j 1, eq_ix2 j⟩
  have hidx := idx10 t
  have hN : t.val < 10 := lt_of_lt_of_eq t.isLt (show cfg10.N = 10 from N_10)
  have hr : 5000 * t.val + p.val < 50000 := by have := p.isLt; omega
  have he : ((cfg10.win 2).blk t).view.emb (ix2 p q) = ix2 (⟨5000 * t.val + p.val, hr⟩ : Fin 50000) q := by
    funext a; apply Fin.ext
    match a with
    | ⟨0, _⟩ => show win10_2.index t (0 : Fin 2) * 5000 + 1 * p.val = 5000 * t.val + p.val; omega
    | ⟨1, _⟩ => show win10_2.index t (1 : Fin 2) * 64 + 1 * q.val = q.val; omega
  rw [he]
  exact convTile10_apply V c t p q _ rfl

/-- What point `t` writes back to the first output is its block of the specification. -/
theorem flushed10_2_eq (c : Dev nD) (t : Fin cfg10.N) :
    (dat10 (F := Ideal) V c).flushed 2 t = ((cfg10.win 2).blk t).view.read (Elt Ideal) (G10_2 (V c (Pipeline.arrRef spec10 0)) (V c (Pipeline.arrRef spec10 1))) := by
  show (cfg10.win 2).cut (grid10.coords t) ((dat10 V c).after 2 t) = _
  rw [after10_2]
  exact funext fun j => conv_blk10 V c t j

/-- An index of the first output is in point `t`'s block iff each coordinate is in the block's range. -/
theorem mem_blk10_2 (t : Fin cfg10.N) (i : S50000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole (Pipeline.arrRef spec10 2)).slice (win10_2.rect t)).set ↔ _
  rw [View.set_slice_whole, Rect.mem_set_unit]
  exact Iff.rfl

/-- Row `r` is in the block of point `r / 5000`: the ten tiles cover the output. -/
theorem cover10_2 (i : S50000x64.Idx) : ∃ t : Fin cfg10.N, (cfg10.win 2).flush t = true ∧ i ∈ ((cfg10.win 2).blk t).view.set := by
  have hi0 : (i 0).val < 50000 := (i 0).isLt
  have hi1 : (i 1).val < 64 := (i 1).isLt
  have hlt : (i 0).val / 5000 < cfg10.N := by rw [show cfg10.N = 10 from N_10]; omega
  have hidx := idx10 ⟨(i 0).val / 5000, hlt⟩
  refine ⟨⟨(i 0).val / 5000, hlt⟩, flush10_2 _, ?_⟩
  rw [mem_blk10_2]
  intro a
  match a with
  | ⟨0, _⟩ => show win10_2.index ⟨(i 0).val / 5000, hlt⟩ (0 : Fin 2) * 5000 ≤ (i 0).val ∧ (i 0).val < win10_2.index ⟨(i 0).val / 5000, hlt⟩ (0 : Fin 2) * 5000 + 5000
              have e : win10_2.index ⟨(i 0).val / 5000, hlt⟩ (0 : Fin 2) = (i 0).val / 5000 := hidx.2.2.2.2.1
              omega
  | ⟨1, _⟩ => show win10_2.index ⟨(i 0).val / 5000, hlt⟩ (1 : Fin 2) * 64 ≤ (i 1).val ∧ (i 1).val < win10_2.index ⟨(i 0).val / 5000, hlt⟩ (1 : Fin 2) * 64 + 64
              have e : win10_2.index ⟨(i 0).val / 5000, hlt⟩ (1 : Fin 2) = 0 := hidx.2.2.2.2.2.1
              omega

/-- THE FIRST OUTPUT after the run: the input plus the bias row, everywhere. -/
theorem final10_2 (c : Dev nD) :
    (dat10 (F := Ideal) V c).arrAt 2 cfg10.N = G10_2 (V c (Pipeline.arrRef spec10 0)) (V c (Pipeline.arrRef spec10 1)) :=
  (dat10 V c).arrAt_eq_of_cover 2 _ (fun t _ => flushed10_2_eq V c t) cover10_2

/-- An index of the one-row output is in a point's block iff each coordinate is in the block's range. -/
theorem mem_blk10_3 (t : Fin cfg10.N) (i : S1x64.Idx) :
    i ∈ ((cfg10.win 3).blk t).view.set ↔ ∀ a : Fin 2, win10_3.index t a * S1x64.size a ≤ (i a).val ∧ (i a).val < win10_3.index t a * S1x64.size a + S1x64.size a := by
  show i ∈ ((View.whole (Pipeline.arrRef spec10 3)).slice (win10_3.rect t)).set ↔ _
  rw [View.set_slice_whole, Rect.mem_set_unit]
  exact Iff.rfl

/-- Reading any one-row array through a point's block, at an index of the block, is the array at the index's place. -/
theorem read_blk10_3 (t : Fin cfg10.N) (G : S1x64.Idx → EReal) (j : S1x64.Idx) :
    ((cfg10.win 3).blk t).view.read (Elt Ideal) G j = G (((cfg10.win 3).blk t).view.emb j) := rfl

/-- At the last point the carried row, read through the output's block, is the specification. -/
theorem row_blk10_3 (c : Dev nD) (t : Fin cfg10.N) (h9 : t.val = 9) (j : S1x64.Idx) :
    (acc10 V c t.val t.isLt).1 j = G10_3 (V c (Pipeline.arrRef spec10 0)) (V c (Pipeline.arrRef spec10 1)) (((cfg10.win 3).blk t).view.emb j) := by
  obtain ⟨u, q, rfl⟩ : ∃ (u : Fin 1) (q : Fin 64), j = ix2 u q := ⟨j 0, j 1, eq_ix2 j⟩
  obtain rfl : u = 0 := Subsingleton.elim _ _
  have hidx := idx10 t
  have he : ((cfg10.win 3).blk t).view.emb (ix2 (0 : Fin 1) q) = ix2 (0 : Fin 1) q := by
    funext a; apply Fin.ext
    match a with
    | ⟨0, _⟩ => show win10_3.index t (0 : Fin 2) * 1 + 1 * 0 = 0; omega
    | ⟨1, _⟩ => show win10_3.index t (1 : Fin 2) * 64 + 1 * q.val = q.val; omega
  rw [he]
  refine (acc10_fst_apply V c q t.val t.isLt).trans ?_
  rw [h9]
  exact total10_3 V c q

/-- What the last point writes back to the one-row output is its block of the specification. -/
theorem flushed10_3_eq (c : Dev nD) (t : Fin cfg10.N) (hf : (cfg10.win 3).flush t = true) :
    (dat10 (F := Ideal) V c).flushed 3 t = ((cfg10.win 3).blk t).view.read (Elt Ideal) (G10_3 (V c (Pipeline.arrRef spec10 0)) (V c (Pipeline.arrRef spec10 1))) := by
  have hN : t.val < 10 := lt_of_lt_of_eq t.isLt (show cfg10.N = 10 from N_10)
  have h9 : t.val = 9 := by have := (flush10_3 t).mp hf; omega
  show (cfg10.win 3).cut (grid10.coords t) ((dat10 V c).after 3 t) = _
  rw [after10_3]
  funext j
  refine Eq.trans ?_ (read_blk10_3 t (G10_3 (V c (Pipeline.arrRef spec10 0)) (V c (Pipeline.arrRef spec10 1))) j).symm
  exact row_blk10_3 V c t h9 j

/-- The last point's block is the whole one-row output. -/
theorem cover10_3 (i : S1x64.Idx) : ∃ t : Fin cfg10.N, (cfg10.win 3).flush t = true ∧ i ∈ ((cfg10.win 3).blk t).view.set := by
  have hi0 : (i 0).val < 1 := (i 0).isLt
  have hi1 : (i 1).val < 64 := (i 1).isLt
  have hidx := idx10 t10_9
  refine ⟨t10_9, (flush10_3 t10_9).mpr (by decide), ?_⟩
  rw [mem_blk10_3]
  intro a
  match a with
  | ⟨0, _⟩ => show win10_3.index t10_9 (0 : Fin 2) * 1 ≤ (i 0).val ∧ (i 0).val < win10_3.index t10_9 (0 : Fin 2) * 1 + 1; omega
  | ⟨1, _⟩ => show win10_3.index t10_9 (1 : Fin 2) * 64 ≤ (i 1).val ∧ (i 1).val < win10_3.index t10_9 (1 : Fin 2) * 64 + 64; omega

/-- THE ONE-ROW OUTPUT after the run. -/
theorem final10_3 (c : Dev nD) :
    (dat10 (F := Ideal) V c).arrAt 3 cfg10.N = G10_3 (V c (Pipeline.arrRef spec10 0)) (V c (Pipeline.arrRef spec10 1)) :=
  (dat10 V c).arrAt_eq_of_cover 3 _ (fun t hf => flushed10_3_eq V c t hf) cover10_3

/-- An index of the one-row output is in a point's block iff each coordinate is in the block's range. -/
theorem mem_blk10_4 (t : Fin cfg10.N) (i : S1x64.Idx) :
    i ∈ ((cfg10.win 4).blk t).view.set ↔ ∀ a : Fin 2, win10_4.index t a * S1x64.size a ≤ (i a).val ∧ (i a).val < win10_4.index t a * S1x64.size a + S1x64.size a := by
  show i ∈ ((View.whole (Pipeline.arrRef spec10 4)).slice (win10_4.rect t)).set ↔ _
  rw [View.set_slice_whole, Rect.mem_set_unit]
  exact Iff.rfl

/-- Reading any one-row array through a point's block, at an index of the block, is the array at the index's place. -/
theorem read_blk10_4 (t : Fin cfg10.N) (G : S1x64.Idx → EReal) (j : S1x64.Idx) :
    ((cfg10.win 4).blk t).view.read (Elt Ideal) G j = G (((cfg10.win 4).blk t).view.emb j) := rfl

/-- At the last point the carried row, read through the output's block, is the specification. -/
theorem row_blk10_4 (c : Dev nD) (t : Fin cfg10.N) (h9 : t.val = 9) (j : S1x64.Idx) :
    (acc10 V c t.val t.isLt).2 j = G10_4 (V c (Pipeline.arrRef spec10 0)) (V c (Pipeline.arrRef spec10 1)) (((cfg10.win 4).blk t).view.emb j) := by
  obtain ⟨u, q, rfl⟩ : ∃ (u : Fin 1) (q : Fin 64), j = ix2 u q := ⟨j 0, j 1, eq_ix2 j⟩
  obtain rfl : u = 0 := Subsingleton.elim _ _
  have hidx := idx10 t
  have he : ((cfg10.win 4).blk t).view.emb (ix2 (0 : Fin 1) q) = ix2 (0 : Fin 1) q := by
    funext a; apply Fin.ext
    match a with
    | ⟨0, _⟩ => show win10_4.index t (0 : Fin 2) * 1 + 1 * 0 = 0; omega
    | ⟨1, _⟩ => show win10_4.index t (1 : Fin 2) * 64 + 1 * q.val = q.val; omega
  rw [he]
  refine (acc10_snd_apply V c q t.val t.isLt).trans ?_
  rw [h9]
  exact total10_4 V c q

/-- What the last point writes back to the one-row output is its block of the specification. -/
theorem flushed10_4_eq (c : Dev nD) (t : Fin cfg10.N) (hf : (cfg10.win 4).flush t = true) :
    (dat10 (F := Ideal) V c).flushed 4 t = ((cfg10.win 4).blk t).view.read (Elt Ideal) (G10_4 (V c (Pipeline.arrRef spec10 0)) (V c (Pipeline.arrRef spec10 1))) := by
  have hN : t.val < 10 := lt_of_lt_of_eq t.isLt (show cfg10.N = 10 from N_10)
  have h9 : t.val = 9 := by have := (flush10_4 t).mp hf; omega
  show (cfg10.win 4).cut (grid10.coords t) ((dat10 V c).after 4 t) = _
  rw [after10_4]
  funext j
  refine Eq.trans ?_ (read_blk10_4 t (G10_4 (V c (Pipeline.arrRef spec10 0)) (V c (Pipeline.arrRef spec10 1))) j).symm
  exact row_blk10_4 V c t h9 j

/-- The last point's block is the whole one-row output. -/
theorem cover10_4 (i : S1x64.Idx) : ∃ t : Fin cfg10.N, (cfg10.win 4).flush t = true ∧ i ∈ ((cfg10.win 4).blk t).view.set := by
  have hi0 : (i 0).val < 1 := (i 0).isLt
  have hi1 : (i 1).val < 64 := (i 1).isLt
  have hidx := idx10 t10_9
  refine ⟨t10_9, (flush10_4 t10_9).mpr (by decide), ?_⟩
  rw [mem_blk10_4]
  intro a
  match a with
  | ⟨0, _⟩ => show win10_4.index t10_9 (0 : Fin 2) * 1 ≤ (i 0).val ∧ (i 0).val < win10_4.index t10_9 (0 : Fin 2) * 1 + 1; omega
  | ⟨1, _⟩ => show win10_4.index t10_9 (1 : Fin 2) * 64 ≤ (i 1).val ∧ (i 1).val < win10_4.index t10_9 (1 : Fin 2) * 64 + 64; omega

/-- THE ONE-ROW OUTPUT after the run. -/
theorem final10_4 (c : Dev nD) :
    (dat10 (F := Ideal) V c).arrAt 4 cfg10.N = G10_4 (V c (Pipeline.arrRef spec10 0)) (V c (Pipeline.arrRef spec10 1)) :=
  (dat10 V c).arrAt_eq_of_cover 4 _ (fun t hf => flushed10_4_eq V c t hf) cover10_4

end Cert.KernelIdeal.HandVal

end
-- ==== Proof.KI.Val11.lean ====
import proofs.«113306_j49254684950634_1_alg».proof.Proof.KI.R11
import Idealize.ShloMosaic.Lib.Pipeline.Value
import Idealize.ShloMosaic.Lib.ValueIdx
import Idealize.ShloMosaic.PureOps.Ideal.Laws
import Idealize.ShloMosaic.Lib.Tactic

/-! # Region 11 at the ideal values: what its output array holds at the end

The output array after the region's last grid point, as one function of the region's input arrays as it finds them,
index by index. -/

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz11 : (![0, 0] : Fin 2 → Nat) = fun _ => 0 := funext fun a => by fin_cases a <;> rfl

/-- The normalised and rectified array: each entry of `x` ([50000, 64]) times its column's scale plus its column's
    shift, then the maximum with zero. -/
def G11_3 (x : S50000x64.Idx → Elt Ideal .f32) (scale shift : S1x64.Idx → Elt Ideal .f32) : S50000x64.Idx → Elt Ideal .f32 :=
  fun i => max (x i * scale (ix2 (0 : Fin 1) (i 1 : Fin 64)) + shift (ix2 (0 : Fin 1) (i 1 : Fin 64))) 0

/-- The body's payload at an entry. -/
theorem pay11_apply (x0 : Vec Ideal S5000x64 .f32) (x1 x2 : Vec Ideal S1x64 .f32) (p : Fin 5000) (q : Fin 64) :
    k11_pay1 x0 x1 x2 (ix2 p q) = max (x0 (ix2 p q) * x1 (ix2 (0 : Fin 1) q) + x2 (ix2 (0 : Fin 1) q)) 0 := by
  unfold k11_pay1
  simp only [shapeCast_self]
  rw [maximumf_apply, addf_apply, mulf_apply, broadcast_apply,
    broadcastTo_apply x1 broadcasts_S1x64_S5000x64 (ix2 p q) (ix2 (0 : Fin 1) q) (fun a => by match a with | ⟨0, _⟩ => rfl | ⟨1, _⟩ => rfl),
    broadcastTo_apply x2 broadcasts_S1x64_S5000x64 (ix2 p q) (ix2 (0 : Fin 1) q) (fun a => by match a with | ⟨0, _⟩ => rfl | ⟨1, _⟩ => rfl)]
  exact congrArg _ Ideal.ofBits_zero_f32

/-- The printed index maps over the grid: the row blocks of windows 0 and 3 are the grid point's, every other block
    index is zero. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Row `p` of point `t`'s block is row `5000 t + p` of the array. -/
def row11 (t : Fin cfg11.N) (p : Fin 5000) : Fin 50000 :=
  ⟨5000 * t.val + p.val, by have := t.isLt; have hN : cfg11.N = 10 := N_11; have := p.isLt; omega⟩

/-- Where an index of point `t`'s block sits in its array, window by window. -/
theorem emb11_0 (t : Fin cfg11.N) (p : Fin 5000) (q : Fin 64) :
    ((cfg11.win 0).blk t).view.emb (ix2 p q) = ix2 (row11 t p) q := by
  obtain ⟨e0, e1, e2, e3, e4, e5, e6, e7⟩ := idx11 t
  funext a; apply Fin.ext
  match a with
  | ⟨0, _⟩ => show win11_0.index t (0 : Fin 2) * 5000 + 1 * p.val = 5000 * t.val + p.val; omega
  | ⟨1, _⟩ => show win11_0.index t (1 : Fin 2) * 64 + 1 * q.val = q.val; omega
theorem emb11_1 (t : Fin cfg11.N) (z : Fin 1) (q : Fin 64) :
    ((cfg11.win 1).blk t).view.emb (ix2 z q) = ix2 z q := by
  obtain ⟨e0, e1, e2, e3, e4, e5, e6, e7⟩ := idx11 t
  funext a; apply Fin.ext
  match a with
  | ⟨0, _⟩ => show win11_1.index t (0 : Fin 2) * 1 + 1 * z.val = z.val; omega
  | ⟨1, _⟩ => show win11_1.index t (1 : Fin 2) * 64 + 1 * q.val = q.val; omega
theorem emb11_2 (t : Fin cfg11.N) (z : Fin 1) (q : Fin 64) :
    ((cfg11.win 2).blk t).view.emb (ix2 z q) = ix2 z q := by
  obtain ⟨e0, e1, e2, e3, e4, e5, e6, e7⟩ := idx11 t
  funext a; apply Fin.ext
  match a with
  | ⟨0, _⟩ => show win11_2.index t (0 : Fin 2) * 1 + 1 * z.val = z.val; omega
  | ⟨1, _⟩ => show win11_2.index t (1 : Fin 2) * 64 + 1 * q.val = q.val; omega
theorem emb11_3 (t : Fin cfg11.N) (p : Fin 5000) (q : Fin 64) :
    ((cfg11.win 3).blk t).view.emb (ix2 p q) = ix2 (row11 t p) q := by
  obtain ⟨e0, e1, e2, e3, e4, e5, e6, e7⟩ := idx11 t
  funext a; apply Fin.ext
  match a with
  | ⟨0, _⟩ => show win11_3.index t (0 : Fin 2) * 5000 + 1 * p.val = 5000 * t.val + p.val; omega
  | ⟨1, _⟩ => show win11_3.index t (1 : Fin 2) * 64 + 1 * q.val = q.val; omega

/-- The input blocks read at an entry, as entries of their arrays. -/
theorem iblk11_0_apply (c : Dev nD) (t : Fin cfg11.N) (p : Fin 5000) (q : Fin 64) :
    iblk11 V c 0 t (ix2 p q) = V c (Pipeline.arrRef spec11 0) (ix2 (row11 t p) q) := by
  show V c (Pipeline.arrRef spec11 0) (((cfg11.win 0).blk t).view.emb (ix2 p q)) = _
  rw [emb11_0]
theorem iblk11_1_apply (c : Dev nD) (t : Fin cfg11.N) (z : Fin 1) (q : Fin 64) :
    iblk11 V c 1 t (ix2 z q) = V c (Pipeline.arrRef spec11 1) (ix2 z q) := by
  show V c (Pipeline.arrRef spec11 1) (((cfg11.win 1).blk t).view.emb (ix2 z q)) = _
  rw [emb11_1]
theorem iblk11_2_apply (c : Dev nD) (t : Fin cfg11.N) (z : Fin 1) (q : Fin 64) :
    iblk11 V c 2 t (ix2 z q) = V c (Pipeline.arrRef spec11 2) (ix2 z q) := by
  show V c (Pipeline.arrRef spec11 2) (((cfg11.win 2).blk t).view.emb (ix2 z q)) = _
  rw [emb11_2]

/-- The output buffer after the body, read at an entry of the block. -/
theorem out11_3_apply (x0 : Vec Ideal S5000x64 .f32) (x1 x2 : Vec Ideal S1x64 .f32) (p : Fin 5000) (q : Fin 64) :
    out11_3 x0 x1 x2 (ix2 p q) = max (x0 (ix2 p q) * x1 (ix2 (0 : Fin 1) q) + x2 (ix2 (0 : Fin 1) q)) 0 := by
  unfold out11_3
  rw [View.canon_unit_zero hz11]
  simp only [View.ld_unit_zero (S := S5000x64) hz11, View.ld_unit_zero (S := S1x64) hz11]
  exact pay11_apply x0 x1 x2 p q

set_option maxHeartbeats 400000 in
/-- What point `t` writes back is block `t` of `G11_3` of the input arrays as the region finds them. -/
theorem flushed11_3_eq (c : Dev nD) (t : Fin cfg11.N) :
    (dat11 (F := Ideal) V c).flushed 3 t
      = ((cfg11.win 3).blk t).view.read (Elt Ideal) (G11_3 (V c (Pipeline.arrRef spec11 0)) (V c (Pipeline.arrRef spec11 1)) (V c (Pipeline.arrRef spec11 2))) := by
  show (cfg11.win 3).cut (grid11.coords t) ((dat11 (F := Ideal) V c).after 3 t) = _
  rw [after11_3]
  funext j
  obtain ⟨p, q, rfl⟩ : ∃ (p : Fin 5000) (q : Fin 64), j = ix2 p q := ⟨j 0, j 1, eq_ix2 j⟩
  show out11_3 (iblk11 V c 0 t) (iblk11 V c 1 t) (iblk11 V c 2 t) (ix2 p q) = G11_3 _ _ _ (((cfg11.win 3).blk t).view.emb (ix2 p q))
  rw [out11_3_apply, emb11_3]
  rw [iblk11_0_apply, iblk11_1_apply, iblk11_2_apply]
  rfl

/-- An index of the output array is in point `t`'s block iff each coordinate is in the block's range on its axis. -/
theorem mem_blk11_3 (t : Fin cfg11.N) (i : S50000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole main_v198).slice (win11_3.rect t)).set ↔ _
  rw [View.set_slice_whole, Rect.mem_set_unit]
  exact Iff.rfl

/-- Every index of the output array is in the block of the point its row falls in: rows 5000 t … 5000 t + 4999. -/
theorem cover11_3_arr (i : S50000x64.Idx) :
    ∃ t : Fin cfg11.N, (cfg11.win 3).flush t = true ∧ i ∈ ((cfg11.win 3).blk t).view.set := by
  have hi0 : (i 0).val < 50000 := (i 0).isLt
  have hi1 : (i 1).val < 64 := (i 1).isLt
  have hN : cfg11.N = 10 := N_11
  obtain ⟨t, ht⟩ : ∃ t : Fin cfg11.N, t.val = (i 0).val / 5000 := ⟨⟨(i 0).val / 5000, by omega⟩, rfl⟩
  obtain ⟨e0, e1, e2, e3, e4, e5, e6, e7⟩ := idx11 t
  refine ⟨t, flush11_3 t, ?_⟩
  rw [mem_blk11_3]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 64 ≤ (i 1).val ∧ (i 1).val < win11_3.index t (1 : Fin 2) * 64 + 64; omega

/-- The output array after the region's last point is `G11_3` of the three input arrays as the region finds them. -/
theorem final11_3 (c : Dev nD) :
    (dat11 (F := Ideal) V c).arrAt 3 cfg11.N = G11_3 (V c (Pipeline.arrRef spec11 0)) (V c (Pipeline.arrRef spec11 1)) (V c (Pipeline.arrRef spec11 2)) :=
  (dat11 (F := Ideal) V c).arrAt_eq_of_cover 3 (G11_3 (V c (Pipeline.arrRef spec11 0)) (V c (Pipeline.arrRef spec11 1)) (V c (Pipeline.arrRef spec11 2)))
    (fun t _ => flushed11_3_eq V c t) cover11_3_arr

end Cert.KernelIdeal.HandVal
-- ==== Proof.KI.Host4.lean ====
/-
  The host stretch between matrix product 1 and its bias-and-statistics region, read as values: the aggregate with the
  self term, the same function `kAggSelf` of the product, the two index vectors and the edge and node coefficients as in
  the first layer.
-/
import proofs.«113306_j49254684950634_1_alg».proof.Proof.Gen.KernelIdeal.Regions
import proofs.«113306_j49254684950634_1_alg».proof.Proof.KI.Host1

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after4_agg (W : Valuation τ sig (Elt F)) :
    StableHlo.after hostOps4 W (Proc.devRef .tc main_v98)
      = kAggSelf (W (Proc.devRef .tc main_v81)) (W (Proc.devRef .tc main_v1)) (W (Proc.devRef .tc main_v3))
          (W (Proc.devRef .tc main_v25)) (W (Proc.devRef .tc main_v26)) := by
  after_results_simp
  unfold kAggSelf kAgg
  with_reducible rfl

variable (m : (ℓ : Loc nD τ sig) → Buf (Elt F) ℓ) (outs : Outs (F := F))

/-- A structural array the first stretch computed is still there before this stretch. -/
theorem V8_main_v1 (c : Dev nD) : V8 m outs c main_v1 = V1 m c main_v1 := (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))
theorem V8_main_v3 (c : Dev nD) : V8 m outs c main_v3 = V1 m c main_v3 := (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide))
theorem V8_main_v25 (c : Dev nD) : V8 m outs c main_v25 = V1 m c main_v25 := (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide))
theorem V8_main_v26 (c : Dev nD) : V8 m outs c main_v26 = V1 m c main_v26 := (V8_of m outs c main_v26 (by decide)).trans <| (V7_of m outs c main_v26 (by decide)).trans <| (V6_of m outs c main_v26 (by decide)).trans <| (V5_of m outs c main_v26 (by decide)).trans <| (V4_of m outs c main_v26 (by decide)).trans <| (V3_of m outs c main_v26 (by decide)).trans <| (V2_of m outs c main_v26 (by decide))

/-- The region's first input: the aggregate of what matrix product 1 left, over the structural arrays. -/
theorem V9_main_v98 (c : Dev nD) :
    V9 m outs c main_v98
      = kAggSelf (outs 8 main_v81 c) (V1 m c main_v1) (V1 m c main_v3) (V1 m c main_v25) (V1 m c main_v26) := by
  show StableHlo.after hostOps4 (V8 m outs c) (Proc.devRef .tc main_v98) = _
  rw [after4_agg (V8 m outs c)]
  have e : V8 m outs c main_v81 = outs 8 main_v81 c := Function.update_self ..
  rw [e, V8_main_v1, V8_main_v3, V8_main_v25, V8_main_v26]

/-- The region's second input, bias row 1, is what the parameter stretch left there. -/
theorem V9_main_v74 (c : Dev nD) : V9 m outs c main_v74 = V7 m outs c main_v74 := (V9_of m outs c main_v74 (by decide)).trans <| (V8_of m outs c main_v74 (by decide))

end Cert.KernelIdeal.HandVal

end
-- ==== Proof.KI.Host5.lean ====
/-
  The host stretch between bias-and-statistics region 1 and its normalisation region, read as values: the scale and the
  shift, the same functions `kScale` and `kShift` of the two statistics rows and the parameter rows as in the first layer.
-/
import proofs.«113306_j49254684950634_1_alg».proof.Proof.Gen.KernelIdeal.Regions
import proofs.«113306_j49254684950634_1_alg».proof.Proof.KI.Host2

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after5_scale (W : Valuation τ sig (Elt F)) :
    StableHlo.after hostOps5 W (Proc.devRef .tc main_v109)
      = kScale (W (Proc.devRef .tc main_v99_1)) (W (Proc.devRef .tc main_v99_2)) (W (Proc.devRef .tc main_v77)) := by
  after_results_simp
  unfold kScale kVar kMean
  with_reducible rfl

set_option maxHeartbeats 4000000 in
theorem after5_shift (W : Valuation τ sig (Elt F)) :
    StableHlo.after hostOps5 W (Proc.devRef .tc main_v111)
      = kShift (W (Proc.devRef .tc main_v99_1)) (W (Proc.devRef .tc main_v99_2)) (W (Proc.devRef .tc main_v77))
          (W (Proc.devRef .tc main_v80)) := by
  after_results_simp
  unfold kShift kScale kVar kMean
  with_reducible rfl

variable (m : (ℓ : Loc nD τ sig) → Buf (Elt F) ℓ) (outs : Outs (F := F))

/-- What the bias-and-statistics region left, read off the contents after it. -/
theorem V10_main_v99_2 (c : Dev nD) : V10 m outs c main_v99_2 = outs 10 main_v99_2 c := Function.update_self ..

theorem V10_main_v99_1 (c : Dev nD) : V10 m outs c main_v99_1 = outs 10 main_v99_1 c := by
  simp only [V10]
  rw [Function.update_of_ne (StableHlo.devRef_ne_of_ne (by decide : main_v99_1 ≠ main_v99_2)), Function.update_self]

theorem V10_main_v99_0 (c : Dev nD) : V10 m outs c main_v99_0 = outs 10 main_v99_0 c := by
  simp only [V10]
  rw [Function.update_of_ne (StableHlo.devRef_ne_of_ne (by decide : main_v99_0 ≠ main_v99_2)),
    Function.update_of_ne (StableHlo.devRef_ne_of_ne (by decide : main_v99_0 ≠ main_v99_1)), Function.update_self]

/-- A parameter row its stretch computed is still there before this stretch. -/
theorem V10_main_v77 (c : Dev nD) : V10 m outs c main_v77 = V7 m outs c main_v77 := (V10_of m outs c main_v77 (by decide)).trans <| (V9_of m outs c main_v77 (by decide)).trans <| (V8_of m outs c main_v77 (by decide))
theorem V10_main_v80 (c : Dev nD) : V10 m outs c main_v80 = V7 m outs c main_v80 := (V10_of m outs c main_v80 (by decide)).trans <| (V9_of m outs c main_v80 (by decide)).trans <| (V8_of m outs c main_v80 (by decide))

/-- The normalisation region's scale input. -/
theorem V11_main_v109 (c : Dev nD) :
    V11 m outs c main_v109 = kScale (outs 10 main_v99_1 c) (outs 10 main_v99_2 c) (V7 m outs c main_v77) := by
  show StableHlo.after hostOps5 (V10 m outs c) (Proc.devRef .tc main_v109) = _
  rw [after5_scale (V10 m outs c), V10_main_v99_1, V10_main_v99_2, V10_main_v77]

/-- The normalisation region's shift input. -/
theorem V11_main_v111 (c : Dev nD) :
    V11 m outs c main_v111
      = kShift (outs 10 main_v99_1 c) (outs 10 main_v99_2 c) (V7 m outs c main_v77) (V7 m outs c main_v80) := by
  show StableHlo.after hostOps5 (V10 m outs c) (Proc.devRef .tc main_v111) = _
  rw [after5_shift (V10 m outs c), V10_main_v99_1, V10_main_v99_2, V10_main_v77, V10_main_v80]

/-- The normalisation region's first input is what the previous region left: this stretch does not write it. -/
theorem V11_main_v99_0 (c : Dev nD) : V11 m outs c main_v99_0 = outs 10 main_v99_0 c :=
  (V11_of m outs c main_v99_0 (by decide)).trans (V10_main_v99_0 m outs c)

end Cert.KernelIdeal.HandVal

end
-- ==== Proof.KI.Host7.lean ====
/-
  The host stretch between matrix product 2 and its bias-and-statistics region, read as values: the aggregate with the
  self term, the same function `kAggSelf` of the product, the two index vectors and the edge and node coefficients as in
  the first layer.
-/
import proofs.«113306_j49254684950634_1_alg».proof.Proof.Gen.KernelIdeal.Regions
import proofs.«113306_j49254684950634_1_alg».proof.Proof.KI.Host1

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after7_agg (W : Valuation τ sig (Elt F)) :
    StableHlo.after hostOps7 W (Proc.devRef .tc main_v141)
      = kAggSelf (W (Proc.devRef .tc main_v124)) (W (Proc.devRef .tc main_v1)) (W (Proc.devRef .tc main_v3))
          (W (Proc.devRef .tc main_v25)) (W (Proc.devRef .tc main_v26)) := by
  after_results_simp
  unfold kAggSelf kAgg
  with_reducible rfl

variable (m : (ℓ : Loc nD τ sig) → Buf (Elt F) ℓ) (outs : Outs (F := F))

/-- A structural array the first stretch computed is still there before this stretch. -/
theorem V14_main_v1 (c : Dev nD) : V14 m outs c main_v1 = V1 m c main_v1 := (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))
theorem V14_main_v3 (c : Dev nD) : V14 m outs c main_v3 = V1 m c main_v3 := (V14_of m outs c main_v3 (by decide)).trans <| (V13_of m outs c main_v3 (by decide)).trans <| (V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide))
theorem V14_main_v25 (c : Dev nD) : V14 m outs c main_v25 = V1 m c main_v25 := (V14_of m outs c main_v25 (by decide)).trans <| (V13_of m outs c main_v25 (by decide)).trans <| (V12_of m outs c main_v25 (by decide)).trans <| (V11_of m outs c main_v25 (by decide)).trans <| (V10_of m outs c main_v25 (by decide)).trans <| (V9_of m outs c main_v25 (by decide)).trans <| (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide))
theorem V14_main_v26 (c : Dev nD) : V14 m outs c main_v26 = V1 m c main_v26 := (V14_of m outs c main_v26 (by decide)).trans <| (V13_of m outs c main_v26 (by decide)).trans <| (V12_of m outs c main_v26 (by decide)).trans <| (V11_of m outs c main_v26 (by decide)).trans <| (V10_of m outs c main_v26 (by decide)).trans <| (V9_of m outs c main_v26 (by decide)).trans <| (V8_of m outs c main_v26 (by decide)).trans <| (V7_of m outs c main_v26 (by decide)).trans <| (V6_of m outs c main_v26 (by decide)).trans <| (V5_of m outs c main_v26 (by decide)).trans <| (V4_of m outs c main_v26 (by decide)).trans <| (V3_of m outs c main_v26 (by decide)).trans <| (V2_of m outs c main_v26 (by decide))

/-- The region's first input: the aggregate of what matrix product 2 left, over the structural arrays. -/
theorem V15_main_v141 (c : Dev nD) :
    V15 m outs c main_v141
      = kAggSelf (outs 14 main_v124 c) (V1 m c main_v1) (V1 m c main_v3) (V1 m c main_v25) (V1 m c main_v26) := by
  show StableHlo.after hostOps7 (V14 m outs c) (Proc.devRef .tc main_v141) = _
  rw [after7_agg (V14 m outs c)]
  have e : V14 m outs c main_v124 = outs 14 main_v124 c := Function.update_self ..
  rw [e, V14_main_v1, V14_main_v3, V14_main_v25, V14_main_v26]

/-- The region's second input, bias row 2, is what the parameter stretch left there. -/
theorem V15_main_v117 (c : Dev nD) : V15 m outs c main_v117 = V13 m outs c main_v117 := (V15_of m outs c main_v117 (by decide)).trans <| (V14_of m outs c main_v117 (by decide))

end Cert.KernelIdeal.HandVal

end
-- ==== Proof.KI.Host8.lean ====
/-
  The host stretch between bias-and-statistics region 2 and its normalisation region, read as values: the scale and the
  shift, the same functions `kScale` and `kShift` of the two statistics rows and the parameter rows as in the first layer.
-/
import proofs.«113306_j49254684950634_1_alg».proof.Proof.Gen.KernelIdeal.Regions
import proofs.«113306_j49254684950634_1_alg».proof.Proof.KI.Host2

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after8_scale (W : Valuation τ sig (Elt F)) :
    StableHlo.after hostOps8 W (Proc.devRef .tc main_v152)
      = kScale (W (Proc.devRef .tc main_v142_1)) (W (Proc.devRef .tc main_v142_2)) (W (Proc.devRef .tc main_v120)) := by
  after_results_simp
  unfold kScale kVar kMean
  with_reducible rfl

set_option maxHeartbeats 4000000 in
theorem after8_shift (W : Valuation τ sig (Elt F)) :
    StableHlo.after hostOps8 W (Proc.devRef .tc main_v154)
      = kShift (W (Proc.devRef .tc main_v142_1)) (W (Proc.devRef .tc main_v142_2)) (W (Proc.devRef .tc main_v120))
          (W (Proc.devRef .tc main_v123)) := by
  after_results_simp
  unfold kShift kScale kVar kMean
  with_reducible rfl

variable (m : (ℓ : Loc nD τ sig) → Buf (Elt F) ℓ) (outs : Outs (F := F))

/-- What the bias-and-statistics region left, read off the contents after it. -/
theorem V16_main_v142_2 (c : Dev nD) : V16 m outs c main_v142_2 = outs 16 main_v142_2 c := Function.update_self ..

theorem V16_main_v142_1 (c : Dev nD) : V16 m outs c main_v142_1 = outs 16 main_v142_1 c := by
  simp only [V16]
  rw [Function.update_of_ne (StableHlo.devRef_ne_of_ne (by decide : main_v142_1 ≠ main_v142_2)), Function.update_self]

theorem V16_main_v142_0 (c : Dev nD) : V16 m outs c main_v142_0 = outs 16 main_v142_0 c := by
  simp only [V16]
  rw [Function.update_of_ne (StableHlo.devRef_ne_of_ne (by decide : main_v142_0 ≠ main_v142_2)),
    Function.update_of_ne (StableHlo.devRef_ne_of_ne (by decide : main_v142_0 ≠ main_v142_1)), Function.update_self]

/-- A parameter row its stretch computed is still there before this stretch. -/
theorem V16_main_v120 (c : Dev nD) : V16 m outs c main_v120 = V13 m outs c main_v120 := (V16_of m outs c main_v120 (by decide)).trans <| (V15_of m outs c main_v120 (by decide)).trans <| (V14_of m outs c main_v120 (by decide))
theorem V16_main_v123 (c : Dev nD) : V16 m outs c main_v123 = V13 m outs c main_v123 := (V16_of m outs c main_v123 (by decide)).trans <| (V15_of m outs c main_v123 (by decide)).trans <| (V14_of m outs c main_v123 (by decide))

/-- The normalisation region's scale input. -/
theorem V17_main_v152 (c : Dev nD) :
    V17 m outs c main_v152 = kScale (outs 16 main_v142_1 c) (outs 16 main_v142_2 c) (V13 m outs c main_v120) := by
  show StableHlo.after hostOps8 (V16 m outs c) (Proc.devRef .tc main_v152) = _
  rw [after8_scale (V16 m outs c), V16_main_v142_1, V16_main_v142_2, V16_main_v120]

/-- The normalisation region's shift input. -/
theorem V17_main_v154 (c : Dev nD) :
    V17 m outs c main_v154
      = kShift (outs 16 main_v142_1 c) (outs 16 main_v142_2 c) (V13 m outs c main_v120) (V13 m outs c main_v123) := by
  show StableHlo.after hostOps8 (V16 m outs c) (Proc.devRef .tc main_v154) = _
  rw [after8_shift (V16 m outs c), V16_main_v142_1, V16_main_v142_2, V16_main_v120, V16_main_v123]

/-- The normalisation region's first input is what the previous region left: this stretch does not write it. -/
theorem V17_main_v142_0 (c : Dev nD) : V17 m outs c main_v142_0 = outs 16 main_v142_0 c :=
  (V17_of m outs c main_v142_0 (by decide)).trans (V16_main_v142_0 m outs c)

end Cert.KernelIdeal.HandVal

end
-- ==== Proof.KI.Host10.lean ====
/-
  The host stretch between matrix product 3 and its bias-and-statistics region, read as values: the aggregate with the
  self term, the same function `kAggSelf` of the product, the two index vectors and the edge and node coefficients as in
  the first layer.
-/
import proofs.«113306_j49254684950634_1_alg».proof.Proof.Gen.KernelIdeal.Regions
import proofs.«113306_j49254684950634_1_alg».proof.Proof.KI.Host1

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after10_agg (W : Valuation τ sig (Elt F)) :
    StableHlo.after hostOps10 W (Proc.devRef .tc main_v184)
      = kAggSelf (W (Proc.devRef .tc main_v167)) (W (Proc.devRef .tc main_v1)) (W (Proc.devRef .tc main_v3))
          (W (Proc.devRef .tc main_v25)) (W (Proc.devRef .tc main_v26)) := by
  after_results_simp
  unfold kAggSelf kAgg
  with_reducible rfl

variable (m : (ℓ : Loc nD τ sig) → Buf (Elt F) ℓ) (outs : Outs (F := F))

/-- A structural array the first stretch computed is still there before this stretch. -/
theorem V20_main_v1 (c : Dev nD) : V20 m outs c main_v1 = V1 m c main_v1 := (V20_of m outs c main_v1 (by decide)).trans <| (V19_of m outs c main_v1 (by decide)).trans <| (V18_of m outs c main_v1 (by decide)).trans <| (V17_of m outs c main_v1 (by decide)).trans <| (V16_of m outs c main_v1 (by decide)).trans <| (V15_of m outs c main_v1 (by decide)).trans <| (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))
theorem V20_main_v3 (c : Dev nD) : V20 m outs c main_v3 = V1 m c main_v3 := (V20_of m outs c main_v3 (by decide)).trans <| (V19_of m outs c main_v3 (by decide)).trans <| (V18_of m outs c main_v3 (by decide)).trans <| (V17_of m outs c main_v3 (by decide)).trans <| (V16_of m outs c main_v3 (by decide)).trans <| (V15_of m outs c main_v3 (by decide)).trans <| (V14_of m outs c main_v3 (by decide)).trans <| (V13_of m outs c main_v3 (by decide)).trans <| (V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide))
theorem V20_main_v25 (c : Dev nD) : V20 m outs c main_v25 = V1 m c main_v25 := (V20_of m outs c main_v25 (by decide)).trans <| (V19_of m outs c main_v25 (by decide)).trans <| (V18_of m outs c main_v25 (by decide)).trans <| (V17_of m outs c main_v25 (by decide)).trans <| (V16_of m outs c main_v25 (by decide)).trans <| (V15_of m outs c main_v25 (by decide)).trans <| (V14_of m outs c main_v25 (by decide)).trans <| (V13_of m outs c main_v25 (by decide)).trans <| (V12_of m outs c main_v25 (by decide)).trans <| (V11_of m outs c main_v25 (by decide)).trans <| (V10_of m outs c main_v25 (by decide)).trans <| (V9_of m outs c main_v25 (by decide)).trans <| (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide))
theorem V20_main_v26 (c : Dev nD) : V20 m outs c main_v26 = V1 m c main_v26 := (V20_of m outs c main_v26 (by decide)).trans <| (V19_of m outs c main_v26 (by decide)).trans <| (V18_of m outs c main_v26 (by decide)).trans <| (V17_of m outs c main_v26 (by decide)).trans <| (V16_of m outs c main_v26 (by decide)).trans <| (V15_of m outs c main_v26 (by decide)).trans <| (V14_of m outs c main_v26 (by decide)).trans <| (V13_of m outs c main_v26 (by decide)).trans <| (V12_of m outs c main_v26 (by decide)).trans <| (V11_of m outs c main_v26 (by decide)).trans <| (V10_of m outs c main_v26 (by decide)).trans <| (V9_of m outs c main_v26 (by decide)).trans <| (V8_of m outs c main_v26 (by decide)).trans <| (V7_of m outs c main_v26 (by decide)).trans <| (V6_of m outs c main_v26 (by decide)).trans <| (V5_of m outs c main_v26 (by decide)).trans <| (V4_of m outs c main_v26 (by decide)).trans <| (V3_of m outs c main_v26 (by decide)).trans <| (V2_of m outs c main_v26 (by decide))

/-- The region's first input: the aggregate of what matrix product 3 left, over the structural arrays. -/
theorem V21_main_v184 (c : Dev nD) :
    V21 m outs c main_v184
      = kAggSelf (outs 20 main_v167 c) (V1 m c main_v1) (V1 m c main_v3) (V1 m c main_v25) (V1 m c main_v26) := by
  show StableHlo.after hostOps10 (V20 m outs c) (Proc.devRef .tc main_v184) = _
  rw [after10_agg (V20 m outs c)]
  have e : V20 m outs c main_v167 = outs 20 main_v167 c := Function.update_self ..
  rw [e, V20_main_v1, V20_main_v3, V20_main_v25, V20_main_v26]

/-- The region's second input, bias row 3, is what the parameter stretch left there. -/
theorem V21_main_v160 (c : Dev nD) : V21 m outs c main_v160 = V19 m outs c main_v160 := (V21_of m outs c main_v160 (by decide)).trans <| (V20_of m outs c main_v160 (by decide))

end Cert.KernelIdeal.HandVal

end
-- ==== Proof.KI.Host11.lean ====
/-
  The host stretch between bias-and-statistics region 3 and its normalisation region, read as values: the scale and the
  shift, the same functions `kScale` and `kShift` of the two statistics rows and the parameter rows as in the first layer.
-/
import proofs.«113306_j49254684950634_1_alg».proof.Proof.Gen.KernelIdeal.Regions
import proofs.«113306_j49254684950634_1_alg».proof.Proof.KI.Host2

set_option maxRecDepth 1900

noncomputable section

namespace Cert.KernelIdeal.HandVal

open Idealize.ShloMosaic Idealize.ShloMosaic.TcCoe
open Cert.KernelIdeal Cert.KernelIdeal.Gen

variable {F : FTy → Type} [FloatOps F]

set_option maxHeartbeats 4000000 in
theorem after11_scale (W : Valuation τ sig (Elt F)) :
    StableHlo.after hostOps11 W (Proc.devRef .tc main_v195)
      = kScale (W (Proc.devRef .tc main_v185_1)) (W (Proc.devRef .tc main_v185_2)) (W (Proc.devRef .tc main_v163)) := by
  after_results_simp
  unfold kScale kVar kMean
  with_reducible rfl

set_option maxHeartbeats 4000000 in
theorem after11_shift (W : Valuation τ sig (Elt F)) :
    StableHlo.after hostOps11 W (Proc.devRef .tc main_v197)
      = kShift (W (Proc.devRef .tc main_v185_1)) (W (Proc.devRef .tc main_v185_2)) (W (Proc.devRef .tc main_v163))
          (W (Proc.devRef .tc main_v166)) := by
  after_results_simp
  unfold kShift kScale kVar kMean
  with_reducible rfl

variable (m : (ℓ : Loc nD τ sig) → Buf (Elt F) ℓ) (outs : Outs (F := F))

/-- What the bias-and-statistics region left, read off the contents after it. -/
theorem V22_main_v185_2 (c : Dev nD) : V22 m outs c main_v185_2 = outs 22 main_v185_2 c := Function.update_self ..

theorem V22_main_v185_1 (c : Dev nD) : V22 m outs c main_v185_1 = outs 22 main_v185_1 c := by
  simp only [V22]
  rw [Function.update_of_ne (StableHlo.devRef_ne_of_ne (by decide : main_v185_1 ≠ main_v185_2)), Function.update_self]

theorem V22_main_v185_0 (c : Dev nD) : V22 m outs c main_v185_0 = outs 22 main_v185_0 c := by
  simp only [V22]
  rw [Function.update_of_ne (StableHlo.devRef_ne_of_ne (by decide : main_v185_0 ≠ main_v185_2)),
    Function.update_of_ne (StableHlo.devRef_ne_of_ne (by decide : main_v185_0 ≠ main_v185_1)), Function.update_self]

/-- A parameter row its stretch computed is still there before this stretch. -/
theorem V22_main_v163 (c : Dev nD) : V22 m outs c main_v163 = V19 m outs c main_v163 := (V22_of m outs c main_v163 (by decide)).trans <| (V21_of m outs c main_v163 (by decide)).trans <| (V20_of m outs c main_v163 (by decide))
theorem V22_main_v166 (c : Dev nD) : V22 m outs c main_v166 = V19 m outs c main_v166 := (V22_of m outs c main_v166 (by decide)).trans <| (V21_of m outs c main_v166 (by decide)).trans <| (V20_of m outs c main_v166 (by decide))

/-- The normalisation region's scale input. -/
theorem V23_main_v195 (c : Dev nD) :
    V23 m outs c main_v195 = kScale (outs 22 main_v185_1 c) (outs 22 main_v185_2 c) (V19 m outs c main_v163) := by
  show StableHlo.after hostOps11 (V22 m outs c) (Proc.devRef .tc main_v195) = _
  rw [after11_scale (V22 m outs c), V22_main_v185_1, V22_main_v185_2, V22_main_v163]

/-- The normalisation region's shift input. -/
theorem V23_main_v197 (c : Dev nD) :
    V23 m outs c main_v197
      = kShift (outs 22 main_v185_1 c) (outs 22 main_v185_2 c) (V19 m outs c main_v163) (V19 m outs c main_v166) := by
  show StableHlo.after hostOps11 (V22 m outs c) (Proc.devRef .tc main_v197) = _
  rw [after11_shift (V22 m outs c), V22_main_v185_1, V22_main_v185_2, V22_main_v163, V22_main_v166]

/-- The normalisation region's first input is what the previous region left: this stretch does not write it. -/
theorem V23_main_v185_0 (c : Dev nD) : V23 m outs c main_v185_0 = outs 22 main_v185_0 c :=
  (V23_of m outs c main_v185_0 (by decide)).trans (V22_main_v185_0 m outs c)

end Cert.KernelIdeal.HandVal

end
-- ==== Proof.KI.Result.lean ====
import proofs.«113306_j49254684950634_1_alg».proof.Proof.KI.Witness
import proofs.«113306_j49254684950634_1_alg».proof.Proof.KI.KOut
import proofs.«113306_j49254684950634_1_alg».proof.Proof.KI.Val0
import proofs.«113306_j49254684950634_1_alg».proof.Proof.KI.Val1
import proofs.«113306_j49254684950634_1_alg».proof.Proof.KI.Val2
import proofs.«113306_j49254684950634_1_alg».proof.Proof.KI.Val3
import proofs.«113306_j49254684950634_1_alg».proof.Proof.KI.Val4
import proofs.«113306_j49254684950634_1_alg».proof.Proof.KI.Val5
import proofs.«113306_j49254684950634_1_alg».proof.Proof.KI.Val6
import proofs.«113306_j49254684950634_1_alg».proof.Proof.KI.Val7
import proofs.«113306_j49254684950634_1_alg».proof.Proof.KI.Val8
import proofs.«113306_j49254684950634_1_alg».proof.Proof.KI.Val9
import proofs.«113306_j49254684950634_1_alg».proof.Proof.KI.Val10
import proofs.«113306_j49254684950634_1_alg».proof.Proof.KI.Val11
import proofs.«113306_j49254684950634_1_alg».proof.Proof.KI.Val12
import proofs.«113306_j49254684950634_1_alg».proof.Proof.KI.Host0
import proofs.«113306_j49254684950634_1_alg».proof.Proof.KI.Host1
import proofs.«113306_j49254684950634_1_alg».proof.Proof.KI.Host2
import proofs.«113306_j49254684950634_1_alg».proof.Proof.KI.Host3
import proofs.«113306_j49254684950634_1_alg».proof.Proof.KI.Host4
import proofs.«113306_j49254684950634_1_alg».proof.Proof.KI.Host5
import proofs.«113306_j49254684950634_1_alg».proof.Proof.KI.Host6
import proofs.«113306_j49254684950634_1_alg».proof.Proof.KI.Host7
import proofs.«113306_j49254684950634_1_alg».proof.Proof.KI.Host8
import proofs.«113306_j49254684950634_1_alg».proof.Proof.KI.Host9
import proofs.«113306_j49254684950634_1_alg».proof.Proof.KI.Host10
import proofs.«113306_j49254684950634_1_alg».proof.Proof.KI.Host11
import proofs.«113306_j49254684950634_1_alg».proof.Proof.KI.Host12

noncomputable section

namespace Cert.KernelIdeal.HandVal

open Idealize.ShloMosaic Idealize.ShloMosaic.TcCoe
open Cert.KernelIdeal Cert.KernelIdeal.Gen Cert.KernelIdeal.Hand

variable (m : (ℓ : Loc nD τ sig) → Buf (Elt Ideal) ℓ)

/-! ## Layer 0 -/

/-- The feature product of layer 0. -/
theorem hw0 (c : Dev nD) : outsStar m 2 main_v38 c = G0_2 (V0 m c main_arg0) (kW0 (V0 m c main_arg3)) :=
  ((good0 m c 2).symm.trans (final0_2 (Vr (V1 m)) c)).trans (congrArg₂ G0_2 (V1_main_arg0 m c) (V1_main_v28 m c))

/-- Layer 0's aggregate with the bias, and its column sums and sums of squares. -/
theorem conv0 (c : Dev nD) : outsStar m 4 main_v56_0 c = G1_2 (kAggSelf (outsStar m 2 main_v38 c) (V1 m c main_v1) (V1 m c main_v3) (V1 m c main_v25) (V1 m c main_v26)) (kRow0 (V0 m c main_arg4)) :=
  ((good1 m c 2).symm.trans (final1_2 (Vr (V3 m (outsStar m))) c)).trans (congrArg₂ G1_2 (V3_main_v55 m (outsStar m) c) ((V3_main_v31 m (outsStar m) c).trans (V1_main_v31 m c)))
theorem sum0 (c : Dev nD) : outsStar m 4 main_v56_1 c = G1_3 (kAggSelf (outsStar m 2 main_v38 c) (V1 m c main_v1) (V1 m c main_v3) (V1 m c main_v25) (V1 m c main_v26)) (kRow0 (V0 m c main_arg4)) :=
  ((good1 m c 3).symm.trans (final1_3 (Vr (V3 m (outsStar m))) c)).trans (congrArg₂ G1_3 (V3_main_v55 m (outsStar m) c) ((V3_main_v31 m (outsStar m) c).trans (V1_main_v31 m c)))
theorem sumsq0 (c : Dev nD) : outsStar m 4 main_v56_2 c = G1_4 (kAggSelf (outsStar m 2 main_v38 c) (V1 m c main_v1) (V1 m c main_v3) (V1 m c main_v25) (V1 m c main_v26)) (kRow0 (V0 m c main_arg4)) :=
  ((good1 m c 4).symm.trans (final1_4 (Vr (V3 m (outsStar m))) c)).trans (congrArg₂ G1_4 (V3_main_v55 m (outsStar m) c) ((V3_main_v31 m (outsStar m) c).trans (V1_main_v31 m c)))

/-- Layer 0's output: the rectified affine map of the aggregate by the scale and shift computed from its sums. -/
theorem out0 (c : Dev nD) : outsStar m 6 main_v69 c = kLayer (V0 m c main_arg0) (kW0 (V0 m c main_arg3)) (kRow0 (V0 m c main_arg4)) (kRow0 (V0 m c main_arg5)) (kRow0 (V0 m c main_arg6)) (V1 m c main_v1) (V1 m c main_v3) (V1 m c main_v25) (V1 m c main_v26) := by
  refine ((good2 m c 3).symm.trans (final2_3 (Vr (V5 m (outsStar m))) c)).trans ?_
  have e0 := V5_main_v56_0 m (outsStar m) c
  have e1 := V5_main_v66 m (outsStar m) c
  have e2 := V5_main_v68 m (outsStar m) c
  rw [(V1_main_v34 m c)] at e1 e2
  rw [(V1_main_v37 m c)] at e2
  rw [sum0 m c, sumsq0 m c] at e1 e2
  rw [conv0 m c] at e0
  rw [hw0 m c] at e0 e1 e2
  exact (congr (congr (congrArg G2_3 e0) e1) e2).trans rfl

/-! ## Layer 1 -/

/-- The feature product of layer 1. -/
theorem hw1 (c : Dev nD) : outsStar m 8 main_v81 c = G3_2 (outsStar m 6 main_v69 c) (kW1 (V0 m c main_arg3)) :=
  ((good3 m c 2).symm.trans (final3_2 (Vr (V7 m (outsStar m))) c)).trans (congrArg₂ G3_2 (V7_main_v69 m (outsStar m) c) (V7_main_v71 m (outsStar m) c))

/-- Layer 1's aggregate with the bias, and its column sums and sums of squares. -/
theorem conv1 (c : Dev nD) : outsStar m 10 main_v99_0 c = G4_2 (kAggSelf (outsStar m 8 main_v81 c) (V1 m c main_v1) (V1 m c main_v3) (V1 m c main_v25) (V1 m c main_v26)) (kRow1 (V0 m c main_arg4)) :=
  ((good4 m c 2).symm.trans (final4_2 (Vr (V9 m (outsStar m))) c)).trans (congrArg₂ G4_2 (V9_main_v98 m (outsStar m) c) ((V9_main_v74 m (outsStar m) c).trans (V7_main_v74 m (outsStar m) c)))
theorem sum1 (c : Dev nD) : outsStar m 10 main_v99_1 c = G4_3 (kAggSelf (outsStar m 8 main_v81 c) (V1 m c main_v1) (V1 m c main_v3) (V1 m c main_v25) (V1 m c main_v26)) (kRow1 (V0 m c main_arg4)) :=
  ((good4 m c 3).symm.trans (final4_3 (Vr (V9 m (outsStar m))) c)).trans (congrArg₂ G4_3 (V9_main_v98 m (outsStar m) c) ((V9_main_v74 m (outsStar m) c).trans (V7_main_v74 m (outsStar m) c)))
theorem sumsq1 (c : Dev nD) : outsStar m 10 main_v99_2 c = G4_4 (kAggSelf (outsStar m 8 main_v81 c) (V1 m c main_v1) (V1 m c main_v3) (V1 m c main_v25) (V1 m c main_v26)) (kRow1 (V0 m c main_arg4)) :=
  ((good4 m c 4).symm.trans (final4_4 (Vr (V9 m (outsStar m))) c)).trans (congrArg₂ G4_4 (V9_main_v98 m (outsStar m) c) ((V9_main_v74 m (outsStar m) c).trans (V7_main_v74 m (outsStar m) c)))

/-- Layer 1's output: the rectified affine map of the aggregate by the scale and shift computed from its sums. -/
theorem out1 (c : Dev nD) : outsStar m 12 main_v112 c = kLayer (outsStar m 6 main_v69 c) (kW1 (V0 m c main_arg3)) (kRow1 (V0 m c main_arg4)) (kRow1 (V0 m c main_arg5)) (kRow1 (V0 m c main_arg6)) (V1 m c main_v1) (V1 m c main_v3) (V1 m c main_v25) (V1 m c main_v26) := by
  refine ((good5 m c 3).symm.trans (final5_3 (Vr (V11 m (outsStar m))) c)).trans ?_
  have e0 := V11_main_v99_0 m (outsStar m) c
  have e1 := V11_main_v109 m (outsStar m) c
  have e2 := V11_main_v111 m (outsStar m) c
  rw [(V7_main_v77 m (outsStar m) c)] at e1 e2
  rw [(V7_main_v80 m (outsStar m) c)] at e2
  rw [sum1 m c, sumsq1 m c] at e1 e2
  rw [conv1 m c] at e0
  rw [hw1 m c] at e0 e1 e2
  exact (congr (congr (congrArg G5_3 e0) e1) e2).trans rfl

/-! ## Layer 2 -/

/-- The feature product of layer 2. -/
theorem hw2 (c : Dev nD) : outsStar m 14 main_v124 c = G6_2 (outsStar m 12 main_v112 c) (kW2 (V0 m c main_arg3)) :=
  ((good6 m c 2).symm.trans (final6_2 (Vr (V13 m (outsStar m))) c)).trans (congrArg₂ G6_2 (V13_main_v112 m (outsStar m) c) (V13_main_v114 m (outsStar m) c))

/-- Layer 2's aggregate with the bias, and its column sums and sums of squares. -/
theorem conv2 (c : Dev nD) : outsStar m 16 main_v142_0 c = G7_2 (kAggSelf (outsStar m 14 main_v124 c) (V1 m c main_v1) (V1 m c main_v3) (V1 m c main_v25) (V1 m c main_v26)) (kRow2 (V0 m c main_arg4)) :=
  ((good7 m c 2).symm.trans (final7_2 (Vr (V15 m (outsStar m))) c)).trans (congrArg₂ G7_2 (V15_main_v141 m (outsStar m) c) ((V15_main_v117 m (outsStar m) c).trans (V13_main_v117 m (outsStar m) c)))
theorem sum2 (c : Dev nD) : outsStar m 16 main_v142_1 c = G7_3 (kAggSelf (outsStar m 14 main_v124 c) (V1 m c main_v1) (V1 m c main_v3) (V1 m c main_v25) (V1 m c main_v26)) (kRow2 (V0 m c main_arg4)) :=
  ((good7 m c 3).symm.trans (final7_3 (Vr (V15 m (outsStar m))) c)).trans (congrArg₂ G7_3 (V15_main_v141 m (outsStar m) c) ((V15_main_v117 m (outsStar m) c).trans (V13_main_v117 m (outsStar m) c)))
theorem sumsq2 (c : Dev nD) : outsStar m 16 main_v142_2 c = G7_4 (kAggSelf (outsStar m 14 main_v124 c) (V1 m c main_v1) (V1 m c main_v3) (V1 m c main_v25) (V1 m c main_v26)) (kRow2 (V0 m c main_arg4)) :=
  ((good7 m c 4).symm.trans (final7_4 (Vr (V15 m (outsStar m))) c)).trans (congrArg₂ G7_4 (V15_main_v141 m (outsStar m) c) ((V15_main_v117 m (outsStar m) c).trans (V13_main_v117 m (outsStar m) c)))

/-- Layer 2's output: the rectified affine map of the aggregate by the scale and shift computed from its sums. -/
theorem out2 (c : Dev nD) : outsStar m 18 main_v155 c = kLayer (outsStar m 12 main_v112 c) (kW2 (V0 m c main_arg3)) (kRow2 (V0 m c main_arg4)) (kRow2 (V0 m c main_arg5)) (kRow2 (V0 m c main_arg6)) (V1 m c main_v1) (V1 m c main_v3) (V1 m c main_v25) (V1 m c main_v26) := by
  refine ((good8 m c 3).symm.trans (final8_3 (Vr (V17 m (outsStar m))) c)).trans ?_
  have e0 := V17_main_v142_0 m (outsStar m) c
  have e1 := V17_main_v152 m (outsStar m) c
  have e2 := V17_main_v154 m (outsStar m) c
  rw [(V13_main_v120 m (outsStar m) c)] at e1 e2
  rw [(V13_main_v123 m (outsStar m) c)] at e2
  rw [sum2 m c, sumsq2 m c] at e1 e2
  rw [conv2 m c] at e0
  rw [hw2 m c] at e0 e1 e2
  exact (congr (congr (congrArg G8_3 e0) e1) e2).trans rfl

/-! ## Layer 3 -/

/-- The feature product of layer 3. -/
theorem hw3 (c : Dev nD) : outsStar m 20 main_v167 c = G9_2 (outsStar m 18 main_v155 c) (kW3 (V0 m c main_arg3)) :=
  ((good9 m c 2).symm.trans (final9_2 (Vr (V19 m (outsStar m))) c)).trans (congrArg₂ G9_2 (V19_main_v155 m (outsStar m) c) (V19_main_v157 m (outsStar m) c))

/-- Layer 3's aggregate with the bias, and its column sums and sums of squares. -/
theorem conv3 (c : Dev nD) : outsStar m 22 main_v185_0 c = G10_2 (kAggSelf (outsStar m 20 main_v167 c) (V1 m c main_v1) (V1 m c main_v3) (V1 m c main_v25) (V1 m c main_v26)) (kRow3 (V0 m c main_arg4)) :=
  ((good10 m c 2).symm.trans (final10_2 (Vr (V21 m (outsStar m))) c)).trans (congrArg₂ G10_2 (V21_main_v184 m (outsStar m) c) ((V21_main_v160 m (outsStar m) c).trans (V19_main_v160 m (outsStar m) c)))
theorem sum3 (c : Dev nD) : outsStar m 22 main_v185_1 c = G10_3 (kAggSelf (outsStar m 20 main_v167 c) (V1 m c main_v1) (V1 m c main_v3) (V1 m c main_v25) (V1 m c main_v26)) (kRow3 (V0 m c main_arg4)) :=
  ((good10 m c 3).symm.trans (final10_3 (Vr (V21 m (outsStar m))) c)).trans (congrArg₂ G10_3 (V21_main_v184 m (outsStar m) c) ((V21_main_v160 m (outsStar m) c).trans (V19_main_v160 m (outsStar m) c)))
theorem sumsq3 (c : Dev nD) : outsStar m 22 main_v185_2 c = G10_4 (kAggSelf (outsStar m 20 main_v167 c) (V1 m c main_v1) (V1 m c main_v3) (V1 m c main_v25) (V1 m c main_v26)) (kRow3 (V0 m c main_arg4)) :=
  ((good10 m c 4).symm.trans (final10_4 (Vr (V21 m (outsStar m))) c)).trans (congrArg₂ G10_4 (V21_main_v184 m (outsStar m) c) ((V21_main_v160 m (outsStar m) c).trans (V19_main_v160 m (outsStar m) c)))

/-- Layer 3's output: the rectified affine map of the aggregate by the scale and shift computed from its sums. -/
theorem out3 (c : Dev nD) : outsStar m 24 main_v198 c = kLayer (outsStar m 18 main_v155 c) (kW3 (V0 m c main_arg3)) (kRow3 (V0 m c main_arg4)) (kRow3 (V0 m c main_arg5)) (kRow3 (V0 m c main_arg6)) (V1 m c main_v1) (V1 m c main_v3) (V1 m c main_v25) (V1 m c main_v26) := by
  refine ((good11 m c 3).symm.trans (final11_3 (Vr (V23 m (outsStar m))) c)).trans ?_
  have e0 := V23_main_v185_0 m (outsStar m) c
  have e1 := V23_main_v195 m (outsStar m) c
  have e2 := V23_main_v197 m (outsStar m) c
  rw [(V19_main_v163 m (outsStar m) c)] at e1 e2
  rw [(V19_main_v166 m (outsStar m) c)] at e2
  rw [sum3 m c, sumsq3 m c] at e1 e2
  rw [conv3 m c] at e0
  rw [hw3 m c] at e0 e1 e2
  exact (congr (congr (congrArg G11_3 e0) e1) e2).trans rfl

/-! ## The head -/

/-- The result buffer after the run is `kOut` of the launch contents of the arguments. -/
theorem result (c : Dev nD) : outsStar m 26 main_v205 c =
    kOut (V0 m c main_arg0) (V0 m c main_arg1) (V0 m c main_arg2) (V0 m c main_arg3) (V0 m c main_arg4) (V0 m c main_arg5) (V0 m c main_arg6)
      (V0 m c main_arg7) (V0 m c main_arg8) (V0 m c main_arg9) (V0 m c main_arg10) (V0 m c main_arg11) (V0 m c main_arg12) := by
  refine ((good12 m c 7).symm.trans (final12_7 (Vr (V25 m (outsStar m))) c)).trans ?_
  have p := V25_main_v201 m (outsStar m) c
  rw [out3 m c, out2 m c, out1 m c, out0 m c, V1_main_v1 m c, V1_main_v3 m c, V1_main_v25 m c, V1_main_v26 m c] at p
  exact (congr (congr (congr (congr (congr (congr (congrArg G12_7 p) (V25_main_arg7 m (outsStar m) c)) (V25_main_v202 m (outsStar m) c)) (V25_main_arg9 m (outsStar m) c))
    (V25_main_v203 m (outsStar m) c)) (V25_main_arg11 m (outsStar m) c)) (V25_main_v204 m (outsStar m) c)).trans rfl

end Cert.KernelIdeal.HandVal

end
-- ==== Proof.Ref.Stages.lean ====
import proofs.«113306_j49254684950634_1_alg».proof.ReferenceIdeal

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! Each function below is the composition of the host operations that compute one named value of the
    reference from the named values (or arguments) it reads, operation by operation in program order. -/

def f_src (p0 : (⟨S2x800000, .i32⟩ : BufTy).Contents (Elt F)) : (⟨S800000, .i32⟩ : BufTy).Contents (Elt F) :=
  ((fun x => shapeCast S800000 x shapeCasts_S1x800000_S800000) : (⟨S1x800000, .i32⟩ : BufTy).Contents (Elt F) → (⟨S800000, .i32⟩ : BufTy).Contents (Elt F)) (((extractStridedSlice S1x800000 ![0, 0] · slices_S2x800000_S1x800000_0_0) : (⟨S2x800000, .i32⟩ : BufTy).Contents (Elt F) → (⟨S1x800000, .i32⟩ : BufTy).Contents (Elt F)) p0)

def f_dst (p0 : (⟨S2x800000, .i32⟩ : BufTy).Contents (Elt F)) : (⟨S800000, .i32⟩ : BufTy).Contents (Elt F) :=
  ((fun x => shapeCast S800000 x shapeCasts_S1x800000_S800000) : (⟨S1x800000, .i32⟩ : BufTy).Contents (Elt F) → (⟨S800000, .i32⟩ : BufTy).Contents (Elt F)) (((extractStridedSlice S1x800000 ![1, 0] · slices_S2x800000_S1x800000_1_0) : (⟨S2x800000, .i32⟩ : BufTy).Contents (Elt F) → (⟨S1x800000, .i32⟩ : BufTy).Contents (Elt F)) p0)

def f_W0 (p0 : (⟨S4x64x64, .f32⟩ : BufTy).Contents (Elt F)) : (⟨S64x64, .f32⟩ : BufTy).Contents (Elt F) :=
  ((fun x => shapeCast S64x64 x shapeCasts_S1x64x64_S64x64) : (⟨S1x64x64, .f32⟩ : BufTy).Contents (Elt F) → (⟨S64x64, .f32⟩ : BufTy).Contents (Elt F)) (((extractStridedSlice S1x64x64 ![0, 0, 0] · slices_S4x64x64_S1x64x64_0_0_0) : (⟨S4x64x64, .f32⟩ : BufTy).Contents (Elt F) → (⟨S1x64x64, .f32⟩ : BufTy).Contents (Elt F)) p0)

def f_row0 (p0 : (⟨S4x64, .f32⟩ : BufTy).Contents (Elt F)) : (⟨S64, .f32⟩ : BufTy).Contents (Elt F) :=
  ((fun x => shapeCast S64 x shapeCasts_S1x64_S64) : (⟨S1x64, .f32⟩ : BufTy).Contents (Elt F) → (⟨S64, .f32⟩ : BufTy).Contents (Elt F)) (((extractStridedSlice S1x64 ![0, 0] · slices_S4x64_S1x64_0_0) : (⟨S4x64, .f32⟩ : BufTy).Contents (Elt F) → (⟨S1x64, .f32⟩ : BufTy).Contents (Elt F)) p0)

def f_dinv (p0 : (⟨S800000, .i32⟩ : BufTy).Contents (Elt F)) : (⟨S50000, .f32⟩ : BufTy).Contents (Elt F) :=
  (Host.rsqrt : (⟨S50000, .f32⟩ : BufTy).Contents (Elt F) → (⟨S50000, .f32⟩ : BufTy).Contents (Elt F)) ((addf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) p0) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F)))) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))))

def f_hw (p0 : (⟨S50000x64, .f32⟩ : BufTy).Contents (Elt F)) (p1 : (⟨S64x64, .f32⟩ : BufTy).Contents (Elt F)) : (⟨S50000x64, .f32⟩ : BufTy).Contents (Elt F) :=
  ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) p0 p1

def f_norm (p0 : (⟨S50000, .f32⟩ : BufTy).Contents (Elt F)) (p1 : (⟨S800000, .i32⟩ : BufTy).Contents (Elt F)) (p2 : (⟨S800000, .i32⟩ : BufTy).Contents (Elt F)) : (⟨S800000, .f32⟩ : BufTy).Contents (Elt F) :=
  (mulf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) p0 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) p1 ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) p1 ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) p1))) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) p0 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) p2 ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) p2 ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) p2)))

def f_agg (p0 : (⟨S800000, .i32⟩ : BufTy).Contents (Elt F)) (p1 : (⟨S50000x64, .f32⟩ : BufTy).Contents (Elt F)) (p2 : (⟨S800000, .i32⟩ : BufTy).Contents (Elt F)) (p3 : (⟨S800000, .f32⟩ : BufTy).Contents (Elt F)) : (⟨S50000x64, .f32⟩ : BufTy).Contents (Elt F) :=
  ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) p0) ((mulf : (⟨S800000x64, .f32⟩ : BufTy).Contents (Elt F) → (⟨S800000x64, .f32⟩ : BufTy).Contents (Elt F) → (⟨S800000x64, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) p1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) p2 ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) p2 ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) p2))) ((broadcastInDim S800000x64 ![0, 1] bcast_S800000x1_S800000x64_0_1 : (⟨S800000x1, .f32⟩ : BufTy).Contents (Elt F) → (⟨S800000x64, .f32⟩ : BufTy).Contents (Elt F)) ((broadcastInDim S800000x1 ![0] bcast_S800000_S800000x1_0 : (⟨S800000, .f32⟩ : BufTy).Contents (Elt F) → (⟨S800000x1, .f32⟩ : BufTy).Contents (Elt F)) p3)))

def f_aux_v48 (p0 : (⟨S50000x64, .f32⟩ : BufTy).Contents (Elt F)) (p1 : (⟨S50000x64, .f32⟩ : BufTy).Contents (Elt F)) (p2 : (⟨S50000, .f32⟩ : BufTy).Contents (Elt F)) : (⟨S50000x64, .f32⟩ : BufTy).Contents (Elt F) :=
  (addf : (⟨S50000x64, .f32⟩ : BufTy).Contents (Elt F) → (⟨S50000x64, .f32⟩ : BufTy).Contents (Elt F) → (⟨S50000x64, .f32⟩ : BufTy).Contents (Elt F)) p0 ((mulf : (⟨S50000x64, .f32⟩ : BufTy).Contents (Elt F) → (⟨S50000x64, .f32⟩ : BufTy).Contents (Elt F) → (⟨S50000x64, .f32⟩ : BufTy).Contents (Elt F)) p1 ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((mulf : (⟨S50000, .f32⟩ : BufTy).Contents (Elt F) → (⟨S50000, .f32⟩ : BufTy).Contents (Elt F) → (⟨S50000, .f32⟩ : BufTy).Contents (Elt F)) p2 p2))))

def f_aux_v49 (p0 : (⟨S64, .f32⟩ : BufTy).Contents (Elt F)) : (⟨S1x64, .f32⟩ : BufTy).Contents (Elt F) :=
  (broadcastInDim S1x64 ![1] bcast_S64_S1x64_1 : (⟨S64, .f32⟩ : BufTy).Contents (Elt F) → (⟨S1x64, .f32⟩ : BufTy).Contents (Elt F)) p0

def f_conv0 (p0 : (⟨S50000x64, .f32⟩ : BufTy).Contents (Elt F)) (p1 : (⟨S1x64, .f32⟩ : BufTy).Contents (Elt F)) : (⟨S50000x64, .f32⟩ : BufTy).Contents (Elt F) :=
  (addf : (⟨S50000x64, .f32⟩ : BufTy).Contents (Elt F) → (⟨S50000x64, .f32⟩ : BufTy).Contents (Elt F) → (⟨S50000x64, .f32⟩ : BufTy).Contents (Elt F)) p0 ((broadcastInDim S50000x64 ![0, 1] bcast_S1x64_S50000x64_0_1 : (⟨S1x64, .f32⟩ : BufTy).Contents (Elt F) → (⟨S50000x64, .f32⟩ : BufTy).Contents (Elt F)) p1)

def f_mean (p0 : (⟨S50000x64, .f32⟩ : BufTy).Contents (Elt F)) : (⟨S64, .f32⟩ : BufTy).Contents (Elt F) :=
  (Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) p0 (constant S_ .f32 0x00000000#32 : (⟨S_, .f32⟩ : BufTy).Contents (Elt F))) ((broadcastInDim S64 ![] bcast_S_S64 : (⟨S_, .f32⟩ : BufTy).Contents (Elt F) → (⟨S64, .f32⟩ : BufTy).Contents (Elt F)) (constant S_ .f32 0x47435000#32 : (⟨S_, .f32⟩ : BufTy).Contents (Elt F)))

def f_var (p0 : (⟨S50000x64, .f32⟩ : BufTy).Contents (Elt F)) : (⟨S64, .f32⟩ : BufTy).Contents (Elt F) :=
  ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) p0 (((broadcastInDim S50000x64 ![0, 1] bcast_S1x64_S50000x64_0_1) : (⟨S1x64, .f32⟩ : BufTy).Contents (Elt F) → (⟨S50000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) p0 (constant S_ .f32 0x00000000#32 : (⟨S_, .f32⟩ : BufTy).Contents (Elt F)))) (((broadcastInDim S1x64 ![] bcast_S_S1x64) : (⟨S_, .f32⟩ : BufTy).Contents (Elt F) → (⟨S1x64, .f32⟩ : BufTy).Contents (Elt F)) (constant S_ .f32 0x47435000#32 : (⟨S_, .f32⟩ : BufTy).Contents (Elt F)))))) ((subf : (⟨S50000x64, .f32⟩ : BufTy).Contents (Elt F) → (⟨S50000x64, .f32⟩ : BufTy).Contents (Elt F) → (⟨S50000x64, .f32⟩ : BufTy).Contents (Elt F)) p0 (((broadcastInDim S50000x64 ![0, 1] bcast_S1x64_S50000x64_0_1) : (⟨S1x64, .f32⟩ : BufTy).Contents (Elt F) → (⟨S50000x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) (((broadcastInDim S1x64 ![1] bcast_S64_S1x64_1) : (⟨S64, .f32⟩ : BufTy).Contents (Elt F) → (⟨S1x64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) p0 (constant S_ .f32 0x00000000#32 : (⟨S_, .f32⟩ : BufTy).Contents (Elt F)))) (((broadcastInDim S1x64 ![] bcast_S_S1x64) : (⟨S_, .f32⟩ : BufTy).Contents (Elt F) → (⟨S1x64, .f32⟩ : BufTy).Contents (Elt F)) (constant S_ .f32 0x47435000#32 : (⟨S_, .f32⟩ : BufTy).Contents (Elt F))))))) (constant S_ .f32 0x00000000#32 : (⟨S_, .f32⟩ : BufTy).Contents (Elt F))) (((broadcastInDim S64 ![] bcast_S_S64) : (⟨S_, .f32⟩ : BufTy).Contents (Elt F) → (⟨S64, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32 : (⟨S_, .f32⟩ : BufTy).Contents (Elt F)) (((sitofp .f32) : (⟨S_, .i32⟩ : BufTy).Contents (Elt F) → (⟨S_, .f32⟩ : BufTy).Contents (Elt F)) (constantI S_ 32 0#32 : (⟨S_, .i32⟩ : BufTy).Contents (Elt F)))))) (((broadcastInDim S64 ![] bcast_S_S64) : (⟨S_, .f32⟩ : BufTy).Contents (Elt F) → (⟨S64, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))

def f_bn (p0 : (⟨S50000x64, .f32⟩ : BufTy).Contents (Elt F)) (p1 : (⟨S64, .f32⟩ : BufTy).Contents (Elt F)) (p2 : (⟨S64, .f32⟩ : BufTy).Contents (Elt F)) (p3 : (⟨S64, .f32⟩ : BufTy).Contents (Elt F)) (p4 : (⟨S64, .f32⟩ : BufTy).Contents (Elt F)) : (⟨S50000x64, .f32⟩ : BufTy).Contents (Elt F) :=
  (addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) p0 ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) p1))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) p2 ((broadcastInDim S64 ![] bcast_S_S64 : (⟨S_, .f32⟩ : BufTy).Contents (Elt F) → (⟨S64, .f32⟩ : BufTy).Contents (Elt F)) (constant S_ .f32 0x3727C5AC#32 : (⟨S_, .f32⟩ : BufTy).Contents (Elt F)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) p3))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) p4))

def f_relu (p0 : (⟨S50000x64, .f32⟩ : BufTy).Contents (Elt F)) : (⟨S50000x64, .f32⟩ : BufTy).Contents (Elt F) :=
  (maximumf : (⟨S50000x64, .f32⟩ : BufTy).Contents (Elt F) → (⟨S50000x64, .f32⟩ : BufTy).Contents (Elt F) → (⟨S50000x64, .f32⟩ : BufTy).Contents (Elt F)) p0 (((broadcastInDim S50000x64 ![] bcast_S_S50000x64) : (⟨S_, .f32⟩ : BufTy).Contents (Elt F) → (⟨S50000x64, .f32⟩ : BufTy).Contents (Elt F)) (constant S_ .f32 0x00000000#32 : (⟨S_, .f32⟩ : BufTy).Contents (Elt F)))

def f_W1 (p0 : (⟨S4x64x64, .f32⟩ : BufTy).Contents (Elt F)) : (⟨S64x64, .f32⟩ : BufTy).Contents (Elt F) :=
  ((fun x => shapeCast S64x64 x shapeCasts_S1x64x64_S64x64) : (⟨S1x64x64, .f32⟩ : BufTy).Contents (Elt F) → (⟨S64x64, .f32⟩ : BufTy).Contents (Elt F)) (((extractStridedSlice S1x64x64 ![1, 0, 0] · slices_S4x64x64_S1x64x64_1_0_0) : (⟨S4x64x64, .f32⟩ : BufTy).Contents (Elt F) → (⟨S1x64x64, .f32⟩ : BufTy).Contents (Elt F)) p0)

def f_row1 (p0 : (⟨S4x64, .f32⟩ : BufTy).Contents (Elt F)) : (⟨S64, .f32⟩ : BufTy).Contents (Elt F) :=
  ((fun x => shapeCast S64 x shapeCasts_S1x64_S64) : (⟨S1x64, .f32⟩ : BufTy).Contents (Elt F) → (⟨S64, .f32⟩ : BufTy).Contents (Elt F)) (((extractStridedSlice S1x64 ![1, 0] · slices_S4x64_S1x64_1_0) : (⟨S4x64, .f32⟩ : BufTy).Contents (Elt F) → (⟨S1x64, .f32⟩ : BufTy).Contents (Elt F)) p0)

def f_aux_v94 (p0 : (⟨S50000, .f32⟩ : BufTy).Contents (Elt F)) (p1 : (⟨S800000, .i32⟩ : BufTy).Contents (Elt F)) : (⟨S800000, .f32⟩ : BufTy).Contents (Elt F) :=
  ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) p0 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) p1 ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) p1 ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) p1))

def f_aux_v96 (p0 : (⟨S800000, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) p0 ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))

def f_aux_v98 (p0 : (⟨S800000, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) p0 ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))

def f_norm1 (p0 : (⟨S800000, .f32⟩ : BufTy).Contents (Elt F)) (p1 : (⟨S50000, .f32⟩ : BufTy).Contents (Elt F)) (p2 : (⟨S800000, .i1⟩ : BufTy).Contents (Elt F)) (p3 : (⟨S800000, .i32⟩ : BufTy).Contents (Elt F)) (p4 : (⟨S800000, .i32⟩ : BufTy).Contents (Elt F)) : (⟨S800000, .f32⟩ : BufTy).Contents (Elt F) :=
  (mulf : (⟨S800000, .f32⟩ : BufTy).Contents (Elt F) → (⟨S800000, .f32⟩ : BufTy).Contents (Elt F) → (⟨S800000, .f32⟩ : BufTy).Contents (Elt F)) p0 (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) p1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) p2 p3 p4)))

def f_conv (p0 : (⟨S50000x64, .f32⟩ : BufTy).Contents (Elt F)) (p1 : (⟨S50000x64, .f32⟩ : BufTy).Contents (Elt F)) (p2 : (⟨S50000, .f32⟩ : BufTy).Contents (Elt F)) (p3 : (⟨S64, .f32⟩ : BufTy).Contents (Elt F)) : (⟨S50000x64, .f32⟩ : BufTy).Contents (Elt F) :=
  (addf : (⟨S50000x64, .f32⟩ : BufTy).Contents (Elt F) → (⟨S50000x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) p0 ((mulf : (⟨S50000x64, .f32⟩ : BufTy).Contents (Elt F) → (⟨S50000x64, .f32⟩ : BufTy).Contents (Elt F) → (⟨S50000x64, .f32⟩ : BufTy).Contents (Elt F)) p1 ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((mulf : (⟨S50000, .f32⟩ : BufTy).Contents (Elt F) → (⟨S50000, .f32⟩ : BufTy).Contents (Elt F) → (⟨S50000, .f32⟩ : BufTy).Contents (Elt F)) p2 p2))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) p3))

def f_W2 (p0 : (⟨S4x64x64, .f32⟩ : BufTy).Contents (Elt F)) : (⟨S64x64, .f32⟩ : BufTy).Contents (Elt F) :=
  ((fun x => shapeCast S64x64 x shapeCasts_S1x64x64_S64x64) : (⟨S1x64x64, .f32⟩ : BufTy).Contents (Elt F) → (⟨S64x64, .f32⟩ : BufTy).Contents (Elt F)) (((extractStridedSlice S1x64x64 ![2, 0, 0] · slices_S4x64x64_S1x64x64_2_0_0) : (⟨S4x64x64, .f32⟩ : BufTy).Contents (Elt F) → (⟨S1x64x64, .f32⟩ : BufTy).Contents (Elt F)) p0)

def f_row2 (p0 : (⟨S4x64, .f32⟩ : BufTy).Contents (Elt F)) : (⟨S64, .f32⟩ : BufTy).Contents (Elt F) :=
  ((fun x => shapeCast S64 x shapeCasts_S1x64_S64) : (⟨S1x64, .f32⟩ : BufTy).Contents (Elt F) → (⟨S64, .f32⟩ : BufTy).Contents (Elt F)) (((extractStridedSlice S1x64 ![2, 0] · slices_S4x64_S1x64_2_0) : (⟨S4x64, .f32⟩ : BufTy).Contents (Elt F) → (⟨S1x64, .f32⟩ : BufTy).Contents (Elt F)) p0)

def f_aux_v200 (p0 : (⟨S50000x64, .f32⟩ : BufTy).Contents (Elt F)) : (⟨S64, .f32⟩ : BufTy).Contents (Elt F) :=
  ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) p0 (constant S_ .f32 0x00000000#32 : (⟨S_, .f32⟩ : BufTy).Contents (Elt F))

def f_mean2 (p0 : (⟨S64, .f32⟩ : BufTy).Contents (Elt F)) : (⟨S64, .f32⟩ : BufTy).Contents (Elt F) :=
  (Host.divf : (⟨S64, .f32⟩ : BufTy).Contents (Elt F) → (⟨S64, .f32⟩ : BufTy).Contents (Elt F) → (⟨S64, .f32⟩ : BufTy).Contents (Elt F)) p0 ((broadcastInDim S64 ![] bcast_S_S64 : (⟨S_, .f32⟩ : BufTy).Contents (Elt F) → (⟨S64, .f32⟩ : BufTy).Contents (Elt F)) (constant S_ .f32 0x47435000#32 : (⟨S_, .f32⟩ : BufTy).Contents (Elt F)))

def f_W3 (p0 : (⟨S4x64x64, .f32⟩ : BufTy).Contents (Elt F)) : (⟨S64x64, .f32⟩ : BufTy).Contents (Elt F) :=
  ((fun x => shapeCast S64x64 x shapeCasts_S1x64x64_S64x64) : (⟨S1x64x64, .f32⟩ : BufTy).Contents (Elt F) → (⟨S64x64, .f32⟩ : BufTy).Contents (Elt F)) (((extractStridedSlice S1x64x64 ![3, 0, 0] · slices_S4x64x64_S1x64x64_3_0_0) : (⟨S4x64x64, .f32⟩ : BufTy).Contents (Elt F) → (⟨S1x64x64, .f32⟩ : BufTy).Contents (Elt F)) p0)

def f_row3 (p0 : (⟨S4x64, .f32⟩ : BufTy).Contents (Elt F)) : (⟨S64, .f32⟩ : BufTy).Contents (Elt F) :=
  ((fun x => shapeCast S64 x shapeCasts_S1x64_S64) : (⟨S1x64, .f32⟩ : BufTy).Contents (Elt F) → (⟨S64, .f32⟩ : BufTy).Contents (Elt F)) (((extractStridedSlice S1x64 ![3, 0] · slices_S4x64_S1x64_3_0) : (⟨S4x64, .f32⟩ : BufTy).Contents (Elt F) → (⟨S1x64, .f32⟩ : BufTy).Contents (Elt F)) p0)

def f_aux_c_48  : (⟨S_, .i32⟩ : BufTy).Contents (Elt F) :=
  (constantI S_ 32 50000#32 : (⟨S_, .i32⟩ : BufTy).Contents (Elt F))

def f_agg3 (p0 : (⟨S800000, .i32⟩ : BufTy).Contents (Elt F)) (p1 : (⟨S50000x64, .f32⟩ : BufTy).Contents (Elt F)) (p2 : (⟨S800000, .i1⟩ : BufTy).Contents (Elt F)) (p3 : (⟨S800000, .i32⟩ : BufTy).Contents (Elt F)) (p4 : (⟨S_, .i32⟩ : BufTy).Contents (Elt F)) (p5 : (⟨S800000, .f32⟩ : BufTy).Contents (Elt F)) : (⟨S50000x64, .f32⟩ : BufTy).Contents (Elt F) :=
  ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) p0) ((mulf : (⟨S800000x64, .f32⟩ : BufTy).Contents (Elt F) → (⟨S800000x64, .f32⟩ : BufTy).Contents (Elt F) → (⟨S800000x64, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) p1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) p2 ((addi : (⟨S800000, .i32⟩ : BufTy).Contents (Elt F) → (⟨S800000, .i32⟩ : BufTy).Contents (Elt F) → (⟨S800000, .i32⟩ : BufTy).Contents (Elt F)) p3 ((broadcastInDim S800000 ![] bcast_S_S800000 : (⟨S_, .i32⟩ : BufTy).Contents (Elt F) → (⟨S800000, .i32⟩ : BufTy).Contents (Elt F)) p4)) p3))) ((broadcastInDim S800000x64 ![0, 1] bcast_S800000x1_S800000x64_0_1 : (⟨S800000x1, .f32⟩ : BufTy).Contents (Elt F) → (⟨S800000x64, .f32⟩ : BufTy).Contents (Elt F)) ((broadcastInDim S800000x1 ![0] bcast_S800000_S800000x1_0 : (⟨S800000, .f32⟩ : BufTy).Contents (Elt F) → (⟨S800000x1, .f32⟩ : BufTy).Contents (Elt F)) p5)))

def f_pool (p0 : (⟨S50000, .i32⟩ : BufTy).Contents (Elt F)) (p1 : (⟨S50000x64, .f32⟩ : BufTy).Contents (Elt F)) : (⟨S1024x64, .f32⟩ : BufTy).Contents (Elt F) :=
  ((fun x i u => Host.scatterAdd scatter_S1024x64_S50000x1_S50000x64_1_0_0_1 x i u) : (⟨S1024x64, .f32⟩ : BufTy).Contents (Elt F) → (⟨S50000x1, .i32⟩ : BufTy).Contents (Elt F) → (⟨S50000x64, .f32⟩ : BufTy).Contents (Elt F) → (⟨S1024x64, .f32⟩ : BufTy).Contents (Elt F)) ((broadcastInDim S1024x64 ![] bcast_S_S1024x64 : (⟨S_, .f32⟩ : BufTy).Contents (Elt F) → (⟨S1024x64, .f32⟩ : BufTy).Contents (Elt F)) (constant S_ .f32 0x00000000#32 : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) p0) p1

def f_mm (p0 : (⟨S1024x64, .f32⟩ : BufTy).Contents (Elt F)) (p1 : (⟨S64x64, .f32⟩ : BufTy).Contents (Elt F)) : (⟨S1024x64, .f32⟩ : BufTy).Contents (Elt F) :=
  ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)) p0 p1

def f_lin1 (p0 : (⟨S1024x64, .f32⟩ : BufTy).Contents (Elt F)) (p1 : (⟨S64, .f32⟩ : BufTy).Contents (Elt F)) : (⟨S1024x64, .f32⟩ : BufTy).Contents (Elt F) :=
  (addf : (⟨S1024x64, .f32⟩ : BufTy).Contents (Elt F) → (⟨S1024x64, .f32⟩ : BufTy).Contents (Elt F) → (⟨S1024x64, .f32⟩ : BufTy).Contents (Elt F)) p0 ((broadcastInDim S1024x64 ![0, 1] bcast_S1x64_S1024x64_0_1 : (⟨S1x64, .f32⟩ : BufTy).Contents (Elt F) → (⟨S1024x64, .f32⟩ : BufTy).Contents (Elt F)) ((broadcastInDim S1x64 ![1] bcast_S64_S1x64_1 : (⟨S64, .f32⟩ : BufTy).Contents (Elt F) → (⟨S1x64, .f32⟩ : BufTy).Contents (Elt F)) p1))

def f_act (p0 : (⟨S1024x64, .f32⟩ : BufTy).Contents (Elt F)) : (⟨S1024x64, .f32⟩ : BufTy).Contents (Elt F) :=
  (maximumf : (⟨S1024x64, .f32⟩ : BufTy).Contents (Elt F) → (⟨S1024x64, .f32⟩ : BufTy).Contents (Elt F) → (⟨S1024x64, .f32⟩ : BufTy).Contents (Elt F)) p0 (((broadcastInDim S1024x64 ![] bcast_S_S1024x64) : (⟨S_, .f32⟩ : BufTy).Contents (Elt F) → (⟨S1024x64, .f32⟩ : BufTy).Contents (Elt F)) (constant S_ .f32 0x00000000#32 : (⟨S_, .f32⟩ : BufTy).Contents (Elt F)))

def f_aux_v302 (p0 : (⟨S64, .f32⟩ : BufTy).Contents (Elt F)) : (⟨S1024x64, .f32⟩ : BufTy).Contents (Elt F) :=
  (broadcastInDim S1024x64 ![0, 1] bcast_S1x64_S1024x64_0_1 : (⟨S1x64, .f32⟩ : BufTy).Contents (Elt F) → (⟨S1024x64, .f32⟩ : BufTy).Contents (Elt F)) ((broadcastInDim S1x64 ![1] bcast_S64_S1x64_1 : (⟨S64, .f32⟩ : BufTy).Contents (Elt F) → (⟨S1x64, .f32⟩ : BufTy).Contents (Elt F)) p0)

def f_lin2 (p0 : (⟨S1024x64, .f32⟩ : BufTy).Contents (Elt F)) (p1 : (⟨S1024x64, .f32⟩ : BufTy).Contents (Elt F)) : (⟨S1024x64, .f32⟩ : BufTy).Contents (Elt F) :=
  (addf : (⟨S1024x64, .f32⟩ : BufTy).Contents (Elt F) → (⟨S1024x64, .f32⟩ : BufTy).Contents (Elt F) → (⟨S1024x64, .f32⟩ : BufTy).Contents (Elt F)) p0 p1

def f_mm3 (p0 : (⟨S1024x64, .f32⟩ : BufTy).Contents (Elt F)) (p1 : (⟨S64x1, .f32⟩ : BufTy).Contents (Elt F)) : (⟨S1024x1, .f32⟩ : BufTy).Contents (Elt F) :=
  ((fun l r => Host.dotGeneral dot_S1024x64_S64x1_S1024x1_1_0_0_1_n_n none l r) : (⟨S1024x64, .f32⟩ : BufTy).Contents (Elt F) → (⟨S64x1, .f32⟩ : BufTy).Contents (Elt F) → (⟨S1024x1, .f32⟩ : BufTy).Contents (Elt F)) p0 p1

def f_out (p0 : (⟨S1024x1, .f32⟩ : BufTy).Contents (Elt F)) (p1 : (⟨S1, .f32⟩ : BufTy).Contents (Elt F)) : (⟨S1024x1, .f32⟩ : BufTy).Contents (Elt F) :=
  (addf : (⟨S1024x1, .f32⟩ : BufTy).Contents (Elt F) → (⟨S1024x1, .f32⟩ : BufTy).Contents (Elt F) → (⟨S1024x1, .f32⟩ : BufTy).Contents (Elt F)) p0 ((broadcastInDim S1024x1 ![0, 1] bcast_S1x1_S1024x1_0_1 : (⟨S1x1, .f32⟩ : BufTy).Contents (Elt F) → (⟨S1024x1, .f32⟩ : BufTy).Contents (Elt F)) ((broadcastInDim S1x1 ![1] bcast_S1_S1x1_1 : (⟨S1, .f32⟩ : BufTy).Contents (Elt F) → (⟨S1x1, .f32⟩ : BufTy).Contents (Elt F)) p1))

end Cert.ReferenceIdeal.RefRun

end
-- ==== Proof.Ref.Values.lean ====
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! The named values of the reference as functions of its arguments' contents: each is its stage function
    applied to the named values it reads. -/

def x_src (a1 : (⟨S2x800000, .i32⟩ : BufTy).Contents (Elt F)) : (⟨S800000, .i32⟩ : BufTy).Contents (Elt F) :=
  f_src a1

def x_dst (a1 : (⟨S2x800000, .i32⟩ : BufTy).Contents (Elt F)) : (⟨S800000, .i32⟩ : BufTy).Contents (Elt F) :=
  f_dst a1

def x_W0 (a3 : (⟨S4x64x64, .f32⟩ : BufTy).Contents (Elt F)) : (⟨S64x64, .f32⟩ : BufTy).Contents (Elt F) :=
  f_W0 a3

def x_bias0 (a4 : (⟨S4x64, .f32⟩ : BufTy).Contents (Elt F)) : (⟨S64, .f32⟩ : BufTy).Contents (Elt F) :=
  f_row0 a4

def x_dinv0 (a1 : (⟨S2x800000, .i32⟩ : BufTy).Contents (Elt F)) : (⟨S50000, .f32⟩ : BufTy).Contents (Elt F) :=
  f_dinv (x_dst a1)

def x_hw0 (a0 : (⟨S50000x64, .f32⟩ : BufTy).Contents (Elt F)) (a3 : (⟨S4x64x64, .f32⟩ : BufTy).Contents (Elt F)) : (⟨S50000x64, .f32⟩ : BufTy).Contents (Elt F) :=
  f_hw a0 (x_W0 a3)

def x_norm0 (a1 : (⟨S2x800000, .i32⟩ : BufTy).Contents (Elt F)) : (⟨S800000, .f32⟩ : BufTy).Contents (Elt F) :=
  f_norm (x_dinv0 a1) (x_src a1) (x_dst a1)

def x_agg0 (a0 : (⟨S50000x64, .f32⟩ : BufTy).Contents (Elt F)) (a1 : (⟨S2x800000, .i32⟩ : BufTy).Contents (Elt F)) (a3 : (⟨S4x64x64, .f32⟩ : BufTy).Contents (Elt F)) : (⟨S50000x64, .f32⟩ : BufTy).Contents (Elt F) :=
  f_agg (x_dst a1) (x_hw0 a0 a3) (x_src a1) (x_norm0 a1)

def x_aux_v48 (a0 : (⟨S50000x64, .f32⟩ : BufTy).Contents (Elt F)) (a1 : (⟨S2x800000, .i32⟩ : BufTy).Contents (Elt F)) (a3 : (⟨S4x64x64, .f32⟩ : BufTy).Contents (Elt F)) : (⟨S50000x64, .f32⟩ : BufTy).Contents (Elt F) :=
  f_aux_v48 (x_agg0 a0 a1 a3) (x_hw0 a0 a3) (x_dinv0 a1)

def x_aux_v49 (a4 : (⟨S4x64, .f32⟩ : BufTy).Contents (Elt F)) : (⟨S1x64, .f32⟩ : BufTy).Contents (Elt F) :=
  f_aux_v49 (x_bias0 a4)

def x_conv0 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) : (⟨S50000x64, .f32⟩ : BufTy).Contents (Elt F) :=
  f_conv0 (x_aux_v48 a0 a1 a3) (x_aux_v49 a4)

def x_gamma0 (a5 : (⟨S4x64, .f32⟩ : BufTy).Contents (Elt F)) : (⟨S64, .f32⟩ : BufTy).Contents (Elt F) :=
  f_row0 a5

def x_beta0 (a6 : (⟨S4x64, .f32⟩ : BufTy).Contents (Elt F)) : (⟨S64, .f32⟩ : BufTy).Contents (Elt F) :=
  f_row0 a6

def x_mean0 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) : (⟨S64, .f32⟩ : BufTy).Contents (Elt F) :=
  f_mean (x_conv0 a0 a1 a3 a4)

def x_var0 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) : (⟨S64, .f32⟩ : BufTy).Contents (Elt F) :=
  f_var (x_conv0 a0 a1 a3 a4)

def x_bn0 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_bn (x_conv0 a0 a1 a3 a4) (x_mean0 a0 a1 a3 a4) (x_var0 a0 a1 a3 a4) (x_gamma0 a5) (x_beta0 a6)

def x_relu0 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_relu (x_bn0 a0 a1 a3 a4 a5 a6)

def x_W1 (a3 : (⟨S4x64x64, .f32⟩ : BufTy).Contents (Elt F)) : (⟨S64x64, .f32⟩ : BufTy).Contents (Elt F) :=
  f_W1 a3

def x_bias1 (a4 : (⟨S4x64, .f32⟩ : BufTy).Contents (Elt F)) : (⟨S64, .f32⟩ : BufTy).Contents (Elt F) :=
  f_row1 a4

def x_dinv1 (a1 : (⟨S2x800000, .i32⟩ : BufTy).Contents (Elt F)) : (⟨S50000, .f32⟩ : BufTy).Contents (Elt F) :=
  f_dinv (x_dst a1)

def x_hw1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_hw (x_relu0 a0 a1 a3 a4 a5 a6) (x_W1 a3)

def x_aux_v94 (a1 : (⟨S2x800000, .i32⟩ : BufTy).Contents (Elt F)) : (⟨S800000, .f32⟩ : BufTy).Contents (Elt F) :=
  f_aux_v94 (x_dinv1 a1) (x_src a1)

def x_aux_v96 (a1 : (⟨S2x800000, .i32⟩ : BufTy).Contents (Elt F)) : (⟨S800000, .i1⟩ : BufTy).Contents (Elt F) :=
  f_aux_v96 (x_dst a1)

def x_aux_v98 (a1 : (⟨S2x800000, .i32⟩ : BufTy).Contents (Elt F)) : (⟨S800000, .i32⟩ : BufTy).Contents (Elt F) :=
  f_aux_v98 (x_dst a1)

def x_norm1 (a1 : (⟨S2x800000, .i32⟩ : BufTy).Contents (Elt F)) : (⟨S800000, .f32⟩ : BufTy).Contents (Elt F) :=
  f_norm1 (x_aux_v94 a1) (x_dinv1 a1) (x_aux_v96 a1) (x_aux_v98 a1) (x_dst a1)

def x_agg1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_agg (x_dst a1) (x_hw1 a0 a1 a3 a4 a5 a6) (x_src a1) (x_norm1 a1)

def x_conv1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_conv (x_agg1 a0 a1 a3 a4 a5 a6) (x_hw1 a0 a1 a3 a4 a5 a6) (x_dinv1 a1) (x_bias1 a4)

def x_gamma1 (a5 : (⟨S4x64, .f32⟩ : BufTy).Contents (Elt F)) : (⟨S64, .f32⟩ : BufTy).Contents (Elt F) :=
  f_row1 a5

def x_beta1 (a6 : (⟨S4x64, .f32⟩ : BufTy).Contents (Elt F)) : (⟨S64, .f32⟩ : BufTy).Contents (Elt F) :=
  f_row1 a6

def x_mean1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_mean (x_conv1 a0 a1 a3 a4 a5 a6)

def x_var1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_var (x_conv1 a0 a1 a3 a4 a5 a6)

def x_bn1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_bn (x_conv1 a0 a1 a3 a4 a5 a6) (x_mean1 a0 a1 a3 a4 a5 a6) (x_var1 a0 a1 a3 a4 a5 a6) (x_gamma1 a5) (x_beta1 a6)

def x_relu1 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_relu (x_bn1 a0 a1 a3 a4 a5 a6)

def x_W2 (a3 : (⟨S4x64x64, .f32⟩ : BufTy).Contents (Elt F)) : (⟨S64x64, .f32⟩ : BufTy).Contents (Elt F) :=
  f_W2 a3

def x_bias2 (a4 : (⟨S4x64, .f32⟩ : BufTy).Contents (Elt F)) : (⟨S64, .f32⟩ : BufTy).Contents (Elt F) :=
  f_row2 a4

def x_dinv2 (a1 : (⟨S2x800000, .i32⟩ : BufTy).Contents (Elt F)) : (⟨S50000, .f32⟩ : BufTy).Contents (Elt F) :=
  f_dinv (x_dst a1)

def x_hw2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_hw (x_relu1 a0 a1 a3 a4 a5 a6) (x_W2 a3)

def x_norm2 (a1 : (⟨S2x800000, .i32⟩ : BufTy).Contents (Elt F)) : (⟨S800000, .f32⟩ : BufTy).Contents (Elt F) :=
  f_norm (x_dinv2 a1) (x_src a1) (x_dst a1)

def x_agg2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_agg (x_dst a1) (x_hw2 a0 a1 a3 a4 a5 a6) (x_src a1) (x_norm2 a1)

def x_conv2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_conv (x_agg2 a0 a1 a3 a4 a5 a6) (x_hw2 a0 a1 a3 a4 a5 a6) (x_dinv2 a1) (x_bias2 a4)

def x_gamma2 (a5 : (⟨S4x64, .f32⟩ : BufTy).Contents (Elt F)) : (⟨S64, .f32⟩ : BufTy).Contents (Elt F) :=
  f_row2 a5

def x_beta2 (a6 : (⟨S4x64, .f32⟩ : BufTy).Contents (Elt F)) : (⟨S64, .f32⟩ : BufTy).Contents (Elt F) :=
  f_row2 a6

def x_aux_v200 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_aux_v200 (x_conv2 a0 a1 a3 a4 a5 a6)

def x_mean2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_mean2 (x_aux_v200 a0 a1 a3 a4 a5 a6)

def x_var2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_var (x_conv2 a0 a1 a3 a4 a5 a6)

def x_bn2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_bn (x_conv2 a0 a1 a3 a4 a5 a6) (x_mean2 a0 a1 a3 a4 a5 a6) (x_var2 a0 a1 a3 a4 a5 a6) (x_gamma2 a5) (x_beta2 a6)

def x_relu2 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_relu (x_bn2 a0 a1 a3 a4 a5 a6)

def x_W3 (a3 : (⟨S4x64x64, .f32⟩ : BufTy).Contents (Elt F)) : (⟨S64x64, .f32⟩ : BufTy).Contents (Elt F) :=
  f_W3 a3

def x_bias3 (a4 : (⟨S4x64, .f32⟩ : BufTy).Contents (Elt F)) : (⟨S64, .f32⟩ : BufTy).Contents (Elt F) :=
  f_row3 a4

def x_dinv3 (a1 : (⟨S2x800000, .i32⟩ : BufTy).Contents (Elt F)) : (⟨S50000, .f32⟩ : BufTy).Contents (Elt F) :=
  f_dinv (x_dst a1)

def x_hw3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_hw (x_relu2 a0 a1 a3 a4 a5 a6) (x_W3 a3)

def x_norm3 (a1 : (⟨S2x800000, .i32⟩ : BufTy).Contents (Elt F)) : (⟨S800000, .f32⟩ : BufTy).Contents (Elt F) :=
  f_norm (x_dinv3 a1) (x_src a1) (x_dst a1)

def x_aux_v248 (a1 : (⟨S2x800000, .i32⟩ : BufTy).Contents (Elt F)) : (⟨S800000, .i1⟩ : BufTy).Contents (Elt F) :=
  f_aux_v96 (x_src a1)

def x_aux_c_48 : (⟨S_, .i32⟩ : BufTy).Contents (Elt F) :=
  f_aux_c_48

def x_agg3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_agg3 (x_dst a1) (x_hw3 a0 a1 a3 a4 a5 a6) (x_aux_v248 a1) (x_src a1) (x_aux_c_48) (x_norm3 a1)

def x_conv3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_conv (x_agg3 a0 a1 a3 a4 a5 a6) (x_hw3 a0 a1 a3 a4 a5 a6) (x_dinv3 a1) (x_bias3 a4)

def x_gamma3 (a5 : (⟨S4x64, .f32⟩ : BufTy).Contents (Elt F)) : (⟨S64, .f32⟩ : BufTy).Contents (Elt F) :=
  f_row3 a5

def x_beta3 (a6 : (⟨S4x64, .f32⟩ : BufTy).Contents (Elt F)) : (⟨S64, .f32⟩ : BufTy).Contents (Elt F) :=
  f_row3 a6

def x_mean3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_mean (x_conv3 a0 a1 a3 a4 a5 a6)

def x_var3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S64, .f32⟩ : BufTy).Contents (Elt F) :=
  f_var (x_conv3 a0 a1 a3 a4 a5 a6)

def x_bn3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_bn (x_conv3 a0 a1 a3 a4 a5 a6) (x_mean3 a0 a1 a3 a4 a5 a6) (x_var3 a0 a1 a3 a4 a5 a6) (x_gamma3 a5) (x_beta3 a6)

def x_relu3 (a0 : (⟨S50000x64, .f32⟩ : BufTy).Contents (Elt F)) (a1 : (⟨S2x800000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S50000x64, .f32⟩ : BufTy).Contents (Elt F) :=
  f_relu (x_bn3 a0 a1 a3 a4 a5 a6)

def x_pool (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) : (⟨S1024x64, .f32⟩ : BufTy).Contents (Elt F) :=
  f_pool a2 (x_relu3 a0 a1 a3 a4 a5 a6)

def x_mm1 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) : (⟨S1024x64, .f32⟩ : BufTy).Contents (Elt F) :=
  f_mm (x_pool a0 a1 a2 a3 a4 a5 a6) a7

def x_lin1 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) : (⟨S1024x64, .f32⟩ : BufTy).Contents (Elt F) :=
  f_lin1 (x_mm1 a0 a1 a2 a3 a4 a5 a6 a7) a8

def x_act1 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) : (⟨S1024x64, .f32⟩ : BufTy).Contents (Elt F) :=
  f_act (x_lin1 a0 a1 a2 a3 a4 a5 a6 a7 a8)

def x_mm2 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) : (⟨S1024x64, .f32⟩ : BufTy).Contents (Elt F) :=
  f_mm (x_act1 a0 a1 a2 a3 a4 a5 a6 a7 a8) a9

def x_aux_v302 (a10 : (⟨S64, .f32⟩ : BufTy).Contents (Elt F)) : (⟨S1024x64, .f32⟩ : BufTy).Contents (Elt F) :=
  f_aux_v302 a10

def x_lin2 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) : (⟨S1024x64, .f32⟩ : BufTy).Contents (Elt F) :=
  f_lin2 (x_mm2 a0 a1 a2 a3 a4 a5 a6 a7 a8 a9) (x_aux_v302 a10)

def x_act2 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) : (⟨S1024x64, .f32⟩ : BufTy).Contents (Elt F) :=
  f_act (x_lin2 a0 a1 a2 a3 a4 a5 a6 a7 a8 a9 a10)

def x_mm3 (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x1, .f32⟩ : BufTy).Contents (Elt F)) : (⟨S1024x1, .f32⟩ : BufTy).Contents (Elt F) :=
  f_mm3 (x_act2 a0 a1 a2 a3 a4 a5 a6 a7 a8 a9 a10) a11

def x_out (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x1, .f32⟩ : BufTy).Contents (Elt F)) (a12 : (⟨S1, .f32⟩ : BufTy).Contents (Elt F)) : (⟨S1024x1, .f32⟩ : BufTy).Contents (Elt F) :=
  f_out (x_mm3 a0 a1 a2 a3 a4 a5 a6 a7 a8 a9 a10 a11) a12

/-- The reference's result as a function of its thirteen arguments' contents. -/
def refOut (a0 : (⟨S50000x64, .f32⟩ : BufTy).Contents (Elt F)) (a1 : (⟨S2x800000, .i32⟩ : BufTy).Contents (Elt F)) (a2 : (⟨S50000, .i32⟩ : BufTy).Contents (Elt F)) (a3 : (⟨S4x64x64, .f32⟩ : BufTy).Contents (Elt F)) (a4 : (⟨S4x64, .f32⟩ : BufTy).Contents (Elt F)) (a5 : (⟨S4x64, .f32⟩ : BufTy).Contents (Elt F)) (a6 : (⟨S4x64, .f32⟩ : BufTy).Contents (Elt F)) (a7 : (⟨S64x64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x1, .f32⟩ : BufTy).Contents (Elt F)) (a12 : (⟨S1, .f32⟩ : BufTy).Contents (Elt F)) : (⟨S1024x1, .f32⟩ : BufTy).Contents (Elt F) :=
  x_out a0 a1 a2 a3 a4 a5 a6 a7 a8 a9 a10 a11 a12

end Cert.ReferenceIdeal.RefRun

end
-- ==== Proof.Ref.Part0.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 0, in order; a called function's operations stand at its call over the call's buffers. -/
abbrev ops_part0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg3 main_v4 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v4 main_v5 rfl shapeCasts_S1x64x64_S64x64,
    unary main_arg4 main_v6 ((extractStridedSlice S1x64 ![0, 0] · slices_S4x64_S1x64_0_0) : (⟨S4x64, .f32⟩ : BufTy).Contents (Elt F) → (⟨S1x64, .f32⟩ : BufTy).Contents (Elt F)),
    reshape main_v6 main_v7 rfl shapeCasts_S1x64_S64,
    nullary main_cst (constant S_ .f32 0x3F800000#32),
    unary main_cst main_v8 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v3 main_v10 (broadcastInDim S800000x1 ![0] bcast_S800000_S800000x1_0 : (⟨S800000, .i32⟩ : BufTy).Contents (Elt F) → (⟨S800000x1, .i32⟩ : BufTy).Contents (Elt F)),
    ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (addf : (⟨S50000, .f32⟩ : BufTy).Contents (Elt F) → (⟨S50000, .f32⟩ : BufTy).Contents (Elt F) → (⟨S50000, .f32⟩ : BufTy).Contents (Elt F)),
    unary main_v13 main_v14 (Host.rsqrt : (⟨S50000, .f32⟩ : BufTy).Contents (Elt F) → (⟨S50000, .f32⟩ : BufTy).Contents (Elt F)),
    binary main_arg0 main_v5 main_v15 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v14 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v15 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v30 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x64 ![0, 1] bcast_S800000x1_S800000x64_0_1 : (⟨S800000x1, .f32⟩ : BufTy).Contents (Elt F) → (⟨S800000x64, .f32⟩ : BufTy).Contents (Elt F)),
    binary main_v37 main_v39 main_v40 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v41 (broadcastInDim S50000x64 ![] bcast_S_S50000x64 : (⟨S_, .f32⟩ : BufTy).Contents (Elt F) → (⟨S50000x64, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v14 main_v14 main_v44 (mulf : (⟨S50000, .f32⟩ : BufTy).Contents (Elt F) → (⟨S50000, .f32⟩ : BufTy).Contents (Elt F) → (⟨S50000, .f32⟩ : BufTy).Contents (Elt F)),
    unary main_v44 main_v45 (broadcastInDim S50000x1 ![0] bcast_S50000_S50000x1_0 : (⟨S50000, .f32⟩ : BufTy).Contents (Elt F) → (⟨S50000x1, .f32⟩ : BufTy).Contents (Elt F)),
    unary main_v45 main_v46 (broadcastInDim S50000x64 ![0, 1] bcast_S50000x1_S50000x64_0_1 : (⟨S50000x1, .f32⟩ : BufTy).Contents (Elt F) → (⟨S50000x64, .f32⟩ : BufTy).Contents (Elt F)),
    binary main_v15 main_v46 main_v47 (mulf : (⟨S50000x64, .f32⟩ : BufTy).Contents (Elt F) → (⟨S50000x64, .f32⟩ : BufTy).Contents (Elt F) → (⟨S50000x64, .f32⟩ : BufTy).Contents (Elt F)),
    binary main_v43 main_v47 main_v48 (addf : (⟨S50000x64, .f32⟩ : BufTy).Contents (Elt F) → (⟨S50000x64, .f32⟩ : BufTy).Contents (Elt F) → (⟨S50000x64, .f32⟩ : BufTy).Contents (Elt F)),
    unary main_v7 main_v49 (broadcastInDim S1x64 ![1] bcast_S64_S1x64_1 : (⟨S64, .f32⟩ : BufTy).Contents (Elt F) → (⟨S1x64, .f32⟩ : BufTy).Contents (Elt F)) ]

set_option maxRecDepth 8192 in
theorem main_part0_eq (c : Dev nD) : main_part0 (F := F) c = seq ops_part0 := rfl

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub ..⟩

set_option maxRecDepth 8192 in
theorem ops_part0_fresh : ∀ op ∈ (ops_part0 : List (HloOp τ sig (Elt F))), op.fresh = ∅ := by
  intro _ h; (repeat (cases h with | head => rfl | tail _ h => ?_)); exact nomatch h

/-- The buffers the window's operations write. -/
abbrev ops_part0_W : List (Ref sig .tc) := [main_v0, main_v1, main_v2, main_v3, main_v4, main_v5, main_v6, main_v7, main_cst, main_v8, main_cst_0, main_v9, main_v10, main_v11, main_cst_1, main_v12, main_v13, main_v14, main_v15, main_c, main_v16, main_v17, main_c_2, main_v18, main_v19, main_v20, main_v21, main_v22, main_c_3, main_v23, main_v24, main_c_4, main_v25, main_v26, main_v27, main_v28, main_v29, main_v30, main_c_5, main_v31, main_v32, main_c_6, main_v33, main_v34, main_v35, main_v36, main_v37, main_v38, main_v39, main_v40, main_cst_7, main_v41, main_v42, main_v43, main_v44, main_v45, main_v46, main_v47, main_v48, main_v49]

set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part0_keep (V : Valuation τ sig (Elt F)) (r : Ref sig .tc) (h : r ∉ ops_part0_W) :
    after ops_part0 V (Proc.devRef .tc r) = V (Proc.devRef .tc r) :=
  after_of_writes_sub ops_part0 _ ops_part0_writes h

attribute [local irreducible] Host.reduceAdd Host.gather Host.scatterAdd in
set_option maxRecDepth 8192 in
set_option maxHeartbeats 2000000 in
theorem part0_src (V : Valuation τ sig (Elt F)) :
    after ops_part0 V (no_index (Proc.devRef .tc main_v1)) = f_src (V (Proc.devRef .tc main_arg1)) := by
  simp only [ops_part0]
  after_results_simp
  rfl

attribute [local irreducible] Host.reduceAdd Host.gather Host.scatterAdd in
set_option maxRecDepth 8192 in
set_option maxHeartbeats 2000000 in
theorem part0_dst (V : Valuation τ sig (Elt F)) :
    after ops_part0 V (no_index (Proc.devRef .tc main_v3)) = f_dst (V (Proc.devRef .tc main_arg1)) := by
  simp only [ops_part0]
  after_results_simp
  rfl

attribute [local irreducible] Host.reduceAdd Host.gather Host.scatterAdd in
set_option maxRecDepth 8192 in
set_option maxHeartbeats 2000000 in
theorem part0_W0 (V : Valuation τ sig (Elt F)) :
    after ops_part0 V (no_index (Proc.devRef .tc main_v5)) = f_W0 (V (Proc.devRef .tc main_arg3)) := by
  simp only [ops_part0]
  after_results_simp
  rfl

attribute [local irreducible] Host.reduceAdd Host.gather Host.scatterAdd in
set_option maxRecDepth 8192 in
set_option maxHeartbeats 2000000 in
theorem part0_bias0 (V : Valuation τ sig (Elt F)) :
    after ops_part0 V (no_index (Proc.devRef .tc main_v7)) = f_row0 (V (Proc.devRef .tc main_arg4)) := by
  simp only [ops_part0]
  after_results_simp
  rfl

attribute [local irreducible] Host.reduceAdd Host.gather Host.scatterAdd in
set_option maxRecDepth 8192 in
set_option maxHeartbeats 2000000 in
theorem part0_dinv0 (V : Valuation τ sig (Elt F)) :
    after ops_part0 V (no_index (Proc.devRef .tc main_v14)) = f_dinv (after ops_part0 V (Proc.devRef .tc main_v3)) := by
  simp only [ops_part0]
  after_results_simp
  rfl

attribute [local irreducible] Host.reduceAdd Host.gather Host.scatterAdd in
set_option maxRecDepth 8192 in
set_option maxHeartbeats 2000000 in
theorem part0_hw0 (V : Valuation τ sig (Elt F)) :
    after ops_part0 V (no_index (Proc.devRef .tc main_v15)) = f_hw (V (Proc.devRef .tc main_arg0)) (after ops_part0 V (Proc.devRef .tc main_v5)) := by
  simp only [ops_part0]
  after_results_simp
  rfl

attribute [local irreducible] Host.reduceAdd Host.gather Host.scatterAdd in
set_option maxRecDepth 8192 in
set_option maxHeartbeats 2000000 in
theorem part0_norm0 (V : Valuation τ sig (Elt F)) :
    after ops_part0 V (no_index (Proc.devRef .tc main_v30)) = f_norm (after ops_part0 V (Proc.devRef .tc main_v14)) (after ops_part0 V (Proc.devRef .tc main_v1)) (after ops_part0 V (Proc.devRef .tc main_v3)) := by
  simp only [ops_part0]
  after_results_simp
  rfl

attribute [local irreducible] Host.reduceAdd Host.gather Host.scatterAdd in
set_option maxRecDepth 8192 in
set_option maxHeartbeats 2000000 in
theorem part0_agg0 (V : Valuation τ sig (Elt F)) :
    after ops_part0 V (no_index (Proc.devRef .tc main_v43)) = f_agg (after ops_part0 V (Proc.devRef .tc main_v3)) (after ops_part0 V (Proc.devRef .tc main_v15)) (after ops_part0 V (Proc.devRef .tc main_v1)) (after ops_part0 V (Proc.devRef .tc main_v30)) := by
  simp only [ops_part0]
  after_results_simp
  rfl

attribute [local irreducible] Host.reduceAdd Host.gather Host.scatterAdd in
set_option maxRecDepth 8192 in
set_option maxHeartbeats 2000000 in
theorem part0_aux_v48 (V : Valuation τ sig (Elt F)) :
    after ops_part0 V (no_index (Proc.devRef .tc main_v48)) = f_aux_v48 (after ops_part0 V (Proc.devRef .tc main_v43)) (after ops_part0 V (Proc.devRef .tc main_v15)) (after ops_part0 V (Proc.devRef .tc main_v14)) := by
  simp only [ops_part0]
  after_results_simp
  rfl

attribute [local irreducible] Host.reduceAdd Host.gather Host.scatterAdd in
set_option maxRecDepth 8192 in
set_option maxHeartbeats 2000000 in
theorem part0_aux_v49 (V : Valuation τ sig (Elt F)) :
    after ops_part0 V (no_index (Proc.devRef .tc main_v49)) = f_aux_v49 (after ops_part0 V (Proc.devRef .tc main_v7)) := by
  simp only [ops_part0]
  after_results_simp
  rfl

end Cert.ReferenceIdeal.RefRun

end
-- ==== Proof.Ref.Part1.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 1, in order; a called function's operations stand at its call over the call's buffers. -/
abbrev ops_part1 : List (HloOp τ sig (Elt F)) :=
  [ unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v48 main_v50 main_v51 (addf : (⟨S50000x64, .f32⟩ : BufTy).Contents (Elt F) → (⟨S50000x64, .f32⟩ : BufTy).Contents (Elt F) → (⟨S50000x64, .f32⟩ : BufTy).Contents (Elt F)),
    unary main_arg5 main_v52 ((extractStridedSlice S1x64 ![0, 0] · slices_S4x64_S1x64_0_0) : (⟨S4x64, .f32⟩ : BufTy).Contents (Elt F) → (⟨S1x64, .f32⟩ : BufTy).Contents (Elt F)),
    reshape main_v52 main_v53 rfl shapeCasts_S1x64_S64,
    unary main_arg6 main_v54 ((extractStridedSlice S1x64 ![0, 0] · slices_S4x64_S1x64_0_0) : (⟨S4x64, .f32⟩ : BufTy).Contents (Elt F) → (⟨S1x64, .f32⟩ : BufTy).Contents (Elt F)),
    reshape main_v54 main_v55 rfl shapeCasts_S1x64_S64,
    nullary main_cst_8 (constant S_ .f32 0x00000000#32),
    binary main_v51 main_cst_8 main_v56 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (.of main_v51 : TRef sig ⟨S50000x64, .f32⟩) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v51 : TRef sig ⟨S50000x64, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v58 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v51 main_v61 main_v62 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v63 (broadcastInDim S64 ![] bcast_S_S64 : (⟨S_, .f32⟩ : BufTy).Contents (Elt F) → (⟨S64, .f32⟩ : BufTy).Contents (Elt F)),
    binary main_v59 main_v63 main_v64 (addf : (⟨S64, .f32⟩ : BufTy).Contents (Elt F) → (⟨S64, .f32⟩ : BufTy).Contents (Elt F) → (⟨S64, .f32⟩ : BufTy).Contents (Elt F)),
    unary main_v64 main_v65 (Host.rsqrt : (⟨S64, .f32⟩ : BufTy).Contents (Elt F) → (⟨S64, .f32⟩ : BufTy).Contents (Elt F)),
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S50000x64 ![0, 1] bcast_S1x64_S50000x64_0_1 : (⟨S1x64, .f32⟩ : BufTy).Contents (Elt F) → (⟨S50000x64, .f32⟩ : BufTy).Contents (Elt F)),
    binary main_v62 main_v67 main_v68 (mulf : (⟨S50000x64, .f32⟩ : BufTy).Contents (Elt F) → (⟨S50000x64, .f32⟩ : BufTy).Contents (Elt F) → (⟨S50000x64, .f32⟩ : BufTy).Contents (Elt F)),
    unary main_v53 main_v69 (broadcastInDim S1x64 ![1] bcast_S64_S1x64_1 : (⟨S64, .f32⟩ : BufTy).Contents (Elt F) → (⟨S1x64, .f32⟩ : BufTy).Contents (Elt F)),
    unary main_v69 main_v70 (broadcastInDim S50000x64 ![0, 1] bcast_S1x64_S50000x64_0_1 : (⟨S1x64, .f32⟩ : BufTy).Contents (Elt F) → (⟨S50000x64, .f32⟩ : BufTy).Contents (Elt F)),
    binary main_v68 main_v70 main_v71 (mulf : (⟨S50000x64, .f32⟩ : BufTy).Contents (Elt F) → (⟨S50000x64, .f32⟩ : BufTy).Contents (Elt F) → (⟨S50000x64, .f32⟩ : BufTy).Contents (Elt F)),
    unary main_v55 main_v72 (broadcastInDim S1x64 ![1] bcast_S64_S1x64_1 : (⟨S64, .f32⟩ : BufTy).Contents (Elt F) → (⟨S1x64, .f32⟩ : BufTy).Contents (Elt F)),
    unary main_v72 main_v73 (broadcastInDim S50000x64 ![0, 1] bcast_S1x64_S50000x64_0_1 : (⟨S1x64, .f32⟩ : BufTy).Contents (Elt F) → (⟨S50000x64, .f32⟩ : BufTy).Contents (Elt F)),
    binary main_v71 main_v73 main_v74 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v74 : TRef sig ⟨S50000x64, .f32⟩) main_call1.v0 main_call1.v1 maximumf,
    unary main_arg3 main_v76 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v76 main_v77 rfl shapeCasts_S1x64x64_S64x64,
    unary main_arg4 main_v78 ((extractStridedSlice S1x64 ![1, 0] · slices_S4x64_S1x64_1_0) : (⟨S4x64, .f32⟩ : BufTy).Contents (Elt F) → (⟨S1x64, .f32⟩ : BufTy).Contents (Elt F)),
    reshape main_v78 main_v79 rfl shapeCasts_S1x64_S64,
    nullary main_cst_12 (constant S_ .f32 0x3F800000#32),
    unary main_cst_12 main_v80 (broadcastInDim S800000 ![] bcast_S_S800000 : (⟨S_, .f32⟩ : BufTy).Contents (Elt F) → (⟨S800000, .f32⟩ : BufTy).Contents (Elt F)),
    nullary main_cst_13 (constant S_ .f32 0x00000000#32),
    unary main_cst_13 main_v81 (broadcastInDim S50000 ![] bcast_S_S50000 : (⟨S_, .f32⟩ : BufTy).Contents (Elt F) → (⟨S50000, .f32⟩ : BufTy).Contents (Elt F)),
    unary main_v3 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_14 (constant S_ .f32 0x3F800000#32),
    unary main_cst_14 main_v84 (broadcastInDim S50000 ![] bcast_S_S50000 : (⟨S_, .f32⟩ : BufTy).Contents (Elt F) → (⟨S50000, .f32⟩ : BufTy).Contents (Elt F)),
    binary main_v83 main_v84 main_v85 (addf : (⟨S50000, .f32⟩ : BufTy).Contents (Elt F) → (⟨S50000, .f32⟩ : BufTy).Contents (Elt F) → (⟨S50000, .f32⟩ : BufTy).Contents (Elt F)),
    unary main_v85 main_v86 (Host.rsqrt : (⟨S50000, .f32⟩ : BufTy).Contents (Elt F) → (⟨S50000, .f32⟩ : BufTy).Contents (Elt F)),
    binary main_v75 main_v77 main_v87 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_15 (constantI S_ 32 0#32),
    unary main_c_15 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v86 main_v93 main_v94 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_17 (constantI S_ 32 0#32),
    unary main_c_17 main_v95 (broadcastInDim S800000 ![] bcast_S_S800000 : (⟨S_, .i32⟩ : BufTy).Contents (Elt F) → (⟨S800000, .i32⟩ : BufTy).Contents (Elt F)),
    binary main_v3 main_v95 main_v96 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v97 (broadcastInDim S800000 ![] bcast_S_S800000 : (⟨S_, .i32⟩ : BufTy).Contents (Elt F) → (⟨S800000, .i32⟩ : BufTy).Contents (Elt F)),
    binary main_v3 main_v97 main_v98 (addi : (⟨S800000, .i32⟩ : BufTy).Contents (Elt F) → (⟨S800000, .i32⟩ : BufTy).Contents (Elt F) → (⟨S800000, .i32⟩ : BufTy).Contents (Elt F)) ]

set_option maxRecDepth 8192 in
theorem main_part1_eq (c : Dev nD) : main_part1 (F := F) c = seq ops_part1 := by
  simp only [main_part1, fn_var.body, fn_where.body, fn_relu.body, fn_relu_0.body, seq, bind_assoc, pure_bind]
  all_goals rfl

set_option maxRecDepth 8192 in
theorem ops_part1_sub : (ops_part1 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩

set_option maxRecDepth 8192 in
theorem ops_part1_fresh : ∀ op ∈ (ops_part1 : List (HloOp τ sig (Elt F))), op.fresh = ∅ := by
  intro _ h; (repeat (cases h with | head => rfl | tail _ h => ?_)); exact nomatch h

/-- The buffers the window's operations write. -/
abbrev ops_part1_W : List (Ref sig .tc) := [main_v50, main_v51, main_v52, main_v53, main_v54, main_v55, main_cst_8, main_v56, main_cst_9, main_v57, main_v58, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v59, main_v60, main_v61, main_v62, main_cst_11, main_v63, main_v64, main_v65, main_v66, main_v67, main_v68, main_v69, main_v70, main_v71, main_v72, main_v73, main_v74, main_call1_cst, main_call1_v0, main_v75, main_v76, main_v77, main_v78, main_v79, main_cst_12, main_v80, main_cst_13, main_v81, main_v82, main_v83, main_cst_14, main_v84, main_v85, main_v86, main_v87, main_c_15, main_v88, main_v89, main_c_16, main_v90, main_v91, main_v92, main_v93, main_v94, main_c_17, main_v95, main_v96, main_c_18, main_v97, main_v98]

set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part1_keep (V : Valuation τ sig (Elt F)) (r : Ref sig .tc) (h : r ∉ ops_part1_W) :
    after ops_part1 V (Proc.devRef .tc r) = V (Proc.devRef .tc r) :=
  after_of_writes_sub ops_part1 _ ops_part1_writes h

attribute [local irreducible] Host.reduceAdd Host.gather Host.scatterAdd in
set_option maxRecDepth 8192 in
set_option maxHeartbeats 2000000 in
theorem part1_conv0 (V : Valuation τ sig (Elt F)) :
    after ops_part1 V (no_index (Proc.devRef .tc main_v51)) = f_conv0 (V (Proc.devRef .tc main_v48)) (V (Proc.devRef .tc main_v49)) := by
  simp only [ops_part1]
  after_results_simp
  rfl

attribute [local irreducible] Host.reduceAdd Host.gather Host.scatterAdd in
set_option maxRecDepth 8192 in
set_option maxHeartbeats 2000000 in
theorem part1_gamma0 (V : Valuation τ sig (Elt F)) :
    after ops_part1 V (no_index (Proc.devRef .tc main_v53)) = f_row0 (V (Proc.devRef .tc main_arg5)) := by
  simp only [ops_part1]
  after_results_simp
  rfl

attribute [local irreducible] Host.reduceAdd Host.gather Host.scatterAdd in
set_option maxRecDepth 8192 in
set_option maxHeartbeats 2000000 in
theorem part1_beta0 (V : Valuation τ sig (Elt F)) :
    after ops_part1 V (no_index (Proc.devRef .tc main_v55)) = f_row0 (V (Proc.devRef .tc main_arg6)) := by
  simp only [ops_part1]
  after_results_simp
  rfl

attribute [local irreducible] Host.reduceAdd Host.gather Host.scatterAdd in
set_option maxRecDepth 8192 in
set_option maxHeartbeats 2000000 in
theorem part1_mean0 (V : Valuation τ sig (Elt F)) :
    after ops_part1 V (no_index (Proc.devRef .tc main_v58)) = f_mean (after ops_part1 V (Proc.devRef .tc main_v51)) := by
  simp only [ops_part1]
  after_results_simp
  rfl

attribute [local irreducible] Host.reduceAdd Host.gather Host.scatterAdd in
set_option maxRecDepth 8192 in
set_option maxHeartbeats 2000000 in
theorem part1_var0 (V : Valuation τ sig (Elt F)) :
    after ops_part1 V (no_index (Proc.devRef .tc main_v59)) = f_var (after ops_part1 V (Proc.devRef .tc main_v51)) := by
  simp only [ops_part1]
  after_results_simp
  rfl

attribute [local irreducible] Host.reduceAdd Host.gather Host.scatterAdd in
set_option maxRecDepth 8192 in
set_option maxHeartbeats 2000000 in
theorem part1_bn0 (V : Valuation τ sig (Elt F)) :
    after ops_part1 V (no_index (Proc.devRef .tc main_v74)) = f_bn (after ops_part1 V (Proc.devRef .tc main_v51)) (after ops_part1 V (Proc.devRef .tc main_v58)) (after ops_part1 V (Proc.devRef .tc main_v59)) (after ops_part1 V (Proc.devRef .tc main_v53)) (after ops_part1 V (Proc.devRef .tc main_v55)) := by
  simp only [ops_part1]
  after_results_simp
  rfl

attribute [local irreducible] Host.reduceAdd Host.gather Host.scatterAdd in
set_option maxRecDepth 8192 in
set_option maxHeartbeats 2000000 in
theorem part1_relu0 (V : Valuation τ sig (Elt F)) :
    after ops_part1 V (no_index (Proc.devRef .tc main_v75)) = f_relu (after ops_part1 V (Proc.devRef .tc main_v74)) := by
  simp only [ops_part1]
  after_results_simp
  rfl

attribute [local irreducible] Host.reduceAdd Host.gather Host.scatterAdd in
set_option maxRecDepth 8192 in
set_option maxHeartbeats 2000000 in
theorem part1_W1 (V : Valuation τ sig (Elt F)) :
    after ops_part1 V (no_index (Proc.devRef .tc main_v77)) = f_W1 (V (Proc.devRef .tc main_arg3)) := by
  simp only [ops_part1]
  after_results_simp
  rfl

attribute [local irreducible] Host.reduceAdd Host.gather Host.scatterAdd in
set_option maxRecDepth 8192 in
set_option maxHeartbeats 2000000 in
theorem part1_bias1 (V : Valuation τ sig (Elt F)) :
    after ops_part1 V (no_index (Proc.devRef .tc main_v79)) = f_row1 (V (Proc.devRef .tc main_arg4)) := by
  simp only [ops_part1]
  after_results_simp
  rfl

attribute [local irreducible] Host.reduceAdd Host.gather Host.scatterAdd in
set_option maxRecDepth 8192 in
set_option maxHeartbeats 2000000 in
theorem part1_dinv1 (V : Valuation τ sig (Elt F)) :
    after ops_part1 V (no_index (Proc.devRef .tc main_v86)) = f_dinv (V (Proc.devRef .tc main_v3)) := by
  simp only [ops_part1]
  after_results_simp
  rfl

attribute [local irreducible] Host.reduceAdd Host.gather Host.scatterAdd in
set_option maxRecDepth 8192 in
set_option maxHeartbeats 2000000 in
theorem part1_hw1 (V : Valuation τ sig (Elt F)) :
    after ops_part1 V (no_index (Proc.devRef .tc main_v87)) = f_hw (after ops_part1 V (Proc.devRef .tc main_v75)) (after ops_part1 V (Proc.devRef .tc main_v77)) := by
  simp only [ops_part1]
  after_results_simp
  rfl

attribute [local irreducible] Host.reduceAdd Host.gather Host.scatterAdd in
set_option maxRecDepth 8192 in
set_option maxHeartbeats 2000000 in
theorem part1_aux_v94 (V : Valuation τ sig (Elt F)) :
    after ops_part1 V (no_index (Proc.devRef .tc main_v94)) = f_aux_v94 (after ops_part1 V (Proc.devRef .tc main_v86)) (V (Proc.devRef .tc main_v1)) := by
  simp only [ops_part1]
  after_results_simp
  rfl

attribute [local irreducible] Host.reduceAdd Host.gather Host.scatterAdd in
set_option maxRecDepth 8192 in
set_option maxHeartbeats 2000000 in
theorem part1_aux_v96 (V : Valuation τ sig (Elt F)) :
    after ops_part1 V (no_index (Proc.devRef .tc main_v96)) = f_aux_v96 (V (Proc.devRef .tc main_v3)) := by
  simp only [ops_part1]
  after_results_simp
  rfl

attribute [local irreducible] Host.reduceAdd Host.gather Host.scatterAdd in
set_option maxRecDepth 8192 in
set_option maxHeartbeats 2000000 in
theorem part1_aux_v98 (V : Valuation τ sig (Elt F)) :
    after ops_part1 V (no_index (Proc.devRef .tc main_v98)) = f_aux_v98 (V (Proc.devRef .tc main_v3)) := by
  simp only [ops_part1]
  after_results_simp
  rfl

end Cert.ReferenceIdeal.RefRun

end
-- ==== Proof.Ref.Part2.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 2, in order; a called function's operations stand at its call over the call's buffers. -/
abbrev ops_part2 : List (HloOp τ sig (Elt F)) :=
  [ ternary main_v96 main_v98 main_v3 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v86 main_v100 main_v101 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v94 main_v101 main_v102 (mulf : (⟨S800000, .f32⟩ : BufTy).Contents (Elt F) → (⟨S800000, .f32⟩ : BufTy).Contents (Elt F) → (⟨S800000, .f32⟩ : BufTy).Contents (Elt F)),
    nullary main_c_19 (constantI S_ 32 0#32),
    unary main_c_19 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v87 main_v108 main_v109 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v102 main_v110 (broadcastInDim S800000x1 ![0] bcast_S800000_S800000x1_0 : (⟨S800000, .f32⟩ : BufTy).Contents (Elt F) → (⟨S800000x1, .f32⟩ : BufTy).Contents (Elt F)),
    unary main_v110 main_v111 (broadcastInDim S800000x64 ![0, 1] bcast_S800000x1_S800000x64_0_1 : (⟨S800000x1, .f32⟩ : BufTy).Contents (Elt F) → (⟨S800000x64, .f32⟩ : BufTy).Contents (Elt F)),
    binary main_v109 main_v111 main_v112 (mulf : (⟨S800000x64, .f32⟩ : BufTy).Contents (Elt F) → (⟨S800000x64, .f32⟩ : BufTy).Contents (Elt F) → (⟨S800000x64, .f32⟩ : BufTy).Contents (Elt F)),
    nullary main_cst_21 (constant S_ .f32 0x00000000#32),
    unary main_cst_21 main_v113 (broadcastInDim S50000x64 ![] bcast_S_S50000x64 : (⟨S_, .f32⟩ : BufTy).Contents (Elt F) → (⟨S50000x64, .f32⟩ : BufTy).Contents (Elt F)),
    unary main_v3 main_v114 (broadcastInDim S800000x1 ![0] bcast_S800000_S800000x1_0 : (⟨S800000, .i32⟩ : BufTy).Contents (Elt F) → (⟨S800000x1, .i32⟩ : BufTy).Contents (Elt F)),
    ternary main_v113 main_v114 main_v112 main_v115 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v86 main_v86 main_v116 (mulf : (⟨S50000, .f32⟩ : BufTy).Contents (Elt F) → (⟨S50000, .f32⟩ : BufTy).Contents (Elt F) → (⟨S50000, .f32⟩ : BufTy).Contents (Elt F)),
    unary main_v116 main_v117 (broadcastInDim S50000x1 ![0] bcast_S50000_S50000x1_0 : (⟨S50000, .f32⟩ : BufTy).Contents (Elt F) → (⟨S50000x1, .f32⟩ : BufTy).Contents (Elt F)),
    unary main_v117 main_v118 (broadcastInDim S50000x64 ![0, 1] bcast_S50000x1_S50000x64_0_1 : (⟨S50000x1, .f32⟩ : BufTy).Contents (Elt F) → (⟨S50000x64, .f32⟩ : BufTy).Contents (Elt F)),
    binary main_v87 main_v118 main_v119 (mulf : (⟨S50000x64, .f32⟩ : BufTy).Contents (Elt F) → (⟨S50000x64, .f32⟩ : BufTy).Contents (Elt F) → (⟨S50000x64, .f32⟩ : BufTy).Contents (Elt F)),
    binary main_v115 main_v119 main_v120 (addf : (⟨S50000x64, .f32⟩ : BufTy).Contents (Elt F) → (⟨S50000x64, .f32⟩ : BufTy).Contents (Elt F) → (⟨S50000x64, .f32⟩ : BufTy).Contents (Elt F)),
    unary main_v79 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v120 main_v122 main_v123 (addf : (⟨S50000x64, .f32⟩ : BufTy).Contents (Elt F) → (⟨S50000x64, .f32⟩ : BufTy).Contents (Elt F) → (⟨S50000x64, .f32⟩ : BufTy).Contents (Elt F)),
    unary main_arg5 main_v124 ((extractStridedSlice S1x64 ![1, 0] · slices_S4x64_S1x64_1_0) : (⟨S4x64, .f32⟩ : BufTy).Contents (Elt F) → (⟨S1x64, .f32⟩ : BufTy).Contents (Elt F)),
    reshape main_v124 main_v125 rfl shapeCasts_S1x64_S64,
    unary main_arg6 main_v126 ((extractStridedSlice S1x64 ![1, 0] · slices_S4x64_S1x64_1_0) : (⟨S4x64, .f32⟩ : BufTy).Contents (Elt F) → (⟨S1x64, .f32⟩ : BufTy).Contents (Elt F)),
    reshape main_v126 main_v127 rfl shapeCasts_S1x64_S64,
    nullary main_cst_22 (constant S_ .f32 0x00000000#32),
    binary main_v123 main_cst_22 main_v128 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v129 (broadcastInDim S64 ![] bcast_S_S64 : (⟨S_, .f32⟩ : BufTy).Contents (Elt F) → (⟨S64, .f32⟩ : BufTy).Contents (Elt F)),
    binary main_v128 main_v129 main_v130 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary main_call2.cst (constant S_ .f32 0x00000000#32),
    TRef.binary (.of main_v123 : TRef sig ⟨S50000x64, .f32⟩) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (.of main_v123 : TRef sig ⟨S50000x64, .f32⟩) main_call2.v4 main_call2.v5 subf,
    TRef.binary main_call2.v5 main_call2.v5 main_call2.v6 mulf,
    TRef.unary (.of main_c_24 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v130 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v123 main_v133 main_v134 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v135 (broadcastInDim S64 ![] bcast_S_S64 : (⟨S_, .f32⟩ : BufTy).Contents (Elt F) → (⟨S64, .f32⟩ : BufTy).Contents (Elt F)),
    binary main_v131 main_v135 main_v136 (addf : (⟨S64, .f32⟩ : BufTy).Contents (Elt F) → (⟨S64, .f32⟩ : BufTy).Contents (Elt F) → (⟨S64, .f32⟩ : BufTy).Contents (Elt F)),
    unary main_v136 main_v137 (Host.rsqrt : (⟨S64, .f32⟩ : BufTy).Contents (Elt F) → (⟨S64, .f32⟩ : BufTy).Contents (Elt F)),
    unary main_v137 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v134 main_v139 main_v140 (mulf : (⟨S50000x64, .f32⟩ : BufTy).Contents (Elt F) → (⟨S50000x64, .f32⟩ : BufTy).Contents (Elt F) → (⟨S50000x64, .f32⟩ : BufTy).Contents (Elt F)),
    unary main_v125 main_v141 (broadcastInDim S1x64 ![1] bcast_S64_S1x64_1 : (⟨S64, .f32⟩ : BufTy).Contents (Elt F) → (⟨S1x64, .f32⟩ : BufTy).Contents (Elt F)),
    unary main_v141 main_v142 (broadcastInDim S50000x64 ![0, 1] bcast_S1x64_S50000x64_0_1 : (⟨S1x64, .f32⟩ : BufTy).Contents (Elt F) → (⟨S50000x64, .f32⟩ : BufTy).Contents (Elt F)),
    binary main_v140 main_v142 main_v143 (mulf : (⟨S50000x64, .f32⟩ : BufTy).Contents (Elt F) → (⟨S50000x64, .f32⟩ : BufTy).Contents (Elt F) → (⟨S50000x64, .f32⟩ : BufTy).Contents (Elt F)),
    unary main_v127 main_v144 (broadcastInDim S1x64 ![1] bcast_S64_S1x64_1 : (⟨S64, .f32⟩ : BufTy).Contents (Elt F) → (⟨S1x64, .f32⟩ : BufTy).Contents (Elt F)),
    unary main_v144 main_v145 (broadcastInDim S50000x64 ![0, 1] bcast_S1x64_S50000x64_0_1 : (⟨S1x64, .f32⟩ : BufTy).Contents (Elt F) → (⟨S50000x64, .f32⟩ : BufTy).Contents (Elt F)),
    binary main_v143 main_v145 main_v146 (addf : (⟨S50000x64, .f32⟩ : BufTy).Contents (Elt F) → (⟨S50000x64, .f32⟩ : BufTy).Contents (Elt F) → (⟨S50000x64, .f32⟩ : BufTy).Contents (Elt F)),
    TRef.nullary main_call3.cst (constant S_ .f32 0x00000000#32),
    TRef.unary main_call3.cst main_call3.v0 (broadcastInDim S50000x64 ![] bcast_S_S50000x64),
    TRef.binary (.of main_v146 : TRef sig ⟨S50000x64, .f32⟩) main_call3.v0 main_call3.v1 maximumf,
    unary main_arg3 main_v148 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v148 main_v149 rfl shapeCasts_S1x64x64_S64x64,
    unary main_arg4 main_v150 ((extractStridedSlice S1x64 ![2, 0] · slices_S4x64_S1x64_2_0) : (⟨S4x64, .f32⟩ : BufTy).Contents (Elt F) → (⟨S1x64, .f32⟩ : BufTy).Contents (Elt F)),
    reshape main_v150 main_v151 rfl shapeCasts_S1x64_S64 ]

set_option maxRecDepth 8192 in
theorem main_part2_eq (c : Dev nD) : main_part2 (F := F) c = seq ops_part2 := by
  simp only [main_part2, fn_var.body, fn_where.body, fn_relu.body, fn_relu_0.body, seq, bind_assoc, pure_bind]
  all_goals rfl

set_option maxRecDepth 8192 in
theorem ops_part2_sub : (ops_part2 : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub ..⟩

set_option maxRecDepth 8192 in
theorem ops_part2_fresh : ∀ op ∈ (ops_part2 : List (HloOp τ sig (Elt F))), op.fresh = ∅ := by
  intro _ h; (repeat (cases h with | head => rfl | tail _ h => ?_)); exact nomatch h

/-- The buffers the window's operations write. -/
abbrev ops_part2_W : List (Ref sig .tc) := [main_v99, main_v100, main_v101, main_v102, main_c_19, main_v103, main_v104, main_c_20, main_v105, main_v106, main_v107, main_v108, main_v109, main_v110, main_v111, main_v112, main_cst_21, main_v113, main_v114, main_v115, main_v116, main_v117, main_v118, main_v119, main_v120, main_v121, main_v122, main_v123, main_v124, main_v125, main_v126, main_v127, main_cst_22, main_v128, main_cst_23, main_v129, main_v130, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v131, main_v132, main_v133, main_v134, main_cst_25, main_v135, main_v136, main_v137, main_v138, main_v139, main_v140, main_v141, main_v142, main_v143, main_v144, main_v145, main_v146, main_call3_cst, main_call3_v0, main_v147, main_v148, main_v149, main_v150, main_v151]

set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part2_keep (V : Valuation τ sig (Elt F)) (r : Ref sig .tc) (h : r ∉ ops_part2_W) :
    after ops_part2 V (Proc.devRef .tc r) = V (Proc.devRef .tc r) :=
  after_of_writes_sub ops_part2 _ ops_part2_writes h

attribute [local irreducible] Host.reduceAdd Host.gather Host.scatterAdd in
set_option maxRecDepth 8192 in
set_option maxHeartbeats 2000000 in
theorem part2_norm1 (V : Valuation τ sig (Elt F)) :
    after ops_part2 V (no_index (Proc.devRef .tc main_v102)) = f_norm1 (V (Proc.devRef .tc main_v94)) (V (Proc.devRef .tc main_v86)) (V (Proc.devRef .tc main_v96)) (V (Proc.devRef .tc main_v98)) (V (Proc.devRef .tc main_v3)) := by
  simp only [ops_part2]
  after_results_simp
  rfl

attribute [local irreducible] Host.reduceAdd Host.gather Host.scatterAdd in
set_option maxRecDepth 8192 in
set_option maxHeartbeats 2000000 in
theorem part2_agg1 (V : Valuation τ sig (Elt F)) :
    after ops_part2 V (no_index (Proc.devRef .tc main_v115)) = f_agg (V (Proc.devRef .tc main_v3)) (V (Proc.devRef .tc main_v87)) (V (Proc.devRef .tc main_v1)) (after ops_part2 V (Proc.devRef .tc main_v102)) := by
  simp only [ops_part2]
  after_results_simp
  rfl

attribute [local irreducible] Host.reduceAdd Host.gather Host.scatterAdd in
set_option maxRecDepth 8192 in
set_option maxHeartbeats 2000000 in
theorem part2_conv1 (V : Valuation τ sig (Elt F)) :
    after ops_part2 V (no_index (Proc.devRef .tc main_v123)) = f_conv (after ops_part2 V (Proc.devRef .tc main_v115)) (V (Proc.devRef .tc main_v87)) (V (Proc.devRef .tc main_v86)) (V (Proc.devRef .tc main_v79)) := by
  simp only [ops_part2]
  after_results_simp
  rfl

attribute [local irreducible] Host.reduceAdd Host.gather Host.scatterAdd in
set_option maxRecDepth 8192 in
set_option maxHeartbeats 2000000 in
theorem part2_gamma1 (V : Valuation τ sig (Elt F)) :
    after ops_part2 V (no_index (Proc.devRef .tc main_v125)) = f_row1 (V (Proc.devRef .tc main_arg5)) := by
  simp only [ops_part2]
  after_results_simp
  rfl

attribute [local irreducible] Host.reduceAdd Host.gather Host.scatterAdd in
set_option maxRecDepth 8192 in
set_option maxHeartbeats 2000000 in
theorem part2_beta1 (V : Valuation τ sig (Elt F)) :
    after ops_part2 V (no_index (Proc.devRef .tc main_v127)) = f_row1 (V (Proc.devRef .tc main_arg6)) := by
  simp only [ops_part2]
  after_results_simp
  rfl

attribute [local irreducible] Host.reduceAdd Host.gather Host.scatterAdd in
set_option maxRecDepth 8192 in
set_option maxHeartbeats 2000000 in
theorem part2_mean1 (V : Valuation τ sig (Elt F)) :
    after ops_part2 V (no_index (Proc.devRef .tc main_v130)) = f_mean (after ops_part2 V (Proc.devRef .tc main_v123)) := by
  simp only [ops_part2]
  after_results_simp
  rfl

attribute [local irreducible] Host.reduceAdd Host.gather Host.scatterAdd in
set_option maxRecDepth 8192 in
set_option maxHeartbeats 2000000 in
theorem part2_var1 (V : Valuation τ sig (Elt F)) :
    after ops_part2 V (no_index (Proc.devRef .tc main_v131)) = f_var (after ops_part2 V (Proc.devRef .tc main_v123)) := by
  simp only [ops_part2]
  after_results_simp
  rfl

attribute [local irreducible] Host.reduceAdd Host.gather Host.scatterAdd in
set_option maxRecDepth 8192 in
set_option maxHeartbeats 2000000 in
theorem part2_bn1 (V : Valuation τ sig (Elt F)) :
    after ops_part2 V (no_index (Proc.devRef .tc main_v146)) = f_bn (after ops_part2 V (Proc.devRef .tc main_v123)) (after ops_part2 V (Proc.devRef .tc main_v130)) (after ops_part2 V (Proc.devRef .tc main_v131)) (after ops_part2 V (Proc.devRef .tc main_v125)) (after ops_part2 V (Proc.devRef .tc main_v127)) := by
  simp only [ops_part2]
  after_results_simp
  rfl

attribute [local irreducible] Host.reduceAdd Host.gather Host.scatterAdd in
set_option maxRecDepth 8192 in
set_option maxHeartbeats 2000000 in
theorem part2_relu1 (V : Valuation τ sig (Elt F)) :
    after ops_part2 V (no_index (Proc.devRef .tc main_v147)) = f_relu (after ops_part2 V (Proc.devRef .tc main_v146)) := by
  simp only [ops_part2]
  after_results_simp
  rfl

attribute [local irreducible] Host.reduceAdd Host.gather Host.scatterAdd in
set_option maxRecDepth 8192 in
set_option maxHeartbeats 2000000 in
theorem part2_W2 (V : Valuation τ sig (Elt F)) :
    after ops_part2 V (no_index (Proc.devRef .tc main_v149)) = f_W2 (V (Proc.devRef .tc main_arg3)) := by
  simp only [ops_part2]
  after_results_simp
  rfl

attribute [local irreducible] Host.reduceAdd Host.gather Host.scatterAdd in
set_option maxRecDepth 8192 in
set_option maxHeartbeats 2000000 in
theorem part2_bias2 (V : Valuation τ sig (Elt F)) :
    after ops_part2 V (no_index (Proc.devRef .tc main_v151)) = f_row2 (V (Proc.devRef .tc main_arg4)) := by
  simp only [ops_part2]
  after_results_simp
  rfl

end Cert.ReferenceIdeal.RefRun

end
-- ==== Proof.Ref.Part3.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 3, in order; a called function's operations stand at its call over the call's buffers. -/
abbrev ops_part3 : List (HloOp τ sig (Elt F)) :=
  [ nullary main_cst_26 (constant S_ .f32 0x3F800000#32),
    unary main_cst_26 main_v152 (broadcastInDim S800000 ![] bcast_S_S800000 : (⟨S_, .f32⟩ : BufTy).Contents (Elt F) → (⟨S800000, .f32⟩ : BufTy).Contents (Elt F)),
    nullary main_cst_27 (constant S_ .f32 0x00000000#32),
    unary main_cst_27 main_v153 (broadcastInDim S50000 ![] bcast_S_S50000 : (⟨S_, .f32⟩ : BufTy).Contents (Elt F) → (⟨S50000, .f32⟩ : BufTy).Contents (Elt F)),
    unary main_v3 main_v154 (broadcastInDim S800000x1 ![0] bcast_S800000_S800000x1_0 : (⟨S800000, .i32⟩ : BufTy).Contents (Elt F) → (⟨S800000x1, .i32⟩ : BufTy).Contents (Elt F)),
    ternary main_v153 main_v154 main_v152 main_v155 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_28 (constant S_ .f32 0x3F800000#32),
    unary main_cst_28 main_v156 (broadcastInDim S50000 ![] bcast_S_S50000 : (⟨S_, .f32⟩ : BufTy).Contents (Elt F) → (⟨S50000, .f32⟩ : BufTy).Contents (Elt F)),
    binary main_v155 main_v156 main_v157 (addf : (⟨S50000, .f32⟩ : BufTy).Contents (Elt F) → (⟨S50000, .f32⟩ : BufTy).Contents (Elt F) → (⟨S50000, .f32⟩ : BufTy).Contents (Elt F)),
    unary main_v157 main_v158 (Host.rsqrt : (⟨S50000, .f32⟩ : BufTy).Contents (Elt F) → (⟨S50000, .f32⟩ : BufTy).Contents (Elt F)),
    binary main_v147 main_v149 main_v159 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_29 (constantI S_ 32 0#32),
    unary main_c_29 main_v160 (broadcastInDim S800000 ![] bcast_S_S800000 : (⟨S_, .i32⟩ : BufTy).Contents (Elt F) → (⟨S800000, .i32⟩ : BufTy).Contents (Elt F)),
    binary main_v1 main_v160 main_v161 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v162 (broadcastInDim S800000 ![] bcast_S_S800000 : (⟨S_, .i32⟩ : BufTy).Contents (Elt F) → (⟨S800000, .i32⟩ : BufTy).Contents (Elt F)),
    binary main_v1 main_v162 main_v163 (addi : (⟨S800000, .i32⟩ : BufTy).Contents (Elt F) → (⟨S800000, .i32⟩ : BufTy).Contents (Elt F) → (⟨S800000, .i32⟩ : BufTy).Contents (Elt F)),
    ternary main_v161 main_v163 main_v1 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v164 main_v165 (broadcastInDim S800000x1 ![0] bcast_S800000_S800000x1_0 : (⟨S800000, .i32⟩ : BufTy).Contents (Elt F) → (⟨S800000x1, .i32⟩ : BufTy).Contents (Elt F)),
    binary main_v158 main_v165 main_v166 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_31 (constantI S_ 32 0#32),
    unary main_c_31 main_v167 (broadcastInDim S800000 ![] bcast_S_S800000 : (⟨S_, .i32⟩ : BufTy).Contents (Elt F) → (⟨S800000, .i32⟩ : BufTy).Contents (Elt F)),
    binary main_v3 main_v167 main_v168 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v169 (broadcastInDim S800000 ![] bcast_S_S800000 : (⟨S_, .i32⟩ : BufTy).Contents (Elt F) → (⟨S800000, .i32⟩ : BufTy).Contents (Elt F)),
    binary main_v3 main_v169 main_v170 (addi : (⟨S800000, .i32⟩ : BufTy).Contents (Elt F) → (⟨S800000, .i32⟩ : BufTy).Contents (Elt F) → (⟨S800000, .i32⟩ : BufTy).Contents (Elt F)),
    ternary main_v168 main_v170 main_v3 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v171 main_v172 (broadcastInDim S800000x1 ![0] bcast_S800000_S800000x1_0 : (⟨S800000, .i32⟩ : BufTy).Contents (Elt F) → (⟨S800000x1, .i32⟩ : BufTy).Contents (Elt F)),
    binary main_v158 main_v172 main_v173 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v166 main_v173 main_v174 (mulf : (⟨S800000, .f32⟩ : BufTy).Contents (Elt F) → (⟨S800000, .f32⟩ : BufTy).Contents (Elt F) → (⟨S800000, .f32⟩ : BufTy).Contents (Elt F)),
    nullary main_c_33 (constantI S_ 32 0#32),
    unary main_c_33 main_v175 (broadcastInDim S800000 ![] bcast_S_S800000 : (⟨S_, .i32⟩ : BufTy).Contents (Elt F) → (⟨S800000, .i32⟩ : BufTy).Contents (Elt F)),
    binary main_v1 main_v175 main_v176 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v177 (broadcastInDim S800000 ![] bcast_S_S800000 : (⟨S_, .i32⟩ : BufTy).Contents (Elt F) → (⟨S800000, .i32⟩ : BufTy).Contents (Elt F)),
    binary main_v1 main_v177 main_v178 (addi : (⟨S800000, .i32⟩ : BufTy).Contents (Elt F) → (⟨S800000, .i32⟩ : BufTy).Contents (Elt F) → (⟨S800000, .i32⟩ : BufTy).Contents (Elt F)),
    ternary main_v176 main_v178 main_v1 main_v179 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v179 main_v180 (broadcastInDim S800000x1 ![0] bcast_S800000_S800000x1_0 : (⟨S800000, .i32⟩ : BufTy).Contents (Elt F) → (⟨S800000x1, .i32⟩ : BufTy).Contents (Elt F)),
    binary main_v159 main_v180 main_v181 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v174 main_v182 (broadcastInDim S800000x1 ![0] bcast_S800000_S800000x1_0 : (⟨S800000, .f32⟩ : BufTy).Contents (Elt F) → (⟨S800000x1, .f32⟩ : BufTy).Contents (Elt F)),
    unary main_v182 main_v183 (broadcastInDim S800000x64 ![0, 1] bcast_S800000x1_S800000x64_0_1 : (⟨S800000x1, .f32⟩ : BufTy).Contents (Elt F) → (⟨S800000x64, .f32⟩ : BufTy).Contents (Elt F)),
    binary main_v181 main_v183 main_v184 (mulf : (⟨S800000x64, .f32⟩ : BufTy).Contents (Elt F) → (⟨S800000x64, .f32⟩ : BufTy).Contents (Elt F) → (⟨S800000x64, .f32⟩ : BufTy).Contents (Elt F)),
    nullary main_cst_35 (constant S_ .f32 0x00000000#32),
    unary main_cst_35 main_v185 (broadcastInDim S50000x64 ![] bcast_S_S50000x64 : (⟨S_, .f32⟩ : BufTy).Contents (Elt F) → (⟨S50000x64, .f32⟩ : BufTy).Contents (Elt F)),
    unary main_v3 main_v186 (broadcastInDim S800000x1 ![0] bcast_S800000_S800000x1_0 : (⟨S800000, .i32⟩ : BufTy).Contents (Elt F) → (⟨S800000x1, .i32⟩ : BufTy).Contents (Elt F)),
    ternary main_v185 main_v186 main_v184 main_v187 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v158 main_v158 main_v188 (mulf : (⟨S50000, .f32⟩ : BufTy).Contents (Elt F) → (⟨S50000, .f32⟩ : BufTy).Contents (Elt F) → (⟨S50000, .f32⟩ : BufTy).Contents (Elt F)),
    unary main_v188 main_v189 (broadcastInDim S50000x1 ![0] bcast_S50000_S50000x1_0 : (⟨S50000, .f32⟩ : BufTy).Contents (Elt F) → (⟨S50000x1, .f32⟩ : BufTy).Contents (Elt F)),
    unary main_v189 main_v190 (broadcastInDim S50000x64 ![0, 1] bcast_S50000x1_S50000x64_0_1 : (⟨S50000x1, .f32⟩ : BufTy).Contents (Elt F) → (⟨S50000x64, .f32⟩ : BufTy).Contents (Elt F)),
    binary main_v159 main_v190 main_v191 (mulf : (⟨S50000x64, .f32⟩ : BufTy).Contents (Elt F) → (⟨S50000x64, .f32⟩ : BufTy).Contents (Elt F) → (⟨S50000x64, .f32⟩ : BufTy).Contents (Elt F)),
    binary main_v187 main_v191 main_v192 (addf : (⟨S50000x64, .f32⟩ : BufTy).Contents (Elt F) → (⟨S50000x64, .f32⟩ : BufTy).Contents (Elt F) → (⟨S50000x64, .f32⟩ : BufTy).Contents (Elt F)),
    unary main_v151 main_v193 (broadcastInDim S1x64 ![1] bcast_S64_S1x64_1 : (⟨S64, .f32⟩ : BufTy).Contents (Elt F) → (⟨S1x64, .f32⟩ : BufTy).Contents (Elt F)),
    unary main_v193 main_v194 (broadcastInDim S50000x64 ![0, 1] bcast_S1x64_S50000x64_0_1 : (⟨S1x64, .f32⟩ : BufTy).Contents (Elt F) → (⟨S50000x64, .f32⟩ : BufTy).Contents (Elt F)),
    binary main_v192 main_v194 main_v195 (addf : (⟨S50000x64, .f32⟩ : BufTy).Contents (Elt F) → (⟨S50000x64, .f32⟩ : BufTy).Contents (Elt F) → (⟨S50000x64, .f32⟩ : BufTy).Contents (Elt F)),
    unary main_arg5 main_v196 ((extractStridedSlice S1x64 ![2, 0] · slices_S4x64_S1x64_2_0) : (⟨S4x64, .f32⟩ : BufTy).Contents (Elt F) → (⟨S1x64, .f32⟩ : BufTy).Contents (Elt F)),
    reshape main_v196 main_v197 rfl shapeCasts_S1x64_S64,
    unary main_arg6 main_v198 ((extractStridedSlice S1x64 ![2, 0] · slices_S4x64_S1x64_2_0) : (⟨S4x64, .f32⟩ : BufTy).Contents (Elt F) → (⟨S1x64, .f32⟩ : BufTy).Contents (Elt F)),
    reshape main_v198 main_v199 rfl shapeCasts_S1x64_S64,
    nullary main_cst_36 (constant S_ .f32 0x00000000#32),
    binary main_v195 main_cst_36 main_v200 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ]

set_option maxRecDepth 8192 in
theorem main_part3_eq (c : Dev nD) : main_part3 (F := F) c = seq ops_part3 := rfl

set_option maxRecDepth 8192 in
theorem ops_part3_sub : (ops_part3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub ..⟩

set_option maxRecDepth 8192 in
theorem ops_part3_fresh : ∀ op ∈ (ops_part3 : List (HloOp τ sig (Elt F))), op.fresh = ∅ := by
  intro _ h; (repeat (cases h with | head => rfl | tail _ h => ?_)); exact nomatch h

/-- The buffers the window's operations write. -/
abbrev ops_part3_W : List (Ref sig .tc) := [main_cst_26, main_v152, main_cst_27, main_v153, main_v154, main_v155, main_cst_28, main_v156, main_v157, main_v158, main_v159, main_c_29, main_v160, main_v161, main_c_30, main_v162, main_v163, main_v164, main_v165, main_v166, main_c_31, main_v167, main_v168, main_c_32, main_v169, main_v170, main_v171, main_v172, main_v173, main_v174, main_c_33, main_v175, main_v176, main_c_34, main_v177, main_v178, main_v179, main_v180, main_v181, main_v182, main_v183, main_v184, main_cst_35, main_v185, main_v186, main_v187, main_v188, main_v189, main_v190, main_v191, main_v192, main_v193, main_v194, main_v195, main_v196, main_v197, main_v198, main_v199, main_cst_36, main_v200]

set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part3_keep (V : Valuation τ sig (Elt F)) (r : Ref sig .tc) (h : r ∉ ops_part3_W) :
    after ops_part3 V (Proc.devRef .tc r) = V (Proc.devRef .tc r) :=
  after_of_writes_sub ops_part3 _ ops_part3_writes h

attribute [local irreducible] Host.reduceAdd Host.gather Host.scatterAdd in
set_option maxRecDepth 8192 in
set_option maxHeartbeats 2000000 in
theorem part3_dinv2 (V : Valuation τ sig (Elt F)) :
    after ops_part3 V (no_index (Proc.devRef .tc main_v158)) = f_dinv (V (Proc.devRef .tc main_v3)) := by
  simp only [ops_part3]
  after_results_simp
  rfl

attribute [local irreducible] Host.reduceAdd Host.gather Host.scatterAdd in
set_option maxRecDepth 8192 in
set_option maxHeartbeats 2000000 in
theorem part3_hw2 (V : Valuation τ sig (Elt F)) :
    after ops_part3 V (no_index (Proc.devRef .tc main_v159)) = f_hw (V (Proc.devRef .tc main_v147)) (V (Proc.devRef .tc main_v149)) := by
  simp only [ops_part3]
  after_results_simp
  rfl

attribute [local irreducible] Host.reduceAdd Host.gather Host.scatterAdd in
set_option maxRecDepth 8192 in
set_option maxHeartbeats 2000000 in
theorem part3_norm2 (V : Valuation τ sig (Elt F)) :
    after ops_part3 V (no_index (Proc.devRef .tc main_v174)) = f_norm (after ops_part3 V (Proc.devRef .tc main_v158)) (V (Proc.devRef .tc main_v1)) (V (Proc.devRef .tc main_v3)) := by
  simp only [ops_part3]
  after_results_simp
  rfl

attribute [local irreducible] Host.reduceAdd Host.gather Host.scatterAdd in
set_option maxRecDepth 8192 in
set_option maxHeartbeats 2000000 in
theorem part3_agg2 (V : Valuation τ sig (Elt F)) :
    after ops_part3 V (no_index (Proc.devRef .tc main_v187)) = f_agg (V (Proc.devRef .tc main_v3)) (after ops_part3 V (Proc.devRef .tc main_v159)) (V (Proc.devRef .tc main_v1)) (after ops_part3 V (Proc.devRef .tc main_v174)) := by
  simp only [ops_part3]
  after_results_simp
  rfl

attribute [local irreducible] Host.reduceAdd Host.gather Host.scatterAdd in
set_option maxRecDepth 8192 in
set_option maxHeartbeats 2000000 in
theorem part3_conv2 (V : Valuation τ sig (Elt F)) :
    after ops_part3 V (no_index (Proc.devRef .tc main_v195)) = f_conv (after ops_part3 V (Proc.devRef .tc main_v187)) (after ops_part3 V (Proc.devRef .tc main_v159)) (after ops_part3 V (Proc.devRef .tc main_v158)) (V (Proc.devRef .tc main_v151)) := by
  simp only [ops_part3]
  after_results_simp
  rfl

attribute [local irreducible] Host.reduceAdd Host.gather Host.scatterAdd in
set_option maxRecDepth 8192 in
set_option maxHeartbeats 2000000 in
theorem part3_gamma2 (V : Valuation τ sig (Elt F)) :
    after ops_part3 V (no_index (Proc.devRef .tc main_v197)) = f_row2 (V (Proc.devRef .tc main_arg5)) := by
  simp only [ops_part3]
  after_results_simp
  rfl

attribute [local irreducible] Host.reduceAdd Host.gather Host.scatterAdd in
set_option maxRecDepth 8192 in
set_option maxHeartbeats 2000000 in
theorem part3_beta2 (V : Valuation τ sig (Elt F)) :
    after ops_part3 V (no_index (Proc.devRef .tc main_v199)) = f_row2 (V (Proc.devRef .tc main_arg6)) := by
  simp only [ops_part3]
  after_results_simp
  rfl

attribute [local irreducible] Host.reduceAdd Host.gather Host.scatterAdd in
set_option maxRecDepth 8192 in
set_option maxHeartbeats 2000000 in
theorem part3_aux_v200 (V : Valuation τ sig (Elt F)) :
    after ops_part3 V (no_index (Proc.devRef .tc main_v200)) = f_aux_v200 (after ops_part3 V (Proc.devRef .tc main_v195)) := by
  simp only [ops_part3]
  after_results_simp
  rfl

end Cert.ReferenceIdeal.RefRun

end
-- ==== Proof.Ref.Part4.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 4, in order; a called function's operations stand at its call over the call's buffers. -/
abbrev ops_part4 : List (HloOp τ sig (Elt F)) :=
  [ nullary main_cst_37 (constant S_ .f32 0x47435000#32),
    unary main_cst_37 main_v201 (broadcastInDim S64 ![] bcast_S_S64 : (⟨S_, .f32⟩ : BufTy).Contents (Elt F) → (⟨S64, .f32⟩ : BufTy).Contents (Elt F)),
    binary main_v200 main_v201 main_v202 (Host.divf : (⟨S64, .f32⟩ : BufTy).Contents (Elt F) → (⟨S64, .f32⟩ : BufTy).Contents (Elt F) → (⟨S64, .f32⟩ : BufTy).Contents (Elt F)),
    nullary main_c_38 (constantI S_ 32 0#32),
    TRef.nullary main_call4.cst (constant S_ .f32 0x00000000#32),
    TRef.binary (.of main_v195 : TRef sig ⟨S50000x64, .f32⟩) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (.of main_v195 : TRef sig ⟨S50000x64, .f32⟩) main_call4.v4 main_call4.v5 subf,
    TRef.binary main_call4.v5 main_call4.v5 main_call4.v6 mulf,
    TRef.unary (.of main_c_38 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v202 main_v204 (broadcastInDim S1x64 ![1] bcast_S64_S1x64_1 : (⟨S64, .f32⟩ : BufTy).Contents (Elt F) → (⟨S1x64, .f32⟩ : BufTy).Contents (Elt F)),
    unary main_v204 main_v205 (broadcastInDim S50000x64 ![0, 1] bcast_S1x64_S50000x64_0_1 : (⟨S1x64, .f32⟩ : BufTy).Contents (Elt F) → (⟨S50000x64, .f32⟩ : BufTy).Contents (Elt F)),
    binary main_v195 main_v205 main_v206 (subf : (⟨S50000x64, .f32⟩ : BufTy).Contents (Elt F) → (⟨S50000x64, .f32⟩ : BufTy).Contents (Elt F) → (⟨S50000x64, .f32⟩ : BufTy).Contents (Elt F)),
    nullary main_cst_39 (constant S_ .f32 0x3727C5AC#32),
    unary main_cst_39 main_v207 (broadcastInDim S64 ![] bcast_S_S64 : (⟨S_, .f32⟩ : BufTy).Contents (Elt F) → (⟨S64, .f32⟩ : BufTy).Contents (Elt F)),
    binary main_v203 main_v207 main_v208 (addf : (⟨S64, .f32⟩ : BufTy).Contents (Elt F) → (⟨S64, .f32⟩ : BufTy).Contents (Elt F) → (⟨S64, .f32⟩ : BufTy).Contents (Elt F)),
    unary main_v208 main_v209 (Host.rsqrt : (⟨S64, .f32⟩ : BufTy).Contents (Elt F) → (⟨S64, .f32⟩ : BufTy).Contents (Elt F)),
    unary main_v209 main_v210 (broadcastInDim S1x64 ![1] bcast_S64_S1x64_1 : (⟨S64, .f32⟩ : BufTy).Contents (Elt F) → (⟨S1x64, .f32⟩ : BufTy).Contents (Elt F)),
    unary main_v210 main_v211 (broadcastInDim S50000x64 ![0, 1] bcast_S1x64_S50000x64_0_1 : (⟨S1x64, .f32⟩ : BufTy).Contents (Elt F) → (⟨S50000x64, .f32⟩ : BufTy).Contents (Elt F)),
    binary main_v206 main_v211 main_v212 (mulf : (⟨S50000x64, .f32⟩ : BufTy).Contents (Elt F) → (⟨S50000x64, .f32⟩ : BufTy).Contents (Elt F) → (⟨S50000x64, .f32⟩ : BufTy).Contents (Elt F)),
    unary main_v197 main_v213 (broadcastInDim S1x64 ![1] bcast_S64_S1x64_1 : (⟨S64, .f32⟩ : BufTy).Contents (Elt F) → (⟨S1x64, .f32⟩ : BufTy).Contents (Elt F)),
    unary main_v213 main_v214 (broadcastInDim S50000x64 ![0, 1] bcast_S1x64_S50000x64_0_1 : (⟨S1x64, .f32⟩ : BufTy).Contents (Elt F) → (⟨S50000x64, .f32⟩ : BufTy).Contents (Elt F)),
    binary main_v212 main_v214 main_v215 (mulf : (⟨S50000x64, .f32⟩ : BufTy).Contents (Elt F) → (⟨S50000x64, .f32⟩ : BufTy).Contents (Elt F) → (⟨S50000x64, .f32⟩ : BufTy).Contents (Elt F)),
    unary main_v199 main_v216 (broadcastInDim S1x64 ![1] bcast_S64_S1x64_1 : (⟨S64, .f32⟩ : BufTy).Contents (Elt F) → (⟨S1x64, .f32⟩ : BufTy).Contents (Elt F)),
    unary main_v216 main_v217 (broadcastInDim S50000x64 ![0, 1] bcast_S1x64_S50000x64_0_1 : (⟨S1x64, .f32⟩ : BufTy).Contents (Elt F) → (⟨S50000x64, .f32⟩ : BufTy).Contents (Elt F)),
    binary main_v215 main_v217 main_v218 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (.of main_v218 : TRef sig ⟨S50000x64, .f32⟩) main_call5.v0 main_call5.v1 maximumf,
    unary main_arg3 main_v220 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v220 main_v221 rfl shapeCasts_S1x64x64_S64x64,
    unary main_arg4 main_v222 ((extractStridedSlice S1x64 ![3, 0] · slices_S4x64_S1x64_3_0) : (⟨S4x64, .f32⟩ : BufTy).Contents (Elt F) → (⟨S1x64, .f32⟩ : BufTy).Contents (Elt F)),
    reshape main_v222 main_v223 rfl shapeCasts_S1x64_S64,
    nullary main_cst_40 (constant S_ .f32 0x3F800000#32),
    unary main_cst_40 main_v224 (broadcastInDim S800000 ![] bcast_S_S800000 : (⟨S_, .f32⟩ : BufTy).Contents (Elt F) → (⟨S800000, .f32⟩ : BufTy).Contents (Elt F)),
    nullary main_cst_41 (constant S_ .f32 0x00000000#32),
    unary main_cst_41 main_v225 (broadcastInDim S50000 ![] bcast_S_S50000 : (⟨S_, .f32⟩ : BufTy).Contents (Elt F) → (⟨S50000, .f32⟩ : BufTy).Contents (Elt F)),
    unary main_v3 main_v226 (broadcastInDim S800000x1 ![0] bcast_S800000_S800000x1_0 : (⟨S800000, .i32⟩ : BufTy).Contents (Elt F) → (⟨S800000x1, .i32⟩ : BufTy).Contents (Elt F)),
    ternary main_v225 main_v226 main_v224 main_v227 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_42 (constant S_ .f32 0x3F800000#32),
    unary main_cst_42 main_v228 (broadcastInDim S50000 ![] bcast_S_S50000 : (⟨S_, .f32⟩ : BufTy).Contents (Elt F) → (⟨S50000, .f32⟩ : BufTy).Contents (Elt F)),
    binary main_v227 main_v228 main_v229 (addf : (⟨S50000, .f32⟩ : BufTy).Contents (Elt F) → (⟨S50000, .f32⟩ : BufTy).Contents (Elt F) → (⟨S50000, .f32⟩ : BufTy).Contents (Elt F)),
    unary main_v229 main_v230 (Host.rsqrt : (⟨S50000, .f32⟩ : BufTy).Contents (Elt F) → (⟨S50000, .f32⟩ : BufTy).Contents (Elt F)),
    binary main_v219 main_v221 main_v231 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_43 (constantI S_ 32 0#32),
    unary main_c_43 main_v232 (broadcastInDim S800000 ![] bcast_S_S800000 : (⟨S_, .i32⟩ : BufTy).Contents (Elt F) → (⟨S800000, .i32⟩ : BufTy).Contents (Elt F)),
    binary main_v1 main_v232 main_v233 (cmpi .slt : (⟨S800000, .i32⟩ : BufTy).Contents (Elt F) → (⟨S800000, .i32⟩ : BufTy).Contents (Elt F) → (⟨S800000, .i1⟩ : BufTy).Contents (Elt F)),
    nullary main_c_44 (constantI S_ 32 50000#32),
    unary main_c_44 main_v234 (broadcastInDim S800000 ![] bcast_S_S800000 : (⟨S_, .i32⟩ : BufTy).Contents (Elt F) → (⟨S800000, .i32⟩ : BufTy).Contents (Elt F)),
    binary main_v1 main_v234 main_v235 (addi : (⟨S800000, .i32⟩ : BufTy).Contents (Elt F) → (⟨S800000, .i32⟩ : BufTy).Contents (Elt F) → (⟨S800000, .i32⟩ : BufTy).Contents (Elt F)),
    ternary main_v233 main_v235 main_v1 main_v236 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v236 main_v237 (broadcastInDim S800000x1 ![0] bcast_S800000_S800000x1_0 : (⟨S800000, .i32⟩ : BufTy).Contents (Elt F) → (⟨S800000x1, .i32⟩ : BufTy).Contents (Elt F)),
    binary main_v230 main_v237 main_v238 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_45 (constantI S_ 32 0#32),
    unary main_c_45 main_v239 (broadcastInDim S800000 ![] bcast_S_S800000 : (⟨S_, .i32⟩ : BufTy).Contents (Elt F) → (⟨S800000, .i32⟩ : BufTy).Contents (Elt F)),
    binary main_v3 main_v239 main_v240 (cmpi .slt : (⟨S800000, .i32⟩ : BufTy).Contents (Elt F) → (⟨S800000, .i32⟩ : BufTy).Contents (Elt F) → (⟨S800000, .i1⟩ : BufTy).Contents (Elt F)),
    nullary main_c_46 (constantI S_ 32 50000#32),
    unary main_c_46 main_v241 (broadcastInDim S800000 ![] bcast_S_S800000 : (⟨S_, .i32⟩ : BufTy).Contents (Elt F) → (⟨S800000, .i32⟩ : BufTy).Contents (Elt F)),
    binary main_v3 main_v241 main_v242 (addi : (⟨S800000, .i32⟩ : BufTy).Contents (Elt F) → (⟨S800000, .i32⟩ : BufTy).Contents (Elt F) → (⟨S800000, .i32⟩ : BufTy).Contents (Elt F)),
    ternary main_v240 main_v242 main_v3 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v243 main_v244 (broadcastInDim S800000x1 ![0] bcast_S800000_S800000x1_0 : (⟨S800000, .i32⟩ : BufTy).Contents (Elt F) → (⟨S800000x1, .i32⟩ : BufTy).Contents (Elt F)),
    binary main_v230 main_v244 main_v245 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v238 main_v245 main_v246 (mulf : (⟨S800000, .f32⟩ : BufTy).Contents (Elt F) → (⟨S800000, .f32⟩ : BufTy).Contents (Elt F) → (⟨S800000, .f32⟩ : BufTy).Contents (Elt F)),
    nullary main_c_47 (constantI S_ 32 0#32),
    unary main_c_47 main_v247 (broadcastInDim S800000 ![] bcast_S_S800000 : (⟨S_, .i32⟩ : BufTy).Contents (Elt F) → (⟨S800000, .i32⟩ : BufTy).Contents (Elt F)),
    binary main_v1 main_v247 main_v248 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32) ]

set_option maxRecDepth 8192 in
theorem main_part4_eq (c : Dev nD) : main_part4 (F := F) c = seq ops_part4 := by
  simp only [main_part4, fn_var.body, fn_where.body, fn_relu.body, fn_relu_0.body, seq, bind_assoc, pure_bind]
  all_goals rfl

set_option maxRecDepth 8192 in
theorem ops_part4_sub : (ops_part4 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

set_option maxRecDepth 8192 in
theorem ops_part4_fresh : ∀ op ∈ (ops_part4 : List (HloOp τ sig (Elt F))), op.fresh = ∅ := by
  intro _ h; (repeat (cases h with | head => rfl | tail _ h => ?_)); exact nomatch h

/-- The buffers the window's operations write. -/
abbrev ops_part4_W : List (Ref sig .tc) := [main_cst_37, main_v201, main_v202, main_c_38, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v203, main_v204, main_v205, main_v206, main_cst_39, main_v207, main_v208, main_v209, main_v210, main_v211, main_v212, main_v213, main_v214, main_v215, main_v216, main_v217, main_v218, main_call5_cst, main_call5_v0, main_v219, main_v220, main_v221, main_v222, main_v223, main_cst_40, main_v224, main_cst_41, main_v225, main_v226, main_v227, main_cst_42, main_v228, main_v229, main_v230, main_v231, main_c_43, main_v232, main_v233, main_c_44, main_v234, main_v235, main_v236, main_v237, main_v238, main_c_45, main_v239, main_v240, main_c_46, main_v241, main_v242, main_v243, main_v244, main_v245, main_v246, main_c_47, main_v247, main_v248, main_c_48]

set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part4_keep (V : Valuation τ sig (Elt F)) (r : Ref sig .tc) (h : r ∉ ops_part4_W) :
    after ops_part4 V (Proc.devRef .tc r) = V (Proc.devRef .tc r) :=
  after_of_writes_sub ops_part4 _ ops_part4_writes h

attribute [local irreducible] Host.reduceAdd Host.gather Host.scatterAdd in
set_option maxRecDepth 8192 in
set_option maxHeartbeats 2000000 in
theorem part4_mean2 (V : Valuation τ sig (Elt F)) :
    after ops_part4 V (no_index (Proc.devRef .tc main_v202)) = f_mean2 (V (Proc.devRef .tc main_v200)) := by
  simp only [ops_part4]
  after_results_simp
  rfl

attribute [local irreducible] Host.reduceAdd Host.gather Host.scatterAdd in
set_option maxRecDepth 8192 in
set_option maxHeartbeats 2000000 in
theorem part4_var2 (V : Valuation τ sig (Elt F)) :
    after ops_part4 V (no_index (Proc.devRef .tc main_v203)) = f_var (V (Proc.devRef .tc main_v195)) := by
  simp only [ops_part4]
  after_results_simp
  rfl

attribute [local irreducible] Host.reduceAdd Host.gather Host.scatterAdd in
set_option maxRecDepth 8192 in
set_option maxHeartbeats 2000000 in
theorem part4_bn2 (V : Valuation τ sig (Elt F)) :
    after ops_part4 V (no_index (Proc.devRef .tc main_v218)) = f_bn (V (Proc.devRef .tc main_v195)) (after ops_part4 V (Proc.devRef .tc main_v202)) (after ops_part4 V (Proc.devRef .tc main_v203)) (V (Proc.devRef .tc main_v197)) (V (Proc.devRef .tc main_v199)) := by
  simp only [ops_part4]
  after_results_simp
  rfl

attribute [local irreducible] Host.reduceAdd Host.gather Host.scatterAdd in
set_option maxRecDepth 8192 in
set_option maxHeartbeats 2000000 in
theorem part4_relu2 (V : Valuation τ sig (Elt F)) :
    after ops_part4 V (no_index (Proc.devRef .tc main_v219)) = f_relu (after ops_part4 V (Proc.devRef .tc main_v218)) := by
  simp only [ops_part4]
  after_results_simp
  rfl

attribute [local irreducible] Host.reduceAdd Host.gather Host.scatterAdd in
set_option maxRecDepth 8192 in
set_option maxHeartbeats 2000000 in
theorem part4_W3 (V : Valuation τ sig (Elt F)) :
    after ops_part4 V (no_index (Proc.devRef .tc main_v221)) = f_W3 (V (Proc.devRef .tc main_arg3)) := by
  simp only [ops_part4]
  after_results_simp
  rfl

attribute [local irreducible] Host.reduceAdd Host.gather Host.scatterAdd in
set_option maxRecDepth 8192 in
set_option maxHeartbeats 2000000 in
theorem part4_bias3 (V : Valuation τ sig (Elt F)) :
    after ops_part4 V (no_index (Proc.devRef .tc main_v223)) = f_row3 (V (Proc.devRef .tc main_arg4)) := by
  simp only [ops_part4]
  after_results_simp
  rfl

attribute [local irreducible] Host.reduceAdd Host.gather Host.scatterAdd in
set_option maxRecDepth 8192 in
set_option maxHeartbeats 2000000 in
theorem part4_dinv3 (V : Valuation τ sig (Elt F)) :
    after ops_part4 V (no_index (Proc.devRef .tc main_v230)) = f_dinv (V (Proc.devRef .tc main_v3)) := by
  simp only [ops_part4]
  after_results_simp
  rfl

attribute [local irreducible] Host.reduceAdd Host.gather Host.scatterAdd in
set_option maxRecDepth 8192 in
set_option maxHeartbeats 2000000 in
theorem part4_hw3 (V : Valuation τ sig (Elt F)) :
    after ops_part4 V (no_index (Proc.devRef .tc main_v231)) = f_hw (after ops_part4 V (Proc.devRef .tc main_v219)) (after ops_part4 V (Proc.devRef .tc main_v221)) := by
  simp only [ops_part4]
  after_results_simp
  rfl

attribute [local irreducible] Host.reduceAdd Host.gather Host.scatterAdd in
set_option maxRecDepth 8192 in
set_option maxHeartbeats 2000000 in
theorem part4_norm3 (V : Valuation τ sig (Elt F)) :
    after ops_part4 V (no_index (Proc.devRef .tc main_v246)) = f_norm (after ops_part4 V (Proc.devRef .tc main_v230)) (V (Proc.devRef .tc main_v1)) (V (Proc.devRef .tc main_v3)) := by
  simp only [ops_part4]
  after_results_simp
  rfl

attribute [local irreducible] Host.reduceAdd Host.gather Host.scatterAdd in
set_option maxRecDepth 8192 in
set_option maxHeartbeats 2000000 in
theorem part4_aux_v248 (V : Valuation τ sig (Elt F)) :
    after ops_part4 V (no_index (Proc.devRef .tc main_v248)) = f_aux_v96 (V (Proc.devRef .tc main_v1)) := by
  simp only [ops_part4]
  after_results_simp
  rfl

attribute [local irreducible] Host.reduceAdd Host.gather Host.scatterAdd in
set_option maxRecDepth 8192 in
set_option maxHeartbeats 2000000 in
theorem part4_aux_c_48 (V : Valuation τ sig (Elt F)) :
    after ops_part4 V (no_index (Proc.devRef .tc main_c_48)) = f_aux_c_48 := by
  simp only [ops_part4]
  after_results_simp
  rfl

end Cert.ReferenceIdeal.RefRun

end
-- ==== Proof.Ref.Part5.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 5, in order; a called function's operations stand at its call over the call's buffers. -/
abbrev ops_part5 : List (HloOp τ sig (Elt F)) :=
  [ unary main_c_48 main_v249 (broadcastInDim S800000 ![] bcast_S_S800000 : (⟨S_, .i32⟩ : BufTy).Contents (Elt F) → (⟨S800000, .i32⟩ : BufTy).Contents (Elt F)),
    binary main_v1 main_v249 main_v250 (addi : (⟨S800000, .i32⟩ : BufTy).Contents (Elt F) → (⟨S800000, .i32⟩ : BufTy).Contents (Elt F) → (⟨S800000, .i32⟩ : BufTy).Contents (Elt F)),
    ternary main_v248 main_v250 main_v1 main_v251 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v251 main_v252 (broadcastInDim S800000x1 ![0] bcast_S800000_S800000x1_0 : (⟨S800000, .i32⟩ : BufTy).Contents (Elt F) → (⟨S800000x1, .i32⟩ : BufTy).Contents (Elt F)),
    binary main_v231 main_v252 main_v253 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v246 main_v254 (broadcastInDim S800000x1 ![0] bcast_S800000_S800000x1_0 : (⟨S800000, .f32⟩ : BufTy).Contents (Elt F) → (⟨S800000x1, .f32⟩ : BufTy).Contents (Elt F)),
    unary main_v254 main_v255 (broadcastInDim S800000x64 ![0, 1] bcast_S800000x1_S800000x64_0_1 : (⟨S800000x1, .f32⟩ : BufTy).Contents (Elt F) → (⟨S800000x64, .f32⟩ : BufTy).Contents (Elt F)),
    binary main_v253 main_v255 main_v256 (mulf : (⟨S800000x64, .f32⟩ : BufTy).Contents (Elt F) → (⟨S800000x64, .f32⟩ : BufTy).Contents (Elt F) → (⟨S800000x64, .f32⟩ : BufTy).Contents (Elt F)),
    nullary main_cst_49 (constant S_ .f32 0x00000000#32),
    unary main_cst_49 main_v257 (broadcastInDim S50000x64 ![] bcast_S_S50000x64 : (⟨S_, .f32⟩ : BufTy).Contents (Elt F) → (⟨S50000x64, .f32⟩ : BufTy).Contents (Elt F)),
    unary main_v3 main_v258 (broadcastInDim S800000x1 ![0] bcast_S800000_S800000x1_0 : (⟨S800000, .i32⟩ : BufTy).Contents (Elt F) → (⟨S800000x1, .i32⟩ : BufTy).Contents (Elt F)),
    ternary main_v257 main_v258 main_v256 main_v259 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v230 main_v230 main_v260 (mulf : (⟨S50000, .f32⟩ : BufTy).Contents (Elt F) → (⟨S50000, .f32⟩ : BufTy).Contents (Elt F) → (⟨S50000, .f32⟩ : BufTy).Contents (Elt F)),
    unary main_v260 main_v261 (broadcastInDim S50000x1 ![0] bcast_S50000_S50000x1_0 : (⟨S50000, .f32⟩ : BufTy).Contents (Elt F) → (⟨S50000x1, .f32⟩ : BufTy).Contents (Elt F)),
    unary main_v261 main_v262 (broadcastInDim S50000x64 ![0, 1] bcast_S50000x1_S50000x64_0_1 : (⟨S50000x1, .f32⟩ : BufTy).Contents (Elt F) → (⟨S50000x64, .f32⟩ : BufTy).Contents (Elt F)),
    binary main_v231 main_v262 main_v263 (mulf : (⟨S50000x64, .f32⟩ : BufTy).Contents (Elt F) → (⟨S50000x64, .f32⟩ : BufTy).Contents (Elt F) → (⟨S50000x64, .f32⟩ : BufTy).Contents (Elt F)),
    binary main_v259 main_v263 main_v264 (addf : (⟨S50000x64, .f32⟩ : BufTy).Contents (Elt F) → (⟨S50000x64, .f32⟩ : BufTy).Contents (Elt F) → (⟨S50000x64, .f32⟩ : BufTy).Contents (Elt F)),
    unary main_v223 main_v265 (broadcastInDim S1x64 ![1] bcast_S64_S1x64_1 : (⟨S64, .f32⟩ : BufTy).Contents (Elt F) → (⟨S1x64, .f32⟩ : BufTy).Contents (Elt F)),
    unary main_v265 main_v266 (broadcastInDim S50000x64 ![0, 1] bcast_S1x64_S50000x64_0_1 : (⟨S1x64, .f32⟩ : BufTy).Contents (Elt F) → (⟨S50000x64, .f32⟩ : BufTy).Contents (Elt F)),
    binary main_v264 main_v266 main_v267 (addf : (⟨S50000x64, .f32⟩ : BufTy).Contents (Elt F) → (⟨S50000x64, .f32⟩ : BufTy).Contents (Elt F) → (⟨S50000x64, .f32⟩ : BufTy).Contents (Elt F)),
    unary main_arg5 main_v268 ((extractStridedSlice S1x64 ![3, 0] · slices_S4x64_S1x64_3_0) : (⟨S4x64, .f32⟩ : BufTy).Contents (Elt F) → (⟨S1x64, .f32⟩ : BufTy).Contents (Elt F)),
    reshape main_v268 main_v269 rfl shapeCasts_S1x64_S64,
    unary main_arg6 main_v270 ((extractStridedSlice S1x64 ![3, 0] · slices_S4x64_S1x64_3_0) : (⟨S4x64, .f32⟩ : BufTy).Contents (Elt F) → (⟨S1x64, .f32⟩ : BufTy).Contents (Elt F)),
    reshape main_v270 main_v271 rfl shapeCasts_S1x64_S64,
    nullary main_cst_50 (constant S_ .f32 0x00000000#32),
    binary main_v267 main_cst_50 main_v272 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_51 (constant S_ .f32 0x47435000#32),
    unary main_cst_51 main_v273 (broadcastInDim S64 ![] bcast_S_S64 : (⟨S_, .f32⟩ : BufTy).Contents (Elt F) → (⟨S64, .f32⟩ : BufTy).Contents (Elt F)),
    binary main_v272 main_v273 main_v274 (Host.divf : (⟨S64, .f32⟩ : BufTy).Contents (Elt F) → (⟨S64, .f32⟩ : BufTy).Contents (Elt F) → (⟨S64, .f32⟩ : BufTy).Contents (Elt F)),
    nullary main_c_52 (constantI S_ 32 0#32),
    TRef.nullary main_call6.cst (constant S_ .f32 0x00000000#32),
    TRef.binary (.of main_v267 : TRef sig ⟨S50000x64, .f32⟩) main_call6.cst main_call6.v0 (fun x v => Host.reduceAdd x v reducesTo_S50000x64_S64_d0 h_S_),
    TRef.unary main_call6.v0 main_call6.v1 (broadcastInDim S1x64 ![1] bcast_S64_S1x64_1),
    TRef.nullary main_call6.cst_0 (constant S_ .f32 0x47435000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S50000x64 ![0, 1] bcast_S1x64_S50000x64_0_1),
    TRef.binary (.of main_v267 : TRef sig ⟨S50000x64, .f32⟩) main_call6.v4 main_call6.v5 subf,
    TRef.binary main_call6.v5 main_call6.v5 main_call6.v6 mulf,
    TRef.unary (.of main_c_52 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v274 main_v276 (broadcastInDim S1x64 ![1] bcast_S64_S1x64_1 : (⟨S64, .f32⟩ : BufTy).Contents (Elt F) → (⟨S1x64, .f32⟩ : BufTy).Contents (Elt F)),
    unary main_v276 main_v277 (broadcastInDim S50000x64 ![0, 1] bcast_S1x64_S50000x64_0_1 : (⟨S1x64, .f32⟩ : BufTy).Contents (Elt F) → (⟨S50000x64, .f32⟩ : BufTy).Contents (Elt F)),
    binary main_v267 main_v277 main_v278 (subf : (⟨S50000x64, .f32⟩ : BufTy).Contents (Elt F) → (⟨S50000x64, .f32⟩ : BufTy).Contents (Elt F) → (⟨S50000x64, .f32⟩ : BufTy).Contents (Elt F)),
    nullary main_cst_53 (constant S_ .f32 0x3727C5AC#32),
    unary main_cst_53 main_v279 (broadcastInDim S64 ![] bcast_S_S64 : (⟨S_, .f32⟩ : BufTy).Contents (Elt F) → (⟨S64, .f32⟩ : BufTy).Contents (Elt F)),
    binary main_v275 main_v279 main_v280 (addf : (⟨S64, .f32⟩ : BufTy).Contents (Elt F) → (⟨S64, .f32⟩ : BufTy).Contents (Elt F) → (⟨S64, .f32⟩ : BufTy).Contents (Elt F)),
    unary main_v280 main_v281 (Host.rsqrt : (⟨S64, .f32⟩ : BufTy).Contents (Elt F) → (⟨S64, .f32⟩ : BufTy).Contents (Elt F)),
    unary main_v281 main_v282 (broadcastInDim S1x64 ![1] bcast_S64_S1x64_1 : (⟨S64, .f32⟩ : BufTy).Contents (Elt F) → (⟨S1x64, .f32⟩ : BufTy).Contents (Elt F)),
    unary main_v282 main_v283 (broadcastInDim S50000x64 ![0, 1] bcast_S1x64_S50000x64_0_1 : (⟨S1x64, .f32⟩ : BufTy).Contents (Elt F) → (⟨S50000x64, .f32⟩ : BufTy).Contents (Elt F)),
    binary main_v278 main_v283 main_v284 (mulf : (⟨S50000x64, .f32⟩ : BufTy).Contents (Elt F) → (⟨S50000x64, .f32⟩ : BufTy).Contents (Elt F) → (⟨S50000x64, .f32⟩ : BufTy).Contents (Elt F)),
    unary main_v269 main_v285 (broadcastInDim S1x64 ![1] bcast_S64_S1x64_1 : (⟨S64, .f32⟩ : BufTy).Contents (Elt F) → (⟨S1x64, .f32⟩ : BufTy).Contents (Elt F)),
    unary main_v285 main_v286 (broadcastInDim S50000x64 ![0, 1] bcast_S1x64_S50000x64_0_1 : (⟨S1x64, .f32⟩ : BufTy).Contents (Elt F) → (⟨S50000x64, .f32⟩ : BufTy).Contents (Elt F)),
    binary main_v284 main_v286 main_v287 (mulf : (⟨S50000x64, .f32⟩ : BufTy).Contents (Elt F) → (⟨S50000x64, .f32⟩ : BufTy).Contents (Elt F) → (⟨S50000x64, .f32⟩ : BufTy).Contents (Elt F)),
    unary main_v271 main_v288 (broadcastInDim S1x64 ![1] bcast_S64_S1x64_1 : (⟨S64, .f32⟩ : BufTy).Contents (Elt F) → (⟨S1x64, .f32⟩ : BufTy).Contents (Elt F)),
    unary main_v288 main_v289 (broadcastInDim S50000x64 ![0, 1] bcast_S1x64_S50000x64_0_1 : (⟨S1x64, .f32⟩ : BufTy).Contents (Elt F) → (⟨S50000x64, .f32⟩ : BufTy).Contents (Elt F)),
    binary main_v287 main_v289 main_v290 (addf : (⟨S50000x64, .f32⟩ : BufTy).Contents (Elt F) → (⟨S50000x64, .f32⟩ : BufTy).Contents (Elt F) → (⟨S50000x64, .f32⟩ : BufTy).Contents (Elt F)),
    TRef.nullary main_call7.cst (constant S_ .f32 0x00000000#32),
    TRef.unary main_call7.cst main_call7.v0 (broadcastInDim S50000x64 ![] bcast_S_S50000x64),
    TRef.binary (.of main_v290 : TRef sig ⟨S50000x64, .f32⟩) main_call7.v0 main_call7.v1 maximumf,
    nullary main_cst_54 (constant S_ .f32 0x00000000#32),
    unary main_cst_54 main_v292 (broadcastInDim S1024x64 ![] bcast_S_S1024x64 : (⟨S_, .f32⟩ : BufTy).Contents (Elt F) → (⟨S1024x64, .f32⟩ : BufTy).Contents (Elt F)),
    unary main_arg2 main_v293 (broadcastInDim S50000x1 ![0] bcast_S50000_S50000x1_0 : (⟨S50000, .i32⟩ : BufTy).Contents (Elt F) → (⟨S50000x1, .i32⟩ : BufTy).Contents (Elt F)),
    ternary main_v292 main_v293 main_v291 main_v294 ((fun x i u => Host.scatterAdd scatter_S1024x64_S50000x1_S50000x64_1_0_0_1 x i u) : (⟨S1024x64, .f32⟩ : BufTy).Contents (Elt F) → (⟨S50000x1, .i32⟩ : BufTy).Contents (Elt F) → (⟨S50000x64, .f32⟩ : BufTy).Contents (Elt F) → (⟨S1024x64, .f32⟩ : BufTy).Contents (Elt F)),
    binary main_v294 main_arg7 main_v295 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg8 main_v296 (broadcastInDim S1x64 ![1] bcast_S64_S1x64_1 : (⟨S64, .f32⟩ : BufTy).Contents (Elt F) → (⟨S1x64, .f32⟩ : BufTy).Contents (Elt F)),
    unary main_v296 main_v297 (broadcastInDim S1024x64 ![0, 1] bcast_S1x64_S1024x64_0_1 : (⟨S1x64, .f32⟩ : BufTy).Contents (Elt F) → (⟨S1024x64, .f32⟩ : BufTy).Contents (Elt F)),
    binary main_v295 main_v297 main_v298 (addf : (⟨S1024x64, .f32⟩ : BufTy).Contents (Elt F) → (⟨S1024x64, .f32⟩ : BufTy).Contents (Elt F) → (⟨S1024x64, .f32⟩ : BufTy).Contents (Elt F)),
    TRef.nullary main_call8.cst (constant S_ .f32 0x00000000#32),
    TRef.unary main_call8.cst main_call8.v0 (broadcastInDim S1024x64 ![] bcast_S_S1024x64),
    TRef.binary (.of main_v298 : TRef sig ⟨S1024x64, .f32⟩) main_call8.v0 main_call8.v1 maximumf,
    binary main_v299 main_arg9 main_v300 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg10 main_v301 (broadcastInDim S1x64 ![1] bcast_S64_S1x64_1 : (⟨S64, .f32⟩ : BufTy).Contents (Elt F) → (⟨S1x64, .f32⟩ : BufTy).Contents (Elt F)),
    unary main_v301 main_v302 (broadcastInDim S1024x64 ![0, 1] bcast_S1x64_S1024x64_0_1 : (⟨S1x64, .f32⟩ : BufTy).Contents (Elt F) → (⟨S1024x64, .f32⟩ : BufTy).Contents (Elt F)) ]

set_option maxRecDepth 8192 in
theorem main_part5_eq (c : Dev nD) : main_part5 (F := F) c = seq ops_part5 := by
  simp only [main_part5, fn_var.body, fn_where.body, fn_relu.body, fn_relu_0.body, seq, bind_assoc, pure_bind]
  all_goals rfl

set_option maxRecDepth 8192 in
theorem ops_part5_sub : (ops_part5 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

set_option maxRecDepth 8192 in
theorem ops_part5_fresh : ∀ op ∈ (ops_part5 : List (HloOp τ sig (Elt F))), op.fresh = ∅ := by
  intro _ h; (repeat (cases h with | head => rfl | tail _ h => ?_)); exact nomatch h

/-- The buffers the window's operations write. -/
abbrev ops_part5_W : List (Ref sig .tc) := [main_v249, main_v250, main_v251, main_v252, main_v253, main_v254, main_v255, main_v256, main_cst_49, main_v257, main_v258, main_v259, main_v260, main_v261, main_v262, main_v263, main_v264, main_v265, main_v266, main_v267, main_v268, main_v269, main_v270, main_v271, main_cst_50, main_v272, main_cst_51, main_v273, main_v274, main_c_52, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v275, main_v276, main_v277, main_v278, main_cst_53, main_v279, main_v280, main_v281, main_v282, main_v283, main_v284, main_v285, main_v286, main_v287, main_v288, main_v289, main_v290, main_call7_cst, main_call7_v0, main_v291, main_cst_54, main_v292, main_v293, main_v294, main_v295, main_v296, main_v297, main_v298, main_call8_cst, main_call8_v0, main_v299, main_v300, main_v301, main_v302]

set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part5_keep (V : Valuation τ sig (Elt F)) (r : Ref sig .tc) (h : r ∉ ops_part5_W) :
    after ops_part5 V (Proc.devRef .tc r) = V (Proc.devRef .tc r) :=
  after_of_writes_sub ops_part5 _ ops_part5_writes h

attribute [local irreducible] Host.reduceAdd Host.gather Host.scatterAdd in
set_option maxRecDepth 8192 in
set_option maxHeartbeats 2000000 in
theorem part5_agg3 (V : Valuation τ sig (Elt F)) :
    after ops_part5 V (no_index (Proc.devRef .tc main_v259)) = f_agg3 (V (Proc.devRef .tc main_v3)) (V (Proc.devRef .tc main_v231)) (V (Proc.devRef .tc main_v248)) (V (Proc.devRef .tc main_v1)) (V (Proc.devRef .tc main_c_48)) (V (Proc.devRef .tc main_v246)) := by
  simp only [ops_part5]
  after_results_simp
  rfl

attribute [local irreducible] Host.reduceAdd Host.gather Host.scatterAdd in
set_option maxRecDepth 8192 in
set_option maxHeartbeats 2000000 in
theorem part5_conv3 (V : Valuation τ sig (Elt F)) :
    after ops_part5 V (no_index (Proc.devRef .tc main_v267)) = f_conv (after ops_part5 V (Proc.devRef .tc main_v259)) (V (Proc.devRef .tc main_v231)) (V (Proc.devRef .tc main_v230)) (V (Proc.devRef .tc main_v223)) := by
  simp only [ops_part5]
  after_results_simp
  rfl

attribute [local irreducible] Host.reduceAdd Host.gather Host.scatterAdd in
set_option maxRecDepth 8192 in
set_option maxHeartbeats 2000000 in
theorem part5_gamma3 (V : Valuation τ sig (Elt F)) :
    after ops_part5 V (no_index (Proc.devRef .tc main_v269)) = f_row3 (V (Proc.devRef .tc main_arg5)) := by
  simp only [ops_part5]
  after_results_simp
  rfl

attribute [local irreducible] Host.reduceAdd Host.gather Host.scatterAdd in
set_option maxRecDepth 8192 in
set_option maxHeartbeats 2000000 in
theorem part5_beta3 (V : Valuation τ sig (Elt F)) :
    after ops_part5 V (no_index (Proc.devRef .tc main_v271)) = f_row3 (V (Proc.devRef .tc main_arg6)) := by
  simp only [ops_part5]
  after_results_simp
  rfl

attribute [local irreducible] Host.reduceAdd Host.gather Host.scatterAdd in
set_option maxRecDepth 8192 in
set_option maxHeartbeats 2000000 in
theorem part5_mean3 (V : Valuation τ sig (Elt F)) :
    after ops_part5 V (no_index (Proc.devRef .tc main_v274)) = f_mean (after ops_part5 V (Proc.devRef .tc main_v267)) := by
  simp only [ops_part5]
  after_results_simp
  rfl

attribute [local irreducible] Host.reduceAdd Host.gather Host.scatterAdd in
set_option maxRecDepth 8192 in
set_option maxHeartbeats 2000000 in
theorem part5_var3 (V : Valuation τ sig (Elt F)) :
    after ops_part5 V (no_index (Proc.devRef .tc main_v275)) = f_var (after ops_part5 V (Proc.devRef .tc main_v267)) := by
  simp only [ops_part5]
  after_results_simp
  rfl

attribute [local irreducible] Host.reduceAdd Host.gather Host.scatterAdd in
set_option maxRecDepth 8192 in
set_option maxHeartbeats 2000000 in
theorem part5_bn3 (V : Valuation τ sig (Elt F)) :
    after ops_part5 V (no_index (Proc.devRef .tc main_v290)) = f_bn (after ops_part5 V (Proc.devRef .tc main_v267)) (after ops_part5 V (Proc.devRef .tc main_v274)) (after ops_part5 V (Proc.devRef .tc main_v275)) (after ops_part5 V (Proc.devRef .tc main_v269)) (after ops_part5 V (Proc.devRef .tc main_v271)) := by
  simp only [ops_part5]
  after_results_simp
  rfl

attribute [local irreducible] Host.reduceAdd Host.gather Host.scatterAdd in
set_option maxRecDepth 8192 in
set_option maxHeartbeats 2000000 in
theorem part5_relu3 (V : Valuation τ sig (Elt F)) :
    after ops_part5 V (no_index (Proc.devRef .tc main_v291)) = f_relu (after ops_part5 V (Proc.devRef .tc main_v290)) := by
  simp only [ops_part5]
  after_results_simp
  rfl

attribute [local irreducible] Host.reduceAdd Host.gather Host.scatterAdd in
set_option maxRecDepth 8192 in
set_option maxHeartbeats 2000000 in
theorem part5_pool (V : Valuation τ sig (Elt F)) :
    after ops_part5 V (no_index (Proc.devRef .tc main_v294)) = f_pool (V (Proc.devRef .tc main_arg2)) (after ops_part5 V (Proc.devRef .tc main_v291)) := by
  simp only [ops_part5]
  after_results_simp
  rfl

attribute [local irreducible] Host.reduceAdd Host.gather Host.scatterAdd in
set_option maxRecDepth 8192 in
set_option maxHeartbeats 2000000 in
theorem part5_mm1 (V : Valuation τ sig (Elt F)) :
    after ops_part5 V (no_index (Proc.devRef .tc main_v295)) = f_mm (after ops_part5 V (Proc.devRef .tc main_v294)) (V (Proc.devRef .tc main_arg7)) := by
  simp only [ops_part5]
  after_results_simp
  rfl

attribute [local irreducible] Host.reduceAdd Host.gather Host.scatterAdd in
set_option maxRecDepth 8192 in
set_option maxHeartbeats 2000000 in
theorem part5_lin1 (V : Valuation τ sig (Elt F)) :
    after ops_part5 V (no_index (Proc.devRef .tc main_v298)) = f_lin1 (after ops_part5 V (Proc.devRef .tc main_v295)) (V (Proc.devRef .tc main_arg8)) := by
  simp only [ops_part5]
  after_results_simp
  rfl

attribute [local irreducible] Host.reduceAdd Host.gather Host.scatterAdd in
set_option maxRecDepth 8192 in
set_option maxHeartbeats 2000000 in
theorem part5_act1 (V : Valuation τ sig (Elt F)) :
    after ops_part5 V (no_index (Proc.devRef .tc main_v299)) = f_act (after ops_part5 V (Proc.devRef .tc main_v298)) := by
  simp only [ops_part5]
  after_results_simp
  rfl

attribute [local irreducible] Host.reduceAdd Host.gather Host.scatterAdd in
set_option maxRecDepth 8192 in
set_option maxHeartbeats 2000000 in
theorem part5_mm2 (V : Valuation τ sig (Elt F)) :
    after ops_part5 V (no_index (Proc.devRef .tc main_v300)) = f_mm (after ops_part5 V (Proc.devRef .tc main_v299)) (V (Proc.devRef .tc main_arg9)) := by
  simp only [ops_part5]
  after_results_simp
  rfl

attribute [local irreducible] Host.reduceAdd Host.gather Host.scatterAdd in
set_option maxRecDepth 8192 in
set_option maxHeartbeats 2000000 in
theorem part5_aux_v302 (V : Valuation τ sig (Elt F)) :
    after ops_part5 V (no_index (Proc.devRef .tc main_v302)) = f_aux_v302 (V (Proc.devRef .tc main_arg10)) := by
  simp only [ops_part5]
  after_results_simp
  rfl

end Cert.ReferenceIdeal.RefRun

end
-- ==== Proof.Ref.Part6.lean ====
import proofs.«113306_j49254684950634_1_alg».proof.ReferenceIdeal
import Idealize.ShloMosaic.Lib.StableHlo.Run
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The operations of the reference's window 6, in order; a called function's operations stand at its call over the call's buffers. -/
abbrev ops_part6 : List (HloOp τ sig (Elt F)) :=
  [ binary main_v300 main_v302 main_v303 (addf : (⟨S1024x64, .f32⟩ : BufTy).Contents (Elt F) → (⟨S1024x64, .f32⟩ : BufTy).Contents (Elt F) → (⟨S1024x64, .f32⟩ : BufTy).Contents (Elt F)),
    TRef.nullary main_call9.cst (constant S_ .f32 0x00000000#32),
    TRef.unary main_call9.cst main_call9.v0 (broadcastInDim S1024x64 ![] bcast_S_S1024x64),
    TRef.binary (.of main_v303 : TRef sig ⟨S1024x64, .f32⟩) main_call9.v0 main_call9.v1 maximumf,
    binary main_v304 main_arg11 main_v305 ((fun l r => Host.dotGeneral dot_S1024x64_S64x1_S1024x1_1_0_0_1_n_n none l r) : (⟨S1024x64, .f32⟩ : BufTy).Contents (Elt F) → (⟨S64x1, .f32⟩ : BufTy).Contents (Elt F) → (⟨S1024x1, .f32⟩ : BufTy).Contents (Elt F)),
    unary main_arg12 main_v306 (broadcastInDim S1x1 ![1] bcast_S1_S1x1_1 : (⟨S1, .f32⟩ : BufTy).Contents (Elt F) → (⟨S1x1, .f32⟩ : BufTy).Contents (Elt F)),
    unary main_v306 main_v307 (broadcastInDim S1024x1 ![0, 1] bcast_S1x1_S1024x1_0_1 : (⟨S1x1, .f32⟩ : BufTy).Contents (Elt F) → (⟨S1024x1, .f32⟩ : BufTy).Contents (Elt F)),
    binary main_v305 main_v307 main_v308 (addf : (⟨S1024x1, .f32⟩ : BufTy).Contents (Elt F) → (⟨S1024x1, .f32⟩ : BufTy).Contents (Elt F) → (⟨S1024x1, .f32⟩ : BufTy).Contents (Elt F)) ]

set_option maxRecDepth 8192 in
theorem main_part6_eq (c : Dev nD) : main_part6 (F := F) c = seq ops_part6 := by
  simp only [main_part6, fn_var.body, fn_where.body, fn_relu.body, fn_relu_0.body, seq, bind_assoc, pure_bind]
  all_goals rfl

set_option maxRecDepth 8192 in
theorem ops_part6_sub : (ops_part6 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub ..⟩

set_option maxRecDepth 8192 in
theorem ops_part6_fresh : ∀ op ∈ (ops_part6 : List (HloOp τ sig (Elt F))), op.fresh = ∅ := by
  intro _ h; (repeat (cases h with | head => rfl | tail _ h => ?_)); exact nomatch h

/-- The buffers the window's operations write. -/
abbrev ops_part6_W : List (Ref sig .tc) := [main_v303, main_call9_cst, main_call9_v0, main_v304, main_v305, main_v306, main_v307, main_v308]

set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem part6_keep (V : Valuation τ sig (Elt F)) (r : Ref sig .tc) (h : r ∉ ops_part6_W) :
    after ops_part6 V (Proc.devRef .tc r) = V (Proc.devRef .tc r) :=
  after_of_writes_sub ops_part6 _ ops_part6_writes h

attribute [local irreducible] Host.reduceAdd Host.gather Host.scatterAdd in
set_option maxRecDepth 8192 in
set_option maxHeartbeats 2000000 in
theorem part6_lin2 (V : Valuation τ sig (Elt F)) :
    after ops_part6 V (no_index (Proc.devRef .tc main_v303)) = f_lin2 (V (Proc.devRef .tc main_v300)) (V (Proc.devRef .tc main_v302)) := by
  simp only [ops_part6]
  after_results_simp
  rfl

attribute [local irreducible] Host.reduceAdd Host.gather Host.scatterAdd in
set_option maxRecDepth 8192 in
set_option maxHeartbeats 2000000 in
theorem part6_act2 (V : Valuation τ sig (Elt F)) :
    after ops_part6 V (no_index (Proc.devRef .tc main_v304)) = f_act (after ops_part6 V (Proc.devRef .tc main_v303)) := by
  simp only [ops_part6]
  after_results_simp
  rfl

attribute [local irreducible] Host.reduceAdd Host.gather Host.scatterAdd in
set_option maxRecDepth 8192 in
set_option maxHeartbeats 2000000 in
theorem part6_mm3 (V : Valuation τ sig (Elt F)) :
    after ops_part6 V (no_index (Proc.devRef .tc main_v305)) = f_mm3 (after ops_part6 V (Proc.devRef .tc main_v304)) (V (Proc.devRef .tc main_arg11)) := by
  simp only [ops_part6]
  after_results_simp
  rfl

attribute [local irreducible] Host.reduceAdd Host.gather Host.scatterAdd in
set_option maxRecDepth 8192 in
set_option maxHeartbeats 2000000 in
theorem part6_out (V : Valuation τ sig (Elt F)) :
    after ops_part6 V (no_index (Proc.devRef .tc main_v308)) = f_out (after ops_part6 V (Proc.devRef .tc main_v305)) (V (Proc.devRef .tc main_arg12)) := by
  simp only [ops_part6]
  after_results_simp
  rfl

end Cert.ReferenceIdeal.RefRun

end
-- ==== Proof.Ref.Run.lean ====
import proofs.«113306_j49254684950634_1_alg».proof.ReferenceIdeal
import Idealize.ShloMosaic.Lib.StableHlo.Run
import proofs.«113306_j49254684950634_1_alg».proof.Proof.Ref.Values
import proofs.«113306_j49254684950634_1_alg».proof.Proof.Ref.Part0
import proofs.«113306_j49254684950634_1_alg».proof.Proof.Ref.Part1
import proofs.«113306_j49254684950634_1_alg».proof.Proof.Ref.Part2
import proofs.«113306_j49254684950634_1_alg».proof.Proof.Ref.Part3
import proofs.«113306_j49254684950634_1_alg».proof.Proof.Ref.Part4
import proofs.«113306_j49254684950634_1_alg».proof.Proof.Ref.Part5
import proofs.«113306_j49254684950634_1_alg».proof.Proof.Ref.Part6

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The reference's operations, in order. -/
abbrev ops : List (HloOp τ sig (Elt F)) :=
  ops_part0 ++ (ops_part1 ++ (ops_part2 ++ (ops_part3 ++ (ops_part4 ++ (ops_part5 ++ ops_part6)))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]
theorem ops_fresh : ∀ op ∈ (ops : List (HloOp τ sig (Elt F))), op.fresh = ∅ := fun op h => by
    simp only [ops, List.mem_append] at h
    rcases h with h | h | h | h | h | h | h
    exacts [ops_part0_fresh op h, ops_part1_fresh op h, ops_part2_fresh op h, ops_part3_fresh op h, ops_part4_fresh op h, ops_part5_fresh op h, ops_part6_fresh op h]

theorem after_ops (V0 : Valuation τ sig (Elt F)) : after ops V0 = (after ops_part6 (after ops_part5 (after ops_part4 (after ops_part3 (after ops_part2 (after ops_part1 (after ops_part0 V0))))))) := by
  simp only [ops, after_append]
theorem v1_arg0 (V0 : Valuation τ sig (Elt F)) : after ops_part0 V0 (no_index (Proc.devRef .tc main_arg0)) = V0 (Proc.devRef .tc main_arg0) :=
  part0_keep V0 main_arg0 (by decide)
theorem v2_arg0 (V0 : Valuation τ sig (Elt F)) : after ops_part1 (after ops_part0 V0) (no_index (Proc.devRef .tc main_arg0)) = V0 (Proc.devRef .tc main_arg0) :=
  (part1_keep (after ops_part0 V0) main_arg0 (by decide)).trans (v1_arg0 V0)
theorem v3_arg0 (V0 : Valuation τ sig (Elt F)) : after ops_part2 (after ops_part1 (after ops_part0 V0)) (no_index (Proc.devRef .tc main_arg0)) = V0 (Proc.devRef .tc main_arg0) :=
  (part2_keep (after ops_part1 (after ops_part0 V0)) main_arg0 (by decide)).trans (v2_arg0 V0)
theorem v4_arg0 (V0 : Valuation τ sig (Elt F)) : after ops_part3 (after ops_part2 (after ops_part1 (after ops_part0 V0))) (no_index (Proc.devRef .tc main_arg0)) = V0 (Proc.devRef .tc main_arg0) :=
  (part3_keep (after ops_part2 (after ops_part1 (after ops_part0 V0))) main_arg0 (by decide)).trans (v3_arg0 V0)
theorem v5_arg0 (V0 : Valuation τ sig (Elt F)) : after ops_part4 (after ops_part3 (after ops_part2 (after ops_part1 (after ops_part0 V0)))) (no_index (Proc.devRef .tc main_arg0)) = V0 (Proc.devRef .tc main_arg0) :=
  (part4_keep (after ops_part3 (after ops_part2 (after ops_part1 (after ops_part0 V0)))) main_arg0 (by decide)).trans (v4_arg0 V0)
theorem v6_arg0 (V0 : Valuation τ sig (Elt F)) : after ops_part5 (after ops_part4 (after ops_part3 (after ops_part2 (after ops_part1 (after ops_part0 V0))))) (no_index (Proc.devRef .tc main_arg0)) = V0 (Proc.devRef .tc main_arg0) :=
  (part5_keep (after ops_part4 (after ops_part3 (after ops_part2 (after ops_part1 (after ops_part0 V0))))) main_arg0 (by decide)).trans (v5_arg0 V0)
theorem v7_arg0 (V0 : Valuation τ sig (Elt F)) : after ops_part6 (after ops_part5 (after ops_part4 (after ops_part3 (after ops_part2 (after ops_part1 (after ops_part0 V0)))))) (no_index (Proc.devRef .tc main_arg0)) = V0 (Proc.devRef .tc main_arg0) :=
  (part6_keep (after ops_part5 (after ops_part4 (after ops_part3 (after ops_part2 (after ops_part1 (after ops_part0 V0)))))) main_arg0 (by decide)).trans (v6_arg0 V0)
theorem v1_arg1 (V0 : Valuation τ sig (Elt F)) : after ops_part0 V0 (no_index (Proc.devRef .tc main_arg1)) = V0 (Proc.devRef .tc main_arg1) :=
  part0_keep V0 main_arg1 (by decide)
theorem v2_arg1 (V0 : Valuation τ sig (Elt F)) : after ops_part1 (after ops_part0 V0) (no_index (Proc.devRef .tc main_arg1)) = V0 (Proc.devRef .tc main_arg1) :=
  (part1_keep (after ops_part0 V0) main_arg1 (by decide)).trans (v1_arg1 V0)
theorem v3_arg1 (V0 : Valuation τ sig (Elt F)) : after ops_part2 (after ops_part1 (after ops_part0 V0)) (no_index (Proc.devRef .tc main_arg1)) = V0 (Proc.devRef .tc main_arg1) :=
  (part2_keep (after ops_part1 (after ops_part0 V0)) main_arg1 (by decide)).trans (v2_arg1 V0)
theorem v4_arg1 (V0 : Valuation τ sig (Elt F)) : after ops_part3 (after ops_part2 (after ops_part1 (after ops_part0 V0))) (no_index (Proc.devRef .tc main_arg1)) = V0 (Proc.devRef .tc main_arg1) :=
  (part3_keep (after ops_part2 (after ops_part1 (after ops_part0 V0))) main_arg1 (by decide)).trans (v3_arg1 V0)
theorem v5_arg1 (V0 : Valuation τ sig (Elt F)) : after ops_part4 (after ops_part3 (after ops_part2 (after ops_part1 (after ops_part0 V0)))) (no_index (Proc.devRef .tc main_arg1)) = V0 (Proc.devRef .tc main_arg1) :=
  (part4_keep (after ops_part3 (after ops_part2 (after ops_part1 (after ops_part0 V0)))) main_arg1 (by decide)).trans (v4_arg1 V0)
theorem v6_arg1 (V0 : Valuation τ sig (Elt F)) : after ops_part5 (after ops_part4 (after ops_part3 (after ops_part2 (after ops_part1 (after ops_part0 V0))))) (no_index (Proc.devRef .tc main_arg1)) = V0 (Proc.devRef .tc main_arg1) :=
  (part5_keep (after ops_part4 (after ops_part3 (after ops_part2 (after ops_part1 (after ops_part0 V0))))) main_arg1 (by decide)).trans (v5_arg1 V0)
theorem v7_arg1 (V0 : Valuation τ sig (Elt F)) : after ops_part6 (after ops_part5 (after ops_part4 (after ops_part3 (after ops_part2 (after ops_part1 (after ops_part0 V0)))))) (no_index (Proc.devRef .tc main_arg1)) = V0 (Proc.devRef .tc main_arg1) :=
  (part6_keep (after ops_part5 (after ops_part4 (after ops_part3 (after ops_part2 (after ops_part1 (after ops_part0 V0)))))) main_arg1 (by decide)).trans (v6_arg1 V0)
theorem v1_arg2 (V0 : Valuation τ sig (Elt F)) : after ops_part0 V0 (no_index (Proc.devRef .tc main_arg2)) = V0 (Proc.devRef .tc main_arg2) :=
  part0_keep V0 main_arg2 (by decide)
theorem v2_arg2 (V0 : Valuation τ sig (Elt F)) : after ops_part1 (after ops_part0 V0) (no_index (Proc.devRef .tc main_arg2)) = V0 (Proc.devRef .tc main_arg2) :=
  (part1_keep (after ops_part0 V0) main_arg2 (by decide)).trans (v1_arg2 V0)
theorem v3_arg2 (V0 : Valuation τ sig (Elt F)) : after ops_part2 (after ops_part1 (after ops_part0 V0)) (no_index (Proc.devRef .tc main_arg2)) = V0 (Proc.devRef .tc main_arg2) :=
  (part2_keep (after ops_part1 (after ops_part0 V0)) main_arg2 (by decide)).trans (v2_arg2 V0)
theorem v4_arg2 (V0 : Valuation τ sig (Elt F)) : after ops_part3 (after ops_part2 (after ops_part1 (after ops_part0 V0))) (no_index (Proc.devRef .tc main_arg2)) = V0 (Proc.devRef .tc main_arg2) :=
  (part3_keep (after ops_part2 (after ops_part1 (after ops_part0 V0))) main_arg2 (by decide)).trans (v3_arg2 V0)
theorem v5_arg2 (V0 : Valuation τ sig (Elt F)) : after ops_part4 (after ops_part3 (after ops_part2 (after ops_part1 (after ops_part0 V0)))) (no_index (Proc.devRef .tc main_arg2)) = V0 (Proc.devRef .tc main_arg2) :=
  (part4_keep (after ops_part3 (after ops_part2 (after ops_part1 (after ops_part0 V0)))) main_arg2 (by decide)).trans (v4_arg2 V0)
theorem v6_arg2 (V0 : Valuation τ sig (Elt F)) : after ops_part5 (after ops_part4 (after ops_part3 (after ops_part2 (after ops_part1 (after ops_part0 V0))))) (no_index (Proc.devRef .tc main_arg2)) = V0 (Proc.devRef .tc main_arg2) :=
  (part5_keep (after ops_part4 (after ops_part3 (after ops_part2 (after ops_part1 (after ops_part0 V0))))) main_arg2 (by decide)).trans (v5_arg2 V0)
theorem v7_arg2 (V0 : Valuation τ sig (Elt F)) : after ops_part6 (after ops_part5 (after ops_part4 (after ops_part3 (after ops_part2 (after ops_part1 (after ops_part0 V0)))))) (no_index (Proc.devRef .tc main_arg2)) = V0 (Proc.devRef .tc main_arg2) :=
  (part6_keep (after ops_part5 (after ops_part4 (after ops_part3 (after ops_part2 (after ops_part1 (after ops_part0 V0)))))) main_arg2 (by decide)).trans (v6_arg2 V0)
theorem v1_arg3 (V0 : Valuation τ sig (Elt F)) : after ops_part0 V0 (no_index (Proc.devRef .tc main_arg3)) = V0 (Proc.devRef .tc main_arg3) :=
  part0_keep V0 main_arg3 (by decide)
theorem v2_arg3 (V0 : Valuation τ sig (Elt F)) : after ops_part1 (after ops_part0 V0) (no_index (Proc.devRef .tc main_arg3)) = V0 (Proc.devRef .tc main_arg3) :=
  (part1_keep (after ops_part0 V0) main_arg3 (by decide)).trans (v1_arg3 V0)
theorem v3_arg3 (V0 : Valuation τ sig (Elt F)) : after ops_part2 (after ops_part1 (after ops_part0 V0)) (no_index (Proc.devRef .tc main_arg3)) = V0 (Proc.devRef .tc main_arg3) :=
  (part2_keep (after ops_part1 (after ops_part0 V0)) main_arg3 (by decide)).trans (v2_arg3 V0)
theorem v4_arg3 (V0 : Valuation τ sig (Elt F)) : after ops_part3 (after ops_part2 (after ops_part1 (after ops_part0 V0))) (no_index (Proc.devRef .tc main_arg3)) = V0 (Proc.devRef .tc main_arg3) :=
  (part3_keep (after ops_part2 (after ops_part1 (after ops_part0 V0))) main_arg3 (by decide)).trans (v3_arg3 V0)
theorem v5_arg3 (V0 : Valuation τ sig (Elt F)) : after ops_part4 (after ops_part3 (after ops_part2 (after ops_part1 (after ops_part0 V0)))) (no_index (Proc.devRef .tc main_arg3)) = V0 (Proc.devRef .tc main_arg3) :=
  (part4_keep (after ops_part3 (after ops_part2 (after ops_part1 (after ops_part0 V0)))) main_arg3 (by decide)).trans (v4_arg3 V0)
theorem v6_arg3 (V0 : Valuation τ sig (Elt F)) : after ops_part5 (after ops_part4 (after ops_part3 (after ops_part2 (after ops_part1 (after ops_part0 V0))))) (no_index (Proc.devRef .tc main_arg3)) = V0 (Proc.devRef .tc main_arg3) :=
  (part5_keep (after ops_part4 (after ops_part3 (after ops_part2 (after ops_part1 (after ops_part0 V0))))) main_arg3 (by decide)).trans (v5_arg3 V0)
theorem v7_arg3 (V0 : Valuation τ sig (Elt F)) : after ops_part6 (after ops_part5 (after ops_part4 (after ops_part3 (after ops_part2 (after ops_part1 (after ops_part0 V0)))))) (no_index (Proc.devRef .tc main_arg3)) = V0 (Proc.devRef .tc main_arg3) :=
  (part6_keep (after ops_part5 (after ops_part4 (after ops_part3 (after ops_part2 (after ops_part1 (after ops_part0 V0)))))) main_arg3 (by decide)).trans (v6_arg3 V0)
theorem v1_arg4 (V0 : Valuation τ sig (Elt F)) : after ops_part0 V0 (no_index (Proc.devRef .tc main_arg4)) = V0 (Proc.devRef .tc main_arg4) :=
  part0_keep V0 main_arg4 (by decide)
theorem v2_arg4 (V0 : Valuation τ sig (Elt F)) : after ops_part1 (after ops_part0 V0) (no_index (Proc.devRef .tc main_arg4)) = V0 (Proc.devRef .tc main_arg4) :=
  (part1_keep (after ops_part0 V0) main_arg4 (by decide)).trans (v1_arg4 V0)
theorem v3_arg4 (V0 : Valuation τ sig (Elt F)) : after ops_part2 (after ops_part1 (after ops_part0 V0)) (no_index (Proc.devRef .tc main_arg4)) = V0 (Proc.devRef .tc main_arg4) :=
  (part2_keep (after ops_part1 (after ops_part0 V0)) main_arg4 (by decide)).trans (v2_arg4 V0)
theorem v4_arg4 (V0 : Valuation τ sig (Elt F)) : after ops_part3 (after ops_part2 (after ops_part1 (after ops_part0 V0))) (no_index (Proc.devRef .tc main_arg4)) = V0 (Proc.devRef .tc main_arg4) :=
  (part3_keep (after ops_part2 (after ops_part1 (after ops_part0 V0))) main_arg4 (by decide)).trans (v3_arg4 V0)
theorem v5_arg4 (V0 : Valuation τ sig (Elt F)) : after ops_part4 (after ops_part3 (after ops_part2 (after ops_part1 (after ops_part0 V0)))) (no_index (Proc.devRef .tc main_arg4)) = V0 (Proc.devRef .tc main_arg4) :=
  (part4_keep (after ops_part3 (after ops_part2 (after ops_part1 (after ops_part0 V0)))) main_arg4 (by decide)).trans (v4_arg4 V0)
theorem v6_arg4 (V0 : Valuation τ sig (Elt F)) : after ops_part5 (after ops_part4 (after ops_part3 (after ops_part2 (after ops_part1 (after ops_part0 V0))))) (no_index (Proc.devRef .tc main_arg4)) = V0 (Proc.devRef .tc main_arg4) :=
  (part5_keep (after ops_part4 (after ops_part3 (after ops_part2 (after ops_part1 (after ops_part0 V0))))) main_arg4 (by decide)).trans (v5_arg4 V0)
theorem v7_arg4 (V0 : Valuation τ sig (Elt F)) : after ops_part6 (after ops_part5 (after ops_part4 (after ops_part3 (after ops_part2 (after ops_part1 (after ops_part0 V0)))))) (no_index (Proc.devRef .tc main_arg4)) = V0 (Proc.devRef .tc main_arg4) :=
  (part6_keep (after ops_part5 (after ops_part4 (after ops_part3 (after ops_part2 (after ops_part1 (after ops_part0 V0)))))) main_arg4 (by decide)).trans (v6_arg4 V0)
theorem v1_arg5 (V0 : Valuation τ sig (Elt F)) : after ops_part0 V0 (no_index (Proc.devRef .tc main_arg5)) = V0 (Proc.devRef .tc main_arg5) :=
  part0_keep V0 main_arg5 (by decide)
theorem v2_arg5 (V0 : Valuation τ sig (Elt F)) : after ops_part1 (after ops_part0 V0) (no_index (Proc.devRef .tc main_arg5)) = V0 (Proc.devRef .tc main_arg5) :=
  (part1_keep (after ops_part0 V0) main_arg5 (by decide)).trans (v1_arg5 V0)
theorem v3_arg5 (V0 : Valuation τ sig (Elt F)) : after ops_part2 (after ops_part1 (after ops_part0 V0)) (no_index (Proc.devRef .tc main_arg5)) = V0 (Proc.devRef .tc main_arg5) :=
  (part2_keep (after ops_part1 (after ops_part0 V0)) main_arg5 (by decide)).trans (v2_arg5 V0)
theorem v4_arg5 (V0 : Valuation τ sig (Elt F)) : after ops_part3 (after ops_part2 (after ops_part1 (after ops_part0 V0))) (no_index (Proc.devRef .tc main_arg5)) = V0 (Proc.devRef .tc main_arg5) :=
  (part3_keep (after ops_part2 (after ops_part1 (after ops_part0 V0))) main_arg5 (by decide)).trans (v3_arg5 V0)
theorem v5_arg5 (V0 : Valuation τ sig (Elt F)) : after ops_part4 (after ops_part3 (after ops_part2 (after ops_part1 (after ops_part0 V0)))) (no_index (Proc.devRef .tc main_arg5)) = V0 (Proc.devRef .tc main_arg5) :=
  (part4_keep (after ops_part3 (after ops_part2 (after ops_part1 (after ops_part0 V0)))) main_arg5 (by decide)).trans (v4_arg5 V0)
theorem v6_arg5 (V0 : Valuation τ sig (Elt F)) : after ops_part5 (after ops_part4 (after ops_part3 (after ops_part2 (after ops_part1 (after ops_part0 V0))))) (no_index (Proc.devRef .tc main_arg5)) = V0 (Proc.devRef .tc main_arg5) :=
  (part5_keep (after ops_part4 (after ops_part3 (after ops_part2 (after ops_part1 (after ops_part0 V0))))) main_arg5 (by decide)).trans (v5_arg5 V0)
theorem v7_arg5 (V0 : Valuation τ sig (Elt F)) : after ops_part6 (after ops_part5 (after ops_part4 (after ops_part3 (after ops_part2 (after ops_part1 (after ops_part0 V0)))))) (no_index (Proc.devRef .tc main_arg5)) = V0 (Proc.devRef .tc main_arg5) :=
  (part6_keep (after ops_part5 (after ops_part4 (after ops_part3 (after ops_part2 (after ops_part1 (after ops_part0 V0)))))) main_arg5 (by decide)).trans (v6_arg5 V0)
theorem v1_arg6 (V0 : Valuation τ sig (Elt F)) : after ops_part0 V0 (no_index (Proc.devRef .tc main_arg6)) = V0 (Proc.devRef .tc main_arg6) :=
  part0_keep V0 main_arg6 (by decide)
theorem v2_arg6 (V0 : Valuation τ sig (Elt F)) : after ops_part1 (after ops_part0 V0) (no_index (Proc.devRef .tc main_arg6)) = V0 (Proc.devRef .tc main_arg6) :=
  (part1_keep (after ops_part0 V0) main_arg6 (by decide)).trans (v1_arg6 V0)
theorem v3_arg6 (V0 : Valuation τ sig (Elt F)) : after ops_part2 (after ops_part1 (after ops_part0 V0)) (no_index (Proc.devRef .tc main_arg6)) = V0 (Proc.devRef .tc main_arg6) :=
  (part2_keep (after ops_part1 (after ops_part0 V0)) main_arg6 (by decide)).trans (v2_arg6 V0)
theorem v4_arg6 (V0 : Valuation τ sig (Elt F)) : after ops_part3 (after ops_part2 (after ops_part1 (after ops_part0 V0))) (no_index (Proc.devRef .tc main_arg6)) = V0 (Proc.devRef .tc main_arg6) :=
  (part3_keep (after ops_part2 (after ops_part1 (after ops_part0 V0))) main_arg6 (by decide)).trans (v3_arg6 V0)
theorem v5_arg6 (V0 : Valuation τ sig (Elt F)) : after ops_part4 (after ops_part3 (after ops_part2 (after ops_part1 (after ops_part0 V0)))) (no_index (Proc.devRef .tc main_arg6)) = V0 (Proc.devRef .tc main_arg6) :=
  (part4_keep (after ops_part3 (after ops_part2 (after ops_part1 (after ops_part0 V0)))) main_arg6 (by decide)).trans (v4_arg6 V0)
theorem v6_arg6 (V0 : Valuation τ sig (Elt F)) : after ops_part5 (after ops_part4 (after ops_part3 (after ops_part2 (after ops_part1 (after ops_part0 V0))))) (no_index (Proc.devRef .tc main_arg6)) = V0 (Proc.devRef .tc main_arg6) :=
  (part5_keep (after ops_part4 (after ops_part3 (after ops_part2 (after ops_part1 (after ops_part0 V0))))) main_arg6 (by decide)).trans (v5_arg6 V0)
theorem v7_arg6 (V0 : Valuation τ sig (Elt F)) : after ops_part6 (after ops_part5 (after ops_part4 (after ops_part3 (after ops_part2 (after ops_part1 (after ops_part0 V0)))))) (no_index (Proc.devRef .tc main_arg6)) = V0 (Proc.devRef .tc main_arg6) :=
  (part6_keep (after ops_part5 (after ops_part4 (after ops_part3 (after ops_part2 (after ops_part1 (after ops_part0 V0)))))) main_arg6 (by decide)).trans (v6_arg6 V0)
theorem v1_arg7 (V0 : Valuation τ sig (Elt F)) : after ops_part0 V0 (no_index (Proc.devRef .tc main_arg7)) = V0 (Proc.devRef .tc main_arg7) :=
  part0_keep V0 main_arg7 (by decide)
theorem v2_arg7 (V0 : Valuation τ sig (Elt F)) : after ops_part1 (after ops_part0 V0) (no_index (Proc.devRef .tc main_arg7)) = V0 (Proc.devRef .tc main_arg7) :=
  (part1_keep (after ops_part0 V0) main_arg7 (by decide)).trans (v1_arg7 V0)
theorem v3_arg7 (V0 : Valuation τ sig (Elt F)) : after ops_part2 (after ops_part1 (after ops_part0 V0)) (no_index (Proc.devRef .tc main_arg7)) = V0 (Proc.devRef .tc main_arg7) :=
  (part2_keep (after ops_part1 (after ops_part0 V0)) main_arg7 (by decide)).trans (v2_arg7 V0)
theorem v4_arg7 (V0 : Valuation τ sig (Elt F)) : after ops_part3 (after ops_part2 (after ops_part1 (after ops_part0 V0))) (no_index (Proc.devRef .tc main_arg7)) = V0 (Proc.devRef .tc main_arg7) :=
  (part3_keep (after ops_part2 (after ops_part1 (after ops_part0 V0))) main_arg7 (by decide)).trans (v3_arg7 V0)
theorem v5_arg7 (V0 : Valuation τ sig (Elt F)) : after ops_part4 (after ops_part3 (after ops_part2 (after ops_part1 (after ops_part0 V0)))) (no_index (Proc.devRef .tc main_arg7)) = V0 (Proc.devRef .tc main_arg7) :=
  (part4_keep (after ops_part3 (after ops_part2 (after ops_part1 (after ops_part0 V0)))) main_arg7 (by decide)).trans (v4_arg7 V0)
theorem v6_arg7 (V0 : Valuation τ sig (Elt F)) : after ops_part5 (after ops_part4 (after ops_part3 (after ops_part2 (after ops_part1 (after ops_part0 V0))))) (no_index (Proc.devRef .tc main_arg7)) = V0 (Proc.devRef .tc main_arg7) :=
  (part5_keep (after ops_part4 (after ops_part3 (after ops_part2 (after ops_part1 (after ops_part0 V0))))) main_arg7 (by decide)).trans (v5_arg7 V0)
theorem v7_arg7 (V0 : Valuation τ sig (Elt F)) : after ops_part6 (after ops_part5 (after ops_part4 (after ops_part3 (after ops_part2 (after ops_part1 (after ops_part0 V0)))))) (no_index (Proc.devRef .tc main_arg7)) = V0 (Proc.devRef .tc main_arg7) :=
  (part6_keep (after ops_part5 (after ops_part4 (after ops_part3 (after ops_part2 (after ops_part1 (after ops_part0 V0)))))) main_arg7 (by decide)).trans (v6_arg7 V0)
theorem v1_arg8 (V0 : Valuation τ sig (Elt F)) : after ops_part0 V0 (no_index (Proc.devRef .tc main_arg8)) = V0 (Proc.devRef .tc main_arg8) :=
  part0_keep V0 main_arg8 (by decide)
theorem v2_arg8 (V0 : Valuation τ sig (Elt F)) : after ops_part1 (after ops_part0 V0) (no_index (Proc.devRef .tc main_arg8)) = V0 (Proc.devRef .tc main_arg8) :=
  (part1_keep (after ops_part0 V0) main_arg8 (by decide)).trans (v1_arg8 V0)
theorem v3_arg8 (V0 : Valuation τ sig (Elt F)) : after ops_part2 (after ops_part1 (after ops_part0 V0)) (no_index (Proc.devRef .tc main_arg8)) = V0 (Proc.devRef .tc main_arg8) :=
  (part2_keep (after ops_part1 (after ops_part0 V0)) main_arg8 (by decide)).trans (v2_arg8 V0)
theorem v4_arg8 (V0 : Valuation τ sig (Elt F)) : after ops_part3 (after ops_part2 (after ops_part1 (after ops_part0 V0))) (no_index (Proc.devRef .tc main_arg8)) = V0 (Proc.devRef .tc main_arg8) :=
  (part3_keep (after ops_part2 (after ops_part1 (after ops_part0 V0))) main_arg8 (by decide)).trans (v3_arg8 V0)
theorem v5_arg8 (V0 : Valuation τ sig (Elt F)) : after ops_part4 (after ops_part3 (after ops_part2 (after ops_part1 (after ops_part0 V0)))) (no_index (Proc.devRef .tc main_arg8)) = V0 (Proc.devRef .tc main_arg8) :=
  (part4_keep (after ops_part3 (after ops_part2 (after ops_part1 (after ops_part0 V0)))) main_arg8 (by decide)).trans (v4_arg8 V0)
theorem v6_arg8 (V0 : Valuation τ sig (Elt F)) : after ops_part5 (after ops_part4 (after ops_part3 (after ops_part2 (after ops_part1 (after ops_part0 V0))))) (no_index (Proc.devRef .tc main_arg8)) = V0 (Proc.devRef .tc main_arg8) :=
  (part5_keep (after ops_part4 (after ops_part3 (after ops_part2 (after ops_part1 (after ops_part0 V0))))) main_arg8 (by decide)).trans (v5_arg8 V0)
theorem v7_arg8 (V0 : Valuation τ sig (Elt F)) : after ops_part6 (after ops_part5 (after ops_part4 (after ops_part3 (after ops_part2 (after ops_part1 (after ops_part0 V0)))))) (no_index (Proc.devRef .tc main_arg8)) = V0 (Proc.devRef .tc main_arg8) :=
  (part6_keep (after ops_part5 (after ops_part4 (after ops_part3 (after ops_part2 (after ops_part1 (after ops_part0 V0)))))) main_arg8 (by decide)).trans (v6_arg8 V0)
theorem v1_arg9 (V0 : Valuation τ sig (Elt F)) : after ops_part0 V0 (no_index (Proc.devRef .tc main_arg9)) = V0 (Proc.devRef .tc main_arg9) :=
  part0_keep V0 main_arg9 (by decide)
theorem v2_arg9 (V0 : Valuation τ sig (Elt F)) : after ops_part1 (after ops_part0 V0) (no_index (Proc.devRef .tc main_arg9)) = V0 (Proc.devRef .tc main_arg9) :=
  (part1_keep (after ops_part0 V0) main_arg9 (by decide)).trans (v1_arg9 V0)
theorem v3_arg9 (V0 : Valuation τ sig (Elt F)) : after ops_part2 (after ops_part1 (after ops_part0 V0)) (no_index (Proc.devRef .tc main_arg9)) = V0 (Proc.devRef .tc main_arg9) :=
  (part2_keep (after ops_part1 (after ops_part0 V0)) main_arg9 (by decide)).trans (v2_arg9 V0)
theorem v4_arg9 (V0 : Valuation τ sig (Elt F)) : after ops_part3 (after ops_part2 (after ops_part1 (after ops_part0 V0))) (no_index (Proc.devRef .tc main_arg9)) = V0 (Proc.devRef .tc main_arg9) :=
  (part3_keep (after ops_part2 (after ops_part1 (after ops_part0 V0))) main_arg9 (by decide)).trans (v3_arg9 V0)
theorem v5_arg9 (V0 : Valuation τ sig (Elt F)) : after ops_part4 (after ops_part3 (after ops_part2 (after ops_part1 (after ops_part0 V0)))) (no_index (Proc.devRef .tc main_arg9)) = V0 (Proc.devRef .tc main_arg9) :=
  (part4_keep (after ops_part3 (after ops_part2 (after ops_part1 (after ops_part0 V0)))) main_arg9 (by decide)).trans (v4_arg9 V0)
theorem v6_arg9 (V0 : Valuation τ sig (Elt F)) : after ops_part5 (after ops_part4 (after ops_part3 (after ops_part2 (after ops_part1 (after ops_part0 V0))))) (no_index (Proc.devRef .tc main_arg9)) = V0 (Proc.devRef .tc main_arg9) :=
  (part5_keep (after ops_part4 (after ops_part3 (after ops_part2 (after ops_part1 (after ops_part0 V0))))) main_arg9 (by decide)).trans (v5_arg9 V0)
theorem v7_arg9 (V0 : Valuation τ sig (Elt F)) : after ops_part6 (after ops_part5 (after ops_part4 (after ops_part3 (after ops_part2 (after ops_part1 (after ops_part0 V0)))))) (no_index (Proc.devRef .tc main_arg9)) = V0 (Proc.devRef .tc main_arg9) :=
  (part6_keep (after ops_part5 (after ops_part4 (after ops_part3 (after ops_part2 (after ops_part1 (after ops_part0 V0)))))) main_arg9 (by decide)).trans (v6_arg9 V0)
theorem v1_arg10 (V0 : Valuation τ sig (Elt F)) : after ops_part0 V0 (no_index (Proc.devRef .tc main_arg10)) = V0 (Proc.devRef .tc main_arg10) :=
  part0_keep V0 main_arg10 (by decide)
theorem v2_arg10 (V0 : Valuation τ sig (Elt F)) : after ops_part1 (after ops_part0 V0) (no_index (Proc.devRef .tc main_arg10)) = V0 (Proc.devRef .tc main_arg10) :=
  (part1_keep (after ops_part0 V0) main_arg10 (by decide)).trans (v1_arg10 V0)
theorem v3_arg10 (V0 : Valuation τ sig (Elt F)) : after ops_part2 (after ops_part1 (after ops_part0 V0)) (no_index (Proc.devRef .tc main_arg10)) = V0 (Proc.devRef .tc main_arg10) :=
  (part2_keep (after ops_part1 (after ops_part0 V0)) main_arg10 (by decide)).trans (v2_arg10 V0)
theorem v4_arg10 (V0 : Valuation τ sig (Elt F)) : after ops_part3 (after ops_part2 (after ops_part1 (after ops_part0 V0))) (no_index (Proc.devRef .tc main_arg10)) = V0 (Proc.devRef .tc main_arg10) :=
  (part3_keep (after ops_part2 (after ops_part1 (after ops_part0 V0))) main_arg10 (by decide)).trans (v3_arg10 V0)
theorem v5_arg10 (V0 : Valuation τ sig (Elt F)) : after ops_part4 (after ops_part3 (after ops_part2 (after ops_part1 (after ops_part0 V0)))) (no_index (Proc.devRef .tc main_arg10)) = V0 (Proc.devRef .tc main_arg10) :=
  (part4_keep (after ops_part3 (after ops_part2 (after ops_part1 (after ops_part0 V0)))) main_arg10 (by decide)).trans (v4_arg10 V0)
theorem v6_arg10 (V0 : Valuation τ sig (Elt F)) : after ops_part5 (after ops_part4 (after ops_part3 (after ops_part2 (after ops_part1 (after ops_part0 V0))))) (no_index (Proc.devRef .tc main_arg10)) = V0 (Proc.devRef .tc main_arg10) :=
  (part5_keep (after ops_part4 (after ops_part3 (after ops_part2 (after ops_part1 (after ops_part0 V0))))) main_arg10 (by decide)).trans (v5_arg10 V0)
theorem v7_arg10 (V0 : Valuation τ sig (Elt F)) : after ops_part6 (after ops_part5 (after ops_part4 (after ops_part3 (after ops_part2 (after ops_part1 (after ops_part0 V0)))))) (no_index (Proc.devRef .tc main_arg10)) = V0 (Proc.devRef .tc main_arg10) :=
  (part6_keep (after ops_part5 (after ops_part4 (after ops_part3 (after ops_part2 (after ops_part1 (after ops_part0 V0)))))) main_arg10 (by decide)).trans (v6_arg10 V0)
theorem v1_arg11 (V0 : Valuation τ sig (Elt F)) : after ops_part0 V0 (no_index (Proc.devRef .tc main_arg11)) = V0 (Proc.devRef .tc main_arg11) :=
  part0_keep V0 main_arg11 (by decide)
theorem v2_arg11 (V0 : Valuation τ sig (Elt F)) : after ops_part1 (after ops_part0 V0) (no_index (Proc.devRef .tc main_arg11)) = V0 (Proc.devRef .tc main_arg11) :=
  (part1_keep (after ops_part0 V0) main_arg11 (by decide)).trans (v1_arg11 V0)
theorem v3_arg11 (V0 : Valuation τ sig (Elt F)) : after ops_part2 (after ops_part1 (after ops_part0 V0)) (no_index (Proc.devRef .tc main_arg11)) = V0 (Proc.devRef .tc main_arg11) :=
  (part2_keep (after ops_part1 (after ops_part0 V0)) main_arg11 (by decide)).trans (v2_arg11 V0)
theorem v4_arg11 (V0 : Valuation τ sig (Elt F)) : after ops_part3 (after ops_part2 (after ops_part1 (after ops_part0 V0))) (no_index (Proc.devRef .tc main_arg11)) = V0 (Proc.devRef .tc main_arg11) :=
  (part3_keep (after ops_part2 (after ops_part1 (after ops_part0 V0))) main_arg11 (by decide)).trans (v3_arg11 V0)
theorem v5_arg11 (V0 : Valuation τ sig (Elt F)) : after ops_part4 (after ops_part3 (after ops_part2 (after ops_part1 (after ops_part0 V0)))) (no_index (Proc.devRef .tc main_arg11)) = V0 (Proc.devRef .tc main_arg11) :=
  (part4_keep (after ops_part3 (after ops_part2 (after ops_part1 (after ops_part0 V0)))) main_arg11 (by decide)).trans (v4_arg11 V0)
theorem v6_arg11 (V0 : Valuation τ sig (Elt F)) : after ops_part5 (after ops_part4 (after ops_part3 (after ops_part2 (after ops_part1 (after ops_part0 V0))))) (no_index (Proc.devRef .tc main_arg11)) = V0 (Proc.devRef .tc main_arg11) :=
  (part5_keep (after ops_part4 (after ops_part3 (after ops_part2 (after ops_part1 (after ops_part0 V0))))) main_arg11 (by decide)).trans (v5_arg11 V0)
theorem v7_arg11 (V0 : Valuation τ sig (Elt F)) : after ops_part6 (after ops_part5 (after ops_part4 (after ops_part3 (after ops_part2 (after ops_part1 (after ops_part0 V0)))))) (no_index (Proc.devRef .tc main_arg11)) = V0 (Proc.devRef .tc main_arg11) :=
  (part6_keep (after ops_part5 (after ops_part4 (after ops_part3 (after ops_part2 (after ops_part1 (after ops_part0 V0)))))) main_arg11 (by decide)).trans (v6_arg11 V0)
theorem v1_arg12 (V0 : Valuation τ sig (Elt F)) : after ops_part0 V0 (no_index (Proc.devRef .tc main_arg12)) = V0 (Proc.devRef .tc main_arg12) :=
  part0_keep V0 main_arg12 (by decide)
theorem v2_arg12 (V0 : Valuation τ sig (Elt F)) : after ops_part1 (after ops_part0 V0) (no_index (Proc.devRef .tc main_arg12)) = V0 (Proc.devRef .tc main_arg12) :=
  (part1_keep (after ops_part0 V0) main_arg12 (by decide)).trans (v1_arg12 V0)
theorem v3_arg12 (V0 : Valuation τ sig (Elt F)) : after ops_part2 (after ops_part1 (after ops_part0 V0)) (no_index (Proc.devRef .tc main_arg12)) = V0 (Proc.devRef .tc main_arg12) :=
  (part2_keep (after ops_part1 (after ops_part0 V0)) main_arg12 (by decide)).trans (v2_arg12 V0)
theorem v4_arg12 (V0 : Valuation τ sig (Elt F)) : after ops_part3 (after ops_part2 (after ops_part1 (after ops_part0 V0))) (no_index (Proc.devRef .tc main_arg12)) = V0 (Proc.devRef .tc main_arg12) :=
  (part3_keep (after ops_part2 (after ops_part1 (after ops_part0 V0))) main_arg12 (by decide)).trans (v3_arg12 V0)
theorem v5_arg12 (V0 : Valuation τ sig (Elt F)) : after ops_part4 (after ops_part3 (after ops_part2 (after ops_part1 (after ops_part0 V0)))) (no_index (Proc.devRef .tc main_arg12)) = V0 (Proc.devRef .tc main_arg12) :=
  (part4_keep (after ops_part3 (after ops_part2 (after ops_part1 (after ops_part0 V0)))) main_arg12 (by decide)).trans (v4_arg12 V0)
theorem v6_arg12 (V0 : Valuation τ sig (Elt F)) : after ops_part5 (after ops_part4 (after ops_part3 (after ops_part2 (after ops_part1 (after ops_part0 V0))))) (no_index (Proc.devRef .tc main_arg12)) = V0 (Proc.devRef .tc main_arg12) :=
  (part5_keep (after ops_part4 (after ops_part3 (after ops_part2 (after ops_part1 (after ops_part0 V0))))) main_arg12 (by decide)).trans (v5_arg12 V0)
theorem v7_arg12 (V0 : Valuation τ sig (Elt F)) : after ops_part6 (after ops_part5 (after ops_part4 (after ops_part3 (after ops_part2 (after ops_part1 (after ops_part0 V0)))))) (no_index (Proc.devRef .tc main_arg12)) = V0 (Proc.devRef .tc main_arg12) :=
  (part6_keep (after ops_part5 (after ops_part4 (after ops_part3 (after ops_part2 (after ops_part1 (after ops_part0 V0)))))) main_arg12 (by decide)).trans (v6_arg12 V0)

theorem v1_src (V0 : Valuation τ sig (Elt F)) : after ops_part0 V0 (no_index (Proc.devRef .tc main_v1)) = x_src (V0 (Proc.devRef .tc main_arg1)) := by
  rw [part0_src]
  rfl
theorem v2_src (V0 : Valuation τ sig (Elt F)) : after ops_part1 (after ops_part0 V0) (no_index (Proc.devRef .tc main_v1)) = x_src (V0 (Proc.devRef .tc main_arg1)) :=
  (part1_keep (after ops_part0 V0) main_v1 (by decide)).trans (v1_src V0)
theorem v3_src (V0 : Valuation τ sig (Elt F)) : after ops_part2 (after ops_part1 (after ops_part0 V0)) (no_index (Proc.devRef .tc main_v1)) = x_src (V0 (Proc.devRef .tc main_arg1)) :=
  (part2_keep (after ops_part1 (after ops_part0 V0)) main_v1 (by decide)).trans (v2_src V0)
theorem v4_src (V0 : Valuation τ sig (Elt F)) : after ops_part3 (after ops_part2 (after ops_part1 (after ops_part0 V0))) (no_index (Proc.devRef .tc main_v1)) = x_src (V0 (Proc.devRef .tc main_arg1)) :=
  (part3_keep (after ops_part2 (after ops_part1 (after ops_part0 V0))) main_v1 (by decide)).trans (v3_src V0)
theorem v5_src (V0 : Valuation τ sig (Elt F)) : after ops_part4 (after ops_part3 (after ops_part2 (after ops_part1 (after ops_part0 V0)))) (no_index (Proc.devRef .tc main_v1)) = x_src (V0 (Proc.devRef .tc main_arg1)) :=
  (part4_keep (after ops_part3 (after ops_part2 (after ops_part1 (after ops_part0 V0)))) main_v1 (by decide)).trans (v4_src V0)

theorem v1_dst (V0 : Valuation τ sig (Elt F)) : after ops_part0 V0 (no_index (Proc.devRef .tc main_v3)) = x_dst (V0 (Proc.devRef .tc main_arg1)) := by
  rw [part0_dst]
  rfl
theorem v2_dst (V0 : Valuation τ sig (Elt F)) : after ops_part1 (after ops_part0 V0) (no_index (Proc.devRef .tc main_v3)) = x_dst (V0 (Proc.devRef .tc main_arg1)) :=
  (part1_keep (after ops_part0 V0) main_v3 (by decide)).trans (v1_dst V0)
theorem v3_dst (V0 : Valuation τ sig (Elt F)) : after ops_part2 (after ops_part1 (after ops_part0 V0)) (no_index (Proc.devRef .tc main_v3)) = x_dst (V0 (Proc.devRef .tc main_arg1)) :=
  (part2_keep (after ops_part1 (after ops_part0 V0)) main_v3 (by decide)).trans (v2_dst V0)
theorem v4_dst (V0 : Valuation τ sig (Elt F)) : after ops_part3 (after ops_part2 (after ops_part1 (after ops_part0 V0))) (no_index (Proc.devRef .tc main_v3)) = x_dst (V0 (Proc.devRef .tc main_arg1)) :=
  (part3_keep (after ops_part2 (after ops_part1 (after ops_part0 V0))) main_v3 (by decide)).trans (v3_dst V0)
theorem v5_dst (V0 : Valuation τ sig (Elt F)) : after ops_part4 (after ops_part3 (after ops_part2 (after ops_part1 (after ops_part0 V0)))) (no_index (Proc.devRef .tc main_v3)) = x_dst (V0 (Proc.devRef .tc main_arg1)) :=
  (part4_keep (after ops_part3 (after ops_part2 (after ops_part1 (after ops_part0 V0)))) main_v3 (by decide)).trans (v4_dst V0)

theorem v1_W0 (V0 : Valuation τ sig (Elt F)) : after ops_part0 V0 (no_index (Proc.devRef .tc main_v5)) = x_W0 (V0 (Proc.devRef .tc main_arg3)) := by
  rw [part0_W0]
  rfl

theorem v1_bias0 (V0 : Valuation τ sig (Elt F)) : after ops_part0 V0 (no_index (Proc.devRef .tc main_v7)) = x_bias0 (V0 (Proc.devRef .tc main_arg4)) := by
  rw [part0_bias0]
  rfl

theorem v1_dinv0 (V0 : Valuation τ sig (Elt F)) : after ops_part0 V0 (no_index (Proc.devRef .tc main_v14)) = x_dinv0 (V0 (Proc.devRef .tc main_arg1)) := by
  rw [part0_dinv0, v1_dst V0]
  rfl

theorem v1_hw0 (V0 : Valuation τ sig (Elt F)) : after ops_part0 V0 (no_index (Proc.devRef .tc main_v15)) = x_hw0 (V0 (Proc.devRef .tc main_arg0)) (V0 (Proc.devRef .tc main_arg3)) := by
  rw [part0_hw0, v1_W0 V0]
  rfl

theorem v1_norm0 (V0 : Valuation τ sig (Elt F)) : after ops_part0 V0 (no_index (Proc.devRef .tc main_v30)) = x_norm0 (V0 (Proc.devRef .tc main_arg1)) := by
  rw [part0_norm0, v1_dinv0 V0, v1_src V0, v1_dst V0]
  rfl

theorem v1_agg0 (V0 : Valuation τ sig (Elt F)) : after ops_part0 V0 (no_index (Proc.devRef .tc main_v43)) = x_agg0 (V0 (Proc.devRef .tc main_arg0)) (V0 (Proc.devRef .tc main_arg1)) (V0 (Proc.devRef .tc main_arg3)) := by
  rw [part0_agg0, v1_dst V0, v1_hw0 V0, v1_src V0, v1_norm0 V0]
  rfl

theorem v1_aux_v48 (V0 : Valuation τ sig (Elt F)) : after ops_part0 V0 (no_index (Proc.devRef .tc main_v48)) = x_aux_v48 (V0 (Proc.devRef .tc main_arg0)) (V0 (Proc.devRef .tc main_arg1)) (V0 (Proc.devRef .tc main_arg3)) := by
  rw [part0_aux_v48, v1_agg0 V0, v1_hw0 V0, v1_dinv0 V0]
  rfl

theorem v1_aux_v49 (V0 : Valuation τ sig (Elt F)) : after ops_part0 V0 (no_index (Proc.devRef .tc main_v49)) = x_aux_v49 (V0 (Proc.devRef .tc main_arg4)) := by
  rw [part0_aux_v49, v1_bias0 V0]
  rfl

theorem v2_conv0 (V0 : Valuation τ sig (Elt F)) : after ops_part1 (after ops_part0 V0) (no_index (Proc.devRef .tc main_v51)) = x_conv0 (V0 (Proc.devRef .tc main_arg0)) (V0 (Proc.devRef .tc main_arg1)) (V0 (Proc.devRef .tc main_arg3)) (V0 (Proc.devRef .tc main_arg4)) := by
  rw [part1_conv0, v1_aux_v48 V0, v1_aux_v49 V0]
  rfl

theorem v2_gamma0 (V0 : Valuation τ sig (Elt F)) : after ops_part1 (after ops_part0 V0) (no_index (Proc.devRef .tc main_v53)) = x_gamma0 (V0 (Proc.devRef .tc main_arg5)) := by
  rw [part1_gamma0, v1_arg5 V0]
  rfl

theorem v2_beta0 (V0 : Valuation τ sig (Elt F)) : after ops_part1 (after ops_part0 V0) (no_index (Proc.devRef .tc main_v55)) = x_beta0 (V0 (Proc.devRef .tc main_arg6)) := by
  rw [part1_beta0, v1_arg6 V0]
  rfl

theorem v2_mean0 (V0 : Valuation τ sig (Elt F)) : after ops_part1 (after ops_part0 V0) (no_index (Proc.devRef .tc main_v58)) = x_mean0 (V0 (Proc.devRef .tc main_arg0)) (V0 (Proc.devRef .tc main_arg1)) (V0 (Proc.devRef .tc main_arg3)) (V0 (Proc.devRef .tc main_arg4)) := by
  rw [part1_mean0, v2_conv0 V0]
  rfl

theorem v2_var0 (V0 : Valuation τ sig (Elt F)) : after ops_part1 (after ops_part0 V0) (no_index (Proc.devRef .tc main_v59)) = x_var0 (V0 (Proc.devRef .tc main_arg0)) (V0 (Proc.devRef .tc main_arg1)) (V0 (Proc.devRef .tc main_arg3)) (V0 (Proc.devRef .tc main_arg4)) := by
  rw [part1_var0, v2_conv0 V0]
  rfl

theorem v2_bn0 (V0 : Valuation τ sig (Elt F)) : after ops_part1 (after ops_part0 V0) (no_index (Proc.devRef .tc main_v74)) = x_bn0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part1_bn0, v2_conv0 V0, v2_mean0 V0, v2_var0 V0, v2_gamma0 V0, v2_beta0 V0]
  rfl

theorem v2_relu0 (V0 : Valuation τ sig (Elt F)) : after ops_part1 (after ops_part0 V0) (no_index (Proc.devRef .tc main_v75)) = x_relu0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part1_relu0, v2_bn0 V0]
  rfl

theorem v2_W1 (V0 : Valuation τ sig (Elt F)) : after ops_part1 (after ops_part0 V0) (no_index (Proc.devRef .tc main_v77)) = x_W1 (V0 (Proc.devRef .tc main_arg3)) := by
  rw [part1_W1, v1_arg3 V0]
  rfl

theorem v2_bias1 (V0 : Valuation τ sig (Elt F)) : after ops_part1 (after ops_part0 V0) (no_index (Proc.devRef .tc main_v79)) = x_bias1 (V0 (Proc.devRef .tc main_arg4)) := by
  rw [part1_bias1, v1_arg4 V0]
  rfl

theorem v2_dinv1 (V0 : Valuation τ sig (Elt F)) : after ops_part1 (after ops_part0 V0) (no_index (Proc.devRef .tc main_v86)) = x_dinv1 (V0 (Proc.devRef .tc main_arg1)) := by
  rw [part1_dinv1, v1_dst V0]
  rfl

theorem v2_hw1 (V0 : Valuation τ sig (Elt F)) : after ops_part1 (after ops_part0 V0) (no_index (Proc.devRef .tc main_v87)) = x_hw1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part1_hw1, v2_relu0 V0, v2_W1 V0]
  rfl

theorem v2_aux_v94 (V0 : Valuation τ sig (Elt F)) : after ops_part1 (after ops_part0 V0) (no_index (Proc.devRef .tc main_v94)) = x_aux_v94 (V0 (Proc.devRef .tc main_arg1)) := by
  rw [part1_aux_v94, v2_dinv1 V0, v1_src V0]
  rfl

theorem v2_aux_v96 (V0 : Valuation τ sig (Elt F)) : after ops_part1 (after ops_part0 V0) (no_index (Proc.devRef .tc main_v96)) = x_aux_v96 (V0 (Proc.devRef .tc main_arg1)) := by
  rw [part1_aux_v96, v1_dst V0]
  rfl

theorem v2_aux_v98 (V0 : Valuation τ sig (Elt F)) : after ops_part1 (after ops_part0 V0) (no_index (Proc.devRef .tc main_v98)) = x_aux_v98 (V0 (Proc.devRef .tc main_arg1)) := by
  rw [part1_aux_v98, v1_dst V0]
  rfl

theorem v3_norm1 (V0 : Valuation τ sig (Elt F)) : after ops_part2 (after ops_part1 (after ops_part0 V0)) (no_index (Proc.devRef .tc main_v102)) = x_norm1 (V0 (Proc.devRef .tc main_arg1)) := by
  rw [part2_norm1, v2_aux_v94 V0, v2_dinv1 V0, v2_aux_v96 V0, v2_aux_v98 V0, v2_dst V0]
  rfl

theorem v3_agg1 (V0 : Valuation τ sig (Elt F)) : after ops_part2 (after ops_part1 (after ops_part0 V0)) (no_index (Proc.devRef .tc main_v115)) = x_agg1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_agg1, v2_dst V0, v2_hw1 V0, v2_src V0, v3_norm1 V0]
  rfl

theorem v3_conv1 (V0 : Valuation τ sig (Elt F)) : after ops_part2 (after ops_part1 (after ops_part0 V0)) (no_index (Proc.devRef .tc main_v123)) = x_conv1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_conv1, v3_agg1 V0, v2_hw1 V0, v2_dinv1 V0, v2_bias1 V0]
  rfl

theorem v3_gamma1 (V0 : Valuation τ sig (Elt F)) : after ops_part2 (after ops_part1 (after ops_part0 V0)) (no_index (Proc.devRef .tc main_v125)) = x_gamma1 (V0 (Proc.devRef .tc main_arg5)) := by
  rw [part2_gamma1, v2_arg5 V0]
  rfl

theorem v3_beta1 (V0 : Valuation τ sig (Elt F)) : after ops_part2 (after ops_part1 (after ops_part0 V0)) (no_index (Proc.devRef .tc main_v127)) = x_beta1 (V0 (Proc.devRef .tc main_arg6)) := by
  rw [part2_beta1, v2_arg6 V0]
  rfl

theorem v3_mean1 (V0 : Valuation τ sig (Elt F)) : after ops_part2 (after ops_part1 (after ops_part0 V0)) (no_index (Proc.devRef .tc main_v130)) = x_mean1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_mean1, v3_conv1 V0]
  rfl

theorem v3_var1 (V0 : Valuation τ sig (Elt F)) : after ops_part2 (after ops_part1 (after ops_part0 V0)) (no_index (Proc.devRef .tc main_v131)) = x_var1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_var1, v3_conv1 V0]
  rfl

theorem v3_bn1 (V0 : Valuation τ sig (Elt F)) : after ops_part2 (after ops_part1 (after ops_part0 V0)) (no_index (Proc.devRef .tc main_v146)) = x_bn1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_bn1, v3_conv1 V0, v3_mean1 V0, v3_var1 V0, v3_gamma1 V0, v3_beta1 V0]
  rfl

theorem v3_relu1 (V0 : Valuation τ sig (Elt F)) : after ops_part2 (after ops_part1 (after ops_part0 V0)) (no_index (Proc.devRef .tc main_v147)) = x_relu1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part2_relu1, v3_bn1 V0]
  rfl

theorem v3_W2 (V0 : Valuation τ sig (Elt F)) : after ops_part2 (after ops_part1 (after ops_part0 V0)) (no_index (Proc.devRef .tc main_v149)) = x_W2 (V0 (Proc.devRef .tc main_arg3)) := by
  rw [part2_W2, v2_arg3 V0]
  rfl

theorem v3_bias2 (V0 : Valuation τ sig (Elt F)) : after ops_part2 (after ops_part1 (after ops_part0 V0)) (no_index (Proc.devRef .tc main_v151)) = x_bias2 (V0 (Proc.devRef .tc main_arg4)) := by
  rw [part2_bias2, v2_arg4 V0]
  rfl

theorem v4_dinv2 (V0 : Valuation τ sig (Elt F)) : after ops_part3 (after ops_part2 (after ops_part1 (after ops_part0 V0))) (no_index (Proc.devRef .tc main_v158)) = x_dinv2 (V0 (Proc.devRef .tc main_arg1)) := by
  rw [part3_dinv2, v3_dst V0]
  rfl

theorem v4_hw2 (V0 : Valuation τ sig (Elt F)) : after ops_part3 (after ops_part2 (after ops_part1 (after ops_part0 V0))) (no_index (Proc.devRef .tc main_v159)) = x_hw2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part3_hw2, v3_relu1 V0, v3_W2 V0]
  rfl

theorem v4_norm2 (V0 : Valuation τ sig (Elt F)) : after ops_part3 (after ops_part2 (after ops_part1 (after ops_part0 V0))) (no_index (Proc.devRef .tc main_v174)) = x_norm2 (V0 (Proc.devRef .tc main_arg1)) := by
  rw [part3_norm2, v4_dinv2 V0, v3_src V0, v3_dst V0]
  rfl

theorem v4_agg2 (V0 : Valuation τ sig (Elt F)) : after ops_part3 (after ops_part2 (after ops_part1 (after ops_part0 V0))) (no_index (Proc.devRef .tc main_v187)) = x_agg2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part3_agg2, v3_dst V0, v4_hw2 V0, v3_src V0, v4_norm2 V0]
  rfl

theorem v4_conv2 (V0 : Valuation τ sig (Elt F)) : after ops_part3 (after ops_part2 (after ops_part1 (after ops_part0 V0))) (no_index (Proc.devRef .tc main_v195)) = x_conv2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part3_conv2, v4_agg2 V0, v4_hw2 V0, v4_dinv2 V0, v3_bias2 V0]
  rfl

theorem v4_gamma2 (V0 : Valuation τ sig (Elt F)) : after ops_part3 (after ops_part2 (after ops_part1 (after ops_part0 V0))) (no_index (Proc.devRef .tc main_v197)) = x_gamma2 (V0 (Proc.devRef .tc main_arg5)) := by
  rw [part3_gamma2, v3_arg5 V0]
  rfl

theorem v4_beta2 (V0 : Valuation τ sig (Elt F)) : after ops_part3 (after ops_part2 (after ops_part1 (after ops_part0 V0))) (no_index (Proc.devRef .tc main_v199)) = x_beta2 (V0 (Proc.devRef .tc main_arg6)) := by
  rw [part3_beta2, v3_arg6 V0]
  rfl

theorem v4_aux_v200 (V0 : Valuation τ sig (Elt F)) : after ops_part3 (after ops_part2 (after ops_part1 (after ops_part0 V0))) (no_index (Proc.devRef .tc main_v200)) = x_aux_v200 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part3_aux_v200, v4_conv2 V0]
  rfl

theorem v5_mean2 (V0 : Valuation τ sig (Elt F)) : after ops_part4 (after ops_part3 (after ops_part2 (after ops_part1 (after ops_part0 V0)))) (no_index (Proc.devRef .tc main_v202)) = x_mean2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part4_mean2, v4_aux_v200 V0]
  rfl

theorem v5_var2 (V0 : Valuation τ sig (Elt F)) : after ops_part4 (after ops_part3 (after ops_part2 (after ops_part1 (after ops_part0 V0)))) (no_index (Proc.devRef .tc main_v203)) = x_var2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part4_var2, v4_conv2 V0]
  rfl

theorem v5_bn2 (V0 : Valuation τ sig (Elt F)) : after ops_part4 (after ops_part3 (after ops_part2 (after ops_part1 (after ops_part0 V0)))) (no_index (Proc.devRef .tc main_v218)) = x_bn2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part4_bn2, v4_conv2 V0, v5_mean2 V0, v5_var2 V0, v4_gamma2 V0, v4_beta2 V0]
  rfl

theorem v5_relu2 (V0 : Valuation τ sig (Elt F)) : after ops_part4 (after ops_part3 (after ops_part2 (after ops_part1 (after ops_part0 V0)))) (no_index (Proc.devRef .tc main_v219)) = x_relu2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part4_relu2, v5_bn2 V0]
  rfl

theorem v5_W3 (V0 : Valuation τ sig (Elt F)) : after ops_part4 (after ops_part3 (after ops_part2 (after ops_part1 (after ops_part0 V0)))) (no_index (Proc.devRef .tc main_v221)) = x_W3 (V0 (Proc.devRef .tc main_arg3)) := by
  rw [part4_W3, v4_arg3 V0]
  rfl

theorem v5_bias3 (V0 : Valuation τ sig (Elt F)) : after ops_part4 (after ops_part3 (after ops_part2 (after ops_part1 (after ops_part0 V0)))) (no_index (Proc.devRef .tc main_v223)) = x_bias3 (V0 (Proc.devRef .tc main_arg4)) := by
  rw [part4_bias3, v4_arg4 V0]
  rfl

theorem v5_dinv3 (V0 : Valuation τ sig (Elt F)) : after ops_part4 (after ops_part3 (after ops_part2 (after ops_part1 (after ops_part0 V0)))) (no_index (Proc.devRef .tc main_v230)) = x_dinv3 (V0 (Proc.devRef .tc main_arg1)) := by
  rw [part4_dinv3, v4_dst V0]
  rfl

theorem v5_hw3 (V0 : Valuation τ sig (Elt F)) : after ops_part4 (after ops_part3 (after ops_part2 (after ops_part1 (after ops_part0 V0)))) (no_index (Proc.devRef .tc main_v231)) = x_hw3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part4_hw3, v5_relu2 V0, v5_W3 V0]
  rfl

theorem v5_norm3 (V0 : Valuation τ sig (Elt F)) : after ops_part4 (after ops_part3 (after ops_part2 (after ops_part1 (after ops_part0 V0)))) (no_index (Proc.devRef .tc main_v246)) = x_norm3 (V0 (Proc.devRef .tc main_arg1)) := by
  rw [part4_norm3, v5_dinv3 V0, v4_src V0, v4_dst V0]
  rfl

theorem v5_aux_v248 (V0 : Valuation τ sig (Elt F)) : after ops_part4 (after ops_part3 (after ops_part2 (after ops_part1 (after ops_part0 V0)))) (no_index (Proc.devRef .tc main_v248)) = x_aux_v248 (V0 (Proc.devRef .tc main_arg1)) := by
  rw [part4_aux_v248, v4_src V0]
  rfl

theorem v5_aux_c_48 (V0 : Valuation τ sig (Elt F)) : after ops_part4 (after ops_part3 (after ops_part2 (after ops_part1 (after ops_part0 V0)))) (no_index (Proc.devRef .tc main_c_48)) = x_aux_c_48 := by
  rw [part4_aux_c_48]
  rfl

theorem v6_agg3 (V0 : Valuation τ sig (Elt F)) : after ops_part5 (after ops_part4 (after ops_part3 (after ops_part2 (after ops_part1 (after ops_part0 V0))))) (no_index (Proc.devRef .tc main_v259)) = x_agg3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_agg3, v5_dst V0, v5_hw3 V0, v5_aux_v248 V0, v5_src V0, v5_aux_c_48 V0, v5_norm3 V0]
  rfl

theorem v6_conv3 (V0 : Valuation τ sig (Elt F)) : after ops_part5 (after ops_part4 (after ops_part3 (after ops_part2 (after ops_part1 (after ops_part0 V0))))) (no_index (Proc.devRef .tc main_v267)) = x_conv3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_conv3, v6_agg3 V0, v5_hw3 V0, v5_dinv3 V0, v5_bias3 V0]
  rfl

theorem v6_gamma3 (V0 : Valuation τ sig (Elt F)) : after ops_part5 (after ops_part4 (after ops_part3 (after ops_part2 (after ops_part1 (after ops_part0 V0))))) (no_index (Proc.devRef .tc main_v269)) = x_gamma3 (V0 (Proc.devRef .tc main_arg5)) := by
  rw [part5_gamma3, v5_arg5 V0]
  rfl

theorem v6_beta3 (V0 : Valuation τ sig (Elt F)) : after ops_part5 (after ops_part4 (after ops_part3 (after ops_part2 (after ops_part1 (after ops_part0 V0))))) (no_index (Proc.devRef .tc main_v271)) = x_beta3 (V0 (Proc.devRef .tc main_arg6)) := by
  rw [part5_beta3, v5_arg6 V0]
  rfl

theorem v6_mean3 (V0 : Valuation τ sig (Elt F)) : after ops_part5 (after ops_part4 (after ops_part3 (after ops_part2 (after ops_part1 (after ops_part0 V0))))) (no_index (Proc.devRef .tc main_v274)) = x_mean3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_mean3, v6_conv3 V0]
  rfl

theorem v6_var3 (V0 : Valuation τ sig (Elt F)) : after ops_part5 (after ops_part4 (after ops_part3 (after ops_part2 (after ops_part1 (after ops_part0 V0))))) (no_index (Proc.devRef .tc main_v275)) = x_var3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_var3, v6_conv3 V0]
  rfl

theorem v6_bn3 (V0 : Valuation τ sig (Elt F)) : after ops_part5 (after ops_part4 (after ops_part3 (after ops_part2 (after ops_part1 (after ops_part0 V0))))) (no_index (Proc.devRef .tc main_v290)) = x_bn3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_bn3, v6_conv3 V0, v6_mean3 V0, v6_var3 V0, v6_gamma3 V0, v6_beta3 V0]
  rfl

theorem v6_relu3 (V0 : Valuation τ sig (Elt F)) : after ops_part5 (after ops_part4 (after ops_part3 (after ops_part2 (after ops_part1 (after ops_part0 V0))))) (no_index (Proc.devRef .tc main_v291)) = x_relu3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  rw [part5_relu3, v6_bn3 V0]
  rfl

theorem v6_pool (V0 : Valuation τ sig (Elt F)) : after ops_part5 (after ops_part4 (after ops_part3 (after ops_part2 (after ops_part1 (after ops_part0 V0))))) (no_index (Proc.devRef .tc main_v294)) = x_pool (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  rw [part5_pool, v5_arg2 V0, v6_relu3 V0]
  rfl

theorem v6_mm1 (V0 : Valuation τ sig (Elt F)) : after ops_part5 (after ops_part4 (after ops_part3 (after ops_part2 (after ops_part1 (after ops_part0 V0))))) (no_index (Proc.devRef .tc main_v295)) = x_mm1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [part5_mm1, v6_pool V0, v5_arg7 V0]
  rfl

theorem v6_lin1 (V0 : Valuation τ sig (Elt F)) : after ops_part5 (after ops_part4 (after ops_part3 (after ops_part2 (after ops_part1 (after ops_part0 V0))))) (no_index (Proc.devRef .tc main_v298)) = x_lin1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [part5_lin1, v6_mm1 V0, v5_arg8 V0]
  rfl

theorem v6_act1 (V0 : Valuation τ sig (Elt F)) : after ops_part5 (after ops_part4 (after ops_part3 (after ops_part2 (after ops_part1 (after ops_part0 V0))))) (no_index (Proc.devRef .tc main_v299)) = x_act1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [part5_act1, v6_lin1 V0]
  rfl

theorem v6_mm2 (V0 : Valuation τ sig (Elt F)) : after ops_part5 (after ops_part4 (after ops_part3 (after ops_part2 (after ops_part1 (after ops_part0 V0))))) (no_index (Proc.devRef .tc main_v300)) = x_mm2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [part5_mm2, v6_act1 V0, v5_arg9 V0]
  rfl

theorem v6_aux_v302 (V0 : Valuation τ sig (Elt F)) : after ops_part5 (after ops_part4 (after ops_part3 (after ops_part2 (after ops_part1 (after ops_part0 V0))))) (no_index (Proc.devRef .tc main_v302)) = x_aux_v302 (V0 (Proc.devRef .tc main_arg10)) := by
  rw [part5_aux_v302, v5_arg10 V0]
  rfl

theorem v7_lin2 (V0 : Valuation τ sig (Elt F)) : after ops_part6 (after ops_part5 (after ops_part4 (after ops_part3 (after ops_part2 (after ops_part1 (after ops_part0 V0)))))) (no_index (Proc.devRef .tc main_v303)) = x_lin2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [part6_lin2, v6_mm2 V0, v6_aux_v302 V0]
  rfl

theorem v7_act2 (V0 : Valuation τ sig (Elt F)) : after ops_part6 (after ops_part5 (after ops_part4 (after ops_part3 (after ops_part2 (after ops_part1 (after ops_part0 V0)))))) (no_index (Proc.devRef .tc main_v304)) = x_act2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [part6_act2, v7_lin2 V0]
  rfl

theorem v7_mm3 (V0 : Valuation τ sig (Elt F)) : after ops_part6 (after ops_part5 (after ops_part4 (after ops_part3 (after ops_part2 (after ops_part1 (after ops_part0 V0)))))) (no_index (Proc.devRef .tc main_v305)) = x_mm3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [part6_mm3, v7_act2 V0, v6_arg11 V0]
  rfl

theorem v7_out (V0 : Valuation τ sig (Elt F)) : after ops_part6 (after ops_part5 (after ops_part4 (after ops_part3 (after ops_part2 (after ops_part1 (after ops_part0 V0)))))) (no_index (Proc.devRef .tc main_v308)) = x_out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [part6_out, v7_mm3 V0, v6_arg12 V0]
  rfl

/-- From any memory with zero counters, every weakly fair execution of the reference terminates with its result
    at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v308) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v308).trans ((congrFun (after_ops (launchContents m c)) _).trans (v7_out (launchContents m c))),
      (h c main_arg0).trans ((congrFun (after_ops (launchContents m c)) _).trans (v7_arg0 (launchContents m c))),
      (h c main_arg1).trans ((congrFun (after_ops (launchContents m c)) _).trans (v7_arg1 (launchContents m c))),
      (h c main_arg2).trans ((congrFun (after_ops (launchContents m c)) _).trans (v7_arg2 (launchContents m c))),
      (h c main_arg3).trans ((congrFun (after_ops (launchContents m c)) _).trans (v7_arg3 (launchContents m c))),
      (h c main_arg4).trans ((congrFun (after_ops (launchContents m c)) _).trans (v7_arg4 (launchContents m c))),
      (h c main_arg5).trans ((congrFun (after_ops (launchContents m c)) _).trans (v7_arg5 (launchContents m c))),
      (h c main_arg6).trans ((congrFun (after_ops (launchContents m c)) _).trans (v7_arg6 (launchContents m c))),
      (h c main_arg7).trans ((congrFun (after_ops (launchContents m c)) _).trans (v7_arg7 (launchContents m c))),
      (h c main_arg8).trans ((congrFun (after_ops (launchContents m c)) _).trans (v7_arg8 (launchContents m c))),
      (h c main_arg9).trans ((congrFun (after_ops (launchContents m c)) _).trans (v7_arg9 (launchContents m c))),
      (h c main_arg10).trans ((congrFun (after_ops (launchContents m c)) _).trans (v7_arg10 (launchContents m c))),
      (h c main_arg11).trans ((congrFun (after_ops (launchContents m c)) _).trans (v7_arg11 (launchContents m c))),
      (h c main_arg12).trans ((congrFun (after_ops (launchContents m c)) _).trans (v7_arg12 (launchContents m c)))⟩)
    (run_seq scopedRefs_eq scopedSems_eq defs main (fun _ => ops) main_eq (fun _ => ops_sub) m ρ (fun _ => ops_fresh))

end Cert.ReferenceIdeal.RefRun

end
-- ==== Proof.LibFiniteBlock.lean ====
/- An array that passes the finiteness test holds real numbers. The test takes the absolute value of every entry, compares it
   with `+inf` (strictly below), and reduces the comparisons by `and` to one bit. On the extended reals the absolute value is
   `max x (−x)`, which is `+∞` at both infinities, so an entry strictly below `+∞` in absolute value is a real number; and a
   reduction by `and` that ends at 1 had a 1 at every index. -/
import Idealize.ShloMosaic.Lib.ReduceAll
import Idealize.ShloMosaic.Lib.Pipeline.Value
import Idealize.ShloMosaic.Lib.ValueIdx
import Idealize.ShloMosaic.PureOps.Ideal.Laws

noncomputable section

namespace Cert.LibFiniteBlock

open Idealize.ShloMosaic Idealize.ShloMosaic.ValueIdx

/-- The word of `+inf` denotes the top of the extended reals. -/
theorem ofBits_inf : Ideal.ofBits .f32 0x7F800000#32 = ⊤ := by
  simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test bit is 1 only for a real entry. -/
theorem real_of_test (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  refine real_of_abs_lt_top x ?_
  by_contra hn
  have : FloatOps.cmpf (F := Ideal) (φ := .f32) .olt (FloatOps.hostAbsf (F := Ideal) (φ := .f32) x) (⊤ : EReal) = 0#1 := by
    show BitVec.ofBool (decide (max x (-x) < ⊤)) = 0#1
    rw [decide_eq_false hn]; rfl
  rw [this] at h
  exact absurd h (by decide)

/-- An array that passes the finiteness test holds a real number at every index. -/
theorem block_real {s : Shape} {axes : List (Fin s.rank)} (x : FVec Ideal s .f32) (dims : Fin 0 → Fin s.rank)
    (hb : (⟨0, ![]⟩ : Shape).BroadcastsInDim s dims) (hr : s.ReducesTo axes ⟨0, ![]⟩) (hu : 0 < (⟨0, ![]⟩ : Shape).numel)
    (init : IVec ⟨0, ![]⟩ 1)
    (e : Host.reduce IntOp.andi
        (cmpf .olt (Host.absf x) (broadcastInDim s dims hb (constant (F := Ideal) ⟨0, ![]⟩ .f32 0x7F800000#32))) init hr hu ix0 = 1#1)
    (i : s.Idx) : ∃ r : ℝ, x i = (r : EReal) := by
  haveI : Subsingleton (⟨0, ![]⟩ : Shape).Idx := ⟨fun a b => funext fun d => d.elim0⟩
  have h1 := Host.reduce_andi_all _ init hr hu ix0 e i
  rw [cmpf_apply, broadcastInDim_apply dims hb _ i ix0 (fun ax => ax.elim0), constant_apply] at h1
  exact real_of_test (x i) h1

end Cert.LibFiniteBlock

end
-- ==== Proof.LibFiniteArrays.lean ====
/-
  Arrays of finite numbers stay finite.

  An array over the extended reals is called real-valued when every entry is the coercion of a real number. A finite sum
  of products of real-valued families is real-valued (so a matrix product of real-valued arrays is), a gather of a
  real-valued array is, an accumulating scatter of real-valued updates into a real-valued array is, and so are entrywise
  sums, differences, products and the positive part. These are what carries finiteness of the inputs through a network's
  layers, where the algebraic laws that join two forms of a normalisation need it.
-/
import Idealize.ShloMosaic.PureOps.Ideal.Laws
import Mathlib.Data.EReal.Inv

noncomputable section

namespace FiniteArrays

open Idealize.ShloMosaic

/-- Every entry is the coercion of a real number. -/
def IsReal {ι : Type*} (f : ι → EReal) : Prop := ∀ i, ∃ r : ℝ, f i = (r : EReal)

/-- A real-valued array is the coercion of an array of reals. -/
theorem IsReal.exists_fun {ι : Type*} {f : ι → EReal} (h : IsReal f) : ∃ g : ι → ℝ, ∀ i, f i = ((g i : ℝ) : EReal) :=
  ⟨fun i => (h i).choose, fun i => (h i).choose_spec⟩

theorem isReal_of_fun {ι : Type*} {f : ι → EReal} (g : ι → ℝ) (h : ∀ i, f i = ((g i : ℝ) : EReal)) : IsReal f :=
  fun i => ⟨g i, h i⟩

/-- The coercion of a finite sum of reals is the sum of the coercions. -/
theorem coe_finset_sum {κ : Type*} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real-valued terms is a real. -/
theorem sum_isReal {κ : Type*} (s : Finset κ) (a : κ → EReal) (ha : IsReal a) : ∃ r : ℝ, ∑ k ∈ s, a k = (r : EReal) := by
  obtain ⟨A, hA⟩ := ha.exists_fun
  exact ⟨∑ k ∈ s, A k, by rw [coe_finset_sum]; exact Finset.sum_congr rfl fun k _ => hA k⟩

/-- A finite sum of products of two families of coerced reals is the coerced sum of the real products. -/
theorem sum_mul_coe {κ : Type*} [Fintype κ] (a b : κ → EReal) (A B : κ → ℝ)
    (ha : ∀ k, a k = ((A k : ℝ) : EReal)) (hb : ∀ k, b k = ((B k : ℝ) : EReal)) :
    ∑ k, a k * b k = ((∑ k, A k * B k : ℝ) : EReal) := by
  rw [coe_finset_sum]
  exact Finset.sum_congr rfl fun k _ => by rw [ha, hb, EReal.coe_mul]

theorem IsReal.add {ι : Type*} {f g : ι → EReal} (hf : IsReal f) (hg : IsReal g) : IsReal fun i => f i + g i := fun i => by
  obtain ⟨a, ha⟩ := hf i; obtain ⟨b, hb⟩ := hg i
  exact ⟨a + b, by show f i + g i = _; rw [ha, hb, EReal.coe_add]⟩

theorem IsReal.sub {ι : Type*} {f g : ι → EReal} (hf : IsReal f) (hg : IsReal g) : IsReal fun i => f i - g i := fun i => by
  obtain ⟨a, ha⟩ := hf i; obtain ⟨b, hb⟩ := hg i
  exact ⟨a - b, by show f i - g i = _; rw [ha, hb, EReal.coe_sub]⟩

theorem IsReal.mul {ι : Type*} {f g : ι → EReal} (hf : IsReal f) (hg : IsReal g) : IsReal fun i => f i * g i := fun i => by
  obtain ⟨a, ha⟩ := hf i; obtain ⟨b, hb⟩ := hg i
  exact ⟨a * b, by show f i * g i = _; rw [ha, hb, EReal.coe_mul]⟩

theorem IsReal.max_zero {ι : Type*} {f : ι → EReal} (hf : IsReal f) : IsReal fun i => max (f i) 0 := fun i => by
  obtain ⟨a, ha⟩ := hf i
  exact ⟨max a 0, by show max (f i) 0 = _; rw [ha, ← EReal.coe_zero]; exact (EReal.coe_strictMono.monotone.map_max (a := a) (b := 0)).symm⟩

/-- A gather of a real-valued array is real-valued: each entry is an entry of the operand. -/
theorem isReal_gather {s si t : Shape} {w : Nat} (d : GatherDims s si t) (x : s.Idx → EReal) (idx : IVec si w)
    (hx : IsReal x) : IsReal (Host.gather d x idx) := fun j => hx _

/-- An accumulating scatter of real-valued updates into a real-valued array is real-valued: each entry is the operand's
    plus a finite sum of updates. -/
theorem isReal_scatterAdd {s si su : Shape} {φ : FTy} {w : Nat} (d : ScatterDims s si su) (x : FVec Ideal s φ)
    (idx : IVec si w) (upd : FVec Ideal su φ) (hx : IsReal x) (hu : IsReal upd) :
    IsReal (Host.scatterAdd (F := Ideal) d x idx upd) := fun i => by
  obtain ⟨a, ha⟩ := hx i
  obtain ⟨b, hb⟩ := sum_isReal (Finset.univ.filter fun j => d.resultIdx? j idx = some i) upd hu
  refine ⟨a + b, ?_⟩
  show x i + ∑ j ∈ Finset.univ.filter (fun j => d.resultIdx? j idx = some i), upd j = _
  rw [ha, hb, EReal.coe_add]

end FiniteArrays

end
-- ==== Proof.Alg.PreFinite.lean ====
/-
  From the finiteness test on the inputs to real entries.

  The precondition takes, for each of the eleven float arguments, the absolute value of every entry, compares it strictly
  below `+inf`, reduces the comparisons by `and` to one bit, and joins the eleven bits by `and`. If the result is 1 then each
  of the eleven bits is 1, so every comparison of every argument is 1, and an extended real strictly below `+∞` in absolute
  value is a real number: every entry of every float argument is the coercion of a real.
-/
import Idealize.ShloMosaic.Lib.ReduceAll
import Idealize.ShloMosaic.Lib.Pipeline.Value
import Idealize.ShloMosaic.Lib.ValueIdx
import Idealize.ShloMosaic.PureOps.Ideal.Laws
import proofs.«113306_j49254684950634_1_alg».proof.Pre_finite_inputs
import proofs.«113306_j49254684950634_1_alg».proof.Proof.LibFiniteBlock
import proofs.«113306_j49254684950634_1_alg».proof.Proof.LibFiniteArrays

noncomputable section

namespace Cert.Alg

open Idealize.ShloMosaic Idealize.ShloMosaic.ValueIdx FiniteArrays
open Cert.Pre_finite_inputs Cert.Pre_finite_inputs.Facts

variable [Cert.Pre_finite_inputs.Facts]

/-- Every entry of each of the eleven float arguments is the coercion of a real number. -/
structure ArgsReal (a0 : FVec Ideal S50000x64 .f32) (a3 : FVec Ideal S4x64x64 .f32) (a4 a5 a6 : FVec Ideal S4x64 .f32)
    (a7 : FVec Ideal S64x64 .f32) (a8 : FVec Ideal S64 .f32) (a9 : FVec Ideal S64x64 .f32) (a10 : FVec Ideal S64 .f32)
    (a11 : FVec Ideal S64x1 .f32) (a12 : FVec Ideal S1 .f32) : Prop where
  arg0 : IsReal a0
  arg3 : IsReal a3
  arg4 : IsReal a4
  arg5 : IsReal a5
  arg6 : IsReal a6
  arg7 : IsReal a7
  arg8 : IsReal a8
  arg9 : IsReal a9
  arg10 : IsReal a10
  arg11 : IsReal a11
  arg12 : IsReal a12

/-- If the finiteness test of the inputs answers 1, every float argument holds real numbers. The two integer arguments
    do not enter the test. -/
theorem args_real (a0 : FVec Ideal S50000x64 .f32) (a1 : IVec S2x800000 32) (a2 : IVec S50000 32)
    (a3 : FVec Ideal S4x64x64 .f32) (a4 a5 a6 : FVec Ideal S4x64 .f32) (a7 : FVec Ideal S64x64 .f32)
    (a8 : FVec Ideal S64 .f32) (a9 : FVec Ideal S64x64 .f32) (a10 : FVec Ideal S64 .f32) (a11 : FVec Ideal S64x1 .f32)
    (a12 : FVec Ideal S1 .f32)
    (h : Cert.Pre_finite_inputs.fn (F := Ideal) a0 a1 a2 a3 a4 a5 a6 a7 a8 a9 a10 a11 a12 = fun _ => 1#1) :
    ArgsReal a0 a3 a4 a5 a6 a7 a8 a9 a10 a11 a12 := by
  have h0 := congrFun h ix0
  dsimp only [Cert.Pre_finite_inputs.fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact
    { arg0 := Cert.LibFiniteBlock.block_real a0 _ _ _ _ _ e0
      arg3 := Cert.LibFiniteBlock.block_real a3 _ _ _ _ _ e3
      arg4 := Cert.LibFiniteBlock.block_real a4 _ _ _ _ _ e4
      arg5 := Cert.LibFiniteBlock.block_real a5 _ _ _ _ _ e5
      arg6 := Cert.LibFiniteBlock.block_real a6 _ _ _ _ _ e6
      arg7 := Cert.LibFiniteBlock.block_real a7 _ _ _ _ _ e7
      arg8 := Cert.LibFiniteBlock.block_real a8 _ _ _ _ _ e8
      arg9 := Cert.LibFiniteBlock.block_real a9 _ _ _ _ _ e9
      arg10 := Cert.LibFiniteBlock.block_real a10 _ _ _ _ _ e10
      arg11 := Cert.LibFiniteBlock.block_real a11 _ _ _ _ _ e11
      arg12 := Cert.LibFiniteBlock.block_real a12 _ _ _ _ _ e12 }

end Cert.Alg

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.Alg.BatchNorm.lean ====
/-
  Batch normalisation of the columns of an array with 50000 rows, in the two forms the two programs compute.

  A column is a family `x r` of extended reals over a finite row type with 50000 elements; every entry is the coercion of a
  real number. With `S = ∑ x r` and `Q = ∑ (x r)²` the mean is `μ = S / N`, and the (biased) variance is written either by
  moments, `Q / N - μ · μ`, or centred, `(∑ (x r - μ)²) / N`. Both are the same nonnegative real, so adding a positive `ε`
  gives a positive real whose reciprocal square root is a positive real. Hence the folded affine form
  `x · (g · ρ) + (b - μ · (g · ρ))`, `ρ` the reciprocal square root taken of the variance by moments, equals the centred form
  `(x - μ) · ρ' · g + b`, `ρ'` taken of the centred variance; and their positive part is a nonnegative real.

  The quotient and the reciprocal square root are those of the ideal float instance, and the operands stand in the order
  the two programs print them. The row count `N` and `ε` are parameters on the extended reals, with the hypotheses that
  `N` is the coerced `50000` and `ε` a coerced positive real; the two float words that denote them are evaluated at the end.

  Index types: the rows are an abstract finite type `ρ` with `Fintype.card ρ = 50000` (`Fin 50000` is the instance in
  view: `card_fin` below); the columns of the two-dimensional statement are an arbitrary type `κ`.
-/
import Mathlib.Data.EReal.Inv
import Mathlib.Tactic
import Idealize.ShloMosaic.PureOps.Ideal
import Idealize.ShloMosaic.PureOps.Ideal.Laws
import proofs.«113306_j49254684950634_1_alg».proof.Proof.LibBatchNormAlgebra
import proofs.«113306_j49254684950634_1_alg».proof.Proof.LibFiniteArrays

noncomputable section

namespace Cert.Alg

open Idealize.ShloMosaic FiniteArrays

variable {ρ : Type*} [Fintype ρ]

/-! ## The quantities of one column, as printed -/

/-- The mean: the column's sum divided by the row count. -/
def mean (N : EReal) (x : ρ → EReal) : EReal := Ideal.div (∑ r, x r) N

/-- The variance by moments: the sum of squares divided by the row count, minus the mean times the mean. -/
def varMoments (N : EReal) (x : ρ → EReal) : EReal := Ideal.div (∑ r, x r * x r) N - mean N x * mean N x

/-- The centred variance: the sum of the squared deviations from the mean, divided by the row count. -/
def varCentred (N : EReal) (x : ρ → EReal) : EReal :=
  Ideal.div (∑ r, (x r - mean N x) * (x r - mean N x)) N

/-- The folded affine form, with scale `g · rsqrt (var + ε)` and shift `b - μ · scale`, then the positive part. -/
def folded (N ε : EReal) (x : ρ → EReal) (g b : EReal) (j : ρ) : EReal :=
  max (x j * (g * Ideal.rsqrt (varMoments N x + ε)) + (b - mean N x * (g * Ideal.rsqrt (varMoments N x + ε)))) 0

/-- The centred form `(x - μ) · rsqrt (var + ε) · g + b`, then the positive part. -/
def centred (N ε : EReal) (x : ρ → EReal) (g b : EReal) (j : ρ) : EReal :=
  max ((x j - mean N x) * Ideal.rsqrt (varCentred N x + ε) * g + b) 0

theorem card_fin : Fintype.card (Fin 50000) = 50000 := Fintype.card_fin 50000

/-! ## Against the real numbers of the column -/

private theorem card_real (hcard : Fintype.card ρ = 50000) : (Fintype.card ρ : ℝ) = 50000 := by
  rw [hcard]; norm_num

private theorem mean_coe {N : EReal} (hN : N = ((50000 : ℝ) : EReal)) (X : ρ → ℝ) :
    mean N (fun r => (X r : EReal)) = ((BatchNormAlgebra.mean X 50000 : ℝ) : EReal) := by
  subst hN
  exact BatchNormAlgebra.div_sum_coe X (by norm_num)

private theorem varMoments_coe {N : EReal} (hN : N = ((50000 : ℝ) : EReal)) (X : ρ → ℝ) :
    varMoments N (fun r => (X r : EReal)) = ((BatchNormAlgebra.varMoments X 50000 : ℝ) : EReal) := by
  unfold varMoments
  rw [mean_coe hN]
  subst hN
  exact BatchNormAlgebra.moments_coe X (by norm_num)

private theorem varCentred_coe {N : EReal} (hN : N = ((50000 : ℝ) : EReal)) (X : ρ → ℝ) :
    varCentred N (fun r => (X r : EReal)) = ((BatchNormAlgebra.varCentred X 50000 : ℝ) : EReal) := by
  unfold varCentred
  rw [mean_coe hN]
  subst hN
  exact BatchNormAlgebra.centred_coe X (by norm_num)

/-! ## The statements -/

/-- The mean of a column of reals is a real. -/
theorem mean_real {N : EReal} (hN : N = ((50000 : ℝ) : EReal)) (x : ρ → EReal) (hx : IsReal x) :
    ∃ m : ℝ, mean N x = (m : EReal) := by
  obtain ⟨X, hX⟩ := hx.exists_fun
  obtain rfl : x = fun r => (X r : EReal) := funext hX
  exact ⟨_, mean_coe hN X⟩

/-- The variance by moments is the centred variance. -/
theorem varMoments_eq_varCentred (hcard : Fintype.card ρ = 50000) {N : EReal} (hN : N = ((50000 : ℝ) : EReal))
    (x : ρ → EReal) (hx : IsReal x) : varMoments N x = varCentred N x := by
  obtain ⟨X, hX⟩ := hx.exists_fun
  obtain rfl : x = fun r => (X r : EReal) := funext hX
  rw [varMoments_coe hN, varCentred_coe hN,
    BatchNormAlgebra.varMoments_eq_varCentred X (by norm_num) (card_real hcard)]

/-- The centred variance is a nonnegative real. -/
theorem varCentred_real {N : EReal} (hN : N = ((50000 : ℝ) : EReal)) (x : ρ → EReal) (hx : IsReal x) :
    ∃ v : ℝ, 0 ≤ v ∧ varCentred N x = (v : EReal) := by
  obtain ⟨X, hX⟩ := hx.exists_fun
  obtain rfl : x = fun r => (X r : EReal) := funext hX
  exact ⟨_, BatchNormAlgebra.varCentred_nonneg X (by norm_num), varCentred_coe hN X⟩

/-- So is the variance by moments. -/
theorem varMoments_real (hcard : Fintype.card ρ = 50000) {N : EReal} (hN : N = ((50000 : ℝ) : EReal))
    (x : ρ → EReal) (hx : IsReal x) : ∃ v : ℝ, 0 ≤ v ∧ varMoments N x = (v : EReal) := by
  rw [varMoments_eq_varCentred hcard hN x hx]
  exact varCentred_real hN x hx

/-- The reciprocal square root of the centred variance plus a positive `ε` is a positive real. -/
theorem rsqrt_varCentred_real {N ε : EReal} (hN : N = ((50000 : ℝ) : EReal))
    (hε : ∃ e : ℝ, 0 < e ∧ ε = (e : EReal)) (x : ρ → EReal) (hx : IsReal x) :
    ∃ t : ℝ, 0 < t ∧ Ideal.rsqrt (varCentred N x + ε) = (t : EReal) := by
  obtain ⟨v, hv, hvar⟩ := varCentred_real hN x hx
  obtain ⟨e, he, rfl⟩ := hε
  have hpos : 0 < v + e := add_pos_of_nonneg_of_pos hv he
  refine ⟨(Real.sqrt (v + e))⁻¹, inv_pos.mpr (Real.sqrt_pos.mpr hpos), ?_⟩
  rw [hvar, ← EReal.coe_add, BatchNormAlgebra.rsqrt_coe_pos hpos]

/-- The same of the variance by moments. -/
theorem rsqrt_varMoments_real (hcard : Fintype.card ρ = 50000) {N ε : EReal} (hN : N = ((50000 : ℝ) : EReal))
    (hε : ∃ e : ℝ, 0 < e ∧ ε = (e : EReal)) (x : ρ → EReal) (hx : IsReal x) :
    ∃ t : ℝ, 0 < t ∧ Ideal.rsqrt (varMoments N x + ε) = (t : EReal) := by
  rw [varMoments_eq_varCentred hcard hN x hx]
  exact rsqrt_varCentred_real hN hε x hx

/-- The folded affine form equals the centred form, before the positive part. -/
theorem folded_eq_centred_pre (hcard : Fintype.card ρ = 50000) {N ε : EReal} (hN : N = ((50000 : ℝ) : EReal))
    (hε : ∃ e : ℝ, 0 < e ∧ ε = (e : EReal)) (x : ρ → EReal) (hx : IsReal x) {g b : EReal}
    (hg : ∃ γ : ℝ, g = (γ : EReal)) (hb : ∃ β : ℝ, b = (β : EReal)) (j : ρ) :
    x j * (g * Ideal.rsqrt (varMoments N x + ε)) + (b - mean N x * (g * Ideal.rsqrt (varMoments N x + ε)))
      = (x j - mean N x) * Ideal.rsqrt (varCentred N x + ε) * g + b := by
  obtain ⟨X, hX⟩ := hx.exists_fun
  obtain rfl : x = fun r => (X r : EReal) := funext hX
  obtain ⟨e, he, rfl⟩ := hε
  obtain ⟨γ, rfl⟩ := hg
  obtain ⟨β, rfl⟩ := hb
  rw [varMoments_coe hN, varCentred_coe hN, mean_coe hN]
  exact BatchNormAlgebra.folded_eq_centred X γ β (by norm_num) (card_real hcard) he j

/-- The batch-norm law: the folded affine form and the centred form have the same positive part. -/
theorem folded_eq_centred (hcard : Fintype.card ρ = 50000) {N ε : EReal} (hN : N = ((50000 : ℝ) : EReal))
    (hε : ∃ e : ℝ, 0 < e ∧ ε = (e : EReal)) (x : ρ → EReal) (hx : IsReal x) {g b : EReal}
    (hg : ∃ γ : ℝ, g = (γ : EReal)) (hb : ∃ β : ℝ, b = (β : EReal)) (j : ρ) :
    folded N ε x g b j = centred N ε x g b j := by
  unfold folded centred
  rw [folded_eq_centred_pre hcard hN hε x hx hg hb j]

/-- The centred form's positive part is a nonnegative real. -/
theorem centred_real {N ε : EReal} (hN : N = ((50000 : ℝ) : EReal))
    (hε : ∃ e : ℝ, 0 < e ∧ ε = (e : EReal)) (x : ρ → EReal) (hx : IsReal x) {g b : EReal}
    (hg : ∃ γ : ℝ, g = (γ : EReal)) (hb : ∃ β : ℝ, b = (β : EReal)) (j : ρ) :
    ∃ y : ℝ, 0 ≤ y ∧ centred N ε x g b j = (y : EReal) := by
  obtain ⟨a, ha⟩ := hx j
  obtain ⟨m, hm⟩ := mean_real hN x hx
  obtain ⟨t, _, ht⟩ := rsqrt_varCentred_real hN hε x hx
  obtain ⟨γ, rfl⟩ := hg
  obtain ⟨β, rfl⟩ := hb
  refine ⟨max ((a - m) * t * γ + β) 0, le_max_right _ _, ?_⟩
  unfold centred
  rw [ha, hm, ht, ← EReal.coe_sub, ← EReal.coe_mul, ← EReal.coe_mul, ← EReal.coe_add, ← EReal.coe_zero]
  exact BatchNormAlgebra.max_coe_zero _

/-- So is the folded form's. -/
theorem folded_real (hcard : Fintype.card ρ = 50000) {N ε : EReal} (hN : N = ((50000 : ℝ) : EReal))
    (hε : ∃ e : ℝ, 0 < e ∧ ε = (e : EReal)) (x : ρ → EReal) (hx : IsReal x) {g b : EReal}
    (hg : ∃ γ : ℝ, g = (γ : EReal)) (hb : ∃ β : ℝ, b = (β : EReal)) (j : ρ) :
    ∃ y : ℝ, 0 ≤ y ∧ folded N ε x g b j = (y : EReal) := by
  rw [folded_eq_centred hcard hN hε x hx hg hb j]
  exact centred_real hN hε x hx hg hb j

/-! ## Over a two-dimensional array -/

/-- The law for every entry of an array of reals with 50000 rows: per column `d` the two variances agree and are a
    nonnegative real, the reciprocal square root is a positive real, and at every row the two normalised forms have the same
    positive part, a nonnegative real. The operands stand as the two programs print them. -/
theorem bn_law {κ : Type*} (hcard : Fintype.card ρ = 50000) {N ε : EReal} (hN : N = ((50000 : ℝ) : EReal))
    (hε : ∃ e : ℝ, 0 < e ∧ ε = (e : EReal)) (conv : ρ → κ → EReal) (hconv : ∀ r d, ∃ a : ℝ, conv r d = (a : EReal))
    (g bt : κ → EReal) (hg : IsReal g) (hbt : IsReal bt) (d : κ) :
    varMoments N (fun r => conv r d) = varCentred N (fun r => conv r d)
    ∧ (∃ v : ℝ, 0 ≤ v ∧ varCentred N (fun r => conv r d) = (v : EReal))
    ∧ (∃ t : ℝ, 0 < t ∧ Ideal.rsqrt (varCentred N (fun r => conv r d) + ε) = (t : EReal))
    ∧ ∀ r : ρ,
        max (conv r d * (g d * Ideal.rsqrt (varMoments N (fun r => conv r d) + ε))
              + (bt d - mean N (fun r => conv r d) * (g d * Ideal.rsqrt (varMoments N (fun r => conv r d) + ε)))) 0
          = max ((conv r d - mean N (fun r => conv r d)) * Ideal.rsqrt (varCentred N (fun r => conv r d) + ε) * g d
              + bt d) 0
        ∧ ∃ y : ℝ, 0 ≤ y ∧
            max ((conv r d - mean N (fun r => conv r d)) * Ideal.rsqrt (varCentred N (fun r => conv r d) + ε) * g d
              + bt d) 0 = (y : EReal) := by
  have hx : IsReal (fun r => conv r d) := fun r => hconv r d
  exact ⟨varMoments_eq_varCentred hcard hN _ hx, varCentred_real hN _ hx, rsqrt_varCentred_real hN hε _ hx,
    fun r => ⟨folded_eq_centred hcard hN hε _ hx (hg d) (hbt d) r, centred_real hN hε _ hx (hg d) (hbt d) r⟩⟩

end Cert.Alg

end
-- ==== Proof.Alg.Words.lean ====
/-
  The float words the two programs use in the normalisation, evaluated on the extended reals.

  `0x47435000` is the single-precision word of `50000`: sign 0, exponent field 142, significand field `0x435000`, so
  `(2^23 + 4411392) · 2^(142 - 127 - 23) = 12800000 / 256 = 50000`. `0x3727C5AC` is the word nearest `1e-5`:
  `10995116 · 2^(-40)`, a positive real. `0x3F800000` is `1`.

  One of the two programs divides the sum of squared deviations by `50000 - c`, with `c` the integer word `0` converted to a
  float, and keeps the quotient only where `50000 - c > 0`: the divisor is `50000` and the comparison answers 1.
-/
import Mathlib.Data.EReal.Inv
import Mathlib.Tactic
import Idealize.ShloMosaic.PureOps.Ideal
import Idealize.ShloMosaic.PureOps.Ideal.Laws

noncomputable section

namespace Cert.Alg

open Idealize.ShloMosaic

/-- The word of the row count denotes `50000`. -/
theorem ofBits_count : Ideal.ofBits .f32 0x47435000#32 = ((50000 : ℝ) : EReal) := by
  simp [Ideal.ofBits, Ideal.ieee]
  rw [← EReal.coe_mul]
  norm_num

/-- The word of `ε` denotes a positive real. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee]

/-- The word of one denotes `1`. -/
theorem ofBits_one : Ideal.ofBits .f32 0x3F800000#32 = (1 : EReal) := by
  simp [Ideal.ofBits, Ideal.ieee]
  rw [← EReal.coe_mul, ← EReal.coe_one]
  congr 1
  norm_num

/-- The integer word `0`, converted to a float, is `0`. -/
theorem sitofp_zero : FloatOps.sitofp (F := Ideal) .f32 (0#32) = (0 : EReal) := by
  simp [FloatOps.sitofp]

/-- The divisor `50000 - 0` is `50000`. -/
theorem count_sub_zero :
    Ideal.ofBits .f32 0x47435000#32 - FloatOps.sitofp (F := Ideal) .f32 (0#32) = ((50000 : ℝ) : EReal) := by
  rw [sitofp_zero, sub_zero, ofBits_count]

/-- `50000 > 0`: the comparison that guards the quotient answers 1. -/
theorem count_gt_zero : Ideal.cmp .ogt ((50000 : ℝ) : EReal) 0 = 1#1 := by
  simp [Ideal.cmp]

end Cert.Alg

end
-- ==== Proof.Bridge.Read.lean ====
/-
  The reference's stages and the kernel's scale and shift, read at an index over the extended reals.

  Each stage function of the reference is a composition of host operations on whole arrays. Read at an index, the matrix
  product is the sum over the contracted axis of the products; adding a bias vector lifted to a row and repeated over the
  rows adds the vector's entry of the column; the column mean is the column's sum divided by 50000; the variance is the
  sum of the squared deviations from that mean divided by `50000 - 0`, kept because `50000 - 0 > 0`; the normalisation
  is `(x - mean) * rsqrt (variance + eps) * gamma + beta` with the four vectors read at the column; and the rectifier is
  the maximum with zero. On the kernel's side the mean, the variance by moments, the scale and the shift, computed
  from the column sums and the column sums of squares, read at a column as the same quantities of that column.
-/
import Mathlib.Tactic
import Idealize.ShloMosaic.PureOps.Ideal
import Idealize.ShloMosaic.PureOps.Ideal.Laws
import Idealize.ShloMosaic.Lib.ValueIdx
import Idealize.ShloMosaic.Lib.ValueLayout
import proofs.«113306_j49254684950634_1_alg».proof.Proof.Ref.Stages
import proofs.«113306_j49254684950634_1_alg».proof.Proof.KI.Val0
import proofs.«113306_j49254684950634_1_alg».proof.Proof.KI.Host2
import proofs.«113306_j49254684950634_1_alg».proof.Proof.LibDotNN
import proofs.«113306_j49254684950634_1_alg».proof.Proof.LibRowLayout
import proofs.«113306_j49254684950634_1_alg».proof.Proof.Alg.BatchNorm
import proofs.«113306_j49254684950634_1_alg».proof.Proof.Alg.Words

noncomputable section

namespace Cert.Bridge

open Idealize.ShloMosaic Idealize.ShloMosaic.ValueIdx
open Cert.ReferenceIdeal.RefRun

variable [Cert.ReferenceIdeal.Facts]

/-- The host's reciprocal square root and quotient act entry by entry. -/
theorem hostRsqrt_apply {s : Shape} {φ : FTy} (x : FVec Ideal s φ) (i : s.Idx) : Host.rsqrt x i = Ideal.rsqrt (x i) := rfl
theorem hostDivf_apply {s : Shape} {φ : FTy} (x y : FVec Ideal s φ) (i : s.Idx) : Host.divf x y i = Ideal.div (x i) (y i) := rfl

/-- The row count on the extended reals. -/
abbrev N50 : EReal := ((50000 : ℝ) : EReal)

/-- Column `c` of an array with 50000 rows. -/
abbrev col (x : (⟨Cert.ReferenceIdeal.S50000x64, .f32⟩ : BufTy).Contents (Elt Ideal)) (c : Fin 64) : Fin 50000 → EReal := fun r => x (ix2 r c)

/-! ## The matrix product -/

theorem hw_apply (h : (⟨Cert.ReferenceIdeal.S50000x64, .f32⟩ : BufTy).Contents (Elt Ideal)) (W : (⟨Cert.ReferenceIdeal.S64x64, .f32⟩ : BufTy).Contents (Elt Ideal)) (p : Fin 50000) (n : Fin 64) :
    f_hw h W (ix2 p n) = ∑ k : Fin 64, h (ix2 p k) * W (ix2 k n) :=
  Cert.LibDotNN.dotGeneral_apply Cert.ReferenceIdeal.dot_S50000x64_S64x64_S50000x64_1_0_0_1_n_n rfl none h W p n

/-- The reference's matrix product is the kernel region's entry-by-entry product. -/
theorem hw_eq (h : (⟨Cert.ReferenceIdeal.S50000x64, .f32⟩ : BufTy).Contents (Elt Ideal)) (W : (⟨Cert.ReferenceIdeal.S64x64, .f32⟩ : BufTy).Contents (Elt Ideal)) :
    f_hw h W = Cert.KernelIdeal.HandVal.G0_2 h W := by
  funext i
  obtain ⟨p, n, rfl⟩ : ∃ (p : Fin 50000) (n : Fin 64), i = ix2 p n := ⟨i 0, i 1, eq_ix2 i⟩
  exact hw_apply h W p n

/-! ## The bias -/

theorem aux_v49_apply (b : (⟨Cert.ReferenceIdeal.S64, .f32⟩ : BufTy).Contents (Elt Ideal)) (u : Fin 1) (c : Fin 64) : f_aux_v49 b (ix2 u c) = b (ix1 c) :=
  RowLayout.liftRow_apply b _ u c

theorem conv0_apply (x : (⟨Cert.ReferenceIdeal.S50000x64, .f32⟩ : BufTy).Contents (Elt Ideal)) (brow : (⟨Cert.ReferenceIdeal.S1x64, .f32⟩ : BufTy).Contents (Elt Ideal)) (p : Fin 50000) (c : Fin 64) :
    f_conv0 x brow (ix2 p c) = x (ix2 p c) + brow (ix2 (0 : Fin 1) c) := by
  unfold f_conv0
  rw [addf_apply, RowLayout.repeatRow_apply]

/-! ## The column mean and the variance -/

theorem mean_apply (x : (⟨Cert.ReferenceIdeal.S50000x64, .f32⟩ : BufTy).Contents (Elt Ideal)) (c : Fin 64) :
    f_mean x (ix1 c) = Cert.Alg.mean N50 (col x c) := by
  unfold f_mean
  show Ideal.div (Host.reduceAdd (F := Ideal) x _ _ _ (ix1 c)) (broadcastInDim _ _ _ _ (ix1 c)) = _
  rw [RowLayout.hostColSum_apply, RowLayout.spread_apply, constant_apply, constant_apply, Ideal.ofBits_zero_f32,
    zero_add, Cert.Alg.ofBits_count]
  rfl

/-- The mean the variance computes for itself, lifted to a row: at any row, the column's mean. -/
theorem var_mean_apply (x : (⟨Cert.ReferenceIdeal.S50000x64, .f32⟩ : BufTy).Contents (Elt Ideal)) (u : Fin 1) (c : Fin 64) :
    Host.divf (F := Ideal)
        (broadcastInDim Cert.ReferenceIdeal.S1x64 ![1] Cert.ReferenceIdeal.Facts₀.bcast_S64_S1x64_1
          (Host.reduceAdd (F := Ideal) x (constant Cert.ReferenceIdeal.S_ .f32 0x00000000#32) Cert.ReferenceIdeal.Facts₀.reducesTo_S50000x64_S64_d0 Cert.ReferenceIdeal.Facts₀.h_S_))
        (broadcastInDim Cert.ReferenceIdeal.S1x64 ![] Cert.ReferenceIdeal.Facts₀.bcast_S_S1x64 (constant Cert.ReferenceIdeal.S_ .f32 0x47435000#32)) (ix2 u c)
      = Cert.Alg.mean N50 (col x c) := by
  show Ideal.div (broadcastInDim _ _ _ _ (ix2 u c)) (broadcastInDim _ _ _ _ (ix2 u c)) = _
  rw [RowLayout.liftRow_apply, RowLayout.hostColSum_apply, RowLayout.spread_apply, constant_apply, constant_apply,
    Ideal.ofBits_zero_f32, zero_add, Cert.Alg.ofBits_count]
  rfl

theorem var_apply (x : (⟨Cert.ReferenceIdeal.S50000x64, .f32⟩ : BufTy).Contents (Elt Ideal)) (c : Fin 64) :
    f_var x (ix1 c) = Cert.Alg.varCentred N50 (col x c) := by
  unfold f_var
  beta_reduce
  rw [select_apply, RowLayout.spread_apply, cmpf_apply, Ideal.cmpf_def, subf_apply, constant_apply, constant_apply,
    sitofp_apply, constantI_apply, Cert.Alg.count_sub_zero, Ideal.ofBits_zero_f32, Cert.Alg.count_gt_zero, select_one]
  show Ideal.div (Host.reduceAdd (F := Ideal) _ _ _ _ (ix1 c)) (broadcastInDim _ _ _ _ (ix1 c)) = _
  rw [RowLayout.hostColSum_apply, RowLayout.spread_apply, subf_apply, constant_apply, constant_apply, sitofp_apply,
    constantI_apply, Cert.Alg.count_sub_zero, Ideal.ofBits_zero_f32, zero_add]
  unfold Cert.Alg.varCentred
  refine congrArg (fun s => Ideal.div s N50) (Finset.sum_congr rfl fun r _ => ?_)
  rw [mulf_apply, subf_apply, RowLayout.repeatRow_apply, var_mean_apply]

/-! ## The normalisation and the rectifier -/

theorem bn_apply (x : (⟨Cert.ReferenceIdeal.S50000x64, .f32⟩ : BufTy).Contents (Elt Ideal)) (m v g bt : (⟨Cert.ReferenceIdeal.S64, .f32⟩ : BufTy).Contents (Elt Ideal)) (p : Fin 50000) (c : Fin 64) :
    f_bn x m v g bt (ix2 p c)
      = (x (ix2 p c) - m (ix1 c)) * Ideal.rsqrt (v (ix1 c) + Ideal.ofBits .f32 0x3727C5AC#32) * g (ix1 c) + bt (ix1 c) := by
  unfold f_bn
  rw [addf_apply, mulf_apply, mulf_apply, subf_apply]
  simp only [RowLayout.repeatRow_apply, RowLayout.liftRow_apply]
  show _ * Ideal.rsqrt (v (ix1 c) + broadcastInDim _ _ _ _ (ix1 c)) * _ + _ = _
  rw [RowLayout.spread_apply, constant_apply]

theorem relu_apply (x : (⟨Cert.ReferenceIdeal.S50000x64, .f32⟩ : BufTy).Contents (Elt Ideal)) (i : Cert.ReferenceIdeal.S50000x64.Idx) : f_relu x i = max (x i) 0 := by
  unfold f_relu
  rw [maximumf_apply, RowLayout.spread_apply, constant_apply, Ideal.ofBits_zero_f32]

/-! ## The kernel's side: the statistics region's value functions, and the scale and shift read at a column -/

section Kernel
open Cert.KernelIdeal.HandVal

/-- The pre-normalisation array the bias-and-statistics region leaves: its input plus the bias row's entry of the column. -/
def cConv (x : Cert.KernelIdeal.S50000x64.Idx → Elt Ideal .f32) (b : Cert.KernelIdeal.S1x64.Idx → Elt Ideal .f32) : Cert.KernelIdeal.S50000x64.Idx → Elt Ideal .f32 :=
  fun i => x i + b (ix2 (0 : Fin 1) (i 1 : Fin 64))

/-- The column sums it leaves, as a `[1, 64]` row. -/
def cSum (conv : Cert.KernelIdeal.S50000x64.Idx → Elt Ideal .f32) : Cert.KernelIdeal.S1x64.Idx → Elt Ideal .f32 :=
  fun i => ∑ r : Fin 50000, conv (ix2 r (i 1 : Fin 64))

/-- The column sums of squares it leaves, as a `[1, 64]` row. -/
def cSumSq (conv : Cert.KernelIdeal.S50000x64.Idx → Elt Ideal .f32) : Cert.KernelIdeal.S1x64.Idx → Elt Ideal .f32 :=
  fun i => ∑ r : Fin 50000, conv (ix2 r (i 1 : Fin 64)) * conv (ix2 r (i 1 : Fin 64))

theorem kMean_apply (s : Cert.KernelIdeal.S1x64.Idx → Elt Ideal .f32) (u : Fin 1) (c : Fin 64) :
    kMean (F := Ideal) s (ix2 u c) = Ideal.div (s (ix2 u c)) N50 := by
  unfold kMean
  show Ideal.div (s (ix2 u c)) (broadcastInDim _ _ _ _ (ix2 u c)) = _
  rw [RowLayout.spread_apply, constant_apply, Cert.Alg.ofBits_count]

theorem kMean_cSum (conv : Cert.KernelIdeal.S50000x64.Idx → Elt Ideal .f32) (u : Fin 1) (c : Fin 64) :
    kMean (F := Ideal) (cSum conv) (ix2 u c) = Cert.Alg.mean N50 (col conv c) := by
  rw [kMean_apply]; rfl

theorem kVar_cSum (conv : Cert.KernelIdeal.S50000x64.Idx → Elt Ideal .f32) (u : Fin 1) (c : Fin 64) :
    kVar (F := Ideal) (cSum conv) (cSumSq conv) (ix2 u c) = Cert.Alg.varMoments N50 (col conv c) := by
  unfold kVar
  rw [subf_apply, mulf_apply, kMean_cSum]
  show Ideal.div (cSumSq conv (ix2 u c)) (broadcastInDim _ _ _ _ (ix2 u c)) - _ = _
  rw [RowLayout.spread_apply, constant_apply, Cert.Alg.ofBits_count]
  rfl

theorem kScale_cSum (conv : Cert.KernelIdeal.S50000x64.Idx → Elt Ideal .f32) (g : Cert.KernelIdeal.S1x64.Idx → Elt Ideal .f32) (u : Fin 1) (c : Fin 64) :
    kScale (F := Ideal) (cSum conv) (cSumSq conv) g (ix2 u c)
      = g (ix2 u c) * Ideal.rsqrt (Cert.Alg.varMoments N50 (col conv c) + Ideal.ofBits .f32 0x3727C5AC#32) := by
  unfold kScale
  rw [mulf_apply, hostRsqrt_apply, addf_apply, kVar_cSum, RowLayout.spread_apply, constant_apply]

theorem kShift_cSum (conv : Cert.KernelIdeal.S50000x64.Idx → Elt Ideal .f32) (g bt : Cert.KernelIdeal.S1x64.Idx → Elt Ideal .f32) (u : Fin 1) (c : Fin 64) :
    kShift (F := Ideal) (cSum conv) (cSumSq conv) g bt (ix2 u c)
      = bt (ix2 u c) - Cert.Alg.mean N50 (col conv c)
          * (g (ix2 u c) * Ideal.rsqrt (Cert.Alg.varMoments N50 (col conv c) + Ideal.ofBits .f32 0x3727C5AC#32)) := by
  unfold kShift
  rw [subf_apply, mulf_apply, kMean_cSum, kScale_cSum]

end Kernel

end Cert.Bridge

end
-- ==== Proof.Bridge.Struct.lean ====
/-
  The two programs compute their structural values by the same compositions.

  The source and destination index vectors, the reciprocal square root of the degree, the edge coefficients, the four
  weight matrices, the pooled array and the aggregate are, in the kernel's program and in the reference, the same host
  operations applied in the same order to the same arguments: the equalities below hold by unfolding both sides, without
  opening a gather, a scatter or a sum. The kernel raises a parameter vector to a `[1, 64]` row by a reshape where the
  reference lifts it by a broadcast: there the two sides are stated with the reshape kept.
-/
import proofs.«113306_j49254684950634_1_alg».proof.Proof.KI.Host0
import proofs.«113306_j49254684950634_1_alg».proof.Proof.KI.Host1
import proofs.«113306_j49254684950634_1_alg».proof.Proof.KI.Host3
import proofs.«113306_j49254684950634_1_alg».proof.Proof.KI.Host6
import proofs.«113306_j49254684950634_1_alg».proof.Proof.KI.Host9
import proofs.«113306_j49254684950634_1_alg».proof.Proof.KI.Host12
import proofs.«113306_j49254684950634_1_alg».proof.Proof.Ref.Stages

noncomputable section

namespace Cert.Bridge

open Idealize.ShloMosaic
open Cert.KernelIdeal.HandVal Cert.ReferenceIdeal.RefRun

variable {F : FTy → Type} [FloatOps F] [Cert.ReferenceIdeal.Facts]

attribute [local irreducible] Host.reduceAdd Host.gather Host.scatterAdd in
theorem src_eq (ei : (⟨Cert.KernelIdeal.S2x800000, .i32⟩ : BufTy).Contents (Elt F)) : kSrc ei = f_src ei := rfl

attribute [local irreducible] Host.reduceAdd Host.gather Host.scatterAdd in
theorem dst_eq (ei : (⟨Cert.KernelIdeal.S2x800000, .i32⟩ : BufTy).Contents (Elt F)) : kDst ei = f_dst ei := rfl

attribute [local irreducible] Host.reduceAdd Host.gather Host.scatterAdd in
theorem dinv_eq (dst : (⟨Cert.KernelIdeal.S800000, .i32⟩ : BufTy).Contents (Elt F)) : kDinv dst = f_dinv dst := rfl

attribute [local irreducible] Host.reduceAdd Host.gather Host.scatterAdd in
theorem norm_eq (dinv : (⟨Cert.KernelIdeal.S50000, .f32⟩ : BufTy).Contents (Elt F)) (src dst : (⟨Cert.KernelIdeal.S800000, .i32⟩ : BufTy).Contents (Elt F)) :
    kNorm dinv src dst = f_norm dinv src dst := rfl

attribute [local irreducible] Host.reduceAdd Host.gather Host.scatterAdd in
theorem W0_eq (ws : (⟨Cert.KernelIdeal.S4x64x64, .f32⟩ : BufTy).Contents (Elt F)) : kW0 ws = f_W0 ws := rfl
attribute [local irreducible] Host.reduceAdd Host.gather Host.scatterAdd in
theorem W1_eq (ws : (⟨Cert.KernelIdeal.S4x64x64, .f32⟩ : BufTy).Contents (Elt F)) : kW1 ws = f_W1 ws := rfl
attribute [local irreducible] Host.reduceAdd Host.gather Host.scatterAdd in
theorem W2_eq (ws : (⟨Cert.KernelIdeal.S4x64x64, .f32⟩ : BufTy).Contents (Elt F)) : kW2 ws = f_W2 ws := rfl
attribute [local irreducible] Host.reduceAdd Host.gather Host.scatterAdd in
theorem W3_eq (ws : (⟨Cert.KernelIdeal.S4x64x64, .f32⟩ : BufTy).Contents (Elt F)) : kW3 ws = f_W3 ws := rfl

attribute [local irreducible] Host.reduceAdd Host.gather Host.scatterAdd in
/-- A parameter row: the kernel reshapes to `[1, 64]` the very vector the reference slices out. -/
theorem row0_eq (p : (⟨Cert.KernelIdeal.S4x64, .f32⟩ : BufTy).Contents (Elt F)) :
    kRow0 p = shapeCast Cert.KernelIdeal.S1x64 (f_row0 p) Cert.KernelIdeal.Gen.shapeCasts_S64_S1x64 := rfl
attribute [local irreducible] Host.reduceAdd Host.gather Host.scatterAdd in
theorem row1_eq (p : (⟨Cert.KernelIdeal.S4x64, .f32⟩ : BufTy).Contents (Elt F)) :
    kRow1 p = shapeCast Cert.KernelIdeal.S1x64 (f_row1 p) Cert.KernelIdeal.Gen.shapeCasts_S64_S1x64 := rfl
attribute [local irreducible] Host.reduceAdd Host.gather Host.scatterAdd in
theorem row2_eq (p : (⟨Cert.KernelIdeal.S4x64, .f32⟩ : BufTy).Contents (Elt F)) :
    kRow2 p = shapeCast Cert.KernelIdeal.S1x64 (f_row2 p) Cert.KernelIdeal.Gen.shapeCasts_S64_S1x64 := rfl
attribute [local irreducible] Host.reduceAdd Host.gather Host.scatterAdd in
theorem row3_eq (p : (⟨Cert.KernelIdeal.S4x64, .f32⟩ : BufTy).Contents (Elt F)) :
    kRow3 p = shapeCast Cert.KernelIdeal.S1x64 (f_row3 p) Cert.KernelIdeal.Gen.shapeCasts_S64_S1x64 := rfl

attribute [local irreducible] Host.reduceAdd Host.gather Host.scatterAdd in
/-- The messages' sum (mind the argument order of the reference's function). -/
theorem agg_eq (hw : (⟨Cert.KernelIdeal.S50000x64, .f32⟩ : BufTy).Contents (Elt F)) (src dst : (⟨Cert.KernelIdeal.S800000, .i32⟩ : BufTy).Contents (Elt F)) (norm : (⟨Cert.KernelIdeal.S800000, .f32⟩ : BufTy).Contents (Elt F)) :
    kAgg hw src dst norm = f_agg dst hw src norm := rfl

attribute [local irreducible] Host.reduceAdd Host.gather Host.scatterAdd in
/-- The pre-normalisation array: the reference's is the kernel's aggregate with the self term, plus the bias lifted
    to a row and repeated over the rows. -/
theorem conv_eq (hw : (⟨Cert.KernelIdeal.S50000x64, .f32⟩ : BufTy).Contents (Elt F)) (src dst : (⟨Cert.KernelIdeal.S800000, .i32⟩ : BufTy).Contents (Elt F)) (norm : (⟨Cert.KernelIdeal.S800000, .f32⟩ : BufTy).Contents (Elt F))
    (dinv : (⟨Cert.KernelIdeal.S50000, .f32⟩ : BufTy).Contents (Elt F)) (bias : (⟨Cert.KernelIdeal.S64, .f32⟩ : BufTy).Contents (Elt F)) :
    f_conv (f_agg dst hw src norm) hw dinv bias
      = f_conv0 (kAggSelf hw src dst norm (kDinv2 dinv)) (f_aux_v49 bias) := rfl

attribute [local irreducible] Host.reduceAdd Host.gather Host.scatterAdd in
theorem pool_eq (batch : (⟨Cert.KernelIdeal.S50000, .i32⟩ : BufTy).Contents (Elt F)) (h : (⟨Cert.KernelIdeal.S50000x64, .f32⟩ : BufTy).Contents (Elt F)) : kPool batch h = f_pool batch h := rfl

end Cert.Bridge

end
-- ==== Proof.Alg.Finite.lean ====
/-
  Real entries are carried through a layer.

  An array over the extended reals is real-valued when every entry is the coercion of a real number. Every operation of a
  layer keeps arrays real-valued: a broadcast and a gather only re-read entries; entrywise sums, differences and products
  of reals are reals; a matrix product is a finite sum of products; an accumulating scatter adds finitely many updates to
  an entry; a column sum is a finite sum; the mean, the variance and the reciprocal square root of the variance plus a
  positive `ε` are reals; and the positive part of a real is a real. So if the features, the weights, the bias, the scale
  and shift parameters and the edge and node coefficients are real-valued, then so are the matrix product, the aggregate,
  the pre-normalisation array and the layer's output.

  The first part states this for the operations as the programs apply them to whole arrays; the last part composes them
  over abstract finite index types (rows `ρ` with 50000 elements, columns `κ`).
-/
import Mathlib.Data.EReal.Inv
import Mathlib.Tactic
import Idealize.ShloMosaic.PureOps.Ideal
import Idealize.ShloMosaic.PureOps.Ideal.Laws
import Idealize.ShloMosaic.Lib.ValueIdx
import proofs.«113306_j49254684950634_1_alg».proof.Proof.LibFiniteArrays
import proofs.«113306_j49254684950634_1_alg».proof.Proof.Alg.BatchNorm

noncomputable section

namespace Cert.Alg

open Idealize.ShloMosaic FiniteArrays

/-! ## Re-reading, constants, finite sums -/

/-- Re-reading a real-valued array through any index map gives a real-valued array. -/
theorem IsReal.comp {ι ι' : Type*} {f : ι → EReal} (hf : IsReal f) (p : ι' → ι) : IsReal (fun i => f (p i)) :=
  fun i => hf (p i)

/-- A constant array of a real is real-valued. -/
theorem isReal_const {ι : Type*} {c : EReal} (hc : ∃ r : ℝ, c = (r : EReal)) : IsReal (fun _ : ι => c) :=
  fun _ => hc

/-- A finite sum, entry by entry, of real-valued arrays is real-valued. -/
theorem isReal_sum {ι κ : Type*} (s : Finset κ) (a : ι → κ → EReal) (ha : ∀ i, IsReal (a i)) :
    IsReal (fun i => ∑ k ∈ s, a i k) := fun i => sum_isReal s (a i) (ha i)

/-- A finite sum of products, entry by entry — a matrix product — of real-valued families is real-valued. -/
theorem isReal_sum_mul {ι κ : Type*} [Fintype κ] (a b : ι → κ → EReal) (ha : ∀ i, IsReal (a i)) (hb : ∀ i, IsReal (b i)) :
    IsReal (fun i => ∑ k, a i k * b i k) := fun i =>
  sum_isReal Finset.univ (fun k => a i k * b i k) ((ha i).mul (hb i))

/-! ## The operations on whole arrays, at the ideal instance -/

section Ops
variable {s t : Shape} {φ : FTy}

theorem isReal_broadcastInDim (dims : Fin s.rank → Fin t.rank) (h : s.BroadcastsInDim t dims) (x : FVec Ideal s φ)
    (hx : IsReal x) : IsReal (broadcastInDim t dims h x) := fun _ => hx _

theorem isReal_constant_zero : IsReal (constant (F := Ideal) s .f32 0x00000000#32) :=
  fun _ => ⟨0, by rw [ValueIdx.constant_apply, Ideal.ofBits_zero_f32, EReal.coe_zero]⟩

theorem isReal_addf (x y : FVec Ideal s φ) (hx : IsReal x) (hy : IsReal y) : IsReal (addf x y) := hx.add hy

theorem isReal_subf (x y : FVec Ideal s φ) (hx : IsReal x) (hy : IsReal y) : IsReal (subf x y) := hx.sub hy

theorem isReal_mulf (x y : FVec Ideal s φ) (hx : IsReal x) (hy : IsReal y) : IsReal (mulf x y) := hx.mul hy

/-- The positive part against an array of zeros. -/
theorem isReal_maximumf_zero (x z : FVec Ideal s φ) (hx : IsReal x) (hz : ∀ i, z i = (0 : EReal)) :
    IsReal (maximumf x z) := fun i => by
  obtain ⟨r, hr⟩ := hx.max_zero i
  exact ⟨r, by rw [ValueIdx.maximumf_apply, hz i]; exact hr⟩

/-- The aggregate of a layer, as printed: the scatter-add, into zeros, of the gathered rows times the edge coefficients,
    plus the rows times the node coefficients. -/
theorem isReal_aggregate {sE sI sI' : Shape} {w : Nat} (dg : GatherDims s sI sE) (ds : ScatterDims s sI' sE)
    (hw : FVec Ideal s φ) (srcIdx : IVec sI w) (dstIdx : IVec sI' w) (zeros selfB : FVec Ideal s φ)
    (normB : FVec Ideal sE φ) (hhw : IsReal hw) (hz : IsReal zeros) (hnorm : IsReal normB) (hself : IsReal selfB) :
    IsReal (addf (Host.scatterAdd (F := Ideal) ds zeros dstIdx (mulf (Host.gather dg hw srcIdx) normB)) (mulf hw selfB)) :=
  isReal_addf _ _
    (isReal_scatterAdd ds zeros dstIdx _ hz (isReal_mulf _ _ (isReal_gather dg hw srcIdx hhw) hnorm))
    (isReal_mulf _ _ hhw hself)

end Ops

/-! ## A layer over abstract index types -/

section Layer
variable {ρ κ : Type*} [Fintype ρ] [Fintype κ]

/-- The statistics of a real-valued array's columns, and the scale and shift built from them, are real-valued. -/
theorem scale_shift_real (hcard : Fintype.card ρ = 50000) {N ε : EReal} (hN : N = ((50000 : ℝ) : EReal))
    (hε : ∃ e : ℝ, 0 < e ∧ ε = (e : EReal)) (conv : ρ → κ → EReal) (hconv : ∀ r, IsReal (conv r))
    (g bt : κ → EReal) (hg : IsReal g) (hbt : IsReal bt) :
    IsReal (fun d => mean N (fun r => conv r d))
    ∧ IsReal (fun d => varMoments N (fun r => conv r d))
    ∧ IsReal (fun d => g d * Ideal.rsqrt (varMoments N (fun r => conv r d) + ε))
    ∧ IsReal (fun d => bt d - mean N (fun r => conv r d) * (g d * Ideal.rsqrt (varMoments N (fun r => conv r d) + ε))) := by
  have hx : ∀ d, IsReal (fun r => conv r d) := fun d r => hconv r d
  have hm : IsReal (fun d => mean N (fun r => conv r d)) := fun d => mean_real hN _ (hx d)
  have hv : IsReal (fun d => varMoments N (fun r => conv r d)) := fun d => by
    obtain ⟨v, _, e⟩ := varMoments_real hcard hN _ (hx d)
    exact ⟨v, e⟩
  have hr : IsReal (fun d => Ideal.rsqrt (varMoments N (fun r => conv r d) + ε)) := fun d => by
    obtain ⟨t, _, e⟩ := rsqrt_varMoments_real hcard hN hε _ (hx d)
    exact ⟨t, e⟩
  exact ⟨hm, hv, hg.mul hr, hbt.sub (hm.mul (hg.mul hr))⟩

/-- Through one layer: from real-valued features, weights, bias, scale and shift parameters, and an aggregation that
    keeps arrays real-valued, the matrix product, the pre-normalisation array and the layer's output (the folded
    normalisation, then the positive part) are real-valued, the output nonnegative. -/
theorem layer_real (hcard : Fintype.card ρ = 50000) {N ε : EReal} (hN : N = ((50000 : ℝ) : EReal))
    (hε : ∃ e : ℝ, 0 < e ∧ ε = (e : EReal)) (h : ρ → κ → EReal) (W : κ → κ → EReal) (hh : ∀ r, IsReal (h r))
    (hW : ∀ k, IsReal (W k)) (agg : (ρ → κ → EReal) → ρ → κ → EReal)
    (hagg : ∀ m : ρ → κ → EReal, (∀ r, IsReal (m r)) → ∀ r, IsReal (agg m r))
    (b g bt : κ → EReal) (hb : IsReal b) (hg : IsReal g) (hbt : IsReal bt) :
    (∀ r, IsReal (fun d => ∑ k, h r k * W k d))
    ∧ (∀ r, IsReal (fun d => agg (fun r d => ∑ k, h r k * W k d) r d + b d))
    ∧ ∀ r d, ∃ y : ℝ, 0 ≤ y ∧
        folded N ε (fun r => agg (fun r d => ∑ k, h r k * W k d) r d + b d) (g d) (bt d) r = (y : EReal) := by
  have hhw : ∀ r, IsReal (fun d => ∑ k, h r k * W k d) := fun r d =>
    sum_isReal Finset.univ (fun k => h r k * W k d) (fun k => by
      obtain ⟨a, ha⟩ := hh r k
      obtain ⟨c, hc⟩ := hW k d
      exact ⟨a * c, by show h r k * W k d = _; rw [ha, hc, EReal.coe_mul]⟩)
  have hconv : ∀ r, IsReal (fun d => agg (fun r d => ∑ k, h r k * W k d) r d + b d) := fun r =>
    (hagg _ hhw r).add hb
  exact ⟨hhw, hconv, fun r d => folded_real hcard hN hε _ (fun r => hconv r d) (hg d) (hbt d) r⟩

end Layer

end Cert.Alg

end
-- ==== Proof.Alg.Degree.lean ====
/-
  The degree of a node and its reciprocal square root are real numbers.

  The degree is an accumulating scatter of ones into an array of zeros, plus one. Read at an index, an accumulating scatter
  over the extended reals is the operand's entry plus the sum of the update entries that land there; with a zero operand
  and updates all equal to one that sum is the number of landing entries, a natural number `k`. So the degree is the real
  `k + 1 ≥ 1`, and its reciprocal square root is the positive real `(√(k + 1))⁻¹`. Nothing here depends on which entries
  land where: the statements hold for every choice of the scatter's dimension numbers and index words.
-/
import Mathlib.Data.EReal.Inv
import Mathlib.Tactic
import Idealize.ShloMosaic.PureOps.Ideal
import Idealize.ShloMosaic.PureOps.Ideal.Laws
import proofs.«113306_j49254684950634_1_alg».proof.Proof.LibFiniteArrays

noncomputable section

namespace Cert.Alg

open Idealize.ShloMosaic FiniteArrays

/-- The reciprocal square root of a positive real is a positive real. -/
theorem rsqrt_pos_real {r : ℝ} (h : 0 < r) : ∃ t : ℝ, 0 < t ∧ Ideal.rsqrt (r : EReal) = (t : EReal) :=
  ⟨(Real.sqrt r)⁻¹, inv_pos.mpr (Real.sqrt_pos.mpr h), by
    rw [Ideal.rsqrt_coe, if_neg (not_lt.mpr h.le), if_neg h.ne']⟩

/-- A finite sum of ones is the number of terms. -/
theorem sum_ones {ι : Type*} (S : Finset ι) (f : ι → EReal) (hf : ∀ j, f j = 1) :
    ∑ j ∈ S, f j = ((S.card : ℝ) : EReal) := by
  have h1 : ∀ j ∈ S, f j = (((fun _ : ι => (1 : ℝ)) j : ℝ) : EReal) := fun j _ => by rw [hf j, EReal.coe_one]
  rw [Finset.sum_congr rfl h1, ← coe_finset_sum]
  congr 1
  simp

variable {s si su : Shape} {φ : FTy} {w : Nat}

/-- A scatter-add of ones into zeros holds, at every index, the number of update entries that land there. -/
theorem scatterAdd_ones_nat (d : ScatterDims s si su) (x : FVec Ideal s φ) (idx : IVec si w) (upd : FVec Ideal su φ)
    (hx : ∀ i, x i = (0 : EReal)) (hu : ∀ j, upd j = (1 : EReal)) (i : s.Idx) :
    ∃ k : ℕ, Host.scatterAdd (F := Ideal) d x idx upd i = ((k : ℝ) : EReal) := by
  refine ⟨(Finset.univ.filter fun j => d.resultIdx? j idx = some i).card, ?_⟩
  show (x i : EReal) + ∑ j ∈ Finset.univ.filter (fun j => d.resultIdx? j idx = some i), (upd j : EReal) = _
  rw [sum_ones _ (fun j => (upd j : EReal)) hu, show (x i : EReal) = 0 from hx i, zero_add]

/-- The degree — that scatter-add plus one — is a real number at least 1. -/
theorem degree_real (d : ScatterDims s si su) (x : FVec Ideal s φ) (idx : IVec si w) (upd : FVec Ideal su φ)
    (hx : ∀ i, x i = (0 : EReal)) (hu : ∀ j, upd j = (1 : EReal)) {one : EReal} (hone : one = 1) (i : s.Idx) :
    ∃ r : ℝ, 1 ≤ r ∧ Host.scatterAdd (F := Ideal) d x idx upd i + one = (r : EReal) := by
  obtain ⟨k, hk⟩ := scatterAdd_ones_nat d x idx upd hx hu i
  refine ⟨(k : ℝ) + 1, by linarith [(Nat.cast_nonneg k : (0 : ℝ) ≤ k)], ?_⟩
  rw [hk, hone, ← EReal.coe_one, ← EReal.coe_add]

/-- The reciprocal square root of the degree is a positive real. -/
theorem dinv_real (d : ScatterDims s si su) (x : FVec Ideal s φ) (idx : IVec si w) (upd : FVec Ideal su φ)
    (hx : ∀ i, x i = (0 : EReal)) (hu : ∀ j, upd j = (1 : EReal)) {one : EReal} (hone : one = 1) (i : s.Idx) :
    ∃ t : ℝ, 0 < t ∧ Ideal.rsqrt (Host.scatterAdd (F := Ideal) d x idx upd i + one) = (t : EReal) := by
  obtain ⟨r, hr, e⟩ := degree_real d x idx upd hx hu hone i
  rw [e]
  exact rsqrt_pos_real (by linarith)

/-- As arrays: the degree is real-valued. -/
theorem isReal_degree (d : ScatterDims s si su) (x : FVec Ideal s φ) (idx : IVec si w) (upd : FVec Ideal su φ)
    (hx : ∀ i, x i = (0 : EReal)) (hu : ∀ j, upd j = (1 : EReal)) (ones : FVec Ideal s φ) (hones : ∀ i, ones i = (1 : EReal)) :
    IsReal (fun i => Host.scatterAdd (F := Ideal) d x idx upd i + ones i) := fun i => by
  obtain ⟨r, _, e⟩ := degree_real d x idx upd hx hu (hones i) i
  exact ⟨r, e⟩

/-- As arrays: the host's reciprocal square root of the degree is real-valued. -/
theorem isReal_dinv (d : ScatterDims s si su) (x : FVec Ideal s φ) (idx : IVec si w) (upd : FVec Ideal su φ)
    (hx : ∀ i, x i = (0 : EReal)) (hu : ∀ j, upd j = (1 : EReal)) (ones : FVec Ideal s φ) (hones : ∀ i, ones i = (1 : EReal)) :
    IsReal (Host.rsqrt (F := Ideal) (fun i => Host.scatterAdd (F := Ideal) d x idx upd i + ones i)) := fun i => by
  obtain ⟨t, _, e⟩ := dinv_real d x idx upd hx hu (hones i) i
  exact ⟨t, e⟩

end Cert.Alg

end
-- ==== Proof.Bridge.Layer.lean ====
/-
  One layer of the network: the kernel's value is the reference's.

  The kernel computes a layer as: the aggregate of the matrix product (gather, scale, scatter-add, self term), the bias
  added and the column sums and sums of squares taken by one region, the mean, variance by moments, scale and shift on
  the host, and the folded affine form with the rectifier by another region. The reference computes the same aggregate
  and bias, then the mean, the centred variance, the centred normalised form and the rectifier. The aggregates are the
  same composition of host operations; the bias is read at the column either way; and for a real-valued array the folded
  and the centred normalisations agree column by column. The index vectors are arbitrary throughout. The result is
  real-valued, so the next layer starts from the same hypothesis.
-/
import Mathlib.Tactic
import Idealize.ShloMosaic.PureOps.Ideal
import Idealize.ShloMosaic.PureOps.Ideal.Laws
import Idealize.ShloMosaic.Lib.ValueIdx
import Idealize.ShloMosaic.Lib.ValueLayout
import proofs.«113306_j49254684950634_1_alg».proof.Proof.Bridge.Read
import proofs.«113306_j49254684950634_1_alg».proof.Proof.Bridge.Struct
import proofs.«113306_j49254684950634_1_alg».proof.Proof.KI.Val2
import proofs.«113306_j49254684950634_1_alg».proof.Proof.Alg.Finite
import proofs.«113306_j49254684950634_1_alg».proof.Proof.Alg.Degree

noncomputable section

namespace Cert.Bridge

open Idealize.ShloMosaic Idealize.ShloMosaic.ValueIdx
open Cert.ReferenceIdeal.RefRun Cert.KernelIdeal.HandVal

variable [Cert.ReferenceIdeal.Facts]

/-! ## The structural values and the aggregate are real-valued -/

section Real
open FiniteArrays

/-- The reciprocal square root of the degree is real-valued, whatever the destination indices. -/
theorem isReal_kDinv (dst : (⟨Cert.KernelIdeal.S800000, .i32⟩ : BufTy).Contents (Elt Ideal)) : IsReal (kDinv (F := Ideal) dst) := by
  intro i
  have hz : ∀ j, (broadcastInDim Cert.KernelIdeal.S50000 ![] Cert.KernelIdeal.Gen.bcast_S_S50000 (constant (F := Ideal) Cert.KernelIdeal.S_ .f32 0x00000000#32) : FVec Ideal Cert.KernelIdeal.S50000 .f32) j = (0 : EReal) :=
    fun j => by rw [RowLayout.spread_apply, constant_apply, Ideal.ofBits_zero_f32]
  have hu : ∀ j, (broadcastInDim Cert.KernelIdeal.S800000 ![] Cert.KernelIdeal.Gen.bcast_S_S800000 (constant (F := Ideal) Cert.KernelIdeal.S_ .f32 0x3F800000#32) : FVec Ideal Cert.KernelIdeal.S800000 .f32) j = (1 : EReal) :=
    fun j => by rw [RowLayout.spread_apply, constant_apply, Cert.Alg.ofBits_one]
  have ho : (broadcastInDim Cert.KernelIdeal.S50000 ![] Cert.KernelIdeal.Gen.bcast_S_S50000 (constant (F := Ideal) Cert.KernelIdeal.S_ .f32 0x3F800000#32) : FVec Ideal Cert.KernelIdeal.S50000 .f32) i = (1 : EReal) := by
    rw [RowLayout.spread_apply, constant_apply, Cert.Alg.ofBits_one]
  obtain ⟨t, _, e⟩ := Cert.Alg.dinv_real (φ := .f32) Cert.KernelIdeal.scatter_S50000_S800000x1_S800000_n_0_0_1 _
    (broadcastInDim Cert.KernelIdeal.S800000x1 ![0] Cert.KernelIdeal.Gen.bcast_S800000_S800000x1_0 dst) _ hz hu ho i
  unfold kDinv
  rw [hostRsqrt_apply, addf_apply]
  exact ⟨t, e⟩

theorem isReal_kDinv2 (dinv : (⟨Cert.KernelIdeal.S50000, .f32⟩ : BufTy).Contents (Elt Ideal)) (hd : IsReal dinv) : IsReal (kDinv2 (F := Ideal) dinv) := by
  unfold kDinv2
  exact Cert.Alg.isReal_mulf _ _ hd hd

/-- The edge coefficients are real-valued, whatever the indices. -/
theorem isReal_kNorm (dinv : (⟨Cert.KernelIdeal.S50000, .f32⟩ : BufTy).Contents (Elt Ideal)) (src dst : (⟨Cert.KernelIdeal.S800000, .i32⟩ : BufTy).Contents (Elt Ideal)) (hd : IsReal dinv) :
    IsReal (kNorm (F := Ideal) dinv src dst) := by
  unfold kNorm
  exact Cert.Alg.isReal_mulf _ _ (isReal_gather _ _ _ hd) (isReal_gather _ _ _ hd)

/-- The aggregate with the self term is real-valued. -/
theorem isReal_kAggSelf (hw : (⟨Cert.KernelIdeal.S50000x64, .f32⟩ : BufTy).Contents (Elt Ideal)) (src dst : (⟨Cert.KernelIdeal.S800000, .i32⟩ : BufTy).Contents (Elt Ideal)) (norm : (⟨Cert.KernelIdeal.S800000, .f32⟩ : BufTy).Contents (Elt Ideal))
    (dinv2 : (⟨Cert.KernelIdeal.S50000, .f32⟩ : BufTy).Contents (Elt Ideal)) (hhw : IsReal hw) (hnorm : IsReal norm) (hd2 : IsReal dinv2) :
    IsReal (kAggSelf (F := Ideal) hw src dst norm dinv2) := by
  unfold kAggSelf kAgg
  exact Cert.Alg.isReal_aggregate _ _ hw _ _ _ _ _ hhw
    (Cert.Alg.isReal_broadcastInDim (φ := .f32) _ _ _ Cert.Alg.isReal_constant_zero)
    (Cert.Alg.isReal_broadcastInDim (φ := .f32) _ _ _ (Cert.Alg.isReal_broadcastInDim (φ := .f32) _ _ (norm : FVec Ideal Cert.KernelIdeal.S800000 .f32) hnorm))
    (Cert.Alg.isReal_broadcastInDim (φ := .f32) _ _ _ (Cert.Alg.isReal_broadcastInDim (φ := .f32) _ _ (dinv2 : FVec Ideal Cert.KernelIdeal.S50000 .f32) hd2))

/-- The matrix product of real-valued arrays is real-valued. -/
theorem isReal_hw (h : (⟨Cert.ReferenceIdeal.S50000x64, .f32⟩ : BufTy).Contents (Elt Ideal)) (W : (⟨Cert.ReferenceIdeal.S64x64, .f32⟩ : BufTy).Contents (Elt Ideal)) (hh : IsReal h) (hW : IsReal W) : IsReal (f_hw h W) := fun (i : Cert.ReferenceIdeal.S50000x64.Idx) => by
  obtain ⟨p, n, rfl⟩ : ∃ (p : Fin 50000) (n : Fin 64), i = ix2 p n := ⟨i 0, i 1, eq_ix2 i⟩
  rw [hw_apply]
  exact sum_isReal Finset.univ _ ((Cert.Alg.IsReal.comp hh fun k => ix2 p k).mul (Cert.Alg.IsReal.comp hW fun k => ix2 k n))

/-- The pre-normalisation array is real-valued. -/
theorem isReal_cConv (x : Cert.KernelIdeal.S50000x64.Idx → Elt Ideal .f32) (b : Cert.KernelIdeal.S1x64.Idx → Elt Ideal .f32) (hx : IsReal x) (hb : IsReal b) : IsReal (cConv x b) :=
  hx.add (Cert.Alg.IsReal.comp hb fun (i : Cert.KernelIdeal.S50000x64.Idx) => ix2 (0 : Fin 1) (i 1 : Fin 64))

end Real

/-! ## The layer -/

section Layer
open FiniteArrays

/-- The kernel's layer output: the normalisation region's value function on the bias-and-statistics region's outputs. -/
def kLayer (agg : Cert.KernelIdeal.S50000x64.Idx → Elt Ideal .f32) (biasRow gammaRow betaRow : Cert.KernelIdeal.S1x64.Idx → Elt Ideal .f32) : Cert.KernelIdeal.S50000x64.Idx → Elt Ideal .f32 :=
  G2_3 (cConv agg biasRow)
    (kScale (F := Ideal) (cSum (cConv agg biasRow)) (cSumSq (cConv agg biasRow)) gammaRow)
    (kShift (F := Ideal) (cSum (cConv agg biasRow)) (cSumSq (cConv agg biasRow)) gammaRow betaRow)

/-- The reference's layer output from its pre-normalisation array: batch normalisation, then the rectifier. -/
def rLayer (conv : (⟨Cert.ReferenceIdeal.S50000x64, .f32⟩ : BufTy).Contents (Elt Ideal)) (gamma beta : (⟨Cert.ReferenceIdeal.S64, .f32⟩ : BufTy).Contents (Elt Ideal)) : (⟨Cert.ReferenceIdeal.S50000x64, .f32⟩ : BufTy).Contents (Elt Ideal) :=
  f_relu (f_bn conv (f_mean conv) (f_var conv) gamma beta)

/-- The pre-normalisation arrays agree: the reference's is the kernel's aggregate plus the bias row's entry of the column. -/
theorem conv_bridge (hw : (⟨Cert.KernelIdeal.S50000x64, .f32⟩ : BufTy).Contents (Elt Ideal)) (src dst : (⟨Cert.KernelIdeal.S800000, .i32⟩ : BufTy).Contents (Elt Ideal)) (norm : (⟨Cert.KernelIdeal.S800000, .f32⟩ : BufTy).Contents (Elt Ideal))
    (dinv : (⟨Cert.KernelIdeal.S50000, .f32⟩ : BufTy).Contents (Elt Ideal)) (bias : (⟨Cert.KernelIdeal.S64, .f32⟩ : BufTy).Contents (Elt Ideal)) (biasRow : Cert.KernelIdeal.S1x64.Idx → Elt Ideal .f32)
    (eb : ∀ c : Fin 64, biasRow (ix2 (0 : Fin 1) c) = bias (ix1 c)) :
    f_conv (f_agg dst hw src norm) hw dinv bias = cConv (kAggSelf (F := Ideal) hw src dst norm (kDinv2 (F := Ideal) dinv)) biasRow := by
  rw [conv_eq]
  funext i
  obtain ⟨p, c, rfl⟩ : ∃ (p : Fin 50000) (c : Fin 64), i = ix2 p c := ⟨i 0, i 1, eq_ix2 i⟩
  rw [conv0_apply, aux_v49_apply, ← eb c]
  rfl

/-- The normalisation: on a real-valued array the kernel's folded affine form with scale and shift from the column sums
    is the reference's centred form, entry by entry. -/
theorem norm_bridge (conv : Cert.KernelIdeal.S50000x64.Idx → Elt Ideal .f32) (hconv : IsReal conv) (gamma beta : (⟨Cert.ReferenceIdeal.S64, .f32⟩ : BufTy).Contents (Elt Ideal))
    (hg : IsReal gamma) (hbt : IsReal beta) (gammaRow betaRow : Cert.KernelIdeal.S1x64.Idx → Elt Ideal .f32)
    (eg : ∀ c : Fin 64, gammaRow (ix2 (0 : Fin 1) c) = gamma (ix1 c))
    (ebt : ∀ c : Fin 64, betaRow (ix2 (0 : Fin 1) c) = beta (ix1 c)) :
    G2_3 conv (kScale (F := Ideal) (cSum conv) (cSumSq conv) gammaRow) (kShift (F := Ideal) (cSum conv) (cSumSq conv) gammaRow betaRow)
      = rLayer conv gamma beta := by
  funext i
  obtain ⟨p, c, rfl⟩ : ∃ (p : Fin 50000) (c : Fin 64), i = ix2 p c := ⟨i 0, i 1, eq_ix2 i⟩
  show max (conv (ix2 p c) * kScale (F := Ideal) (cSum conv) (cSumSq conv) gammaRow (ix2 (0 : Fin 1) c)
      + kShift (F := Ideal) (cSum conv) (cSumSq conv) gammaRow betaRow (ix2 (0 : Fin 1) c)) 0 = _
  rw [kScale_cSum, kShift_cSum, eg c, ebt c]
  unfold rLayer
  rw [relu_apply, bn_apply, mean_apply, var_apply]
  exact Cert.Alg.folded_eq_centred Cert.Alg.card_fin rfl Cert.Alg.ofBits_eps (col conv c) (fun r => hconv _)
    (hg (ix1 c)) (hbt (ix1 c)) p

/-- The reference's layer output is real-valued and nonnegative. -/
theorem rLayer_real (conv : (⟨Cert.ReferenceIdeal.S50000x64, .f32⟩ : BufTy).Contents (Elt Ideal)) (hconv : IsReal conv) (gamma beta : (⟨Cert.ReferenceIdeal.S64, .f32⟩ : BufTy).Contents (Elt Ideal))
    (hg : IsReal gamma) (hbt : IsReal beta) (i : Cert.ReferenceIdeal.S50000x64.Idx) :
    ∃ y : ℝ, 0 ≤ y ∧ rLayer conv gamma beta i = (y : EReal) := by
  obtain ⟨p, c, rfl⟩ : ∃ (p : Fin 50000) (c : Fin 64), i = ix2 p c := ⟨i 0, i 1, eq_ix2 i⟩
  unfold rLayer
  rw [relu_apply, bn_apply, mean_apply, var_apply]
  exact Cert.Alg.centred_real rfl Cert.Alg.ofBits_eps (col conv c) (fun r => hconv _) (hg (ix1 c)) (hbt (ix1 c)) p

theorem isReal_rLayer (conv : (⟨Cert.ReferenceIdeal.S50000x64, .f32⟩ : BufTy).Contents (Elt Ideal)) (hconv : IsReal conv) (gamma beta : (⟨Cert.ReferenceIdeal.S64, .f32⟩ : BufTy).Contents (Elt Ideal))
    (hg : IsReal gamma) (hbt : IsReal beta) : IsReal (rLayer conv gamma beta) := fun (i : Cert.ReferenceIdeal.S50000x64.Idx) => by
  obtain ⟨y, _, e⟩ := rLayer_real conv hconv gamma beta hg hbt i
  exact ⟨y, e⟩

/-- One layer: from a real-valued product, edge and node coefficients and parameter vectors, and ANY index vectors, the
    kernel's layer output is the reference's, and it is real-valued. The kernel's three rows are any `[1, 64]` arrays that
    read as the parameter vectors at every column. -/
theorem layer_bridge (hw : (⟨Cert.KernelIdeal.S50000x64, .f32⟩ : BufTy).Contents (Elt Ideal)) (src dst : (⟨Cert.KernelIdeal.S800000, .i32⟩ : BufTy).Contents (Elt Ideal)) (norm : (⟨Cert.KernelIdeal.S800000, .f32⟩ : BufTy).Contents (Elt Ideal))
    (dinv : (⟨Cert.KernelIdeal.S50000, .f32⟩ : BufTy).Contents (Elt Ideal)) (bias gamma beta : (⟨Cert.KernelIdeal.S64, .f32⟩ : BufTy).Contents (Elt Ideal)) (biasRow gammaRow betaRow : Cert.KernelIdeal.S1x64.Idx → Elt Ideal .f32)
    (hhw : IsReal hw) (hnorm : IsReal norm) (hdinv : IsReal dinv) (hbias : IsReal bias) (hg : IsReal gamma) (hbt : IsReal beta)
    (eb : ∀ c : Fin 64, biasRow (ix2 (0 : Fin 1) c) = bias (ix1 c))
    (eg : ∀ c : Fin 64, gammaRow (ix2 (0 : Fin 1) c) = gamma (ix1 c))
    (ebt : ∀ c : Fin 64, betaRow (ix2 (0 : Fin 1) c) = beta (ix1 c)) :
    kLayer (kAggSelf (F := Ideal) hw src dst norm (kDinv2 (F := Ideal) dinv)) biasRow gammaRow betaRow
        = rLayer (f_conv (f_agg dst hw src norm) hw dinv bias) gamma beta
      ∧ IsReal (rLayer (f_conv (f_agg dst hw src norm) hw dinv bias) gamma beta) := by
  have hagg : IsReal (kAggSelf (F := Ideal) hw src dst norm (kDinv2 (F := Ideal) dinv)) :=
    isReal_kAggSelf hw src dst norm _ hhw hnorm (isReal_kDinv2 dinv hdinv)
  have hrow : IsReal biasRow := fun (j : Cert.KernelIdeal.S1x64.Idx) => by
    obtain ⟨u, c, rfl⟩ : ∃ (u : Fin 1) (c : Fin 64), j = ix2 u c := ⟨j 0, j 1, eq_ix2 j⟩
    obtain rfl : u = 0 := Subsingleton.elim _ _
    rw [eb c]; exact hbias _
  have hconv := isReal_cConv _ _ hagg hrow
  rw [conv_bridge hw src dst norm dinv bias biasRow eb]
  exact ⟨norm_bridge _ hconv gamma beta hg hbt gammaRow betaRow eg ebt, isReal_rLayer _ hconv gamma beta hg hbt⟩

/-- A `[64]` vector raised to a `[1, 64]` row by a reshape reads, at the column, the vector's entry: the hypothesis the
    layer asks of the kernel's three rows. -/
theorem rowCast_apply (v : (⟨Cert.KernelIdeal.S64, .f32⟩ : BufTy).Contents (Elt Ideal)) (c : Fin 64) :
    shapeCast Cert.KernelIdeal.S1x64 v Cert.KernelIdeal.Gen.shapeCasts_S64_S1x64 (ix2 (0 : Fin 1) c) = v (ix1 c) :=
  shapeCast_a_1a_apply v _ 0 c

end Layer

end Cert.Bridge

end
-- ==== Proof.Bridge.Head.lean ====
/-
  The head: the final region's value is the reference's three dense layers.

  The reference multiplies the pooled array by the first weight matrix, adds the first bias lifted to a row and repeated
  over the rows, takes the maximum with zero, does the same with the second pair, and multiplies by the `[64, 1]` column
  and adds the scalar bias. Read at an entry each matrix product is the sum over the contracted axis of the products and
  each lifted bias is the vector's entry of the column; so the composition is, entry by entry, the value function of the
  final region applied to the same pooled array and weights and to the biases raised to rows. Only sums, products and
  maxima are involved: nothing has to be finite.
-/
import Mathlib.Tactic
import Idealize.ShloMosaic.PureOps.Ideal
import Idealize.ShloMosaic.PureOps.Ideal.Laws
import Idealize.ShloMosaic.Lib.ValueIdx
import Idealize.ShloMosaic.Lib.ValueLayout
import proofs.«113306_j49254684950634_1_alg».proof.Proof.Ref.Stages
import proofs.«113306_j49254684950634_1_alg».proof.Proof.KI.Val12
import proofs.«113306_j49254684950634_1_alg».proof.Proof.KI.Host12
import proofs.«113306_j49254684950634_1_alg».proof.Proof.LibDotNN
import proofs.«113306_j49254684950634_1_alg».proof.Proof.LibRowLayout

noncomputable section

namespace Cert.Bridge

open Idealize.ShloMosaic Idealize.ShloMosaic.ValueIdx
open Cert.ReferenceIdeal.RefRun Cert.KernelIdeal.HandVal

variable [Cert.ReferenceIdeal.Facts]

/-- A `[64]` vector raised to a `[1, 64]` row reads, at the column, the vector's entry. -/
theorem kRowOf_apply (p : (⟨Cert.KernelIdeal.S64, .f32⟩ : BufTy).Contents (Elt Ideal)) (u : Fin 1) (c : Fin 64) : kRowOf (F := Ideal) p (ix2 u c) = p (ix1 c) :=
  shapeCast_a_1a_apply p _ u c

/-- A `[1]` vector raised to a `[1, 1]` array reads its one entry. -/
theorem kCellOf_apply (p : (⟨Cert.KernelIdeal.S1, .f32⟩ : BufTy).Contents (Elt Ideal)) (u : Fin 1) (c : Fin 1) : kCellOf (F := Ideal) p (ix2 u c) = p (ix1 c) :=
  shapeCast_a_1a_apply p _ u c

theorem mm_apply (x : (⟨Cert.ReferenceIdeal.S1024x64, .f32⟩ : BufTy).Contents (Elt Ideal)) (W : (⟨Cert.ReferenceIdeal.S64x64, .f32⟩ : BufTy).Contents (Elt Ideal)) (p : Fin 1024) (n : Fin 64) :
    f_mm x W (ix2 p n) = ∑ k : Fin 64, x (ix2 p k) * W (ix2 k n) :=
  Cert.LibDotNN.dotGeneral_apply Cert.ReferenceIdeal.dot_S1024x64_S64x64_S1024x64_1_0_0_1_n_n rfl none x W p n

theorem mm3_apply (x : (⟨Cert.ReferenceIdeal.S1024x64, .f32⟩ : BufTy).Contents (Elt Ideal)) (W : (⟨Cert.ReferenceIdeal.S64x1, .f32⟩ : BufTy).Contents (Elt Ideal)) (p : Fin 1024) (n : Fin 1) :
    f_mm3 x W (ix2 p n) = ∑ k : Fin 64, x (ix2 p k) * W (ix2 k n) :=
  Cert.LibDotNN.dotGeneral_apply Cert.ReferenceIdeal.dot_S1024x64_S64x1_S1024x1_1_0_0_1_n_n rfl none x W p n

theorem lin1_apply (x : (⟨Cert.ReferenceIdeal.S1024x64, .f32⟩ : BufTy).Contents (Elt Ideal)) (b : (⟨Cert.ReferenceIdeal.S64, .f32⟩ : BufTy).Contents (Elt Ideal)) (p : Fin 1024) (c : Fin 64) :
    f_lin1 x b (ix2 p c) = x (ix2 p c) + b (ix1 c) := by
  unfold f_lin1
  rw [addf_apply, RowLayout.repeatRow_apply, RowLayout.liftRow_apply]

theorem act_apply (x : (⟨Cert.ReferenceIdeal.S1024x64, .f32⟩ : BufTy).Contents (Elt Ideal)) (i : Cert.ReferenceIdeal.S1024x64.Idx) : f_act x i = max (x i) 0 := by
  unfold f_act
  rw [maximumf_apply, RowLayout.spread_apply, constant_apply, Ideal.ofBits_zero_f32]

theorem out_apply (x : (⟨Cert.ReferenceIdeal.S1024x1, .f32⟩ : BufTy).Contents (Elt Ideal)) (b : (⟨Cert.ReferenceIdeal.S1, .f32⟩ : BufTy).Contents (Elt Ideal)) (p : Fin 1024) (n : Fin 1) :
    f_out x b (ix2 p n) = x (ix2 p n) + b (ix1 n) := by
  unfold f_out
  rw [addf_apply, RowLayout.repeatRow_apply, RowLayout.liftRow_apply]

/-- One hidden layer of the reference is the region's hidden layer, for a row that reads as the bias vector. -/
theorem hidden_eq (x : (⟨Cert.ReferenceIdeal.S1024x64, .f32⟩ : BufTy).Contents (Elt Ideal)) (W : (⟨Cert.ReferenceIdeal.S64x64, .f32⟩ : BufTy).Contents (Elt Ideal)) (b : (⟨Cert.ReferenceIdeal.S64, .f32⟩ : BufTy).Contents (Elt Ideal))
    (brow : (⟨Cert.ReferenceIdeal.S1x64, .f32⟩ : BufTy).Contents (Elt Ideal)) (e : ∀ c : Fin 64, brow (ix2 (0 : Fin 1) c) = b (ix1 c)) :
    f_act (f_lin1 (f_mm x W) b) = layer12 x W brow := by
  funext i
  obtain ⟨p, c, rfl⟩ : ∃ (p : Fin 1024) (c : Fin 64), i = ix2 p c := ⟨i 0, i 1, eq_ix2 i⟩
  rw [act_apply, lin1_apply, mm_apply, ← e c]
  rfl

/-- The head: the reference's three dense layers are the final region's value function. -/
theorem head_bridge (pooled : (⟨Cert.ReferenceIdeal.S1024x64, .f32⟩ : BufTy).Contents (Elt Ideal)) (W1 W2 : (⟨Cert.ReferenceIdeal.S64x64, .f32⟩ : BufTy).Contents (Elt Ideal)) (W3 : (⟨Cert.ReferenceIdeal.S64x1, .f32⟩ : BufTy).Contents (Elt Ideal))
    (b1 b2 : (⟨Cert.ReferenceIdeal.S64, .f32⟩ : BufTy).Contents (Elt Ideal)) (b3 : (⟨Cert.ReferenceIdeal.S1, .f32⟩ : BufTy).Contents (Elt Ideal)) (b1row b2row : (⟨Cert.ReferenceIdeal.S1x64, .f32⟩ : BufTy).Contents (Elt Ideal)) (b3cell : (⟨Cert.ReferenceIdeal.S1x1, .f32⟩ : BufTy).Contents (Elt Ideal))
    (e1 : ∀ c : Fin 64, b1row (ix2 (0 : Fin 1) c) = b1 (ix1 c)) (e2 : ∀ c : Fin 64, b2row (ix2 (0 : Fin 1) c) = b2 (ix1 c))
    (e3 : b3cell (ix2 (0 : Fin 1) (0 : Fin 1)) = b3 (ix1 (0 : Fin 1))) :
    G12_7 pooled W1 b1row W2 b2row W3 b3cell
      = f_out (f_mm3 (f_act (f_lin1 (f_mm (f_act (f_lin1 (f_mm pooled W1) b1)) W2) b2)) W3) b3 := by
  funext i
  obtain ⟨p, n, rfl⟩ : ∃ (p : Fin 1024) (n : Fin 1), i = ix2 p n := ⟨i 0, i 1, eq_ix2 i⟩
  obtain rfl : n = 0 := Subsingleton.elim _ _
  rw [out_apply, mm3_apply, hidden_eq _ W2 b2 b2row e2, hidden_eq pooled W1 b1 b1row e1, ← e3]
  rfl

/-- The same with the kernel's own raised biases. -/
theorem head_bridge' (pooled : (⟨Cert.ReferenceIdeal.S1024x64, .f32⟩ : BufTy).Contents (Elt Ideal)) (W1 W2 : (⟨Cert.ReferenceIdeal.S64x64, .f32⟩ : BufTy).Contents (Elt Ideal)) (W3 : (⟨Cert.ReferenceIdeal.S64x1, .f32⟩ : BufTy).Contents (Elt Ideal))
    (b1 b2 : (⟨Cert.ReferenceIdeal.S64, .f32⟩ : BufTy).Contents (Elt Ideal)) (b3 : (⟨Cert.ReferenceIdeal.S1, .f32⟩ : BufTy).Contents (Elt Ideal)) :
    G12_7 pooled W1 (kRowOf (F := Ideal) b1) W2 (kRowOf (F := Ideal) b2) W3 (kCellOf (F := Ideal) b3)
      = f_out (f_mm3 (f_act (f_lin1 (f_mm (f_act (f_lin1 (f_mm pooled W1) b1)) W2) b2)) W3) b3 :=
  head_bridge pooled W1 W2 W3 b1 b2 b3 _ _ _ (fun c => kRowOf_apply b1 0 c) (fun c => kRowOf_apply b2 0 c) (kCellOf_apply b3 0 0)

end Cert.Bridge

end
-- ==== Proof.Ref.Join.lean ====
import proofs.«113306_j49254684950634_1_alg».proof.Proof.Ref.Stages

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! Where the program's division into windows falls inside a stage, the stage's two pieces composed are the
    stage function of the other layers: the same operations in the same order. -/

attribute [local irreducible] Host.reduceAdd Host.gather Host.scatterAdd in
theorem conv0_join (q_agg : (⟨S50000x64, .f32⟩ : BufTy).Contents (Elt F)) (q_hw : (⟨S50000x64, .f32⟩ : BufTy).Contents (Elt F)) (q_dinv : (⟨S50000, .f32⟩ : BufTy).Contents (Elt F)) (q_bias : (⟨S64, .f32⟩ : BufTy).Contents (Elt F)) :
    f_conv0 (f_aux_v48 q_agg q_hw q_dinv) (f_aux_v49 q_bias) = f_conv q_agg q_hw q_dinv q_bias := rfl

attribute [local irreducible] Host.reduceAdd Host.gather Host.scatterAdd in
theorem norm1_join (q_dinv : (⟨S50000, .f32⟩ : BufTy).Contents (Elt F)) (q_src : (⟨S800000, .i32⟩ : BufTy).Contents (Elt F)) (q_dst : (⟨S800000, .i32⟩ : BufTy).Contents (Elt F)) :
    f_norm1 (f_aux_v94 q_dinv q_src) q_dinv (f_aux_v96 q_dst) (f_aux_v98 q_dst) q_dst = f_norm q_dinv q_src q_dst := rfl

attribute [local irreducible] Host.reduceAdd Host.gather Host.scatterAdd in
theorem mean2_join (q_conv : (⟨S50000x64, .f32⟩ : BufTy).Contents (Elt F)) :
    f_mean2 (f_aux_v200 q_conv) = f_mean q_conv := rfl

attribute [local irreducible] Host.reduceAdd Host.gather Host.scatterAdd in
theorem agg3_join (q_dst : (⟨S800000, .i32⟩ : BufTy).Contents (Elt F)) (q_hw : (⟨S50000x64, .f32⟩ : BufTy).Contents (Elt F)) (q_src : (⟨S800000, .i32⟩ : BufTy).Contents (Elt F)) (q_norm : (⟨S800000, .f32⟩ : BufTy).Contents (Elt F)) :
    f_agg3 q_dst q_hw (f_aux_v96 q_src) q_src (f_aux_c_48) q_norm = f_agg q_dst q_hw q_src q_norm := rfl

attribute [local irreducible] Host.reduceAdd Host.gather Host.scatterAdd in
theorem lin2_join (q_mm : (⟨S1024x64, .f32⟩ : BufTy).Contents (Elt F)) (q_arg10 : (⟨S64, .f32⟩ : BufTy).Contents (Elt F)) :
    f_lin2 q_mm (f_aux_v302 q_arg10) = f_lin1 q_mm q_arg10 := rfl

end Cert.ReferenceIdeal.RefRun

end
-- ==== Proof.Bridge.Final.lean ====
/-
  The two programs compute the same result on real-valued arguments.

  The kernel's result is, by its regions' value functions and its host stretches, four layers, a pooled sum and three
  dense layers, each a function of the previous one; the reference's named values have the same shape. Layer by layer the
  kernel's output equals the reference's and is real-valued — which is what the next layer needs —, starting from the
  real-valued features; the index vectors, the degree's reciprocal square root and the edge coefficients are the same
  compositions on both sides; and the head needs no finiteness.
-/
import Mathlib.Tactic
import Idealize.ShloMosaic.PureOps.Ideal
import Idealize.ShloMosaic.PureOps.Ideal.Laws
import Idealize.ShloMosaic.Lib.ValueIdx
import Idealize.ShloMosaic.Lib.ValueLayout
import proofs.«113306_j49254684950634_1_alg».proof.Proof.Bridge.Layer
import proofs.«113306_j49254684950634_1_alg».proof.Proof.Bridge.Head
import proofs.«113306_j49254684950634_1_alg».proof.Proof.KI.KOut
import proofs.«113306_j49254684950634_1_alg».proof.Proof.Ref.Values
import proofs.«113306_j49254684950634_1_alg».proof.Proof.Ref.Join
import proofs.«113306_j49254684950634_1_alg».proof.Proof.Alg.PreFinite

noncomputable section

namespace Cert.Bridge

open Idealize.ShloMosaic Idealize.ShloMosaic.ValueIdx
open Cert.ReferenceIdeal.RefRun Cert.KernelIdeal.HandVal

variable [Cert.ReferenceIdeal.Facts]

/-! ## The whole network -/

section Final
open FiniteArrays

/-- A slice and a reshape only re-read entries: the parameter matrices and vectors of real-valued arguments are real-valued. -/
theorem isReal_W0 (a3 : (⟨Cert.ReferenceIdeal.S4x64x64, .f32⟩ : BufTy).Contents (Elt Ideal)) (h : IsReal a3) : IsReal (f_W0 a3) := fun (j : Cert.ReferenceIdeal.S64x64.Idx) => h _
theorem isReal_row0 (p : (⟨Cert.ReferenceIdeal.S4x64, .f32⟩ : BufTy).Contents (Elt Ideal)) (h : IsReal p) : IsReal (f_row0 p) := fun (j : Cert.ReferenceIdeal.S64.Idx) => h _
theorem isReal_W1 (a3 : (⟨Cert.ReferenceIdeal.S4x64x64, .f32⟩ : BufTy).Contents (Elt Ideal)) (h : IsReal a3) : IsReal (f_W1 a3) := fun (j : Cert.ReferenceIdeal.S64x64.Idx) => h _
theorem isReal_row1 (p : (⟨Cert.ReferenceIdeal.S4x64, .f32⟩ : BufTy).Contents (Elt Ideal)) (h : IsReal p) : IsReal (f_row1 p) := fun (j : Cert.ReferenceIdeal.S64.Idx) => h _
theorem isReal_W2 (a3 : (⟨Cert.ReferenceIdeal.S4x64x64, .f32⟩ : BufTy).Contents (Elt Ideal)) (h : IsReal a3) : IsReal (f_W2 a3) := fun (j : Cert.ReferenceIdeal.S64x64.Idx) => h _
theorem isReal_row2 (p : (⟨Cert.ReferenceIdeal.S4x64, .f32⟩ : BufTy).Contents (Elt Ideal)) (h : IsReal p) : IsReal (f_row2 p) := fun (j : Cert.ReferenceIdeal.S64.Idx) => h _
theorem isReal_W3 (a3 : (⟨Cert.ReferenceIdeal.S4x64x64, .f32⟩ : BufTy).Contents (Elt Ideal)) (h : IsReal a3) : IsReal (f_W3 a3) := fun (j : Cert.ReferenceIdeal.S64x64.Idx) => h _
theorem isReal_row3 (p : (⟨Cert.ReferenceIdeal.S4x64, .f32⟩ : BufTy).Contents (Elt Ideal)) (h : IsReal p) : IsReal (f_row3 p) := fun (j : Cert.ReferenceIdeal.S64.Idx) => h _

attribute [local irreducible] Host.reduceAdd Host.gather Host.scatterAdd in
/-- The kernel's layer function is the normalisation region's value function on the aggregate of the matrix product. -/
theorem kLayer_unfold (h : Cert.KernelIdeal.S50000x64.Idx → Elt Ideal .f32) (W : Cert.KernelIdeal.S64x64.Idx → Elt Ideal .f32) (b g bt : Cert.KernelIdeal.S1x64.Idx → Elt Ideal .f32)
    (src dst : (⟨Cert.KernelIdeal.S800000, .i32⟩ : BufTy).Contents (Elt Ideal)) (norm : (⟨Cert.KernelIdeal.S800000, .f32⟩ : BufTy).Contents (Elt Ideal)) (d2 : (⟨Cert.KernelIdeal.S50000, .f32⟩ : BufTy).Contents (Elt Ideal)) :
    Cert.KernelIdeal.HandVal.kLayer h W b g bt src dst norm d2
      = Cert.Bridge.kLayer (kAggSelf (F := Ideal) (G0_2 h W) src dst norm d2) b g bt := rfl

/-- One layer of the two programs from the same real-valued features: equal outputs, real-valued. -/
theorem step (a1 : (⟨Cert.ReferenceIdeal.S2x800000, .i32⟩ : BufTy).Contents (Elt Ideal)) (h : (⟨Cert.ReferenceIdeal.S50000x64, .f32⟩ : BufTy).Contents (Elt Ideal)) (hh : IsReal h) (W : (⟨Cert.ReferenceIdeal.S64x64, .f32⟩ : BufTy).Contents (Elt Ideal)) (hW : IsReal W)
    (bias gamma beta : (⟨Cert.ReferenceIdeal.S64, .f32⟩ : BufTy).Contents (Elt Ideal)) (hb : IsReal bias) (hg : IsReal gamma) (hbt : IsReal beta)
    (brow grow btrow : Cert.KernelIdeal.S1x64.Idx → Elt Ideal .f32)
    (eb : ∀ c : Fin 64, brow (ix2 (0 : Fin 1) c) = bias (ix1 c)) (eg : ∀ c : Fin 64, grow (ix2 (0 : Fin 1) c) = gamma (ix1 c))
    (ebt : ∀ c : Fin 64, btrow (ix2 (0 : Fin 1) c) = beta (ix1 c)) :
    Cert.KernelIdeal.HandVal.kLayer h W brow grow btrow (kSrc (F := Ideal) a1) (kDst (F := Ideal) a1) (kNorm (F := Ideal) (kDinv (F := Ideal) (kDst (F := Ideal) a1)) (kSrc (F := Ideal) a1) (kDst (F := Ideal) a1)) (kDinv2 (F := Ideal) (kDinv (F := Ideal) (kDst (F := Ideal) a1)))
        = rLayer (f_conv (f_agg (f_dst a1) (f_hw h W) (f_src a1) (f_norm (f_dinv (f_dst a1)) (f_src a1) (f_dst a1))) (f_hw h W) (f_dinv (f_dst a1)) bias) gamma beta
      ∧ IsReal (rLayer (f_conv (f_agg (f_dst a1) (f_hw h W) (f_src a1) (f_norm (f_dinv (f_dst a1)) (f_src a1) (f_dst a1))) (f_hw h W) (f_dinv (f_dst a1)) bias) gamma beta) := by
  rw [kLayer_unfold, ← hw_eq, ← norm_eq (F := Ideal), ← dinv_eq (F := Ideal), ← src_eq (F := Ideal), ← dst_eq (F := Ideal)]
  exact layer_bridge (f_hw h W) (kSrc (F := Ideal) a1) (kDst (F := Ideal) a1)
    (kNorm (F := Ideal) (kDinv (F := Ideal) (kDst (F := Ideal) a1)) (kSrc (F := Ideal) a1) (kDst (F := Ideal) a1))
    (kDinv (F := Ideal) (kDst (F := Ideal) a1)) bias gamma beta brow grow btrow (isReal_hw h W hh hW)
    (isReal_kNorm _ _ _ (isReal_kDinv _)) (isReal_kDinv _) hb hg hbt eb eg ebt

/-- The kernel's four layer outputs, as the result function nests them. -/
def kH1 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) : Cert.KernelIdeal.S50000x64.Idx → Elt Ideal .f32 :=
  Cert.KernelIdeal.HandVal.kLayer a0 (kW0 (F := Ideal) a3) (kRow0 (F := Ideal) a4) (kRow0 (F := Ideal) a5) (kRow0 (F := Ideal) a6)
    (kSrc (F := Ideal) a1) (kDst (F := Ideal) a1) (kNorm (F := Ideal) (kDinv (F := Ideal) (kDst (F := Ideal) a1)) (kSrc (F := Ideal) a1) (kDst (F := Ideal) a1)) (kDinv2 (F := Ideal) (kDinv (F := Ideal) (kDst (F := Ideal) a1)))

def kH2 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) : Cert.KernelIdeal.S50000x64.Idx → Elt Ideal .f32 :=
  Cert.KernelIdeal.HandVal.kLayer (kH1 a0 a1 a3 a4 a5 a6) (kW1 (F := Ideal) a3) (kRow1 (F := Ideal) a4) (kRow1 (F := Ideal) a5) (kRow1 (F := Ideal) a6)
    (kSrc (F := Ideal) a1) (kDst (F := Ideal) a1) (kNorm (F := Ideal) (kDinv (F := Ideal) (kDst (F := Ideal) a1)) (kSrc (F := Ideal) a1) (kDst (F := Ideal) a1)) (kDinv2 (F := Ideal) (kDinv (F := Ideal) (kDst (F := Ideal) a1)))

def kH3 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) : Cert.KernelIdeal.S50000x64.Idx → Elt Ideal .f32 :=
  Cert.KernelIdeal.HandVal.kLayer (kH2 a0 a1 a3 a4 a5 a6) (kW2 (F := Ideal) a3) (kRow2 (F := Ideal) a4) (kRow2 (F := Ideal) a5) (kRow2 (F := Ideal) a6)
    (kSrc (F := Ideal) a1) (kDst (F := Ideal) a1) (kNorm (F := Ideal) (kDinv (F := Ideal) (kDst (F := Ideal) a1)) (kSrc (F := Ideal) a1) (kDst (F := Ideal) a1)) (kDinv2 (F := Ideal) (kDinv (F := Ideal) (kDst (F := Ideal) a1)))

def kH4 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) : Cert.KernelIdeal.S50000x64.Idx → Elt Ideal .f32 :=
  Cert.KernelIdeal.HandVal.kLayer (kH3 a0 a1 a3 a4 a5 a6) (kW3 (F := Ideal) a3) (kRow3 (F := Ideal) a4) (kRow3 (F := Ideal) a5) (kRow3 (F := Ideal) a6)
    (kSrc (F := Ideal) a1) (kDst (F := Ideal) a1) (kNorm (F := Ideal) (kDinv (F := Ideal) (kDst (F := Ideal) a1)) (kSrc (F := Ideal) a1) (kDst (F := Ideal) a1)) (kDinv2 (F := Ideal) (kDinv (F := Ideal) (kDst (F := Ideal) a1)))

attribute [local irreducible] Host.reduceAdd Host.gather Host.scatterAdd in
theorem kOut_eq (a0 : (⟨Cert.ReferenceIdeal.S50000x64, .f32⟩ : BufTy).Contents (Elt Ideal)) (a1 : (⟨Cert.ReferenceIdeal.S2x800000, .i32⟩ : BufTy).Contents (Elt Ideal)) (a2 : (⟨Cert.ReferenceIdeal.S50000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x1, .f32⟩ : BufTy).Contents (Elt Ideal)) (a12 : (⟨Cert.ReferenceIdeal.S1, .f32⟩ : BufTy).Contents (Elt Ideal)) :
    Cert.KernelIdeal.HandVal.kOut a0 a1 a2 a3 a4 a5 a6 a7 a8 a9 a10 a11 a12
      = G12_7 (kPool (F := Ideal) a2 (kH4 a0 a1 a3 a4 a5 a6)) a7 (kRowOf (F := Ideal) a8) a9 (kRowOf (F := Ideal) a10) a11 (kCellOf (F := Ideal) a12) := rfl

/-- The reference's four layer outputs: each is the batch-normalised, rectified pre-normalisation array of the layer. -/
theorem ref_relu0 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) :
    x_relu0 a0 a1 a3 a4 a5 a6 = rLayer (f_conv (f_agg (f_dst a1) (f_hw a0 (f_W0 a3)) (f_src a1) (f_norm (f_dinv (f_dst a1)) (f_src a1) (f_dst a1))) (f_hw a0 (f_W0 a3)) (f_dinv (f_dst a1)) (f_row0 a4)) (f_row0 a5) (f_row0 a6) := by
  unfold x_relu0 x_bn0 x_mean0 x_var0 x_conv0 x_aux_v48 x_aux_v49 x_agg0 x_norm0 x_hw0 x_dinv0 x_bias0 x_gamma0 x_beta0 x_W0 x_src x_dst rLayer
  rw [conv0_join]

theorem ref_relu1 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) :
    x_relu1 a0 a1 a3 a4 a5 a6 = rLayer (f_conv (f_agg (f_dst a1) (f_hw (x_relu0 a0 a1 a3 a4 a5 a6) (f_W1 a3)) (f_src a1) (f_norm (f_dinv (f_dst a1)) (f_src a1) (f_dst a1))) (f_hw (x_relu0 a0 a1 a3 a4 a5 a6) (f_W1 a3)) (f_dinv (f_dst a1)) (f_row1 a4)) (f_row1 a5) (f_row1 a6) := by
  unfold x_relu1 x_bn1 x_mean1 x_var1 x_conv1 x_agg1 x_norm1 x_aux_v94 x_aux_v96 x_aux_v98 x_hw1 x_dinv1 x_bias1 x_gamma1 x_beta1 x_W1 x_src x_dst rLayer
  rw [norm1_join]

theorem ref_relu2 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) :
    x_relu2 a0 a1 a3 a4 a5 a6 = rLayer (f_conv (f_agg (f_dst a1) (f_hw (x_relu1 a0 a1 a3 a4 a5 a6) (f_W2 a3)) (f_src a1) (f_norm (f_dinv (f_dst a1)) (f_src a1) (f_dst a1))) (f_hw (x_relu1 a0 a1 a3 a4 a5 a6) (f_W2 a3)) (f_dinv (f_dst a1)) (f_row2 a4)) (f_row2 a5) (f_row2 a6) := by
  unfold x_relu2 x_bn2 x_mean2 x_aux_v200 x_var2 x_conv2 x_agg2 x_norm2 x_hw2 x_dinv2 x_bias2 x_gamma2 x_beta2 x_W2 x_src x_dst rLayer
  rw [mean2_join]

theorem ref_relu3 (a0 : (⟨Cert.ReferenceIdeal.S50000x64, .f32⟩ : BufTy).Contents (Elt Ideal)) (a1 : (⟨Cert.ReferenceIdeal.S2x800000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) :
    x_relu3 a0 a1 a3 a4 a5 a6 = rLayer (f_conv (f_agg (f_dst a1) (f_hw (x_relu2 a0 a1 a3 a4 a5 a6) (f_W3 a3)) (f_src a1) (f_norm (f_dinv (f_dst a1)) (f_src a1) (f_dst a1))) (f_hw (x_relu2 a0 a1 a3 a4 a5 a6) (f_W3 a3)) (f_dinv (f_dst a1)) (f_row3 a4)) (f_row3 a5) (f_row3 a6) := by
  unfold x_relu3 x_bn3 x_mean3 x_var3 x_conv3 x_agg3 x_aux_v248 x_aux_c_48 x_norm3 x_hw3 x_dinv3 x_bias3 x_gamma3 x_beta3 x_W3 x_src x_dst rLayer
  rw [agg3_join]

/-- The two programs' results agree on real-valued arguments. -/
theorem final (a0 : (⟨Cert.ReferenceIdeal.S50000x64, .f32⟩ : BufTy).Contents (Elt Ideal)) (a1 : (⟨Cert.ReferenceIdeal.S2x800000, .i32⟩ : BufTy).Contents (Elt Ideal)) (a2 : (⟨Cert.ReferenceIdeal.S50000, .i32⟩ : BufTy).Contents (Elt Ideal)) (a3 : (⟨Cert.ReferenceIdeal.S4x64x64, .f32⟩ : BufTy).Contents (Elt Ideal)) (a4 : (⟨Cert.ReferenceIdeal.S4x64, .f32⟩ : BufTy).Contents (Elt Ideal)) (a5 : (⟨Cert.ReferenceIdeal.S4x64, .f32⟩ : BufTy).Contents (Elt Ideal)) (a6 : (⟨Cert.ReferenceIdeal.S4x64, .f32⟩ : BufTy).Contents (Elt Ideal)) (a7 : (⟨Cert.ReferenceIdeal.S64x64, .f32⟩ : BufTy).Contents (Elt Ideal)) (a8 : (⟨Cert.ReferenceIdeal.S64, .f32⟩ : BufTy).Contents (Elt Ideal)) (a9 : (⟨Cert.ReferenceIdeal.S64x64, .f32⟩ : BufTy).Contents (Elt Ideal)) (a10 : (⟨Cert.ReferenceIdeal.S64, .f32⟩ : BufTy).Contents (Elt Ideal)) (a11 : (⟨Cert.ReferenceIdeal.S64x1, .f32⟩ : BufTy).Contents (Elt Ideal)) (a12 : (⟨Cert.ReferenceIdeal.S1, .f32⟩ : BufTy).Contents (Elt Ideal))
    (hreal : Cert.Alg.ArgsReal a0 a3 a4 a5 a6 a7 a8 a9 a10 a11 a12) :
    Cert.KernelIdeal.HandVal.kOut a0 a1 a2 a3 a4 a5 a6 a7 a8 a9 a10 a11 a12 = refOut a0 a1 a2 a3 a4 a5 a6 a7 a8 a9 a10 a11 a12 := by
  have ha0 : IsReal a0 := hreal.arg0
  have ha3 : IsReal a3 := hreal.arg3
  have ha4 : IsReal a4 := hreal.arg4
  have ha5 : IsReal a5 := hreal.arg5
  have ha6 : IsReal a6 := hreal.arg6
  have E1 : kH1 a0 a1 a3 a4 a5 a6 = x_relu0 a0 a1 a3 a4 a5 a6 ∧ IsReal (x_relu0 a0 a1 a3 a4 a5 a6) := by
    rw [ref_relu0]
    unfold kH1
    rw [W0_eq (F := Ideal)]
    exact step a1 a0 ha0 (f_W0 a3) (isReal_W0 a3 ha3) (f_row0 a4) (f_row0 a5) (f_row0 a6)
      (isReal_row0 a4 ha4) (isReal_row0 a5 ha5) (isReal_row0 a6 ha6) _ _ _
      (fun c => by rw [row0_eq (F := Ideal)]; exact rowCast_apply _ c)
      (fun c => by rw [row0_eq (F := Ideal)]; exact rowCast_apply _ c)
      (fun c => by rw [row0_eq (F := Ideal)]; exact rowCast_apply _ c)
  have E2 : kH2 a0 a1 a3 a4 a5 a6 = x_relu1 a0 a1 a3 a4 a5 a6 ∧ IsReal (x_relu1 a0 a1 a3 a4 a5 a6) := by
    rw [ref_relu1]
    unfold kH2
    rw [E1.1, W1_eq (F := Ideal)]
    exact step a1 (x_relu0 a0 a1 a3 a4 a5 a6) E1.2 (f_W1 a3) (isReal_W1 a3 ha3) (f_row1 a4) (f_row1 a5) (f_row1 a6)
      (isReal_row1 a4 ha4) (isReal_row1 a5 ha5) (isReal_row1 a6 ha6) _ _ _
      (fun c => by rw [row1_eq (F := Ideal)]; exact rowCast_apply _ c)
      (fun c => by rw [row1_eq (F := Ideal)]; exact rowCast_apply _ c)
      (fun c => by rw [row1_eq (F := Ideal)]; exact rowCast_apply _ c)
  have E3 : kH3 a0 a1 a3 a4 a5 a6 = x_relu2 a0 a1 a3 a4 a5 a6 ∧ IsReal (x_relu2 a0 a1 a3 a4 a5 a6) := by
    rw [ref_relu2]
    unfold kH3
    rw [E2.1, W2_eq (F := Ideal)]
    exact step a1 (x_relu1 a0 a1 a3 a4 a5 a6) E2.2 (f_W2 a3) (isReal_W2 a3 ha3) (f_row2 a4) (f_row2 a5) (f_row2 a6)
      (isReal_row2 a4 ha4) (isReal_row2 a5 ha5) (isReal_row2 a6 ha6) _ _ _
      (fun c => by rw [row2_eq (F := Ideal)]; exact rowCast_apply _ c)
      (fun c => by rw [row2_eq (F := Ideal)]; exact rowCast_apply _ c)
      (fun c => by rw [row2_eq (F := Ideal)]; exact rowCast_apply _ c)
  have E4 : kH4 a0 a1 a3 a4 a5 a6 = x_relu3 a0 a1 a3 a4 a5 a6 ∧ IsReal (x_relu3 a0 a1 a3 a4 a5 a6) := by
    rw [ref_relu3]
    unfold kH4
    rw [E3.1, W3_eq (F := Ideal)]
    exact step a1 (x_relu2 a0 a1 a3 a4 a5 a6) E3.2 (f_W3 a3) (isReal_W3 a3 ha3) (f_row3 a4) (f_row3 a5) (f_row3 a6)
      (isReal_row3 a4 ha4) (isReal_row3 a5 ha5) (isReal_row3 a6 ha6) _ _ _
      (fun c => by rw [row3_eq (F := Ideal)]; exact rowCast_apply _ c)
      (fun c => by rw [row3_eq (F := Ideal)]; exact rowCast_apply _ c)
      (fun c => by rw [row3_eq (F := Ideal)]; exact rowCast_apply _ c)
  rw [kOut_eq, E4.1, pool_eq (F := Ideal)]
  unfold refOut x_out x_mm3 x_act2 x_lin2 x_aux_v302 x_mm2 x_act1 x_lin1 x_mm1 x_pool
  rw [lin2_join]
  exact head_bridge' _ a7 a9 a11 a8 a10 a12

end Final

end Cert.Bridge

end
-- ==== Proof.lean ====
/- The certificate's five claims for a four-layer graph convolution network — per layer a feature product, a degree-normalised
   neighbourhood aggregate with its self term and bias, batch normalisation and a rectifier — followed by a sum pool over
   graphs and a three-layer dense head, computed by thirteen tiled kernel regions among host operations, against the same
   network written with whole-array operations.
   At the ideal instance the two agree: the host chains around the regions are the same compositions of the same
   operations; a tiled product into a zero accumulator is the whole product; column sums accumulated over ten row blocks
   are the sums over all rows; and the kernel's batch normalisation — variance as the mean of squares minus the squared
   mean, applied as one multiplication by a scale and one addition of a shift — is the reference's centred form because
   every entry involved is a real number: the inputs are finite, every node's degree is at least one so its inverse square
   root is real, and a variance plus a positive constant has a real inverse square root. -/
import proofs.«113306_j49254684950634_1_alg».proof.Defs
import proofs.«113306_j49254684950634_1_alg».proof.Proof.Gen.Kernel
import proofs.«113306_j49254684950634_1_alg».proof.Proof.Gen.KernelIdeal
import proofs.«113306_j49254684950634_1_alg».proof.Proof.Gen.ReferenceIdeal
import proofs.«113306_j49254684950634_1_alg».proof.Proof.Gen.Pre_finite_inputs
import proofs.«113306_j49254684950634_1_alg».proof.Proof.K.Frame
import proofs.«113306_j49254684950634_1_alg».proof.Proof.KI.Frame
import proofs.«113306_j49254684950634_1_alg».proof.Proof.KI.Result
import proofs.«113306_j49254684950634_1_alg».proof.Proof.Ref.Run
import proofs.«113306_j49254684950634_1_alg».proof.Proof.Alg.PreFinite
import proofs.«113306_j49254684950634_1_alg».proof.Proof.Bridge.Final
import Idealize.ShloMosaic.Adequacy
import Idealize.ShloMosaic.Init

noncomputable section

namespace Cert.Proof

open Idealize.ShloMosaic Idealize.SL.Sem

/-- The word-level program runs to the end, faults nowhere and leaves its arguments as launched. -/
theorem frame_p : Cert.frame_Kernel := fun m ρ _ => Cert.Kernel.Hand.frame_main m ρ

/-- So does its reading at the ideal instance. -/
theorem frame_pi : Cert.frame_KernelIdeal := fun m ρ _ => Cert.KernelIdeal.Hand.frame_main m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both programs end with the same result: the kernel program's is its regions'
    and host stretches' composition of the arguments, the reference's its stages' composition, and the two compositions
    are one function of real-valued arguments. -/
theorem algebraic : Cert.algebraic_KernelIdeal_ReferenceIdeal := by
  intro m ρ m' ρ' hpre hagree
  refine ⟨fun c => Cert.KernelIdeal.Hand.outsStar m 26 Cert.KernelIdeal.main_v205 c, Cert.KernelIdeal.Hand.run_main m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12⟩ := hagree c
  rw [h0, h1, h2, h3, h4, h5, h6, h7, h8, h9, h10, h11, h12]
  exact ((Cert.KernelIdeal.HandVal.result m c).trans
    (Cert.Bridge.final _ _ _ _ _ _ _ _ _ _ _ _ _ (Cert.Alg.args_real _ _ _ _ _ _ _ _ _ _ _ _ _ (hpre c)))).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
